-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v275)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v275) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1662) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x128x128 : Shape := ⟨4, ![32, 3, 128, 128]⟩
abbrev S3x9 : Shape := ⟨2, ![3, 9]⟩
abbrev S_ : Shape := ⟨0, ![]⟩

class Facts : Prop where
  bcast_S_S32x3x128x128 : S_.BroadcastsInDim S32x3x128x128 (![] : Fin 0 → Fin S32x3x128x128.rank)
  reducesTo_S32x3x128x128_S_d0_1_2_3 : S32x3x128x128.ReducesTo [0, 1, 2, 3] S_
  h_S_ : 0 < S_.numel
  bcast_S_S3x9 : S_.BroadcastsInDim S3x9 (![] : Fin 0 → Fin S3x9.rank)
  reducesTo_S3x9_S_d0_1 : S3x9.ReducesTo [0, 1] S_

variable [Facts]

def fn {F : FTy → Type} [FloatOps F] (main_arg0 : FVec F S32x3x128x128 .f32) (main_arg1 : FVec F S3x9 .f32) : IVec S_ 1 :=
  let main_v0 : FVec F S32x3x128x128 .f32 := Host.absf main_arg0
  let main_cst : FVec F S_ .f32 := constant S_ .f32 0x7F800000#32
  let main_v1 : FVec F S32x3x128x128 .f32 := broadcastInDim S32x3x128x128 ![] bcast_S_S32x3x128x128 main_cst
  let main_v2 : IVec S32x3x128x128 1 := cmpf .olt main_v0 main_v1
  let main_c : IVec S_ 1 := constantI S_ 1 1#1
  let main_v3 : IVec S_ 1 := (fun x v => Host.reduce IntOp.andi x v reducesTo_S32x3x128x128_S_d0_1_2_3 h_S_) main_v2 main_c
  let main_v4 : FVec F S3x9 .f32 := Host.absf main_arg1
  let main_cst_0 : FVec F S_ .f32 := constant S_ .f32 0x7F800000#32
  let main_v5 : FVec F S3x9 .f32 := broadcastInDim S3x9 ![] bcast_S_S3x9 main_cst_0
  let main_v6 : IVec S3x9 1 := cmpf .olt main_v4 main_v5
  let main_c_1 : IVec S_ 1 := constantI S_ 1 1#1
  let main_v7 : IVec S_ 1 := (fun x v => Host.reduce IntOp.andi x v reducesTo_S3x9_S_d0_1 h_S_) main_v6 main_c_1
  let main_v8 : IVec S_ 1 := andi main_v3 main_v7
  main_v8
-- ==== Kernel.lean ====
abbrev S32x3x128x128 : Shape := ⟨4, ![32, 3, 128, 128]⟩
abbrev S3x9 : Shape := ⟨2, ![3, 9]⟩
abbrev S_ : Shape := ⟨0, ![]⟩
abbrev S32x3x130x130 : Shape := ⟨4, ![32, 3, 130, 130]⟩
abbrev S3x8 : Shape := ⟨2, ![3, 8]⟩
abbrev S3x1 : Shape := ⟨2, ![3, 1]⟩
abbrev S3 : Shape := ⟨1, ![3]⟩
abbrev S3x4x2x1 : Shape := ⟨4, ![3, 4, 2, 1]⟩
abbrev S3x1x1 : Shape := ⟨3, ![3, 1, 1]⟩
abbrev S3x4x1x1 : Shape := ⟨4, ![3, 4, 1, 1]⟩
abbrev S3x4x1 : Shape := ⟨3, ![3, 4, 1]⟩
abbrev S3x2x2x2 : Shape := ⟨4, ![3, 2, 2, 2]⟩
abbrev S3x2x1x2 : Shape := ⟨4, ![3, 2, 1, 2]⟩
abbrev S3x2x2 : Shape := ⟨3, ![3, 2, 2]⟩
abbrev S3x1x2x4 : Shape := ⟨4, ![3, 1, 2, 4]⟩
abbrev S3x1x1x4 : Shape := ⟨4, ![3, 1, 1, 4]⟩
abbrev S3x1x4 : Shape := ⟨3, ![3, 1, 4]⟩
abbrev S8 : Shape := ⟨1, ![8]⟩
abbrev S8x1 : Shape := ⟨2, ![8, 1]⟩
abbrev S32x4x128x128 : Shape := ⟨4, ![32, 4, 128, 128]⟩
abbrev S1x3x130x130 : Shape := ⟨4, ![1, 3, 130, 130]⟩
abbrev S1x4x128x128 : Shape := ⟨4, ![1, 4, 128, 128]⟩
abbrev S128x128 : Shape := ⟨2, ![128, 128]⟩
abbrev S1x1x130x130 : Shape := ⟨4, ![1, 1, 130, 130]⟩
abbrev S130x130 : Shape := ⟨2, ![130, 130]⟩
abbrev S1x1 : Shape := ⟨2, ![1, 1]⟩
abbrev S1x1x128x128 : Shape := ⟨4, ![1, 1, 128, 128]⟩

abbrev nBuf : Space → Nat
  | .hbm => 300
  | .vmem => 5
  | .smem => 0
  | _ => 0

abbrev hbmTy0_0 (i : Nat) : BufTy := match i % 128 with
  | 0 => ⟨S32x3x128x128, .f32⟩
  | 1 => ⟨S3x9, .f32⟩
  | 2 => ⟨S_, .i32⟩
  | 3 => ⟨S_, .f32⟩
  | 4 => ⟨S32x3x130x130, .f32⟩
  | 5 => ⟨S_, .f32⟩
  | 6 => ⟨S3x8, .f32⟩
  | 7 => ⟨S3x1, .f32⟩
  | 8 => ⟨S3, .f32⟩
  | 9 => ⟨S3x4x2x1, .f32⟩
  | 10 => ⟨S_, .f32⟩
  | 11 => ⟨S3, .f32⟩
  | 12 => ⟨S3, .f32⟩
  | 13 => ⟨S3, .f32⟩
  | 14 => ⟨S3x1x1, .f32⟩
  | 15 => ⟨S3, .f32⟩
  | 16 => ⟨S3x1x1, .f32⟩
  | 17 => ⟨S3x4x1x1, .f32⟩
  | 18 => ⟨S3x4x1, .f32⟩
  | 19 => ⟨S3x4x1x1, .f32⟩
  | 20 => ⟨S3x4x1, .f32⟩
  | 21 => ⟨S3x4x1, .f32⟩
  | 22 => ⟨S3x4x1, .f32⟩
  | 23 => ⟨S3x4x1, .f32⟩
  | 24 => ⟨S3x4x1, .f32⟩
  | 25 => ⟨S3x4x1, .f32⟩
  | 26 => ⟨S3x4x1, .f32⟩
  | 27 => ⟨S3x4x1, .f32⟩
  | 28 => ⟨S3x4x1, .f32⟩
  | 29 => ⟨S3x4x1, .f32⟩
  | 30 => ⟨S3x4x1, .f32⟩
  | 31 => ⟨S3x4x1x1, .f32⟩
  | 32 => ⟨S3x4x1x1, .f32⟩
  | 33 => ⟨S3x4x2x1, .f32⟩
  | 34 => ⟨S3x8, .f32⟩
  | 35 => ⟨S3x1, .f32⟩
  | 36 => ⟨S3, .f32⟩
  | 37 => ⟨S3x2x2x2, .f32⟩
  | 38 => ⟨S_, .f32⟩
  | 39 => ⟨S3, .f32⟩
  | 40 => ⟨S3, .f32⟩
  | 41 => ⟨S3, .f32⟩
  | 42 => ⟨S3x1x1, .f32⟩
  | 43 => ⟨S3, .f32⟩
  | 44 => ⟨S3x1x1, .f32⟩
  | 45 => ⟨S3x2x1x2, .f32⟩
  | 46 => ⟨S3x2x2, .f32⟩
  | 47 => ⟨S3x2x1x2, .f32⟩
  | 48 => ⟨S3x2x2, .f32⟩
  | 49 => ⟨S3x2x2, .f32⟩
  | 50 => ⟨S3x2x2, .f32⟩
  | 51 => ⟨S3x2x2, .f32⟩
  | 52 => ⟨S3x2x2, .f32⟩
  | 53 => ⟨S3x2x2, .f32⟩
  | 54 => ⟨S3x2x2, .f32⟩
  | 55 => ⟨S3x2x2, .f32⟩
  | 56 => ⟨S3x2x2, .f32⟩
  | 57 => ⟨S3x2x2, .f32⟩
  | 58 => ⟨S3x2x2, .f32⟩
  | 59 => ⟨S3x2x1x2, .f32⟩
  | 60 => ⟨S3x2x1x2, .f32⟩
  | 61 => ⟨S3x2x2x2, .f32⟩
  | 62 => ⟨S3x8, .f32⟩
  | 63 => ⟨S3x1, .f32⟩
  | 64 => ⟨S3, .f32⟩
  | 65 => ⟨S3x1x2x4, .f32⟩
  | 66 => ⟨S_, .f32⟩
  | 67 => ⟨S3, .f32⟩
  | 68 => ⟨S3, .f32⟩
  | 69 => ⟨S3, .f32⟩
  | 70 => ⟨S3x1x1, .f32⟩
  | 71 => ⟨S3, .f32⟩
  | 72 => ⟨S3x1x1, .f32⟩
  | 73 => ⟨S3x1x1x4, .f32⟩
  | 74 => ⟨S3x1x4, .f32⟩
  | 75 => ⟨S3x1x1x4, .f32⟩
  | 76 => ⟨S3x1x4, .f32⟩
  | 77 => ⟨S3x1x4, .f32⟩
  | 78 => ⟨S3x1x4, .f32⟩
  | 79 => ⟨S3x1x4, .f32⟩
  | 80 => ⟨S3x1x4, .f32⟩
  | 81 => ⟨S3x1x4, .f32⟩
  | 82 => ⟨S3x1x4, .f32⟩
  | 83 => ⟨S3x1x4, .f32⟩
  | 84 => ⟨S3x1x4, .f32⟩
  | 85 => ⟨S3x1x4, .f32⟩
  | 86 => ⟨S3x1x4, .f32⟩
  | 87 => ⟨S3x1x1x4, .f32⟩
  | 88 => ⟨S3x1x1x4, .f32⟩
  | 89 => ⟨S3x1x2x4, .f32⟩
  | 90 => ⟨S3x8, .f32⟩
  | 91 => ⟨S3x1, .f32⟩
  | 92 => ⟨S3, .f32⟩
  | 93 => ⟨S3x4x2x1, .f32⟩
  | 94 => ⟨S_, .f32⟩
  | 95 => ⟨S3, .f32⟩
  | 96 => ⟨S3, .f32⟩
  | 97 => ⟨S3, .f32⟩
  | 98 => ⟨S3x1x1, .f32⟩
  | 99 => ⟨S3, .f32⟩
  | 100 => ⟨S3x1x1, .f32⟩
  | 101 => ⟨S3x4x1x1, .f32⟩
  | 102 => ⟨S3x4x1, .f32⟩
  | 103 => ⟨S3x4x1x1, .f32⟩
  | 104 => ⟨S3x4x1, .f32⟩
  | 105 => ⟨S3x4x1, .f32⟩
  | 106 => ⟨S3x4x1, .f32⟩
  | 107 => ⟨S3x4x1, .f32⟩
  | 108 => ⟨S3x4x1, .f32⟩
  | 109 => ⟨S3x4x1, .f32⟩
  | 110 => ⟨S3x4x1, .f32⟩
  | 111 => ⟨S3x4x1, .f32⟩
  | 112 => ⟨S3x4x1, .f32⟩
  | 113 => ⟨S3x4x1, .f32⟩
  | 114 => ⟨S3x4x1, .f32⟩
  | 115 => ⟨S3x4x1x1, .f32⟩
  | 116 => ⟨S3x4x1x1, .f32⟩
  | 117 => ⟨S3x4x2x1, .f32⟩
  | 118 => ⟨S3x8, .f32⟩
  | 119 => ⟨S3x1, .f32⟩
  | 120 => ⟨S3, .f32⟩
  | 121 => ⟨S3x2x2x2, .f32⟩
  | 122 => ⟨S_, .f32⟩
  | 123 => ⟨S3, .f32⟩
  | 124 => ⟨S3, .f32⟩
  | 125 => ⟨S3, .f32⟩
  | 126 => ⟨S3x1x1, .f32⟩
  | 127 => ⟨S3, .f32⟩
  | _ => ⟨S32x3x128x128, .f32⟩

abbrev hbmTy0_1 (i : Nat) : BufTy := match i % 128 with
  | 0 => ⟨S3x1x1, .f32⟩
  | 1 => ⟨S3x2x1x2, .f32⟩
  | 2 => ⟨S3x2x2, .f32⟩
  | 3 => ⟨S3x2x1x2, .f32⟩
  | 4 => ⟨S3x2x2, .f32⟩
  | 5 => ⟨S3x2x2, .f32⟩
  | 6 => ⟨S3x2x2, .f32⟩
  | 7 => ⟨S3x2x2, .f32⟩
  | 8 => ⟨S3x2x2, .f32⟩
  | 9 => ⟨S3x2x2, .f32⟩
  | 10 => ⟨S3x2x2, .f32⟩
  | 11 => ⟨S3x2x2, .f32⟩
  | 12 => ⟨S3x2x2, .f32⟩
  | 13 => ⟨S3x2x2, .f32⟩
  | 14 => ⟨S3x2x2, .f32⟩
  | 15 => ⟨S3x2x1x2, .f32⟩
  | 16 => ⟨S3x2x1x2, .f32⟩
  | 17 => ⟨S3x2x2x2, .f32⟩
  | 18 => ⟨S3x8, .f32⟩
  | 19 => ⟨S3x1, .f32⟩
  | 20 => ⟨S3, .f32⟩
  | 21 => ⟨S3x1x2x4, .f32⟩
  | 22 => ⟨S_, .f32⟩
  | 23 => ⟨S3, .f32⟩
  | 24 => ⟨S3, .f32⟩
  | 25 => ⟨S3, .f32⟩
  | 26 => ⟨S3x1x1, .f32⟩
  | 27 => ⟨S3, .f32⟩
  | 28 => ⟨S3x1x1, .f32⟩
  | 29 => ⟨S3x1x1x4, .f32⟩
  | 30 => ⟨S3x1x4, .f32⟩
  | 31 => ⟨S3x1x1x4, .f32⟩
  | 32 => ⟨S3x1x4, .f32⟩
  | 33 => ⟨S3x1x4, .f32⟩
  | 34 => ⟨S3x1x4, .f32⟩
  | 35 => ⟨S3x1x4, .f32⟩
  | 36 => ⟨S3x1x4, .f32⟩
  | 37 => ⟨S3x1x4, .f32⟩
  | 38 => ⟨S3x1x4, .f32⟩
  | 39 => ⟨S3x1x4, .f32⟩
  | 40 => ⟨S3x1x4, .f32⟩
  | 41 => ⟨S3x1x4, .f32⟩
  | 42 => ⟨S3x1x4, .f32⟩
  | 43 => ⟨S3x1x1x4, .f32⟩
  | 44 => ⟨S3x1x1x4, .f32⟩
  | 45 => ⟨S3x1x2x4, .f32⟩
  | 46 => ⟨S3x8, .f32⟩
  | 47 => ⟨S3x1, .f32⟩
  | 48 => ⟨S3, .f32⟩
  | 49 => ⟨S3x4x2x1, .f32⟩
  | 50 => ⟨S_, .f32⟩
  | 51 => ⟨S3, .f32⟩
  | 52 => ⟨S3, .f32⟩
  | 53 => ⟨S3, .f32⟩
  | 54 => ⟨S3x1x1, .f32⟩
  | 55 => ⟨S3, .f32⟩
  | 56 => ⟨S3x1x1, .f32⟩
  | 57 => ⟨S3x4x1x1, .f32⟩
  | 58 => ⟨S3x4x1, .f32⟩
  | 59 => ⟨S3x4x1x1, .f32⟩
  | 60 => ⟨S3x4x1, .f32⟩
  | 61 => ⟨S3x4x1, .f32⟩
  | 62 => ⟨S3x4x1, .f32⟩
  | 63 => ⟨S3x4x1, .f32⟩
  | 64 => ⟨S3x4x1, .f32⟩
  | 65 => ⟨S3x4x1, .f32⟩
  | 66 => ⟨S3x4x1, .f32⟩
  | 67 => ⟨S3x4x1, .f32⟩
  | 68 => ⟨S3x4x1, .f32⟩
  | 69 => ⟨S3x4x1, .f32⟩
  | 70 => ⟨S3x4x1, .f32⟩
  | 71 => ⟨S3x4x1x1, .f32⟩
  | 72 => ⟨S3x4x1x1, .f32⟩
  | 73 => ⟨S3x4x2x1, .f32⟩
  | 74 => ⟨S3x8, .f32⟩
  | 75 => ⟨S3x1, .f32⟩
  | 76 => ⟨S3, .f32⟩
  | 77 => ⟨S3x2x2x2, .f32⟩
  | 78 => ⟨S_, .f32⟩
  | 79 => ⟨S3, .f32⟩
  | 80 => ⟨S3, .f32⟩
  | 81 => ⟨S3, .f32⟩
  | 82 => ⟨S3x1x1, .f32⟩
  | 83 => ⟨S3, .f32⟩
  | 84 => ⟨S3x1x1, .f32⟩
  | 85 => ⟨S3x2x1x2, .f32⟩
  | 86 => ⟨S3x2x2, .f32⟩
  | 87 => ⟨S3x2x1x2, .f32⟩
  | 88 => ⟨S3x2x2, .f32⟩
  | 89 => ⟨S3x2x2, .f32⟩
  | 90 => ⟨S3x2x2, .f32⟩
  | 91 => ⟨S3x2x2, .f32⟩
  | 92 => ⟨S3x2x2, .f32⟩
  | 93 => ⟨S3x2x2, .f32⟩
  | 94 => ⟨S3x2x2, .f32⟩
  | 95 => ⟨S3x2x2, .f32⟩
  | 96 => ⟨S3x2x2, .f32⟩
  | 97 => ⟨S3x2x2, .f32⟩
  | 98 => ⟨S3x2x2, .f32⟩
  | 99 => ⟨S3x2x1x2, .f32⟩
  | 100 => ⟨S3x2x1x2, .f32⟩
  | 101 => ⟨S3x2x2x2, .f32⟩
  | 102 => ⟨S3x8, .f32⟩
  | 103 => ⟨S3x1, .f32⟩
  | 104 => ⟨S3, .f32⟩
  | 105 => ⟨S3x1x2x4, .f32⟩
  | 106 => ⟨S_, .f32⟩
  | 107 => ⟨S3, .f32⟩
  | 108 => ⟨S3, .f32⟩
  | 109 => ⟨S3, .f32⟩
  | 110 => ⟨S3x1x1, .f32⟩
  | 111 => ⟨S3, .f32⟩
  | 112 => ⟨S3x1x1, .f32⟩
  | 113 => ⟨S3x1x1x4, .f32⟩
  | 114 => ⟨S3x1x4, .f32⟩
  | 115 => ⟨S3x1x1x4, .f32⟩
  | 116 => ⟨S3x1x4, .f32⟩
  | 117 => ⟨S3x1x4, .f32⟩
  | 118 => ⟨S3x1x4, .f32⟩
  | 119 => ⟨S3x1x4, .f32⟩
  | 120 => ⟨S3x1x4, .f32⟩
  | 121 => ⟨S3x1x4, .f32⟩
  | 122 => ⟨S3x1x4, .f32⟩
  | 123 => ⟨S3x1x4, .f32⟩
  | 124 => ⟨S3x1x4, .f32⟩
  | 125 => ⟨S3x1x4, .f32⟩
  | 126 => ⟨S3x1x4, .f32⟩
  | 127 => ⟨S3x1x1x4, .f32⟩
  | _ => ⟨S32x3x128x128, .f32⟩

abbrev hbmTy0_2 (i : Nat) : BufTy := match i % 128 with
  | 0 => ⟨S3x1x1x4, .f32⟩
  | 1 => ⟨S3x1x2x4, .f32⟩
  | 2 => ⟨S3x8, .f32⟩
  | 3 => ⟨S8, .i32⟩
  | 4 => ⟨S_, .i32⟩
  | 5 => ⟨S8, .i32⟩
  | 6 => ⟨S8, .i32⟩
  | 7 => ⟨S_, .i32⟩
  | 8 => ⟨S8, .i32⟩
  | 9 => ⟨S8, .i32⟩
  | 10 => ⟨S_, .i32⟩
  | 11 => ⟨S8, .i32⟩
  | 12 => ⟨S8, .i32⟩
  | 13 => ⟨S8, .i32⟩
  | 14 => ⟨S_, .i32⟩
  | 15 => ⟨S8, .i32⟩
  | 16 => ⟨S8, .i1⟩
  | 17 => ⟨S_, .i32⟩
  | 18 => ⟨S8, .i32⟩
  | 19 => ⟨S8, .i32⟩
  | 20 => ⟨S8, .i32⟩
  | 21 => ⟨S8x1, .i32⟩
  | 22 => ⟨S3x8, .f32⟩
  | 23 => ⟨S8, .i32⟩
  | 24 => ⟨S_, .i32⟩
  | 25 => ⟨S8, .i32⟩
  | 26 => ⟨S8, .i32⟩
  | 27 => ⟨S_, .i32⟩
  | 28 => ⟨S8, .i32⟩
  | 29 => ⟨S8, .i32⟩
  | 30 => ⟨S_, .i32⟩
  | 31 => ⟨S8, .i32⟩
  | 32 => ⟨S8, .i32⟩
  | 33 => ⟨S8, .i32⟩
  | 34 => ⟨S_, .i32⟩
  | 35 => ⟨S8, .i32⟩
  | 36 => ⟨S8, .i1⟩
  | 37 => ⟨S_, .i32⟩
  | 38 => ⟨S8, .i32⟩
  | 39 => ⟨S8, .i32⟩
  | 40 => ⟨S8, .i32⟩
  | 41 => ⟨S8x1, .i32⟩
  | 42 => ⟨S3x8, .f32⟩
  | 43 => ⟨S32x4x128x128, .f32⟩
  | _ => ⟨S32x3x128x128, .f32⟩

abbrev hbmTy (i : Nat) : BufTy := match i / 128 with
  | 0 => hbmTy0_0 i
  | 1 => hbmTy0_1 i
  | 2 => hbmTy0_2 i
  | _ => ⟨S32x3x128x128, .f32⟩

abbrev bufTy : (tb : Table) → Fin (tcTables nBuf tb) → BufTy
  | .hbm, ⟨i, _⟩ => hbmTy i
  | .local _ .vmem, ⟨0, _⟩ => ⟨S3x8, .f32⟩
  | .local _ .vmem, ⟨1, _⟩ => ⟨S1x3x130x130, .f32⟩
  | .local _ .vmem, ⟨2, _⟩ => ⟨S1x3x130x130, .f32⟩
  | .local _ .vmem, ⟨3, _⟩ => ⟨S1x4x128x128, .f32⟩
  | .local _ .vmem, ⟨4, _⟩ => ⟨S1x4x128x128, .f32⟩
  | _, _ => ⟨S32x3x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_1 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_cst_2 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_cst_3 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_cst_4 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_cst_5 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_cst_6 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_cst_7 : Ref sig .tc := ⟨.hbm, 206, rfl⟩
abbrev main_v194 : Ref sig .tc := ⟨.hbm, 207, rfl⟩
abbrev main_v195 : Ref sig .tc := ⟨.hbm, 208, rfl⟩
abbrev main_v196 : Ref sig .tc := ⟨.hbm, 209, rfl⟩
abbrev main_v197 : Ref sig .tc := ⟨.hbm, 210, rfl⟩
abbrev main_v198 : Ref sig .tc := ⟨.hbm, 211, rfl⟩
abbrev main_v199 : Ref sig .tc := ⟨.hbm, 212, rfl⟩
abbrev main_v200 : Ref sig .tc := ⟨.hbm, 213, rfl⟩
abbrev main_v201 : Ref sig .tc := ⟨.hbm, 214, rfl⟩
abbrev main_v202 : Ref sig .tc := ⟨.hbm, 215, rfl⟩
abbrev main_v203 : Ref sig .tc := ⟨.hbm, 216, rfl⟩
abbrev main_v204 : Ref sig .tc := ⟨.hbm, 217, rfl⟩
abbrev main_v205 : Ref sig .tc := ⟨.hbm, 218, rfl⟩
abbrev main_v206 : Ref sig .tc := ⟨.hbm, 219, rfl⟩
abbrev main_v207 : Ref sig .tc := ⟨.hbm, 220, rfl⟩
abbrev main_v208 : Ref sig .tc := ⟨.hbm, 221, rfl⟩
abbrev main_v209 : Ref sig .tc := ⟨.hbm, 222, rfl⟩
abbrev main_v210 : Ref sig .tc := ⟨.hbm, 223, rfl⟩
abbrev main_v211 : Ref sig .tc := ⟨.hbm, 224, rfl⟩
abbrev main_v212 : Ref sig .tc := ⟨.hbm, 225, rfl⟩
abbrev main_v213 : Ref sig .tc := ⟨.hbm, 226, rfl⟩
abbrev main_v214 : Ref sig .tc := ⟨.hbm, 227, rfl⟩
abbrev main_v215 : Ref sig .tc := ⟨.hbm, 228, rfl⟩
abbrev main_v216 : Ref sig .tc := ⟨.hbm, 229, rfl⟩
abbrev main_v217 : Ref sig .tc := ⟨.hbm, 230, rfl⟩
abbrev main_v218 : Ref sig .tc := ⟨.hbm, 231, rfl⟩
abbrev main_v219 : Ref sig .tc := ⟨.hbm, 232, rfl⟩
abbrev main_v220 : Ref sig .tc := ⟨.hbm, 233, rfl⟩
abbrev main_cst_8 : Ref sig .tc := ⟨.hbm, 234, rfl⟩
abbrev main_v221 : Ref sig .tc := ⟨.hbm, 235, rfl⟩
abbrev main_v222 : Ref sig .tc := ⟨.hbm, 236, rfl⟩
abbrev main_v223 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_v227 : Ref sig .tc := ⟨.hbm, 241, rfl⟩
abbrev main_v228 : Ref sig .tc := ⟨.hbm, 242, rfl⟩
abbrev main_v229 : Ref sig .tc := ⟨.hbm, 243, rfl⟩
abbrev main_v230 : Ref sig .tc := ⟨.hbm, 244, rfl⟩
abbrev main_v231 : Ref sig .tc := ⟨.hbm, 245, rfl⟩
abbrev main_v232 : Ref sig .tc := ⟨.hbm, 246, rfl⟩
abbrev main_v233 : Ref sig .tc := ⟨.hbm, 247, rfl⟩
abbrev main_v234 : Ref sig .tc := ⟨.hbm, 248, rfl⟩
abbrev main_v235 : Ref sig .tc := ⟨.hbm, 249, rfl⟩
abbrev main_v236 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_c_9 : Ref sig .tc := ⟨.hbm, 260, rfl⟩
abbrev main_v246 : Ref sig .tc := ⟨.hbm, 261, rfl⟩
abbrev main_v247 : Ref sig .tc := ⟨.hbm, 262, rfl⟩
abbrev main_c_10 : Ref sig .tc := ⟨.hbm, 263, rfl⟩
abbrev main_v248 : Ref sig .tc := ⟨.hbm, 264, rfl⟩
abbrev main_v249 : Ref sig .tc := ⟨.hbm, 265, rfl⟩
abbrev main_c_11 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_c_12 : Ref sig .tc := ⟨.hbm, 270, rfl⟩
abbrev main_v253 : Ref sig .tc := ⟨.hbm, 271, rfl⟩
abbrev main_v254 : Ref sig .tc := ⟨.hbm, 272, rfl⟩
abbrev main_c_13 : Ref sig .tc := ⟨.hbm, 273, rfl⟩
abbrev main_v255 : Ref sig .tc := ⟨.hbm, 274, rfl⟩
abbrev main_v256 : Ref sig .tc := ⟨.hbm, 275, rfl⟩
abbrev main_v257 : Ref sig .tc := ⟨.hbm, 276, rfl⟩
abbrev main_v258 : Ref sig .tc := ⟨.hbm, 277, rfl⟩
abbrev main_v259 : Ref sig .tc := ⟨.hbm, 278, rfl⟩
abbrev main_v260 : Ref sig .tc := ⟨.hbm, 279, rfl⟩
abbrev main_c_14 : Ref sig .tc := ⟨.hbm, 280, rfl⟩
abbrev main_v261 : Ref sig .tc := ⟨.hbm, 281, rfl⟩
abbrev main_v262 : Ref sig .tc := ⟨.hbm, 282, rfl⟩
abbrev main_c_15 : Ref sig .tc := ⟨.hbm, 283, rfl⟩
abbrev main_v263 : Ref sig .tc := ⟨.hbm, 284, rfl⟩
abbrev main_v264 : Ref sig .tc := ⟨.hbm, 285, rfl⟩
abbrev main_c_16 : Ref sig .tc := ⟨.hbm, 286, rfl⟩
abbrev main_v265 : Ref sig .tc := ⟨.hbm, 287, rfl⟩
abbrev main_v266 : Ref sig .tc := ⟨.hbm, 288, rfl⟩
abbrev main_v267 : Ref sig .tc := ⟨.hbm, 289, rfl⟩
abbrev main_c_17 : Ref sig .tc := ⟨.hbm, 290, rfl⟩
abbrev main_v268 : Ref sig .tc := ⟨.hbm, 291, rfl⟩
abbrev main_v269 : Ref sig .tc := ⟨.hbm, 292, rfl⟩
abbrev main_c_18 : Ref sig .tc := ⟨.hbm, 293, rfl⟩
abbrev main_v270 : Ref sig .tc := ⟨.hbm, 294, rfl⟩
abbrev main_v271 : Ref sig .tc := ⟨.hbm, 295, rfl⟩
abbrev main_v272 : Ref sig .tc := ⟨.hbm, 296, rfl⟩
abbrev main_v273 : Ref sig .tc := ⟨.hbm, 297, rfl⟩
abbrev main_v274 : Ref sig .tc := ⟨.hbm, 298, rfl⟩
abbrev main_v275 : Ref sig .tc := ⟨.hbm, 299, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S3x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x3x130x130 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S32x3x128x128_S32x3x130x130_000_000_020_020 : S32x3x128x128.Pads (![0, 0, 0, 0] : Fin 4 → Nat) ![0, 0, 2, 2] ![0, 0, 0, 0] S32x3x130x130
  h_S_ : 0 < S_.numel
  bcast_S_S3x8 : S_.BroadcastsInDim S3x8 (![] : Fin 0 → Fin S3x8.rank)
  slices_S3x9_S3x1_0_0 : S3x9.Slices ![0, 0] S3x1
  shapeCasts_S3x1_S3 : S3x1.ShapeCasts S3
  shapeCasts_S3x8_S3x4x2x1 : S3x8.ShapeCasts S3x4x2x1
  bcast_S_S3 : S_.BroadcastsInDim S3 (![] : Fin 0 → Fin S3.rank)
  bcast_S3_S3x1x1_0 : S3.BroadcastsInDim S3x1x1 (![0] : Fin 1 → Fin S3x1x1.rank)
  slices_S3x4x2x1_S3x4x1x1_0_0_0_0 : S3x4x2x1.Slices ![0, 0, 0, 0] S3x4x1x1
  shapeCasts_S3x4x1x1_S3x4x1 : S3x4x1x1.ShapeCasts S3x4x1
  slices_S3x4x2x1_S3x4x1x1_0_0_1_0 : S3x4x2x1.Slices ![0, 0, 1, 0] S3x4x1x1
  bcast_S3x1x1_S3x4x1_0_1_2 : S3x1x1.BroadcastsInDim S3x4x1 (![0, 1, 2] : Fin 3 → Fin S3x4x1.rank)
  bcast_S3x4x1_S3x4x1x1_0_1_3 : S3x4x1.BroadcastsInDim S3x4x1x1 (![0, 1, 3] : Fin 3 → Fin S3x4x1x1.rank)
  concatenates_S3x4x1x1_S3x4x1x1_S3x4x2x1_d2 : Shape.Concatenates [S3x4x1x1, S3x4x1x1] S3x4x2x1 2
  shapeCasts_S3x4x2x1_S3x8 : S3x4x2x1.ShapeCasts S3x8
  slices_S3x9_S3x1_0_1 : S3x9.Slices ![0, 1] S3x1
  shapeCasts_S3x8_S3x2x2x2 : S3x8.ShapeCasts S3x2x2x2
  slices_S3x2x2x2_S3x2x1x2_0_0_0_0 : S3x2x2x2.Slices ![0, 0, 0, 0] S3x2x1x2
  shapeCasts_S3x2x1x2_S3x2x2 : S3x2x1x2.ShapeCasts S3x2x2
  slices_S3x2x2x2_S3x2x1x2_0_0_1_0 : S3x2x2x2.Slices ![0, 0, 1, 0] S3x2x1x2
  bcast_S3x1x1_S3x2x2_0_1_2 : S3x1x1.BroadcastsInDim S3x2x2 (![0, 1, 2] : Fin 3 → Fin S3x2x2.rank)
  bcast_S3x2x2_S3x2x1x2_0_1_3 : S3x2x2.BroadcastsInDim S3x2x1x2 (![0, 1, 3] : Fin 3 → Fin S3x2x1x2.rank)
  concatenates_S3x2x1x2_S3x2x1x2_S3x2x2x2_d2 : Shape.Concatenates [S3x2x1x2, S3x2x1x2] S3x2x2x2 2
  shapeCasts_S3x2x2x2_S3x8 : S3x2x2x2.ShapeCasts S3x8
  slices_S3x9_S3x1_0_2 : S3x9.Slices ![0, 2] S3x1
  shapeCasts_S3x8_S3x1x2x4 : S3x8.ShapeCasts S3x1x2x4
  slices_S3x1x2x4_S3x1x1x4_0_0_0_0 : S3x1x2x4.Slices ![0, 0, 0, 0] S3x1x1x4
  shapeCasts_S3x1x1x4_S3x1x4 : S3x1x1x4.ShapeCasts S3x1x4
  slices_S3x1x2x4_S3x1x1x4_0_0_1_0 : S3x1x2x4.Slices ![0, 0, 1, 0] S3x1x1x4
  bcast_S3x1x1_S3x1x4_0_1_2 : S3x1x1.BroadcastsInDim S3x1x4 (![0, 1, 2] : Fin 3 → Fin S3x1x4.rank)
  bcast_S3x1x4_S3x1x1x4_0_1_3 : S3x1x4.BroadcastsInDim S3x1x1x4 (![0, 1, 3] : Fin 3 → Fin S3x1x1x4.rank)
  concatenates_S3x1x1x4_S3x1x1x4_S3x1x2x4_d2 : Shape.Concatenates [S3x1x1x4, S3x1x1x4] S3x1x2x4 2
  shapeCasts_S3x1x2x4_S3x8 : S3x1x2x4.ShapeCasts S3x8
  slices_S3x9_S3x1_0_3 : S3x9.Slices ![0, 3] S3x1
  slices_S3x9_S3x1_0_4 : S3x9.Slices ![0, 4] S3x1
  slices_S3x9_S3x1_0_5 : S3x9.Slices ![0, 5] S3x1
  slices_S3x9_S3x1_0_6 : S3x9.Slices ![0, 6] S3x1
  slices_S3x9_S3x1_0_7 : S3x9.Slices ![0, 7] S3x1
  slices_S3x9_S3x1_0_8 : S3x9.Slices ![0, 8] S3x1
  bcast_S_S8 : S_.BroadcastsInDim S8 (![] : Fin 0 → Fin S8.rank)
  bcast_S8_S8x1_0 : S8.BroadcastsInDim S8x1 (![0] : Fin 1 → Fin S8x1.rank)
  iota_S128x128_d0_w32 : S128x128.Iotas .tc 32 [0]
  iota_S128x128_d1_w32 : S128x128.Iotas .tc 32 [1]
  natLt_1_32 : 1 < 32
  inb_S1x3x130x130_S1x1x130x130_0_0_0_0 : ∀ a, (![0, 0, 0, 0] : Fin 4 → Nat) a + S1x1x130x130.size a ≤ S1x3x130x130.size a
  h_S1x1x130x130 : 0 < S1x1x130x130.numel
  shapeCasts_S1x1x130x130_S130x130 : S1x1x130x130.ShapeCasts S130x130
  inb_S3x8_S1x1_0_0 : ∀ a, (![0, 0] : Fin 2 → Nat) a + S1x1.size a ≤ S3x8.size a
  h_S1x1 : 0 < S1x1.numel
  inpos_S1x1_p0_0 : ∀ a, (![0, 0] : Fin 2 → Nat) a < S1x1.size a
  inb_S3x8_S1x1_0_1 : ∀ a, (![0, 1] : Fin 2 → Nat) a + S1x1.size a ≤ S3x8.size a
  inb_S3x8_S1x1_0_2 : ∀ a, (![0, 2] : Fin 2 → Nat) a + S1x1.size a ≤ S3x8.size a
  inb_S3x8_S1x1_0_3 : ∀ a, (![0, 3] : Fin 2 → Nat) a + S1x1.size a ≤ S3x8.size a
  inb_S3x8_S1x1_0_4 : ∀ a, (![0, 4] : Fin 2 → Nat) a + S1x1.size a ≤ S3x8.size a
  inb_S3x8_S1x1_0_5 : ∀ a, (![0, 5] : Fin 2 → Nat) a + S1x1.size a ≤ S3x8.size a
  inb_S3x8_S1x1_0_6 : ∀ a, (![0, 6] : Fin 2 → Nat) a + S1x1.size a ≤ S3x8.size a
  inb_S3x8_S1x1_0_7 : ∀ a, (![0, 7] : Fin 2 → Nat) a + S1x1.size a ≤ S3x8.size a
  slices_S130x130_o0_0_S128x128 : S130x130.Slices ![0, 0] S128x128
  slices_S130x130_o0_1_S128x128 : S130x130.Slices ![0, 1] S128x128
  slices_S130x130_o0_2_S128x128 : S130x130.Slices ![0, 2] S128x128
  slices_S130x130_o1_0_S128x128 : S130x130.Slices ![1, 0] S128x128
  slices_S130x130_o1_1_S128x128 : S130x130.Slices ![1, 1] S128x128
  slices_S130x130_o1_2_S128x128 : S130x130.Slices ![1, 2] S128x128
  slices_S130x130_o2_0_S128x128 : S130x130.Slices ![2, 0] S128x128
  slices_S130x130_o2_1_S128x128 : S130x130.Slices ![2, 1] S128x128
  slices_S130x130_o2_2_S128x128 : S130x130.Slices ![2, 2] S128x128
  inb_S1x3x130x130_S1x1x130x130_0_1_0_0 : ∀ a, (![0, 1, 0, 0] : Fin 4 → Nat) a + S1x1x130x130.size a ≤ S1x3x130x130.size a
  inb_S3x8_S1x1_1_0 : ∀ a, (![1, 0] : Fin 2 → Nat) a + S1x1.size a ≤ S3x8.size a
  inb_S3x8_S1x1_1_1 : ∀ a, (![1, 1] : Fin 2 → Nat) a + S1x1.size a ≤ S3x8.size a
  inb_S3x8_S1x1_1_2 : ∀ a, (![1, 2] : Fin 2 → Nat) a + S1x1.size a ≤ S3x8.size a
  inb_S3x8_S1x1_1_3 : ∀ a, (![1, 3] : Fin 2 → Nat) a + S1x1.size a ≤ S3x8.size a
  inb_S3x8_S1x1_1_4 : ∀ a, (![1, 4] : Fin 2 → Nat) a + S1x1.size a ≤ S3x8.size a
  inb_S3x8_S1x1_1_5 : ∀ a, (![1, 5] : Fin 2 → Nat) a + S1x1.size a ≤ S3x8.size a
  inb_S3x8_S1x1_1_6 : ∀ a, (![1, 6] : Fin 2 → Nat) a + S1x1.size a ≤ S3x8.size a
  inb_S3x8_S1x1_1_7 : ∀ a, (![1, 7] : Fin 2 → Nat) a + S1x1.size a ≤ S3x8.size a
  inb_S1x3x130x130_S1x1x130x130_0_2_0_0 : ∀ a, (![0, 2, 0, 0] : Fin 4 → Nat) a + S1x1x130x130.size a ≤ S1x3x130x130.size a
  inb_S3x8_S1x1_2_0 : ∀ a, (![2, 0] : Fin 2 → Nat) a + S1x1.size a ≤ S3x8.size a
  inb_S3x8_S1x1_2_1 : ∀ a, (![2, 1] : Fin 2 → Nat) a + S1x1.size a ≤ S3x8.size a
  inb_S3x8_S1x1_2_2 : ∀ a, (![2, 2] : Fin 2 → Nat) a + S1x1.size a ≤ S3x8.size a
  inb_S3x8_S1x1_2_3 : ∀ a, (![2, 3] : Fin 2 → Nat) a + S1x1.size a ≤ S3x8.size a
  inb_S3x8_S1x1_2_4 : ∀ a, (![2, 4] : Fin 2 → Nat) a + S1x1.size a ≤ S3x8.size a
  inb_S3x8_S1x1_2_5 : ∀ a, (![2, 5] : Fin 2 → Nat) a + S1x1.size a ≤ S3x8.size a
  inb_S3x8_S1x1_2_6 : ∀ a, (![2, 6] : Fin 2 → Nat) a + S1x1.size a ≤ S3x8.size a
  inb_S3x8_S1x1_2_7 : ∀ a, (![2, 7] : Fin 2 → Nat) a + S1x1.size a ≤ S3x8.size a
  inb_S1x4x128x128_S1x1x128x128_0_0_0_0 : ∀ a, (![0, 0, 0, 0] : Fin 4 → Nat) a + S1x1x128x128.size a ≤ S1x4x128x128.size a
  h_S1x1x128x128 : 0 < S1x1x128x128.numel
  shapeCasts_S1x1x128x128_S128x128 : S1x1x128x128.ShapeCasts S128x128
  shapeCasts_S128x128_S1x1x128x128 : S128x128.ShapeCasts S1x1x128x128
  inb_S1x4x128x128_S1x1x128x128_0_1_0_0 : ∀ a, (![0, 1, 0, 0] : Fin 4 → Nat) a + S1x1x128x128.size a ≤ S1x4x128x128.size a
  inb_S1x4x128x128_S1x1x128x128_0_2_0_0 : ∀ a, (![0, 2, 0, 0] : Fin 4 → Nat) a + S1x1x128x128.size a ≤ S1x4x128x128.size a
  inb_S1x4x128x128_S1x1x128x128_0_3_0_0 : ∀ a, (![0, 3, 0, 0] : Fin 4 → Nat) a + S1x1x128x128.size a ≤ S1x4x128x128.size a
  gather_S3x8_S8x1_S3x8_0_1_n_n_1_1_31_wf : GatherDims.WF S3x8 S8x1 S3x8 [0] [1] [] [1] [] 1 ![3, 1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S3x8.size a ≤ S3x8.size a
  hwx0_0 : ∀ i : grid0.Coords, EltTy.bits .f32 = 32 ∨ (Rect.block (s := S3x8) S3x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x130x130.size a ≤ S32x3x130x130.size a
  hwx0_1 : ∀ i : grid0.Coords, EltTy.bits .f32 = 32 ∨ (Rect.block (s := S32x3x130x130) S1x3x130x130.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x128x128.size a ≤ S32x4x128x128.size a
  hwx0_2 : ∀ i : grid0.Coords, EltTy.bits .f32 = 32 ∨ (Rect.block (s := S32x4x128x128) S1x4x128x128.size (cc0_transform_2 i) (hinb0_2 i)).WholeWords (EltTy.packing .f32)

variable [Facts₀]

def gather_S3x8_S8x1_S3x8_0_1_n_n_1_1_31 : GatherDims S3x8 S8x1 S3x8 where
  offsetDims := [0]
  collapsedSliceDims := [1]
  operandBatchingDims := []
  startIndicesBatchingDims := []
  startIndexMap := [1]
  indexVectorDim := 1
  sliceSizes := ![3, 1]
  wf := gather_S3x8_S8x1_S3x8_0_1_n_n_1_1_31_wf

abbrev win0_0 : Pipeline.Window sig grid0 :=
  Pipeline.Window.ofSpec (Memref.whole main_v274) S3x8.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x130x130.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v275) S1x4x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x3x128x128 : Shape := ⟨4, ![32, 3, 128, 128]⟩
abbrev S3x9 : Shape := ⟨2, ![3, 9]⟩
abbrev S32x3x125x125 : Shape := ⟨4, ![32, 3, 125, 125]⟩
abbrev S32x3x125x125x1 : Shape := ⟨5, ![32, 3, 125, 125, 1]⟩
abbrev S32x3x125x125x9 : Shape := ⟨5, ![32, 3, 125, 125, 9]⟩
abbrev S8 : Shape := ⟨1, ![8]⟩
abbrev S_ : Shape := ⟨0, ![]⟩
abbrev S8x1 : Shape := ⟨2, ![8, 1]⟩
abbrev S1x4 : Shape := ⟨2, ![1, 4]⟩
abbrev S8x4 : Shape := ⟨2, ![8, 4]⟩
abbrev S32x125x125x4 : Shape := ⟨4, ![32, 125, 125, 4]⟩
abbrev S1x1 : Shape := ⟨2, ![1, 1]⟩
abbrev S4x2x1 : Shape := ⟨3, ![4, 2, 1]⟩
abbrev S4x1x1 : Shape := ⟨3, ![4, 1, 1]⟩
abbrev S4x1 : Shape := ⟨2, ![4, 1]⟩
abbrev S2x2x2 : Shape := ⟨3, ![2, 2, 2]⟩
abbrev S2x1x2 : Shape := ⟨3, ![2, 1, 2]⟩
abbrev S2x2 : Shape := ⟨2, ![2, 2]⟩
abbrev S1x2x4 : Shape := ⟨3, ![1, 2, 4]⟩
abbrev S1x1x4 : Shape := ⟨3, ![1, 1, 4]⟩
abbrev S32x1x125x125x9 : Shape := ⟨5, ![32, 1, 125, 125, 9]⟩
abbrev S32x125x125x9 : Shape := ⟨4, ![32, 125, 125, 9]⟩
abbrev S500000x9 : Shape := ⟨2, ![500000, 9]⟩
abbrev S500000x8 : Shape := ⟨2, ![500000, 8]⟩
abbrev S500000x1 : Shape := ⟨2, ![500000, 1]⟩
abbrev S500000 : Shape := ⟨1, ![500000]⟩
abbrev S500000x4x2x1 : Shape := ⟨4, ![500000, 4, 2, 1]⟩
abbrev S500000x1x1 : Shape := ⟨3, ![500000, 1, 1]⟩
abbrev S500000x4x1x1 : Shape := ⟨4, ![500000, 4, 1, 1]⟩
abbrev S500000x4x1 : Shape := ⟨3, ![500000, 4, 1]⟩
abbrev S500000x2x2x2 : Shape := ⟨4, ![500000, 2, 2, 2]⟩
abbrev S500000x2x1x2 : Shape := ⟨4, ![500000, 2, 1, 2]⟩
abbrev S500000x2x2 : Shape := ⟨3, ![500000, 2, 2]⟩
abbrev S500000x1x2x4 : Shape := ⟨4, ![500000, 1, 2, 4]⟩
abbrev S500000x1x1x4 : Shape := ⟨4, ![500000, 1, 1, 4]⟩
abbrev S500000x1x4 : Shape := ⟨3, ![500000, 1, 4]⟩
abbrev S500000x4 : Shape := ⟨2, ![500000, 4]⟩
abbrev S32x4x125x125 : Shape := ⟨4, ![32, 4, 125, 125]⟩
abbrev S32x4x128x128 : Shape := ⟨4, ![32, 4, 128, 128]⟩

abbrev nBuf : Space → Nat
  | .hbm => 1811
  | .vmem => 0
  | .smem => 0
  | _ => 0

abbrev hbmTy0_0 (i : Nat) : BufTy := match i % 128 with
  | 0 => ⟨S32x3x128x128, .f32⟩
  | 1 => ⟨S3x9, .f32⟩
  | 2 => ⟨S32x3x125x125, .f32⟩
  | 3 => ⟨S32x3x125x125, .f32⟩
  | 4 => ⟨S32x3x125x125, .f32⟩
  | 5 => ⟨S32x3x125x125, .f32⟩
  | 6 => ⟨S32x3x125x125, .f32⟩
  | 7 => ⟨S32x3x125x125, .f32⟩
  | 8 => ⟨S32x3x125x125, .f32⟩
  | 9 => ⟨S32x3x125x125, .f32⟩
  | 10 => ⟨S32x3x125x125, .f32⟩
  | 11 => ⟨S32x3x125x125x1, .f32⟩
  | 12 => ⟨S32x3x125x125x1, .f32⟩
  | 13 => ⟨S32x3x125x125x1, .f32⟩
  | 14 => ⟨S32x3x125x125x1, .f32⟩
  | 15 => ⟨S32x3x125x125x1, .f32⟩
  | 16 => ⟨S32x3x125x125x1, .f32⟩
  | 17 => ⟨S32x3x125x125x1, .f32⟩
  | 18 => ⟨S32x3x125x125x1, .f32⟩
  | 19 => ⟨S32x3x125x125x1, .f32⟩
  | 20 => ⟨S32x3x125x125x9, .f32⟩
  | 21 => ⟨S8, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S8, .i32⟩
  | 29 => ⟨S8, .i32⟩
  | 30 => ⟨S_, .i32⟩
  | 31 => ⟨S8, .i32⟩
  | 32 => ⟨S8, .i1⟩
  | 33 => ⟨S_, .i32⟩
  | 34 => ⟨S8, .i32⟩
  | 35 => ⟨S8, .i1⟩
  | 36 => ⟨S_, .i32⟩
  | 37 => ⟨S_, .i1⟩
  | 38 => ⟨S8, .i1⟩
  | 39 => ⟨S8, .i1⟩
  | 40 => ⟨S8, .i1⟩
  | 41 => ⟨S8, .i32⟩
  | 42 => ⟨S8, .i32⟩
  | 43 => ⟨S8, .i32⟩
  | 44 => ⟨S8x1, .i32⟩
  | 45 => ⟨S1x4, .i32⟩
  | 46 => ⟨S8x4, .i32⟩
  | 47 => ⟨S8x4, .i32⟩
  | 48 => ⟨S8x4, .i1⟩
  | 49 => ⟨S8x4, .f32⟩
  | 50 => ⟨S_, .f32⟩
  | 51 => ⟨S32x125x125x4, .f32⟩
  | 52 => ⟨S_, .f32⟩
  | 53 => ⟨S8, .f32⟩
  | 54 => ⟨S1x1, .f32⟩
  | 55 => ⟨S_, .f32⟩
  | 56 => ⟨S4x2x1, .f32⟩
  | 57 => ⟨S_, .f32⟩
  | 58 => ⟨S_, .f32⟩
  | 59 => ⟨S_, .f32⟩
  | 60 => ⟨S1x1, .f32⟩
  | 61 => ⟨S_, .f32⟩
  | 62 => ⟨S1x1, .f32⟩
  | 63 => ⟨S4x1x1, .f32⟩
  | 64 => ⟨S4x1, .f32⟩
  | 65 => ⟨S4x1x1, .f32⟩
  | 66 => ⟨S4x1, .f32⟩
  | 67 => ⟨S4x1, .f32⟩
  | 68 => ⟨S4x1, .f32⟩
  | 69 => ⟨S4x1, .f32⟩
  | 70 => ⟨S4x1, .f32⟩
  | 71 => ⟨S4x1, .f32⟩
  | 72 => ⟨S4x1, .f32⟩
  | 73 => ⟨S4x1, .f32⟩
  | 74 => ⟨S4x1, .f32⟩
  | 75 => ⟨S4x1, .f32⟩
  | 76 => ⟨S4x1, .f32⟩
  | 77 => ⟨S4x1x1, .f32⟩
  | 78 => ⟨S4x1x1, .f32⟩
  | 79 => ⟨S4x2x1, .f32⟩
  | 80 => ⟨S8, .f32⟩
  | 81 => ⟨S1x1, .f32⟩
  | 82 => ⟨S_, .f32⟩
  | 83 => ⟨S2x2x2, .f32⟩
  | 84 => ⟨S_, .f32⟩
  | 85 => ⟨S_, .f32⟩
  | 86 => ⟨S_, .f32⟩
  | 87 => ⟨S1x1, .f32⟩
  | 88 => ⟨S_, .f32⟩
  | 89 => ⟨S1x1, .f32⟩
  | 90 => ⟨S2x1x2, .f32⟩
  | 91 => ⟨S2x2, .f32⟩
  | 92 => ⟨S2x1x2, .f32⟩
  | 93 => ⟨S2x2, .f32⟩
  | 94 => ⟨S2x2, .f32⟩
  | 95 => ⟨S2x2, .f32⟩
  | 96 => ⟨S2x2, .f32⟩
  | 97 => ⟨S2x2, .f32⟩
  | 98 => ⟨S2x2, .f32⟩
  | 99 => ⟨S2x2, .f32⟩
  | 100 => ⟨S2x2, .f32⟩
  | 101 => ⟨S2x2, .f32⟩
  | 102 => ⟨S2x2, .f32⟩
  | 103 => ⟨S2x2, .f32⟩
  | 104 => ⟨S2x1x2, .f32⟩
  | 105 => ⟨S2x1x2, .f32⟩
  | 106 => ⟨S2x2x2, .f32⟩
  | 107 => ⟨S8, .f32⟩
  | 108 => ⟨S1x1, .f32⟩
  | 109 => ⟨S_, .f32⟩
  | 110 => ⟨S1x2x4, .f32⟩
  | 111 => ⟨S_, .f32⟩
  | 112 => ⟨S_, .f32⟩
  | 113 => ⟨S_, .f32⟩
  | 114 => ⟨S1x1, .f32⟩
  | 115 => ⟨S_, .f32⟩
  | 116 => ⟨S1x1, .f32⟩
  | 117 => ⟨S1x1x4, .f32⟩
  | 118 => ⟨S1x4, .f32⟩
  | 119 => ⟨S1x1x4, .f32⟩
  | 120 => ⟨S1x4, .f32⟩
  | 121 => ⟨S1x4, .f32⟩
  | 122 => ⟨S1x4, .f32⟩
  | 123 => ⟨S1x4, .f32⟩
  | 124 => ⟨S1x4, .f32⟩
  | 125 => ⟨S1x4, .f32⟩
  | 126 => ⟨S1x4, .f32⟩
  | 127 => ⟨S1x4, .f32⟩
  | _ => ⟨S32x3x128x128, .f32⟩

abbrev hbmTy0_1 (i : Nat) : BufTy := match i % 128 with
  | 0 => ⟨S1x4, .f32⟩
  | 1 => ⟨S1x4, .f32⟩
  | 2 => ⟨S1x4, .f32⟩
  | 3 => ⟨S1x1x4, .f32⟩
  | 4 => ⟨S1x1x4, .f32⟩
  | 5 => ⟨S1x2x4, .f32⟩
  | 6 => ⟨S8, .f32⟩
  | 7 => ⟨S1x1, .f32⟩
  | 8 => ⟨S_, .f32⟩
  | 9 => ⟨S4x2x1, .f32⟩
  | 10 => ⟨S_, .f32⟩
  | 11 => ⟨S_, .f32⟩
  | 12 => ⟨S_, .f32⟩
  | 13 => ⟨S1x1, .f32⟩
  | 14 => ⟨S_, .f32⟩
  | 15 => ⟨S1x1, .f32⟩
  | 16 => ⟨S4x1x1, .f32⟩
  | 17 => ⟨S4x1, .f32⟩
  | 18 => ⟨S4x1x1, .f32⟩
  | 19 => ⟨S4x1, .f32⟩
  | 20 => ⟨S4x1, .f32⟩
  | 21 => ⟨S4x1, .f32⟩
  | 22 => ⟨S4x1, .f32⟩
  | 23 => ⟨S4x1, .f32⟩
  | 24 => ⟨S4x1, .f32⟩
  | 25 => ⟨S4x1, .f32⟩
  | 26 => ⟨S4x1, .f32⟩
  | 27 => ⟨S4x1, .f32⟩
  | 28 => ⟨S4x1, .f32⟩
  | 29 => ⟨S4x1, .f32⟩
  | 30 => ⟨S4x1x1, .f32⟩
  | 31 => ⟨S4x1x1, .f32⟩
  | 32 => ⟨S4x2x1, .f32⟩
  | 33 => ⟨S8, .f32⟩
  | 34 => ⟨S1x1, .f32⟩
  | 35 => ⟨S_, .f32⟩
  | 36 => ⟨S2x2x2, .f32⟩
  | 37 => ⟨S_, .f32⟩
  | 38 => ⟨S_, .f32⟩
  | 39 => ⟨S_, .f32⟩
  | 40 => ⟨S1x1, .f32⟩
  | 41 => ⟨S_, .f32⟩
  | 42 => ⟨S1x1, .f32⟩
  | 43 => ⟨S2x1x2, .f32⟩
  | 44 => ⟨S2x2, .f32⟩
  | 45 => ⟨S2x1x2, .f32⟩
  | 46 => ⟨S2x2, .f32⟩
  | 47 => ⟨S2x2, .f32⟩
  | 48 => ⟨S2x2, .f32⟩
  | 49 => ⟨S2x2, .f32⟩
  | 50 => ⟨S2x2, .f32⟩
  | 51 => ⟨S2x2, .f32⟩
  | 52 => ⟨S2x2, .f32⟩
  | 53 => ⟨S2x2, .f32⟩
  | 54 => ⟨S2x2, .f32⟩
  | 55 => ⟨S2x2, .f32⟩
  | 56 => ⟨S2x2, .f32⟩
  | 57 => ⟨S2x1x2, .f32⟩
  | 58 => ⟨S2x1x2, .f32⟩
  | 59 => ⟨S2x2x2, .f32⟩
  | 60 => ⟨S8, .f32⟩
  | 61 => ⟨S1x1, .f32⟩
  | 62 => ⟨S_, .f32⟩
  | 63 => ⟨S1x2x4, .f32⟩
  | 64 => ⟨S_, .f32⟩
  | 65 => ⟨S_, .f32⟩
  | 66 => ⟨S_, .f32⟩
  | 67 => ⟨S1x1, .f32⟩
  | 68 => ⟨S_, .f32⟩
  | 69 => ⟨S1x1, .f32⟩
  | 70 => ⟨S1x1x4, .f32⟩
  | 71 => ⟨S1x4, .f32⟩
  | 72 => ⟨S1x1x4, .f32⟩
  | 73 => ⟨S1x4, .f32⟩
  | 74 => ⟨S1x4, .f32⟩
  | 75 => ⟨S1x4, .f32⟩
  | 76 => ⟨S1x4, .f32⟩
  | 77 => ⟨S1x4, .f32⟩
  | 78 => ⟨S1x4, .f32⟩
  | 79 => ⟨S1x4, .f32⟩
  | 80 => ⟨S1x4, .f32⟩
  | 81 => ⟨S1x4, .f32⟩
  | 82 => ⟨S1x4, .f32⟩
  | 83 => ⟨S1x4, .f32⟩
  | 84 => ⟨S1x1x4, .f32⟩
  | 85 => ⟨S1x1x4, .f32⟩
  | 86 => ⟨S1x2x4, .f32⟩
  | 87 => ⟨S8, .f32⟩
  | 88 => ⟨S1x1, .f32⟩
  | 89 => ⟨S_, .f32⟩
  | 90 => ⟨S4x2x1, .f32⟩
  | 91 => ⟨S_, .f32⟩
  | 92 => ⟨S_, .f32⟩
  | 93 => ⟨S_, .f32⟩
  | 94 => ⟨S1x1, .f32⟩
  | 95 => ⟨S_, .f32⟩
  | 96 => ⟨S1x1, .f32⟩
  | 97 => ⟨S4x1x1, .f32⟩
  | 98 => ⟨S4x1, .f32⟩
  | 99 => ⟨S4x1x1, .f32⟩
  | 100 => ⟨S4x1, .f32⟩
  | 101 => ⟨S4x1, .f32⟩
  | 102 => ⟨S4x1, .f32⟩
  | 103 => ⟨S4x1, .f32⟩
  | 104 => ⟨S4x1, .f32⟩
  | 105 => ⟨S4x1, .f32⟩
  | 106 => ⟨S4x1, .f32⟩
  | 107 => ⟨S4x1, .f32⟩
  | 108 => ⟨S4x1, .f32⟩
  | 109 => ⟨S4x1, .f32⟩
  | 110 => ⟨S4x1, .f32⟩
  | 111 => ⟨S4x1x1, .f32⟩
  | 112 => ⟨S4x1x1, .f32⟩
  | 113 => ⟨S4x2x1, .f32⟩
  | 114 => ⟨S8, .f32⟩
  | 115 => ⟨S1x1, .f32⟩
  | 116 => ⟨S_, .f32⟩
  | 117 => ⟨S2x2x2, .f32⟩
  | 118 => ⟨S_, .f32⟩
  | 119 => ⟨S_, .f32⟩
  | 120 => ⟨S_, .f32⟩
  | 121 => ⟨S1x1, .f32⟩
  | 122 => ⟨S_, .f32⟩
  | 123 => ⟨S1x1, .f32⟩
  | 124 => ⟨S2x1x2, .f32⟩
  | 125 => ⟨S2x2, .f32⟩
  | 126 => ⟨S2x1x2, .f32⟩
  | 127 => ⟨S2x2, .f32⟩
  | _ => ⟨S32x3x128x128, .f32⟩

abbrev hbmTy0_2 (i : Nat) : BufTy := match i % 128 with
  | 0 => ⟨S2x2, .f32⟩
  | 1 => ⟨S2x2, .f32⟩
  | 2 => ⟨S2x2, .f32⟩
  | 3 => ⟨S2x2, .f32⟩
  | 4 => ⟨S2x2, .f32⟩
  | 5 => ⟨S2x2, .f32⟩
  | 6 => ⟨S2x2, .f32⟩
  | 7 => ⟨S2x2, .f32⟩
  | 8 => ⟨S2x2, .f32⟩
  | 9 => ⟨S2x2, .f32⟩
  | 10 => ⟨S2x1x2, .f32⟩
  | 11 => ⟨S2x1x2, .f32⟩
  | 12 => ⟨S2x2x2, .f32⟩
  | 13 => ⟨S8, .f32⟩
  | 14 => ⟨S1x1, .f32⟩
  | 15 => ⟨S_, .f32⟩
  | 16 => ⟨S1x2x4, .f32⟩
  | 17 => ⟨S_, .f32⟩
  | 18 => ⟨S_, .f32⟩
  | 19 => ⟨S_, .f32⟩
  | 20 => ⟨S1x1, .f32⟩
  | 21 => ⟨S_, .f32⟩
  | 22 => ⟨S1x1, .f32⟩
  | 23 => ⟨S1x1x4, .f32⟩
  | 24 => ⟨S1x4, .f32⟩
  | 25 => ⟨S1x1x4, .f32⟩
  | 26 => ⟨S1x4, .f32⟩
  | 27 => ⟨S1x4, .f32⟩
  | 28 => ⟨S1x4, .f32⟩
  | 29 => ⟨S1x4, .f32⟩
  | 30 => ⟨S1x4, .f32⟩
  | 31 => ⟨S1x4, .f32⟩
  | 32 => ⟨S1x4, .f32⟩
  | 33 => ⟨S1x4, .f32⟩
  | 34 => ⟨S1x4, .f32⟩
  | 35 => ⟨S1x4, .f32⟩
  | 36 => ⟨S1x4, .f32⟩
  | 37 => ⟨S1x1x4, .f32⟩
  | 38 => ⟨S1x1x4, .f32⟩
  | 39 => ⟨S1x2x4, .f32⟩
  | 40 => ⟨S8, .f32⟩
  | 41 => ⟨S8, .i32⟩
  | 42 => ⟨S_, .i32⟩
  | 43 => ⟨S8, .i32⟩
  | 44 => ⟨S8, .i32⟩
  | 45 => ⟨S_, .i32⟩
  | 46 => ⟨S8, .i32⟩
  | 47 => ⟨S8, .i32⟩
  | 48 => ⟨S_, .i32⟩
  | 49 => ⟨S8, .i32⟩
  | 50 => ⟨S8, .i32⟩
  | 51 => ⟨S8, .i32⟩
  | 52 => ⟨S_, .i32⟩
  | 53 => ⟨S8, .i32⟩
  | 54 => ⟨S8, .i1⟩
  | 55 => ⟨S_, .i32⟩
  | 56 => ⟨S8, .i32⟩
  | 57 => ⟨S8, .i32⟩
  | 58 => ⟨S8, .i32⟩
  | 59 => ⟨S8x1, .i32⟩
  | 60 => ⟨S8, .f32⟩
  | 61 => ⟨S8, .i32⟩
  | 62 => ⟨S_, .i32⟩
  | 63 => ⟨S8, .i32⟩
  | 64 => ⟨S8, .i32⟩
  | 65 => ⟨S_, .i32⟩
  | 66 => ⟨S8, .i32⟩
  | 67 => ⟨S8, .i32⟩
  | 68 => ⟨S_, .i32⟩
  | 69 => ⟨S8, .i32⟩
  | 70 => ⟨S8, .i32⟩
  | 71 => ⟨S8, .i32⟩
  | 72 => ⟨S_, .i32⟩
  | 73 => ⟨S8, .i32⟩
  | 74 => ⟨S8, .i1⟩
  | 75 => ⟨S_, .i32⟩
  | 76 => ⟨S8, .i32⟩
  | 77 => ⟨S8, .i32⟩
  | 78 => ⟨S8, .i32⟩
  | 79 => ⟨S8x1, .i32⟩
  | 80 => ⟨S8, .f32⟩
  | 81 => ⟨S32x1x125x125x9, .f32⟩
  | 82 => ⟨S32x125x125x9, .f32⟩
  | 83 => ⟨S500000x9, .f32⟩
  | 84 => ⟨S500000x8, .f32⟩
  | 85 => ⟨S500000x1, .f32⟩
  | 86 => ⟨S500000, .f32⟩
  | 87 => ⟨S500000x4x2x1, .f32⟩
  | 88 => ⟨S_, .f32⟩
  | 89 => ⟨S500000, .f32⟩
  | 90 => ⟨S500000, .f32⟩
  | 91 => ⟨S500000, .f32⟩
  | 92 => ⟨S500000x1x1, .f32⟩
  | 93 => ⟨S500000, .f32⟩
  | 94 => ⟨S500000x1x1, .f32⟩
  | 95 => ⟨S500000x4x1x1, .f32⟩
  | 96 => ⟨S500000x4x1, .f32⟩
  | 97 => ⟨S500000x4x1x1, .f32⟩
  | 98 => ⟨S500000x4x1, .f32⟩
  | 99 => ⟨S500000x4x1, .f32⟩
  | 100 => ⟨S500000x4x1, .f32⟩
  | 101 => ⟨S500000x4x1, .f32⟩
  | 102 => ⟨S500000x4x1, .f32⟩
  | 103 => ⟨S500000x4x1, .f32⟩
  | 104 => ⟨S500000x4x1, .f32⟩
  | 105 => ⟨S500000x4x1, .f32⟩
  | 106 => ⟨S500000x4x1, .f32⟩
  | 107 => ⟨S500000x4x1, .f32⟩
  | 108 => ⟨S500000x4x1, .f32⟩
  | 109 => ⟨S500000x4x1x1, .f32⟩
  | 110 => ⟨S500000x4x1x1, .f32⟩
  | 111 => ⟨S500000x4x2x1, .f32⟩
  | 112 => ⟨S500000x8, .f32⟩
  | 113 => ⟨S500000x1, .f32⟩
  | 114 => ⟨S500000, .f32⟩
  | 115 => ⟨S500000x2x2x2, .f32⟩
  | 116 => ⟨S_, .f32⟩
  | 117 => ⟨S500000, .f32⟩
  | 118 => ⟨S500000, .f32⟩
  | 119 => ⟨S500000, .f32⟩
  | 120 => ⟨S500000x1x1, .f32⟩
  | 121 => ⟨S500000, .f32⟩
  | 122 => ⟨S500000x1x1, .f32⟩
  | 123 => ⟨S500000x2x1x2, .f32⟩
  | 124 => ⟨S500000x2x2, .f32⟩
  | 125 => ⟨S500000x2x1x2, .f32⟩
  | 126 => ⟨S500000x2x2, .f32⟩
  | 127 => ⟨S500000x2x2, .f32⟩
  | _ => ⟨S32x3x128x128, .f32⟩

abbrev hbmTy0_3 (i : Nat) : BufTy := match i % 128 with
  | 0 => ⟨S500000x2x2, .f32⟩
  | 1 => ⟨S500000x2x2, .f32⟩
  | 2 => ⟨S500000x2x2, .f32⟩
  | 3 => ⟨S500000x2x2, .f32⟩
  | 4 => ⟨S500000x2x2, .f32⟩
  | 5 => ⟨S500000x2x2, .f32⟩
  | 6 => ⟨S500000x2x2, .f32⟩
  | 7 => ⟨S500000x2x2, .f32⟩
  | 8 => ⟨S500000x2x2, .f32⟩
  | 9 => ⟨S500000x2x1x2, .f32⟩
  | 10 => ⟨S500000x2x1x2, .f32⟩
  | 11 => ⟨S500000x2x2x2, .f32⟩
  | 12 => ⟨S500000x8, .f32⟩
  | 13 => ⟨S500000x1, .f32⟩
  | 14 => ⟨S500000, .f32⟩
  | 15 => ⟨S500000x1x2x4, .f32⟩
  | 16 => ⟨S_, .f32⟩
  | 17 => ⟨S500000, .f32⟩
  | 18 => ⟨S500000, .f32⟩
  | 19 => ⟨S500000, .f32⟩
  | 20 => ⟨S500000x1x1, .f32⟩
  | 21 => ⟨S500000, .f32⟩
  | 22 => ⟨S500000x1x1, .f32⟩
  | 23 => ⟨S500000x1x1x4, .f32⟩
  | 24 => ⟨S500000x1x4, .f32⟩
  | 25 => ⟨S500000x1x1x4, .f32⟩
  | 26 => ⟨S500000x1x4, .f32⟩
  | 27 => ⟨S500000x1x4, .f32⟩
  | 28 => ⟨S500000x1x4, .f32⟩
  | 29 => ⟨S500000x1x4, .f32⟩
  | 30 => ⟨S500000x1x4, .f32⟩
  | 31 => ⟨S500000x1x4, .f32⟩
  | 32 => ⟨S500000x1x4, .f32⟩
  | 33 => ⟨S500000x1x4, .f32⟩
  | 34 => ⟨S500000x1x4, .f32⟩
  | 35 => ⟨S500000x1x4, .f32⟩
  | 36 => ⟨S500000x1x4, .f32⟩
  | 37 => ⟨S500000x1x1x4, .f32⟩
  | 38 => ⟨S500000x1x1x4, .f32⟩
  | 39 => ⟨S500000x1x2x4, .f32⟩
  | 40 => ⟨S500000x8, .f32⟩
  | 41 => ⟨S500000x1, .f32⟩
  | 42 => ⟨S500000, .f32⟩
  | 43 => ⟨S500000x4x2x1, .f32⟩
  | 44 => ⟨S_, .f32⟩
  | 45 => ⟨S500000, .f32⟩
  | 46 => ⟨S500000, .f32⟩
  | 47 => ⟨S500000, .f32⟩
  | 48 => ⟨S500000x1x1, .f32⟩
  | 49 => ⟨S500000, .f32⟩
  | 50 => ⟨S500000x1x1, .f32⟩
  | 51 => ⟨S500000x4x1x1, .f32⟩
  | 52 => ⟨S500000x4x1, .f32⟩
  | 53 => ⟨S500000x4x1x1, .f32⟩
  | 54 => ⟨S500000x4x1, .f32⟩
  | 55 => ⟨S500000x4x1, .f32⟩
  | 56 => ⟨S500000x4x1, .f32⟩
  | 57 => ⟨S500000x4x1, .f32⟩
  | 58 => ⟨S500000x4x1, .f32⟩
  | 59 => ⟨S500000x4x1, .f32⟩
  | 60 => ⟨S500000x4x1, .f32⟩
  | 61 => ⟨S500000x4x1, .f32⟩
  | 62 => ⟨S500000x4x1, .f32⟩
  | 63 => ⟨S500000x4x1, .f32⟩
  | 64 => ⟨S500000x4x1, .f32⟩
  | 65 => ⟨S500000x4x1x1, .f32⟩
  | 66 => ⟨S500000x4x1x1, .f32⟩
  | 67 => ⟨S500000x4x2x1, .f32⟩
  | 68 => ⟨S500000x8, .f32⟩
  | 69 => ⟨S500000x1, .f32⟩
  | 70 => ⟨S500000, .f32⟩
  | 71 => ⟨S500000x2x2x2, .f32⟩
  | 72 => ⟨S_, .f32⟩
  | 73 => ⟨S500000, .f32⟩
  | 74 => ⟨S500000, .f32⟩
  | 75 => ⟨S500000, .f32⟩
  | 76 => ⟨S500000x1x1, .f32⟩
  | 77 => ⟨S500000, .f32⟩
  | 78 => ⟨S500000x1x1, .f32⟩
  | 79 => ⟨S500000x2x1x2, .f32⟩
  | 80 => ⟨S500000x2x2, .f32⟩
  | 81 => ⟨S500000x2x1x2, .f32⟩
  | 82 => ⟨S500000x2x2, .f32⟩
  | 83 => ⟨S500000x2x2, .f32⟩
  | 84 => ⟨S500000x2x2, .f32⟩
  | 85 => ⟨S500000x2x2, .f32⟩
  | 86 => ⟨S500000x2x2, .f32⟩
  | 87 => ⟨S500000x2x2, .f32⟩
  | 88 => ⟨S500000x2x2, .f32⟩
  | 89 => ⟨S500000x2x2, .f32⟩
  | 90 => ⟨S500000x2x2, .f32⟩
  | 91 => ⟨S500000x2x2, .f32⟩
  | 92 => ⟨S500000x2x2, .f32⟩
  | 93 => ⟨S500000x2x1x2, .f32⟩
  | 94 => ⟨S500000x2x1x2, .f32⟩
  | 95 => ⟨S500000x2x2x2, .f32⟩
  | 96 => ⟨S500000x8, .f32⟩
  | 97 => ⟨S500000x1, .f32⟩
  | 98 => ⟨S500000, .f32⟩
  | 99 => ⟨S500000x1x2x4, .f32⟩
  | 100 => ⟨S_, .f32⟩
  | 101 => ⟨S500000, .f32⟩
  | 102 => ⟨S500000, .f32⟩
  | 103 => ⟨S500000, .f32⟩
  | 104 => ⟨S500000x1x1, .f32⟩
  | 105 => ⟨S500000, .f32⟩
  | 106 => ⟨S500000x1x1, .f32⟩
  | 107 => ⟨S500000x1x1x4, .f32⟩
  | 108 => ⟨S500000x1x4, .f32⟩
  | 109 => ⟨S500000x1x1x4, .f32⟩
  | 110 => ⟨S500000x1x4, .f32⟩
  | 111 => ⟨S500000x1x4, .f32⟩
  | 112 => ⟨S500000x1x4, .f32⟩
  | 113 => ⟨S500000x1x4, .f32⟩
  | 114 => ⟨S500000x1x4, .f32⟩
  | 115 => ⟨S500000x1x4, .f32⟩
  | 116 => ⟨S500000x1x4, .f32⟩
  | 117 => ⟨S500000x1x4, .f32⟩
  | 118 => ⟨S500000x1x4, .f32⟩
  | 119 => ⟨S500000x1x4, .f32⟩
  | 120 => ⟨S500000x1x4, .f32⟩
  | 121 => ⟨S500000x1x1x4, .f32⟩
  | 122 => ⟨S500000x1x1x4, .f32⟩
  | 123 => ⟨S500000x1x2x4, .f32⟩
  | 124 => ⟨S500000x8, .f32⟩
  | 125 => ⟨S500000x1, .f32⟩
  | 126 => ⟨S500000, .f32⟩
  | 127 => ⟨S500000x4x2x1, .f32⟩
  | _ => ⟨S32x3x128x128, .f32⟩

abbrev hbmTy0_4 (i : Nat) : BufTy := match i % 128 with
  | 0 => ⟨S_, .f32⟩
  | 1 => ⟨S500000, .f32⟩
  | 2 => ⟨S500000, .f32⟩
  | 3 => ⟨S500000, .f32⟩
  | 4 => ⟨S500000x1x1, .f32⟩
  | 5 => ⟨S500000, .f32⟩
  | 6 => ⟨S500000x1x1, .f32⟩
  | 7 => ⟨S500000x4x1x1, .f32⟩
  | 8 => ⟨S500000x4x1, .f32⟩
  | 9 => ⟨S500000x4x1x1, .f32⟩
  | 10 => ⟨S500000x4x1, .f32⟩
  | 11 => ⟨S500000x4x1, .f32⟩
  | 12 => ⟨S500000x4x1, .f32⟩
  | 13 => ⟨S500000x4x1, .f32⟩
  | 14 => ⟨S500000x4x1, .f32⟩
  | 15 => ⟨S500000x4x1, .f32⟩
  | 16 => ⟨S500000x4x1, .f32⟩
  | 17 => ⟨S500000x4x1, .f32⟩
  | 18 => ⟨S500000x4x1, .f32⟩
  | 19 => ⟨S500000x4x1, .f32⟩
  | 20 => ⟨S500000x4x1, .f32⟩
  | 21 => ⟨S500000x4x1x1, .f32⟩
  | 22 => ⟨S500000x4x1x1, .f32⟩
  | 23 => ⟨S500000x4x2x1, .f32⟩
  | 24 => ⟨S500000x8, .f32⟩
  | 25 => ⟨S500000x1, .f32⟩
  | 26 => ⟨S500000, .f32⟩
  | 27 => ⟨S500000x2x2x2, .f32⟩
  | 28 => ⟨S_, .f32⟩
  | 29 => ⟨S500000, .f32⟩
  | 30 => ⟨S500000, .f32⟩
  | 31 => ⟨S500000, .f32⟩
  | 32 => ⟨S500000x1x1, .f32⟩
  | 33 => ⟨S500000, .f32⟩
  | 34 => ⟨S500000x1x1, .f32⟩
  | 35 => ⟨S500000x2x1x2, .f32⟩
  | 36 => ⟨S500000x2x2, .f32⟩
  | 37 => ⟨S500000x2x1x2, .f32⟩
  | 38 => ⟨S500000x2x2, .f32⟩
  | 39 => ⟨S500000x2x2, .f32⟩
  | 40 => ⟨S500000x2x2, .f32⟩
  | 41 => ⟨S500000x2x2, .f32⟩
  | 42 => ⟨S500000x2x2, .f32⟩
  | 43 => ⟨S500000x2x2, .f32⟩
  | 44 => ⟨S500000x2x2, .f32⟩
  | 45 => ⟨S500000x2x2, .f32⟩
  | 46 => ⟨S500000x2x2, .f32⟩
  | 47 => ⟨S500000x2x2, .f32⟩
  | 48 => ⟨S500000x2x2, .f32⟩
  | 49 => ⟨S500000x2x1x2, .f32⟩
  | 50 => ⟨S500000x2x1x2, .f32⟩
  | 51 => ⟨S500000x2x2x2, .f32⟩
  | 52 => ⟨S500000x8, .f32⟩
  | 53 => ⟨S500000x1, .f32⟩
  | 54 => ⟨S500000, .f32⟩
  | 55 => ⟨S500000x1x2x4, .f32⟩
  | 56 => ⟨S_, .f32⟩
  | 57 => ⟨S500000, .f32⟩
  | 58 => ⟨S500000, .f32⟩
  | 59 => ⟨S500000, .f32⟩
  | 60 => ⟨S500000x1x1, .f32⟩
  | 61 => ⟨S500000, .f32⟩
  | 62 => ⟨S500000x1x1, .f32⟩
  | 63 => ⟨S500000x1x1x4, .f32⟩
  | 64 => ⟨S500000x1x4, .f32⟩
  | 65 => ⟨S500000x1x1x4, .f32⟩
  | 66 => ⟨S500000x1x4, .f32⟩
  | 67 => ⟨S500000x1x4, .f32⟩
  | 68 => ⟨S500000x1x4, .f32⟩
  | 69 => ⟨S500000x1x4, .f32⟩
  | 70 => ⟨S500000x1x4, .f32⟩
  | 71 => ⟨S500000x1x4, .f32⟩
  | 72 => ⟨S500000x1x4, .f32⟩
  | 73 => ⟨S500000x1x4, .f32⟩
  | 74 => ⟨S500000x1x4, .f32⟩
  | 75 => ⟨S500000x1x4, .f32⟩
  | 76 => ⟨S500000x1x4, .f32⟩
  | 77 => ⟨S500000x1x1x4, .f32⟩
  | 78 => ⟨S500000x1x1x4, .f32⟩
  | 79 => ⟨S500000x1x2x4, .f32⟩
  | 80 => ⟨S500000x8, .f32⟩
  | 81 => ⟨S8, .i32⟩
  | 82 => ⟨S_, .i32⟩
  | 83 => ⟨S8, .i32⟩
  | 84 => ⟨S8, .i32⟩
  | 85 => ⟨S_, .i32⟩
  | 86 => ⟨S8, .i32⟩
  | 87 => ⟨S8, .i32⟩
  | 88 => ⟨S_, .i32⟩
  | 89 => ⟨S8, .i32⟩
  | 90 => ⟨S8, .i32⟩
  | 91 => ⟨S8, .i32⟩
  | 92 => ⟨S_, .i32⟩
  | 93 => ⟨S8, .i32⟩
  | 94 => ⟨S8, .i1⟩
  | 95 => ⟨S_, .i32⟩
  | 96 => ⟨S8, .i32⟩
  | 97 => ⟨S8, .i32⟩
  | 98 => ⟨S8, .i32⟩
  | 99 => ⟨S8x1, .i32⟩
  | 100 => ⟨S500000x8, .f32⟩
  | 101 => ⟨S8, .i32⟩
  | 102 => ⟨S_, .i32⟩
  | 103 => ⟨S8, .i32⟩
  | 104 => ⟨S8, .i32⟩
  | 105 => ⟨S_, .i32⟩
  | 106 => ⟨S8, .i32⟩
  | 107 => ⟨S8, .i32⟩
  | 108 => ⟨S_, .i32⟩
  | 109 => ⟨S8, .i32⟩
  | 110 => ⟨S8, .i32⟩
  | 111 => ⟨S8, .i32⟩
  | 112 => ⟨S_, .i32⟩
  | 113 => ⟨S8, .i32⟩
  | 114 => ⟨S8, .i1⟩
  | 115 => ⟨S_, .i32⟩
  | 116 => ⟨S8, .i32⟩
  | 117 => ⟨S8, .i32⟩
  | 118 => ⟨S8, .i32⟩
  | 119 => ⟨S8x1, .i32⟩
  | 120 => ⟨S500000x8, .f32⟩
  | 121 => ⟨S500000x8, .f32⟩
  | 122 => ⟨S500000x4, .f32⟩
  | 123 => ⟨S32x125x125x4, .f32⟩
  | 124 => ⟨S32x125x125x4, .f32⟩
  | 125 => ⟨S_, .f32⟩
  | 126 => ⟨S8, .f32⟩
  | 127 => ⟨S1x1, .f32⟩
  | _ => ⟨S32x3x128x128, .f32⟩

abbrev hbmTy0_5 (i : Nat) : BufTy := match i % 128 with
  | 0 => ⟨S_, .f32⟩
  | 1 => ⟨S4x2x1, .f32⟩
  | 2 => ⟨S_, .f32⟩
  | 3 => ⟨S_, .f32⟩
  | 4 => ⟨S_, .f32⟩
  | 5 => ⟨S1x1, .f32⟩
  | 6 => ⟨S_, .f32⟩
  | 7 => ⟨S1x1, .f32⟩
  | 8 => ⟨S4x1x1, .f32⟩
  | 9 => ⟨S4x1, .f32⟩
  | 10 => ⟨S4x1x1, .f32⟩
  | 11 => ⟨S4x1, .f32⟩
  | 12 => ⟨S4x1, .f32⟩
  | 13 => ⟨S4x1, .f32⟩
  | 14 => ⟨S4x1, .f32⟩
  | 15 => ⟨S4x1, .f32⟩
  | 16 => ⟨S4x1, .f32⟩
  | 17 => ⟨S4x1, .f32⟩
  | 18 => ⟨S4x1, .f32⟩
  | 19 => ⟨S4x1, .f32⟩
  | 20 => ⟨S4x1, .f32⟩
  | 21 => ⟨S4x1, .f32⟩
  | 22 => ⟨S4x1x1, .f32⟩
  | 23 => ⟨S4x1x1, .f32⟩
  | 24 => ⟨S4x2x1, .f32⟩
  | 25 => ⟨S8, .f32⟩
  | 26 => ⟨S1x1, .f32⟩
  | 27 => ⟨S_, .f32⟩
  | 28 => ⟨S2x2x2, .f32⟩
  | 29 => ⟨S_, .f32⟩
  | 30 => ⟨S_, .f32⟩
  | 31 => ⟨S_, .f32⟩
  | 32 => ⟨S1x1, .f32⟩
  | 33 => ⟨S_, .f32⟩
  | 34 => ⟨S1x1, .f32⟩
  | 35 => ⟨S2x1x2, .f32⟩
  | 36 => ⟨S2x2, .f32⟩
  | 37 => ⟨S2x1x2, .f32⟩
  | 38 => ⟨S2x2, .f32⟩
  | 39 => ⟨S2x2, .f32⟩
  | 40 => ⟨S2x2, .f32⟩
  | 41 => ⟨S2x2, .f32⟩
  | 42 => ⟨S2x2, .f32⟩
  | 43 => ⟨S2x2, .f32⟩
  | 44 => ⟨S2x2, .f32⟩
  | 45 => ⟨S2x2, .f32⟩
  | 46 => ⟨S2x2, .f32⟩
  | 47 => ⟨S2x2, .f32⟩
  | 48 => ⟨S2x2, .f32⟩
  | 49 => ⟨S2x1x2, .f32⟩
  | 50 => ⟨S2x1x2, .f32⟩
  | 51 => ⟨S2x2x2, .f32⟩
  | 52 => ⟨S8, .f32⟩
  | 53 => ⟨S1x1, .f32⟩
  | 54 => ⟨S_, .f32⟩
  | 55 => ⟨S1x2x4, .f32⟩
  | 56 => ⟨S_, .f32⟩
  | 57 => ⟨S_, .f32⟩
  | 58 => ⟨S_, .f32⟩
  | 59 => ⟨S1x1, .f32⟩
  | 60 => ⟨S_, .f32⟩
  | 61 => ⟨S1x1, .f32⟩
  | 62 => ⟨S1x1x4, .f32⟩
  | 63 => ⟨S1x4, .f32⟩
  | 64 => ⟨S1x1x4, .f32⟩
  | 65 => ⟨S1x4, .f32⟩
  | 66 => ⟨S1x4, .f32⟩
  | 67 => ⟨S1x4, .f32⟩
  | 68 => ⟨S1x4, .f32⟩
  | 69 => ⟨S1x4, .f32⟩
  | 70 => ⟨S1x4, .f32⟩
  | 71 => ⟨S1x4, .f32⟩
  | 72 => ⟨S1x4, .f32⟩
  | 73 => ⟨S1x4, .f32⟩
  | 74 => ⟨S1x4, .f32⟩
  | 75 => ⟨S1x4, .f32⟩
  | 76 => ⟨S1x1x4, .f32⟩
  | 77 => ⟨S1x1x4, .f32⟩
  | 78 => ⟨S1x2x4, .f32⟩
  | 79 => ⟨S8, .f32⟩
  | 80 => ⟨S1x1, .f32⟩
  | 81 => ⟨S_, .f32⟩
  | 82 => ⟨S4x2x1, .f32⟩
  | 83 => ⟨S_, .f32⟩
  | 84 => ⟨S_, .f32⟩
  | 85 => ⟨S_, .f32⟩
  | 86 => ⟨S1x1, .f32⟩
  | 87 => ⟨S_, .f32⟩
  | 88 => ⟨S1x1, .f32⟩
  | 89 => ⟨S4x1x1, .f32⟩
  | 90 => ⟨S4x1, .f32⟩
  | 91 => ⟨S4x1x1, .f32⟩
  | 92 => ⟨S4x1, .f32⟩
  | 93 => ⟨S4x1, .f32⟩
  | 94 => ⟨S4x1, .f32⟩
  | 95 => ⟨S4x1, .f32⟩
  | 96 => ⟨S4x1, .f32⟩
  | 97 => ⟨S4x1, .f32⟩
  | 98 => ⟨S4x1, .f32⟩
  | 99 => ⟨S4x1, .f32⟩
  | 100 => ⟨S4x1, .f32⟩
  | 101 => ⟨S4x1, .f32⟩
  | 102 => ⟨S4x1, .f32⟩
  | 103 => ⟨S4x1x1, .f32⟩
  | 104 => ⟨S4x1x1, .f32⟩
  | 105 => ⟨S4x2x1, .f32⟩
  | 106 => ⟨S8, .f32⟩
  | 107 => ⟨S1x1, .f32⟩
  | 108 => ⟨S_, .f32⟩
  | 109 => ⟨S2x2x2, .f32⟩
  | 110 => ⟨S_, .f32⟩
  | 111 => ⟨S_, .f32⟩
  | 112 => ⟨S_, .f32⟩
  | 113 => ⟨S1x1, .f32⟩
  | 114 => ⟨S_, .f32⟩
  | 115 => ⟨S1x1, .f32⟩
  | 116 => ⟨S2x1x2, .f32⟩
  | 117 => ⟨S2x2, .f32⟩
  | 118 => ⟨S2x1x2, .f32⟩
  | 119 => ⟨S2x2, .f32⟩
  | 120 => ⟨S2x2, .f32⟩
  | 121 => ⟨S2x2, .f32⟩
  | 122 => ⟨S2x2, .f32⟩
  | 123 => ⟨S2x2, .f32⟩
  | 124 => ⟨S2x2, .f32⟩
  | 125 => ⟨S2x2, .f32⟩
  | 126 => ⟨S2x2, .f32⟩
  | 127 => ⟨S2x2, .f32⟩
  | _ => ⟨S32x3x128x128, .f32⟩

abbrev hbmTy0_6 (i : Nat) : BufTy := match i % 128 with
  | 0 => ⟨S2x2, .f32⟩
  | 1 => ⟨S2x2, .f32⟩
  | 2 => ⟨S2x1x2, .f32⟩
  | 3 => ⟨S2x1x2, .f32⟩
  | 4 => ⟨S2x2x2, .f32⟩
  | 5 => ⟨S8, .f32⟩
  | 6 => ⟨S1x1, .f32⟩
  | 7 => ⟨S_, .f32⟩
  | 8 => ⟨S1x2x4, .f32⟩
  | 9 => ⟨S_, .f32⟩
  | 10 => ⟨S_, .f32⟩
  | 11 => ⟨S_, .f32⟩
  | 12 => ⟨S1x1, .f32⟩
  | 13 => ⟨S_, .f32⟩
  | 14 => ⟨S1x1, .f32⟩
  | 15 => ⟨S1x1x4, .f32⟩
  | 16 => ⟨S1x4, .f32⟩
  | 17 => ⟨S1x1x4, .f32⟩
  | 18 => ⟨S1x4, .f32⟩
  | 19 => ⟨S1x4, .f32⟩
  | 20 => ⟨S1x4, .f32⟩
  | 21 => ⟨S1x4, .f32⟩
  | 22 => ⟨S1x4, .f32⟩
  | 23 => ⟨S1x4, .f32⟩
  | 24 => ⟨S1x4, .f32⟩
  | 25 => ⟨S1x4, .f32⟩
  | 26 => ⟨S1x4, .f32⟩
  | 27 => ⟨S1x4, .f32⟩
  | 28 => ⟨S1x4, .f32⟩
  | 29 => ⟨S1x1x4, .f32⟩
  | 30 => ⟨S1x1x4, .f32⟩
  | 31 => ⟨S1x2x4, .f32⟩
  | 32 => ⟨S8, .f32⟩
  | 33 => ⟨S1x1, .f32⟩
  | 34 => ⟨S_, .f32⟩
  | 35 => ⟨S4x2x1, .f32⟩
  | 36 => ⟨S_, .f32⟩
  | 37 => ⟨S_, .f32⟩
  | 38 => ⟨S_, .f32⟩
  | 39 => ⟨S1x1, .f32⟩
  | 40 => ⟨S_, .f32⟩
  | 41 => ⟨S1x1, .f32⟩
  | 42 => ⟨S4x1x1, .f32⟩
  | 43 => ⟨S4x1, .f32⟩
  | 44 => ⟨S4x1x1, .f32⟩
  | 45 => ⟨S4x1, .f32⟩
  | 46 => ⟨S4x1, .f32⟩
  | 47 => ⟨S4x1, .f32⟩
  | 48 => ⟨S4x1, .f32⟩
  | 49 => ⟨S4x1, .f32⟩
  | 50 => ⟨S4x1, .f32⟩
  | 51 => ⟨S4x1, .f32⟩
  | 52 => ⟨S4x1, .f32⟩
  | 53 => ⟨S4x1, .f32⟩
  | 54 => ⟨S4x1, .f32⟩
  | 55 => ⟨S4x1, .f32⟩
  | 56 => ⟨S4x1x1, .f32⟩
  | 57 => ⟨S4x1x1, .f32⟩
  | 58 => ⟨S4x2x1, .f32⟩
  | 59 => ⟨S8, .f32⟩
  | 60 => ⟨S1x1, .f32⟩
  | 61 => ⟨S_, .f32⟩
  | 62 => ⟨S2x2x2, .f32⟩
  | 63 => ⟨S_, .f32⟩
  | 64 => ⟨S_, .f32⟩
  | 65 => ⟨S_, .f32⟩
  | 66 => ⟨S1x1, .f32⟩
  | 67 => ⟨S_, .f32⟩
  | 68 => ⟨S1x1, .f32⟩
  | 69 => ⟨S2x1x2, .f32⟩
  | 70 => ⟨S2x2, .f32⟩
  | 71 => ⟨S2x1x2, .f32⟩
  | 72 => ⟨S2x2, .f32⟩
  | 73 => ⟨S2x2, .f32⟩
  | 74 => ⟨S2x2, .f32⟩
  | 75 => ⟨S2x2, .f32⟩
  | 76 => ⟨S2x2, .f32⟩
  | 77 => ⟨S2x2, .f32⟩
  | 78 => ⟨S2x2, .f32⟩
  | 79 => ⟨S2x2, .f32⟩
  | 80 => ⟨S2x2, .f32⟩
  | 81 => ⟨S2x2, .f32⟩
  | 82 => ⟨S2x2, .f32⟩
  | 83 => ⟨S2x1x2, .f32⟩
  | 84 => ⟨S2x1x2, .f32⟩
  | 85 => ⟨S2x2x2, .f32⟩
  | 86 => ⟨S8, .f32⟩
  | 87 => ⟨S1x1, .f32⟩
  | 88 => ⟨S_, .f32⟩
  | 89 => ⟨S1x2x4, .f32⟩
  | 90 => ⟨S_, .f32⟩
  | 91 => ⟨S_, .f32⟩
  | 92 => ⟨S_, .f32⟩
  | 93 => ⟨S1x1, .f32⟩
  | 94 => ⟨S_, .f32⟩
  | 95 => ⟨S1x1, .f32⟩
  | 96 => ⟨S1x1x4, .f32⟩
  | 97 => ⟨S1x4, .f32⟩
  | 98 => ⟨S1x1x4, .f32⟩
  | 99 => ⟨S1x4, .f32⟩
  | 100 => ⟨S1x4, .f32⟩
  | 101 => ⟨S1x4, .f32⟩
  | 102 => ⟨S1x4, .f32⟩
  | 103 => ⟨S1x4, .f32⟩
  | 104 => ⟨S1x4, .f32⟩
  | 105 => ⟨S1x4, .f32⟩
  | 106 => ⟨S1x4, .f32⟩
  | 107 => ⟨S1x4, .f32⟩
  | 108 => ⟨S1x4, .f32⟩
  | 109 => ⟨S1x4, .f32⟩
  | 110 => ⟨S1x1x4, .f32⟩
  | 111 => ⟨S1x1x4, .f32⟩
  | 112 => ⟨S1x2x4, .f32⟩
  | 113 => ⟨S8, .f32⟩
  | 114 => ⟨S8, .i32⟩
  | 115 => ⟨S_, .i32⟩
  | 116 => ⟨S8, .i32⟩
  | 117 => ⟨S8, .i32⟩
  | 118 => ⟨S_, .i32⟩
  | 119 => ⟨S8, .i32⟩
  | 120 => ⟨S8, .i32⟩
  | 121 => ⟨S_, .i32⟩
  | 122 => ⟨S8, .i32⟩
  | 123 => ⟨S8, .i32⟩
  | 124 => ⟨S8, .i32⟩
  | 125 => ⟨S_, .i32⟩
  | 126 => ⟨S8, .i32⟩
  | 127 => ⟨S8, .i1⟩
  | _ => ⟨S32x3x128x128, .f32⟩

abbrev hbmTy0_7 (i : Nat) : BufTy := match i % 128 with
  | 0 => ⟨S_, .i32⟩
  | 1 => ⟨S8, .i32⟩
  | 2 => ⟨S8, .i32⟩
  | 3 => ⟨S8, .i32⟩
  | 4 => ⟨S8x1, .i32⟩
  | 5 => ⟨S8, .f32⟩
  | 6 => ⟨S8, .i32⟩
  | 7 => ⟨S_, .i32⟩
  | 8 => ⟨S8, .i32⟩
  | 9 => ⟨S8, .i32⟩
  | 10 => ⟨S_, .i32⟩
  | 11 => ⟨S8, .i32⟩
  | 12 => ⟨S8, .i32⟩
  | 13 => ⟨S_, .i32⟩
  | 14 => ⟨S8, .i32⟩
  | 15 => ⟨S8, .i32⟩
  | 16 => ⟨S8, .i32⟩
  | 17 => ⟨S_, .i32⟩
  | 18 => ⟨S8, .i32⟩
  | 19 => ⟨S8, .i1⟩
  | 20 => ⟨S_, .i32⟩
  | 21 => ⟨S8, .i32⟩
  | 22 => ⟨S8, .i32⟩
  | 23 => ⟨S8, .i32⟩
  | 24 => ⟨S8x1, .i32⟩
  | 25 => ⟨S8, .f32⟩
  | 26 => ⟨S32x1x125x125x9, .f32⟩
  | 27 => ⟨S32x125x125x9, .f32⟩
  | 28 => ⟨S500000x9, .f32⟩
  | 29 => ⟨S500000x8, .f32⟩
  | 30 => ⟨S500000x1, .f32⟩
  | 31 => ⟨S500000, .f32⟩
  | 32 => ⟨S500000x4x2x1, .f32⟩
  | 33 => ⟨S_, .f32⟩
  | 34 => ⟨S500000, .f32⟩
  | 35 => ⟨S500000, .f32⟩
  | 36 => ⟨S500000, .f32⟩
  | 37 => ⟨S500000x1x1, .f32⟩
  | 38 => ⟨S500000, .f32⟩
  | 39 => ⟨S500000x1x1, .f32⟩
  | 40 => ⟨S500000x4x1x1, .f32⟩
  | 41 => ⟨S500000x4x1, .f32⟩
  | 42 => ⟨S500000x4x1x1, .f32⟩
  | 43 => ⟨S500000x4x1, .f32⟩
  | 44 => ⟨S500000x4x1, .f32⟩
  | 45 => ⟨S500000x4x1, .f32⟩
  | 46 => ⟨S500000x4x1, .f32⟩
  | 47 => ⟨S500000x4x1, .f32⟩
  | 48 => ⟨S500000x4x1, .f32⟩
  | 49 => ⟨S500000x4x1, .f32⟩
  | 50 => ⟨S500000x4x1, .f32⟩
  | 51 => ⟨S500000x4x1, .f32⟩
  | 52 => ⟨S500000x4x1, .f32⟩
  | 53 => ⟨S500000x4x1, .f32⟩
  | 54 => ⟨S500000x4x1x1, .f32⟩
  | 55 => ⟨S500000x4x1x1, .f32⟩
  | 56 => ⟨S500000x4x2x1, .f32⟩
  | 57 => ⟨S500000x8, .f32⟩
  | 58 => ⟨S500000x1, .f32⟩
  | 59 => ⟨S500000, .f32⟩
  | 60 => ⟨S500000x2x2x2, .f32⟩
  | 61 => ⟨S_, .f32⟩
  | 62 => ⟨S500000, .f32⟩
  | 63 => ⟨S500000, .f32⟩
  | 64 => ⟨S500000, .f32⟩
  | 65 => ⟨S500000x1x1, .f32⟩
  | 66 => ⟨S500000, .f32⟩
  | 67 => ⟨S500000x1x1, .f32⟩
  | 68 => ⟨S500000x2x1x2, .f32⟩
  | 69 => ⟨S500000x2x2, .f32⟩
  | 70 => ⟨S500000x2x1x2, .f32⟩
  | 71 => ⟨S500000x2x2, .f32⟩
  | 72 => ⟨S500000x2x2, .f32⟩
  | 73 => ⟨S500000x2x2, .f32⟩
  | 74 => ⟨S500000x2x2, .f32⟩
  | 75 => ⟨S500000x2x2, .f32⟩
  | 76 => ⟨S500000x2x2, .f32⟩
  | 77 => ⟨S500000x2x2, .f32⟩
  | 78 => ⟨S500000x2x2, .f32⟩
  | 79 => ⟨S500000x2x2, .f32⟩
  | 80 => ⟨S500000x2x2, .f32⟩
  | 81 => ⟨S500000x2x2, .f32⟩
  | 82 => ⟨S500000x2x1x2, .f32⟩
  | 83 => ⟨S500000x2x1x2, .f32⟩
  | 84 => ⟨S500000x2x2x2, .f32⟩
  | 85 => ⟨S500000x8, .f32⟩
  | 86 => ⟨S500000x1, .f32⟩
  | 87 => ⟨S500000, .f32⟩
  | 88 => ⟨S500000x1x2x4, .f32⟩
  | 89 => ⟨S_, .f32⟩
  | 90 => ⟨S500000, .f32⟩
  | 91 => ⟨S500000, .f32⟩
  | 92 => ⟨S500000, .f32⟩
  | 93 => ⟨S500000x1x1, .f32⟩
  | 94 => ⟨S500000, .f32⟩
  | 95 => ⟨S500000x1x1, .f32⟩
  | 96 => ⟨S500000x1x1x4, .f32⟩
  | 97 => ⟨S500000x1x4, .f32⟩
  | 98 => ⟨S500000x1x1x4, .f32⟩
  | 99 => ⟨S500000x1x4, .f32⟩
  | 100 => ⟨S500000x1x4, .f32⟩
  | 101 => ⟨S500000x1x4, .f32⟩
  | 102 => ⟨S500000x1x4, .f32⟩
  | 103 => ⟨S500000x1x4, .f32⟩
  | 104 => ⟨S500000x1x4, .f32⟩
  | 105 => ⟨S500000x1x4, .f32⟩
  | 106 => ⟨S500000x1x4, .f32⟩
  | 107 => ⟨S500000x1x4, .f32⟩
  | 108 => ⟨S500000x1x4, .f32⟩
  | 109 => ⟨S500000x1x4, .f32⟩
  | 110 => ⟨S500000x1x1x4, .f32⟩
  | 111 => ⟨S500000x1x1x4, .f32⟩
  | 112 => ⟨S500000x1x2x4, .f32⟩
  | 113 => ⟨S500000x8, .f32⟩
  | 114 => ⟨S500000x1, .f32⟩
  | 115 => ⟨S500000, .f32⟩
  | 116 => ⟨S500000x4x2x1, .f32⟩
  | 117 => ⟨S_, .f32⟩
  | 118 => ⟨S500000, .f32⟩
  | 119 => ⟨S500000, .f32⟩
  | 120 => ⟨S500000, .f32⟩
  | 121 => ⟨S500000x1x1, .f32⟩
  | 122 => ⟨S500000, .f32⟩
  | 123 => ⟨S500000x1x1, .f32⟩
  | 124 => ⟨S500000x4x1x1, .f32⟩
  | 125 => ⟨S500000x4x1, .f32⟩
  | 126 => ⟨S500000x4x1x1, .f32⟩
  | 127 => ⟨S500000x4x1, .f32⟩
  | _ => ⟨S32x3x128x128, .f32⟩

abbrev hbmTy0_8 (i : Nat) : BufTy := match i % 128 with
  | 0 => ⟨S500000x4x1, .f32⟩
  | 1 => ⟨S500000x4x1, .f32⟩
  | 2 => ⟨S500000x4x1, .f32⟩
  | 3 => ⟨S500000x4x1, .f32⟩
  | 4 => ⟨S500000x4x1, .f32⟩
  | 5 => ⟨S500000x4x1, .f32⟩
  | 6 => ⟨S500000x4x1, .f32⟩
  | 7 => ⟨S500000x4x1, .f32⟩
  | 8 => ⟨S500000x4x1, .f32⟩
  | 9 => ⟨S500000x4x1, .f32⟩
  | 10 => ⟨S500000x4x1x1, .f32⟩
  | 11 => ⟨S500000x4x1x1, .f32⟩
  | 12 => ⟨S500000x4x2x1, .f32⟩
  | 13 => ⟨S500000x8, .f32⟩
  | 14 => ⟨S500000x1, .f32⟩
  | 15 => ⟨S500000, .f32⟩
  | 16 => ⟨S500000x2x2x2, .f32⟩
  | 17 => ⟨S_, .f32⟩
  | 18 => ⟨S500000, .f32⟩
  | 19 => ⟨S500000, .f32⟩
  | 20 => ⟨S500000, .f32⟩
  | 21 => ⟨S500000x1x1, .f32⟩
  | 22 => ⟨S500000, .f32⟩
  | 23 => ⟨S500000x1x1, .f32⟩
  | 24 => ⟨S500000x2x1x2, .f32⟩
  | 25 => ⟨S500000x2x2, .f32⟩
  | 26 => ⟨S500000x2x1x2, .f32⟩
  | 27 => ⟨S500000x2x2, .f32⟩
  | 28 => ⟨S500000x2x2, .f32⟩
  | 29 => ⟨S500000x2x2, .f32⟩
  | 30 => ⟨S500000x2x2, .f32⟩
  | 31 => ⟨S500000x2x2, .f32⟩
  | 32 => ⟨S500000x2x2, .f32⟩
  | 33 => ⟨S500000x2x2, .f32⟩
  | 34 => ⟨S500000x2x2, .f32⟩
  | 35 => ⟨S500000x2x2, .f32⟩
  | 36 => ⟨S500000x2x2, .f32⟩
  | 37 => ⟨S500000x2x2, .f32⟩
  | 38 => ⟨S500000x2x1x2, .f32⟩
  | 39 => ⟨S500000x2x1x2, .f32⟩
  | 40 => ⟨S500000x2x2x2, .f32⟩
  | 41 => ⟨S500000x8, .f32⟩
  | 42 => ⟨S500000x1, .f32⟩
  | 43 => ⟨S500000, .f32⟩
  | 44 => ⟨S500000x1x2x4, .f32⟩
  | 45 => ⟨S_, .f32⟩
  | 46 => ⟨S500000, .f32⟩
  | 47 => ⟨S500000, .f32⟩
  | 48 => ⟨S500000, .f32⟩
  | 49 => ⟨S500000x1x1, .f32⟩
  | 50 => ⟨S500000, .f32⟩
  | 51 => ⟨S500000x1x1, .f32⟩
  | 52 => ⟨S500000x1x1x4, .f32⟩
  | 53 => ⟨S500000x1x4, .f32⟩
  | 54 => ⟨S500000x1x1x4, .f32⟩
  | 55 => ⟨S500000x1x4, .f32⟩
  | 56 => ⟨S500000x1x4, .f32⟩
  | 57 => ⟨S500000x1x4, .f32⟩
  | 58 => ⟨S500000x1x4, .f32⟩
  | 59 => ⟨S500000x1x4, .f32⟩
  | 60 => ⟨S500000x1x4, .f32⟩
  | 61 => ⟨S500000x1x4, .f32⟩
  | 62 => ⟨S500000x1x4, .f32⟩
  | 63 => ⟨S500000x1x4, .f32⟩
  | 64 => ⟨S500000x1x4, .f32⟩
  | 65 => ⟨S500000x1x4, .f32⟩
  | 66 => ⟨S500000x1x1x4, .f32⟩
  | 67 => ⟨S500000x1x1x4, .f32⟩
  | 68 => ⟨S500000x1x2x4, .f32⟩
  | 69 => ⟨S500000x8, .f32⟩
  | 70 => ⟨S500000x1, .f32⟩
  | 71 => ⟨S500000, .f32⟩
  | 72 => ⟨S500000x4x2x1, .f32⟩
  | 73 => ⟨S_, .f32⟩
  | 74 => ⟨S500000, .f32⟩
  | 75 => ⟨S500000, .f32⟩
  | 76 => ⟨S500000, .f32⟩
  | 77 => ⟨S500000x1x1, .f32⟩
  | 78 => ⟨S500000, .f32⟩
  | 79 => ⟨S500000x1x1, .f32⟩
  | 80 => ⟨S500000x4x1x1, .f32⟩
  | 81 => ⟨S500000x4x1, .f32⟩
  | 82 => ⟨S500000x4x1x1, .f32⟩
  | 83 => ⟨S500000x4x1, .f32⟩
  | 84 => ⟨S500000x4x1, .f32⟩
  | 85 => ⟨S500000x4x1, .f32⟩
  | 86 => ⟨S500000x4x1, .f32⟩
  | 87 => ⟨S500000x4x1, .f32⟩
  | 88 => ⟨S500000x4x1, .f32⟩
  | 89 => ⟨S500000x4x1, .f32⟩
  | 90 => ⟨S500000x4x1, .f32⟩
  | 91 => ⟨S500000x4x1, .f32⟩
  | 92 => ⟨S500000x4x1, .f32⟩
  | 93 => ⟨S500000x4x1, .f32⟩
  | 94 => ⟨S500000x4x1x1, .f32⟩
  | 95 => ⟨S500000x4x1x1, .f32⟩
  | 96 => ⟨S500000x4x2x1, .f32⟩
  | 97 => ⟨S500000x8, .f32⟩
  | 98 => ⟨S500000x1, .f32⟩
  | 99 => ⟨S500000, .f32⟩
  | 100 => ⟨S500000x2x2x2, .f32⟩
  | 101 => ⟨S_, .f32⟩
  | 102 => ⟨S500000, .f32⟩
  | 103 => ⟨S500000, .f32⟩
  | 104 => ⟨S500000, .f32⟩
  | 105 => ⟨S500000x1x1, .f32⟩
  | 106 => ⟨S500000, .f32⟩
  | 107 => ⟨S500000x1x1, .f32⟩
  | 108 => ⟨S500000x2x1x2, .f32⟩
  | 109 => ⟨S500000x2x2, .f32⟩
  | 110 => ⟨S500000x2x1x2, .f32⟩
  | 111 => ⟨S500000x2x2, .f32⟩
  | 112 => ⟨S500000x2x2, .f32⟩
  | 113 => ⟨S500000x2x2, .f32⟩
  | 114 => ⟨S500000x2x2, .f32⟩
  | 115 => ⟨S500000x2x2, .f32⟩
  | 116 => ⟨S500000x2x2, .f32⟩
  | 117 => ⟨S500000x2x2, .f32⟩
  | 118 => ⟨S500000x2x2, .f32⟩
  | 119 => ⟨S500000x2x2, .f32⟩
  | 120 => ⟨S500000x2x2, .f32⟩
  | 121 => ⟨S500000x2x2, .f32⟩
  | 122 => ⟨S500000x2x1x2, .f32⟩
  | 123 => ⟨S500000x2x1x2, .f32⟩
  | 124 => ⟨S500000x2x2x2, .f32⟩
  | 125 => ⟨S500000x8, .f32⟩
  | 126 => ⟨S500000x1, .f32⟩
  | 127 => ⟨S500000, .f32⟩
  | _ => ⟨S32x3x128x128, .f32⟩

abbrev hbmTy0_9 (i : Nat) : BufTy := match i % 128 with
  | 0 => ⟨S500000x1x2x4, .f32⟩
  | 1 => ⟨S_, .f32⟩
  | 2 => ⟨S500000, .f32⟩
  | 3 => ⟨S500000, .f32⟩
  | 4 => ⟨S500000, .f32⟩
  | 5 => ⟨S500000x1x1, .f32⟩
  | 6 => ⟨S500000, .f32⟩
  | 7 => ⟨S500000x1x1, .f32⟩
  | 8 => ⟨S500000x1x1x4, .f32⟩
  | 9 => ⟨S500000x1x4, .f32⟩
  | 10 => ⟨S500000x1x1x4, .f32⟩
  | 11 => ⟨S500000x1x4, .f32⟩
  | 12 => ⟨S500000x1x4, .f32⟩
  | 13 => ⟨S500000x1x4, .f32⟩
  | 14 => ⟨S500000x1x4, .f32⟩
  | 15 => ⟨S500000x1x4, .f32⟩
  | 16 => ⟨S500000x1x4, .f32⟩
  | 17 => ⟨S500000x1x4, .f32⟩
  | 18 => ⟨S500000x1x4, .f32⟩
  | 19 => ⟨S500000x1x4, .f32⟩
  | 20 => ⟨S500000x1x4, .f32⟩
  | 21 => ⟨S500000x1x4, .f32⟩
  | 22 => ⟨S500000x1x1x4, .f32⟩
  | 23 => ⟨S500000x1x1x4, .f32⟩
  | 24 => ⟨S500000x1x2x4, .f32⟩
  | 25 => ⟨S500000x8, .f32⟩
  | 26 => ⟨S8, .i32⟩
  | 27 => ⟨S_, .i32⟩
  | 28 => ⟨S8, .i32⟩
  | 29 => ⟨S8, .i32⟩
  | 30 => ⟨S_, .i32⟩
  | 31 => ⟨S8, .i32⟩
  | 32 => ⟨S8, .i32⟩
  | 33 => ⟨S_, .i32⟩
  | 34 => ⟨S8, .i32⟩
  | 35 => ⟨S8, .i32⟩
  | 36 => ⟨S8, .i32⟩
  | 37 => ⟨S_, .i32⟩
  | 38 => ⟨S8, .i32⟩
  | 39 => ⟨S8, .i1⟩
  | 40 => ⟨S_, .i32⟩
  | 41 => ⟨S8, .i32⟩
  | 42 => ⟨S8, .i32⟩
  | 43 => ⟨S8, .i32⟩
  | 44 => ⟨S8x1, .i32⟩
  | 45 => ⟨S500000x8, .f32⟩
  | 46 => ⟨S8, .i32⟩
  | 47 => ⟨S_, .i32⟩
  | 48 => ⟨S8, .i32⟩
  | 49 => ⟨S8, .i32⟩
  | 50 => ⟨S_, .i32⟩
  | 51 => ⟨S8, .i32⟩
  | 52 => ⟨S8, .i32⟩
  | 53 => ⟨S_, .i32⟩
  | 54 => ⟨S8, .i32⟩
  | 55 => ⟨S8, .i32⟩
  | 56 => ⟨S8, .i32⟩
  | 57 => ⟨S_, .i32⟩
  | 58 => ⟨S8, .i32⟩
  | 59 => ⟨S8, .i1⟩
  | 60 => ⟨S_, .i32⟩
  | 61 => ⟨S8, .i32⟩
  | 62 => ⟨S8, .i32⟩
  | 63 => ⟨S8, .i32⟩
  | 64 => ⟨S8x1, .i32⟩
  | 65 => ⟨S500000x8, .f32⟩
  | 66 => ⟨S500000x8, .f32⟩
  | 67 => ⟨S500000x4, .f32⟩
  | 68 => ⟨S32x125x125x4, .f32⟩
  | 69 => ⟨S32x125x125x4, .f32⟩
  | 70 => ⟨S_, .f32⟩
  | 71 => ⟨S8, .f32⟩
  | 72 => ⟨S1x1, .f32⟩
  | 73 => ⟨S_, .f32⟩
  | 74 => ⟨S4x2x1, .f32⟩
  | 75 => ⟨S_, .f32⟩
  | 76 => ⟨S_, .f32⟩
  | 77 => ⟨S_, .f32⟩
  | 78 => ⟨S1x1, .f32⟩
  | 79 => ⟨S_, .f32⟩
  | 80 => ⟨S1x1, .f32⟩
  | 81 => ⟨S4x1x1, .f32⟩
  | 82 => ⟨S4x1, .f32⟩
  | 83 => ⟨S4x1x1, .f32⟩
  | 84 => ⟨S4x1, .f32⟩
  | 85 => ⟨S4x1, .f32⟩
  | 86 => ⟨S4x1, .f32⟩
  | 87 => ⟨S4x1, .f32⟩
  | 88 => ⟨S4x1, .f32⟩
  | 89 => ⟨S4x1, .f32⟩
  | 90 => ⟨S4x1, .f32⟩
  | 91 => ⟨S4x1, .f32⟩
  | 92 => ⟨S4x1, .f32⟩
  | 93 => ⟨S4x1, .f32⟩
  | 94 => ⟨S4x1, .f32⟩
  | 95 => ⟨S4x1x1, .f32⟩
  | 96 => ⟨S4x1x1, .f32⟩
  | 97 => ⟨S4x2x1, .f32⟩
  | 98 => ⟨S8, .f32⟩
  | 99 => ⟨S1x1, .f32⟩
  | 100 => ⟨S_, .f32⟩
  | 101 => ⟨S2x2x2, .f32⟩
  | 102 => ⟨S_, .f32⟩
  | 103 => ⟨S_, .f32⟩
  | 104 => ⟨S_, .f32⟩
  | 105 => ⟨S1x1, .f32⟩
  | 106 => ⟨S_, .f32⟩
  | 107 => ⟨S1x1, .f32⟩
  | 108 => ⟨S2x1x2, .f32⟩
  | 109 => ⟨S2x2, .f32⟩
  | 110 => ⟨S2x1x2, .f32⟩
  | 111 => ⟨S2x2, .f32⟩
  | 112 => ⟨S2x2, .f32⟩
  | 113 => ⟨S2x2, .f32⟩
  | 114 => ⟨S2x2, .f32⟩
  | 115 => ⟨S2x2, .f32⟩
  | 116 => ⟨S2x2, .f32⟩
  | 117 => ⟨S2x2, .f32⟩
  | 118 => ⟨S2x2, .f32⟩
  | 119 => ⟨S2x2, .f32⟩
  | 120 => ⟨S2x2, .f32⟩
  | 121 => ⟨S2x2, .f32⟩
  | 122 => ⟨S2x1x2, .f32⟩
  | 123 => ⟨S2x1x2, .f32⟩
  | 124 => ⟨S2x2x2, .f32⟩
  | 125 => ⟨S8, .f32⟩
  | 126 => ⟨S1x1, .f32⟩
  | 127 => ⟨S_, .f32⟩
  | _ => ⟨S32x3x128x128, .f32⟩

abbrev hbmTy0_10 (i : Nat) : BufTy := match i % 128 with
  | 0 => ⟨S1x2x4, .f32⟩
  | 1 => ⟨S_, .f32⟩
  | 2 => ⟨S_, .f32⟩
  | 3 => ⟨S_, .f32⟩
  | 4 => ⟨S1x1, .f32⟩
  | 5 => ⟨S_, .f32⟩
  | 6 => ⟨S1x1, .f32⟩
  | 7 => ⟨S1x1x4, .f32⟩
  | 8 => ⟨S1x4, .f32⟩
  | 9 => ⟨S1x1x4, .f32⟩
  | 10 => ⟨S1x4, .f32⟩
  | 11 => ⟨S1x4, .f32⟩
  | 12 => ⟨S1x4, .f32⟩
  | 13 => ⟨S1x4, .f32⟩
  | 14 => ⟨S1x4, .f32⟩
  | 15 => ⟨S1x4, .f32⟩
  | 16 => ⟨S1x4, .f32⟩
  | 17 => ⟨S1x4, .f32⟩
  | 18 => ⟨S1x4, .f32⟩
  | 19 => ⟨S1x4, .f32⟩
  | 20 => ⟨S1x4, .f32⟩
  | 21 => ⟨S1x1x4, .f32⟩
  | 22 => ⟨S1x1x4, .f32⟩
  | 23 => ⟨S1x2x4, .f32⟩
  | 24 => ⟨S8, .f32⟩
  | 25 => ⟨S1x1, .f32⟩
  | 26 => ⟨S_, .f32⟩
  | 27 => ⟨S4x2x1, .f32⟩
  | 28 => ⟨S_, .f32⟩
  | 29 => ⟨S_, .f32⟩
  | 30 => ⟨S_, .f32⟩
  | 31 => ⟨S1x1, .f32⟩
  | 32 => ⟨S_, .f32⟩
  | 33 => ⟨S1x1, .f32⟩
  | 34 => ⟨S4x1x1, .f32⟩
  | 35 => ⟨S4x1, .f32⟩
  | 36 => ⟨S4x1x1, .f32⟩
  | 37 => ⟨S4x1, .f32⟩
  | 38 => ⟨S4x1, .f32⟩
  | 39 => ⟨S4x1, .f32⟩
  | 40 => ⟨S4x1, .f32⟩
  | 41 => ⟨S4x1, .f32⟩
  | 42 => ⟨S4x1, .f32⟩
  | 43 => ⟨S4x1, .f32⟩
  | 44 => ⟨S4x1, .f32⟩
  | 45 => ⟨S4x1, .f32⟩
  | 46 => ⟨S4x1, .f32⟩
  | 47 => ⟨S4x1, .f32⟩
  | 48 => ⟨S4x1x1, .f32⟩
  | 49 => ⟨S4x1x1, .f32⟩
  | 50 => ⟨S4x2x1, .f32⟩
  | 51 => ⟨S8, .f32⟩
  | 52 => ⟨S1x1, .f32⟩
  | 53 => ⟨S_, .f32⟩
  | 54 => ⟨S2x2x2, .f32⟩
  | 55 => ⟨S_, .f32⟩
  | 56 => ⟨S_, .f32⟩
  | 57 => ⟨S_, .f32⟩
  | 58 => ⟨S1x1, .f32⟩
  | 59 => ⟨S_, .f32⟩
  | 60 => ⟨S1x1, .f32⟩
  | 61 => ⟨S2x1x2, .f32⟩
  | 62 => ⟨S2x2, .f32⟩
  | 63 => ⟨S2x1x2, .f32⟩
  | 64 => ⟨S2x2, .f32⟩
  | 65 => ⟨S2x2, .f32⟩
  | 66 => ⟨S2x2, .f32⟩
  | 67 => ⟨S2x2, .f32⟩
  | 68 => ⟨S2x2, .f32⟩
  | 69 => ⟨S2x2, .f32⟩
  | 70 => ⟨S2x2, .f32⟩
  | 71 => ⟨S2x2, .f32⟩
  | 72 => ⟨S2x2, .f32⟩
  | 73 => ⟨S2x2, .f32⟩
  | 74 => ⟨S2x2, .f32⟩
  | 75 => ⟨S2x1x2, .f32⟩
  | 76 => ⟨S2x1x2, .f32⟩
  | 77 => ⟨S2x2x2, .f32⟩
  | 78 => ⟨S8, .f32⟩
  | 79 => ⟨S1x1, .f32⟩
  | 80 => ⟨S_, .f32⟩
  | 81 => ⟨S1x2x4, .f32⟩
  | 82 => ⟨S_, .f32⟩
  | 83 => ⟨S_, .f32⟩
  | 84 => ⟨S_, .f32⟩
  | 85 => ⟨S1x1, .f32⟩
  | 86 => ⟨S_, .f32⟩
  | 87 => ⟨S1x1, .f32⟩
  | 88 => ⟨S1x1x4, .f32⟩
  | 89 => ⟨S1x4, .f32⟩
  | 90 => ⟨S1x1x4, .f32⟩
  | 91 => ⟨S1x4, .f32⟩
  | 92 => ⟨S1x4, .f32⟩
  | 93 => ⟨S1x4, .f32⟩
  | 94 => ⟨S1x4, .f32⟩
  | 95 => ⟨S1x4, .f32⟩
  | 96 => ⟨S1x4, .f32⟩
  | 97 => ⟨S1x4, .f32⟩
  | 98 => ⟨S1x4, .f32⟩
  | 99 => ⟨S1x4, .f32⟩
  | 100 => ⟨S1x4, .f32⟩
  | 101 => ⟨S1x4, .f32⟩
  | 102 => ⟨S1x1x4, .f32⟩
  | 103 => ⟨S1x1x4, .f32⟩
  | 104 => ⟨S1x2x4, .f32⟩
  | 105 => ⟨S8, .f32⟩
  | 106 => ⟨S1x1, .f32⟩
  | 107 => ⟨S_, .f32⟩
  | 108 => ⟨S4x2x1, .f32⟩
  | 109 => ⟨S_, .f32⟩
  | 110 => ⟨S_, .f32⟩
  | 111 => ⟨S_, .f32⟩
  | 112 => ⟨S1x1, .f32⟩
  | 113 => ⟨S_, .f32⟩
  | 114 => ⟨S1x1, .f32⟩
  | 115 => ⟨S4x1x1, .f32⟩
  | 116 => ⟨S4x1, .f32⟩
  | 117 => ⟨S4x1x1, .f32⟩
  | 118 => ⟨S4x1, .f32⟩
  | 119 => ⟨S4x1, .f32⟩
  | 120 => ⟨S4x1, .f32⟩
  | 121 => ⟨S4x1, .f32⟩
  | 122 => ⟨S4x1, .f32⟩
  | 123 => ⟨S4x1, .f32⟩
  | 124 => ⟨S4x1, .f32⟩
  | 125 => ⟨S4x1, .f32⟩
  | 126 => ⟨S4x1, .f32⟩
  | 127 => ⟨S4x1, .f32⟩
  | _ => ⟨S32x3x128x128, .f32⟩

abbrev hbmTy0_11 (i : Nat) : BufTy := match i % 128 with
  | 0 => ⟨S4x1, .f32⟩
  | 1 => ⟨S4x1x1, .f32⟩
  | 2 => ⟨S4x1x1, .f32⟩
  | 3 => ⟨S4x2x1, .f32⟩
  | 4 => ⟨S8, .f32⟩
  | 5 => ⟨S1x1, .f32⟩
  | 6 => ⟨S_, .f32⟩
  | 7 => ⟨S2x2x2, .f32⟩
  | 8 => ⟨S_, .f32⟩
  | 9 => ⟨S_, .f32⟩
  | 10 => ⟨S_, .f32⟩
  | 11 => ⟨S1x1, .f32⟩
  | 12 => ⟨S_, .f32⟩
  | 13 => ⟨S1x1, .f32⟩
  | 14 => ⟨S2x1x2, .f32⟩
  | 15 => ⟨S2x2, .f32⟩
  | 16 => ⟨S2x1x2, .f32⟩
  | 17 => ⟨S2x2, .f32⟩
  | 18 => ⟨S2x2, .f32⟩
  | 19 => ⟨S2x2, .f32⟩
  | 20 => ⟨S2x2, .f32⟩
  | 21 => ⟨S2x2, .f32⟩
  | 22 => ⟨S2x2, .f32⟩
  | 23 => ⟨S2x2, .f32⟩
  | 24 => ⟨S2x2, .f32⟩
  | 25 => ⟨S2x2, .f32⟩
  | 26 => ⟨S2x2, .f32⟩
  | 27 => ⟨S2x2, .f32⟩
  | 28 => ⟨S2x1x2, .f32⟩
  | 29 => ⟨S2x1x2, .f32⟩
  | 30 => ⟨S2x2x2, .f32⟩
  | 31 => ⟨S8, .f32⟩
  | 32 => ⟨S1x1, .f32⟩
  | 33 => ⟨S_, .f32⟩
  | 34 => ⟨S1x2x4, .f32⟩
  | 35 => ⟨S_, .f32⟩
  | 36 => ⟨S_, .f32⟩
  | 37 => ⟨S_, .f32⟩
  | 38 => ⟨S1x1, .f32⟩
  | 39 => ⟨S_, .f32⟩
  | 40 => ⟨S1x1, .f32⟩
  | 41 => ⟨S1x1x4, .f32⟩
  | 42 => ⟨S1x4, .f32⟩
  | 43 => ⟨S1x1x4, .f32⟩
  | 44 => ⟨S1x4, .f32⟩
  | 45 => ⟨S1x4, .f32⟩
  | 46 => ⟨S1x4, .f32⟩
  | 47 => ⟨S1x4, .f32⟩
  | 48 => ⟨S1x4, .f32⟩
  | 49 => ⟨S1x4, .f32⟩
  | 50 => ⟨S1x4, .f32⟩
  | 51 => ⟨S1x4, .f32⟩
  | 52 => ⟨S1x4, .f32⟩
  | 53 => ⟨S1x4, .f32⟩
  | 54 => ⟨S1x4, .f32⟩
  | 55 => ⟨S1x1x4, .f32⟩
  | 56 => ⟨S1x1x4, .f32⟩
  | 57 => ⟨S1x2x4, .f32⟩
  | 58 => ⟨S8, .f32⟩
  | 59 => ⟨S8, .i32⟩
  | 60 => ⟨S_, .i32⟩
  | 61 => ⟨S8, .i32⟩
  | 62 => ⟨S8, .i32⟩
  | 63 => ⟨S_, .i32⟩
  | 64 => ⟨S8, .i32⟩
  | 65 => ⟨S8, .i32⟩
  | 66 => ⟨S_, .i32⟩
  | 67 => ⟨S8, .i32⟩
  | 68 => ⟨S8, .i32⟩
  | 69 => ⟨S8, .i32⟩
  | 70 => ⟨S_, .i32⟩
  | 71 => ⟨S8, .i32⟩
  | 72 => ⟨S8, .i1⟩
  | 73 => ⟨S_, .i32⟩
  | 74 => ⟨S8, .i32⟩
  | 75 => ⟨S8, .i32⟩
  | 76 => ⟨S8, .i32⟩
  | 77 => ⟨S8x1, .i32⟩
  | 78 => ⟨S8, .f32⟩
  | 79 => ⟨S8, .i32⟩
  | 80 => ⟨S_, .i32⟩
  | 81 => ⟨S8, .i32⟩
  | 82 => ⟨S8, .i32⟩
  | 83 => ⟨S_, .i32⟩
  | 84 => ⟨S8, .i32⟩
  | 85 => ⟨S8, .i32⟩
  | 86 => ⟨S_, .i32⟩
  | 87 => ⟨S8, .i32⟩
  | 88 => ⟨S8, .i32⟩
  | 89 => ⟨S8, .i32⟩
  | 90 => ⟨S_, .i32⟩
  | 91 => ⟨S8, .i32⟩
  | 92 => ⟨S8, .i1⟩
  | 93 => ⟨S_, .i32⟩
  | 94 => ⟨S8, .i32⟩
  | 95 => ⟨S8, .i32⟩
  | 96 => ⟨S8, .i32⟩
  | 97 => ⟨S8x1, .i32⟩
  | 98 => ⟨S8, .f32⟩
  | 99 => ⟨S32x1x125x125x9, .f32⟩
  | 100 => ⟨S32x125x125x9, .f32⟩
  | 101 => ⟨S500000x9, .f32⟩
  | 102 => ⟨S500000x8, .f32⟩
  | 103 => ⟨S500000x1, .f32⟩
  | 104 => ⟨S500000, .f32⟩
  | 105 => ⟨S500000x4x2x1, .f32⟩
  | 106 => ⟨S_, .f32⟩
  | 107 => ⟨S500000, .f32⟩
  | 108 => ⟨S500000, .f32⟩
  | 109 => ⟨S500000, .f32⟩
  | 110 => ⟨S500000x1x1, .f32⟩
  | 111 => ⟨S500000, .f32⟩
  | 112 => ⟨S500000x1x1, .f32⟩
  | 113 => ⟨S500000x4x1x1, .f32⟩
  | 114 => ⟨S500000x4x1, .f32⟩
  | 115 => ⟨S500000x4x1x1, .f32⟩
  | 116 => ⟨S500000x4x1, .f32⟩
  | 117 => ⟨S500000x4x1, .f32⟩
  | 118 => ⟨S500000x4x1, .f32⟩
  | 119 => ⟨S500000x4x1, .f32⟩
  | 120 => ⟨S500000x4x1, .f32⟩
  | 121 => ⟨S500000x4x1, .f32⟩
  | 122 => ⟨S500000x4x1, .f32⟩
  | 123 => ⟨S500000x4x1, .f32⟩
  | 124 => ⟨S500000x4x1, .f32⟩
  | 125 => ⟨S500000x4x1, .f32⟩
  | 126 => ⟨S500000x4x1, .f32⟩
  | 127 => ⟨S500000x4x1x1, .f32⟩
  | _ => ⟨S32x3x128x128, .f32⟩

abbrev hbmTy0_12 (i : Nat) : BufTy := match i % 128 with
  | 0 => ⟨S500000x4x1x1, .f32⟩
  | 1 => ⟨S500000x4x2x1, .f32⟩
  | 2 => ⟨S500000x8, .f32⟩
  | 3 => ⟨S500000x1, .f32⟩
  | 4 => ⟨S500000, .f32⟩
  | 5 => ⟨S500000x2x2x2, .f32⟩
  | 6 => ⟨S_, .f32⟩
  | 7 => ⟨S500000, .f32⟩
  | 8 => ⟨S500000, .f32⟩
  | 9 => ⟨S500000, .f32⟩
  | 10 => ⟨S500000x1x1, .f32⟩
  | 11 => ⟨S500000, .f32⟩
  | 12 => ⟨S500000x1x1, .f32⟩
  | 13 => ⟨S500000x2x1x2, .f32⟩
  | 14 => ⟨S500000x2x2, .f32⟩
  | 15 => ⟨S500000x2x1x2, .f32⟩
  | 16 => ⟨S500000x2x2, .f32⟩
  | 17 => ⟨S500000x2x2, .f32⟩
  | 18 => ⟨S500000x2x2, .f32⟩
  | 19 => ⟨S500000x2x2, .f32⟩
  | 20 => ⟨S500000x2x2, .f32⟩
  | 21 => ⟨S500000x2x2, .f32⟩
  | 22 => ⟨S500000x2x2, .f32⟩
  | 23 => ⟨S500000x2x2, .f32⟩
  | 24 => ⟨S500000x2x2, .f32⟩
  | 25 => ⟨S500000x2x2, .f32⟩
  | 26 => ⟨S500000x2x2, .f32⟩
  | 27 => ⟨S500000x2x1x2, .f32⟩
  | 28 => ⟨S500000x2x1x2, .f32⟩
  | 29 => ⟨S500000x2x2x2, .f32⟩
  | 30 => ⟨S500000x8, .f32⟩
  | 31 => ⟨S500000x1, .f32⟩
  | 32 => ⟨S500000, .f32⟩
  | 33 => ⟨S500000x1x2x4, .f32⟩
  | 34 => ⟨S_, .f32⟩
  | 35 => ⟨S500000, .f32⟩
  | 36 => ⟨S500000, .f32⟩
  | 37 => ⟨S500000, .f32⟩
  | 38 => ⟨S500000x1x1, .f32⟩
  | 39 => ⟨S500000, .f32⟩
  | 40 => ⟨S500000x1x1, .f32⟩
  | 41 => ⟨S500000x1x1x4, .f32⟩
  | 42 => ⟨S500000x1x4, .f32⟩
  | 43 => ⟨S500000x1x1x4, .f32⟩
  | 44 => ⟨S500000x1x4, .f32⟩
  | 45 => ⟨S500000x1x4, .f32⟩
  | 46 => ⟨S500000x1x4, .f32⟩
  | 47 => ⟨S500000x1x4, .f32⟩
  | 48 => ⟨S500000x1x4, .f32⟩
  | 49 => ⟨S500000x1x4, .f32⟩
  | 50 => ⟨S500000x1x4, .f32⟩
  | 51 => ⟨S500000x1x4, .f32⟩
  | 52 => ⟨S500000x1x4, .f32⟩
  | 53 => ⟨S500000x1x4, .f32⟩
  | 54 => ⟨S500000x1x4, .f32⟩
  | 55 => ⟨S500000x1x1x4, .f32⟩
  | 56 => ⟨S500000x1x1x4, .f32⟩
  | 57 => ⟨S500000x1x2x4, .f32⟩
  | 58 => ⟨S500000x8, .f32⟩
  | 59 => ⟨S500000x1, .f32⟩
  | 60 => ⟨S500000, .f32⟩
  | 61 => ⟨S500000x4x2x1, .f32⟩
  | 62 => ⟨S_, .f32⟩
  | 63 => ⟨S500000, .f32⟩
  | 64 => ⟨S500000, .f32⟩
  | 65 => ⟨S500000, .f32⟩
  | 66 => ⟨S500000x1x1, .f32⟩
  | 67 => ⟨S500000, .f32⟩
  | 68 => ⟨S500000x1x1, .f32⟩
  | 69 => ⟨S500000x4x1x1, .f32⟩
  | 70 => ⟨S500000x4x1, .f32⟩
  | 71 => ⟨S500000x4x1x1, .f32⟩
  | 72 => ⟨S500000x4x1, .f32⟩
  | 73 => ⟨S500000x4x1, .f32⟩
  | 74 => ⟨S500000x4x1, .f32⟩
  | 75 => ⟨S500000x4x1, .f32⟩
  | 76 => ⟨S500000x4x1, .f32⟩
  | 77 => ⟨S500000x4x1, .f32⟩
  | 78 => ⟨S500000x4x1, .f32⟩
  | 79 => ⟨S500000x4x1, .f32⟩
  | 80 => ⟨S500000x4x1, .f32⟩
  | 81 => ⟨S500000x4x1, .f32⟩
  | 82 => ⟨S500000x4x1, .f32⟩
  | 83 => ⟨S500000x4x1x1, .f32⟩
  | 84 => ⟨S500000x4x1x1, .f32⟩
  | 85 => ⟨S500000x4x2x1, .f32⟩
  | 86 => ⟨S500000x8, .f32⟩
  | 87 => ⟨S500000x1, .f32⟩
  | 88 => ⟨S500000, .f32⟩
  | 89 => ⟨S500000x2x2x2, .f32⟩
  | 90 => ⟨S_, .f32⟩
  | 91 => ⟨S500000, .f32⟩
  | 92 => ⟨S500000, .f32⟩
  | 93 => ⟨S500000, .f32⟩
  | 94 => ⟨S500000x1x1, .f32⟩
  | 95 => ⟨S500000, .f32⟩
  | 96 => ⟨S500000x1x1, .f32⟩
  | 97 => ⟨S500000x2x1x2, .f32⟩
  | 98 => ⟨S500000x2x2, .f32⟩
  | 99 => ⟨S500000x2x1x2, .f32⟩
  | 100 => ⟨S500000x2x2, .f32⟩
  | 101 => ⟨S500000x2x2, .f32⟩
  | 102 => ⟨S500000x2x2, .f32⟩
  | 103 => ⟨S500000x2x2, .f32⟩
  | 104 => ⟨S500000x2x2, .f32⟩
  | 105 => ⟨S500000x2x2, .f32⟩
  | 106 => ⟨S500000x2x2, .f32⟩
  | 107 => ⟨S500000x2x2, .f32⟩
  | 108 => ⟨S500000x2x2, .f32⟩
  | 109 => ⟨S500000x2x2, .f32⟩
  | 110 => ⟨S500000x2x2, .f32⟩
  | 111 => ⟨S500000x2x1x2, .f32⟩
  | 112 => ⟨S500000x2x1x2, .f32⟩
  | 113 => ⟨S500000x2x2x2, .f32⟩
  | 114 => ⟨S500000x8, .f32⟩
  | 115 => ⟨S500000x1, .f32⟩
  | 116 => ⟨S500000, .f32⟩
  | 117 => ⟨S500000x1x2x4, .f32⟩
  | 118 => ⟨S_, .f32⟩
  | 119 => ⟨S500000, .f32⟩
  | 120 => ⟨S500000, .f32⟩
  | 121 => ⟨S500000, .f32⟩
  | 122 => ⟨S500000x1x1, .f32⟩
  | 123 => ⟨S500000, .f32⟩
  | 124 => ⟨S500000x1x1, .f32⟩
  | 125 => ⟨S500000x1x1x4, .f32⟩
  | 126 => ⟨S500000x1x4, .f32⟩
  | 127 => ⟨S500000x1x1x4, .f32⟩
  | _ => ⟨S32x3x128x128, .f32⟩

abbrev hbmTy0_13 (i : Nat) : BufTy := match i % 128 with
  | 0 => ⟨S500000x1x4, .f32⟩
  | 1 => ⟨S500000x1x4, .f32⟩
  | 2 => ⟨S500000x1x4, .f32⟩
  | 3 => ⟨S500000x1x4, .f32⟩
  | 4 => ⟨S500000x1x4, .f32⟩
  | 5 => ⟨S500000x1x4, .f32⟩
  | 6 => ⟨S500000x1x4, .f32⟩
  | 7 => ⟨S500000x1x4, .f32⟩
  | 8 => ⟨S500000x1x4, .f32⟩
  | 9 => ⟨S500000x1x4, .f32⟩
  | 10 => ⟨S500000x1x4, .f32⟩
  | 11 => ⟨S500000x1x1x4, .f32⟩
  | 12 => ⟨S500000x1x1x4, .f32⟩
  | 13 => ⟨S500000x1x2x4, .f32⟩
  | 14 => ⟨S500000x8, .f32⟩
  | 15 => ⟨S500000x1, .f32⟩
  | 16 => ⟨S500000, .f32⟩
  | 17 => ⟨S500000x4x2x1, .f32⟩
  | 18 => ⟨S_, .f32⟩
  | 19 => ⟨S500000, .f32⟩
  | 20 => ⟨S500000, .f32⟩
  | 21 => ⟨S500000, .f32⟩
  | 22 => ⟨S500000x1x1, .f32⟩
  | 23 => ⟨S500000, .f32⟩
  | 24 => ⟨S500000x1x1, .f32⟩
  | 25 => ⟨S500000x4x1x1, .f32⟩
  | 26 => ⟨S500000x4x1, .f32⟩
  | 27 => ⟨S500000x4x1x1, .f32⟩
  | 28 => ⟨S500000x4x1, .f32⟩
  | 29 => ⟨S500000x4x1, .f32⟩
  | 30 => ⟨S500000x4x1, .f32⟩
  | 31 => ⟨S500000x4x1, .f32⟩
  | 32 => ⟨S500000x4x1, .f32⟩
  | 33 => ⟨S500000x4x1, .f32⟩
  | 34 => ⟨S500000x4x1, .f32⟩
  | 35 => ⟨S500000x4x1, .f32⟩
  | 36 => ⟨S500000x4x1, .f32⟩
  | 37 => ⟨S500000x4x1, .f32⟩
  | 38 => ⟨S500000x4x1, .f32⟩
  | 39 => ⟨S500000x4x1x1, .f32⟩
  | 40 => ⟨S500000x4x1x1, .f32⟩
  | 41 => ⟨S500000x4x2x1, .f32⟩
  | 42 => ⟨S500000x8, .f32⟩
  | 43 => ⟨S500000x1, .f32⟩
  | 44 => ⟨S500000, .f32⟩
  | 45 => ⟨S500000x2x2x2, .f32⟩
  | 46 => ⟨S_, .f32⟩
  | 47 => ⟨S500000, .f32⟩
  | 48 => ⟨S500000, .f32⟩
  | 49 => ⟨S500000, .f32⟩
  | 50 => ⟨S500000x1x1, .f32⟩
  | 51 => ⟨S500000, .f32⟩
  | 52 => ⟨S500000x1x1, .f32⟩
  | 53 => ⟨S500000x2x1x2, .f32⟩
  | 54 => ⟨S500000x2x2, .f32⟩
  | 55 => ⟨S500000x2x1x2, .f32⟩
  | 56 => ⟨S500000x2x2, .f32⟩
  | 57 => ⟨S500000x2x2, .f32⟩
  | 58 => ⟨S500000x2x2, .f32⟩
  | 59 => ⟨S500000x2x2, .f32⟩
  | 60 => ⟨S500000x2x2, .f32⟩
  | 61 => ⟨S500000x2x2, .f32⟩
  | 62 => ⟨S500000x2x2, .f32⟩
  | 63 => ⟨S500000x2x2, .f32⟩
  | 64 => ⟨S500000x2x2, .f32⟩
  | 65 => ⟨S500000x2x2, .f32⟩
  | 66 => ⟨S500000x2x2, .f32⟩
  | 67 => ⟨S500000x2x1x2, .f32⟩
  | 68 => ⟨S500000x2x1x2, .f32⟩
  | 69 => ⟨S500000x2x2x2, .f32⟩
  | 70 => ⟨S500000x8, .f32⟩
  | 71 => ⟨S500000x1, .f32⟩
  | 72 => ⟨S500000, .f32⟩
  | 73 => ⟨S500000x1x2x4, .f32⟩
  | 74 => ⟨S_, .f32⟩
  | 75 => ⟨S500000, .f32⟩
  | 76 => ⟨S500000, .f32⟩
  | 77 => ⟨S500000, .f32⟩
  | 78 => ⟨S500000x1x1, .f32⟩
  | 79 => ⟨S500000, .f32⟩
  | 80 => ⟨S500000x1x1, .f32⟩
  | 81 => ⟨S500000x1x1x4, .f32⟩
  | 82 => ⟨S500000x1x4, .f32⟩
  | 83 => ⟨S500000x1x1x4, .f32⟩
  | 84 => ⟨S500000x1x4, .f32⟩
  | 85 => ⟨S500000x1x4, .f32⟩
  | 86 => ⟨S500000x1x4, .f32⟩
  | 87 => ⟨S500000x1x4, .f32⟩
  | 88 => ⟨S500000x1x4, .f32⟩
  | 89 => ⟨S500000x1x4, .f32⟩
  | 90 => ⟨S500000x1x4, .f32⟩
  | 91 => ⟨S500000x1x4, .f32⟩
  | 92 => ⟨S500000x1x4, .f32⟩
  | 93 => ⟨S500000x1x4, .f32⟩
  | 94 => ⟨S500000x1x4, .f32⟩
  | 95 => ⟨S500000x1x1x4, .f32⟩
  | 96 => ⟨S500000x1x1x4, .f32⟩
  | 97 => ⟨S500000x1x2x4, .f32⟩
  | 98 => ⟨S500000x8, .f32⟩
  | 99 => ⟨S8, .i32⟩
  | 100 => ⟨S_, .i32⟩
  | 101 => ⟨S8, .i32⟩
  | 102 => ⟨S8, .i32⟩
  | 103 => ⟨S_, .i32⟩
  | 104 => ⟨S8, .i32⟩
  | 105 => ⟨S8, .i32⟩
  | 106 => ⟨S_, .i32⟩
  | 107 => ⟨S8, .i32⟩
  | 108 => ⟨S8, .i32⟩
  | 109 => ⟨S8, .i32⟩
  | 110 => ⟨S_, .i32⟩
  | 111 => ⟨S8, .i32⟩
  | 112 => ⟨S8, .i1⟩
  | 113 => ⟨S_, .i32⟩
  | 114 => ⟨S8, .i32⟩
  | 115 => ⟨S8, .i32⟩
  | 116 => ⟨S8, .i32⟩
  | 117 => ⟨S8x1, .i32⟩
  | 118 => ⟨S500000x8, .f32⟩
  | 119 => ⟨S8, .i32⟩
  | 120 => ⟨S_, .i32⟩
  | 121 => ⟨S8, .i32⟩
  | 122 => ⟨S8, .i32⟩
  | 123 => ⟨S_, .i32⟩
  | 124 => ⟨S8, .i32⟩
  | 125 => ⟨S8, .i32⟩
  | 126 => ⟨S_, .i32⟩
  | 127 => ⟨S8, .i32⟩
  | _ => ⟨S32x3x128x128, .f32⟩

abbrev hbmTy0_14 (i : Nat) : BufTy := match i % 128 with
  | 0 => ⟨S8, .i32⟩
  | 1 => ⟨S8, .i32⟩
  | 2 => ⟨S_, .i32⟩
  | 3 => ⟨S8, .i32⟩
  | 4 => ⟨S8, .i1⟩
  | 5 => ⟨S_, .i32⟩
  | 6 => ⟨S8, .i32⟩
  | 7 => ⟨S8, .i32⟩
  | 8 => ⟨S8, .i32⟩
  | 9 => ⟨S8x1, .i32⟩
  | 10 => ⟨S500000x8, .f32⟩
  | 11 => ⟨S500000x8, .f32⟩
  | 12 => ⟨S500000x4, .f32⟩
  | 13 => ⟨S32x125x125x4, .f32⟩
  | 14 => ⟨S32x125x125x4, .f32⟩
  | 15 => ⟨S32x4x125x125, .f32⟩
  | 16 => ⟨S_, .i32⟩
  | 17 => ⟨S_, .f32⟩
  | 18 => ⟨S32x4x128x128, .f32⟩
  | _ => ⟨S32x3x128x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | _ => ⟨S32x3x128x128, .f32⟩

abbrev bufTy : (tb : Table) → Fin (tcTables nBuf tb) → BufTy
  | .hbm, ⟨i, _⟩ => hbmTy i
  | _, _ => ⟨S32x3x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_c : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_1 : Ref sig .tc := ⟨.hbm, 30, rfl⟩
abbrev main_call0_v5 : Ref sig .tc := ⟨.hbm, 31, rfl⟩
abbrev main_call0_v6 : Ref sig .tc := ⟨.hbm, 32, rfl⟩
abbrev main_call0_c_2 : Ref sig .tc := ⟨.hbm, 33, rfl⟩
abbrev main_call0_v7 : Ref sig .tc := ⟨.hbm, 34, rfl⟩
abbrev main_call0_v8 : Ref sig .tc := ⟨.hbm, 35, rfl⟩
abbrev main_call0_c_3 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_v20 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v21 : Ref sig .tc := ⟨.hbm, 49, rfl⟩
abbrev main_cst : Ref sig .tc := ⟨.hbm, 50, rfl⟩
abbrev main_v22 : Ref sig .tc := ⟨.hbm, 51, rfl⟩
abbrev main_cst_0 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_1 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_2 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_3 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_4 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_cst_5 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_cst_6 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_cst_7 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_cst_8 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_cst_9 : Ref sig .tc := ⟨.hbm, 273, rfl⟩
abbrev main_v235 : Ref sig .tc := ⟨.hbm, 274, rfl⟩
abbrev main_v236 : Ref sig .tc := ⟨.hbm, 275, rfl⟩
abbrev main_v237 : Ref sig .tc := ⟨.hbm, 276, rfl⟩
abbrev main_v238 : Ref sig .tc := ⟨.hbm, 277, rfl⟩
abbrev main_v239 : Ref sig .tc := ⟨.hbm, 278, rfl⟩
abbrev main_v240 : Ref sig .tc := ⟨.hbm, 279, rfl⟩
abbrev main_v241 : Ref sig .tc := ⟨.hbm, 280, rfl⟩
abbrev main_v242 : Ref sig .tc := ⟨.hbm, 281, rfl⟩
abbrev main_v243 : Ref sig .tc := ⟨.hbm, 282, rfl⟩
abbrev main_v244 : Ref sig .tc := ⟨.hbm, 283, rfl⟩
abbrev main_v245 : Ref sig .tc := ⟨.hbm, 284, rfl⟩
abbrev main_v246 : Ref sig .tc := ⟨.hbm, 285, rfl⟩
abbrev main_v247 : Ref sig .tc := ⟨.hbm, 286, rfl⟩
abbrev main_v248 : Ref sig .tc := ⟨.hbm, 287, rfl⟩
abbrev main_v249 : Ref sig .tc := ⟨.hbm, 288, rfl⟩
abbrev main_v250 : Ref sig .tc := ⟨.hbm, 289, rfl⟩
abbrev main_v251 : Ref sig .tc := ⟨.hbm, 290, rfl⟩
abbrev main_v252 : Ref sig .tc := ⟨.hbm, 291, rfl⟩
abbrev main_v253 : Ref sig .tc := ⟨.hbm, 292, rfl⟩
abbrev main_v254 : Ref sig .tc := ⟨.hbm, 293, rfl⟩
abbrev main_v255 : Ref sig .tc := ⟨.hbm, 294, rfl⟩
abbrev main_v256 : Ref sig .tc := ⟨.hbm, 295, rfl⟩
abbrev main_v257 : Ref sig .tc := ⟨.hbm, 296, rfl⟩
abbrev main_v258 : Ref sig .tc := ⟨.hbm, 297, rfl⟩
abbrev main_c_10 : Ref sig .tc := ⟨.hbm, 298, rfl⟩
abbrev main_v259 : Ref sig .tc := ⟨.hbm, 299, rfl⟩
abbrev main_v260 : Ref sig .tc := ⟨.hbm, 300, rfl⟩
abbrev main_c_11 : Ref sig .tc := ⟨.hbm, 301, rfl⟩
abbrev main_v261 : Ref sig .tc := ⟨.hbm, 302, rfl⟩
abbrev main_v262 : Ref sig .tc := ⟨.hbm, 303, rfl⟩
abbrev main_c_12 : Ref sig .tc := ⟨.hbm, 304, rfl⟩
abbrev main_v263 : Ref sig .tc := ⟨.hbm, 305, rfl⟩
abbrev main_v264 : Ref sig .tc := ⟨.hbm, 306, rfl⟩
abbrev main_v265 : Ref sig .tc := ⟨.hbm, 307, rfl⟩
abbrev main_c_13 : Ref sig .tc := ⟨.hbm, 308, rfl⟩
abbrev main_v266 : Ref sig .tc := ⟨.hbm, 309, rfl⟩
abbrev main_v267 : Ref sig .tc := ⟨.hbm, 310, rfl⟩
abbrev main_c_14 : Ref sig .tc := ⟨.hbm, 311, rfl⟩
abbrev main_v268 : Ref sig .tc := ⟨.hbm, 312, rfl⟩
abbrev main_v269 : Ref sig .tc := ⟨.hbm, 313, rfl⟩
abbrev main_v270 : Ref sig .tc := ⟨.hbm, 314, rfl⟩
abbrev main_v271 : Ref sig .tc := ⟨.hbm, 315, rfl⟩
abbrev main_v272 : Ref sig .tc := ⟨.hbm, 316, rfl⟩
abbrev main_v273 : Ref sig .tc := ⟨.hbm, 317, rfl⟩
abbrev main_c_15 : Ref sig .tc := ⟨.hbm, 318, rfl⟩
abbrev main_v274 : Ref sig .tc := ⟨.hbm, 319, rfl⟩
abbrev main_v275 : Ref sig .tc := ⟨.hbm, 320, rfl⟩
abbrev main_c_16 : Ref sig .tc := ⟨.hbm, 321, rfl⟩
abbrev main_v276 : Ref sig .tc := ⟨.hbm, 322, rfl⟩
abbrev main_v277 : Ref sig .tc := ⟨.hbm, 323, rfl⟩
abbrev main_c_17 : Ref sig .tc := ⟨.hbm, 324, rfl⟩
abbrev main_v278 : Ref sig .tc := ⟨.hbm, 325, rfl⟩
abbrev main_v279 : Ref sig .tc := ⟨.hbm, 326, rfl⟩
abbrev main_v280 : Ref sig .tc := ⟨.hbm, 327, rfl⟩
abbrev main_c_18 : Ref sig .tc := ⟨.hbm, 328, rfl⟩
abbrev main_v281 : Ref sig .tc := ⟨.hbm, 329, rfl⟩
abbrev main_v282 : Ref sig .tc := ⟨.hbm, 330, rfl⟩
abbrev main_c_19 : Ref sig .tc := ⟨.hbm, 331, rfl⟩
abbrev main_v283 : Ref sig .tc := ⟨.hbm, 332, rfl⟩
abbrev main_v284 : Ref sig .tc := ⟨.hbm, 333, rfl⟩
abbrev main_v285 : Ref sig .tc := ⟨.hbm, 334, rfl⟩
abbrev main_v286 : Ref sig .tc := ⟨.hbm, 335, rfl⟩
abbrev main_v287 : Ref sig .tc := ⟨.hbm, 336, rfl⟩
abbrev main_v288 : Ref sig .tc := ⟨.hbm, 337, rfl⟩
abbrev main_v289 : Ref sig .tc := ⟨.hbm, 338, rfl⟩
abbrev main_v290 : Ref sig .tc := ⟨.hbm, 339, rfl⟩
abbrev main_v291 : Ref sig .tc := ⟨.hbm, 340, rfl⟩
abbrev main_v292 : Ref sig .tc := ⟨.hbm, 341, rfl⟩
abbrev main_v293 : Ref sig .tc := ⟨.hbm, 342, rfl⟩
abbrev main_v294 : Ref sig .tc := ⟨.hbm, 343, rfl⟩
abbrev main_cst_20 : Ref sig .tc := ⟨.hbm, 344, rfl⟩
abbrev main_v295 : Ref sig .tc := ⟨.hbm, 345, rfl⟩
abbrev main_v296 : Ref sig .tc := ⟨.hbm, 346, rfl⟩
abbrev main_v297 : Ref sig .tc := ⟨.hbm, 347, rfl⟩
abbrev main_v298 : Ref sig .tc := ⟨.hbm, 348, rfl⟩
abbrev main_v299 : Ref sig .tc := ⟨.hbm, 349, rfl⟩
abbrev main_v300 : Ref sig .tc := ⟨.hbm, 350, rfl⟩
abbrev main_v301 : Ref sig .tc := ⟨.hbm, 351, rfl⟩
abbrev main_v302 : Ref sig .tc := ⟨.hbm, 352, rfl⟩
abbrev main_v303 : Ref sig .tc := ⟨.hbm, 353, rfl⟩
abbrev main_v304 : Ref sig .tc := ⟨.hbm, 354, rfl⟩
abbrev main_v305 : Ref sig .tc := ⟨.hbm, 355, rfl⟩
abbrev main_v306 : Ref sig .tc := ⟨.hbm, 356, rfl⟩
abbrev main_v307 : Ref sig .tc := ⟨.hbm, 357, rfl⟩
abbrev main_v308 : Ref sig .tc := ⟨.hbm, 358, rfl⟩
abbrev main_v309 : Ref sig .tc := ⟨.hbm, 359, rfl⟩
abbrev main_v310 : Ref sig .tc := ⟨.hbm, 360, rfl⟩
abbrev main_v311 : Ref sig .tc := ⟨.hbm, 361, rfl⟩
abbrev main_v312 : Ref sig .tc := ⟨.hbm, 362, rfl⟩
abbrev main_v313 : Ref sig .tc := ⟨.hbm, 363, rfl⟩
abbrev main_v314 : Ref sig .tc := ⟨.hbm, 364, rfl⟩
abbrev main_v315 : Ref sig .tc := ⟨.hbm, 365, rfl⟩
abbrev main_v316 : Ref sig .tc := ⟨.hbm, 366, rfl⟩
abbrev main_v317 : Ref sig .tc := ⟨.hbm, 367, rfl⟩
abbrev main_v318 : Ref sig .tc := ⟨.hbm, 368, rfl⟩
abbrev main_v319 : Ref sig .tc := ⟨.hbm, 369, rfl⟩
abbrev main_v320 : Ref sig .tc := ⟨.hbm, 370, rfl⟩
abbrev main_v321 : Ref sig .tc := ⟨.hbm, 371, rfl⟩
abbrev main_cst_21 : Ref sig .tc := ⟨.hbm, 372, rfl⟩
abbrev main_v322 : Ref sig .tc := ⟨.hbm, 373, rfl⟩
abbrev main_v323 : Ref sig .tc := ⟨.hbm, 374, rfl⟩
abbrev main_v324 : Ref sig .tc := ⟨.hbm, 375, rfl⟩
abbrev main_v325 : Ref sig .tc := ⟨.hbm, 376, rfl⟩
abbrev main_v326 : Ref sig .tc := ⟨.hbm, 377, rfl⟩
abbrev main_v327 : Ref sig .tc := ⟨.hbm, 378, rfl⟩
abbrev main_v328 : Ref sig .tc := ⟨.hbm, 379, rfl⟩
abbrev main_v329 : Ref sig .tc := ⟨.hbm, 380, rfl⟩
abbrev main_v330 : Ref sig .tc := ⟨.hbm, 381, rfl⟩
abbrev main_v331 : Ref sig .tc := ⟨.hbm, 382, rfl⟩
abbrev main_v332 : Ref sig .tc := ⟨.hbm, 383, rfl⟩
abbrev main_v333 : Ref sig .tc := ⟨.hbm, 384, rfl⟩
abbrev main_v334 : Ref sig .tc := ⟨.hbm, 385, rfl⟩
abbrev main_v335 : Ref sig .tc := ⟨.hbm, 386, rfl⟩
abbrev main_v336 : Ref sig .tc := ⟨.hbm, 387, rfl⟩
abbrev main_v337 : Ref sig .tc := ⟨.hbm, 388, rfl⟩
abbrev main_v338 : Ref sig .tc := ⟨.hbm, 389, rfl⟩
abbrev main_v339 : Ref sig .tc := ⟨.hbm, 390, rfl⟩
abbrev main_v340 : Ref sig .tc := ⟨.hbm, 391, rfl⟩
abbrev main_v341 : Ref sig .tc := ⟨.hbm, 392, rfl⟩
abbrev main_v342 : Ref sig .tc := ⟨.hbm, 393, rfl⟩
abbrev main_v343 : Ref sig .tc := ⟨.hbm, 394, rfl⟩
abbrev main_v344 : Ref sig .tc := ⟨.hbm, 395, rfl⟩
abbrev main_v345 : Ref sig .tc := ⟨.hbm, 396, rfl⟩
abbrev main_v346 : Ref sig .tc := ⟨.hbm, 397, rfl⟩
abbrev main_v347 : Ref sig .tc := ⟨.hbm, 398, rfl⟩
abbrev main_v348 : Ref sig .tc := ⟨.hbm, 399, rfl⟩
abbrev main_cst_22 : Ref sig .tc := ⟨.hbm, 400, rfl⟩
abbrev main_v349 : Ref sig .tc := ⟨.hbm, 401, rfl⟩
abbrev main_v350 : Ref sig .tc := ⟨.hbm, 402, rfl⟩
abbrev main_v351 : Ref sig .tc := ⟨.hbm, 403, rfl⟩
abbrev main_v352 : Ref sig .tc := ⟨.hbm, 404, rfl⟩
abbrev main_v353 : Ref sig .tc := ⟨.hbm, 405, rfl⟩
abbrev main_v354 : Ref sig .tc := ⟨.hbm, 406, rfl⟩
abbrev main_v355 : Ref sig .tc := ⟨.hbm, 407, rfl⟩
abbrev main_v356 : Ref sig .tc := ⟨.hbm, 408, rfl⟩
abbrev main_v357 : Ref sig .tc := ⟨.hbm, 409, rfl⟩
abbrev main_v358 : Ref sig .tc := ⟨.hbm, 410, rfl⟩
abbrev main_v359 : Ref sig .tc := ⟨.hbm, 411, rfl⟩
abbrev main_v360 : Ref sig .tc := ⟨.hbm, 412, rfl⟩
abbrev main_v361 : Ref sig .tc := ⟨.hbm, 413, rfl⟩
abbrev main_v362 : Ref sig .tc := ⟨.hbm, 414, rfl⟩
abbrev main_v363 : Ref sig .tc := ⟨.hbm, 415, rfl⟩
abbrev main_v364 : Ref sig .tc := ⟨.hbm, 416, rfl⟩
abbrev main_v365 : Ref sig .tc := ⟨.hbm, 417, rfl⟩
abbrev main_v366 : Ref sig .tc := ⟨.hbm, 418, rfl⟩
abbrev main_v367 : Ref sig .tc := ⟨.hbm, 419, rfl⟩
abbrev main_v368 : Ref sig .tc := ⟨.hbm, 420, rfl⟩
abbrev main_v369 : Ref sig .tc := ⟨.hbm, 421, rfl⟩
abbrev main_v370 : Ref sig .tc := ⟨.hbm, 422, rfl⟩
abbrev main_v371 : Ref sig .tc := ⟨.hbm, 423, rfl⟩
abbrev main_v372 : Ref sig .tc := ⟨.hbm, 424, rfl⟩
abbrev main_v373 : Ref sig .tc := ⟨.hbm, 425, rfl⟩
abbrev main_v374 : Ref sig .tc := ⟨.hbm, 426, rfl⟩
abbrev main_v375 : Ref sig .tc := ⟨.hbm, 427, rfl⟩
abbrev main_cst_23 : Ref sig .tc := ⟨.hbm, 428, rfl⟩
abbrev main_v376 : Ref sig .tc := ⟨.hbm, 429, rfl⟩
abbrev main_v377 : Ref sig .tc := ⟨.hbm, 430, rfl⟩
abbrev main_v378 : Ref sig .tc := ⟨.hbm, 431, rfl⟩
abbrev main_v379 : Ref sig .tc := ⟨.hbm, 432, rfl⟩
abbrev main_v380 : Ref sig .tc := ⟨.hbm, 433, rfl⟩
abbrev main_v381 : Ref sig .tc := ⟨.hbm, 434, rfl⟩
abbrev main_v382 : Ref sig .tc := ⟨.hbm, 435, rfl⟩
abbrev main_v383 : Ref sig .tc := ⟨.hbm, 436, rfl⟩
abbrev main_v384 : Ref sig .tc := ⟨.hbm, 437, rfl⟩
abbrev main_v385 : Ref sig .tc := ⟨.hbm, 438, rfl⟩
abbrev main_v386 : Ref sig .tc := ⟨.hbm, 439, rfl⟩
abbrev main_v387 : Ref sig .tc := ⟨.hbm, 440, rfl⟩
abbrev main_v388 : Ref sig .tc := ⟨.hbm, 441, rfl⟩
abbrev main_v389 : Ref sig .tc := ⟨.hbm, 442, rfl⟩
abbrev main_v390 : Ref sig .tc := ⟨.hbm, 443, rfl⟩
abbrev main_v391 : Ref sig .tc := ⟨.hbm, 444, rfl⟩
abbrev main_v392 : Ref sig .tc := ⟨.hbm, 445, rfl⟩
abbrev main_v393 : Ref sig .tc := ⟨.hbm, 446, rfl⟩
abbrev main_v394 : Ref sig .tc := ⟨.hbm, 447, rfl⟩
abbrev main_v395 : Ref sig .tc := ⟨.hbm, 448, rfl⟩
abbrev main_v396 : Ref sig .tc := ⟨.hbm, 449, rfl⟩
abbrev main_v397 : Ref sig .tc := ⟨.hbm, 450, rfl⟩
abbrev main_v398 : Ref sig .tc := ⟨.hbm, 451, rfl⟩
abbrev main_v399 : Ref sig .tc := ⟨.hbm, 452, rfl⟩
abbrev main_v400 : Ref sig .tc := ⟨.hbm, 453, rfl⟩
abbrev main_v401 : Ref sig .tc := ⟨.hbm, 454, rfl⟩
abbrev main_v402 : Ref sig .tc := ⟨.hbm, 455, rfl⟩
abbrev main_cst_24 : Ref sig .tc := ⟨.hbm, 456, rfl⟩
abbrev main_v403 : Ref sig .tc := ⟨.hbm, 457, rfl⟩
abbrev main_v404 : Ref sig .tc := ⟨.hbm, 458, rfl⟩
abbrev main_v405 : Ref sig .tc := ⟨.hbm, 459, rfl⟩
abbrev main_v406 : Ref sig .tc := ⟨.hbm, 460, rfl⟩
abbrev main_v407 : Ref sig .tc := ⟨.hbm, 461, rfl⟩
abbrev main_v408 : Ref sig .tc := ⟨.hbm, 462, rfl⟩
abbrev main_v409 : Ref sig .tc := ⟨.hbm, 463, rfl⟩
abbrev main_v410 : Ref sig .tc := ⟨.hbm, 464, rfl⟩
abbrev main_v411 : Ref sig .tc := ⟨.hbm, 465, rfl⟩
abbrev main_v412 : Ref sig .tc := ⟨.hbm, 466, rfl⟩
abbrev main_v413 : Ref sig .tc := ⟨.hbm, 467, rfl⟩
abbrev main_v414 : Ref sig .tc := ⟨.hbm, 468, rfl⟩
abbrev main_v415 : Ref sig .tc := ⟨.hbm, 469, rfl⟩
abbrev main_v416 : Ref sig .tc := ⟨.hbm, 470, rfl⟩
abbrev main_v417 : Ref sig .tc := ⟨.hbm, 471, rfl⟩
abbrev main_v418 : Ref sig .tc := ⟨.hbm, 472, rfl⟩
abbrev main_v419 : Ref sig .tc := ⟨.hbm, 473, rfl⟩
abbrev main_v420 : Ref sig .tc := ⟨.hbm, 474, rfl⟩
abbrev main_v421 : Ref sig .tc := ⟨.hbm, 475, rfl⟩
abbrev main_v422 : Ref sig .tc := ⟨.hbm, 476, rfl⟩
abbrev main_v423 : Ref sig .tc := ⟨.hbm, 477, rfl⟩
abbrev main_v424 : Ref sig .tc := ⟨.hbm, 478, rfl⟩
abbrev main_v425 : Ref sig .tc := ⟨.hbm, 479, rfl⟩
abbrev main_v426 : Ref sig .tc := ⟨.hbm, 480, rfl⟩
abbrev main_v427 : Ref sig .tc := ⟨.hbm, 481, rfl⟩
abbrev main_v428 : Ref sig .tc := ⟨.hbm, 482, rfl⟩
abbrev main_v429 : Ref sig .tc := ⟨.hbm, 483, rfl⟩
abbrev main_cst_25 : Ref sig .tc := ⟨.hbm, 484, rfl⟩
abbrev main_v430 : Ref sig .tc := ⟨.hbm, 485, rfl⟩
abbrev main_v431 : Ref sig .tc := ⟨.hbm, 486, rfl⟩
abbrev main_v432 : Ref sig .tc := ⟨.hbm, 487, rfl⟩
abbrev main_v433 : Ref sig .tc := ⟨.hbm, 488, rfl⟩
abbrev main_v434 : Ref sig .tc := ⟨.hbm, 489, rfl⟩
abbrev main_v435 : Ref sig .tc := ⟨.hbm, 490, rfl⟩
abbrev main_v436 : Ref sig .tc := ⟨.hbm, 491, rfl⟩
abbrev main_v437 : Ref sig .tc := ⟨.hbm, 492, rfl⟩
abbrev main_v438 : Ref sig .tc := ⟨.hbm, 493, rfl⟩
abbrev main_v439 : Ref sig .tc := ⟨.hbm, 494, rfl⟩
abbrev main_v440 : Ref sig .tc := ⟨.hbm, 495, rfl⟩
abbrev main_v441 : Ref sig .tc := ⟨.hbm, 496, rfl⟩
abbrev main_v442 : Ref sig .tc := ⟨.hbm, 497, rfl⟩
abbrev main_v443 : Ref sig .tc := ⟨.hbm, 498, rfl⟩
abbrev main_v444 : Ref sig .tc := ⟨.hbm, 499, rfl⟩
abbrev main_v445 : Ref sig .tc := ⟨.hbm, 500, rfl⟩
abbrev main_v446 : Ref sig .tc := ⟨.hbm, 501, rfl⟩
abbrev main_v447 : Ref sig .tc := ⟨.hbm, 502, rfl⟩
abbrev main_v448 : Ref sig .tc := ⟨.hbm, 503, rfl⟩
abbrev main_v449 : Ref sig .tc := ⟨.hbm, 504, rfl⟩
abbrev main_v450 : Ref sig .tc := ⟨.hbm, 505, rfl⟩
abbrev main_v451 : Ref sig .tc := ⟨.hbm, 506, rfl⟩
abbrev main_v452 : Ref sig .tc := ⟨.hbm, 507, rfl⟩
abbrev main_v453 : Ref sig .tc := ⟨.hbm, 508, rfl⟩
abbrev main_v454 : Ref sig .tc := ⟨.hbm, 509, rfl⟩
abbrev main_v455 : Ref sig .tc := ⟨.hbm, 510, rfl⟩
abbrev main_v456 : Ref sig .tc := ⟨.hbm, 511, rfl⟩
abbrev main_cst_26 : Ref sig .tc := ⟨.hbm, 512, rfl⟩
abbrev main_v457 : Ref sig .tc := ⟨.hbm, 513, rfl⟩
abbrev main_v458 : Ref sig .tc := ⟨.hbm, 514, rfl⟩
abbrev main_v459 : Ref sig .tc := ⟨.hbm, 515, rfl⟩
abbrev main_v460 : Ref sig .tc := ⟨.hbm, 516, rfl⟩
abbrev main_v461 : Ref sig .tc := ⟨.hbm, 517, rfl⟩
abbrev main_v462 : Ref sig .tc := ⟨.hbm, 518, rfl⟩
abbrev main_v463 : Ref sig .tc := ⟨.hbm, 519, rfl⟩
abbrev main_v464 : Ref sig .tc := ⟨.hbm, 520, rfl⟩
abbrev main_v465 : Ref sig .tc := ⟨.hbm, 521, rfl⟩
abbrev main_v466 : Ref sig .tc := ⟨.hbm, 522, rfl⟩
abbrev main_v467 : Ref sig .tc := ⟨.hbm, 523, rfl⟩
abbrev main_v468 : Ref sig .tc := ⟨.hbm, 524, rfl⟩
abbrev main_v469 : Ref sig .tc := ⟨.hbm, 525, rfl⟩
abbrev main_v470 : Ref sig .tc := ⟨.hbm, 526, rfl⟩
abbrev main_v471 : Ref sig .tc := ⟨.hbm, 527, rfl⟩
abbrev main_v472 : Ref sig .tc := ⟨.hbm, 528, rfl⟩
abbrev main_v473 : Ref sig .tc := ⟨.hbm, 529, rfl⟩
abbrev main_v474 : Ref sig .tc := ⟨.hbm, 530, rfl⟩
abbrev main_v475 : Ref sig .tc := ⟨.hbm, 531, rfl⟩
abbrev main_v476 : Ref sig .tc := ⟨.hbm, 532, rfl⟩
abbrev main_v477 : Ref sig .tc := ⟨.hbm, 533, rfl⟩
abbrev main_v478 : Ref sig .tc := ⟨.hbm, 534, rfl⟩
abbrev main_v479 : Ref sig .tc := ⟨.hbm, 535, rfl⟩
abbrev main_v480 : Ref sig .tc := ⟨.hbm, 536, rfl⟩
abbrev main_v481 : Ref sig .tc := ⟨.hbm, 537, rfl⟩
abbrev main_v482 : Ref sig .tc := ⟨.hbm, 538, rfl⟩
abbrev main_v483 : Ref sig .tc := ⟨.hbm, 539, rfl⟩
abbrev main_cst_27 : Ref sig .tc := ⟨.hbm, 540, rfl⟩
abbrev main_v484 : Ref sig .tc := ⟨.hbm, 541, rfl⟩
abbrev main_v485 : Ref sig .tc := ⟨.hbm, 542, rfl⟩
abbrev main_v486 : Ref sig .tc := ⟨.hbm, 543, rfl⟩
abbrev main_v487 : Ref sig .tc := ⟨.hbm, 544, rfl⟩
abbrev main_v488 : Ref sig .tc := ⟨.hbm, 545, rfl⟩
abbrev main_v489 : Ref sig .tc := ⟨.hbm, 546, rfl⟩
abbrev main_v490 : Ref sig .tc := ⟨.hbm, 547, rfl⟩
abbrev main_v491 : Ref sig .tc := ⟨.hbm, 548, rfl⟩
abbrev main_v492 : Ref sig .tc := ⟨.hbm, 549, rfl⟩
abbrev main_v493 : Ref sig .tc := ⟨.hbm, 550, rfl⟩
abbrev main_v494 : Ref sig .tc := ⟨.hbm, 551, rfl⟩
abbrev main_v495 : Ref sig .tc := ⟨.hbm, 552, rfl⟩
abbrev main_v496 : Ref sig .tc := ⟨.hbm, 553, rfl⟩
abbrev main_v497 : Ref sig .tc := ⟨.hbm, 554, rfl⟩
abbrev main_v498 : Ref sig .tc := ⟨.hbm, 555, rfl⟩
abbrev main_v499 : Ref sig .tc := ⟨.hbm, 556, rfl⟩
abbrev main_v500 : Ref sig .tc := ⟨.hbm, 557, rfl⟩
abbrev main_v501 : Ref sig .tc := ⟨.hbm, 558, rfl⟩
abbrev main_v502 : Ref sig .tc := ⟨.hbm, 559, rfl⟩
abbrev main_v503 : Ref sig .tc := ⟨.hbm, 560, rfl⟩
abbrev main_v504 : Ref sig .tc := ⟨.hbm, 561, rfl⟩
abbrev main_v505 : Ref sig .tc := ⟨.hbm, 562, rfl⟩
abbrev main_v506 : Ref sig .tc := ⟨.hbm, 563, rfl⟩
abbrev main_v507 : Ref sig .tc := ⟨.hbm, 564, rfl⟩
abbrev main_v508 : Ref sig .tc := ⟨.hbm, 565, rfl⟩
abbrev main_v509 : Ref sig .tc := ⟨.hbm, 566, rfl⟩
abbrev main_v510 : Ref sig .tc := ⟨.hbm, 567, rfl⟩
abbrev main_cst_28 : Ref sig .tc := ⟨.hbm, 568, rfl⟩
abbrev main_v511 : Ref sig .tc := ⟨.hbm, 569, rfl⟩
abbrev main_v512 : Ref sig .tc := ⟨.hbm, 570, rfl⟩
abbrev main_v513 : Ref sig .tc := ⟨.hbm, 571, rfl⟩
abbrev main_v514 : Ref sig .tc := ⟨.hbm, 572, rfl⟩
abbrev main_v515 : Ref sig .tc := ⟨.hbm, 573, rfl⟩
abbrev main_v516 : Ref sig .tc := ⟨.hbm, 574, rfl⟩
abbrev main_v517 : Ref sig .tc := ⟨.hbm, 575, rfl⟩
abbrev main_v518 : Ref sig .tc := ⟨.hbm, 576, rfl⟩
abbrev main_v519 : Ref sig .tc := ⟨.hbm, 577, rfl⟩
abbrev main_v520 : Ref sig .tc := ⟨.hbm, 578, rfl⟩
abbrev main_v521 : Ref sig .tc := ⟨.hbm, 579, rfl⟩
abbrev main_v522 : Ref sig .tc := ⟨.hbm, 580, rfl⟩
abbrev main_v523 : Ref sig .tc := ⟨.hbm, 581, rfl⟩
abbrev main_v524 : Ref sig .tc := ⟨.hbm, 582, rfl⟩
abbrev main_v525 : Ref sig .tc := ⟨.hbm, 583, rfl⟩
abbrev main_v526 : Ref sig .tc := ⟨.hbm, 584, rfl⟩
abbrev main_v527 : Ref sig .tc := ⟨.hbm, 585, rfl⟩
abbrev main_v528 : Ref sig .tc := ⟨.hbm, 586, rfl⟩
abbrev main_v529 : Ref sig .tc := ⟨.hbm, 587, rfl⟩
abbrev main_v530 : Ref sig .tc := ⟨.hbm, 588, rfl⟩
abbrev main_v531 : Ref sig .tc := ⟨.hbm, 589, rfl⟩
abbrev main_v532 : Ref sig .tc := ⟨.hbm, 590, rfl⟩
abbrev main_v533 : Ref sig .tc := ⟨.hbm, 591, rfl⟩
abbrev main_v534 : Ref sig .tc := ⟨.hbm, 592, rfl⟩
abbrev main_v535 : Ref sig .tc := ⟨.hbm, 593, rfl⟩
abbrev main_c_29 : Ref sig .tc := ⟨.hbm, 594, rfl⟩
abbrev main_v536 : Ref sig .tc := ⟨.hbm, 595, rfl⟩
abbrev main_v537 : Ref sig .tc := ⟨.hbm, 596, rfl⟩
abbrev main_c_30 : Ref sig .tc := ⟨.hbm, 597, rfl⟩
abbrev main_v538 : Ref sig .tc := ⟨.hbm, 598, rfl⟩
abbrev main_v539 : Ref sig .tc := ⟨.hbm, 599, rfl⟩
abbrev main_c_31 : Ref sig .tc := ⟨.hbm, 600, rfl⟩
abbrev main_v540 : Ref sig .tc := ⟨.hbm, 601, rfl⟩
abbrev main_v541 : Ref sig .tc := ⟨.hbm, 602, rfl⟩
abbrev main_v542 : Ref sig .tc := ⟨.hbm, 603, rfl⟩
abbrev main_c_32 : Ref sig .tc := ⟨.hbm, 604, rfl⟩
abbrev main_v543 : Ref sig .tc := ⟨.hbm, 605, rfl⟩
abbrev main_v544 : Ref sig .tc := ⟨.hbm, 606, rfl⟩
abbrev main_c_33 : Ref sig .tc := ⟨.hbm, 607, rfl⟩
abbrev main_v545 : Ref sig .tc := ⟨.hbm, 608, rfl⟩
abbrev main_v546 : Ref sig .tc := ⟨.hbm, 609, rfl⟩
abbrev main_v547 : Ref sig .tc := ⟨.hbm, 610, rfl⟩
abbrev main_v548 : Ref sig .tc := ⟨.hbm, 611, rfl⟩
abbrev main_v549 : Ref sig .tc := ⟨.hbm, 612, rfl⟩
abbrev main_v550 : Ref sig .tc := ⟨.hbm, 613, rfl⟩
abbrev main_c_34 : Ref sig .tc := ⟨.hbm, 614, rfl⟩
abbrev main_v551 : Ref sig .tc := ⟨.hbm, 615, rfl⟩
abbrev main_v552 : Ref sig .tc := ⟨.hbm, 616, rfl⟩
abbrev main_c_35 : Ref sig .tc := ⟨.hbm, 617, rfl⟩
abbrev main_v553 : Ref sig .tc := ⟨.hbm, 618, rfl⟩
abbrev main_v554 : Ref sig .tc := ⟨.hbm, 619, rfl⟩
abbrev main_c_36 : Ref sig .tc := ⟨.hbm, 620, rfl⟩
abbrev main_v555 : Ref sig .tc := ⟨.hbm, 621, rfl⟩
abbrev main_v556 : Ref sig .tc := ⟨.hbm, 622, rfl⟩
abbrev main_v557 : Ref sig .tc := ⟨.hbm, 623, rfl⟩
abbrev main_c_37 : Ref sig .tc := ⟨.hbm, 624, rfl⟩
abbrev main_v558 : Ref sig .tc := ⟨.hbm, 625, rfl⟩
abbrev main_v559 : Ref sig .tc := ⟨.hbm, 626, rfl⟩
abbrev main_c_38 : Ref sig .tc := ⟨.hbm, 627, rfl⟩
abbrev main_v560 : Ref sig .tc := ⟨.hbm, 628, rfl⟩
abbrev main_v561 : Ref sig .tc := ⟨.hbm, 629, rfl⟩
abbrev main_v562 : Ref sig .tc := ⟨.hbm, 630, rfl⟩
abbrev main_v563 : Ref sig .tc := ⟨.hbm, 631, rfl⟩
abbrev main_v564 : Ref sig .tc := ⟨.hbm, 632, rfl⟩
abbrev main_v565 : Ref sig .tc := ⟨.hbm, 633, rfl⟩
abbrev main_v566 : Ref sig .tc := ⟨.hbm, 634, rfl⟩
abbrev main_v567 : Ref sig .tc := ⟨.hbm, 635, rfl⟩
abbrev main_v568 : Ref sig .tc := ⟨.hbm, 636, rfl⟩
abbrev main_cst_39 : Ref sig .tc := ⟨.hbm, 637, rfl⟩
abbrev main_v569 : Ref sig .tc := ⟨.hbm, 638, rfl⟩
abbrev main_v570 : Ref sig .tc := ⟨.hbm, 639, rfl⟩
abbrev main_v571 : Ref sig .tc := ⟨.hbm, 640, rfl⟩
abbrev main_v572 : Ref sig .tc := ⟨.hbm, 641, rfl⟩
abbrev main_cst_40 : Ref sig .tc := ⟨.hbm, 642, rfl⟩
abbrev main_v573 : Ref sig .tc := ⟨.hbm, 643, rfl⟩
abbrev main_v574 : Ref sig .tc := ⟨.hbm, 644, rfl⟩
abbrev main_v575 : Ref sig .tc := ⟨.hbm, 645, rfl⟩
abbrev main_v576 : Ref sig .tc := ⟨.hbm, 646, rfl⟩
abbrev main_v577 : Ref sig .tc := ⟨.hbm, 647, rfl⟩
abbrev main_v578 : Ref sig .tc := ⟨.hbm, 648, rfl⟩
abbrev main_v579 : Ref sig .tc := ⟨.hbm, 649, rfl⟩
abbrev main_v580 : Ref sig .tc := ⟨.hbm, 650, rfl⟩
abbrev main_v581 : Ref sig .tc := ⟨.hbm, 651, rfl⟩
abbrev main_v582 : Ref sig .tc := ⟨.hbm, 652, rfl⟩
abbrev main_v583 : Ref sig .tc := ⟨.hbm, 653, rfl⟩
abbrev main_v584 : Ref sig .tc := ⟨.hbm, 654, rfl⟩
abbrev main_v585 : Ref sig .tc := ⟨.hbm, 655, rfl⟩
abbrev main_v586 : Ref sig .tc := ⟨.hbm, 656, rfl⟩
abbrev main_v587 : Ref sig .tc := ⟨.hbm, 657, rfl⟩
abbrev main_v588 : Ref sig .tc := ⟨.hbm, 658, rfl⟩
abbrev main_v589 : Ref sig .tc := ⟨.hbm, 659, rfl⟩
abbrev main_v590 : Ref sig .tc := ⟨.hbm, 660, rfl⟩
abbrev main_v591 : Ref sig .tc := ⟨.hbm, 661, rfl⟩
abbrev main_v592 : Ref sig .tc := ⟨.hbm, 662, rfl⟩
abbrev main_v593 : Ref sig .tc := ⟨.hbm, 663, rfl⟩
abbrev main_v594 : Ref sig .tc := ⟨.hbm, 664, rfl⟩
abbrev main_v595 : Ref sig .tc := ⟨.hbm, 665, rfl⟩
abbrev main_v596 : Ref sig .tc := ⟨.hbm, 666, rfl⟩
abbrev main_v597 : Ref sig .tc := ⟨.hbm, 667, rfl⟩
abbrev main_v598 : Ref sig .tc := ⟨.hbm, 668, rfl⟩
abbrev main_cst_41 : Ref sig .tc := ⟨.hbm, 669, rfl⟩
abbrev main_v599 : Ref sig .tc := ⟨.hbm, 670, rfl⟩
abbrev main_v600 : Ref sig .tc := ⟨.hbm, 671, rfl⟩
abbrev main_v601 : Ref sig .tc := ⟨.hbm, 672, rfl⟩
abbrev main_v602 : Ref sig .tc := ⟨.hbm, 673, rfl⟩
abbrev main_v603 : Ref sig .tc := ⟨.hbm, 674, rfl⟩
abbrev main_v604 : Ref sig .tc := ⟨.hbm, 675, rfl⟩
abbrev main_v605 : Ref sig .tc := ⟨.hbm, 676, rfl⟩
abbrev main_v606 : Ref sig .tc := ⟨.hbm, 677, rfl⟩
abbrev main_v607 : Ref sig .tc := ⟨.hbm, 678, rfl⟩
abbrev main_v608 : Ref sig .tc := ⟨.hbm, 679, rfl⟩
abbrev main_v609 : Ref sig .tc := ⟨.hbm, 680, rfl⟩
abbrev main_v610 : Ref sig .tc := ⟨.hbm, 681, rfl⟩
abbrev main_v611 : Ref sig .tc := ⟨.hbm, 682, rfl⟩
abbrev main_v612 : Ref sig .tc := ⟨.hbm, 683, rfl⟩
abbrev main_v613 : Ref sig .tc := ⟨.hbm, 684, rfl⟩
abbrev main_v614 : Ref sig .tc := ⟨.hbm, 685, rfl⟩
abbrev main_v615 : Ref sig .tc := ⟨.hbm, 686, rfl⟩
abbrev main_v616 : Ref sig .tc := ⟨.hbm, 687, rfl⟩
abbrev main_v617 : Ref sig .tc := ⟨.hbm, 688, rfl⟩
abbrev main_v618 : Ref sig .tc := ⟨.hbm, 689, rfl⟩
abbrev main_v619 : Ref sig .tc := ⟨.hbm, 690, rfl⟩
abbrev main_v620 : Ref sig .tc := ⟨.hbm, 691, rfl⟩
abbrev main_v621 : Ref sig .tc := ⟨.hbm, 692, rfl⟩
abbrev main_v622 : Ref sig .tc := ⟨.hbm, 693, rfl⟩
abbrev main_v623 : Ref sig .tc := ⟨.hbm, 694, rfl⟩
abbrev main_v624 : Ref sig .tc := ⟨.hbm, 695, rfl⟩
abbrev main_cst_42 : Ref sig .tc := ⟨.hbm, 696, rfl⟩
abbrev main_v625 : Ref sig .tc := ⟨.hbm, 697, rfl⟩
abbrev main_v626 : Ref sig .tc := ⟨.hbm, 698, rfl⟩
abbrev main_v627 : Ref sig .tc := ⟨.hbm, 699, rfl⟩
abbrev main_v628 : Ref sig .tc := ⟨.hbm, 700, rfl⟩
abbrev main_v629 : Ref sig .tc := ⟨.hbm, 701, rfl⟩
abbrev main_v630 : Ref sig .tc := ⟨.hbm, 702, rfl⟩
abbrev main_v631 : Ref sig .tc := ⟨.hbm, 703, rfl⟩
abbrev main_v632 : Ref sig .tc := ⟨.hbm, 704, rfl⟩
abbrev main_v633 : Ref sig .tc := ⟨.hbm, 705, rfl⟩
abbrev main_v634 : Ref sig .tc := ⟨.hbm, 706, rfl⟩
abbrev main_v635 : Ref sig .tc := ⟨.hbm, 707, rfl⟩
abbrev main_v636 : Ref sig .tc := ⟨.hbm, 708, rfl⟩
abbrev main_v637 : Ref sig .tc := ⟨.hbm, 709, rfl⟩
abbrev main_v638 : Ref sig .tc := ⟨.hbm, 710, rfl⟩
abbrev main_v639 : Ref sig .tc := ⟨.hbm, 711, rfl⟩
abbrev main_v640 : Ref sig .tc := ⟨.hbm, 712, rfl⟩
abbrev main_v641 : Ref sig .tc := ⟨.hbm, 713, rfl⟩
abbrev main_v642 : Ref sig .tc := ⟨.hbm, 714, rfl⟩
abbrev main_v643 : Ref sig .tc := ⟨.hbm, 715, rfl⟩
abbrev main_v644 : Ref sig .tc := ⟨.hbm, 716, rfl⟩
abbrev main_v645 : Ref sig .tc := ⟨.hbm, 717, rfl⟩
abbrev main_v646 : Ref sig .tc := ⟨.hbm, 718, rfl⟩
abbrev main_v647 : Ref sig .tc := ⟨.hbm, 719, rfl⟩
abbrev main_v648 : Ref sig .tc := ⟨.hbm, 720, rfl⟩
abbrev main_v649 : Ref sig .tc := ⟨.hbm, 721, rfl⟩
abbrev main_v650 : Ref sig .tc := ⟨.hbm, 722, rfl⟩
abbrev main_cst_43 : Ref sig .tc := ⟨.hbm, 723, rfl⟩
abbrev main_v651 : Ref sig .tc := ⟨.hbm, 724, rfl⟩
abbrev main_v652 : Ref sig .tc := ⟨.hbm, 725, rfl⟩
abbrev main_v653 : Ref sig .tc := ⟨.hbm, 726, rfl⟩
abbrev main_v654 : Ref sig .tc := ⟨.hbm, 727, rfl⟩
abbrev main_v655 : Ref sig .tc := ⟨.hbm, 728, rfl⟩
abbrev main_v656 : Ref sig .tc := ⟨.hbm, 729, rfl⟩
abbrev main_v657 : Ref sig .tc := ⟨.hbm, 730, rfl⟩
abbrev main_v658 : Ref sig .tc := ⟨.hbm, 731, rfl⟩
abbrev main_v659 : Ref sig .tc := ⟨.hbm, 732, rfl⟩
abbrev main_v660 : Ref sig .tc := ⟨.hbm, 733, rfl⟩
abbrev main_v661 : Ref sig .tc := ⟨.hbm, 734, rfl⟩
abbrev main_v662 : Ref sig .tc := ⟨.hbm, 735, rfl⟩
abbrev main_v663 : Ref sig .tc := ⟨.hbm, 736, rfl⟩
abbrev main_v664 : Ref sig .tc := ⟨.hbm, 737, rfl⟩
abbrev main_v665 : Ref sig .tc := ⟨.hbm, 738, rfl⟩
abbrev main_v666 : Ref sig .tc := ⟨.hbm, 739, rfl⟩
abbrev main_v667 : Ref sig .tc := ⟨.hbm, 740, rfl⟩
abbrev main_v668 : Ref sig .tc := ⟨.hbm, 741, rfl⟩
abbrev main_v669 : Ref sig .tc := ⟨.hbm, 742, rfl⟩
abbrev main_v670 : Ref sig .tc := ⟨.hbm, 743, rfl⟩
abbrev main_v671 : Ref sig .tc := ⟨.hbm, 744, rfl⟩
abbrev main_v672 : Ref sig .tc := ⟨.hbm, 745, rfl⟩
abbrev main_v673 : Ref sig .tc := ⟨.hbm, 746, rfl⟩
abbrev main_v674 : Ref sig .tc := ⟨.hbm, 747, rfl⟩
abbrev main_v675 : Ref sig .tc := ⟨.hbm, 748, rfl⟩
abbrev main_v676 : Ref sig .tc := ⟨.hbm, 749, rfl⟩
abbrev main_cst_44 : Ref sig .tc := ⟨.hbm, 750, rfl⟩
abbrev main_v677 : Ref sig .tc := ⟨.hbm, 751, rfl⟩
abbrev main_v678 : Ref sig .tc := ⟨.hbm, 752, rfl⟩
abbrev main_v679 : Ref sig .tc := ⟨.hbm, 753, rfl⟩
abbrev main_v680 : Ref sig .tc := ⟨.hbm, 754, rfl⟩
abbrev main_v681 : Ref sig .tc := ⟨.hbm, 755, rfl⟩
abbrev main_v682 : Ref sig .tc := ⟨.hbm, 756, rfl⟩
abbrev main_v683 : Ref sig .tc := ⟨.hbm, 757, rfl⟩
abbrev main_v684 : Ref sig .tc := ⟨.hbm, 758, rfl⟩
abbrev main_v685 : Ref sig .tc := ⟨.hbm, 759, rfl⟩
abbrev main_v686 : Ref sig .tc := ⟨.hbm, 760, rfl⟩
abbrev main_v687 : Ref sig .tc := ⟨.hbm, 761, rfl⟩
abbrev main_v688 : Ref sig .tc := ⟨.hbm, 762, rfl⟩
abbrev main_v689 : Ref sig .tc := ⟨.hbm, 763, rfl⟩
abbrev main_v690 : Ref sig .tc := ⟨.hbm, 764, rfl⟩
abbrev main_v691 : Ref sig .tc := ⟨.hbm, 765, rfl⟩
abbrev main_v692 : Ref sig .tc := ⟨.hbm, 766, rfl⟩
abbrev main_v693 : Ref sig .tc := ⟨.hbm, 767, rfl⟩
abbrev main_v694 : Ref sig .tc := ⟨.hbm, 768, rfl⟩
abbrev main_v695 : Ref sig .tc := ⟨.hbm, 769, rfl⟩
abbrev main_v696 : Ref sig .tc := ⟨.hbm, 770, rfl⟩
abbrev main_v697 : Ref sig .tc := ⟨.hbm, 771, rfl⟩
abbrev main_v698 : Ref sig .tc := ⟨.hbm, 772, rfl⟩
abbrev main_v699 : Ref sig .tc := ⟨.hbm, 773, rfl⟩
abbrev main_v700 : Ref sig .tc := ⟨.hbm, 774, rfl⟩
abbrev main_v701 : Ref sig .tc := ⟨.hbm, 775, rfl⟩
abbrev main_v702 : Ref sig .tc := ⟨.hbm, 776, rfl⟩
abbrev main_cst_45 : Ref sig .tc := ⟨.hbm, 777, rfl⟩
abbrev main_v703 : Ref sig .tc := ⟨.hbm, 778, rfl⟩
abbrev main_v704 : Ref sig .tc := ⟨.hbm, 779, rfl⟩
abbrev main_v705 : Ref sig .tc := ⟨.hbm, 780, rfl⟩
abbrev main_v706 : Ref sig .tc := ⟨.hbm, 781, rfl⟩
abbrev main_v707 : Ref sig .tc := ⟨.hbm, 782, rfl⟩
abbrev main_v708 : Ref sig .tc := ⟨.hbm, 783, rfl⟩
abbrev main_v709 : Ref sig .tc := ⟨.hbm, 784, rfl⟩
abbrev main_v710 : Ref sig .tc := ⟨.hbm, 785, rfl⟩
abbrev main_v711 : Ref sig .tc := ⟨.hbm, 786, rfl⟩
abbrev main_v712 : Ref sig .tc := ⟨.hbm, 787, rfl⟩
abbrev main_v713 : Ref sig .tc := ⟨.hbm, 788, rfl⟩
abbrev main_v714 : Ref sig .tc := ⟨.hbm, 789, rfl⟩
abbrev main_v715 : Ref sig .tc := ⟨.hbm, 790, rfl⟩
abbrev main_v716 : Ref sig .tc := ⟨.hbm, 791, rfl⟩
abbrev main_v717 : Ref sig .tc := ⟨.hbm, 792, rfl⟩
abbrev main_v718 : Ref sig .tc := ⟨.hbm, 793, rfl⟩
abbrev main_v719 : Ref sig .tc := ⟨.hbm, 794, rfl⟩
abbrev main_v720 : Ref sig .tc := ⟨.hbm, 795, rfl⟩
abbrev main_v721 : Ref sig .tc := ⟨.hbm, 796, rfl⟩
abbrev main_v722 : Ref sig .tc := ⟨.hbm, 797, rfl⟩
abbrev main_v723 : Ref sig .tc := ⟨.hbm, 798, rfl⟩
abbrev main_v724 : Ref sig .tc := ⟨.hbm, 799, rfl⟩
abbrev main_v725 : Ref sig .tc := ⟨.hbm, 800, rfl⟩
abbrev main_v726 : Ref sig .tc := ⟨.hbm, 801, rfl⟩
abbrev main_v727 : Ref sig .tc := ⟨.hbm, 802, rfl⟩
abbrev main_v728 : Ref sig .tc := ⟨.hbm, 803, rfl⟩
abbrev main_cst_46 : Ref sig .tc := ⟨.hbm, 804, rfl⟩
abbrev main_v729 : Ref sig .tc := ⟨.hbm, 805, rfl⟩
abbrev main_v730 : Ref sig .tc := ⟨.hbm, 806, rfl⟩
abbrev main_v731 : Ref sig .tc := ⟨.hbm, 807, rfl⟩
abbrev main_v732 : Ref sig .tc := ⟨.hbm, 808, rfl⟩
abbrev main_v733 : Ref sig .tc := ⟨.hbm, 809, rfl⟩
abbrev main_v734 : Ref sig .tc := ⟨.hbm, 810, rfl⟩
abbrev main_v735 : Ref sig .tc := ⟨.hbm, 811, rfl⟩
abbrev main_v736 : Ref sig .tc := ⟨.hbm, 812, rfl⟩
abbrev main_v737 : Ref sig .tc := ⟨.hbm, 813, rfl⟩
abbrev main_v738 : Ref sig .tc := ⟨.hbm, 814, rfl⟩
abbrev main_v739 : Ref sig .tc := ⟨.hbm, 815, rfl⟩
abbrev main_v740 : Ref sig .tc := ⟨.hbm, 816, rfl⟩
abbrev main_v741 : Ref sig .tc := ⟨.hbm, 817, rfl⟩
abbrev main_v742 : Ref sig .tc := ⟨.hbm, 818, rfl⟩
abbrev main_v743 : Ref sig .tc := ⟨.hbm, 819, rfl⟩
abbrev main_v744 : Ref sig .tc := ⟨.hbm, 820, rfl⟩
abbrev main_v745 : Ref sig .tc := ⟨.hbm, 821, rfl⟩
abbrev main_v746 : Ref sig .tc := ⟨.hbm, 822, rfl⟩
abbrev main_v747 : Ref sig .tc := ⟨.hbm, 823, rfl⟩
abbrev main_v748 : Ref sig .tc := ⟨.hbm, 824, rfl⟩
abbrev main_v749 : Ref sig .tc := ⟨.hbm, 825, rfl⟩
abbrev main_v750 : Ref sig .tc := ⟨.hbm, 826, rfl⟩
abbrev main_v751 : Ref sig .tc := ⟨.hbm, 827, rfl⟩
abbrev main_v752 : Ref sig .tc := ⟨.hbm, 828, rfl⟩
abbrev main_v753 : Ref sig .tc := ⟨.hbm, 829, rfl⟩
abbrev main_v754 : Ref sig .tc := ⟨.hbm, 830, rfl⟩
abbrev main_cst_47 : Ref sig .tc := ⟨.hbm, 831, rfl⟩
abbrev main_v755 : Ref sig .tc := ⟨.hbm, 832, rfl⟩
abbrev main_v756 : Ref sig .tc := ⟨.hbm, 833, rfl⟩
abbrev main_v757 : Ref sig .tc := ⟨.hbm, 834, rfl⟩
abbrev main_v758 : Ref sig .tc := ⟨.hbm, 835, rfl⟩
abbrev main_v759 : Ref sig .tc := ⟨.hbm, 836, rfl⟩
abbrev main_v760 : Ref sig .tc := ⟨.hbm, 837, rfl⟩
abbrev main_v761 : Ref sig .tc := ⟨.hbm, 838, rfl⟩
abbrev main_v762 : Ref sig .tc := ⟨.hbm, 839, rfl⟩
abbrev main_v763 : Ref sig .tc := ⟨.hbm, 840, rfl⟩
abbrev main_v764 : Ref sig .tc := ⟨.hbm, 841, rfl⟩
abbrev main_v765 : Ref sig .tc := ⟨.hbm, 842, rfl⟩
abbrev main_v766 : Ref sig .tc := ⟨.hbm, 843, rfl⟩
abbrev main_v767 : Ref sig .tc := ⟨.hbm, 844, rfl⟩
abbrev main_v768 : Ref sig .tc := ⟨.hbm, 845, rfl⟩
abbrev main_v769 : Ref sig .tc := ⟨.hbm, 846, rfl⟩
abbrev main_v770 : Ref sig .tc := ⟨.hbm, 847, rfl⟩
abbrev main_v771 : Ref sig .tc := ⟨.hbm, 848, rfl⟩
abbrev main_v772 : Ref sig .tc := ⟨.hbm, 849, rfl⟩
abbrev main_v773 : Ref sig .tc := ⟨.hbm, 850, rfl⟩
abbrev main_v774 : Ref sig .tc := ⟨.hbm, 851, rfl⟩
abbrev main_v775 : Ref sig .tc := ⟨.hbm, 852, rfl⟩
abbrev main_v776 : Ref sig .tc := ⟨.hbm, 853, rfl⟩
abbrev main_v777 : Ref sig .tc := ⟨.hbm, 854, rfl⟩
abbrev main_v778 : Ref sig .tc := ⟨.hbm, 855, rfl⟩
abbrev main_v779 : Ref sig .tc := ⟨.hbm, 856, rfl⟩
abbrev main_v780 : Ref sig .tc := ⟨.hbm, 857, rfl⟩
abbrev main_cst_48 : Ref sig .tc := ⟨.hbm, 858, rfl⟩
abbrev main_v781 : Ref sig .tc := ⟨.hbm, 859, rfl⟩
abbrev main_v782 : Ref sig .tc := ⟨.hbm, 860, rfl⟩
abbrev main_v783 : Ref sig .tc := ⟨.hbm, 861, rfl⟩
abbrev main_v784 : Ref sig .tc := ⟨.hbm, 862, rfl⟩
abbrev main_v785 : Ref sig .tc := ⟨.hbm, 863, rfl⟩
abbrev main_v786 : Ref sig .tc := ⟨.hbm, 864, rfl⟩
abbrev main_v787 : Ref sig .tc := ⟨.hbm, 865, rfl⟩
abbrev main_v788 : Ref sig .tc := ⟨.hbm, 866, rfl⟩
abbrev main_v789 : Ref sig .tc := ⟨.hbm, 867, rfl⟩
abbrev main_v790 : Ref sig .tc := ⟨.hbm, 868, rfl⟩
abbrev main_v791 : Ref sig .tc := ⟨.hbm, 869, rfl⟩
abbrev main_v792 : Ref sig .tc := ⟨.hbm, 870, rfl⟩
abbrev main_v793 : Ref sig .tc := ⟨.hbm, 871, rfl⟩
abbrev main_v794 : Ref sig .tc := ⟨.hbm, 872, rfl⟩
abbrev main_v795 : Ref sig .tc := ⟨.hbm, 873, rfl⟩
abbrev main_v796 : Ref sig .tc := ⟨.hbm, 874, rfl⟩
abbrev main_v797 : Ref sig .tc := ⟨.hbm, 875, rfl⟩
abbrev main_v798 : Ref sig .tc := ⟨.hbm, 876, rfl⟩
abbrev main_v799 : Ref sig .tc := ⟨.hbm, 877, rfl⟩
abbrev main_v800 : Ref sig .tc := ⟨.hbm, 878, rfl⟩
abbrev main_v801 : Ref sig .tc := ⟨.hbm, 879, rfl⟩
abbrev main_v802 : Ref sig .tc := ⟨.hbm, 880, rfl⟩
abbrev main_v803 : Ref sig .tc := ⟨.hbm, 881, rfl⟩
abbrev main_v804 : Ref sig .tc := ⟨.hbm, 882, rfl⟩
abbrev main_c_49 : Ref sig .tc := ⟨.hbm, 883, rfl⟩
abbrev main_v805 : Ref sig .tc := ⟨.hbm, 884, rfl⟩
abbrev main_v806 : Ref sig .tc := ⟨.hbm, 885, rfl⟩
abbrev main_c_50 : Ref sig .tc := ⟨.hbm, 886, rfl⟩
abbrev main_v807 : Ref sig .tc := ⟨.hbm, 887, rfl⟩
abbrev main_v808 : Ref sig .tc := ⟨.hbm, 888, rfl⟩
abbrev main_c_51 : Ref sig .tc := ⟨.hbm, 889, rfl⟩
abbrev main_v809 : Ref sig .tc := ⟨.hbm, 890, rfl⟩
abbrev main_v810 : Ref sig .tc := ⟨.hbm, 891, rfl⟩
abbrev main_v811 : Ref sig .tc := ⟨.hbm, 892, rfl⟩
abbrev main_c_52 : Ref sig .tc := ⟨.hbm, 893, rfl⟩
abbrev main_v812 : Ref sig .tc := ⟨.hbm, 894, rfl⟩
abbrev main_v813 : Ref sig .tc := ⟨.hbm, 895, rfl⟩
abbrev main_c_53 : Ref sig .tc := ⟨.hbm, 896, rfl⟩
abbrev main_v814 : Ref sig .tc := ⟨.hbm, 897, rfl⟩
abbrev main_v815 : Ref sig .tc := ⟨.hbm, 898, rfl⟩
abbrev main_v816 : Ref sig .tc := ⟨.hbm, 899, rfl⟩
abbrev main_v817 : Ref sig .tc := ⟨.hbm, 900, rfl⟩
abbrev main_v818 : Ref sig .tc := ⟨.hbm, 901, rfl⟩
abbrev main_v819 : Ref sig .tc := ⟨.hbm, 902, rfl⟩
abbrev main_c_54 : Ref sig .tc := ⟨.hbm, 903, rfl⟩
abbrev main_v820 : Ref sig .tc := ⟨.hbm, 904, rfl⟩
abbrev main_v821 : Ref sig .tc := ⟨.hbm, 905, rfl⟩
abbrev main_c_55 : Ref sig .tc := ⟨.hbm, 906, rfl⟩
abbrev main_v822 : Ref sig .tc := ⟨.hbm, 907, rfl⟩
abbrev main_v823 : Ref sig .tc := ⟨.hbm, 908, rfl⟩
abbrev main_c_56 : Ref sig .tc := ⟨.hbm, 909, rfl⟩
abbrev main_v824 : Ref sig .tc := ⟨.hbm, 910, rfl⟩
abbrev main_v825 : Ref sig .tc := ⟨.hbm, 911, rfl⟩
abbrev main_v826 : Ref sig .tc := ⟨.hbm, 912, rfl⟩
abbrev main_c_57 : Ref sig .tc := ⟨.hbm, 913, rfl⟩
abbrev main_v827 : Ref sig .tc := ⟨.hbm, 914, rfl⟩
abbrev main_v828 : Ref sig .tc := ⟨.hbm, 915, rfl⟩
abbrev main_c_58 : Ref sig .tc := ⟨.hbm, 916, rfl⟩
abbrev main_v829 : Ref sig .tc := ⟨.hbm, 917, rfl⟩
abbrev main_v830 : Ref sig .tc := ⟨.hbm, 918, rfl⟩
abbrev main_v831 : Ref sig .tc := ⟨.hbm, 919, rfl⟩
abbrev main_v832 : Ref sig .tc := ⟨.hbm, 920, rfl⟩
abbrev main_v833 : Ref sig .tc := ⟨.hbm, 921, rfl⟩
abbrev main_v834 : Ref sig .tc := ⟨.hbm, 922, rfl⟩
abbrev main_v835 : Ref sig .tc := ⟨.hbm, 923, rfl⟩
abbrev main_v836 : Ref sig .tc := ⟨.hbm, 924, rfl⟩
abbrev main_v837 : Ref sig .tc := ⟨.hbm, 925, rfl⟩
abbrev main_v838 : Ref sig .tc := ⟨.hbm, 926, rfl⟩
abbrev main_v839 : Ref sig .tc := ⟨.hbm, 927, rfl⟩
abbrev main_v840 : Ref sig .tc := ⟨.hbm, 928, rfl⟩
abbrev main_cst_59 : Ref sig .tc := ⟨.hbm, 929, rfl⟩
abbrev main_v841 : Ref sig .tc := ⟨.hbm, 930, rfl⟩
abbrev main_v842 : Ref sig .tc := ⟨.hbm, 931, rfl⟩
abbrev main_v843 : Ref sig .tc := ⟨.hbm, 932, rfl⟩
abbrev main_v844 : Ref sig .tc := ⟨.hbm, 933, rfl⟩
abbrev main_v845 : Ref sig .tc := ⟨.hbm, 934, rfl⟩
abbrev main_v846 : Ref sig .tc := ⟨.hbm, 935, rfl⟩
abbrev main_v847 : Ref sig .tc := ⟨.hbm, 936, rfl⟩
abbrev main_v848 : Ref sig .tc := ⟨.hbm, 937, rfl⟩
abbrev main_v849 : Ref sig .tc := ⟨.hbm, 938, rfl⟩
abbrev main_v850 : Ref sig .tc := ⟨.hbm, 939, rfl⟩
abbrev main_v851 : Ref sig .tc := ⟨.hbm, 940, rfl⟩
abbrev main_v852 : Ref sig .tc := ⟨.hbm, 941, rfl⟩
abbrev main_v853 : Ref sig .tc := ⟨.hbm, 942, rfl⟩
abbrev main_v854 : Ref sig .tc := ⟨.hbm, 943, rfl⟩
abbrev main_v855 : Ref sig .tc := ⟨.hbm, 944, rfl⟩
abbrev main_v856 : Ref sig .tc := ⟨.hbm, 945, rfl⟩
abbrev main_v857 : Ref sig .tc := ⟨.hbm, 946, rfl⟩
abbrev main_v858 : Ref sig .tc := ⟨.hbm, 947, rfl⟩
abbrev main_v859 : Ref sig .tc := ⟨.hbm, 948, rfl⟩
abbrev main_v860 : Ref sig .tc := ⟨.hbm, 949, rfl⟩
abbrev main_v861 : Ref sig .tc := ⟨.hbm, 950, rfl⟩
abbrev main_v862 : Ref sig .tc := ⟨.hbm, 951, rfl⟩
abbrev main_v863 : Ref sig .tc := ⟨.hbm, 952, rfl⟩
abbrev main_v864 : Ref sig .tc := ⟨.hbm, 953, rfl⟩
abbrev main_v865 : Ref sig .tc := ⟨.hbm, 954, rfl⟩
abbrev main_v866 : Ref sig .tc := ⟨.hbm, 955, rfl⟩
abbrev main_v867 : Ref sig .tc := ⟨.hbm, 956, rfl⟩
abbrev main_cst_60 : Ref sig .tc := ⟨.hbm, 957, rfl⟩
abbrev main_v868 : Ref sig .tc := ⟨.hbm, 958, rfl⟩
abbrev main_v869 : Ref sig .tc := ⟨.hbm, 959, rfl⟩
abbrev main_v870 : Ref sig .tc := ⟨.hbm, 960, rfl⟩
abbrev main_v871 : Ref sig .tc := ⟨.hbm, 961, rfl⟩
abbrev main_v872 : Ref sig .tc := ⟨.hbm, 962, rfl⟩
abbrev main_v873 : Ref sig .tc := ⟨.hbm, 963, rfl⟩
abbrev main_v874 : Ref sig .tc := ⟨.hbm, 964, rfl⟩
abbrev main_v875 : Ref sig .tc := ⟨.hbm, 965, rfl⟩
abbrev main_v876 : Ref sig .tc := ⟨.hbm, 966, rfl⟩
abbrev main_v877 : Ref sig .tc := ⟨.hbm, 967, rfl⟩
abbrev main_v878 : Ref sig .tc := ⟨.hbm, 968, rfl⟩
abbrev main_v879 : Ref sig .tc := ⟨.hbm, 969, rfl⟩
abbrev main_v880 : Ref sig .tc := ⟨.hbm, 970, rfl⟩
abbrev main_v881 : Ref sig .tc := ⟨.hbm, 971, rfl⟩
abbrev main_v882 : Ref sig .tc := ⟨.hbm, 972, rfl⟩
abbrev main_v883 : Ref sig .tc := ⟨.hbm, 973, rfl⟩
abbrev main_v884 : Ref sig .tc := ⟨.hbm, 974, rfl⟩
abbrev main_v885 : Ref sig .tc := ⟨.hbm, 975, rfl⟩
abbrev main_v886 : Ref sig .tc := ⟨.hbm, 976, rfl⟩
abbrev main_v887 : Ref sig .tc := ⟨.hbm, 977, rfl⟩
abbrev main_v888 : Ref sig .tc := ⟨.hbm, 978, rfl⟩
abbrev main_v889 : Ref sig .tc := ⟨.hbm, 979, rfl⟩
abbrev main_v890 : Ref sig .tc := ⟨.hbm, 980, rfl⟩
abbrev main_v891 : Ref sig .tc := ⟨.hbm, 981, rfl⟩
abbrev main_v892 : Ref sig .tc := ⟨.hbm, 982, rfl⟩
abbrev main_v893 : Ref sig .tc := ⟨.hbm, 983, rfl⟩
abbrev main_v894 : Ref sig .tc := ⟨.hbm, 984, rfl⟩
abbrev main_cst_61 : Ref sig .tc := ⟨.hbm, 985, rfl⟩
abbrev main_v895 : Ref sig .tc := ⟨.hbm, 986, rfl⟩
abbrev main_v896 : Ref sig .tc := ⟨.hbm, 987, rfl⟩
abbrev main_v897 : Ref sig .tc := ⟨.hbm, 988, rfl⟩
abbrev main_v898 : Ref sig .tc := ⟨.hbm, 989, rfl⟩
abbrev main_v899 : Ref sig .tc := ⟨.hbm, 990, rfl⟩
abbrev main_v900 : Ref sig .tc := ⟨.hbm, 991, rfl⟩
abbrev main_v901 : Ref sig .tc := ⟨.hbm, 992, rfl⟩
abbrev main_v902 : Ref sig .tc := ⟨.hbm, 993, rfl⟩
abbrev main_v903 : Ref sig .tc := ⟨.hbm, 994, rfl⟩
abbrev main_v904 : Ref sig .tc := ⟨.hbm, 995, rfl⟩
abbrev main_v905 : Ref sig .tc := ⟨.hbm, 996, rfl⟩
abbrev main_v906 : Ref sig .tc := ⟨.hbm, 997, rfl⟩
abbrev main_v907 : Ref sig .tc := ⟨.hbm, 998, rfl⟩
abbrev main_v908 : Ref sig .tc := ⟨.hbm, 999, rfl⟩
abbrev main_v909 : Ref sig .tc := ⟨.hbm, 1000, rfl⟩
abbrev main_v910 : Ref sig .tc := ⟨.hbm, 1001, rfl⟩
abbrev main_v911 : Ref sig .tc := ⟨.hbm, 1002, rfl⟩
abbrev main_v912 : Ref sig .tc := ⟨.hbm, 1003, rfl⟩
abbrev main_v913 : Ref sig .tc := ⟨.hbm, 1004, rfl⟩
abbrev main_v914 : Ref sig .tc := ⟨.hbm, 1005, rfl⟩
abbrev main_v915 : Ref sig .tc := ⟨.hbm, 1006, rfl⟩
abbrev main_v916 : Ref sig .tc := ⟨.hbm, 1007, rfl⟩
abbrev main_v917 : Ref sig .tc := ⟨.hbm, 1008, rfl⟩
abbrev main_v918 : Ref sig .tc := ⟨.hbm, 1009, rfl⟩
abbrev main_v919 : Ref sig .tc := ⟨.hbm, 1010, rfl⟩
abbrev main_v920 : Ref sig .tc := ⟨.hbm, 1011, rfl⟩
abbrev main_v921 : Ref sig .tc := ⟨.hbm, 1012, rfl⟩
abbrev main_cst_62 : Ref sig .tc := ⟨.hbm, 1013, rfl⟩
abbrev main_v922 : Ref sig .tc := ⟨.hbm, 1014, rfl⟩
abbrev main_v923 : Ref sig .tc := ⟨.hbm, 1015, rfl⟩
abbrev main_v924 : Ref sig .tc := ⟨.hbm, 1016, rfl⟩
abbrev main_v925 : Ref sig .tc := ⟨.hbm, 1017, rfl⟩
abbrev main_v926 : Ref sig .tc := ⟨.hbm, 1018, rfl⟩
abbrev main_v927 : Ref sig .tc := ⟨.hbm, 1019, rfl⟩
abbrev main_v928 : Ref sig .tc := ⟨.hbm, 1020, rfl⟩
abbrev main_v929 : Ref sig .tc := ⟨.hbm, 1021, rfl⟩
abbrev main_v930 : Ref sig .tc := ⟨.hbm, 1022, rfl⟩
abbrev main_v931 : Ref sig .tc := ⟨.hbm, 1023, rfl⟩
abbrev main_v932 : Ref sig .tc := ⟨.hbm, 1024, rfl⟩
abbrev main_v933 : Ref sig .tc := ⟨.hbm, 1025, rfl⟩
abbrev main_v934 : Ref sig .tc := ⟨.hbm, 1026, rfl⟩
abbrev main_v935 : Ref sig .tc := ⟨.hbm, 1027, rfl⟩
abbrev main_v936 : Ref sig .tc := ⟨.hbm, 1028, rfl⟩
abbrev main_v937 : Ref sig .tc := ⟨.hbm, 1029, rfl⟩
abbrev main_v938 : Ref sig .tc := ⟨.hbm, 1030, rfl⟩
abbrev main_v939 : Ref sig .tc := ⟨.hbm, 1031, rfl⟩
abbrev main_v940 : Ref sig .tc := ⟨.hbm, 1032, rfl⟩
abbrev main_v941 : Ref sig .tc := ⟨.hbm, 1033, rfl⟩
abbrev main_v942 : Ref sig .tc := ⟨.hbm, 1034, rfl⟩
abbrev main_v943 : Ref sig .tc := ⟨.hbm, 1035, rfl⟩
abbrev main_v944 : Ref sig .tc := ⟨.hbm, 1036, rfl⟩
abbrev main_v945 : Ref sig .tc := ⟨.hbm, 1037, rfl⟩
abbrev main_v946 : Ref sig .tc := ⟨.hbm, 1038, rfl⟩
abbrev main_v947 : Ref sig .tc := ⟨.hbm, 1039, rfl⟩
abbrev main_v948 : Ref sig .tc := ⟨.hbm, 1040, rfl⟩
abbrev main_cst_63 : Ref sig .tc := ⟨.hbm, 1041, rfl⟩
abbrev main_v949 : Ref sig .tc := ⟨.hbm, 1042, rfl⟩
abbrev main_v950 : Ref sig .tc := ⟨.hbm, 1043, rfl⟩
abbrev main_v951 : Ref sig .tc := ⟨.hbm, 1044, rfl⟩
abbrev main_v952 : Ref sig .tc := ⟨.hbm, 1045, rfl⟩
abbrev main_v953 : Ref sig .tc := ⟨.hbm, 1046, rfl⟩
abbrev main_v954 : Ref sig .tc := ⟨.hbm, 1047, rfl⟩
abbrev main_v955 : Ref sig .tc := ⟨.hbm, 1048, rfl⟩
abbrev main_v956 : Ref sig .tc := ⟨.hbm, 1049, rfl⟩
abbrev main_v957 : Ref sig .tc := ⟨.hbm, 1050, rfl⟩
abbrev main_v958 : Ref sig .tc := ⟨.hbm, 1051, rfl⟩
abbrev main_v959 : Ref sig .tc := ⟨.hbm, 1052, rfl⟩
abbrev main_v960 : Ref sig .tc := ⟨.hbm, 1053, rfl⟩
abbrev main_v961 : Ref sig .tc := ⟨.hbm, 1054, rfl⟩
abbrev main_v962 : Ref sig .tc := ⟨.hbm, 1055, rfl⟩
abbrev main_v963 : Ref sig .tc := ⟨.hbm, 1056, rfl⟩
abbrev main_v964 : Ref sig .tc := ⟨.hbm, 1057, rfl⟩
abbrev main_v965 : Ref sig .tc := ⟨.hbm, 1058, rfl⟩
abbrev main_v966 : Ref sig .tc := ⟨.hbm, 1059, rfl⟩
abbrev main_v967 : Ref sig .tc := ⟨.hbm, 1060, rfl⟩
abbrev main_v968 : Ref sig .tc := ⟨.hbm, 1061, rfl⟩
abbrev main_v969 : Ref sig .tc := ⟨.hbm, 1062, rfl⟩
abbrev main_v970 : Ref sig .tc := ⟨.hbm, 1063, rfl⟩
abbrev main_v971 : Ref sig .tc := ⟨.hbm, 1064, rfl⟩
abbrev main_v972 : Ref sig .tc := ⟨.hbm, 1065, rfl⟩
abbrev main_v973 : Ref sig .tc := ⟨.hbm, 1066, rfl⟩
abbrev main_v974 : Ref sig .tc := ⟨.hbm, 1067, rfl⟩
abbrev main_v975 : Ref sig .tc := ⟨.hbm, 1068, rfl⟩
abbrev main_cst_64 : Ref sig .tc := ⟨.hbm, 1069, rfl⟩
abbrev main_v976 : Ref sig .tc := ⟨.hbm, 1070, rfl⟩
abbrev main_v977 : Ref sig .tc := ⟨.hbm, 1071, rfl⟩
abbrev main_v978 : Ref sig .tc := ⟨.hbm, 1072, rfl⟩
abbrev main_v979 : Ref sig .tc := ⟨.hbm, 1073, rfl⟩
abbrev main_v980 : Ref sig .tc := ⟨.hbm, 1074, rfl⟩
abbrev main_v981 : Ref sig .tc := ⟨.hbm, 1075, rfl⟩
abbrev main_v982 : Ref sig .tc := ⟨.hbm, 1076, rfl⟩
abbrev main_v983 : Ref sig .tc := ⟨.hbm, 1077, rfl⟩
abbrev main_v984 : Ref sig .tc := ⟨.hbm, 1078, rfl⟩
abbrev main_v985 : Ref sig .tc := ⟨.hbm, 1079, rfl⟩
abbrev main_v986 : Ref sig .tc := ⟨.hbm, 1080, rfl⟩
abbrev main_v987 : Ref sig .tc := ⟨.hbm, 1081, rfl⟩
abbrev main_v988 : Ref sig .tc := ⟨.hbm, 1082, rfl⟩
abbrev main_v989 : Ref sig .tc := ⟨.hbm, 1083, rfl⟩
abbrev main_v990 : Ref sig .tc := ⟨.hbm, 1084, rfl⟩
abbrev main_v991 : Ref sig .tc := ⟨.hbm, 1085, rfl⟩
abbrev main_v992 : Ref sig .tc := ⟨.hbm, 1086, rfl⟩
abbrev main_v993 : Ref sig .tc := ⟨.hbm, 1087, rfl⟩
abbrev main_v994 : Ref sig .tc := ⟨.hbm, 1088, rfl⟩
abbrev main_v995 : Ref sig .tc := ⟨.hbm, 1089, rfl⟩
abbrev main_v996 : Ref sig .tc := ⟨.hbm, 1090, rfl⟩
abbrev main_v997 : Ref sig .tc := ⟨.hbm, 1091, rfl⟩
abbrev main_v998 : Ref sig .tc := ⟨.hbm, 1092, rfl⟩
abbrev main_v999 : Ref sig .tc := ⟨.hbm, 1093, rfl⟩
abbrev main_v1000 : Ref sig .tc := ⟨.hbm, 1094, rfl⟩
abbrev main_v1001 : Ref sig .tc := ⟨.hbm, 1095, rfl⟩
abbrev main_v1002 : Ref sig .tc := ⟨.hbm, 1096, rfl⟩
abbrev main_cst_65 : Ref sig .tc := ⟨.hbm, 1097, rfl⟩
abbrev main_v1003 : Ref sig .tc := ⟨.hbm, 1098, rfl⟩
abbrev main_v1004 : Ref sig .tc := ⟨.hbm, 1099, rfl⟩
abbrev main_v1005 : Ref sig .tc := ⟨.hbm, 1100, rfl⟩
abbrev main_v1006 : Ref sig .tc := ⟨.hbm, 1101, rfl⟩
abbrev main_v1007 : Ref sig .tc := ⟨.hbm, 1102, rfl⟩
abbrev main_v1008 : Ref sig .tc := ⟨.hbm, 1103, rfl⟩
abbrev main_v1009 : Ref sig .tc := ⟨.hbm, 1104, rfl⟩
abbrev main_v1010 : Ref sig .tc := ⟨.hbm, 1105, rfl⟩
abbrev main_v1011 : Ref sig .tc := ⟨.hbm, 1106, rfl⟩
abbrev main_v1012 : Ref sig .tc := ⟨.hbm, 1107, rfl⟩
abbrev main_v1013 : Ref sig .tc := ⟨.hbm, 1108, rfl⟩
abbrev main_v1014 : Ref sig .tc := ⟨.hbm, 1109, rfl⟩
abbrev main_v1015 : Ref sig .tc := ⟨.hbm, 1110, rfl⟩
abbrev main_v1016 : Ref sig .tc := ⟨.hbm, 1111, rfl⟩
abbrev main_v1017 : Ref sig .tc := ⟨.hbm, 1112, rfl⟩
abbrev main_v1018 : Ref sig .tc := ⟨.hbm, 1113, rfl⟩
abbrev main_v1019 : Ref sig .tc := ⟨.hbm, 1114, rfl⟩
abbrev main_v1020 : Ref sig .tc := ⟨.hbm, 1115, rfl⟩
abbrev main_v1021 : Ref sig .tc := ⟨.hbm, 1116, rfl⟩
abbrev main_v1022 : Ref sig .tc := ⟨.hbm, 1117, rfl⟩
abbrev main_v1023 : Ref sig .tc := ⟨.hbm, 1118, rfl⟩
abbrev main_v1024 : Ref sig .tc := ⟨.hbm, 1119, rfl⟩
abbrev main_v1025 : Ref sig .tc := ⟨.hbm, 1120, rfl⟩
abbrev main_v1026 : Ref sig .tc := ⟨.hbm, 1121, rfl⟩
abbrev main_v1027 : Ref sig .tc := ⟨.hbm, 1122, rfl⟩
abbrev main_v1028 : Ref sig .tc := ⟨.hbm, 1123, rfl⟩
abbrev main_v1029 : Ref sig .tc := ⟨.hbm, 1124, rfl⟩
abbrev main_cst_66 : Ref sig .tc := ⟨.hbm, 1125, rfl⟩
abbrev main_v1030 : Ref sig .tc := ⟨.hbm, 1126, rfl⟩
abbrev main_v1031 : Ref sig .tc := ⟨.hbm, 1127, rfl⟩
abbrev main_v1032 : Ref sig .tc := ⟨.hbm, 1128, rfl⟩
abbrev main_v1033 : Ref sig .tc := ⟨.hbm, 1129, rfl⟩
abbrev main_v1034 : Ref sig .tc := ⟨.hbm, 1130, rfl⟩
abbrev main_v1035 : Ref sig .tc := ⟨.hbm, 1131, rfl⟩
abbrev main_v1036 : Ref sig .tc := ⟨.hbm, 1132, rfl⟩
abbrev main_v1037 : Ref sig .tc := ⟨.hbm, 1133, rfl⟩
abbrev main_v1038 : Ref sig .tc := ⟨.hbm, 1134, rfl⟩
abbrev main_v1039 : Ref sig .tc := ⟨.hbm, 1135, rfl⟩
abbrev main_v1040 : Ref sig .tc := ⟨.hbm, 1136, rfl⟩
abbrev main_v1041 : Ref sig .tc := ⟨.hbm, 1137, rfl⟩
abbrev main_v1042 : Ref sig .tc := ⟨.hbm, 1138, rfl⟩
abbrev main_v1043 : Ref sig .tc := ⟨.hbm, 1139, rfl⟩
abbrev main_v1044 : Ref sig .tc := ⟨.hbm, 1140, rfl⟩
abbrev main_v1045 : Ref sig .tc := ⟨.hbm, 1141, rfl⟩
abbrev main_v1046 : Ref sig .tc := ⟨.hbm, 1142, rfl⟩
abbrev main_v1047 : Ref sig .tc := ⟨.hbm, 1143, rfl⟩
abbrev main_v1048 : Ref sig .tc := ⟨.hbm, 1144, rfl⟩
abbrev main_v1049 : Ref sig .tc := ⟨.hbm, 1145, rfl⟩
abbrev main_v1050 : Ref sig .tc := ⟨.hbm, 1146, rfl⟩
abbrev main_v1051 : Ref sig .tc := ⟨.hbm, 1147, rfl⟩
abbrev main_v1052 : Ref sig .tc := ⟨.hbm, 1148, rfl⟩
abbrev main_v1053 : Ref sig .tc := ⟨.hbm, 1149, rfl⟩
abbrev main_v1054 : Ref sig .tc := ⟨.hbm, 1150, rfl⟩
abbrev main_v1055 : Ref sig .tc := ⟨.hbm, 1151, rfl⟩
abbrev main_v1056 : Ref sig .tc := ⟨.hbm, 1152, rfl⟩
abbrev main_cst_67 : Ref sig .tc := ⟨.hbm, 1153, rfl⟩
abbrev main_v1057 : Ref sig .tc := ⟨.hbm, 1154, rfl⟩
abbrev main_v1058 : Ref sig .tc := ⟨.hbm, 1155, rfl⟩
abbrev main_v1059 : Ref sig .tc := ⟨.hbm, 1156, rfl⟩
abbrev main_v1060 : Ref sig .tc := ⟨.hbm, 1157, rfl⟩
abbrev main_v1061 : Ref sig .tc := ⟨.hbm, 1158, rfl⟩
abbrev main_v1062 : Ref sig .tc := ⟨.hbm, 1159, rfl⟩
abbrev main_v1063 : Ref sig .tc := ⟨.hbm, 1160, rfl⟩
abbrev main_v1064 : Ref sig .tc := ⟨.hbm, 1161, rfl⟩
abbrev main_v1065 : Ref sig .tc := ⟨.hbm, 1162, rfl⟩
abbrev main_v1066 : Ref sig .tc := ⟨.hbm, 1163, rfl⟩
abbrev main_v1067 : Ref sig .tc := ⟨.hbm, 1164, rfl⟩
abbrev main_v1068 : Ref sig .tc := ⟨.hbm, 1165, rfl⟩
abbrev main_v1069 : Ref sig .tc := ⟨.hbm, 1166, rfl⟩
abbrev main_v1070 : Ref sig .tc := ⟨.hbm, 1167, rfl⟩
abbrev main_v1071 : Ref sig .tc := ⟨.hbm, 1168, rfl⟩
abbrev main_v1072 : Ref sig .tc := ⟨.hbm, 1169, rfl⟩
abbrev main_v1073 : Ref sig .tc := ⟨.hbm, 1170, rfl⟩
abbrev main_v1074 : Ref sig .tc := ⟨.hbm, 1171, rfl⟩
abbrev main_v1075 : Ref sig .tc := ⟨.hbm, 1172, rfl⟩
abbrev main_v1076 : Ref sig .tc := ⟨.hbm, 1173, rfl⟩
abbrev main_v1077 : Ref sig .tc := ⟨.hbm, 1174, rfl⟩
abbrev main_v1078 : Ref sig .tc := ⟨.hbm, 1175, rfl⟩
abbrev main_v1079 : Ref sig .tc := ⟨.hbm, 1176, rfl⟩
abbrev main_v1080 : Ref sig .tc := ⟨.hbm, 1177, rfl⟩
abbrev main_v1081 : Ref sig .tc := ⟨.hbm, 1178, rfl⟩
abbrev main_c_68 : Ref sig .tc := ⟨.hbm, 1179, rfl⟩
abbrev main_v1082 : Ref sig .tc := ⟨.hbm, 1180, rfl⟩
abbrev main_v1083 : Ref sig .tc := ⟨.hbm, 1181, rfl⟩
abbrev main_c_69 : Ref sig .tc := ⟨.hbm, 1182, rfl⟩
abbrev main_v1084 : Ref sig .tc := ⟨.hbm, 1183, rfl⟩
abbrev main_v1085 : Ref sig .tc := ⟨.hbm, 1184, rfl⟩
abbrev main_c_70 : Ref sig .tc := ⟨.hbm, 1185, rfl⟩
abbrev main_v1086 : Ref sig .tc := ⟨.hbm, 1186, rfl⟩
abbrev main_v1087 : Ref sig .tc := ⟨.hbm, 1187, rfl⟩
abbrev main_v1088 : Ref sig .tc := ⟨.hbm, 1188, rfl⟩
abbrev main_c_71 : Ref sig .tc := ⟨.hbm, 1189, rfl⟩
abbrev main_v1089 : Ref sig .tc := ⟨.hbm, 1190, rfl⟩
abbrev main_v1090 : Ref sig .tc := ⟨.hbm, 1191, rfl⟩
abbrev main_c_72 : Ref sig .tc := ⟨.hbm, 1192, rfl⟩
abbrev main_v1091 : Ref sig .tc := ⟨.hbm, 1193, rfl⟩
abbrev main_v1092 : Ref sig .tc := ⟨.hbm, 1194, rfl⟩
abbrev main_v1093 : Ref sig .tc := ⟨.hbm, 1195, rfl⟩
abbrev main_v1094 : Ref sig .tc := ⟨.hbm, 1196, rfl⟩
abbrev main_v1095 : Ref sig .tc := ⟨.hbm, 1197, rfl⟩
abbrev main_v1096 : Ref sig .tc := ⟨.hbm, 1198, rfl⟩
abbrev main_c_73 : Ref sig .tc := ⟨.hbm, 1199, rfl⟩
abbrev main_v1097 : Ref sig .tc := ⟨.hbm, 1200, rfl⟩
abbrev main_v1098 : Ref sig .tc := ⟨.hbm, 1201, rfl⟩
abbrev main_c_74 : Ref sig .tc := ⟨.hbm, 1202, rfl⟩
abbrev main_v1099 : Ref sig .tc := ⟨.hbm, 1203, rfl⟩
abbrev main_v1100 : Ref sig .tc := ⟨.hbm, 1204, rfl⟩
abbrev main_c_75 : Ref sig .tc := ⟨.hbm, 1205, rfl⟩
abbrev main_v1101 : Ref sig .tc := ⟨.hbm, 1206, rfl⟩
abbrev main_v1102 : Ref sig .tc := ⟨.hbm, 1207, rfl⟩
abbrev main_v1103 : Ref sig .tc := ⟨.hbm, 1208, rfl⟩
abbrev main_c_76 : Ref sig .tc := ⟨.hbm, 1209, rfl⟩
abbrev main_v1104 : Ref sig .tc := ⟨.hbm, 1210, rfl⟩
abbrev main_v1105 : Ref sig .tc := ⟨.hbm, 1211, rfl⟩
abbrev main_c_77 : Ref sig .tc := ⟨.hbm, 1212, rfl⟩
abbrev main_v1106 : Ref sig .tc := ⟨.hbm, 1213, rfl⟩
abbrev main_v1107 : Ref sig .tc := ⟨.hbm, 1214, rfl⟩
abbrev main_v1108 : Ref sig .tc := ⟨.hbm, 1215, rfl⟩
abbrev main_v1109 : Ref sig .tc := ⟨.hbm, 1216, rfl⟩
abbrev main_v1110 : Ref sig .tc := ⟨.hbm, 1217, rfl⟩
abbrev main_v1111 : Ref sig .tc := ⟨.hbm, 1218, rfl⟩
abbrev main_v1112 : Ref sig .tc := ⟨.hbm, 1219, rfl⟩
abbrev main_v1113 : Ref sig .tc := ⟨.hbm, 1220, rfl⟩
abbrev main_v1114 : Ref sig .tc := ⟨.hbm, 1221, rfl⟩
abbrev main_cst_78 : Ref sig .tc := ⟨.hbm, 1222, rfl⟩
abbrev main_v1115 : Ref sig .tc := ⟨.hbm, 1223, rfl⟩
abbrev main_v1116 : Ref sig .tc := ⟨.hbm, 1224, rfl⟩
abbrev main_v1117 : Ref sig .tc := ⟨.hbm, 1225, rfl⟩
abbrev main_v1118 : Ref sig .tc := ⟨.hbm, 1226, rfl⟩
abbrev main_cst_79 : Ref sig .tc := ⟨.hbm, 1227, rfl⟩
abbrev main_v1119 : Ref sig .tc := ⟨.hbm, 1228, rfl⟩
abbrev main_v1120 : Ref sig .tc := ⟨.hbm, 1229, rfl⟩
abbrev main_v1121 : Ref sig .tc := ⟨.hbm, 1230, rfl⟩
abbrev main_v1122 : Ref sig .tc := ⟨.hbm, 1231, rfl⟩
abbrev main_v1123 : Ref sig .tc := ⟨.hbm, 1232, rfl⟩
abbrev main_v1124 : Ref sig .tc := ⟨.hbm, 1233, rfl⟩
abbrev main_v1125 : Ref sig .tc := ⟨.hbm, 1234, rfl⟩
abbrev main_v1126 : Ref sig .tc := ⟨.hbm, 1235, rfl⟩
abbrev main_v1127 : Ref sig .tc := ⟨.hbm, 1236, rfl⟩
abbrev main_v1128 : Ref sig .tc := ⟨.hbm, 1237, rfl⟩
abbrev main_v1129 : Ref sig .tc := ⟨.hbm, 1238, rfl⟩
abbrev main_v1130 : Ref sig .tc := ⟨.hbm, 1239, rfl⟩
abbrev main_v1131 : Ref sig .tc := ⟨.hbm, 1240, rfl⟩
abbrev main_v1132 : Ref sig .tc := ⟨.hbm, 1241, rfl⟩
abbrev main_v1133 : Ref sig .tc := ⟨.hbm, 1242, rfl⟩
abbrev main_v1134 : Ref sig .tc := ⟨.hbm, 1243, rfl⟩
abbrev main_v1135 : Ref sig .tc := ⟨.hbm, 1244, rfl⟩
abbrev main_v1136 : Ref sig .tc := ⟨.hbm, 1245, rfl⟩
abbrev main_v1137 : Ref sig .tc := ⟨.hbm, 1246, rfl⟩
abbrev main_v1138 : Ref sig .tc := ⟨.hbm, 1247, rfl⟩
abbrev main_v1139 : Ref sig .tc := ⟨.hbm, 1248, rfl⟩
abbrev main_v1140 : Ref sig .tc := ⟨.hbm, 1249, rfl⟩
abbrev main_v1141 : Ref sig .tc := ⟨.hbm, 1250, rfl⟩
abbrev main_v1142 : Ref sig .tc := ⟨.hbm, 1251, rfl⟩
abbrev main_v1143 : Ref sig .tc := ⟨.hbm, 1252, rfl⟩
abbrev main_v1144 : Ref sig .tc := ⟨.hbm, 1253, rfl⟩
abbrev main_cst_80 : Ref sig .tc := ⟨.hbm, 1254, rfl⟩
abbrev main_v1145 : Ref sig .tc := ⟨.hbm, 1255, rfl⟩
abbrev main_v1146 : Ref sig .tc := ⟨.hbm, 1256, rfl⟩
abbrev main_v1147 : Ref sig .tc := ⟨.hbm, 1257, rfl⟩
abbrev main_v1148 : Ref sig .tc := ⟨.hbm, 1258, rfl⟩
abbrev main_v1149 : Ref sig .tc := ⟨.hbm, 1259, rfl⟩
abbrev main_v1150 : Ref sig .tc := ⟨.hbm, 1260, rfl⟩
abbrev main_v1151 : Ref sig .tc := ⟨.hbm, 1261, rfl⟩
abbrev main_v1152 : Ref sig .tc := ⟨.hbm, 1262, rfl⟩
abbrev main_v1153 : Ref sig .tc := ⟨.hbm, 1263, rfl⟩
abbrev main_v1154 : Ref sig .tc := ⟨.hbm, 1264, rfl⟩
abbrev main_v1155 : Ref sig .tc := ⟨.hbm, 1265, rfl⟩
abbrev main_v1156 : Ref sig .tc := ⟨.hbm, 1266, rfl⟩
abbrev main_v1157 : Ref sig .tc := ⟨.hbm, 1267, rfl⟩
abbrev main_v1158 : Ref sig .tc := ⟨.hbm, 1268, rfl⟩
abbrev main_v1159 : Ref sig .tc := ⟨.hbm, 1269, rfl⟩
abbrev main_v1160 : Ref sig .tc := ⟨.hbm, 1270, rfl⟩
abbrev main_v1161 : Ref sig .tc := ⟨.hbm, 1271, rfl⟩
abbrev main_v1162 : Ref sig .tc := ⟨.hbm, 1272, rfl⟩
abbrev main_v1163 : Ref sig .tc := ⟨.hbm, 1273, rfl⟩
abbrev main_v1164 : Ref sig .tc := ⟨.hbm, 1274, rfl⟩
abbrev main_v1165 : Ref sig .tc := ⟨.hbm, 1275, rfl⟩
abbrev main_v1166 : Ref sig .tc := ⟨.hbm, 1276, rfl⟩
abbrev main_v1167 : Ref sig .tc := ⟨.hbm, 1277, rfl⟩
abbrev main_v1168 : Ref sig .tc := ⟨.hbm, 1278, rfl⟩
abbrev main_v1169 : Ref sig .tc := ⟨.hbm, 1279, rfl⟩
abbrev main_v1170 : Ref sig .tc := ⟨.hbm, 1280, rfl⟩
abbrev main_cst_81 : Ref sig .tc := ⟨.hbm, 1281, rfl⟩
abbrev main_v1171 : Ref sig .tc := ⟨.hbm, 1282, rfl⟩
abbrev main_v1172 : Ref sig .tc := ⟨.hbm, 1283, rfl⟩
abbrev main_v1173 : Ref sig .tc := ⟨.hbm, 1284, rfl⟩
abbrev main_v1174 : Ref sig .tc := ⟨.hbm, 1285, rfl⟩
abbrev main_v1175 : Ref sig .tc := ⟨.hbm, 1286, rfl⟩
abbrev main_v1176 : Ref sig .tc := ⟨.hbm, 1287, rfl⟩
abbrev main_v1177 : Ref sig .tc := ⟨.hbm, 1288, rfl⟩
abbrev main_v1178 : Ref sig .tc := ⟨.hbm, 1289, rfl⟩
abbrev main_v1179 : Ref sig .tc := ⟨.hbm, 1290, rfl⟩
abbrev main_v1180 : Ref sig .tc := ⟨.hbm, 1291, rfl⟩
abbrev main_v1181 : Ref sig .tc := ⟨.hbm, 1292, rfl⟩
abbrev main_v1182 : Ref sig .tc := ⟨.hbm, 1293, rfl⟩
abbrev main_v1183 : Ref sig .tc := ⟨.hbm, 1294, rfl⟩
abbrev main_v1184 : Ref sig .tc := ⟨.hbm, 1295, rfl⟩
abbrev main_v1185 : Ref sig .tc := ⟨.hbm, 1296, rfl⟩
abbrev main_v1186 : Ref sig .tc := ⟨.hbm, 1297, rfl⟩
abbrev main_v1187 : Ref sig .tc := ⟨.hbm, 1298, rfl⟩
abbrev main_v1188 : Ref sig .tc := ⟨.hbm, 1299, rfl⟩
abbrev main_v1189 : Ref sig .tc := ⟨.hbm, 1300, rfl⟩
abbrev main_v1190 : Ref sig .tc := ⟨.hbm, 1301, rfl⟩
abbrev main_v1191 : Ref sig .tc := ⟨.hbm, 1302, rfl⟩
abbrev main_v1192 : Ref sig .tc := ⟨.hbm, 1303, rfl⟩
abbrev main_v1193 : Ref sig .tc := ⟨.hbm, 1304, rfl⟩
abbrev main_v1194 : Ref sig .tc := ⟨.hbm, 1305, rfl⟩
abbrev main_v1195 : Ref sig .tc := ⟨.hbm, 1306, rfl⟩
abbrev main_v1196 : Ref sig .tc := ⟨.hbm, 1307, rfl⟩
abbrev main_cst_82 : Ref sig .tc := ⟨.hbm, 1308, rfl⟩
abbrev main_v1197 : Ref sig .tc := ⟨.hbm, 1309, rfl⟩
abbrev main_v1198 : Ref sig .tc := ⟨.hbm, 1310, rfl⟩
abbrev main_v1199 : Ref sig .tc := ⟨.hbm, 1311, rfl⟩
abbrev main_v1200 : Ref sig .tc := ⟨.hbm, 1312, rfl⟩
abbrev main_v1201 : Ref sig .tc := ⟨.hbm, 1313, rfl⟩
abbrev main_v1202 : Ref sig .tc := ⟨.hbm, 1314, rfl⟩
abbrev main_v1203 : Ref sig .tc := ⟨.hbm, 1315, rfl⟩
abbrev main_v1204 : Ref sig .tc := ⟨.hbm, 1316, rfl⟩
abbrev main_v1205 : Ref sig .tc := ⟨.hbm, 1317, rfl⟩
abbrev main_v1206 : Ref sig .tc := ⟨.hbm, 1318, rfl⟩
abbrev main_v1207 : Ref sig .tc := ⟨.hbm, 1319, rfl⟩
abbrev main_v1208 : Ref sig .tc := ⟨.hbm, 1320, rfl⟩
abbrev main_v1209 : Ref sig .tc := ⟨.hbm, 1321, rfl⟩
abbrev main_v1210 : Ref sig .tc := ⟨.hbm, 1322, rfl⟩
abbrev main_v1211 : Ref sig .tc := ⟨.hbm, 1323, rfl⟩
abbrev main_v1212 : Ref sig .tc := ⟨.hbm, 1324, rfl⟩
abbrev main_v1213 : Ref sig .tc := ⟨.hbm, 1325, rfl⟩
abbrev main_v1214 : Ref sig .tc := ⟨.hbm, 1326, rfl⟩
abbrev main_v1215 : Ref sig .tc := ⟨.hbm, 1327, rfl⟩
abbrev main_v1216 : Ref sig .tc := ⟨.hbm, 1328, rfl⟩
abbrev main_v1217 : Ref sig .tc := ⟨.hbm, 1329, rfl⟩
abbrev main_v1218 : Ref sig .tc := ⟨.hbm, 1330, rfl⟩
abbrev main_v1219 : Ref sig .tc := ⟨.hbm, 1331, rfl⟩
abbrev main_v1220 : Ref sig .tc := ⟨.hbm, 1332, rfl⟩
abbrev main_v1221 : Ref sig .tc := ⟨.hbm, 1333, rfl⟩
abbrev main_v1222 : Ref sig .tc := ⟨.hbm, 1334, rfl⟩
abbrev main_cst_83 : Ref sig .tc := ⟨.hbm, 1335, rfl⟩
abbrev main_v1223 : Ref sig .tc := ⟨.hbm, 1336, rfl⟩
abbrev main_v1224 : Ref sig .tc := ⟨.hbm, 1337, rfl⟩
abbrev main_v1225 : Ref sig .tc := ⟨.hbm, 1338, rfl⟩
abbrev main_v1226 : Ref sig .tc := ⟨.hbm, 1339, rfl⟩
abbrev main_v1227 : Ref sig .tc := ⟨.hbm, 1340, rfl⟩
abbrev main_v1228 : Ref sig .tc := ⟨.hbm, 1341, rfl⟩
abbrev main_v1229 : Ref sig .tc := ⟨.hbm, 1342, rfl⟩
abbrev main_v1230 : Ref sig .tc := ⟨.hbm, 1343, rfl⟩
abbrev main_v1231 : Ref sig .tc := ⟨.hbm, 1344, rfl⟩
abbrev main_v1232 : Ref sig .tc := ⟨.hbm, 1345, rfl⟩
abbrev main_v1233 : Ref sig .tc := ⟨.hbm, 1346, rfl⟩
abbrev main_v1234 : Ref sig .tc := ⟨.hbm, 1347, rfl⟩
abbrev main_v1235 : Ref sig .tc := ⟨.hbm, 1348, rfl⟩
abbrev main_v1236 : Ref sig .tc := ⟨.hbm, 1349, rfl⟩
abbrev main_v1237 : Ref sig .tc := ⟨.hbm, 1350, rfl⟩
abbrev main_v1238 : Ref sig .tc := ⟨.hbm, 1351, rfl⟩
abbrev main_v1239 : Ref sig .tc := ⟨.hbm, 1352, rfl⟩
abbrev main_v1240 : Ref sig .tc := ⟨.hbm, 1353, rfl⟩
abbrev main_v1241 : Ref sig .tc := ⟨.hbm, 1354, rfl⟩
abbrev main_v1242 : Ref sig .tc := ⟨.hbm, 1355, rfl⟩
abbrev main_v1243 : Ref sig .tc := ⟨.hbm, 1356, rfl⟩
abbrev main_v1244 : Ref sig .tc := ⟨.hbm, 1357, rfl⟩
abbrev main_v1245 : Ref sig .tc := ⟨.hbm, 1358, rfl⟩
abbrev main_v1246 : Ref sig .tc := ⟨.hbm, 1359, rfl⟩
abbrev main_v1247 : Ref sig .tc := ⟨.hbm, 1360, rfl⟩
abbrev main_v1248 : Ref sig .tc := ⟨.hbm, 1361, rfl⟩
abbrev main_cst_84 : Ref sig .tc := ⟨.hbm, 1362, rfl⟩
abbrev main_v1249 : Ref sig .tc := ⟨.hbm, 1363, rfl⟩
abbrev main_v1250 : Ref sig .tc := ⟨.hbm, 1364, rfl⟩
abbrev main_v1251 : Ref sig .tc := ⟨.hbm, 1365, rfl⟩
abbrev main_v1252 : Ref sig .tc := ⟨.hbm, 1366, rfl⟩
abbrev main_v1253 : Ref sig .tc := ⟨.hbm, 1367, rfl⟩
abbrev main_v1254 : Ref sig .tc := ⟨.hbm, 1368, rfl⟩
abbrev main_v1255 : Ref sig .tc := ⟨.hbm, 1369, rfl⟩
abbrev main_v1256 : Ref sig .tc := ⟨.hbm, 1370, rfl⟩
abbrev main_v1257 : Ref sig .tc := ⟨.hbm, 1371, rfl⟩
abbrev main_v1258 : Ref sig .tc := ⟨.hbm, 1372, rfl⟩
abbrev main_v1259 : Ref sig .tc := ⟨.hbm, 1373, rfl⟩
abbrev main_v1260 : Ref sig .tc := ⟨.hbm, 1374, rfl⟩
abbrev main_v1261 : Ref sig .tc := ⟨.hbm, 1375, rfl⟩
abbrev main_v1262 : Ref sig .tc := ⟨.hbm, 1376, rfl⟩
abbrev main_v1263 : Ref sig .tc := ⟨.hbm, 1377, rfl⟩
abbrev main_v1264 : Ref sig .tc := ⟨.hbm, 1378, rfl⟩
abbrev main_v1265 : Ref sig .tc := ⟨.hbm, 1379, rfl⟩
abbrev main_v1266 : Ref sig .tc := ⟨.hbm, 1380, rfl⟩
abbrev main_v1267 : Ref sig .tc := ⟨.hbm, 1381, rfl⟩
abbrev main_v1268 : Ref sig .tc := ⟨.hbm, 1382, rfl⟩
abbrev main_v1269 : Ref sig .tc := ⟨.hbm, 1383, rfl⟩
abbrev main_v1270 : Ref sig .tc := ⟨.hbm, 1384, rfl⟩
abbrev main_v1271 : Ref sig .tc := ⟨.hbm, 1385, rfl⟩
abbrev main_v1272 : Ref sig .tc := ⟨.hbm, 1386, rfl⟩
abbrev main_v1273 : Ref sig .tc := ⟨.hbm, 1387, rfl⟩
abbrev main_v1274 : Ref sig .tc := ⟨.hbm, 1388, rfl⟩
abbrev main_cst_85 : Ref sig .tc := ⟨.hbm, 1389, rfl⟩
abbrev main_v1275 : Ref sig .tc := ⟨.hbm, 1390, rfl⟩
abbrev main_v1276 : Ref sig .tc := ⟨.hbm, 1391, rfl⟩
abbrev main_v1277 : Ref sig .tc := ⟨.hbm, 1392, rfl⟩
abbrev main_v1278 : Ref sig .tc := ⟨.hbm, 1393, rfl⟩
abbrev main_v1279 : Ref sig .tc := ⟨.hbm, 1394, rfl⟩
abbrev main_v1280 : Ref sig .tc := ⟨.hbm, 1395, rfl⟩
abbrev main_v1281 : Ref sig .tc := ⟨.hbm, 1396, rfl⟩
abbrev main_v1282 : Ref sig .tc := ⟨.hbm, 1397, rfl⟩
abbrev main_v1283 : Ref sig .tc := ⟨.hbm, 1398, rfl⟩
abbrev main_v1284 : Ref sig .tc := ⟨.hbm, 1399, rfl⟩
abbrev main_v1285 : Ref sig .tc := ⟨.hbm, 1400, rfl⟩
abbrev main_v1286 : Ref sig .tc := ⟨.hbm, 1401, rfl⟩
abbrev main_v1287 : Ref sig .tc := ⟨.hbm, 1402, rfl⟩
abbrev main_v1288 : Ref sig .tc := ⟨.hbm, 1403, rfl⟩
abbrev main_v1289 : Ref sig .tc := ⟨.hbm, 1404, rfl⟩
abbrev main_v1290 : Ref sig .tc := ⟨.hbm, 1405, rfl⟩
abbrev main_v1291 : Ref sig .tc := ⟨.hbm, 1406, rfl⟩
abbrev main_v1292 : Ref sig .tc := ⟨.hbm, 1407, rfl⟩
abbrev main_v1293 : Ref sig .tc := ⟨.hbm, 1408, rfl⟩
abbrev main_v1294 : Ref sig .tc := ⟨.hbm, 1409, rfl⟩
abbrev main_v1295 : Ref sig .tc := ⟨.hbm, 1410, rfl⟩
abbrev main_v1296 : Ref sig .tc := ⟨.hbm, 1411, rfl⟩
abbrev main_v1297 : Ref sig .tc := ⟨.hbm, 1412, rfl⟩
abbrev main_v1298 : Ref sig .tc := ⟨.hbm, 1413, rfl⟩
abbrev main_v1299 : Ref sig .tc := ⟨.hbm, 1414, rfl⟩
abbrev main_v1300 : Ref sig .tc := ⟨.hbm, 1415, rfl⟩
abbrev main_cst_86 : Ref sig .tc := ⟨.hbm, 1416, rfl⟩
abbrev main_v1301 : Ref sig .tc := ⟨.hbm, 1417, rfl⟩
abbrev main_v1302 : Ref sig .tc := ⟨.hbm, 1418, rfl⟩
abbrev main_v1303 : Ref sig .tc := ⟨.hbm, 1419, rfl⟩
abbrev main_v1304 : Ref sig .tc := ⟨.hbm, 1420, rfl⟩
abbrev main_v1305 : Ref sig .tc := ⟨.hbm, 1421, rfl⟩
abbrev main_v1306 : Ref sig .tc := ⟨.hbm, 1422, rfl⟩
abbrev main_v1307 : Ref sig .tc := ⟨.hbm, 1423, rfl⟩
abbrev main_v1308 : Ref sig .tc := ⟨.hbm, 1424, rfl⟩
abbrev main_v1309 : Ref sig .tc := ⟨.hbm, 1425, rfl⟩
abbrev main_v1310 : Ref sig .tc := ⟨.hbm, 1426, rfl⟩
abbrev main_v1311 : Ref sig .tc := ⟨.hbm, 1427, rfl⟩
abbrev main_v1312 : Ref sig .tc := ⟨.hbm, 1428, rfl⟩
abbrev main_v1313 : Ref sig .tc := ⟨.hbm, 1429, rfl⟩
abbrev main_v1314 : Ref sig .tc := ⟨.hbm, 1430, rfl⟩
abbrev main_v1315 : Ref sig .tc := ⟨.hbm, 1431, rfl⟩
abbrev main_v1316 : Ref sig .tc := ⟨.hbm, 1432, rfl⟩
abbrev main_v1317 : Ref sig .tc := ⟨.hbm, 1433, rfl⟩
abbrev main_v1318 : Ref sig .tc := ⟨.hbm, 1434, rfl⟩
abbrev main_v1319 : Ref sig .tc := ⟨.hbm, 1435, rfl⟩
abbrev main_v1320 : Ref sig .tc := ⟨.hbm, 1436, rfl⟩
abbrev main_v1321 : Ref sig .tc := ⟨.hbm, 1437, rfl⟩
abbrev main_v1322 : Ref sig .tc := ⟨.hbm, 1438, rfl⟩
abbrev main_v1323 : Ref sig .tc := ⟨.hbm, 1439, rfl⟩
abbrev main_v1324 : Ref sig .tc := ⟨.hbm, 1440, rfl⟩
abbrev main_v1325 : Ref sig .tc := ⟨.hbm, 1441, rfl⟩
abbrev main_v1326 : Ref sig .tc := ⟨.hbm, 1442, rfl⟩
abbrev main_cst_87 : Ref sig .tc := ⟨.hbm, 1443, rfl⟩
abbrev main_v1327 : Ref sig .tc := ⟨.hbm, 1444, rfl⟩
abbrev main_v1328 : Ref sig .tc := ⟨.hbm, 1445, rfl⟩
abbrev main_v1329 : Ref sig .tc := ⟨.hbm, 1446, rfl⟩
abbrev main_v1330 : Ref sig .tc := ⟨.hbm, 1447, rfl⟩
abbrev main_v1331 : Ref sig .tc := ⟨.hbm, 1448, rfl⟩
abbrev main_v1332 : Ref sig .tc := ⟨.hbm, 1449, rfl⟩
abbrev main_v1333 : Ref sig .tc := ⟨.hbm, 1450, rfl⟩
abbrev main_v1334 : Ref sig .tc := ⟨.hbm, 1451, rfl⟩
abbrev main_v1335 : Ref sig .tc := ⟨.hbm, 1452, rfl⟩
abbrev main_v1336 : Ref sig .tc := ⟨.hbm, 1453, rfl⟩
abbrev main_v1337 : Ref sig .tc := ⟨.hbm, 1454, rfl⟩
abbrev main_v1338 : Ref sig .tc := ⟨.hbm, 1455, rfl⟩
abbrev main_v1339 : Ref sig .tc := ⟨.hbm, 1456, rfl⟩
abbrev main_v1340 : Ref sig .tc := ⟨.hbm, 1457, rfl⟩
abbrev main_v1341 : Ref sig .tc := ⟨.hbm, 1458, rfl⟩
abbrev main_v1342 : Ref sig .tc := ⟨.hbm, 1459, rfl⟩
abbrev main_v1343 : Ref sig .tc := ⟨.hbm, 1460, rfl⟩
abbrev main_v1344 : Ref sig .tc := ⟨.hbm, 1461, rfl⟩
abbrev main_v1345 : Ref sig .tc := ⟨.hbm, 1462, rfl⟩
abbrev main_v1346 : Ref sig .tc := ⟨.hbm, 1463, rfl⟩
abbrev main_v1347 : Ref sig .tc := ⟨.hbm, 1464, rfl⟩
abbrev main_v1348 : Ref sig .tc := ⟨.hbm, 1465, rfl⟩
abbrev main_v1349 : Ref sig .tc := ⟨.hbm, 1466, rfl⟩
abbrev main_v1350 : Ref sig .tc := ⟨.hbm, 1467, rfl⟩
abbrev main_c_88 : Ref sig .tc := ⟨.hbm, 1468, rfl⟩
abbrev main_v1351 : Ref sig .tc := ⟨.hbm, 1469, rfl⟩
abbrev main_v1352 : Ref sig .tc := ⟨.hbm, 1470, rfl⟩
abbrev main_c_89 : Ref sig .tc := ⟨.hbm, 1471, rfl⟩
abbrev main_v1353 : Ref sig .tc := ⟨.hbm, 1472, rfl⟩
abbrev main_v1354 : Ref sig .tc := ⟨.hbm, 1473, rfl⟩
abbrev main_c_90 : Ref sig .tc := ⟨.hbm, 1474, rfl⟩
abbrev main_v1355 : Ref sig .tc := ⟨.hbm, 1475, rfl⟩
abbrev main_v1356 : Ref sig .tc := ⟨.hbm, 1476, rfl⟩
abbrev main_v1357 : Ref sig .tc := ⟨.hbm, 1477, rfl⟩
abbrev main_c_91 : Ref sig .tc := ⟨.hbm, 1478, rfl⟩
abbrev main_v1358 : Ref sig .tc := ⟨.hbm, 1479, rfl⟩
abbrev main_v1359 : Ref sig .tc := ⟨.hbm, 1480, rfl⟩
abbrev main_c_92 : Ref sig .tc := ⟨.hbm, 1481, rfl⟩
abbrev main_v1360 : Ref sig .tc := ⟨.hbm, 1482, rfl⟩
abbrev main_v1361 : Ref sig .tc := ⟨.hbm, 1483, rfl⟩
abbrev main_v1362 : Ref sig .tc := ⟨.hbm, 1484, rfl⟩
abbrev main_v1363 : Ref sig .tc := ⟨.hbm, 1485, rfl⟩
abbrev main_v1364 : Ref sig .tc := ⟨.hbm, 1486, rfl⟩
abbrev main_v1365 : Ref sig .tc := ⟨.hbm, 1487, rfl⟩
abbrev main_c_93 : Ref sig .tc := ⟨.hbm, 1488, rfl⟩
abbrev main_v1366 : Ref sig .tc := ⟨.hbm, 1489, rfl⟩
abbrev main_v1367 : Ref sig .tc := ⟨.hbm, 1490, rfl⟩
abbrev main_c_94 : Ref sig .tc := ⟨.hbm, 1491, rfl⟩
abbrev main_v1368 : Ref sig .tc := ⟨.hbm, 1492, rfl⟩
abbrev main_v1369 : Ref sig .tc := ⟨.hbm, 1493, rfl⟩
abbrev main_c_95 : Ref sig .tc := ⟨.hbm, 1494, rfl⟩
abbrev main_v1370 : Ref sig .tc := ⟨.hbm, 1495, rfl⟩
abbrev main_v1371 : Ref sig .tc := ⟨.hbm, 1496, rfl⟩
abbrev main_v1372 : Ref sig .tc := ⟨.hbm, 1497, rfl⟩
abbrev main_c_96 : Ref sig .tc := ⟨.hbm, 1498, rfl⟩
abbrev main_v1373 : Ref sig .tc := ⟨.hbm, 1499, rfl⟩
abbrev main_v1374 : Ref sig .tc := ⟨.hbm, 1500, rfl⟩
abbrev main_c_97 : Ref sig .tc := ⟨.hbm, 1501, rfl⟩
abbrev main_v1375 : Ref sig .tc := ⟨.hbm, 1502, rfl⟩
abbrev main_v1376 : Ref sig .tc := ⟨.hbm, 1503, rfl⟩
abbrev main_v1377 : Ref sig .tc := ⟨.hbm, 1504, rfl⟩
abbrev main_v1378 : Ref sig .tc := ⟨.hbm, 1505, rfl⟩
abbrev main_v1379 : Ref sig .tc := ⟨.hbm, 1506, rfl⟩
abbrev main_v1380 : Ref sig .tc := ⟨.hbm, 1507, rfl⟩
abbrev main_v1381 : Ref sig .tc := ⟨.hbm, 1508, rfl⟩
abbrev main_v1382 : Ref sig .tc := ⟨.hbm, 1509, rfl⟩
abbrev main_v1383 : Ref sig .tc := ⟨.hbm, 1510, rfl⟩
abbrev main_v1384 : Ref sig .tc := ⟨.hbm, 1511, rfl⟩
abbrev main_v1385 : Ref sig .tc := ⟨.hbm, 1512, rfl⟩
abbrev main_v1386 : Ref sig .tc := ⟨.hbm, 1513, rfl⟩
abbrev main_cst_98 : Ref sig .tc := ⟨.hbm, 1514, rfl⟩
abbrev main_v1387 : Ref sig .tc := ⟨.hbm, 1515, rfl⟩
abbrev main_v1388 : Ref sig .tc := ⟨.hbm, 1516, rfl⟩
abbrev main_v1389 : Ref sig .tc := ⟨.hbm, 1517, rfl⟩
abbrev main_v1390 : Ref sig .tc := ⟨.hbm, 1518, rfl⟩
abbrev main_v1391 : Ref sig .tc := ⟨.hbm, 1519, rfl⟩
abbrev main_v1392 : Ref sig .tc := ⟨.hbm, 1520, rfl⟩
abbrev main_v1393 : Ref sig .tc := ⟨.hbm, 1521, rfl⟩
abbrev main_v1394 : Ref sig .tc := ⟨.hbm, 1522, rfl⟩
abbrev main_v1395 : Ref sig .tc := ⟨.hbm, 1523, rfl⟩
abbrev main_v1396 : Ref sig .tc := ⟨.hbm, 1524, rfl⟩
abbrev main_v1397 : Ref sig .tc := ⟨.hbm, 1525, rfl⟩
abbrev main_v1398 : Ref sig .tc := ⟨.hbm, 1526, rfl⟩
abbrev main_v1399 : Ref sig .tc := ⟨.hbm, 1527, rfl⟩
abbrev main_v1400 : Ref sig .tc := ⟨.hbm, 1528, rfl⟩
abbrev main_v1401 : Ref sig .tc := ⟨.hbm, 1529, rfl⟩
abbrev main_v1402 : Ref sig .tc := ⟨.hbm, 1530, rfl⟩
abbrev main_v1403 : Ref sig .tc := ⟨.hbm, 1531, rfl⟩
abbrev main_v1404 : Ref sig .tc := ⟨.hbm, 1532, rfl⟩
abbrev main_v1405 : Ref sig .tc := ⟨.hbm, 1533, rfl⟩
abbrev main_v1406 : Ref sig .tc := ⟨.hbm, 1534, rfl⟩
abbrev main_v1407 : Ref sig .tc := ⟨.hbm, 1535, rfl⟩
abbrev main_v1408 : Ref sig .tc := ⟨.hbm, 1536, rfl⟩
abbrev main_v1409 : Ref sig .tc := ⟨.hbm, 1537, rfl⟩
abbrev main_v1410 : Ref sig .tc := ⟨.hbm, 1538, rfl⟩
abbrev main_v1411 : Ref sig .tc := ⟨.hbm, 1539, rfl⟩
abbrev main_v1412 : Ref sig .tc := ⟨.hbm, 1540, rfl⟩
abbrev main_v1413 : Ref sig .tc := ⟨.hbm, 1541, rfl⟩
abbrev main_cst_99 : Ref sig .tc := ⟨.hbm, 1542, rfl⟩
abbrev main_v1414 : Ref sig .tc := ⟨.hbm, 1543, rfl⟩
abbrev main_v1415 : Ref sig .tc := ⟨.hbm, 1544, rfl⟩
abbrev main_v1416 : Ref sig .tc := ⟨.hbm, 1545, rfl⟩
abbrev main_v1417 : Ref sig .tc := ⟨.hbm, 1546, rfl⟩
abbrev main_v1418 : Ref sig .tc := ⟨.hbm, 1547, rfl⟩
abbrev main_v1419 : Ref sig .tc := ⟨.hbm, 1548, rfl⟩
abbrev main_v1420 : Ref sig .tc := ⟨.hbm, 1549, rfl⟩
abbrev main_v1421 : Ref sig .tc := ⟨.hbm, 1550, rfl⟩
abbrev main_v1422 : Ref sig .tc := ⟨.hbm, 1551, rfl⟩
abbrev main_v1423 : Ref sig .tc := ⟨.hbm, 1552, rfl⟩
abbrev main_v1424 : Ref sig .tc := ⟨.hbm, 1553, rfl⟩
abbrev main_v1425 : Ref sig .tc := ⟨.hbm, 1554, rfl⟩
abbrev main_v1426 : Ref sig .tc := ⟨.hbm, 1555, rfl⟩
abbrev main_v1427 : Ref sig .tc := ⟨.hbm, 1556, rfl⟩
abbrev main_v1428 : Ref sig .tc := ⟨.hbm, 1557, rfl⟩
abbrev main_v1429 : Ref sig .tc := ⟨.hbm, 1558, rfl⟩
abbrev main_v1430 : Ref sig .tc := ⟨.hbm, 1559, rfl⟩
abbrev main_v1431 : Ref sig .tc := ⟨.hbm, 1560, rfl⟩
abbrev main_v1432 : Ref sig .tc := ⟨.hbm, 1561, rfl⟩
abbrev main_v1433 : Ref sig .tc := ⟨.hbm, 1562, rfl⟩
abbrev main_v1434 : Ref sig .tc := ⟨.hbm, 1563, rfl⟩
abbrev main_v1435 : Ref sig .tc := ⟨.hbm, 1564, rfl⟩
abbrev main_v1436 : Ref sig .tc := ⟨.hbm, 1565, rfl⟩
abbrev main_v1437 : Ref sig .tc := ⟨.hbm, 1566, rfl⟩
abbrev main_v1438 : Ref sig .tc := ⟨.hbm, 1567, rfl⟩
abbrev main_v1439 : Ref sig .tc := ⟨.hbm, 1568, rfl⟩
abbrev main_v1440 : Ref sig .tc := ⟨.hbm, 1569, rfl⟩
abbrev main_cst_100 : Ref sig .tc := ⟨.hbm, 1570, rfl⟩
abbrev main_v1441 : Ref sig .tc := ⟨.hbm, 1571, rfl⟩
abbrev main_v1442 : Ref sig .tc := ⟨.hbm, 1572, rfl⟩
abbrev main_v1443 : Ref sig .tc := ⟨.hbm, 1573, rfl⟩
abbrev main_v1444 : Ref sig .tc := ⟨.hbm, 1574, rfl⟩
abbrev main_v1445 : Ref sig .tc := ⟨.hbm, 1575, rfl⟩
abbrev main_v1446 : Ref sig .tc := ⟨.hbm, 1576, rfl⟩
abbrev main_v1447 : Ref sig .tc := ⟨.hbm, 1577, rfl⟩
abbrev main_v1448 : Ref sig .tc := ⟨.hbm, 1578, rfl⟩
abbrev main_v1449 : Ref sig .tc := ⟨.hbm, 1579, rfl⟩
abbrev main_v1450 : Ref sig .tc := ⟨.hbm, 1580, rfl⟩
abbrev main_v1451 : Ref sig .tc := ⟨.hbm, 1581, rfl⟩
abbrev main_v1452 : Ref sig .tc := ⟨.hbm, 1582, rfl⟩
abbrev main_v1453 : Ref sig .tc := ⟨.hbm, 1583, rfl⟩
abbrev main_v1454 : Ref sig .tc := ⟨.hbm, 1584, rfl⟩
abbrev main_v1455 : Ref sig .tc := ⟨.hbm, 1585, rfl⟩
abbrev main_v1456 : Ref sig .tc := ⟨.hbm, 1586, rfl⟩
abbrev main_v1457 : Ref sig .tc := ⟨.hbm, 1587, rfl⟩
abbrev main_v1458 : Ref sig .tc := ⟨.hbm, 1588, rfl⟩
abbrev main_v1459 : Ref sig .tc := ⟨.hbm, 1589, rfl⟩
abbrev main_v1460 : Ref sig .tc := ⟨.hbm, 1590, rfl⟩
abbrev main_v1461 : Ref sig .tc := ⟨.hbm, 1591, rfl⟩
abbrev main_v1462 : Ref sig .tc := ⟨.hbm, 1592, rfl⟩
abbrev main_v1463 : Ref sig .tc := ⟨.hbm, 1593, rfl⟩
abbrev main_v1464 : Ref sig .tc := ⟨.hbm, 1594, rfl⟩
abbrev main_v1465 : Ref sig .tc := ⟨.hbm, 1595, rfl⟩
abbrev main_v1466 : Ref sig .tc := ⟨.hbm, 1596, rfl⟩
abbrev main_v1467 : Ref sig .tc := ⟨.hbm, 1597, rfl⟩
abbrev main_cst_101 : Ref sig .tc := ⟨.hbm, 1598, rfl⟩
abbrev main_v1468 : Ref sig .tc := ⟨.hbm, 1599, rfl⟩
abbrev main_v1469 : Ref sig .tc := ⟨.hbm, 1600, rfl⟩
abbrev main_v1470 : Ref sig .tc := ⟨.hbm, 1601, rfl⟩
abbrev main_v1471 : Ref sig .tc := ⟨.hbm, 1602, rfl⟩
abbrev main_v1472 : Ref sig .tc := ⟨.hbm, 1603, rfl⟩
abbrev main_v1473 : Ref sig .tc := ⟨.hbm, 1604, rfl⟩
abbrev main_v1474 : Ref sig .tc := ⟨.hbm, 1605, rfl⟩
abbrev main_v1475 : Ref sig .tc := ⟨.hbm, 1606, rfl⟩
abbrev main_v1476 : Ref sig .tc := ⟨.hbm, 1607, rfl⟩
abbrev main_v1477 : Ref sig .tc := ⟨.hbm, 1608, rfl⟩
abbrev main_v1478 : Ref sig .tc := ⟨.hbm, 1609, rfl⟩
abbrev main_v1479 : Ref sig .tc := ⟨.hbm, 1610, rfl⟩
abbrev main_v1480 : Ref sig .tc := ⟨.hbm, 1611, rfl⟩
abbrev main_v1481 : Ref sig .tc := ⟨.hbm, 1612, rfl⟩
abbrev main_v1482 : Ref sig .tc := ⟨.hbm, 1613, rfl⟩
abbrev main_v1483 : Ref sig .tc := ⟨.hbm, 1614, rfl⟩
abbrev main_v1484 : Ref sig .tc := ⟨.hbm, 1615, rfl⟩
abbrev main_v1485 : Ref sig .tc := ⟨.hbm, 1616, rfl⟩
abbrev main_v1486 : Ref sig .tc := ⟨.hbm, 1617, rfl⟩
abbrev main_v1487 : Ref sig .tc := ⟨.hbm, 1618, rfl⟩
abbrev main_v1488 : Ref sig .tc := ⟨.hbm, 1619, rfl⟩
abbrev main_v1489 : Ref sig .tc := ⟨.hbm, 1620, rfl⟩
abbrev main_v1490 : Ref sig .tc := ⟨.hbm, 1621, rfl⟩
abbrev main_v1491 : Ref sig .tc := ⟨.hbm, 1622, rfl⟩
abbrev main_v1492 : Ref sig .tc := ⟨.hbm, 1623, rfl⟩
abbrev main_v1493 : Ref sig .tc := ⟨.hbm, 1624, rfl⟩
abbrev main_v1494 : Ref sig .tc := ⟨.hbm, 1625, rfl⟩
abbrev main_cst_102 : Ref sig .tc := ⟨.hbm, 1626, rfl⟩
abbrev main_v1495 : Ref sig .tc := ⟨.hbm, 1627, rfl⟩
abbrev main_v1496 : Ref sig .tc := ⟨.hbm, 1628, rfl⟩
abbrev main_v1497 : Ref sig .tc := ⟨.hbm, 1629, rfl⟩
abbrev main_v1498 : Ref sig .tc := ⟨.hbm, 1630, rfl⟩
abbrev main_v1499 : Ref sig .tc := ⟨.hbm, 1631, rfl⟩
abbrev main_v1500 : Ref sig .tc := ⟨.hbm, 1632, rfl⟩
abbrev main_v1501 : Ref sig .tc := ⟨.hbm, 1633, rfl⟩
abbrev main_v1502 : Ref sig .tc := ⟨.hbm, 1634, rfl⟩
abbrev main_v1503 : Ref sig .tc := ⟨.hbm, 1635, rfl⟩
abbrev main_v1504 : Ref sig .tc := ⟨.hbm, 1636, rfl⟩
abbrev main_v1505 : Ref sig .tc := ⟨.hbm, 1637, rfl⟩
abbrev main_v1506 : Ref sig .tc := ⟨.hbm, 1638, rfl⟩
abbrev main_v1507 : Ref sig .tc := ⟨.hbm, 1639, rfl⟩
abbrev main_v1508 : Ref sig .tc := ⟨.hbm, 1640, rfl⟩
abbrev main_v1509 : Ref sig .tc := ⟨.hbm, 1641, rfl⟩
abbrev main_v1510 : Ref sig .tc := ⟨.hbm, 1642, rfl⟩
abbrev main_v1511 : Ref sig .tc := ⟨.hbm, 1643, rfl⟩
abbrev main_v1512 : Ref sig .tc := ⟨.hbm, 1644, rfl⟩
abbrev main_v1513 : Ref sig .tc := ⟨.hbm, 1645, rfl⟩
abbrev main_v1514 : Ref sig .tc := ⟨.hbm, 1646, rfl⟩
abbrev main_v1515 : Ref sig .tc := ⟨.hbm, 1647, rfl⟩
abbrev main_v1516 : Ref sig .tc := ⟨.hbm, 1648, rfl⟩
abbrev main_v1517 : Ref sig .tc := ⟨.hbm, 1649, rfl⟩
abbrev main_v1518 : Ref sig .tc := ⟨.hbm, 1650, rfl⟩
abbrev main_v1519 : Ref sig .tc := ⟨.hbm, 1651, rfl⟩
abbrev main_v1520 : Ref sig .tc := ⟨.hbm, 1652, rfl⟩
abbrev main_v1521 : Ref sig .tc := ⟨.hbm, 1653, rfl⟩
abbrev main_cst_103 : Ref sig .tc := ⟨.hbm, 1654, rfl⟩
abbrev main_v1522 : Ref sig .tc := ⟨.hbm, 1655, rfl⟩
abbrev main_v1523 : Ref sig .tc := ⟨.hbm, 1656, rfl⟩
abbrev main_v1524 : Ref sig .tc := ⟨.hbm, 1657, rfl⟩
abbrev main_v1525 : Ref sig .tc := ⟨.hbm, 1658, rfl⟩
abbrev main_v1526 : Ref sig .tc := ⟨.hbm, 1659, rfl⟩
abbrev main_v1527 : Ref sig .tc := ⟨.hbm, 1660, rfl⟩
abbrev main_v1528 : Ref sig .tc := ⟨.hbm, 1661, rfl⟩
abbrev main_v1529 : Ref sig .tc := ⟨.hbm, 1662, rfl⟩
abbrev main_v1530 : Ref sig .tc := ⟨.hbm, 1663, rfl⟩
abbrev main_v1531 : Ref sig .tc := ⟨.hbm, 1664, rfl⟩
abbrev main_v1532 : Ref sig .tc := ⟨.hbm, 1665, rfl⟩
abbrev main_v1533 : Ref sig .tc := ⟨.hbm, 1666, rfl⟩
abbrev main_v1534 : Ref sig .tc := ⟨.hbm, 1667, rfl⟩
abbrev main_v1535 : Ref sig .tc := ⟨.hbm, 1668, rfl⟩
abbrev main_v1536 : Ref sig .tc := ⟨.hbm, 1669, rfl⟩
abbrev main_v1537 : Ref sig .tc := ⟨.hbm, 1670, rfl⟩
abbrev main_v1538 : Ref sig .tc := ⟨.hbm, 1671, rfl⟩
abbrev main_v1539 : Ref sig .tc := ⟨.hbm, 1672, rfl⟩
abbrev main_v1540 : Ref sig .tc := ⟨.hbm, 1673, rfl⟩
abbrev main_v1541 : Ref sig .tc := ⟨.hbm, 1674, rfl⟩
abbrev main_v1542 : Ref sig .tc := ⟨.hbm, 1675, rfl⟩
abbrev main_v1543 : Ref sig .tc := ⟨.hbm, 1676, rfl⟩
abbrev main_v1544 : Ref sig .tc := ⟨.hbm, 1677, rfl⟩
abbrev main_v1545 : Ref sig .tc := ⟨.hbm, 1678, rfl⟩
abbrev main_v1546 : Ref sig .tc := ⟨.hbm, 1679, rfl⟩
abbrev main_v1547 : Ref sig .tc := ⟨.hbm, 1680, rfl⟩
abbrev main_v1548 : Ref sig .tc := ⟨.hbm, 1681, rfl⟩
abbrev main_cst_104 : Ref sig .tc := ⟨.hbm, 1682, rfl⟩
abbrev main_v1549 : Ref sig .tc := ⟨.hbm, 1683, rfl⟩
abbrev main_v1550 : Ref sig .tc := ⟨.hbm, 1684, rfl⟩
abbrev main_v1551 : Ref sig .tc := ⟨.hbm, 1685, rfl⟩
abbrev main_v1552 : Ref sig .tc := ⟨.hbm, 1686, rfl⟩
abbrev main_v1553 : Ref sig .tc := ⟨.hbm, 1687, rfl⟩
abbrev main_v1554 : Ref sig .tc := ⟨.hbm, 1688, rfl⟩
abbrev main_v1555 : Ref sig .tc := ⟨.hbm, 1689, rfl⟩
abbrev main_v1556 : Ref sig .tc := ⟨.hbm, 1690, rfl⟩
abbrev main_v1557 : Ref sig .tc := ⟨.hbm, 1691, rfl⟩
abbrev main_v1558 : Ref sig .tc := ⟨.hbm, 1692, rfl⟩
abbrev main_v1559 : Ref sig .tc := ⟨.hbm, 1693, rfl⟩
abbrev main_v1560 : Ref sig .tc := ⟨.hbm, 1694, rfl⟩
abbrev main_v1561 : Ref sig .tc := ⟨.hbm, 1695, rfl⟩
abbrev main_v1562 : Ref sig .tc := ⟨.hbm, 1696, rfl⟩
abbrev main_v1563 : Ref sig .tc := ⟨.hbm, 1697, rfl⟩
abbrev main_v1564 : Ref sig .tc := ⟨.hbm, 1698, rfl⟩
abbrev main_v1565 : Ref sig .tc := ⟨.hbm, 1699, rfl⟩
abbrev main_v1566 : Ref sig .tc := ⟨.hbm, 1700, rfl⟩
abbrev main_v1567 : Ref sig .tc := ⟨.hbm, 1701, rfl⟩
abbrev main_v1568 : Ref sig .tc := ⟨.hbm, 1702, rfl⟩
abbrev main_v1569 : Ref sig .tc := ⟨.hbm, 1703, rfl⟩
abbrev main_v1570 : Ref sig .tc := ⟨.hbm, 1704, rfl⟩
abbrev main_v1571 : Ref sig .tc := ⟨.hbm, 1705, rfl⟩
abbrev main_v1572 : Ref sig .tc := ⟨.hbm, 1706, rfl⟩
abbrev main_v1573 : Ref sig .tc := ⟨.hbm, 1707, rfl⟩
abbrev main_v1574 : Ref sig .tc := ⟨.hbm, 1708, rfl⟩
abbrev main_v1575 : Ref sig .tc := ⟨.hbm, 1709, rfl⟩
abbrev main_cst_105 : Ref sig .tc := ⟨.hbm, 1710, rfl⟩
abbrev main_v1576 : Ref sig .tc := ⟨.hbm, 1711, rfl⟩
abbrev main_v1577 : Ref sig .tc := ⟨.hbm, 1712, rfl⟩
abbrev main_v1578 : Ref sig .tc := ⟨.hbm, 1713, rfl⟩
abbrev main_v1579 : Ref sig .tc := ⟨.hbm, 1714, rfl⟩
abbrev main_v1580 : Ref sig .tc := ⟨.hbm, 1715, rfl⟩
abbrev main_v1581 : Ref sig .tc := ⟨.hbm, 1716, rfl⟩
abbrev main_v1582 : Ref sig .tc := ⟨.hbm, 1717, rfl⟩
abbrev main_v1583 : Ref sig .tc := ⟨.hbm, 1718, rfl⟩
abbrev main_v1584 : Ref sig .tc := ⟨.hbm, 1719, rfl⟩
abbrev main_v1585 : Ref sig .tc := ⟨.hbm, 1720, rfl⟩
abbrev main_v1586 : Ref sig .tc := ⟨.hbm, 1721, rfl⟩
abbrev main_v1587 : Ref sig .tc := ⟨.hbm, 1722, rfl⟩
abbrev main_v1588 : Ref sig .tc := ⟨.hbm, 1723, rfl⟩
abbrev main_v1589 : Ref sig .tc := ⟨.hbm, 1724, rfl⟩
abbrev main_v1590 : Ref sig .tc := ⟨.hbm, 1725, rfl⟩
abbrev main_v1591 : Ref sig .tc := ⟨.hbm, 1726, rfl⟩
abbrev main_v1592 : Ref sig .tc := ⟨.hbm, 1727, rfl⟩
abbrev main_v1593 : Ref sig .tc := ⟨.hbm, 1728, rfl⟩
abbrev main_v1594 : Ref sig .tc := ⟨.hbm, 1729, rfl⟩
abbrev main_v1595 : Ref sig .tc := ⟨.hbm, 1730, rfl⟩
abbrev main_v1596 : Ref sig .tc := ⟨.hbm, 1731, rfl⟩
abbrev main_v1597 : Ref sig .tc := ⟨.hbm, 1732, rfl⟩
abbrev main_v1598 : Ref sig .tc := ⟨.hbm, 1733, rfl⟩
abbrev main_v1599 : Ref sig .tc := ⟨.hbm, 1734, rfl⟩
abbrev main_v1600 : Ref sig .tc := ⟨.hbm, 1735, rfl⟩
abbrev main_v1601 : Ref sig .tc := ⟨.hbm, 1736, rfl⟩
abbrev main_v1602 : Ref sig .tc := ⟨.hbm, 1737, rfl⟩
abbrev main_cst_106 : Ref sig .tc := ⟨.hbm, 1738, rfl⟩
abbrev main_v1603 : Ref sig .tc := ⟨.hbm, 1739, rfl⟩
abbrev main_v1604 : Ref sig .tc := ⟨.hbm, 1740, rfl⟩
abbrev main_v1605 : Ref sig .tc := ⟨.hbm, 1741, rfl⟩
abbrev main_v1606 : Ref sig .tc := ⟨.hbm, 1742, rfl⟩
abbrev main_v1607 : Ref sig .tc := ⟨.hbm, 1743, rfl⟩
abbrev main_v1608 : Ref sig .tc := ⟨.hbm, 1744, rfl⟩
abbrev main_v1609 : Ref sig .tc := ⟨.hbm, 1745, rfl⟩
abbrev main_v1610 : Ref sig .tc := ⟨.hbm, 1746, rfl⟩
abbrev main_v1611 : Ref sig .tc := ⟨.hbm, 1747, rfl⟩
abbrev main_v1612 : Ref sig .tc := ⟨.hbm, 1748, rfl⟩
abbrev main_v1613 : Ref sig .tc := ⟨.hbm, 1749, rfl⟩
abbrev main_v1614 : Ref sig .tc := ⟨.hbm, 1750, rfl⟩
abbrev main_v1615 : Ref sig .tc := ⟨.hbm, 1751, rfl⟩
abbrev main_v1616 : Ref sig .tc := ⟨.hbm, 1752, rfl⟩
abbrev main_v1617 : Ref sig .tc := ⟨.hbm, 1753, rfl⟩
abbrev main_v1618 : Ref sig .tc := ⟨.hbm, 1754, rfl⟩
abbrev main_v1619 : Ref sig .tc := ⟨.hbm, 1755, rfl⟩
abbrev main_v1620 : Ref sig .tc := ⟨.hbm, 1756, rfl⟩
abbrev main_v1621 : Ref sig .tc := ⟨.hbm, 1757, rfl⟩
abbrev main_v1622 : Ref sig .tc := ⟨.hbm, 1758, rfl⟩
abbrev main_v1623 : Ref sig .tc := ⟨.hbm, 1759, rfl⟩
abbrev main_v1624 : Ref sig .tc := ⟨.hbm, 1760, rfl⟩
abbrev main_v1625 : Ref sig .tc := ⟨.hbm, 1761, rfl⟩
abbrev main_v1626 : Ref sig .tc := ⟨.hbm, 1762, rfl⟩
abbrev main_v1627 : Ref sig .tc := ⟨.hbm, 1763, rfl⟩
abbrev main_c_107 : Ref sig .tc := ⟨.hbm, 1764, rfl⟩
abbrev main_v1628 : Ref sig .tc := ⟨.hbm, 1765, rfl⟩
abbrev main_v1629 : Ref sig .tc := ⟨.hbm, 1766, rfl⟩
abbrev main_c_108 : Ref sig .tc := ⟨.hbm, 1767, rfl⟩
abbrev main_v1630 : Ref sig .tc := ⟨.hbm, 1768, rfl⟩
abbrev main_v1631 : Ref sig .tc := ⟨.hbm, 1769, rfl⟩
abbrev main_c_109 : Ref sig .tc := ⟨.hbm, 1770, rfl⟩
abbrev main_v1632 : Ref sig .tc := ⟨.hbm, 1771, rfl⟩
abbrev main_v1633 : Ref sig .tc := ⟨.hbm, 1772, rfl⟩
abbrev main_v1634 : Ref sig .tc := ⟨.hbm, 1773, rfl⟩
abbrev main_c_110 : Ref sig .tc := ⟨.hbm, 1774, rfl⟩
abbrev main_v1635 : Ref sig .tc := ⟨.hbm, 1775, rfl⟩
abbrev main_v1636 : Ref sig .tc := ⟨.hbm, 1776, rfl⟩
abbrev main_c_111 : Ref sig .tc := ⟨.hbm, 1777, rfl⟩
abbrev main_v1637 : Ref sig .tc := ⟨.hbm, 1778, rfl⟩
abbrev main_v1638 : Ref sig .tc := ⟨.hbm, 1779, rfl⟩
abbrev main_v1639 : Ref sig .tc := ⟨.hbm, 1780, rfl⟩
abbrev main_v1640 : Ref sig .tc := ⟨.hbm, 1781, rfl⟩
abbrev main_v1641 : Ref sig .tc := ⟨.hbm, 1782, rfl⟩
abbrev main_v1642 : Ref sig .tc := ⟨.hbm, 1783, rfl⟩
abbrev main_c_112 : Ref sig .tc := ⟨.hbm, 1784, rfl⟩
abbrev main_v1643 : Ref sig .tc := ⟨.hbm, 1785, rfl⟩
abbrev main_v1644 : Ref sig .tc := ⟨.hbm, 1786, rfl⟩
abbrev main_c_113 : Ref sig .tc := ⟨.hbm, 1787, rfl⟩
abbrev main_v1645 : Ref sig .tc := ⟨.hbm, 1788, rfl⟩
abbrev main_v1646 : Ref sig .tc := ⟨.hbm, 1789, rfl⟩
abbrev main_c_114 : Ref sig .tc := ⟨.hbm, 1790, rfl⟩
abbrev main_v1647 : Ref sig .tc := ⟨.hbm, 1791, rfl⟩
abbrev main_v1648 : Ref sig .tc := ⟨.hbm, 1792, rfl⟩
abbrev main_v1649 : Ref sig .tc := ⟨.hbm, 1793, rfl⟩
abbrev main_c_115 : Ref sig .tc := ⟨.hbm, 1794, rfl⟩
abbrev main_v1650 : Ref sig .tc := ⟨.hbm, 1795, rfl⟩
abbrev main_v1651 : Ref sig .tc := ⟨.hbm, 1796, rfl⟩
abbrev main_c_116 : Ref sig .tc := ⟨.hbm, 1797, rfl⟩
abbrev main_v1652 : Ref sig .tc := ⟨.hbm, 1798, rfl⟩
abbrev main_v1653 : Ref sig .tc := ⟨.hbm, 1799, rfl⟩
abbrev main_v1654 : Ref sig .tc := ⟨.hbm, 1800, rfl⟩
abbrev main_v1655 : Ref sig .tc := ⟨.hbm, 1801, rfl⟩
abbrev main_v1656 : Ref sig .tc := ⟨.hbm, 1802, rfl⟩
abbrev main_v1657 : Ref sig .tc := ⟨.hbm, 1803, rfl⟩
abbrev main_v1658 : Ref sig .tc := ⟨.hbm, 1804, rfl⟩
abbrev main_v1659 : Ref sig .tc := ⟨.hbm, 1805, rfl⟩
abbrev main_v1660 : Ref sig .tc := ⟨.hbm, 1806, rfl⟩
abbrev main_v1661 : Ref sig .tc := ⟨.hbm, 1807, rfl⟩
abbrev main_c_117 : Ref sig .tc := ⟨.hbm, 1808, rfl⟩
abbrev main_call2_v0 : Ref sig .tc := ⟨.hbm, 1809, rfl⟩
abbrev main_v1662 : Ref sig .tc := ⟨.hbm, 1810, rfl⟩

abbrev nD : Nat := 1
abbrev τ : Topo := Topo.v7x

variable {F : FTy → Type} [FloatOps F]

class Facts₀ : Prop where
  slices_S32x3x128x128_S32x3x125x125_0_0_0_0 : S32x3x128x128.Slices ![0, 0, 0, 0] S32x3x125x125
  slices_S32x3x128x128_S32x3x125x125_0_0_0_1 : S32x3x128x128.Slices ![0, 0, 0, 1] S32x3x125x125
  slices_S32x3x128x128_S32x3x125x125_0_0_0_2 : S32x3x128x128.Slices ![0, 0, 0, 2] S32x3x125x125
  slices_S32x3x128x128_S32x3x125x125_0_0_1_0 : S32x3x128x128.Slices ![0, 0, 1, 0] S32x3x125x125
  slices_S32x3x128x128_S32x3x125x125_0_0_1_1 : S32x3x128x128.Slices ![0, 0, 1, 1] S32x3x125x125
  slices_S32x3x128x128_S32x3x125x125_0_0_1_2 : S32x3x128x128.Slices ![0, 0, 1, 2] S32x3x125x125
  slices_S32x3x128x128_S32x3x125x125_0_0_2_0 : S32x3x128x128.Slices ![0, 0, 2, 0] S32x3x125x125
  slices_S32x3x128x128_S32x3x125x125_0_0_2_1 : S32x3x128x128.Slices ![0, 0, 2, 1] S32x3x125x125
  slices_S32x3x128x128_S32x3x125x125_0_0_2_2 : S32x3x128x128.Slices ![0, 0, 2, 2] S32x3x125x125
  bcast_S32x3x125x125_S32x3x125x125x1_0_1_2_3 : S32x3x125x125.BroadcastsInDim S32x3x125x125x1 (![0, 1, 2, 3] : Fin 4 → Fin S32x3x125x125x1.rank)
  concatenates_S32x3x125x125x1_S32x3x125x125x1_S32x3x125x125x1_S32x3x125x125x1_S32x3x125x125x1_S32x3x125x125x1_S32x3x125x125x1_S32x3x125x125x1_S32x3x125x125x1_S32x3x125x125x9_d4 : Shape.Concatenates [S32x3x125x125x1, S32x3x125x125x1, S32x3x125x125x1, S32x3x125x125x1, S32x3x125x125x1, S32x3x125x125x1, S32x3x125x125x1, S32x3x125x125x1, S32x3x125x125x1] S32x3x125x125x9 4
  bcast_S_S8 : S_.BroadcastsInDim S8 (![] : Fin 0 → Fin S8.rank)
  bcast_S8_S8x1_0 : S8.BroadcastsInDim S8x1 (![0] : Fin 1 → Fin S8x1.rank)
  bcast_S8x1_S8x4_0_1 : S8x1.BroadcastsInDim S8x4 (![0, 1] : Fin 2 → Fin S8x4.rank)
  bcast_S1x4_S8x4_0_1 : S1x4.BroadcastsInDim S8x4 (![0, 1] : Fin 2 → Fin S8x4.rank)
  bcast_S_S32x125x125x4 : S_.BroadcastsInDim S32x125x125x4 (![] : Fin 0 → Fin S32x125x125x4.rank)
  slices_S3x9_S1x1_0_0 : S3x9.Slices ![0, 0] S1x1
  shapeCasts_S1x1_S_ : S1x1.ShapeCasts S_
  shapeCasts_S8_S4x2x1 : S8.ShapeCasts S4x2x1
  bcast_S_S1x1 : S_.BroadcastsInDim S1x1 (![] : Fin 0 → Fin S1x1.rank)
  slices_S4x2x1_S4x1x1_0_0_0 : S4x2x1.Slices ![0, 0, 0] S4x1x1
  shapeCasts_S4x1x1_S4x1 : S4x1x1.ShapeCasts S4x1
  slices_S4x2x1_S4x1x1_0_1_0 : S4x2x1.Slices ![0, 1, 0] S4x1x1
  bcast_S1x1_S4x1_0_1 : S1x1.BroadcastsInDim S4x1 (![0, 1] : Fin 2 → Fin S4x1.rank)
  bcast_S4x1_S4x1x1_0_2 : S4x1.BroadcastsInDim S4x1x1 (![0, 2] : Fin 2 → Fin S4x1x1.rank)
  concatenates_S4x1x1_S4x1x1_S4x2x1_d1 : Shape.Concatenates [S4x1x1, S4x1x1] S4x2x1 1
  shapeCasts_S4x2x1_S8 : S4x2x1.ShapeCasts S8
  slices_S3x9_S1x1_0_1 : S3x9.Slices ![0, 1] S1x1
  shapeCasts_S8_S2x2x2 : S8.ShapeCasts S2x2x2
  slices_S2x2x2_S2x1x2_0_0_0 : S2x2x2.Slices ![0, 0, 0] S2x1x2
  shapeCasts_S2x1x2_S2x2 : S2x1x2.ShapeCasts S2x2
  slices_S2x2x2_S2x1x2_0_1_0 : S2x2x2.Slices ![0, 1, 0] S2x1x2
  bcast_S1x1_S2x2_0_1 : S1x1.BroadcastsInDim S2x2 (![0, 1] : Fin 2 → Fin S2x2.rank)
  bcast_S2x2_S2x1x2_0_2 : S2x2.BroadcastsInDim S2x1x2 (![0, 2] : Fin 2 → Fin S2x1x2.rank)
  concatenates_S2x1x2_S2x1x2_S2x2x2_d1 : Shape.Concatenates [S2x1x2, S2x1x2] S2x2x2 1
  shapeCasts_S2x2x2_S8 : S2x2x2.ShapeCasts S8
  slices_S3x9_S1x1_0_2 : S3x9.Slices ![0, 2] S1x1
  shapeCasts_S8_S1x2x4 : S8.ShapeCasts S1x2x4
  slices_S1x2x4_S1x1x4_0_0_0 : S1x2x4.Slices ![0, 0, 0] S1x1x4
  shapeCasts_S1x1x4_S1x4 : S1x1x4.ShapeCasts S1x4
  slices_S1x2x4_S1x1x4_0_1_0 : S1x2x4.Slices ![0, 1, 0] S1x1x4
  bcast_S1x1_S1x4_0_1 : S1x1.BroadcastsInDim S1x4 (![0, 1] : Fin 2 → Fin S1x4.rank)
  bcast_S1x4_S1x1x4_0_2 : S1x4.BroadcastsInDim S1x1x4 (![0, 2] : Fin 2 → Fin S1x1x4.rank)
  concatenates_S1x1x4_S1x1x4_S1x2x4_d1 : Shape.Concatenates [S1x1x4, S1x1x4] S1x2x4 1
  shapeCasts_S1x2x4_S8 : S1x2x4.ShapeCasts S8
  slices_S3x9_S1x1_0_3 : S3x9.Slices ![0, 3] S1x1
  slices_S3x9_S1x1_0_4 : S3x9.Slices ![0, 4] S1x1
  slices_S3x9_S1x1_0_5 : S3x9.Slices ![0, 5] S1x1
  slices_S3x9_S1x1_0_6 : S3x9.Slices ![0, 6] S1x1
  slices_S3x9_S1x1_0_7 : S3x9.Slices ![0, 7] S1x1
  slices_S3x9_S1x1_0_8 : S3x9.Slices ![0, 8] S1x1
  slices_S32x3x125x125x9_S32x1x125x125x9_0_0_0_0_0 : S32x3x125x125x9.Slices ![0, 0, 0, 0, 0] S32x1x125x125x9
  shapeCasts_S32x1x125x125x9_S32x125x125x9 : S32x1x125x125x9.ShapeCasts S32x125x125x9
  shapeCasts_S32x125x125x9_S500000x9 : S32x125x125x9.ShapeCasts S500000x9
  bcast_S8_S500000x8_1 : S8.BroadcastsInDim S500000x8 (![1] : Fin 1 → Fin S500000x8.rank)
  slices_S500000x9_S500000x1_0_0 : S500000x9.Slices ![0, 0] S500000x1
  shapeCasts_S500000x1_S500000 : S500000x1.ShapeCasts S500000
  shapeCasts_S500000x8_S500000x4x2x1 : S500000x8.ShapeCasts S500000x4x2x1
  bcast_S_S500000 : S_.BroadcastsInDim S500000 (![] : Fin 0 → Fin S500000.rank)
  bcast_S500000_S500000x1x1_0 : S500000.BroadcastsInDim S500000x1x1 (![0] : Fin 1 → Fin S500000x1x1.rank)
  slices_S500000x4x2x1_S500000x4x1x1_0_0_0_0 : S500000x4x2x1.Slices ![0, 0, 0, 0] S500000x4x1x1
  shapeCasts_S500000x4x1x1_S500000x4x1 : S500000x4x1x1.ShapeCasts S500000x4x1
  slices_S500000x4x2x1_S500000x4x1x1_0_0_1_0 : S500000x4x2x1.Slices ![0, 0, 1, 0] S500000x4x1x1
  bcast_S500000x1x1_S500000x4x1_0_1_2 : S500000x1x1.BroadcastsInDim S500000x4x1 (![0, 1, 2] : Fin 3 → Fin S500000x4x1.rank)
  bcast_S500000x4x1_S500000x4x1x1_0_1_3 : S500000x4x1.BroadcastsInDim S500000x4x1x1 (![0, 1, 3] : Fin 3 → Fin S500000x4x1x1.rank)
  concatenates_S500000x4x1x1_S500000x4x1x1_S500000x4x2x1_d2 : Shape.Concatenates [S500000x4x1x1, S500000x4x1x1] S500000x4x2x1 2
  shapeCasts_S500000x4x2x1_S500000x8 : S500000x4x2x1.ShapeCasts S500000x8
  slices_S500000x9_S500000x1_0_1 : S500000x9.Slices ![0, 1] S500000x1
  shapeCasts_S500000x8_S500000x2x2x2 : S500000x8.ShapeCasts S500000x2x2x2
  slices_S500000x2x2x2_S500000x2x1x2_0_0_0_0 : S500000x2x2x2.Slices ![0, 0, 0, 0] S500000x2x1x2
  shapeCasts_S500000x2x1x2_S500000x2x2 : S500000x2x1x2.ShapeCasts S500000x2x2
  slices_S500000x2x2x2_S500000x2x1x2_0_0_1_0 : S500000x2x2x2.Slices ![0, 0, 1, 0] S500000x2x1x2
  bcast_S500000x1x1_S500000x2x2_0_1_2 : S500000x1x1.BroadcastsInDim S500000x2x2 (![0, 1, 2] : Fin 3 → Fin S500000x2x2.rank)
  bcast_S500000x2x2_S500000x2x1x2_0_1_3 : S500000x2x2.BroadcastsInDim S500000x2x1x2 (![0, 1, 3] : Fin 3 → Fin S500000x2x1x2.rank)
  concatenates_S500000x2x1x2_S500000x2x1x2_S500000x2x2x2_d2 : Shape.Concatenates [S500000x2x1x2, S500000x2x1x2] S500000x2x2x2 2
  shapeCasts_S500000x2x2x2_S500000x8 : S500000x2x2x2.ShapeCasts S500000x8
  slices_S500000x9_S500000x1_0_2 : S500000x9.Slices ![0, 2] S500000x1
  shapeCasts_S500000x8_S500000x1x2x4 : S500000x8.ShapeCasts S500000x1x2x4
  slices_S500000x1x2x4_S500000x1x1x4_0_0_0_0 : S500000x1x2x4.Slices ![0, 0, 0, 0] S500000x1x1x4
  shapeCasts_S500000x1x1x4_S500000x1x4 : S500000x1x1x4.ShapeCasts S500000x1x4
  slices_S500000x1x2x4_S500000x1x1x4_0_0_1_0 : S500000x1x2x4.Slices ![0, 0, 1, 0] S500000x1x1x4
  bcast_S500000x1x1_S500000x1x4_0_1_2 : S500000x1x1.BroadcastsInDim S500000x1x4 (![0, 1, 2] : Fin 3 → Fin S500000x1x4.rank)
  bcast_S500000x1x4_S500000x1x1x4_0_1_3 : S500000x1x4.BroadcastsInDim S500000x1x1x4 (![0, 1, 3] : Fin 3 → Fin S500000x1x1x4.rank)
  concatenates_S500000x1x1x4_S500000x1x1x4_S500000x1x2x4_d2 : Shape.Concatenates [S500000x1x1x4, S500000x1x1x4] S500000x1x2x4 2
  shapeCasts_S500000x1x2x4_S500000x8 : S500000x1x2x4.ShapeCasts S500000x8
  slices_S500000x9_S500000x1_0_3 : S500000x9.Slices ![0, 3] S500000x1
  slices_S500000x9_S500000x1_0_4 : S500000x9.Slices ![0, 4] S500000x1
  slices_S500000x9_S500000x1_0_5 : S500000x9.Slices ![0, 5] S500000x1
  slices_S500000x9_S500000x1_0_6 : S500000x9.Slices ![0, 6] S500000x1
  slices_S500000x9_S500000x1_0_7 : S500000x9.Slices ![0, 7] S500000x1
  slices_S500000x9_S500000x1_0_8 : S500000x9.Slices ![0, 8] S500000x1
  shapeCasts_S500000x4_S32x125x125x4 : S500000x4.ShapeCasts S32x125x125x4
  slices_S3x9_S1x1_1_0 : S3x9.Slices ![1, 0] S1x1
  slices_S3x9_S1x1_1_1 : S3x9.Slices ![1, 1] S1x1
  slices_S3x9_S1x1_1_2 : S3x9.Slices ![1, 2] S1x1
  slices_S3x9_S1x1_1_3 : S3x9.Slices ![1, 3] S1x1
  slices_S3x9_S1x1_1_4 : S3x9.Slices ![1, 4] S1x1
  slices_S3x9_S1x1_1_5 : S3x9.Slices ![1, 5] S1x1
  slices_S3x9_S1x1_1_6 : S3x9.Slices ![1, 6] S1x1
  slices_S3x9_S1x1_1_7 : S3x9.Slices ![1, 7] S1x1
  slices_S3x9_S1x1_1_8 : S3x9.Slices ![1, 8] S1x1
  slices_S32x3x125x125x9_S32x1x125x125x9_0_1_0_0_0 : S32x3x125x125x9.Slices ![0, 1, 0, 0, 0] S32x1x125x125x9
  slices_S3x9_S1x1_2_0 : S3x9.Slices ![2, 0] S1x1
  slices_S3x9_S1x1_2_1 : S3x9.Slices ![2, 1] S1x1
  slices_S3x9_S1x1_2_2 : S3x9.Slices ![2, 2] S1x1
  slices_S3x9_S1x1_2_3 : S3x9.Slices ![2, 3] S1x1
  slices_S3x9_S1x1_2_4 : S3x9.Slices ![2, 4] S1x1
  slices_S3x9_S1x1_2_5 : S3x9.Slices ![2, 5] S1x1
  slices_S3x9_S1x1_2_6 : S3x9.Slices ![2, 6] S1x1
  slices_S3x9_S1x1_2_7 : S3x9.Slices ![2, 7] S1x1
  slices_S3x9_S1x1_2_8 : S3x9.Slices ![2, 8] S1x1
  slices_S32x3x125x125x9_S32x1x125x125x9_0_2_0_0_0 : S32x3x125x125x9.Slices ![0, 2, 0, 0, 0] S32x1x125x125x9
  transposes_S32x125x125x4_S32x4x125x125_0_3_1_2 : S32x125x125x4.Transposes [0, 3, 1, 2] S32x4x125x125
  pads_S32x4x125x125_S32x4x128x128_000_000_030_030 : S32x4x125x125.Pads (![0, 0, 0, 0] : Fin 4 → Nat) ![0, 0, 3, 3] ![0, 0, 0, 0] S32x4x128x128
  h_S_ : 0 < S_.numel
  gather_S8_S8x1_S8_n_0_n_n_0_1_1_wf : GatherDims.WF S8 S8x1 S8 [] [0] [] [0] [] 1 ![1]
  gather_S500000x8_S8x1_S500000x8_0_1_n_n_1_1_5000001_wf : GatherDims.WF S500000x8 S8x1 S500000x8 [0] [1] [] [1] [] 1 ![500000, 1]
  dot_S500000x8_S8x4_S500000x4_1_0_0_1_n_n_wf : DotDims.WF S500000x8 S8x4 S500000x4 [1] [0] [0] [1] [] []

variable [Facts₀]

def gather_S8_S8x1_S8_n_0_n_n_0_1_1 : GatherDims S8 S8x1 S8 where
  offsetDims := []
  collapsedSliceDims := [0]
  operandBatchingDims := []
  startIndicesBatchingDims := []
  startIndexMap := [0]
  indexVectorDim := 1
  sliceSizes := ![1]
  wf := gather_S8_S8x1_S8_n_0_n_n_0_1_1_wf
def gather_S500000x8_S8x1_S500000x8_0_1_n_n_1_1_5000001 : GatherDims S500000x8 S8x1 S500000x8 where
  offsetDims := [0]
  collapsedSliceDims := [1]
  operandBatchingDims := []
  startIndicesBatchingDims := []
  startIndexMap := [1]
  indexVectorDim := 1
  sliceSizes := ![500000, 1]
  wf := gather_S500000x8_S8x1_S500000x8_0_1_n_n_1_1_5000001_wf
def dot_S500000x8_S8x4_S500000x4_1_0_0_1_n_n : DotDims S500000x8 S8x4 S500000x4 where
  lhsContracting := [1]
  rhsContracting := [0]
  lhsNonContracting := [0]
  rhsNonContracting := [1]
  lhsBatch := []
  rhsBatch := []
  wf := dot_S500000x8_S8x4_S500000x4_1_0_0_1_n_n_wf

class Facts : Prop extends Facts₀ where

variable [Facts]
-- ==== Proof.Spec.lean ====
/-
  The mathematics both programs compute, stated once over the extended reals.

  A pixel's value is read off a simulated three-qubit circuit with real amplitudes: a state is eight
  extended reals; a rotation RY(θ) on qubit q mixes the two amplitudes whose indices differ in bit q,
  by the matrix [[cos θ/2, -sin θ/2], [sin θ/2, cos θ/2]]; a controlled-NOT permutes the amplitudes.
  Per input channel the state starts at the uniform amplitude, is rotated by the channel's nine weights
  (qubits 0,1,2,0,1,2,0,1,2), entangled (CX 0→1, CX 1→2), rotated by the nine values of the 3×3 patch
  whose top-left corner is the pixel, entangled again; the squared amplitudes of basis states d and d+4
  are added into output channel d, and the three input channels are summed. Outside the 125×125 window
  of positions whose patch the original loop visits, the result is zero.
-/
import Idealize.ShloMosaic.PureOps.Ideal
import Idealize.ShloMosaic.Lib.ValueIdx

noncomputable section

namespace Cert.Quanv

open Idealize.ShloMosaic Idealize.ShloMosaic.ValueIdx

/-- The angle scale one half, as both programs spell it. -/
def half : EReal := Ideal.ofBits .f32 0x3F000000#32
/-- The uniform starting amplitude, the single-precision value of 1/√8 both programs spell. -/
def amp0 : EReal := Ideal.ofBits .f32 0x3EB504F3#32
/-- The zero both accumulators start from. -/
def zero : EReal := Ideal.ofBits .f32 0x00000000#32

/-- A real three-qubit state: eight amplitudes, index bit q = qubit q. -/
abbrev St := Fin 8 → EReal

/-- RY on qubit 0 with cosine `c` and sine `s` of the half angle: pairs (0,1), (2,3), (4,5), (6,7). -/
def ry0 (c s : EReal) (v : St) : St :=
  ![c * v 0 - s * v 1, s * v 0 + c * v 1, c * v 2 - s * v 3, s * v 2 + c * v 3,
    c * v 4 - s * v 5, s * v 4 + c * v 5, c * v 6 - s * v 7, s * v 6 + c * v 7]

/-- RY on qubit 1: pairs (0,2), (1,3), (4,6), (5,7). -/
def ry1 (c s : EReal) (v : St) : St :=
  ![c * v 0 - s * v 2, c * v 1 - s * v 3, s * v 0 + c * v 2, s * v 1 + c * v 3,
    c * v 4 - s * v 6, c * v 5 - s * v 7, s * v 4 + c * v 6, s * v 5 + c * v 7]

/-- RY on qubit 2: pairs (0,4), (1,5), (2,6), (3,7). -/
def ry2 (c s : EReal) (v : St) : St :=
  ![c * v 0 - s * v 4, c * v 1 - s * v 5, c * v 2 - s * v 6, c * v 3 - s * v 7,
    s * v 0 + c * v 4, s * v 1 + c * v 5, s * v 2 + c * v 6, s * v 3 + c * v 7]

/-- CX with control 0 and target 1: the new amplitude at d is the old one at d with bit 1 flipped when bit 0 is set. -/
def cx01 (v : St) : St := ![v 0, v 3, v 2, v 1, v 4, v 7, v 6, v 5]

/-- CX with control 1 and target 2: bit 2 flipped when bit 1 is set. -/
def cx12 (v : St) : St := ![v 0, v 1, v 6, v 7, v 4, v 5, v 2, v 3]

/-- The rotation by angle θ on qubit 0, 1, 2: cosine and sine of θ · ½. -/
def rot0 (θ : EReal) (v : St) : St := ry0 (Ideal.cos (θ * half)) (Ideal.sin (θ * half)) v
def rot1 (θ : EReal) (v : St) : St := ry1 (Ideal.cos (θ * half)) (Ideal.sin (θ * half)) v
def rot2 (θ : EReal) (v : St) : St := ry2 (Ideal.cos (θ * half)) (Ideal.sin (θ * half)) v

/-- Nine rotations, angle p on qubit p mod 3, in order p = 0 … 8. -/
def chain (a : Fin 9 → EReal) (v : St) : St :=
  rot2 (a 8) (rot1 (a 7) (rot0 (a 6) (rot2 (a 5) (rot1 (a 4) (rot0 (a 3) (rot2 (a 2) (rot1 (a 1) (rot0 (a 0) v))))))))

/-- The nine rotations followed by the two entangling gates. -/
def circ (a : Fin 9 → EReal) (v : St) : St := cx12 (cx01 (chain a v))

/-- A channel's state after its weight circuit, from the uniform state. -/
def wstate (wrow : Fin 9 → EReal) : St := circ wrow (fun _ => amp0)

/-- A pixel's final state: the data circuit on the patch's nine values, from the channel's weight state. -/
def pixState (wrow : Fin 9 → EReal) (a : Fin 9 → EReal) : St := circ a (wstate wrow)

/-- The nine values of the 3×3 patch with top-left corner (h, w), row-major, of an image read at natural coordinates. -/
def patch (img : Nat → Nat → EReal) (h w : Nat) : Fin 9 → EReal := fun p => img (h + p.val / 3) (w + p.val % 3)

/-- Channel `i` of image `b` of the input read at natural coordinates, zero outside the 128×128 image. -/
def img (X : (⟨4, ![32, 3, 128, 128]⟩ : Shape).Idx → EReal) (b : Fin 32) (i : Fin 3) : Nat → Nat → EReal :=
  fun h w => if hh : h < 128 ∧ w < 128 then X (ix4 b i ⟨h, hh.1⟩ ⟨w, hh.2⟩) else 0

/-- The squared amplitude at basis state d. -/
def prob (v : St) (d : Fin 8) : EReal := v d * v d

/-- Output channel j from the three input channels' final states: from zero, channel by channel, the
    squared amplitudes at j and at j + 4 added in this order. -/
def accum (P : Fin 3 → St) (j : Fin 4) : EReal :=
  (((((zero + prob (P 0) ⟨j.val, by omega⟩) + prob (P 0) ⟨j.val + 4, by omega⟩)
      + prob (P 1) ⟨j.val, by omega⟩) + prob (P 1) ⟨j.val + 4, by omega⟩)
      + prob (P 2) ⟨j.val, by omega⟩) + prob (P 2) ⟨j.val + 4, by omega⟩

/-- The value at image b, output channel j, position (h, w). -/
def outAt (X : (⟨4, ![32, 3, 128, 128]⟩ : Shape).Idx → EReal) (W : (⟨2, ![3, 9]⟩ : Shape).Idx → EReal)
    (b : Fin 32) (j : Fin 4) (h w : Fin 128) : EReal :=
  if h.val < 125 ∧ w.val < 125 then
    accum (fun i => pixState (fun k => W (ix2 i k)) (patch (img X b i) h.val w.val)) j
  else 0

/-- The whole result array as one function of the two argument arrays. -/
def G (X : (⟨4, ![32, 3, 128, 128]⟩ : Shape).Idx → EReal) (W : (⟨2, ![3, 9]⟩ : Shape).Idx → EReal) :
    (⟨4, ![32, 4, 128, 128]⟩ : Shape).Idx → EReal :=
  fun y => outAt X W (y 0) (y 1) (y 2) (y 3)

end Cert.Quanv

end
-- ==== Proof.KernPayBase.lean ====
/-
  The kernel body's elementary operations read at one point of the 128×128 tile.

  Everything the body computes per channel is pointwise in the position (h, w), except the nine
  shifted windows of the half-angle cosine and sine tables: window (dh, dw) at (h, w) reads the
  130×130 table at (h + dh, w + dw). This module states those reads, the reading of a 1×1×130×130
  block as a 130×130 table, the half-angle tables at a point, the one entry of a 1×1 vector, the
  tile stored as a 1×1×128×128 block, and the validity mask at a point as one or zero.
-/
import proofs.«180459_j52956946760354_2_alg».proof.Proof.Gen.KernelIdeal.Skeleton
import Idealize.ShloMosaic.Lib.ValueIdx
import Idealize.ShloMosaic.Lib.Pipeline.Value
import proofs.«180459_j52956946760354_2_alg».proof.Proof.Spec

noncomputable section

namespace Cert.Quanv.Kern

open Cert.KernelIdeal Cert.KernelIdeal.Gen Cert.Quanv Idealize.ShloMosaic Idealize.ShloMosaic.ValueIdx

/-- A tile coordinate moved d ≤ 2 places along its axis, as a coordinate of the 130-long table. -/
def shift (h : Fin 128) (d : Nat) (hd : d ≤ 2) : Fin 130 := ⟨h.val + d, by have := h.isLt; omega⟩

@[simp] theorem shift_val (h : Fin 128) (d : Nat) (hd : d ≤ 2) : (shift h d hd).val = h.val + d := rfl

/-- Window (dh, dw) of a 130×130 table read at (h, w) is the table at (h + dh, w + dw). -/
theorem slice_at (dh dw : Nat) (hdh : dh ≤ 2) (hdw : dw ≤ 2) (v : FVec Ideal S130x130 .f32)
    (hs : S130x130.Slices ![dh, dw] S128x128) (h w : Fin 128) :
    extractStridedSlice S128x128 ![dh, dw] v hs (ix2 h w) = v (ix2 (shift h dh hdh) (shift w dw hdw)) := by
  refine extractStridedSlice_apply _ v hs (ix2 h w) (ix2 (shift h dh hdh) (shift w dw hdw)) (fun a => ?_)
  match a with
  | ⟨0, _⟩ => show h.val + dh = dh + h.val; omega
  | ⟨1, _⟩ => show w.val + dw = dw + w.val; omega

/-- A 1×1×130×130 block viewed as a 130×130 table: entry (a, b) is the block's (0, 0, a, b). -/
theorem blockTable_apply (v13 : Vec Ideal S1x1x130x130 .f32) (hc : S1x1x130x130.ShapeCasts S130x130) (a b : Fin 130) :
    (shapeCast S130x130 v13 hc : FVec Ideal S130x130 .f32) (ix2 a b) = v13 (ix4 0 0 a b) := by
  refine shapeCast_apply v13 hc (ix2 a b) (ix4 0 0 a b) ?_
  rw [Shape.rowMajor_val_four, Shape.rowMajor_val_two]
  show (((0 * 1 + 0) * 130 + a.val) * 130 + b.val) = a.val * 130 + b.val
  omega

/-- A 128×128 tile stored as a 1×1×128×128 block: the block's (0, 0, h, w) is the tile's (h, w). -/
theorem tileBlock_apply (v : FVec Ideal S128x128 .f32) (hc : S128x128.ShapeCasts S1x1x128x128) (h w : Fin 128) :
    (shapeCast S1x1x128x128 v hc : FVec Ideal S1x1x128x128 .f32) (ix4 0 0 h w) = v (ix2 h w) := by
  refine shapeCast_apply v hc (ix4 0 0 h w) (ix2 h w) ?_
  rw [Shape.rowMajor_val_four, Shape.rowMajor_val_two]
  show h.val * 128 + w.val = (((0 * 1 + 0) * 128 + h.val) * 128 + w.val)
  omega

/-- The one entry of a 1×1 vector. -/
theorem extractAt_one (v : Vec Ideal S1x1 .f32) (hp : ∀ a, (![0, 0] : Fin 2 → Nat) a < S1x1.size a) :
    extractAt ![0, 0] v hp = v (ix2 0 0) := by
  unfold extractAt
  refine congrArg v (funext fun a => ?_)
  match a with
  | ⟨0, _⟩ => rfl
  | ⟨1, _⟩ => rfl

/-- The half angle at a table entry. -/
theorem halfAngle_apply (v13 : Vec Ideal S1x1x130x130 .f32) (a b : Fin 130) :
    k0_pay8 (F := Ideal) v13 (ix2 a b) = v13 (ix4 0 0 a b) * half :=
  congrArg (· * half) (blockTable_apply v13 _ a b)

/-- The cosine table at an entry. -/
theorem cosTable_apply (v13 : Vec Ideal S1x1x130x130 .f32) (a b : Fin 130) :
    k0_pay9 (F := Ideal) v13 (ix2 a b) = Ideal.cos (v13 (ix4 0 0 a b) * half) :=
  congrArg Ideal.cos (halfAngle_apply v13 a b)

/-- The sine table at an entry. -/
theorem sinTable_apply (v13 : Vec Ideal S1x1x130x130 .f32) (a b : Fin 130) :
    k0_pay10 (F := Ideal) v13 (ix2 a b) = Ideal.sin (v13 (ix4 0 0 a b) * half) :=
  congrArg Ideal.sin (halfAngle_apply v13 a b)

/-- The comparison of a coordinate below 128 against 125, as a bit. -/
theorem slt125 : ∀ n : Fin 128, IntOp.cmpi .slt (BitVec.ofNat 32 n.val) 125#32 = if n.val < 125 then 1#1 else 0#1 := by decide

/-- The conjunction of two bits, widened and converted: one when both are set, zero otherwise. -/
theorem bits_11 : FloatOps.sitofp (F := Ideal) .f32 ((IntOp.andi (1#1) (1#1)).setWidth 32) = (1 : EReal) := by
  show (((((IntOp.andi (1#1) (1#1)).setWidth 32 : BitVec 32)).toInt : ℝ) : EReal) = 1
  have e : ((IntOp.andi (1#1) (1#1)).setWidth 32 : BitVec 32).toInt = 1 := by decide
  rw [e]; norm_num
theorem bits_10 : FloatOps.sitofp (F := Ideal) .f32 ((IntOp.andi (1#1) (0#1)).setWidth 32) = (0 : EReal) := by
  show (((((IntOp.andi (1#1) (0#1)).setWidth 32 : BitVec 32)).toInt : ℝ) : EReal) = 0
  have e : ((IntOp.andi (1#1) (0#1)).setWidth 32 : BitVec 32).toInt = 0 := by decide
  rw [e]; norm_num
theorem bits_01 : FloatOps.sitofp (F := Ideal) .f32 ((IntOp.andi (0#1) (1#1)).setWidth 32) = (0 : EReal) := by
  show (((((IntOp.andi (0#1) (1#1)).setWidth 32 : BitVec 32)).toInt : ℝ) : EReal) = 0
  have e : ((IntOp.andi (0#1) (1#1)).setWidth 32 : BitVec 32).toInt = 0 := by decide
  rw [e]; norm_num
theorem bits_00 : FloatOps.sitofp (F := Ideal) .f32 ((IntOp.andi (0#1) (0#1)).setWidth 32) = (0 : EReal) := by
  show (((((IntOp.andi (0#1) (0#1)).setWidth 32 : BitVec 32)).toInt : ℝ) : EReal) = 0
  have e : ((IntOp.andi (0#1) (0#1)).setWidth 32 : BitVec 32).toInt = 0 := by decide
  rw [e]; norm_num

/-- The validity mask at (h, w): one inside the 125×125 window, zero outside. -/
theorem mask_apply (h w : Fin 128) :
    k0_pay3 (F := Ideal) (ix2 h w) = if h.val < 125 ∧ w.val < 125 then (1 : EReal) else 0 := by
  unfold k0_pay3
  show FloatOps.sitofp (F := Ideal) .f32 ((IntOp.andi (IntOp.cmpi .slt (iota .tc S128x128 32 [0] _ (ix2 h w)) 125#32) (IntOp.cmpi .slt (iota .tc S128x128 32 [1] _ (ix2 h w)) 125#32)).setWidth 32) = _
  rw [iota_single_apply, iota_single_apply]
  show FloatOps.sitofp (F := Ideal) .f32 ((IntOp.andi (IntOp.cmpi .slt (BitVec.ofNat 32 h.val) 125#32) (IntOp.cmpi .slt (BitVec.ofNat 32 w.val) 125#32)).setWidth 32) = _
  rw [slt125 h, slt125 w]
  by_cases hh : h.val < 125 <;> by_cases hw : w.val < 125
  · rw [if_pos hh, if_pos hw, if_pos ⟨hh, hw⟩]; exact bits_11
  · rw [if_pos hh, if_neg hw, if_neg (fun c => hw c.2)]; exact bits_10
  · rw [if_neg hh, if_pos hw, if_neg (fun c => hh c.1)]; exact bits_01
  · rw [if_neg hh, if_neg hw, if_neg (fun c => hh c.1)]; exact bits_00

/-- The second and third channels' tables are the same functions of their blocks. -/
theorem cosTable1_apply (v : Vec Ideal S1x1x130x130 .f32) (a b : Fin 130) :
    k0_pay116 (F := Ideal) v (ix2 a b) = Ideal.cos (v (ix4 0 0 a b) * half) :=
  congrArg Ideal.cos (congrArg (· * half) (blockTable_apply v _ a b))
theorem sinTable1_apply (v : Vec Ideal S1x1x130x130 .f32) (a b : Fin 130) :
    k0_pay117 (F := Ideal) v (ix2 a b) = Ideal.sin (v (ix4 0 0 a b) * half) :=
  congrArg Ideal.sin (congrArg (· * half) (blockTable_apply v _ a b))
theorem cosTable2_apply (v : Vec Ideal S1x1x130x130 .f32) (a b : Fin 130) :
    k0_pay224 (F := Ideal) v (ix2 a b) = Ideal.cos (v (ix4 0 0 a b) * half) :=
  congrArg Ideal.cos (congrArg (· * half) (blockTable_apply v _ a b))
theorem sinTable2_apply (v : Vec Ideal S1x1x130x130 .f32) (a b : Fin 130) :
    k0_pay225 (F := Ideal) v (ix2 a b) = Ideal.sin (v (ix4 0 0 a b) * half) :=
  congrArg Ideal.sin (congrArg (· * half) (blockTable_apply v _ a b))

/-- The four accumulators start at zero. -/
theorem acc0_apply (i : S128x128.Idx) : k0_pay4 (F := Ideal) i = zero := rfl
theorem acc1_apply (i : S128x128.Idx) : k0_pay5 (F := Ideal) i = zero := rfl
theorem acc2_apply (i : S128x128.Idx) : k0_pay6 (F := Ideal) i = zero := rfl
theorem acc3_apply (i : S128x128.Idx) : k0_pay7 (F := Ideal) i = zero := rfl

/-- The image block's channel i read at natural coordinates (zero outside the 130×130 block; never reached). -/
def blkImg (x1 : Vec Ideal S1x3x130x130 .f32) (i : Fin 3) : Nat → Nat → EReal :=
  fun h w => if hh : h < 130 ∧ w < 130 then x1 (ix4 0 i ⟨h, hh.1⟩ ⟨w, hh.2⟩) else 0

/-- Inside the block it is the block's entry. -/
theorem blkImg_apply (x1 : Vec Ideal S1x3x130x130 .f32) (i : Fin 3) (a b : Fin 130) :
    blkImg x1 i a.val b.val = x1 (ix4 0 i a b) := by
  unfold blkImg
  rw [dif_pos ⟨a.isLt, b.isLt⟩]

end Cert.Quanv.Kern

end
-- ==== Proof.KernPayLeaves.lean ====
/-
  The body's loads and stores read at a point.

  The body loads the image block channel by channel (three 1×1×130×130 rectangles) and the weight
  states amplitude by amplitude (twenty-four 1×1 rectangles), and stores the four output channels as
  four 1×1×128×128 rectangles. A load through a unit-stride rectangle reads the array at the
  rectangle's offset plus the local coordinate. This module reads the loads.
-/
import proofs.«180459_j52956946760354_2_alg».proof.Proof.FrameKernelIdealP
import proofs.«180459_j52956946760354_2_alg».proof.Proof.KernPayBase

noncomputable section

namespace Cert.Quanv.Kern

open Cert.KernelIdeal Cert.KernelIdeal.Gen Cert.KernelIdeal.GenP Cert.Quanv Idealize.ShloMosaic Idealize.ShloMosaic.ValueIdx

/-- Channel i of the image block, loaded as a 1×1×130×130 block, at (0, 0, a, b). -/
theorem ldImg (x1 : Vec Ideal S1x3x130x130 .f32) (i : Nat) (hi : i < 3)
    (inb : ∀ e, (![0, i, 0, 0] : Fin 4 → Nat) e + S1x1x130x130.size e ≤ S1x3x130x130.size e) (a b : Fin 130) :
    View.ld x1 (Rect.unit (s := S1x3x130x130) ![0, i, 0, 0] S1x1x130x130.size inb) (ix4 0 0 a b)
      = blkImg x1 ⟨i, hi⟩ a.val b.val := by
  rw [blkImg_apply]
  refine congrArg x1 (funext fun e => Fin.ext ?_)
  match e with
  | ⟨0, _⟩ => show 0 + 1 * 0 = 0; omega
  | ⟨1, _⟩ => show i + 1 * 0 = i; omega
  | ⟨2, _⟩ => show 0 + 1 * a.val = a.val; omega
  | ⟨3, _⟩ => show 0 + 1 * b.val = b.val; omega

/-- Amplitude d of channel i's weight state, loaded as a 1×1 vector, at its one entry. -/
theorem ldW (x0 : Vec Ideal S3x8 .f32) (i d : Nat) (hi : i < 3) (hd : d < 8)
    (inb : ∀ e, (![i, d] : Fin 2 → Nat) e + S1x1.size e ≤ S3x8.size e) :
    View.ld x0 (Rect.unit (s := S3x8) ![i, d] S1x1.size inb) (ix2 0 0) = x0 (ix2 ⟨i, hi⟩ ⟨d, hd⟩) := by
  refine congrArg x0 (funext fun e => Fin.ext ?_)
  match e with
  | ⟨0, _⟩ => show i + 1 * 0 = i; omega
  | ⟨1, _⟩ => show d + 1 * 0 = d; omega
/-! The three channels' half-angle tables at an entry, over the image block. -/
theorem cos0 (x1 : Vec Ideal S1x3x130x130 .f32) (a b : Fin 130) :
    k0_pay9 (F := Ideal) (View.ld x1 r0_0) (ix2 a b) = Ideal.cos (blkImg x1 0 a.val b.val * half) :=
  (cosTable_apply _ a b).trans (congrArg (fun t => Ideal.cos (t * half)) (ldImg x1 0 (by omega) _ a b))
theorem sin0 (x1 : Vec Ideal S1x3x130x130 .f32) (a b : Fin 130) :
    k0_pay10 (F := Ideal) (View.ld x1 r0_0) (ix2 a b) = Ideal.sin (blkImg x1 0 a.val b.val * half) :=
  (sinTable_apply _ a b).trans (congrArg (fun t => Ideal.sin (t * half)) (ldImg x1 0 (by omega) _ a b))
theorem cos1 (x1 : Vec Ideal S1x3x130x130 .f32) (a b : Fin 130) :
    k0_pay116 (F := Ideal) (View.ld x1 r0_9) (ix2 a b) = Ideal.cos (blkImg x1 1 a.val b.val * half) :=
  (cosTable1_apply _ a b).trans (congrArg (fun t => Ideal.cos (t * half)) (ldImg x1 1 (by omega) _ a b))
theorem sin1 (x1 : Vec Ideal S1x3x130x130 .f32) (a b : Fin 130) :
    k0_pay117 (F := Ideal) (View.ld x1 r0_9) (ix2 a b) = Ideal.sin (blkImg x1 1 a.val b.val * half) :=
  (sinTable1_apply _ a b).trans (congrArg (fun t => Ideal.sin (t * half)) (ldImg x1 1 (by omega) _ a b))
theorem cos2 (x1 : Vec Ideal S1x3x130x130 .f32) (a b : Fin 130) :
    k0_pay224 (F := Ideal) (View.ld x1 r0_18) (ix2 a b) = Ideal.cos (blkImg x1 2 a.val b.val * half) :=
  (cosTable2_apply _ a b).trans (congrArg (fun t => Ideal.cos (t * half)) (ldImg x1 2 (by omega) _ a b))
theorem sin2 (x1 : Vec Ideal S1x3x130x130 .f32) (a b : Fin 130) :
    k0_pay225 (F := Ideal) (View.ld x1 r0_18) (ix2 a b) = Ideal.sin (blkImg x1 2 a.val b.val * half) :=
  (sinTable2_apply _ a b).trans (congrArg (fun t => Ideal.sin (t * half)) (ldImg x1 2 (by omega) _ a b))

/-- A loaded weight amplitude, extracted. -/
theorem wAmp (x0 : Vec Ideal S3x8 .f32) (i d : Nat) (hi : i < 3) (hd : d < 8)
    (inb : ∀ e, (![i, d] : Fin 2 → Nat) e + S1x1.size e ≤ S3x8.size e)
    (hp : ∀ a, (![0, 0] : Fin 2 → Nat) a < S1x1.size a) :
    (extractAt ![0, 0] (View.ld x0 (Rect.unit (s := S3x8) ![i, d] S1x1.size inb)) hp : Ideal .f32) = x0 (ix2 ⟨i, hi⟩ ⟨d, hd⟩) :=
  (extractAt_one _ hp).trans (ldW x0 i d hi hd inb)

variable (x0 : Vec Ideal S3x8 .f32) (hp : ∀ a, (![0, 0] : Fin 2 → Nat) a < S1x1.size a)
/-! The twenty-four weight amplitudes: rectangle number 1 + 9 i + d holds amplitude d of channel i. -/
theorem w0_0 : (extractAt ![0, 0] (View.ld x0 r0_1) hp : Ideal .f32) = x0 (ix2 0 0) := wAmp x0 0 0 (by omega) (by omega) _ hp
theorem w0_1 : (extractAt ![0, 0] (View.ld x0 r0_2) hp : Ideal .f32) = x0 (ix2 0 1) := wAmp x0 0 1 (by omega) (by omega) _ hp
theorem w0_2 : (extractAt ![0, 0] (View.ld x0 r0_3) hp : Ideal .f32) = x0 (ix2 0 2) := wAmp x0 0 2 (by omega) (by omega) _ hp
theorem w0_3 : (extractAt ![0, 0] (View.ld x0 r0_4) hp : Ideal .f32) = x0 (ix2 0 3) := wAmp x0 0 3 (by omega) (by omega) _ hp
theorem w0_4 : (extractAt ![0, 0] (View.ld x0 r0_5) hp : Ideal .f32) = x0 (ix2 0 4) := wAmp x0 0 4 (by omega) (by omega) _ hp
theorem w0_5 : (extractAt ![0, 0] (View.ld x0 r0_6) hp : Ideal .f32) = x0 (ix2 0 5) := wAmp x0 0 5 (by omega) (by omega) _ hp
theorem w0_6 : (extractAt ![0, 0] (View.ld x0 r0_7) hp : Ideal .f32) = x0 (ix2 0 6) := wAmp x0 0 6 (by omega) (by omega) _ hp
theorem w0_7 : (extractAt ![0, 0] (View.ld x0 r0_8) hp : Ideal .f32) = x0 (ix2 0 7) := wAmp x0 0 7 (by omega) (by omega) _ hp
theorem w1_0 : (extractAt ![0, 0] (View.ld x0 r0_10) hp : Ideal .f32) = x0 (ix2 1 0) := wAmp x0 1 0 (by omega) (by omega) _ hp
theorem w1_1 : (extractAt ![0, 0] (View.ld x0 r0_11) hp : Ideal .f32) = x0 (ix2 1 1) := wAmp x0 1 1 (by omega) (by omega) _ hp
theorem w1_2 : (extractAt ![0, 0] (View.ld x0 r0_12) hp : Ideal .f32) = x0 (ix2 1 2) := wAmp x0 1 2 (by omega) (by omega) _ hp
theorem w1_3 : (extractAt ![0, 0] (View.ld x0 r0_13) hp : Ideal .f32) = x0 (ix2 1 3) := wAmp x0 1 3 (by omega) (by omega) _ hp
theorem w1_4 : (extractAt ![0, 0] (View.ld x0 r0_14) hp : Ideal .f32) = x0 (ix2 1 4) := wAmp x0 1 4 (by omega) (by omega) _ hp
theorem w1_5 : (extractAt ![0, 0] (View.ld x0 r0_15) hp : Ideal .f32) = x0 (ix2 1 5) := wAmp x0 1 5 (by omega) (by omega) _ hp
theorem w1_6 : (extractAt ![0, 0] (View.ld x0 r0_16) hp : Ideal .f32) = x0 (ix2 1 6) := wAmp x0 1 6 (by omega) (by omega) _ hp
theorem w1_7 : (extractAt ![0, 0] (View.ld x0 r0_17) hp : Ideal .f32) = x0 (ix2 1 7) := wAmp x0 1 7 (by omega) (by omega) _ hp
theorem w2_0 : (extractAt ![0, 0] (View.ld x0 r0_19) hp : Ideal .f32) = x0 (ix2 2 0) := wAmp x0 2 0 (by omega) (by omega) _ hp
theorem w2_1 : (extractAt ![0, 0] (View.ld x0 r0_20) hp : Ideal .f32) = x0 (ix2 2 1) := wAmp x0 2 1 (by omega) (by omega) _ hp
theorem w2_2 : (extractAt ![0, 0] (View.ld x0 r0_21) hp : Ideal .f32) = x0 (ix2 2 2) := wAmp x0 2 2 (by omega) (by omega) _ hp
theorem w2_3 : (extractAt ![0, 0] (View.ld x0 r0_22) hp : Ideal .f32) = x0 (ix2 2 3) := wAmp x0 2 3 (by omega) (by omega) _ hp
theorem w2_4 : (extractAt ![0, 0] (View.ld x0 r0_23) hp : Ideal .f32) = x0 (ix2 2 4) := wAmp x0 2 4 (by omega) (by omega) _ hp
theorem w2_5 : (extractAt ![0, 0] (View.ld x0 r0_24) hp : Ideal .f32) = x0 (ix2 2 5) := wAmp x0 2 5 (by omega) (by omega) _ hp
theorem w2_6 : (extractAt ![0, 0] (View.ld x0 r0_25) hp : Ideal .f32) = x0 (ix2 2 6) := wAmp x0 2 6 (by omega) (by omega) _ hp
theorem w2_7 : (extractAt ![0, 0] (View.ld x0 r0_26) hp : Ideal .f32) = x0 (ix2 2 7) := wAmp x0 2 7 (by omega) (by omega) _ hp

open Lean Elab Tactic in
/-- simp only with every payload definition of the body unfolded, except the mask, the four zero
    accumulators and the three channels' half-angle tables (each read by its own lemma), and with the given lemmas. -/
elab "simp_payloads" "[" extra:term,* "]" : tactic => do
  let skip : List Nat := [3, 4, 5, 6, 7, 8, 9, 10, 115, 116, 117, 223, 224, 225]
  let nums := (List.range 329).filter fun i => 1 ≤ i ∧ ¬ i ∈ skip
  let ids : Array Term := (nums.map fun i => (mkIdent (Name.mkSimple s!"k0_pay{i}") : Term)).toArray
  let all : Array Term := ids ++ extra.getElems
  evalTactic (← `(tactic| simp only [$[$all:term],*]))

end Cert.Quanv.Kern

end
-- ==== Proof.KernPayCanon.lean ====
/-
  The body's four stores read at a point.

  The body stores the four output channels through four 1×1×128×128 rectangles of the 1×4×128×128
  buffer, channel j's at offset (0, j, 0, 0). A rectangle reaches only indices whose second coordinate
  is its channel, so the stores do not overlap, and the stored array at (0, j, h, w) is the payload of
  channel j's store at (0, 0, h, w), whatever the order of the stores.
-/
import proofs.«180459_j52956946760354_2_alg».proof.Proof.FrameKernelIdealP
import proofs.«180459_j52956946760354_2_alg».proof.Proof.KernPayBase

noncomputable section

namespace Cert.Quanv.Kern

open Cert.KernelIdeal Cert.KernelIdeal.Gen Cert.KernelIdeal.GenP Cert.Quanv Idealize.ShloMosaic Idealize.ShloMosaic.ValueIdx

/-- The stored array at output channel 3 is the first piece's payload. -/
theorem canon4_3 (p0 p1 p2 p3 : Vec Ideal S1x1x128x128 .f32) (h w : Fin 128) :
    View.canon ([⟨r0_30, p0⟩, ⟨r0_29, p1⟩, ⟨r0_28, p2⟩, ⟨r0_27, p3⟩] : List (View.Piece (Elt Ideal) S1x4x128x128 .f32))
      (ix4 0 3 h w) = p0 (ix4 0 0 h w) := by
  have e : (ix4 0 3 h w : S1x4x128x128.Idx) = r0_30.emb (ix4 0 0 h w) := by
    funext a; apply Fin.ext
    match a with
    | ⟨0, _⟩ => show 0 = 0 + 1 * 0; omega
    | ⟨1, _⟩ => show 3 = 3 + 1 * 0; omega
    | ⟨2, _⟩ => show h.val = 0 + 1 * h.val; omega
    | ⟨3, _⟩ => show w.val = 0 + 1 * w.val; omega
  rw [e]
  exact View.canon_cons_emb r0_30 p0 _ _

/-- A piece whose rectangle misses the index leaves the earlier stores' value there. -/
theorem canon_miss {S : Shape} {e : EltTy} (r : Rect S) (p : r.shape.Idx → Elt Ideal e)
    (L : List (View.Piece (Elt Ideal) S e)) (y : S.Idx) (hy : ∀ x, r.emb x ≠ y) :
    View.canon ((⟨r, p⟩ : View.Piece (Elt Ideal) S e) :: L) y = View.canon L y := by
  rw [View.canon_cons]
  show Rect.overlay r (View.canon L) p y = _
  unfold Rect.overlay
  rw [preimage?_eq_none hy]

/-- Channel j's rectangle reaches only indices whose second coordinate is j. -/
theorem out_rect_coord (j : Nat) (inb : ∀ e, (![0, j, 0, 0] : Fin 4 → Nat) e + S1x1x128x128.size e ≤ S1x4x128x128.size e)
    (x : S1x1x128x128.Idx) :
    ((Rect.unit (s := S1x4x128x128) ![0, j, 0, 0] S1x1x128x128.size inb).emb x ⟨1, by decide⟩).val = j := by
  have := (x ⟨1, by decide⟩).isLt
  show j + 1 * (x ⟨1, by decide⟩).val = j
  have h1 : (x ⟨1, by decide⟩).val < 1 := this
  omega

/-- And it places (0, 0, h, w) at (0, j, h, w). -/
theorem out_rect_emb (j : Nat) (hj : j < 4) (inb : ∀ e, (![0, j, 0, 0] : Fin 4 → Nat) e + S1x1x128x128.size e ≤ S1x4x128x128.size e)
    (h w : Fin 128) :
    (ix4 0 ⟨j, hj⟩ h w : S1x4x128x128.Idx) = (Rect.unit (s := S1x4x128x128) ![0, j, 0, 0] S1x1x128x128.size inb).emb (ix4 0 0 h w) := by
  funext a; apply Fin.ext
  match a with
  | ⟨0, _⟩ => show 0 = 0 + 1 * 0; omega
  | ⟨1, _⟩ => show j = j + 1 * 0; omega
  | ⟨2, _⟩ => show h.val = 0 + 1 * h.val; omega
  | ⟨3, _⟩ => show w.val = 0 + 1 * w.val; omega

/-- The stored array at output channel 2 is the second piece's payload. -/
theorem canon4_2 (p0 p1 p2 p3 : Vec Ideal S1x1x128x128 .f32) (h w : Fin 128) :
    View.canon ([⟨r0_30, p0⟩, ⟨r0_29, p1⟩, ⟨r0_28, p2⟩, ⟨r0_27, p3⟩] : List (View.Piece (Elt Ideal) S1x4x128x128 .f32))
      (ix4 0 2 h w) = p1 (ix4 0 0 h w) := by
  have e : (ix4 0 2 h w : S1x4x128x128.Idx) = r0_29.emb (ix4 0 0 h w) :=
    out_rect_emb 2 (by omega) inb_S1x4x128x128_S1x1x128x128_0_2_0_0 h w
  refine (canon_miss r0_30 p0 _ _ (fun x hx => ?_)).trans ?_
  · have c := out_rect_coord 3 inb_S1x4x128x128_S1x1x128x128_0_3_0_0 x
    rw [show (Rect.unit (s := S1x4x128x128) ![0, 3, 0, 0] S1x1x128x128.size inb_S1x4x128x128_S1x1x128x128_0_3_0_0).emb x = ix4 0 2 h w from hx] at c
    have c' : (2 : Nat) = 3 := c
    omega
  · rw [e]
    exact View.canon_cons_emb r0_29 p1 _ _

/-- The stored array at output channel 1 is the third piece's payload. -/
theorem canon4_1 (p0 p1 p2 p3 : Vec Ideal S1x1x128x128 .f32) (h w : Fin 128) :
    View.canon ([⟨r0_30, p0⟩, ⟨r0_29, p1⟩, ⟨r0_28, p2⟩, ⟨r0_27, p3⟩] : List (View.Piece (Elt Ideal) S1x4x128x128 .f32))
      (ix4 0 1 h w) = p2 (ix4 0 0 h w) := by
  have e : (ix4 0 1 h w : S1x4x128x128.Idx) = r0_28.emb (ix4 0 0 h w) :=
    out_rect_emb 1 (by omega) inb_S1x4x128x128_S1x1x128x128_0_1_0_0 h w
  refine (canon_miss r0_30 p0 _ _ (fun x hx => ?_)).trans ((canon_miss r0_29 p1 _ _ (fun x hx => ?_)).trans ?_)
  · have c := out_rect_coord 3 inb_S1x4x128x128_S1x1x128x128_0_3_0_0 x
    rw [show (Rect.unit (s := S1x4x128x128) ![0, 3, 0, 0] S1x1x128x128.size inb_S1x4x128x128_S1x1x128x128_0_3_0_0).emb x = ix4 0 1 h w from hx] at c
    have c' : (1 : Nat) = 3 := c
    omega
  · have c := out_rect_coord 2 inb_S1x4x128x128_S1x1x128x128_0_2_0_0 x
    rw [show (Rect.unit (s := S1x4x128x128) ![0, 2, 0, 0] S1x1x128x128.size inb_S1x4x128x128_S1x1x128x128_0_2_0_0).emb x = ix4 0 1 h w from hx] at c
    have c' : (1 : Nat) = 2 := c
    omega
  · rw [e]
    exact View.canon_cons_emb r0_28 p2 _ _

/-- The stored array at output channel 0 is the fourth piece's payload. -/
theorem canon4_0 (p0 p1 p2 p3 : Vec Ideal S1x1x128x128 .f32) (h w : Fin 128) :
    View.canon ([⟨r0_30, p0⟩, ⟨r0_29, p1⟩, ⟨r0_28, p2⟩, ⟨r0_27, p3⟩] : List (View.Piece (Elt Ideal) S1x4x128x128 .f32))
      (ix4 0 0 h w) = p3 (ix4 0 0 h w) := by
  have e : (ix4 0 0 h w : S1x4x128x128.Idx) = r0_27.emb (ix4 0 0 h w) :=
    out_rect_emb 0 (by omega) inb_S1x4x128x128_S1x1x128x128_0_0_0_0 h w
  refine (canon_miss r0_30 p0 _ _ (fun x hx => ?_)).trans ((canon_miss r0_29 p1 _ _ (fun x hx => ?_)).trans
    ((canon_miss r0_28 p2 _ _ (fun x hx => ?_)).trans ?_))
  · have c := out_rect_coord 3 inb_S1x4x128x128_S1x1x128x128_0_3_0_0 x
    rw [show (Rect.unit (s := S1x4x128x128) ![0, 3, 0, 0] S1x1x128x128.size inb_S1x4x128x128_S1x1x128x128_0_3_0_0).emb x = ix4 0 0 h w from hx] at c
    have c' : (0 : Nat) = 3 := c
    omega
  · have c := out_rect_coord 2 inb_S1x4x128x128_S1x1x128x128_0_2_0_0 x
    rw [show (Rect.unit (s := S1x4x128x128) ![0, 2, 0, 0] S1x1x128x128.size inb_S1x4x128x128_S1x1x128x128_0_2_0_0).emb x = ix4 0 0 h w from hx] at c
    have c' : (0 : Nat) = 2 := c
    omega
  · have c := out_rect_coord 1 inb_S1x4x128x128_S1x1x128x128_0_1_0_0 x
    rw [show (Rect.unit (s := S1x4x128x128) ![0, 1, 0, 0] S1x1x128x128.size inb_S1x4x128x128_S1x1x128x128_0_1_0_0).emb x = ix4 0 0 h w from hx] at c
    have c' : (0 : Nat) = 1 := c
    omega
  · rw [e]
    exact View.canon_cons_emb r0_27 p3 _ _

end Cert.Quanv.Kern

end
-- ==== Proof.KernPaySpec.lean ====
/-
  The specification's circuit read entry by entry.

  A rotation's output amplitude d is a two-term combination of the input amplitudes d and d with
  the rotated qubit's bit flipped; an entangling gate's output amplitude is one input amplitude.
  Each such reading is by definition. Output channel j adds six squared amplitudes to zero in a
  fixed order, and entry p of a 3×3 patch is the image at the row p / 3 and column p % 3 further on.
-/
import proofs.«180459_j52956946760354_2_alg».proof.Proof.Spec

noncomputable section

namespace Cert.Quanv.Kern

open Cert.Quanv Idealize.ShloMosaic

variable (θ : EReal) (v : St)

/-! Rotation on qubit 0: pairs (0,1), (2,3), (4,5), (6,7). -/
theorem rot0_0 : rot0 θ v 0 = Ideal.cos (θ * half) * v 0 - Ideal.sin (θ * half) * v 1 := rfl
theorem rot0_1 : rot0 θ v 1 = Ideal.sin (θ * half) * v 0 + Ideal.cos (θ * half) * v 1 := rfl
theorem rot0_2 : rot0 θ v 2 = Ideal.cos (θ * half) * v 2 - Ideal.sin (θ * half) * v 3 := rfl
theorem rot0_3 : rot0 θ v 3 = Ideal.sin (θ * half) * v 2 + Ideal.cos (θ * half) * v 3 := rfl
theorem rot0_4 : rot0 θ v 4 = Ideal.cos (θ * half) * v 4 - Ideal.sin (θ * half) * v 5 := rfl
theorem rot0_5 : rot0 θ v 5 = Ideal.sin (θ * half) * v 4 + Ideal.cos (θ * half) * v 5 := rfl
theorem rot0_6 : rot0 θ v 6 = Ideal.cos (θ * half) * v 6 - Ideal.sin (θ * half) * v 7 := rfl
theorem rot0_7 : rot0 θ v 7 = Ideal.sin (θ * half) * v 6 + Ideal.cos (θ * half) * v 7 := rfl

/-! Rotation on qubit 1: pairs (0,2), (1,3), (4,6), (5,7). -/
theorem rot1_0 : rot1 θ v 0 = Ideal.cos (θ * half) * v 0 - Ideal.sin (θ * half) * v 2 := rfl
theorem rot1_1 : rot1 θ v 1 = Ideal.cos (θ * half) * v 1 - Ideal.sin (θ * half) * v 3 := rfl
theorem rot1_2 : rot1 θ v 2 = Ideal.sin (θ * half) * v 0 + Ideal.cos (θ * half) * v 2 := rfl
theorem rot1_3 : rot1 θ v 3 = Ideal.sin (θ * half) * v 1 + Ideal.cos (θ * half) * v 3 := rfl
theorem rot1_4 : rot1 θ v 4 = Ideal.cos (θ * half) * v 4 - Ideal.sin (θ * half) * v 6 := rfl
theorem rot1_5 : rot1 θ v 5 = Ideal.cos (θ * half) * v 5 - Ideal.sin (θ * half) * v 7 := rfl
theorem rot1_6 : rot1 θ v 6 = Ideal.sin (θ * half) * v 4 + Ideal.cos (θ * half) * v 6 := rfl
theorem rot1_7 : rot1 θ v 7 = Ideal.sin (θ * half) * v 5 + Ideal.cos (θ * half) * v 7 := rfl

/-! Rotation on qubit 2: pairs (0,4), (1,5), (2,6), (3,7). -/
theorem rot2_0 : rot2 θ v 0 = Ideal.cos (θ * half) * v 0 - Ideal.sin (θ * half) * v 4 := rfl
theorem rot2_1 : rot2 θ v 1 = Ideal.cos (θ * half) * v 1 - Ideal.sin (θ * half) * v 5 := rfl
theorem rot2_2 : rot2 θ v 2 = Ideal.cos (θ * half) * v 2 - Ideal.sin (θ * half) * v 6 := rfl
theorem rot2_3 : rot2 θ v 3 = Ideal.cos (θ * half) * v 3 - Ideal.sin (θ * half) * v 7 := rfl
theorem rot2_4 : rot2 θ v 4 = Ideal.sin (θ * half) * v 0 + Ideal.cos (θ * half) * v 4 := rfl
theorem rot2_5 : rot2 θ v 5 = Ideal.sin (θ * half) * v 1 + Ideal.cos (θ * half) * v 5 := rfl
theorem rot2_6 : rot2 θ v 6 = Ideal.sin (θ * half) * v 2 + Ideal.cos (θ * half) * v 6 := rfl
theorem rot2_7 : rot2 θ v 7 = Ideal.sin (θ * half) * v 3 + Ideal.cos (θ * half) * v 7 := rfl

/-! The two entangling gates as index permutations. -/
theorem cx01_0 : cx01 v 0 = v 0 := rfl
theorem cx01_1 : cx01 v 1 = v 3 := rfl
theorem cx01_2 : cx01 v 2 = v 2 := rfl
theorem cx01_3 : cx01 v 3 = v 1 := rfl
theorem cx01_4 : cx01 v 4 = v 4 := rfl
theorem cx01_5 : cx01 v 5 = v 7 := rfl
theorem cx01_6 : cx01 v 6 = v 6 := rfl
theorem cx01_7 : cx01 v 7 = v 5 := rfl

theorem cx12_0 : cx12 v 0 = v 0 := rfl
theorem cx12_1 : cx12 v 1 = v 1 := rfl
theorem cx12_2 : cx12 v 2 = v 6 := rfl
theorem cx12_3 : cx12 v 3 = v 7 := rfl
theorem cx12_4 : cx12 v 4 = v 4 := rfl
theorem cx12_5 : cx12 v 5 = v 5 := rfl
theorem cx12_6 : cx12 v 6 = v 2 := rfl
theorem cx12_7 : cx12 v 7 = v 3 := rfl

/-! The four output channels' sums. -/
theorem accum_0 (P : Fin 3 → St) : accum P 0 =
    (((((zero + prob (P 0) 0) + prob (P 0) 4) + prob (P 1) 0) + prob (P 1) 4) + prob (P 2) 0) + prob (P 2) 4 := rfl
theorem accum_1 (P : Fin 3 → St) : accum P 1 =
    (((((zero + prob (P 0) 1) + prob (P 0) 5) + prob (P 1) 1) + prob (P 1) 5) + prob (P 2) 1) + prob (P 2) 5 := rfl
theorem accum_2 (P : Fin 3 → St) : accum P 2 =
    (((((zero + prob (P 0) 2) + prob (P 0) 6) + prob (P 1) 2) + prob (P 1) 6) + prob (P 2) 2) + prob (P 2) 6 := rfl
theorem accum_3 (P : Fin 3 → St) : accum P 3 =
    (((((zero + prob (P 0) 3) + prob (P 0) 7) + prob (P 1) 3) + prob (P 1) 7) + prob (P 2) 3) + prob (P 2) 7 := rfl

/-- A squared amplitude. -/
theorem prob_apply (d : Fin 8) : prob v d = v d * v d := rfl

/-- The circuit: nine rotations, then the two entangling gates. -/
theorem circ_apply (a : Fin 9 → EReal) (d : Fin 8) : circ a v d = cx12 (cx01 (chain a v)) d := rfl

theorem chain_eq (a : Fin 9 → EReal) : chain a v =
    rot2 (a 8) (rot1 (a 7) (rot0 (a 6) (rot2 (a 5) (rot1 (a 4) (rot0 (a 3) (rot2 (a 2) (rot1 (a 1) (rot0 (a 0) v)))))))) := rfl

/-! The nine entries of a patch, row-major. -/
variable (f : Nat → Nat → EReal) (h w : Nat)
theorem patch_0 : patch f h w 0 = f (h + 0) (w + 0) := rfl
theorem patch_1 : patch f h w 1 = f (h + 0) (w + 1) := rfl
theorem patch_2 : patch f h w 2 = f (h + 0) (w + 2) := rfl
theorem patch_3 : patch f h w 3 = f (h + 1) (w + 0) := rfl
theorem patch_4 : patch f h w 4 = f (h + 1) (w + 1) := rfl
theorem patch_5 : patch f h w 5 = f (h + 1) (w + 2) := rfl
theorem patch_6 : patch f h w 6 = f (h + 2) (w + 0) := rfl
theorem patch_7 : patch f h w 7 = f (h + 2) (w + 1) := rfl
theorem patch_8 : patch f h w 8 = f (h + 2) (w + 2) := rfl

/-- A value times a mask that is one where a condition holds and zero elsewhere: the value where it holds, zero elsewhere.
    Both products are exact for every extended real. -/
theorem masked_eq (A M R : EReal) (c : Prop) [Decidable c] (hM : M = if c then 1 else 0) (hA : c → A = R) :
    A * M = if c then R else 0 := by
  by_cases hc : c
  · rw [hM, if_pos hc, if_pos hc, mul_one]; exact hA hc
  · rw [hM, if_neg hc, if_neg hc, mul_zero]

end Cert.Quanv.Kern

end
-- ==== Proof.KernPayOut0.lean ====
/-
  Output channel 0 of the body's result block at a point.

  The stored value is the channel's accumulated sum times the validity mask. Read at (h, w), every
  operation of the body is the corresponding operation of the specification's circuit on the same
  numbers: the nine rotations' cosine and sine are the half-angle tables at the nine patch positions,
  the starting amplitudes are the channel's weight state, and the sum adds the same six squares in
  the same order. So after unfolding both sides at the point the two expressions are the same term.
-/
import proofs.«180459_j52956946760354_2_alg».proof.Proof.KernPayLeaves
import proofs.«180459_j52956946760354_2_alg».proof.Proof.KernPayCanon
import proofs.«180459_j52956946760354_2_alg».proof.Proof.KernPaySpec

set_option maxHeartbeats 4000000

noncomputable section

namespace Cert.Quanv.Kern

open Cert.KernelIdeal Cert.KernelIdeal.Gen Cert.KernelIdeal.GenP Cert.Quanv Idealize.ShloMosaic Idealize.ShloMosaic.ValueIdx

/-- The store of channel 0 at (0, 0, h, w): its sum times the mask. -/
theorem store0_apply (v8 v566 v815 v818 : FVec Ideal S128x128 .f32) (h w : Fin 128) :
    k0_pay326 (F := Ideal) v8 v566 v815 v818 (ix4 0 0 h w)
      = (addf (addf v566 (mulf v815 v815)) (mulf v818 v818)) (ix2 h w) * v8 (ix2 h w) :=
  tileBlock_apply (mulf (addf (addf v566 (mulf v815 v815)) (mulf v818 v818)) v8) _ h w

/-- The result block at output channel 0. -/
theorem out_block_0 (x0 : Vec Ideal S3x8 .f32) (x1 : Vec Ideal S1x3x130x130 .f32) (h w : Fin 128) :
    out0_2 (F := Ideal) x0 x1 (ix4 0 0 h w)
      = if h.val < 125 ∧ w.val < 125 then
          accum (fun i => circ (patch (blkImg x1 i) h.val w.val) (fun d => x0 (ix2 i d))) 0
        else 0 := by
  unfold out0_2
  refine (canon4_0 _ _ _ _ h w).trans ((store0_apply _ _ _ _ h w).trans
    (masked_eq _ _ _ _ (mask_apply h w) (fun _ => ?_)))
  simp_payloads [mulf_apply, addf_apply, subf_apply, broadcast_apply,
    slice_at 0 0 (by omega) (by omega), slice_at 0 1 (by omega) (by omega), slice_at 0 2 (by omega) (by omega),
    slice_at 1 0 (by omega) (by omega), slice_at 1 1 (by omega) (by omega), slice_at 1 2 (by omega) (by omega),
    slice_at 2 0 (by omega) (by omega), slice_at 2 1 (by omega) (by omega), slice_at 2 2 (by omega) (by omega),
    shift_val, cos0, sin0, cos1, sin1, cos2, sin2,
    acc0_apply, acc1_apply, acc2_apply, acc3_apply,
    w0_0, w0_1, w0_2, w0_3, w0_4, w0_5, w0_6, w0_7,
    w1_0, w1_1, w1_2, w1_3, w1_4, w1_5, w1_6, w1_7,
    w2_0, w2_1, w2_2, w2_3, w2_4, w2_5, w2_6, w2_7,
    accum_0, accum_1, accum_2, accum_3, prob_apply, circ_apply, chain_eq,
    cx12_0, cx12_1, cx12_2, cx12_3, cx12_4, cx12_5, cx12_6, cx12_7,
    cx01_0, cx01_1, cx01_2, cx01_3, cx01_4, cx01_5, cx01_6, cx01_7,
    rot0_0, rot0_1, rot0_2, rot0_3, rot0_4, rot0_5, rot0_6, rot0_7,
    rot1_0, rot1_1, rot1_2, rot1_3, rot1_4, rot1_5, rot1_6, rot1_7,
    rot2_0, rot2_1, rot2_2, rot2_3, rot2_4, rot2_5, rot2_6, rot2_7,
    patch_0, patch_1, patch_2, patch_3, patch_4, patch_5, patch_6, patch_7, patch_8]

end Cert.Quanv.Kern

end
-- ==== Proof.KernPayOut1.lean ====
/-
  Output channel 1 of the body's result block at a point.

  The stored value is the channel's accumulated sum times the validity mask. Read at (h, w), every
  operation of the body is the corresponding operation of the specification's circuit on the same
  numbers: the nine rotations' cosine and sine are the half-angle tables at the nine patch positions,
  the starting amplitudes are the channel's weight state, and the sum adds the same six squares in
  the same order. So after unfolding both sides at the point the two expressions are the same term.
-/
import proofs.«180459_j52956946760354_2_alg».proof.Proof.KernPayLeaves
import proofs.«180459_j52956946760354_2_alg».proof.Proof.KernPayCanon
import proofs.«180459_j52956946760354_2_alg».proof.Proof.KernPaySpec

set_option maxHeartbeats 4000000

noncomputable section

namespace Cert.Quanv.Kern

open Cert.KernelIdeal Cert.KernelIdeal.Gen Cert.KernelIdeal.GenP Cert.Quanv Idealize.ShloMosaic Idealize.ShloMosaic.ValueIdx

/-- The store of channel 1 at (0, 0, h, w): its sum times the mask. -/
theorem store1_apply (v8 v568 v798 v810 v811 v812 : FVec Ideal S128x128 .f32) (h w : Fin 128) :
    k0_pay327 (F := Ideal) v8 v568 v798 v810 v811 v812 (ix4 0 0 h w)
      = (addf (addf v568 (mulf (subf (mulf v811 v798) (mulf v812 v810)) (subf (mulf v811 v798) (mulf v812 v810))))
          (mulf (addf (mulf v812 v798) (mulf v811 v810)) (addf (mulf v812 v798) (mulf v811 v810)))) (ix2 h w) * v8 (ix2 h w) :=
  tileBlock_apply (mulf (addf (addf v568 (mulf (subf (mulf v811 v798) (mulf v812 v810)) (subf (mulf v811 v798) (mulf v812 v810))))
          (mulf (addf (mulf v812 v798) (mulf v811 v810)) (addf (mulf v812 v798) (mulf v811 v810)))) v8) _ h w

/-- The result block at output channel 1. -/
theorem out_block_1 (x0 : Vec Ideal S3x8 .f32) (x1 : Vec Ideal S1x3x130x130 .f32) (h w : Fin 128) :
    out0_2 (F := Ideal) x0 x1 (ix4 0 1 h w)
      = if h.val < 125 ∧ w.val < 125 then
          accum (fun i => circ (patch (blkImg x1 i) h.val w.val) (fun d => x0 (ix2 i d))) 1
        else 0 := by
  unfold out0_2
  refine (canon4_1 _ _ _ _ h w).trans ((store1_apply _ _ _ _ _ _ h w).trans
    (masked_eq _ _ _ _ (mask_apply h w) (fun _ => ?_)))
  simp_payloads [mulf_apply, addf_apply, subf_apply, broadcast_apply,
    slice_at 0 0 (by omega) (by omega), slice_at 0 1 (by omega) (by omega), slice_at 0 2 (by omega) (by omega),
    slice_at 1 0 (by omega) (by omega), slice_at 1 1 (by omega) (by omega), slice_at 1 2 (by omega) (by omega),
    slice_at 2 0 (by omega) (by omega), slice_at 2 1 (by omega) (by omega), slice_at 2 2 (by omega) (by omega),
    shift_val, cos0, sin0, cos1, sin1, cos2, sin2,
    acc0_apply, acc1_apply, acc2_apply, acc3_apply,
    w0_0, w0_1, w0_2, w0_3, w0_4, w0_5, w0_6, w0_7,
    w1_0, w1_1, w1_2, w1_3, w1_4, w1_5, w1_6, w1_7,
    w2_0, w2_1, w2_2, w2_3, w2_4, w2_5, w2_6, w2_7,
    accum_0, accum_1, accum_2, accum_3, prob_apply, circ_apply, chain_eq,
    cx12_0, cx12_1, cx12_2, cx12_3, cx12_4, cx12_5, cx12_6, cx12_7,
    cx01_0, cx01_1, cx01_2, cx01_3, cx01_4, cx01_5, cx01_6, cx01_7,
    rot0_0, rot0_1, rot0_2, rot0_3, rot0_4, rot0_5, rot0_6, rot0_7,
    rot1_0, rot1_1, rot1_2, rot1_3, rot1_4, rot1_5, rot1_6, rot1_7,
    rot2_0, rot2_1, rot2_2, rot2_3, rot2_4, rot2_5, rot2_6, rot2_7,
    patch_0, patch_1, patch_2, patch_3, patch_4, patch_5, patch_6, patch_7, patch_8]

end Cert.Quanv.Kern

end
-- ==== Proof.KernPayOut2.lean ====
/-
  Output channel 2 of the body's result block at a point.

  The stored value is the channel's accumulated sum times the validity mask. Read at (h, w), every
  operation of the body is the corresponding operation of the specification's circuit on the same
  numbers: the nine rotations' cosine and sine are the half-angle tables at the nine patch positions,
  the starting amplitudes are the channel's weight state, and the sum adds the same six squares in
  the same order. So after unfolding both sides at the point the two expressions are the same term.
-/
import proofs.«180459_j52956946760354_2_alg».proof.Proof.KernPayLeaves
import proofs.«180459_j52956946760354_2_alg».proof.Proof.KernPayCanon
import proofs.«180459_j52956946760354_2_alg».proof.Proof.KernPaySpec

set_option maxHeartbeats 4000000

noncomputable section

namespace Cert.Quanv.Kern

open Cert.KernelIdeal Cert.KernelIdeal.Gen Cert.KernelIdeal.GenP Cert.Quanv Idealize.ShloMosaic Idealize.ShloMosaic.ValueIdx

/-- The store of channel 2 at (0, 0, h, w): its sum times the mask. -/
theorem store2_apply (v8 v570 v827 v828 v829 : FVec Ideal S128x128 .f32) (h w : Fin 128) :
    k0_pay1 (F := Ideal) (k0_pay328 v8 v570 v827 v828 v829) (ix4 0 0 h w)
      = (addf (addf v570 (mulf (addf v828 v829) (addf v828 v829))) (mulf v827 v827)) (ix2 h w) * v8 (ix2 h w) :=
  tileBlock_apply (mulf (addf (addf v570 (mulf (addf v828 v829) (addf v828 v829))) (mulf v827 v827)) v8) _ h w

/-- The result block at output channel 2. -/
theorem out_block_2 (x0 : Vec Ideal S3x8 .f32) (x1 : Vec Ideal S1x3x130x130 .f32) (h w : Fin 128) :
    out0_2 (F := Ideal) x0 x1 (ix4 0 2 h w)
      = if h.val < 125 ∧ w.val < 125 then
          accum (fun i => circ (patch (blkImg x1 i) h.val w.val) (fun d => x0 (ix2 i d))) 2
        else 0 := by
  unfold out0_2
  refine (canon4_2 _ _ _ _ h w).trans ((store2_apply _ _ _ _ _ h w).trans
    (masked_eq _ _ _ _ (mask_apply h w) (fun _ => ?_)))
  simp_payloads [mulf_apply, addf_apply, subf_apply, broadcast_apply,
    slice_at 0 0 (by omega) (by omega), slice_at 0 1 (by omega) (by omega), slice_at 0 2 (by omega) (by omega),
    slice_at 1 0 (by omega) (by omega), slice_at 1 1 (by omega) (by omega), slice_at 1 2 (by omega) (by omega),
    slice_at 2 0 (by omega) (by omega), slice_at 2 1 (by omega) (by omega), slice_at 2 2 (by omega) (by omega),
    shift_val, cos0, sin0, cos1, sin1, cos2, sin2,
    acc0_apply, acc1_apply, acc2_apply, acc3_apply,
    w0_0, w0_1, w0_2, w0_3, w0_4, w0_5, w0_6, w0_7,
    w1_0, w1_1, w1_2, w1_3, w1_4, w1_5, w1_6, w1_7,
    w2_0, w2_1, w2_2, w2_3, w2_4, w2_5, w2_6, w2_7,
    accum_0, accum_1, accum_2, accum_3, prob_apply, circ_apply, chain_eq,
    cx12_0, cx12_1, cx12_2, cx12_3, cx12_4, cx12_5, cx12_6, cx12_7,
    cx01_0, cx01_1, cx01_2, cx01_3, cx01_4, cx01_5, cx01_6, cx01_7,
    rot0_0, rot0_1, rot0_2, rot0_3, rot0_4, rot0_5, rot0_6, rot0_7,
    rot1_0, rot1_1, rot1_2, rot1_3, rot1_4, rot1_5, rot1_6, rot1_7,
    rot2_0, rot2_1, rot2_2, rot2_3, rot2_4, rot2_5, rot2_6, rot2_7,
    patch_0, patch_1, patch_2, patch_3, patch_4, patch_5, patch_6, patch_7, patch_8]

end Cert.Quanv.Kern

end
-- ==== Proof.KernPayOut3.lean ====
/-
  Output channel 3 of the body's result block at a point.

  The stored value is the channel's accumulated sum times the validity mask. Read at (h, w), every
  operation of the body is the corresponding operation of the specification's circuit on the same
  numbers: the nine rotations' cosine and sine are the half-angle tables at the nine patch positions,
  the starting amplitudes are the channel's weight state, and the sum adds the same six squares in
  the same order. So after unfolding both sides at the point the two expressions are the same term.
-/
import proofs.«180459_j52956946760354_2_alg».proof.Proof.KernPayLeaves
import proofs.«180459_j52956946760354_2_alg».proof.Proof.KernPayCanon
import proofs.«180459_j52956946760354_2_alg».proof.Proof.KernPaySpec

set_option maxHeartbeats 4000000

noncomputable section

namespace Cert.Quanv.Kern

open Cert.KernelIdeal Cert.KernelIdeal.Gen Cert.KernelIdeal.GenP Cert.Quanv Idealize.ShloMosaic Idealize.ShloMosaic.ValueIdx

/-- The store of channel 3 at (0, 0, h, w): its sum times the mask. -/
theorem store3_apply (v8 v852 : FVec Ideal S128x128 .f32) (h w : Fin 128) :
    k0_pay2 (F := Ideal) v8 v852 (ix4 0 0 h w) = v852 (ix2 h w) * v8 (ix2 h w) :=
  tileBlock_apply (mulf v852 v8) _ h w

/-- The result block at output channel 3. -/
theorem out_block_3 (x0 : Vec Ideal S3x8 .f32) (x1 : Vec Ideal S1x3x130x130 .f32) (h w : Fin 128) :
    out0_2 (F := Ideal) x0 x1 (ix4 0 3 h w)
      = if h.val < 125 ∧ w.val < 125 then
          accum (fun i => circ (patch (blkImg x1 i) h.val w.val) (fun d => x0 (ix2 i d))) 3
        else 0 := by
  unfold out0_2
  refine (canon4_3 _ _ _ _ h w).trans ((store3_apply _ _ h w).trans
    (masked_eq _ _ _ _ (mask_apply h w) (fun _ => ?_)))
  simp_payloads [mulf_apply, addf_apply, subf_apply, broadcast_apply,
    slice_at 0 0 (by omega) (by omega), slice_at 0 1 (by omega) (by omega), slice_at 0 2 (by omega) (by omega),
    slice_at 1 0 (by omega) (by omega), slice_at 1 1 (by omega) (by omega), slice_at 1 2 (by omega) (by omega),
    slice_at 2 0 (by omega) (by omega), slice_at 2 1 (by omega) (by omega), slice_at 2 2 (by omega) (by omega),
    shift_val, cos0, sin0, cos1, sin1, cos2, sin2,
    acc0_apply, acc1_apply, acc2_apply, acc3_apply,
    w0_0, w0_1, w0_2, w0_3, w0_4, w0_5, w0_6, w0_7,
    w1_0, w1_1, w1_2, w1_3, w1_4, w1_5, w1_6, w1_7,
    w2_0, w2_1, w2_2, w2_3, w2_4, w2_5, w2_6, w2_7,
    accum_0, accum_1, accum_2, accum_3, prob_apply, circ_apply, chain_eq,
    cx12_0, cx12_1, cx12_2, cx12_3, cx12_4, cx12_5, cx12_6, cx12_7,
    cx01_0, cx01_1, cx01_2, cx01_3, cx01_4, cx01_5, cx01_6, cx01_7,
    rot0_0, rot0_1, rot0_2, rot0_3, rot0_4, rot0_5, rot0_6, rot0_7,
    rot1_0, rot1_1, rot1_2, rot1_3, rot1_4, rot1_5, rot1_6, rot1_7,
    rot2_0, rot2_1, rot2_2, rot2_3, rot2_4, rot2_5, rot2_6, rot2_7,
    patch_0, patch_1, patch_2, patch_3, patch_4, patch_5, patch_6, patch_7, patch_8]

end Cert.Quanv.Kern

end
-- ==== Proof.KernPay.lean ====
/-
  The kernel body's result block read at an index.

  At (0, j, h, w) the block holds, inside the 125×125 window, the sum over the three input channels of
  the squared amplitudes j and j + 4 of the circuit run on the 3×3 patch of the image block at (h, w)
  from that channel's weight state, and zero outside the window. The four output channels are the four
  stores of the body, each read in its own module; this module joins them.
-/
import proofs.«180459_j52956946760354_2_alg».proof.Proof.KernPayOut0
import proofs.«180459_j52956946760354_2_alg».proof.Proof.KernPayOut1
import proofs.«180459_j52956946760354_2_alg».proof.Proof.KernPayOut2
import proofs.«180459_j52956946760354_2_alg».proof.Proof.KernPayOut3

noncomputable section

namespace Cert.Quanv.Kern

open Cert.KernelIdeal Cert.KernelIdeal.Gen Cert.KernelIdeal.GenP Cert.Quanv Idealize.ShloMosaic Idealize.ShloMosaic.ValueIdx

/-- The body's result block at output channel j and position (h, w). -/
theorem out_block (x0 : Vec Ideal S3x8 .f32) (x1 : Vec Ideal S1x3x130x130 .f32) (j : Fin 4) (h w : Fin 128) :
    out0_2 (F := Ideal) x0 x1 (ix4 0 j h w)
      = if h.val < 125 ∧ w.val < 125 then
          accum (fun i => circ (patch (blkImg x1 i) h.val w.val) (fun d => x0 (ix2 i d))) j
        else 0 := by
  match j with
  | ⟨0, _⟩ => exact out_block_0 x0 x1 h w
  | ⟨1, _⟩ => exact out_block_1 x0 x1 h w
  | ⟨2, _⟩ => exact out_block_2 x0 x1 h w
  | ⟨3, _⟩ => exact out_block_3 x0 x1 h w

end Cert.Quanv.Kern

end
-- ==== Proof.KernHostOps.lean ====
/-
  The host program before the kernel call, cut into stretches: the starting state, the nine weight
  rotations, the two controlled-NOTs. Each stretch is the program's own operations, in order; their
  concatenation is the program's list. Running a concatenation is running its parts in turn.
-/
import proofs.«180459_j52956946760354_2_alg».proof.Proof.FrameKernelIdealP
import Idealize.ShloMosaic.Lib.StableHlo.Run
import Idealize.ShloMosaic.Lib.ValueIdx
import Idealize.ShloMosaic.Lib.Pipeline.Value
import proofs.«180459_j52956946760354_2_alg».proof.Proof.Spec

noncomputable section

namespace Cert.Quanv.KHost

open Cert.KernelIdeal Cert.KernelIdeal.Gen Cert.KernelIdeal.GenP Cert.Quanv
open Idealize.ShloMosaic Idealize.ShloMosaic.ValueIdx Idealize.ShloMosaic.TcCoe

variable {F : FTy → Type} [FloatOps F]

/-- The uniform starting state: the amplitude literal, broadcast to three rows of eight. -/
abbrev opsInit : List (HloOp τ sig (Elt F)) :=
  [ StableHlo.nullary main_cst (constant S_ .f32 0x3EB504F3#32),
    StableHlo.unary main_cst main_v1 (broadcastInDim S3x8 ![] bcast_S_S3x8 : (⟨S_, .f32⟩ : BufTy).Contents (Elt F) → (⟨S3x8, .f32⟩ : BufTy).Contents (Elt F)) ]

/-- Rotation 0: column 0 of the weights, halved, its cosine and sine; the state re-laid with qubit 0's bit as an axis of its own, the two halves mixed and re-stacked. -/
abbrev opsRot0 : List (HloOp τ sig (Elt F)) :=
  [ StableHlo.unary main_arg1 main_v2 ((extractStridedSlice S3x1 ![0, 0] · slices_S3x9_S3x1_0_0) : (⟨S3x9, .f32⟩ : BufTy).Contents (Elt F) → (⟨S3x1, .f32⟩ : BufTy).Contents (Elt F)),
    StableHlo.reshape main_v2 main_v3 rfl shapeCasts_S3x1_S3,
    StableHlo.reshape main_v1 main_v4 rfl shapeCasts_S3x8_S3x4x2x1,
    StableHlo.nullary main_cst_0 (constant S_ .f32 0x3F000000#32),
    StableHlo.unary main_cst_0 main_v5 (broadcastInDim S3 ![] bcast_S_S3 : (⟨S_, .f32⟩ : BufTy).Contents (Elt F) → (⟨S3, .f32⟩ : BufTy).Contents (Elt F)),
    StableHlo.binary main_v3 main_v5 main_v6 (mulf : (⟨S3, .f32⟩ : BufTy).Contents (Elt F) → (⟨S3, .f32⟩ : BufTy).Contents (Elt F) → (⟨S3, .f32⟩ : BufTy).Contents (Elt F)),
    StableHlo.unary main_v6 main_v7 (Host.cos : (⟨S3, .f32⟩ : BufTy).Contents (Elt F) → (⟨S3, .f32⟩ : BufTy).Contents (Elt F)),
    StableHlo.unary main_v7 main_v8 (broadcastInDim S3x1x1 ![0] bcast_S3_S3x1x1_0 : (⟨S3, .f32⟩ : BufTy).Contents (Elt F) → (⟨S3x1x1, .f32⟩ : BufTy).Contents (Elt F)),
    StableHlo.unary main_v6 main_v9 (Host.sin : (⟨S3, .f32⟩ : BufTy).Contents (Elt F) → (⟨S3, .f32⟩ : BufTy).Contents (Elt F)),
    StableHlo.unary main_v9 main_v10 (broadcastInDim S3x1x1 ![0] bcast_S3_S3x1x1_0 : (⟨S3, .f32⟩ : BufTy).Contents (Elt F) → (⟨S3x1x1, .f32⟩ : BufTy).Contents (Elt F)),
    StableHlo.unary main_v4 main_v11 ((extractStridedSlice S3x4x1x1 ![0, 0, 0, 0] · slices_S3x4x2x1_S3x4x1x1_0_0_0_0) : (⟨S3x4x2x1, .f32⟩ : BufTy).Contents (Elt F) → (⟨S3x4x1x1, .f32⟩ : BufTy).Contents (Elt F)),
    StableHlo.reshape main_v11 main_v12 rfl shapeCasts_S3x4x1x1_S3x4x1,
    StableHlo.unary main_v4 main_v13 ((extractStridedSlice S3x4x1x1 ![0, 0, 1, 0] · slices_S3x4x2x1_S3x4x1x1_0_0_1_0) : (⟨S3x4x2x1, .f32⟩ : BufTy).Contents (Elt F) → (⟨S3x4x1x1, .f32⟩ : BufTy).Contents (Elt F)),
    StableHlo.reshape main_v13 main_v14 rfl shapeCasts_S3x4x1x1_S3x4x1,
    StableHlo.unary main_v8 main_v15 (broadcastInDim S3x4x1 ![0, 1, 2] bcast_S3x1x1_S3x4x1_0_1_2 : (⟨S3x1x1, .f32⟩ : BufTy).Contents (Elt F) → (⟨S3x4x1, .f32⟩ : BufTy).Contents (Elt F)),
    StableHlo.binary main_v15 main_v12 main_v16 (mulf : (⟨S3x4x1, .f32⟩ : BufTy).Contents (Elt F) → (⟨S3x4x1, .f32⟩ : BufTy).Contents (Elt F) → (⟨S3x4x1, .f32⟩ : BufTy).Contents (Elt F)),
    StableHlo.unary main_v10 main_v17 (broadcastInDim S3x4x1 ![0, 1, 2] bcast_S3x1x1_S3x4x1_0_1_2 : (⟨S3x1x1, .f32⟩ : BufTy).Contents (Elt F) → (⟨S3x4x1, .f32⟩ : BufTy).Contents (Elt F)),
    StableHlo.binary main_v17 main_v14 main_v18 (mulf : (⟨S3x4x1, .f32⟩ : BufTy).Contents (Elt F) → (⟨S3x4x1, .f32⟩ : BufTy).Contents (Elt F) → (⟨S3x4x1, .f32⟩ : BufTy).Contents (Elt F)),
    StableHlo.binary main_v16 main_v18 main_v19 (subf : (⟨S3x4x1, .f32⟩ : BufTy).Contents (Elt F) → (⟨S3x4x1, .f32⟩ : BufTy).Contents (Elt F) → (⟨S3x4x1, .f32⟩ : BufTy).Contents (Elt F)),
    StableHlo.unary main_v10 main_v20 (broadcastInDim S3x4x1 ![0, 1, 2] bcast_S3x1x1_S3x4x1_0_1_2 : (⟨S3x1x1, .f32⟩ : BufTy).Contents (Elt F) → (⟨S3x4x1, .f32⟩ : BufTy).Contents (Elt F)),
    StableHlo.binary main_v20 main_v12 main_v21 (mulf : (⟨S3x4x1, .f32⟩ : BufTy).Contents (Elt F) → (⟨S3x4x1, .f32⟩ : BufTy).Contents (Elt F) → (⟨S3x4x1, .f32⟩ : BufTy).Contents (Elt F)),
    StableHlo.unary main_v8 main_v22 (broadcastInDim S3x4x1 ![0, 1, 2] bcast_S3x1x1_S3x4x1_0_1_2 : (⟨S3x1x1, .f32⟩ : BufTy).Contents (Elt F) → (⟨S3x4x1, .f32⟩ : BufTy).Contents (Elt F)),
    StableHlo.binary main_v22 main_v14 main_v23 (mulf : (⟨S3x4x1, .f32⟩ : BufTy).Contents (Elt F) → (⟨S3x4x1, .f32⟩ : BufTy).Contents (Elt F) → (⟨S3x4x1, .f32⟩ : BufTy).Contents (Elt F)),
    StableHlo.binary main_v21 main_v23 main_v24 (addf : (⟨S3x4x1, .f32⟩ : BufTy).Contents (Elt F) → (⟨S3x4x1, .f32⟩ : BufTy).Contents (Elt F) → (⟨S3x4x1, .f32⟩ : BufTy).Contents (Elt F)),
    StableHlo.unary main_v19 main_v25 (broadcastInDim S3x4x1x1 ![0, 1, 3] bcast_S3x4x1_S3x4x1x1_0_1_3 : (⟨S3x4x1, .f32⟩ : BufTy).Contents (Elt F) → (⟨S3x4x1x1, .f32⟩ : BufTy).Contents (Elt F)),
    StableHlo.unary main_v24 main_v26 (broadcastInDim S3x4x1x1 ![0, 1, 3] bcast_S3x4x1_S3x4x1x1_0_1_3 : (⟨S3x4x1, .f32⟩ : BufTy).Contents (Elt F) → (⟨S3x4x1x1, .f32⟩ : BufTy).Contents (Elt F)),
    StableHlo.binary main_v25 main_v26 main_v27 ((fun a b => concatenate S3x4x2x1 2 [⟨S3x4x1x1, a⟩, ⟨S3x4x1x1, b⟩] concatenates_S3x4x1x1_S3x4x1x1_S3x4x2x1_d2) : (⟨S3x4x1x1, .f32⟩ : BufTy).Contents (Elt F) → (⟨S3x4x1x1, .f32⟩ : BufTy).Contents (Elt F) → (⟨S3x4x2x1, .f32⟩ : BufTy).Contents (Elt F)),
    StableHlo.reshape main_v27 main_v28 rfl shapeCasts_S3x4x2x1_S3x8 ]

/-- Rotation 1: column 1 of the weights, halved, its cosine and sine; the state re-laid with qubit 1's bit as an axis of its own, the two halves mixed and re-stacked. -/
abbrev opsRot1 : List (HloOp τ sig (Elt F)) :=
  [ StableHlo.unary main_arg1 main_v29 ((extractStridedSlice S3x1 ![0, 1] · slices_S3x9_S3x1_0_1) : (⟨S3x9, .f32⟩ : BufTy).Contents (Elt F) → (⟨S3x1, .f32⟩ : BufTy).Contents (Elt F)),
    StableHlo.reshape main_v29 main_v30 rfl shapeCasts_S3x1_S3,
    StableHlo.reshape main_v28 main_v31 rfl shapeCasts_S3x8_S3x2x2x2,
    StableHlo.nullary main_cst_1 (constant S_ .f32 0x3F000000#32),
    StableHlo.unary main_cst_1 main_v32 (broadcastInDim S3 ![] bcast_S_S3 : (⟨S_, .f32⟩ : BufTy).Contents (Elt F) → (⟨S3, .f32⟩ : BufTy).Contents (Elt F)),
    StableHlo.binary main_v30 main_v32 main_v33 (mulf : (⟨S3, .f32⟩ : BufTy).Contents (Elt F) → (⟨S3, .f32⟩ : BufTy).Contents (Elt F) → (⟨S3, .f32⟩ : BufTy).Contents (Elt F)),
    StableHlo.unary main_v33 main_v34 (Host.cos : (⟨S3, .f32⟩ : BufTy).Contents (Elt F) → (⟨S3, .f32⟩ : BufTy).Contents (Elt F)),
    StableHlo.unary main_v34 main_v35 (broadcastInDim S3x1x1 ![0] bcast_S3_S3x1x1_0 : (⟨S3, .f32⟩ : BufTy).Contents (Elt F) → (⟨S3x1x1, .f32⟩ : BufTy).Contents (Elt F)),
    StableHlo.unary main_v33 main_v36 (Host.sin : (⟨S3, .f32⟩ : BufTy).Contents (Elt F) → (⟨S3, .f32⟩ : BufTy).Contents (Elt F)),
    StableHlo.unary main_v36 main_v37 (broadcastInDim S3x1x1 ![0] bcast_S3_S3x1x1_0 : (⟨S3, .f32⟩ : BufTy).Contents (Elt F) → (⟨S3x1x1, .f32⟩ : BufTy).Contents (Elt F)),
    StableHlo.unary main_v31 main_v38 ((extractStridedSlice S3x2x1x2 ![0, 0, 0, 0] · slices_S3x2x2x2_S3x2x1x2_0_0_0_0) : (⟨S3x2x2x2, .f32⟩ : BufTy).Contents (Elt F) → (⟨S3x2x1x2, .f32⟩ : BufTy).Contents (Elt F)),
    StableHlo.reshape main_v38 main_v39 rfl shapeCasts_S3x2x1x2_S3x2x2,
    StableHlo.unary main_v31 main_v40 ((extractStridedSlice S3x2x1x2 ![0, 0, 1, 0] · slices_S3x2x2x2_S3x2x1x2_0_0_1_0) : (⟨S3x2x2x2, .f32⟩ : BufTy).Contents (Elt F) → (⟨S3x2x1x2, .f32⟩ : BufTy).Contents (Elt F)),
    StableHlo.reshape main_v40 main_v41 rfl shapeCasts_S3x2x1x2_S3x2x2,
    StableHlo.unary main_v35 main_v42 (broadcastInDim S3x2x2 ![0, 1, 2] bcast_S3x1x1_S3x2x2_0_1_2 : (⟨S3x1x1, .f32⟩ : BufTy).Contents (Elt F) → (⟨S3x2x2, .f32⟩ : BufTy).Contents (Elt F)),
    StableHlo.binary main_v42 main_v39 main_v43 (mulf : (⟨S3x2x2, .f32⟩ : BufTy).Contents (Elt F) → (⟨S3x2x2, .f32⟩ : BufTy).Contents (Elt F) → (⟨S3x2x2, .f32⟩ : BufTy).Contents (Elt F)),
    StableHlo.unary main_v37 main_v44 (broadcastInDim S3x2x2 ![0, 1, 2] bcast_S3x1x1_S3x2x2_0_1_2 : (⟨S3x1x1, .f32⟩ : BufTy).Contents (Elt F) → (⟨S3x2x2, .f32⟩ : BufTy).Contents (Elt F)),
    StableHlo.binary main_v44 main_v41 main_v45 (mulf : (⟨S3x2x2, .f32⟩ : BufTy).Contents (Elt F) → (⟨S3x2x2, .f32⟩ : BufTy).Contents (Elt F) → (⟨S3x2x2, .f32⟩ : BufTy).Contents (Elt F)),
    StableHlo.binary main_v43 main_v45 main_v46 (subf : (⟨S3x2x2, .f32⟩ : BufTy).Contents (Elt F) → (⟨S3x2x2, .f32⟩ : BufTy).Contents (Elt F) → (⟨S3x2x2, .f32⟩ : BufTy).Contents (Elt F)),
    StableHlo.unary main_v37 main_v47 (broadcastInDim S3x2x2 ![0, 1, 2] bcast_S3x1x1_S3x2x2_0_1_2 : (⟨S3x1x1, .f32⟩ : BufTy).Contents (Elt F) → (⟨S3x2x2, .f32⟩ : BufTy).Contents (Elt F)),
    StableHlo.binary main_v47 main_v39 main_v48 (mulf : (⟨S3x2x2, .f32⟩ : BufTy).Contents (Elt F) → (⟨S3x2x2, .f32⟩ : BufTy).Contents (Elt F) → (⟨S3x2x2, .f32⟩ : BufTy).Contents (Elt F)),
    StableHlo.unary main_v35 main_v49 (broadcastInDim S3x2x2 ![0, 1, 2] bcast_S3x1x1_S3x2x2_0_1_2 : (⟨S3x1x1, .f32⟩ : BufTy).Contents (Elt F) → (⟨S3x2x2, .f32⟩ : BufTy).Contents (Elt F)),
    StableHlo.binary main_v49 main_v41 main_v50 (mulf : (⟨S3x2x2, .f32⟩ : BufTy).Contents (Elt F) → (⟨S3x2x2, .f32⟩ : BufTy).Contents (Elt F) → (⟨S3x2x2, .f32⟩ : BufTy).Contents (Elt F)),
    StableHlo.binary main_v48 main_v50 main_v51 (addf : (⟨S3x2x2, .f32⟩ : BufTy).Contents (Elt F) → (⟨S3x2x2, .f32⟩ : BufTy).Contents (Elt F) → (⟨S3x2x2, .f32⟩ : BufTy).Contents (Elt F)),
    StableHlo.unary main_v46 main_v52 (broadcastInDim S3x2x1x2 ![0, 1, 3] bcast_S3x2x2_S3x2x1x2_0_1_3 : (⟨S3x2x2, .f32⟩ : BufTy).Contents (Elt F) → (⟨S3x2x1x2, .f32⟩ : BufTy).Contents (Elt F)),
    StableHlo.unary main_v51 main_v53 (broadcastInDim S3x2x1x2 ![0, 1, 3] bcast_S3x2x2_S3x2x1x2_0_1_3 : (⟨S3x2x2, .f32⟩ : BufTy).Contents (Elt F) → (⟨S3x2x1x2, .f32⟩ : BufTy).Contents (Elt F)),
    StableHlo.binary main_v52 main_v53 main_v54 ((fun a b => concatenate S3x2x2x2 2 [⟨S3x2x1x2, a⟩, ⟨S3x2x1x2, b⟩] concatenates_S3x2x1x2_S3x2x1x2_S3x2x2x2_d2) : (⟨S3x2x1x2, .f32⟩ : BufTy).Contents (Elt F) → (⟨S3x2x1x2, .f32⟩ : BufTy).Contents (Elt F) → (⟨S3x2x2x2, .f32⟩ : BufTy).Contents (Elt F)),
    StableHlo.reshape main_v54 main_v55 rfl shapeCasts_S3x2x2x2_S3x8 ]

/-- Rotation 2: column 2 of the weights, halved, its cosine and sine; the state re-laid with qubit 2's bit as an axis of its own, the two halves mixed and re-stacked. -/
abbrev opsRot2 : List (HloOp τ sig (Elt F)) :=
  [ StableHlo.unary main_arg1 main_v56 ((extractStridedSlice S3x1 ![0, 2] · slices_S3x9_S3x1_0_2) : (⟨S3x9, .f32⟩ : BufTy).Contents (Elt F) → (⟨S3x1, .f32⟩ : BufTy).Contents (Elt F)),
    StableHlo.reshape main_v56 main_v57 rfl shapeCasts_S3x1_S3,
    StableHlo.reshape main_v55 main_v58 rfl shapeCasts_S3x8_S3x1x2x4,
    StableHlo.nullary main_cst_2 (constant S_ .f32 0x3F000000#32),
    StableHlo.unary main_cst_2 main_v59 (broadcastInDim S3 ![] bcast_S_S3 : (⟨S_, .f32⟩ : BufTy).Contents (Elt F) → (⟨S3, .f32⟩ : BufTy).Contents (Elt F)),
    StableHlo.binary main_v57 main_v59 main_v60 (mulf : (⟨S3, .f32⟩ : BufTy).Contents (Elt F) → (⟨S3, .f32⟩ : BufTy).Contents (Elt F) → (⟨S3, .f32⟩ : BufTy).Contents (Elt F)),
    StableHlo.unary main_v60 main_v61 (Host.cos : (⟨S3, .f32⟩ : BufTy).Contents (Elt F) → (⟨S3, .f32⟩ : BufTy).Contents (Elt F)),
    StableHlo.unary main_v61 main_v62 (broadcastInDim S3x1x1 ![0] bcast_S3_S3x1x1_0 : (⟨S3, .f32⟩ : BufTy).Contents (Elt F) → (⟨S3x1x1, .f32⟩ : BufTy).Contents (Elt F)),
    StableHlo.unary main_v60 main_v63 (Host.sin : (⟨S3, .f32⟩ : BufTy).Contents (Elt F) → (⟨S3, .f32⟩ : BufTy).Contents (Elt F)),
    StableHlo.unary main_v63 main_v64 (broadcastInDim S3x1x1 ![0] bcast_S3_S3x1x1_0 : (⟨S3, .f32⟩ : BufTy).Contents (Elt F) → (⟨S3x1x1, .f32⟩ : BufTy).Contents (Elt F)),
    StableHlo.unary main_v58 main_v65 ((extractStridedSlice S3x1x1x4 ![0, 0, 0, 0] · slices_S3x1x2x4_S3x1x1x4_0_0_0_0) : (⟨S3x1x2x4, .f32⟩ : BufTy).Contents (Elt F) → (⟨S3x1x1x4, .f32⟩ : BufTy).Contents (Elt F)),
    StableHlo.reshape main_v65 main_v66 rfl shapeCasts_S3x1x1x4_S3x1x4,
    StableHlo.unary main_v58 main_v67 ((extractStridedSlice S3x1x1x4 ![0, 0, 1, 0] · slices_S3x1x2x4_S3x1x1x4_0_0_1_0) : (⟨S3x1x2x4, .f32⟩ : BufTy).Contents (Elt F) → (⟨S3x1x1x4, .f32⟩ : BufTy).Contents (Elt F)),
    StableHlo.reshape main_v67 main_v68 rfl shapeCasts_S3x1x1x4_S3x1x4,
    StableHlo.unary main_v62 main_v69 (broadcastInDim S3x1x4 ![0, 1, 2] bcast_S3x1x1_S3x1x4_0_1_2 : (⟨S3x1x1, .f32⟩ : BufTy).Contents (Elt F) → (⟨S3x1x4, .f32⟩ : BufTy).Contents (Elt F)),
    StableHlo.binary main_v69 main_v66 main_v70 (mulf : (⟨S3x1x4, .f32⟩ : BufTy).Contents (Elt F) → (⟨S3x1x4, .f32⟩ : BufTy).Contents (Elt F) → (⟨S3x1x4, .f32⟩ : BufTy).Contents (Elt F)),
    StableHlo.unary main_v64 main_v71 (broadcastInDim S3x1x4 ![0, 1, 2] bcast_S3x1x1_S3x1x4_0_1_2 : (⟨S3x1x1, .f32⟩ : BufTy).Contents (Elt F) → (⟨S3x1x4, .f32⟩ : BufTy).Contents (Elt F)),
    StableHlo.binary main_v71 main_v68 main_v72 (mulf : (⟨S3x1x4, .f32⟩ : BufTy).Contents (Elt F) → (⟨S3x1x4, .f32⟩ : BufTy).Contents (Elt F) → (⟨S3x1x4, .f32⟩ : BufTy).Contents (Elt F)),
    StableHlo.binary main_v70 main_v72 main_v73 (subf : (⟨S3x1x4, .f32⟩ : BufTy).Contents (Elt F) → (⟨S3x1x4, .f32⟩ : BufTy).Contents (Elt F) → (⟨S3x1x4, .f32⟩ : BufTy).Contents (Elt F)),
    StableHlo.unary main_v64 main_v74 (broadcastInDim S3x1x4 ![0, 1, 2] bcast_S3x1x1_S3x1x4_0_1_2 : (⟨S3x1x1, .f32⟩ : BufTy).Contents (Elt F) → (⟨S3x1x4, .f32⟩ : BufTy).Contents (Elt F)),
    StableHlo.binary main_v74 main_v66 main_v75 (mulf : (⟨S3x1x4, .f32⟩ : BufTy).Contents (Elt F) → (⟨S3x1x4, .f32⟩ : BufTy).Contents (Elt F) → (⟨S3x1x4, .f32⟩ : BufTy).Contents (Elt F)),
    StableHlo.unary main_v62 main_v76 (broadcastInDim S3x1x4 ![0, 1, 2] bcast_S3x1x1_S3x1x4_0_1_2 : (⟨S3x1x1, .f32⟩ : BufTy).Contents (Elt F) → (⟨S3x1x4, .f32⟩ : BufTy).Contents (Elt F)),
    StableHlo.binary main_v76 main_v68 main_v77 (mulf : (⟨S3x1x4, .f32⟩ : BufTy).Contents (Elt F) → (⟨S3x1x4, .f32⟩ : BufTy).Contents (Elt F) → (⟨S3x1x4, .f32⟩ : BufTy).Contents (Elt F)),
    StableHlo.binary main_v75 main_v77 main_v78 (addf : (⟨S3x1x4, .f32⟩ : BufTy).Contents (Elt F) → (⟨S3x1x4, .f32⟩ : BufTy).Contents (Elt F) → (⟨S3x1x4, .f32⟩ : BufTy).Contents (Elt F)),
    StableHlo.unary main_v73 main_v79 (broadcastInDim S3x1x1x4 ![0, 1, 3] bcast_S3x1x4_S3x1x1x4_0_1_3 : (⟨S3x1x4, .f32⟩ : BufTy).Contents (Elt F) → (⟨S3x1x1x4, .f32⟩ : BufTy).Contents (Elt F)),
    StableHlo.unary main_v78 main_v80 (broadcastInDim S3x1x1x4 ![0, 1, 3] bcast_S3x1x4_S3x1x1x4_0_1_3 : (⟨S3x1x4, .f32⟩ : BufTy).Contents (Elt F) → (⟨S3x1x1x4, .f32⟩ : BufTy).Contents (Elt F)),
    StableHlo.binary main_v79 main_v80 main_v81 ((fun a b => concatenate S3x1x2x4 2 [⟨S3x1x1x4, a⟩, ⟨S3x1x1x4, b⟩] concatenates_S3x1x1x4_S3x1x1x4_S3x1x2x4_d2) : (⟨S3x1x1x4, .f32⟩ : BufTy).Contents (Elt F) → (⟨S3x1x1x4, .f32⟩ : BufTy).Contents (Elt F) → (⟨S3x1x2x4, .f32⟩ : BufTy).Contents (Elt F)),
    StableHlo.reshape main_v81 main_v82 rfl shapeCasts_S3x1x2x4_S3x8 ]

/-- Rotation 3: column 3 of the weights, halved, its cosine and sine; the state re-laid with qubit 0's bit as an axis of its own, the two halves mixed and re-stacked. -/
abbrev opsRot3 : List (HloOp τ sig (Elt F)) :=
  [ StableHlo.unary main_arg1 main_v83 ((extractStridedSlice S3x1 ![0, 3] · slices_S3x9_S3x1_0_3) : (⟨S3x9, .f32⟩ : BufTy).Contents (Elt F) → (⟨S3x1, .f32⟩ : BufTy).Contents (Elt F)),
    StableHlo.reshape main_v83 main_v84 rfl shapeCasts_S3x1_S3,
    StableHlo.reshape main_v82 main_v85 rfl shapeCasts_S3x8_S3x4x2x1,
    StableHlo.nullary main_cst_3 (constant S_ .f32 0x3F000000#32),
    StableHlo.unary main_cst_3 main_v86 (broadcastInDim S3 ![] bcast_S_S3 : (⟨S_, .f32⟩ : BufTy).Contents (Elt F) → (⟨S3, .f32⟩ : BufTy).Contents (Elt F)),
    StableHlo.binary main_v84 main_v86 main_v87 (mulf : (⟨S3, .f32⟩ : BufTy).Contents (Elt F) → (⟨S3, .f32⟩ : BufTy).Contents (Elt F) → (⟨S3, .f32⟩ : BufTy).Contents (Elt F)),
    StableHlo.unary main_v87 main_v88 (Host.cos : (⟨S3, .f32⟩ : BufTy).Contents (Elt F) → (⟨S3, .f32⟩ : BufTy).Contents (Elt F)),
    StableHlo.unary main_v88 main_v89 (broadcastInDim S3x1x1 ![0] bcast_S3_S3x1x1_0 : (⟨S3, .f32⟩ : BufTy).Contents (Elt F) → (⟨S3x1x1, .f32⟩ : BufTy).Contents (Elt F)),
    StableHlo.unary main_v87 main_v90 (Host.sin : (⟨S3, .f32⟩ : BufTy).Contents (Elt F) → (⟨S3, .f32⟩ : BufTy).Contents (Elt F)),
    StableHlo.unary main_v90 main_v91 (broadcastInDim S3x1x1 ![0] bcast_S3_S3x1x1_0 : (⟨S3, .f32⟩ : BufTy).Contents (Elt F) → (⟨S3x1x1, .f32⟩ : BufTy).Contents (Elt F)),
    StableHlo.unary main_v85 main_v92 ((extractStridedSlice S3x4x1x1 ![0, 0, 0, 0] · slices_S3x4x2x1_S3x4x1x1_0_0_0_0) : (⟨S3x4x2x1, .f32⟩ : BufTy).Contents (Elt F) → (⟨S3x4x1x1, .f32⟩ : BufTy).Contents (Elt F)),
    StableHlo.reshape main_v92 main_v93 rfl shapeCasts_S3x4x1x1_S3x4x1,
    StableHlo.unary main_v85 main_v94 ((extractStridedSlice S3x4x1x1 ![0, 0, 1, 0] · slices_S3x4x2x1_S3x4x1x1_0_0_1_0) : (⟨S3x4x2x1, .f32⟩ : BufTy).Contents (Elt F) → (⟨S3x4x1x1, .f32⟩ : BufTy).Contents (Elt F)),
    StableHlo.reshape main_v94 main_v95 rfl shapeCasts_S3x4x1x1_S3x4x1,
    StableHlo.unary main_v89 main_v96 (broadcastInDim S3x4x1 ![0, 1, 2] bcast_S3x1x1_S3x4x1_0_1_2 : (⟨S3x1x1, .f32⟩ : BufTy).Contents (Elt F) → (⟨S3x4x1, .f32⟩ : BufTy).Contents (Elt F)),
    StableHlo.binary main_v96 main_v93 main_v97 (mulf : (⟨S3x4x1, .f32⟩ : BufTy).Contents (Elt F) → (⟨S3x4x1, .f32⟩ : BufTy).Contents (Elt F) → (⟨S3x4x1, .f32⟩ : BufTy).Contents (Elt F)),
    StableHlo.unary main_v91 main_v98 (broadcastInDim S3x4x1 ![0, 1, 2] bcast_S3x1x1_S3x4x1_0_1_2 : (⟨S3x1x1, .f32⟩ : BufTy).Contents (Elt F) → (⟨S3x4x1, .f32⟩ : BufTy).Contents (Elt F)),
    StableHlo.binary main_v98 main_v95 main_v99 (mulf : (⟨S3x4x1, .f32⟩ : BufTy).Contents (Elt F) → (⟨S3x4x1, .f32⟩ : BufTy).Contents (Elt F) → (⟨S3x4x1, .f32⟩ : BufTy).Contents (Elt F)),
    StableHlo.binary main_v97 main_v99 main_v100 (subf : (⟨S3x4x1, .f32⟩ : BufTy).Contents (Elt F) → (⟨S3x4x1, .f32⟩ : BufTy).Contents (Elt F) → (⟨S3x4x1, .f32⟩ : BufTy).Contents (Elt F)),
    StableHlo.unary main_v91 main_v101 (broadcastInDim S3x4x1 ![0, 1, 2] bcast_S3x1x1_S3x4x1_0_1_2 : (⟨S3x1x1, .f32⟩ : BufTy).Contents (Elt F) → (⟨S3x4x1, .f32⟩ : BufTy).Contents (Elt F)),
    StableHlo.binary main_v101 main_v93 main_v102 (mulf : (⟨S3x4x1, .f32⟩ : BufTy).Contents (Elt F) → (⟨S3x4x1, .f32⟩ : BufTy).Contents (Elt F) → (⟨S3x4x1, .f32⟩ : BufTy).Contents (Elt F)),
    StableHlo.unary main_v89 main_v103 (broadcastInDim S3x4x1 ![0, 1, 2] bcast_S3x1x1_S3x4x1_0_1_2 : (⟨S3x1x1, .f32⟩ : BufTy).Contents (Elt F) → (⟨S3x4x1, .f32⟩ : BufTy).Contents (Elt F)),
    StableHlo.binary main_v103 main_v95 main_v104 (mulf : (⟨S3x4x1, .f32⟩ : BufTy).Contents (Elt F) → (⟨S3x4x1, .f32⟩ : BufTy).Contents (Elt F) → (⟨S3x4x1, .f32⟩ : BufTy).Contents (Elt F)),
    StableHlo.binary main_v102 main_v104 main_v105 (addf : (⟨S3x4x1, .f32⟩ : BufTy).Contents (Elt F) → (⟨S3x4x1, .f32⟩ : BufTy).Contents (Elt F) → (⟨S3x4x1, .f32⟩ : BufTy).Contents (Elt F)),
    StableHlo.unary main_v100 main_v106 (broadcastInDim S3x4x1x1 ![0, 1, 3] bcast_S3x4x1_S3x4x1x1_0_1_3 : (⟨S3x4x1, .f32⟩ : BufTy).Contents (Elt F) → (⟨S3x4x1x1, .f32⟩ : BufTy).Contents (Elt F)),
    StableHlo.unary main_v105 main_v107 (broadcastInDim S3x4x1x1 ![0, 1, 3] bcast_S3x4x1_S3x4x1x1_0_1_3 : (⟨S3x4x1, .f32⟩ : BufTy).Contents (Elt F) → (⟨S3x4x1x1, .f32⟩ : BufTy).Contents (Elt F)),
    StableHlo.binary main_v106 main_v107 main_v108 ((fun a b => concatenate S3x4x2x1 2 [⟨S3x4x1x1, a⟩, ⟨S3x4x1x1, b⟩] concatenates_S3x4x1x1_S3x4x1x1_S3x4x2x1_d2) : (⟨S3x4x1x1, .f32⟩ : BufTy).Contents (Elt F) → (⟨S3x4x1x1, .f32⟩ : BufTy).Contents (Elt F) → (⟨S3x4x2x1, .f32⟩ : BufTy).Contents (Elt F)),
    StableHlo.reshape main_v108 main_v109 rfl shapeCasts_S3x4x2x1_S3x8 ]

/-- Rotation 4: column 4 of the weights, halved, its cosine and sine; the state re-laid with qubit 1's bit as an axis of its own, the two halves mixed and re-stacked. -/
abbrev opsRot4 : List (HloOp τ sig (Elt F)) :=
  [ StableHlo.unary main_arg1 main_v110 ((extractStridedSlice S3x1 ![0, 4] · slices_S3x9_S3x1_0_4) : (⟨S3x9, .f32⟩ : BufTy).Contents (Elt F) → (⟨S3x1, .f32⟩ : BufTy).Contents (Elt F)),
    StableHlo.reshape main_v110 main_v111 rfl shapeCasts_S3x1_S3,
    StableHlo.reshape main_v109 main_v112 rfl shapeCasts_S3x8_S3x2x2x2,
    StableHlo.nullary main_cst_4 (constant S_ .f32 0x3F000000#32),
    StableHlo.unary main_cst_4 main_v113 (broadcastInDim S3 ![] bcast_S_S3 : (⟨S_, .f32⟩ : BufTy).Contents (Elt F) → (⟨S3, .f32⟩ : BufTy).Contents (Elt F)),
    StableHlo.binary main_v111 main_v113 main_v114 (mulf : (⟨S3, .f32⟩ : BufTy).Contents (Elt F) → (⟨S3, .f32⟩ : BufTy).Contents (Elt F) → (⟨S3, .f32⟩ : BufTy).Contents (Elt F)),
    StableHlo.unary main_v114 main_v115 (Host.cos : (⟨S3, .f32⟩ : BufTy).Contents (Elt F) → (⟨S3, .f32⟩ : BufTy).Contents (Elt F)),
    StableHlo.unary main_v115 main_v116 (broadcastInDim S3x1x1 ![0] bcast_S3_S3x1x1_0 : (⟨S3, .f32⟩ : BufTy).Contents (Elt F) → (⟨S3x1x1, .f32⟩ : BufTy).Contents (Elt F)),
    StableHlo.unary main_v114 main_v117 (Host.sin : (⟨S3, .f32⟩ : BufTy).Contents (Elt F) → (⟨S3, .f32⟩ : BufTy).Contents (Elt F)),
    StableHlo.unary main_v117 main_v118 (broadcastInDim S3x1x1 ![0] bcast_S3_S3x1x1_0 : (⟨S3, .f32⟩ : BufTy).Contents (Elt F) → (⟨S3x1x1, .f32⟩ : BufTy).Contents (Elt F)),
    StableHlo.unary main_v112 main_v119 ((extractStridedSlice S3x2x1x2 ![0, 0, 0, 0] · slices_S3x2x2x2_S3x2x1x2_0_0_0_0) : (⟨S3x2x2x2, .f32⟩ : BufTy).Contents (Elt F) → (⟨S3x2x1x2, .f32⟩ : BufTy).Contents (Elt F)),
    StableHlo.reshape main_v119 main_v120 rfl shapeCasts_S3x2x1x2_S3x2x2,
    StableHlo.unary main_v112 main_v121 ((extractStridedSlice S3x2x1x2 ![0, 0, 1, 0] · slices_S3x2x2x2_S3x2x1x2_0_0_1_0) : (⟨S3x2x2x2, .f32⟩ : BufTy).Contents (Elt F) → (⟨S3x2x1x2, .f32⟩ : BufTy).Contents (Elt F)),
    StableHlo.reshape main_v121 main_v122 rfl shapeCasts_S3x2x1x2_S3x2x2,
    StableHlo.unary main_v116 main_v123 (broadcastInDim S3x2x2 ![0, 1, 2] bcast_S3x1x1_S3x2x2_0_1_2 : (⟨S3x1x1, .f32⟩ : BufTy).Contents (Elt F) → (⟨S3x2x2, .f32⟩ : BufTy).Contents (Elt F)),
    StableHlo.binary main_v123 main_v120 main_v124 (mulf : (⟨S3x2x2, .f32⟩ : BufTy).Contents (Elt F) → (⟨S3x2x2, .f32⟩ : BufTy).Contents (Elt F) → (⟨S3x2x2, .f32⟩ : BufTy).Contents (Elt F)),
    StableHlo.unary main_v118 main_v125 (broadcastInDim S3x2x2 ![0, 1, 2] bcast_S3x1x1_S3x2x2_0_1_2 : (⟨S3x1x1, .f32⟩ : BufTy).Contents (Elt F) → (⟨S3x2x2, .f32⟩ : BufTy).Contents (Elt F)),
    StableHlo.binary main_v125 main_v122 main_v126 (mulf : (⟨S3x2x2, .f32⟩ : BufTy).Contents (Elt F) → (⟨S3x2x2, .f32⟩ : BufTy).Contents (Elt F) → (⟨S3x2x2, .f32⟩ : BufTy).Contents (Elt F)),
    StableHlo.binary main_v124 main_v126 main_v127 (subf : (⟨S3x2x2, .f32⟩ : BufTy).Contents (Elt F) → (⟨S3x2x2, .f32⟩ : BufTy).Contents (Elt F) → (⟨S3x2x2, .f32⟩ : BufTy).Contents (Elt F)),
    StableHlo.unary main_v118 main_v128 (broadcastInDim S3x2x2 ![0, 1, 2] bcast_S3x1x1_S3x2x2_0_1_2 : (⟨S3x1x1, .f32⟩ : BufTy).Contents (Elt F) → (⟨S3x2x2, .f32⟩ : BufTy).Contents (Elt F)),
    StableHlo.binary main_v128 main_v120 main_v129 (mulf : (⟨S3x2x2, .f32⟩ : BufTy).Contents (Elt F) → (⟨S3x2x2, .f32⟩ : BufTy).Contents (Elt F) → (⟨S3x2x2, .f32⟩ : BufTy).Contents (Elt F)),
    StableHlo.unary main_v116 main_v130 (broadcastInDim S3x2x2 ![0, 1, 2] bcast_S3x1x1_S3x2x2_0_1_2 : (⟨S3x1x1, .f32⟩ : BufTy).Contents (Elt F) → (⟨S3x2x2, .f32⟩ : BufTy).Contents (Elt F)),
    StableHlo.binary main_v130 main_v122 main_v131 (mulf : (⟨S3x2x2, .f32⟩ : BufTy).Contents (Elt F) → (⟨S3x2x2, .f32⟩ : BufTy).Contents (Elt F) → (⟨S3x2x2, .f32⟩ : BufTy).Contents (Elt F)),
    StableHlo.binary main_v129 main_v131 main_v132 (addf : (⟨S3x2x2, .f32⟩ : BufTy).Contents (Elt F) → (⟨S3x2x2, .f32⟩ : BufTy).Contents (Elt F) → (⟨S3x2x2, .f32⟩ : BufTy).Contents (Elt F)),
    StableHlo.unary main_v127 main_v133 (broadcastInDim S3x2x1x2 ![0, 1, 3] bcast_S3x2x2_S3x2x1x2_0_1_3 : (⟨S3x2x2, .f32⟩ : BufTy).Contents (Elt F) → (⟨S3x2x1x2, .f32⟩ : BufTy).Contents (Elt F)),
    StableHlo.unary main_v132 main_v134 (broadcastInDim S3x2x1x2 ![0, 1, 3] bcast_S3x2x2_S3x2x1x2_0_1_3 : (⟨S3x2x2, .f32⟩ : BufTy).Contents (Elt F) → (⟨S3x2x1x2, .f32⟩ : BufTy).Contents (Elt F)),
    StableHlo.binary main_v133 main_v134 main_v135 ((fun a b => concatenate S3x2x2x2 2 [⟨S3x2x1x2, a⟩, ⟨S3x2x1x2, b⟩] concatenates_S3x2x1x2_S3x2x1x2_S3x2x2x2_d2) : (⟨S3x2x1x2, .f32⟩ : BufTy).Contents (Elt F) → (⟨S3x2x1x2, .f32⟩ : BufTy).Contents (Elt F) → (⟨S3x2x2x2, .f32⟩ : BufTy).Contents (Elt F)),
    StableHlo.reshape main_v135 main_v136 rfl shapeCasts_S3x2x2x2_S3x8 ]

/-- Rotation 5: column 5 of the weights, halved, its cosine and sine; the state re-laid with qubit 2's bit as an axis of its own, the two halves mixed and re-stacked. -/
abbrev opsRot5 : List (HloOp τ sig (Elt F)) :=
  [ StableHlo.unary main_arg1 main_v137 ((extractStridedSlice S3x1 ![0, 5] · slices_S3x9_S3x1_0_5) : (⟨S3x9, .f32⟩ : BufTy).Contents (Elt F) → (⟨S3x1, .f32⟩ : BufTy).Contents (Elt F)),
    StableHlo.reshape main_v137 main_v138 rfl shapeCasts_S3x1_S3,
    StableHlo.reshape main_v136 main_v139 rfl shapeCasts_S3x8_S3x1x2x4,
    StableHlo.nullary main_cst_5 (constant S_ .f32 0x3F000000#32),
    StableHlo.unary main_cst_5 main_v140 (broadcastInDim S3 ![] bcast_S_S3 : (⟨S_, .f32⟩ : BufTy).Contents (Elt F) → (⟨S3, .f32⟩ : BufTy).Contents (Elt F)),
    StableHlo.binary main_v138 main_v140 main_v141 (mulf : (⟨S3, .f32⟩ : BufTy).Contents (Elt F) → (⟨S3, .f32⟩ : BufTy).Contents (Elt F) → (⟨S3, .f32⟩ : BufTy).Contents (Elt F)),
    StableHlo.unary main_v141 main_v142 (Host.cos : (⟨S3, .f32⟩ : BufTy).Contents (Elt F) → (⟨S3, .f32⟩ : BufTy).Contents (Elt F)),
    StableHlo.unary main_v142 main_v143 (broadcastInDim S3x1x1 ![0] bcast_S3_S3x1x1_0 : (⟨S3, .f32⟩ : BufTy).Contents (Elt F) → (⟨S3x1x1, .f32⟩ : BufTy).Contents (Elt F)),
    StableHlo.unary main_v141 main_v144 (Host.sin : (⟨S3, .f32⟩ : BufTy).Contents (Elt F) → (⟨S3, .f32⟩ : BufTy).Contents (Elt F)),
    StableHlo.unary main_v144 main_v145 (broadcastInDim S3x1x1 ![0] bcast_S3_S3x1x1_0 : (⟨S3, .f32⟩ : BufTy).Contents (Elt F) → (⟨S3x1x1, .f32⟩ : BufTy).Contents (Elt F)),
    StableHlo.unary main_v139 main_v146 ((extractStridedSlice S3x1x1x4 ![0, 0, 0, 0] · slices_S3x1x2x4_S3x1x1x4_0_0_0_0) : (⟨S3x1x2x4, .f32⟩ : BufTy).Contents (Elt F) → (⟨S3x1x1x4, .f32⟩ : BufTy).Contents (Elt F)),
    StableHlo.reshape main_v146 main_v147 rfl shapeCasts_S3x1x1x4_S3x1x4,
    StableHlo.unary main_v139 main_v148 ((extractStridedSlice S3x1x1x4 ![0, 0, 1, 0] · slices_S3x1x2x4_S3x1x1x4_0_0_1_0) : (⟨S3x1x2x4, .f32⟩ : BufTy).Contents (Elt F) → (⟨S3x1x1x4, .f32⟩ : BufTy).Contents (Elt F)),
    StableHlo.reshape main_v148 main_v149 rfl shapeCasts_S3x1x1x4_S3x1x4,
    StableHlo.unary main_v143 main_v150 (broadcastInDim S3x1x4 ![0, 1, 2] bcast_S3x1x1_S3x1x4_0_1_2 : (⟨S3x1x1, .f32⟩ : BufTy).Contents (Elt F) → (⟨S3x1x4, .f32⟩ : BufTy).Contents (Elt F)),
    StableHlo.binary main_v150 main_v147 main_v151 (mulf : (⟨S3x1x4, .f32⟩ : BufTy).Contents (Elt F) → (⟨S3x1x4, .f32⟩ : BufTy).Contents (Elt F) → (⟨S3x1x4, .f32⟩ : BufTy).Contents (Elt F)),
    StableHlo.unary main_v145 main_v152 (broadcastInDim S3x1x4 ![0, 1, 2] bcast_S3x1x1_S3x1x4_0_1_2 : (⟨S3x1x1, .f32⟩ : BufTy).Contents (Elt F) → (⟨S3x1x4, .f32⟩ : BufTy).Contents (Elt F)),
    StableHlo.binary main_v152 main_v149 main_v153 (mulf : (⟨S3x1x4, .f32⟩ : BufTy).Contents (Elt F) → (⟨S3x1x4, .f32⟩ : BufTy).Contents (Elt F) → (⟨S3x1x4, .f32⟩ : BufTy).Contents (Elt F)),
    StableHlo.binary main_v151 main_v153 main_v154 (subf : (⟨S3x1x4, .f32⟩ : BufTy).Contents (Elt F) → (⟨S3x1x4, .f32⟩ : BufTy).Contents (Elt F) → (⟨S3x1x4, .f32⟩ : BufTy).Contents (Elt F)),
    StableHlo.unary main_v145 main_v155 (broadcastInDim S3x1x4 ![0, 1, 2] bcast_S3x1x1_S3x1x4_0_1_2 : (⟨S3x1x1, .f32⟩ : BufTy).Contents (Elt F) → (⟨S3x1x4, .f32⟩ : BufTy).Contents (Elt F)),
    StableHlo.binary main_v155 main_v147 main_v156 (mulf : (⟨S3x1x4, .f32⟩ : BufTy).Contents (Elt F) → (⟨S3x1x4, .f32⟩ : BufTy).Contents (Elt F) → (⟨S3x1x4, .f32⟩ : BufTy).Contents (Elt F)),
    StableHlo.unary main_v143 main_v157 (broadcastInDim S3x1x4 ![0, 1, 2] bcast_S3x1x1_S3x1x4_0_1_2 : (⟨S3x1x1, .f32⟩ : BufTy).Contents (Elt F) → (⟨S3x1x4, .f32⟩ : BufTy).Contents (Elt F)),
    StableHlo.binary main_v157 main_v149 main_v158 (mulf : (⟨S3x1x4, .f32⟩ : BufTy).Contents (Elt F) → (⟨S3x1x4, .f32⟩ : BufTy).Contents (Elt F) → (⟨S3x1x4, .f32⟩ : BufTy).Contents (Elt F)),
    StableHlo.binary main_v156 main_v158 main_v159 (addf : (⟨S3x1x4, .f32⟩ : BufTy).Contents (Elt F) → (⟨S3x1x4, .f32⟩ : BufTy).Contents (Elt F) → (⟨S3x1x4, .f32⟩ : BufTy).Contents (Elt F)),
    StableHlo.unary main_v154 main_v160 (broadcastInDim S3x1x1x4 ![0, 1, 3] bcast_S3x1x4_S3x1x1x4_0_1_3 : (⟨S3x1x4, .f32⟩ : BufTy).Contents (Elt F) → (⟨S3x1x1x4, .f32⟩ : BufTy).Contents (Elt F)),
    StableHlo.unary main_v159 main_v161 (broadcastInDim S3x1x1x4 ![0, 1, 3] bcast_S3x1x4_S3x1x1x4_0_1_3 : (⟨S3x1x4, .f32⟩ : BufTy).Contents (Elt F) → (⟨S3x1x1x4, .f32⟩ : BufTy).Contents (Elt F)),
    StableHlo.binary main_v160 main_v161 main_v162 ((fun a b => concatenate S3x1x2x4 2 [⟨S3x1x1x4, a⟩, ⟨S3x1x1x4, b⟩] concatenates_S3x1x1x4_S3x1x1x4_S3x1x2x4_d2) : (⟨S3x1x1x4, .f32⟩ : BufTy).Contents (Elt F) → (⟨S3x1x1x4, .f32⟩ : BufTy).Contents (Elt F) → (⟨S3x1x2x4, .f32⟩ : BufTy).Contents (Elt F)),
    StableHlo.reshape main_v162 main_v163 rfl shapeCasts_S3x1x2x4_S3x8 ]

/-- Rotation 6: column 6 of the weights, halved, its cosine and sine; the state re-laid with qubit 0's bit as an axis of its own, the two halves mixed and re-stacked. -/
abbrev opsRot6 : List (HloOp τ sig (Elt F)) :=
  [ StableHlo.unary main_arg1 main_v164 ((extractStridedSlice S3x1 ![0, 6] · slices_S3x9_S3x1_0_6) : (⟨S3x9, .f32⟩ : BufTy).Contents (Elt F) → (⟨S3x1, .f32⟩ : BufTy).Contents (Elt F)),
    StableHlo.reshape main_v164 main_v165 rfl shapeCasts_S3x1_S3,
    StableHlo.reshape main_v163 main_v166 rfl shapeCasts_S3x8_S3x4x2x1,
    StableHlo.nullary main_cst_6 (constant S_ .f32 0x3F000000#32),
    StableHlo.unary main_cst_6 main_v167 (broadcastInDim S3 ![] bcast_S_S3 : (⟨S_, .f32⟩ : BufTy).Contents (Elt F) → (⟨S3, .f32⟩ : BufTy).Contents (Elt F)),
    StableHlo.binary main_v165 main_v167 main_v168 (mulf : (⟨S3, .f32⟩ : BufTy).Contents (Elt F) → (⟨S3, .f32⟩ : BufTy).Contents (Elt F) → (⟨S3, .f32⟩ : BufTy).Contents (Elt F)),
    StableHlo.unary main_v168 main_v169 (Host.cos : (⟨S3, .f32⟩ : BufTy).Contents (Elt F) → (⟨S3, .f32⟩ : BufTy).Contents (Elt F)),
    StableHlo.unary main_v169 main_v170 (broadcastInDim S3x1x1 ![0] bcast_S3_S3x1x1_0 : (⟨S3, .f32⟩ : BufTy).Contents (Elt F) → (⟨S3x1x1, .f32⟩ : BufTy).Contents (Elt F)),
    StableHlo.unary main_v168 main_v171 (Host.sin : (⟨S3, .f32⟩ : BufTy).Contents (Elt F) → (⟨S3, .f32⟩ : BufTy).Contents (Elt F)),
    StableHlo.unary main_v171 main_v172 (broadcastInDim S3x1x1 ![0] bcast_S3_S3x1x1_0 : (⟨S3, .f32⟩ : BufTy).Contents (Elt F) → (⟨S3x1x1, .f32⟩ : BufTy).Contents (Elt F)),
    StableHlo.unary main_v166 main_v173 ((extractStridedSlice S3x4x1x1 ![0, 0, 0, 0] · slices_S3x4x2x1_S3x4x1x1_0_0_0_0) : (⟨S3x4x2x1, .f32⟩ : BufTy).Contents (Elt F) → (⟨S3x4x1x1, .f32⟩ : BufTy).Contents (Elt F)),
    StableHlo.reshape main_v173 main_v174 rfl shapeCasts_S3x4x1x1_S3x4x1,
    StableHlo.unary main_v166 main_v175 ((extractStridedSlice S3x4x1x1 ![0, 0, 1, 0] · slices_S3x4x2x1_S3x4x1x1_0_0_1_0) : (⟨S3x4x2x1, .f32⟩ : BufTy).Contents (Elt F) → (⟨S3x4x1x1, .f32⟩ : BufTy).Contents (Elt F)),
    StableHlo.reshape main_v175 main_v176 rfl shapeCasts_S3x4x1x1_S3x4x1,
    StableHlo.unary main_v170 main_v177 (broadcastInDim S3x4x1 ![0, 1, 2] bcast_S3x1x1_S3x4x1_0_1_2 : (⟨S3x1x1, .f32⟩ : BufTy).Contents (Elt F) → (⟨S3x4x1, .f32⟩ : BufTy).Contents (Elt F)),
    StableHlo.binary main_v177 main_v174 main_v178 (mulf : (⟨S3x4x1, .f32⟩ : BufTy).Contents (Elt F) → (⟨S3x4x1, .f32⟩ : BufTy).Contents (Elt F) → (⟨S3x4x1, .f32⟩ : BufTy).Contents (Elt F)),
    StableHlo.unary main_v172 main_v179 (broadcastInDim S3x4x1 ![0, 1, 2] bcast_S3x1x1_S3x4x1_0_1_2 : (⟨S3x1x1, .f32⟩ : BufTy).Contents (Elt F) → (⟨S3x4x1, .f32⟩ : BufTy).Contents (Elt F)),
    StableHlo.binary main_v179 main_v176 main_v180 (mulf : (⟨S3x4x1, .f32⟩ : BufTy).Contents (Elt F) → (⟨S3x4x1, .f32⟩ : BufTy).Contents (Elt F) → (⟨S3x4x1, .f32⟩ : BufTy).Contents (Elt F)),
    StableHlo.binary main_v178 main_v180 main_v181 (subf : (⟨S3x4x1, .f32⟩ : BufTy).Contents (Elt F) → (⟨S3x4x1, .f32⟩ : BufTy).Contents (Elt F) → (⟨S3x4x1, .f32⟩ : BufTy).Contents (Elt F)),
    StableHlo.unary main_v172 main_v182 (broadcastInDim S3x4x1 ![0, 1, 2] bcast_S3x1x1_S3x4x1_0_1_2 : (⟨S3x1x1, .f32⟩ : BufTy).Contents (Elt F) → (⟨S3x4x1, .f32⟩ : BufTy).Contents (Elt F)),
    StableHlo.binary main_v182 main_v174 main_v183 (mulf : (⟨S3x4x1, .f32⟩ : BufTy).Contents (Elt F) → (⟨S3x4x1, .f32⟩ : BufTy).Contents (Elt F) → (⟨S3x4x1, .f32⟩ : BufTy).Contents (Elt F)),
    StableHlo.unary main_v170 main_v184 (broadcastInDim S3x4x1 ![0, 1, 2] bcast_S3x1x1_S3x4x1_0_1_2 : (⟨S3x1x1, .f32⟩ : BufTy).Contents (Elt F) → (⟨S3x4x1, .f32⟩ : BufTy).Contents (Elt F)),
    StableHlo.binary main_v184 main_v176 main_v185 (mulf : (⟨S3x4x1, .f32⟩ : BufTy).Contents (Elt F) → (⟨S3x4x1, .f32⟩ : BufTy).Contents (Elt F) → (⟨S3x4x1, .f32⟩ : BufTy).Contents (Elt F)),
    StableHlo.binary main_v183 main_v185 main_v186 (addf : (⟨S3x4x1, .f32⟩ : BufTy).Contents (Elt F) → (⟨S3x4x1, .f32⟩ : BufTy).Contents (Elt F) → (⟨S3x4x1, .f32⟩ : BufTy).Contents (Elt F)),
    StableHlo.unary main_v181 main_v187 (broadcastInDim S3x4x1x1 ![0, 1, 3] bcast_S3x4x1_S3x4x1x1_0_1_3 : (⟨S3x4x1, .f32⟩ : BufTy).Contents (Elt F) → (⟨S3x4x1x1, .f32⟩ : BufTy).Contents (Elt F)),
    StableHlo.unary main_v186 main_v188 (broadcastInDim S3x4x1x1 ![0, 1, 3] bcast_S3x4x1_S3x4x1x1_0_1_3 : (⟨S3x4x1, .f32⟩ : BufTy).Contents (Elt F) → (⟨S3x4x1x1, .f32⟩ : BufTy).Contents (Elt F)),
    StableHlo.binary main_v187 main_v188 main_v189 ((fun a b => concatenate S3x4x2x1 2 [⟨S3x4x1x1, a⟩, ⟨S3x4x1x1, b⟩] concatenates_S3x4x1x1_S3x4x1x1_S3x4x2x1_d2) : (⟨S3x4x1x1, .f32⟩ : BufTy).Contents (Elt F) → (⟨S3x4x1x1, .f32⟩ : BufTy).Contents (Elt F) → (⟨S3x4x2x1, .f32⟩ : BufTy).Contents (Elt F)),
    StableHlo.reshape main_v189 main_v190 rfl shapeCasts_S3x4x2x1_S3x8 ]

/-- Rotation 7: column 7 of the weights, halved, its cosine and sine; the state re-laid with qubit 1's bit as an axis of its own, the two halves mixed and re-stacked. -/
abbrev opsRot7 : List (HloOp τ sig (Elt F)) :=
  [ StableHlo.unary main_arg1 main_v191 ((extractStridedSlice S3x1 ![0, 7] · slices_S3x9_S3x1_0_7) : (⟨S3x9, .f32⟩ : BufTy).Contents (Elt F) → (⟨S3x1, .f32⟩ : BufTy).Contents (Elt F)),
    StableHlo.reshape main_v191 main_v192 rfl shapeCasts_S3x1_S3,
    StableHlo.reshape main_v190 main_v193 rfl shapeCasts_S3x8_S3x2x2x2,
    StableHlo.nullary main_cst_7 (constant S_ .f32 0x3F000000#32),
    StableHlo.unary main_cst_7 main_v194 (broadcastInDim S3 ![] bcast_S_S3 : (⟨S_, .f32⟩ : BufTy).Contents (Elt F) → (⟨S3, .f32⟩ : BufTy).Contents (Elt F)),
    StableHlo.binary main_v192 main_v194 main_v195 (mulf : (⟨S3, .f32⟩ : BufTy).Contents (Elt F) → (⟨S3, .f32⟩ : BufTy).Contents (Elt F) → (⟨S3, .f32⟩ : BufTy).Contents (Elt F)),
    StableHlo.unary main_v195 main_v196 (Host.cos : (⟨S3, .f32⟩ : BufTy).Contents (Elt F) → (⟨S3, .f32⟩ : BufTy).Contents (Elt F)),
    StableHlo.unary main_v196 main_v197 (broadcastInDim S3x1x1 ![0] bcast_S3_S3x1x1_0 : (⟨S3, .f32⟩ : BufTy).Contents (Elt F) → (⟨S3x1x1, .f32⟩ : BufTy).Contents (Elt F)),
    StableHlo.unary main_v195 main_v198 (Host.sin : (⟨S3, .f32⟩ : BufTy).Contents (Elt F) → (⟨S3, .f32⟩ : BufTy).Contents (Elt F)),
    StableHlo.unary main_v198 main_v199 (broadcastInDim S3x1x1 ![0] bcast_S3_S3x1x1_0 : (⟨S3, .f32⟩ : BufTy).Contents (Elt F) → (⟨S3x1x1, .f32⟩ : BufTy).Contents (Elt F)),
    StableHlo.unary main_v193 main_v200 ((extractStridedSlice S3x2x1x2 ![0, 0, 0, 0] · slices_S3x2x2x2_S3x2x1x2_0_0_0_0) : (⟨S3x2x2x2, .f32⟩ : BufTy).Contents (Elt F) → (⟨S3x2x1x2, .f32⟩ : BufTy).Contents (Elt F)),
    StableHlo.reshape main_v200 main_v201 rfl shapeCasts_S3x2x1x2_S3x2x2,
    StableHlo.unary main_v193 main_v202 ((extractStridedSlice S3x2x1x2 ![0, 0, 1, 0] · slices_S3x2x2x2_S3x2x1x2_0_0_1_0) : (⟨S3x2x2x2, .f32⟩ : BufTy).Contents (Elt F) → (⟨S3x2x1x2, .f32⟩ : BufTy).Contents (Elt F)),
    StableHlo.reshape main_v202 main_v203 rfl shapeCasts_S3x2x1x2_S3x2x2,
    StableHlo.unary main_v197 main_v204 (broadcastInDim S3x2x2 ![0, 1, 2] bcast_S3x1x1_S3x2x2_0_1_2 : (⟨S3x1x1, .f32⟩ : BufTy).Contents (Elt F) → (⟨S3x2x2, .f32⟩ : BufTy).Contents (Elt F)),
    StableHlo.binary main_v204 main_v201 main_v205 (mulf : (⟨S3x2x2, .f32⟩ : BufTy).Contents (Elt F) → (⟨S3x2x2, .f32⟩ : BufTy).Contents (Elt F) → (⟨S3x2x2, .f32⟩ : BufTy).Contents (Elt F)),
    StableHlo.unary main_v199 main_v206 (broadcastInDim S3x2x2 ![0, 1, 2] bcast_S3x1x1_S3x2x2_0_1_2 : (⟨S3x1x1, .f32⟩ : BufTy).Contents (Elt F) → (⟨S3x2x2, .f32⟩ : BufTy).Contents (Elt F)),
    StableHlo.binary main_v206 main_v203 main_v207 (mulf : (⟨S3x2x2, .f32⟩ : BufTy).Contents (Elt F) → (⟨S3x2x2, .f32⟩ : BufTy).Contents (Elt F) → (⟨S3x2x2, .f32⟩ : BufTy).Contents (Elt F)),
    StableHlo.binary main_v205 main_v207 main_v208 (subf : (⟨S3x2x2, .f32⟩ : BufTy).Contents (Elt F) → (⟨S3x2x2, .f32⟩ : BufTy).Contents (Elt F) → (⟨S3x2x2, .f32⟩ : BufTy).Contents (Elt F)),
    StableHlo.unary main_v199 main_v209 (broadcastInDim S3x2x2 ![0, 1, 2] bcast_S3x1x1_S3x2x2_0_1_2 : (⟨S3x1x1, .f32⟩ : BufTy).Contents (Elt F) → (⟨S3x2x2, .f32⟩ : BufTy).Contents (Elt F)),
    StableHlo.binary main_v209 main_v201 main_v210 (mulf : (⟨S3x2x2, .f32⟩ : BufTy).Contents (Elt F) → (⟨S3x2x2, .f32⟩ : BufTy).Contents (Elt F) → (⟨S3x2x2, .f32⟩ : BufTy).Contents (Elt F)),
    StableHlo.unary main_v197 main_v211 (broadcastInDim S3x2x2 ![0, 1, 2] bcast_S3x1x1_S3x2x2_0_1_2 : (⟨S3x1x1, .f32⟩ : BufTy).Contents (Elt F) → (⟨S3x2x2, .f32⟩ : BufTy).Contents (Elt F)),
    StableHlo.binary main_v211 main_v203 main_v212 (mulf : (⟨S3x2x2, .f32⟩ : BufTy).Contents (Elt F) → (⟨S3x2x2, .f32⟩ : BufTy).Contents (Elt F) → (⟨S3x2x2, .f32⟩ : BufTy).Contents (Elt F)),
    StableHlo.binary main_v210 main_v212 main_v213 (addf : (⟨S3x2x2, .f32⟩ : BufTy).Contents (Elt F) → (⟨S3x2x2, .f32⟩ : BufTy).Contents (Elt F) → (⟨S3x2x2, .f32⟩ : BufTy).Contents (Elt F)),
    StableHlo.unary main_v208 main_v214 (broadcastInDim S3x2x1x2 ![0, 1, 3] bcast_S3x2x2_S3x2x1x2_0_1_3 : (⟨S3x2x2, .f32⟩ : BufTy).Contents (Elt F) → (⟨S3x2x1x2, .f32⟩ : BufTy).Contents (Elt F)),
    StableHlo.unary main_v213 main_v215 (broadcastInDim S3x2x1x2 ![0, 1, 3] bcast_S3x2x2_S3x2x1x2_0_1_3 : (⟨S3x2x2, .f32⟩ : BufTy).Contents (Elt F) → (⟨S3x2x1x2, .f32⟩ : BufTy).Contents (Elt F)),
    StableHlo.binary main_v214 main_v215 main_v216 ((fun a b => concatenate S3x2x2x2 2 [⟨S3x2x1x2, a⟩, ⟨S3x2x1x2, b⟩] concatenates_S3x2x1x2_S3x2x1x2_S3x2x2x2_d2) : (⟨S3x2x1x2, .f32⟩ : BufTy).Contents (Elt F) → (⟨S3x2x1x2, .f32⟩ : BufTy).Contents (Elt F) → (⟨S3x2x2x2, .f32⟩ : BufTy).Contents (Elt F)),
    StableHlo.reshape main_v216 main_v217 rfl shapeCasts_S3x2x2x2_S3x8 ]

/-- Rotation 8: column 8 of the weights, halved, its cosine and sine; the state re-laid with qubit 2's bit as an axis of its own, the two halves mixed and re-stacked. -/
abbrev opsRot8 : List (HloOp τ sig (Elt F)) :=
  [ StableHlo.unary main_arg1 main_v218 ((extractStridedSlice S3x1 ![0, 8] · slices_S3x9_S3x1_0_8) : (⟨S3x9, .f32⟩ : BufTy).Contents (Elt F) → (⟨S3x1, .f32⟩ : BufTy).Contents (Elt F)),
    StableHlo.reshape main_v218 main_v219 rfl shapeCasts_S3x1_S3,
    StableHlo.reshape main_v217 main_v220 rfl shapeCasts_S3x8_S3x1x2x4,
    StableHlo.nullary main_cst_8 (constant S_ .f32 0x3F000000#32),
    StableHlo.unary main_cst_8 main_v221 (broadcastInDim S3 ![] bcast_S_S3 : (⟨S_, .f32⟩ : BufTy).Contents (Elt F) → (⟨S3, .f32⟩ : BufTy).Contents (Elt F)),
    StableHlo.binary main_v219 main_v221 main_v222 (mulf : (⟨S3, .f32⟩ : BufTy).Contents (Elt F) → (⟨S3, .f32⟩ : BufTy).Contents (Elt F) → (⟨S3, .f32⟩ : BufTy).Contents (Elt F)),
    StableHlo.unary main_v222 main_v223 (Host.cos : (⟨S3, .f32⟩ : BufTy).Contents (Elt F) → (⟨S3, .f32⟩ : BufTy).Contents (Elt F)),
    StableHlo.unary main_v223 main_v224 (broadcastInDim S3x1x1 ![0] bcast_S3_S3x1x1_0 : (⟨S3, .f32⟩ : BufTy).Contents (Elt F) → (⟨S3x1x1, .f32⟩ : BufTy).Contents (Elt F)),
    StableHlo.unary main_v222 main_v225 (Host.sin : (⟨S3, .f32⟩ : BufTy).Contents (Elt F) → (⟨S3, .f32⟩ : BufTy).Contents (Elt F)),
    StableHlo.unary main_v225 main_v226 (broadcastInDim S3x1x1 ![0] bcast_S3_S3x1x1_0 : (⟨S3, .f32⟩ : BufTy).Contents (Elt F) → (⟨S3x1x1, .f32⟩ : BufTy).Contents (Elt F)),
    StableHlo.unary main_v220 main_v227 ((extractStridedSlice S3x1x1x4 ![0, 0, 0, 0] · slices_S3x1x2x4_S3x1x1x4_0_0_0_0) : (⟨S3x1x2x4, .f32⟩ : BufTy).Contents (Elt F) → (⟨S3x1x1x4, .f32⟩ : BufTy).Contents (Elt F)),
    StableHlo.reshape main_v227 main_v228 rfl shapeCasts_S3x1x1x4_S3x1x4,
    StableHlo.unary main_v220 main_v229 ((extractStridedSlice S3x1x1x4 ![0, 0, 1, 0] · slices_S3x1x2x4_S3x1x1x4_0_0_1_0) : (⟨S3x1x2x4, .f32⟩ : BufTy).Contents (Elt F) → (⟨S3x1x1x4, .f32⟩ : BufTy).Contents (Elt F)),
    StableHlo.reshape main_v229 main_v230 rfl shapeCasts_S3x1x1x4_S3x1x4,
    StableHlo.unary main_v224 main_v231 (broadcastInDim S3x1x4 ![0, 1, 2] bcast_S3x1x1_S3x1x4_0_1_2 : (⟨S3x1x1, .f32⟩ : BufTy).Contents (Elt F) → (⟨S3x1x4, .f32⟩ : BufTy).Contents (Elt F)),
    StableHlo.binary main_v231 main_v228 main_v232 (mulf : (⟨S3x1x4, .f32⟩ : BufTy).Contents (Elt F) → (⟨S3x1x4, .f32⟩ : BufTy).Contents (Elt F) → (⟨S3x1x4, .f32⟩ : BufTy).Contents (Elt F)),
    StableHlo.unary main_v226 main_v233 (broadcastInDim S3x1x4 ![0, 1, 2] bcast_S3x1x1_S3x1x4_0_1_2 : (⟨S3x1x1, .f32⟩ : BufTy).Contents (Elt F) → (⟨S3x1x4, .f32⟩ : BufTy).Contents (Elt F)),
    StableHlo.binary main_v233 main_v230 main_v234 (mulf : (⟨S3x1x4, .f32⟩ : BufTy).Contents (Elt F) → (⟨S3x1x4, .f32⟩ : BufTy).Contents (Elt F) → (⟨S3x1x4, .f32⟩ : BufTy).Contents (Elt F)),
    StableHlo.binary main_v232 main_v234 main_v235 (subf : (⟨S3x1x4, .f32⟩ : BufTy).Contents (Elt F) → (⟨S3x1x4, .f32⟩ : BufTy).Contents (Elt F) → (⟨S3x1x4, .f32⟩ : BufTy).Contents (Elt F)),
    StableHlo.unary main_v226 main_v236 (broadcastInDim S3x1x4 ![0, 1, 2] bcast_S3x1x1_S3x1x4_0_1_2 : (⟨S3x1x1, .f32⟩ : BufTy).Contents (Elt F) → (⟨S3x1x4, .f32⟩ : BufTy).Contents (Elt F)),
    StableHlo.binary main_v236 main_v228 main_v237 (mulf : (⟨S3x1x4, .f32⟩ : BufTy).Contents (Elt F) → (⟨S3x1x4, .f32⟩ : BufTy).Contents (Elt F) → (⟨S3x1x4, .f32⟩ : BufTy).Contents (Elt F)),
    StableHlo.unary main_v224 main_v238 (broadcastInDim S3x1x4 ![0, 1, 2] bcast_S3x1x1_S3x1x4_0_1_2 : (⟨S3x1x1, .f32⟩ : BufTy).Contents (Elt F) → (⟨S3x1x4, .f32⟩ : BufTy).Contents (Elt F)),
    StableHlo.binary main_v238 main_v230 main_v239 (mulf : (⟨S3x1x4, .f32⟩ : BufTy).Contents (Elt F) → (⟨S3x1x4, .f32⟩ : BufTy).Contents (Elt F) → (⟨S3x1x4, .f32⟩ : BufTy).Contents (Elt F)),
    StableHlo.binary main_v237 main_v239 main_v240 (addf : (⟨S3x1x4, .f32⟩ : BufTy).Contents (Elt F) → (⟨S3x1x4, .f32⟩ : BufTy).Contents (Elt F) → (⟨S3x1x4, .f32⟩ : BufTy).Contents (Elt F)),
    StableHlo.unary main_v235 main_v241 (broadcastInDim S3x1x1x4 ![0, 1, 3] bcast_S3x1x4_S3x1x1x4_0_1_3 : (⟨S3x1x4, .f32⟩ : BufTy).Contents (Elt F) → (⟨S3x1x1x4, .f32⟩ : BufTy).Contents (Elt F)),
    StableHlo.unary main_v240 main_v242 (broadcastInDim S3x1x1x4 ![0, 1, 3] bcast_S3x1x4_S3x1x1x4_0_1_3 : (⟨S3x1x4, .f32⟩ : BufTy).Contents (Elt F) → (⟨S3x1x1x4, .f32⟩ : BufTy).Contents (Elt F)),
    StableHlo.binary main_v241 main_v242 main_v243 ((fun a b => concatenate S3x1x2x4 2 [⟨S3x1x1x4, a⟩, ⟨S3x1x1x4, b⟩] concatenates_S3x1x1x4_S3x1x1x4_S3x1x2x4_d2) : (⟨S3x1x1x4, .f32⟩ : BufTy).Contents (Elt F) → (⟨S3x1x1x4, .f32⟩ : BufTy).Contents (Elt F) → (⟨S3x1x2x4, .f32⟩ : BufTy).Contents (Elt F)),
    StableHlo.reshape main_v243 main_v244 rfl shapeCasts_S3x1x2x4_S3x8 ]

/-- The first controlled-NOT: the source position d xor ((d >> 0 & 1) << 1) of each basis state d, normalised as a non-negative index, and the gather along the state axis. -/
abbrev opsCx01 : List (HloOp τ sig (Elt F)) :=
  [ StableHlo.nullary main_v245 (iotaInDim S8 32 0),
    StableHlo.nullary main_c_9 (constantI S_ 32 0#32),
    StableHlo.unary main_c_9 main_v246 (broadcastInDim S8 ![] bcast_S_S8 : (⟨S_, .i32⟩ : BufTy).Contents (Elt F) → (⟨S8, .i32⟩ : BufTy).Contents (Elt F)),
    StableHlo.binary main_v245 main_v246 main_v247 (Host.shrsi : (⟨S8, .i32⟩ : BufTy).Contents (Elt F) → (⟨S8, .i32⟩ : BufTy).Contents (Elt F) → (⟨S8, .i32⟩ : BufTy).Contents (Elt F)),
    StableHlo.nullary main_c_10 (constantI S_ 32 1#32),
    StableHlo.unary main_c_10 main_v248 (broadcastInDim S8 ![] bcast_S_S8 : (⟨S_, .i32⟩ : BufTy).Contents (Elt F) → (⟨S8, .i32⟩ : BufTy).Contents (Elt F)),
    StableHlo.binary main_v247 main_v248 main_v249 (andi : (⟨S8, .i32⟩ : BufTy).Contents (Elt F) → (⟨S8, .i32⟩ : BufTy).Contents (Elt F) → (⟨S8, .i32⟩ : BufTy).Contents (Elt F)),
    StableHlo.nullary main_c_11 (constantI S_ 32 1#32),
    StableHlo.unary main_c_11 main_v250 (broadcastInDim S8 ![] bcast_S_S8 : (⟨S_, .i32⟩ : BufTy).Contents (Elt F) → (⟨S8, .i32⟩ : BufTy).Contents (Elt F)),
    StableHlo.binary main_v249 main_v250 main_v251 (Host.shli : (⟨S8, .i32⟩ : BufTy).Contents (Elt F) → (⟨S8, .i32⟩ : BufTy).Contents (Elt F) → (⟨S8, .i32⟩ : BufTy).Contents (Elt F)),
    StableHlo.binary main_v245 main_v251 main_v252 (xori : (⟨S8, .i32⟩ : BufTy).Contents (Elt F) → (⟨S8, .i32⟩ : BufTy).Contents (Elt F) → (⟨S8, .i32⟩ : BufTy).Contents (Elt F)),
    StableHlo.nullary main_c_12 (constantI S_ 32 0#32),
    StableHlo.unary main_c_12 main_v253 (broadcastInDim S8 ![] bcast_S_S8 : (⟨S_, .i32⟩ : BufTy).Contents (Elt F) → (⟨S8, .i32⟩ : BufTy).Contents (Elt F)),
    StableHlo.binary main_v252 main_v253 main_v254 (cmpi .slt : (⟨S8, .i32⟩ : BufTy).Contents (Elt F) → (⟨S8, .i32⟩ : BufTy).Contents (Elt F) → (⟨S8, .i1⟩ : BufTy).Contents (Elt F)),
    StableHlo.nullary main_c_13 (constantI S_ 32 8#32),
    StableHlo.unary main_c_13 main_v255 (broadcastInDim S8 ![] bcast_S_S8 : (⟨S_, .i32⟩ : BufTy).Contents (Elt F) → (⟨S8, .i32⟩ : BufTy).Contents (Elt F)),
    StableHlo.binary main_v252 main_v255 main_v256 (addi : (⟨S8, .i32⟩ : BufTy).Contents (Elt F) → (⟨S8, .i32⟩ : BufTy).Contents (Elt F) → (⟨S8, .i32⟩ : BufTy).Contents (Elt F)),
    StableHlo.ternary main_v254 main_v256 main_v252 main_v257 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v257 main_v258 (broadcastInDim S8x1 ![0] bcast_S8_S8x1_0 : (⟨S8, .i32⟩ : BufTy).Contents (Elt F) → (⟨S8x1, .i32⟩ : BufTy).Contents (Elt F)),
    StableHlo.binary main_v244 main_v258 main_v259 ((fun x i => Host.gather gather_S3x8_S8x1_S3x8_0_1_n_n_1_1_31 x i) : (⟨S3x8, .f32⟩ : BufTy).Contents (Elt F) → (⟨S8x1, .i32⟩ : BufTy).Contents (Elt F) → (⟨S3x8, .f32⟩ : BufTy).Contents (Elt F)) ]

/-- The second controlled-NOT: the source position d xor ((d >> 1 & 1) << 2), and the gather. -/
abbrev opsCx12 : List (HloOp τ sig (Elt F)) :=
  [ StableHlo.nullary main_v260 (iotaInDim S8 32 0),
    StableHlo.nullary main_c_14 (constantI S_ 32 1#32),
    StableHlo.unary main_c_14 main_v261 (broadcastInDim S8 ![] bcast_S_S8 : (⟨S_, .i32⟩ : BufTy).Contents (Elt F) → (⟨S8, .i32⟩ : BufTy).Contents (Elt F)),
    StableHlo.binary main_v260 main_v261 main_v262 (Host.shrsi : (⟨S8, .i32⟩ : BufTy).Contents (Elt F) → (⟨S8, .i32⟩ : BufTy).Contents (Elt F) → (⟨S8, .i32⟩ : BufTy).Contents (Elt F)),
    StableHlo.nullary main_c_15 (constantI S_ 32 1#32),
    StableHlo.unary main_c_15 main_v263 (broadcastInDim S8 ![] bcast_S_S8 : (⟨S_, .i32⟩ : BufTy).Contents (Elt F) → (⟨S8, .i32⟩ : BufTy).Contents (Elt F)),
    StableHlo.binary main_v262 main_v263 main_v264 (andi : (⟨S8, .i32⟩ : BufTy).Contents (Elt F) → (⟨S8, .i32⟩ : BufTy).Contents (Elt F) → (⟨S8, .i32⟩ : BufTy).Contents (Elt F)),
    StableHlo.nullary main_c_16 (constantI S_ 32 2#32),
    StableHlo.unary main_c_16 main_v265 (broadcastInDim S8 ![] bcast_S_S8 : (⟨S_, .i32⟩ : BufTy).Contents (Elt F) → (⟨S8, .i32⟩ : BufTy).Contents (Elt F)),
    StableHlo.binary main_v264 main_v265 main_v266 (Host.shli : (⟨S8, .i32⟩ : BufTy).Contents (Elt F) → (⟨S8, .i32⟩ : BufTy).Contents (Elt F) → (⟨S8, .i32⟩ : BufTy).Contents (Elt F)),
    StableHlo.binary main_v260 main_v266 main_v267 (xori : (⟨S8, .i32⟩ : BufTy).Contents (Elt F) → (⟨S8, .i32⟩ : BufTy).Contents (Elt F) → (⟨S8, .i32⟩ : BufTy).Contents (Elt F)),
    StableHlo.nullary main_c_17 (constantI S_ 32 0#32),
    StableHlo.unary main_c_17 main_v268 (broadcastInDim S8 ![] bcast_S_S8 : (⟨S_, .i32⟩ : BufTy).Contents (Elt F) → (⟨S8, .i32⟩ : BufTy).Contents (Elt F)),
    StableHlo.binary main_v267 main_v268 main_v269 (cmpi .slt : (⟨S8, .i32⟩ : BufTy).Contents (Elt F) → (⟨S8, .i32⟩ : BufTy).Contents (Elt F) → (⟨S8, .i1⟩ : BufTy).Contents (Elt F)),
    StableHlo.nullary main_c_18 (constantI S_ 32 8#32),
    StableHlo.unary main_c_18 main_v270 (broadcastInDim S8 ![] bcast_S_S8 : (⟨S_, .i32⟩ : BufTy).Contents (Elt F) → (⟨S8, .i32⟩ : BufTy).Contents (Elt F)),
    StableHlo.binary main_v267 main_v270 main_v271 (addi : (⟨S8, .i32⟩ : BufTy).Contents (Elt F) → (⟨S8, .i32⟩ : BufTy).Contents (Elt F) → (⟨S8, .i32⟩ : BufTy).Contents (Elt F)),
    StableHlo.ternary main_v269 main_v271 main_v267 main_v272 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v272 main_v273 (broadcastInDim S8x1 ![0] bcast_S8_S8x1_0 : (⟨S8, .i32⟩ : BufTy).Contents (Elt F) → (⟨S8x1, .i32⟩ : BufTy).Contents (Elt F)),
    StableHlo.binary main_v259 main_v273 main_v274 ((fun x i => Host.gather gather_S3x8_S8x1_S3x8_0_1_n_n_1_1_31 x i) : (⟨S3x8, .f32⟩ : BufTy).Contents (Elt F) → (⟨S8x1, .i32⟩ : BufTy).Contents (Elt F) → (⟨S3x8, .f32⟩ : BufTy).Contents (Elt F)) ]

/-- Running two lines one after the other is running their concatenation. -/
theorem after_append {τ : Topo} {sig : RefSig} {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons op l ih => exact ih _

/-- The program's third stretch of host operations is the starting state, the rotations and the two gates, in order. -/
theorem hostOps0_2_eq : (hostOps0_2 : List (HloOp τ sig (Elt F))) =
    opsInit ++ (opsRot0 ++ (opsRot1 ++ (opsRot2 ++ (opsRot3 ++ (opsRot4 ++ (opsRot5 ++ (opsRot6 ++ (opsRot7 ++ (opsRot8 ++ (opsCx01 ++ opsCx12)))))))))) := rfl

end Cert.Quanv.KHost

end
-- ==== Proof.KernHostFn.lean ====
/-
  The stretches of the host program as functions of the arrays they read: a column of the weights as
  three angles; the cosine and sine of the half angles; a rotation on each of the three qubits, which
  re-lays a row of eight amplitudes with the qubit's bit as an axis of its own, mixes the two halves and
  re-stacks them; a controlled-NOT as a gather along the state axis at a computed index vector.
-/
import proofs.«180459_j52956946760354_2_alg».proof.Proof.FrameKernelIdealP
import Idealize.ShloMosaic.Lib.StableHlo.Run
import Idealize.ShloMosaic.Lib.ValueIdx
import Idealize.ShloMosaic.Lib.Pipeline.Value
import proofs.«180459_j52956946760354_2_alg».proof.Proof.Spec

noncomputable section

namespace Cert.Quanv.KHost

open Cert.KernelIdeal Cert.KernelIdeal.Gen Cert.KernelIdeal.GenP Cert.Quanv
open Idealize.ShloMosaic Idealize.ShloMosaic.ValueIdx Idealize.ShloMosaic.TcCoe

variable {F : FTy → Type} [FloatOps F]

/-- The uniform starting state. -/
def psi0 : (⟨S3x8, .f32⟩ : BufTy).Contents (Elt F) :=
  broadcastInDim S3x8 ![] bcast_S_S3x8 (constant S_ .f32 0x3EB504F3#32)

/-! ### Column k of the weights: one angle per row -/
def col0 (W : (⟨S3x9, .f32⟩ : BufTy).Contents (Elt F)) : (⟨S3, .f32⟩ : BufTy).Contents (Elt F) :=
  shapeCast S3 (extractStridedSlice S3x1 ![0, 0] W slices_S3x9_S3x1_0_0) shapeCasts_S3x1_S3
def col1 (W : (⟨S3x9, .f32⟩ : BufTy).Contents (Elt F)) : (⟨S3, .f32⟩ : BufTy).Contents (Elt F) :=
  shapeCast S3 (extractStridedSlice S3x1 ![0, 1] W slices_S3x9_S3x1_0_1) shapeCasts_S3x1_S3
def col2 (W : (⟨S3x9, .f32⟩ : BufTy).Contents (Elt F)) : (⟨S3, .f32⟩ : BufTy).Contents (Elt F) :=
  shapeCast S3 (extractStridedSlice S3x1 ![0, 2] W slices_S3x9_S3x1_0_2) shapeCasts_S3x1_S3
def col3 (W : (⟨S3x9, .f32⟩ : BufTy).Contents (Elt F)) : (⟨S3, .f32⟩ : BufTy).Contents (Elt F) :=
  shapeCast S3 (extractStridedSlice S3x1 ![0, 3] W slices_S3x9_S3x1_0_3) shapeCasts_S3x1_S3
def col4 (W : (⟨S3x9, .f32⟩ : BufTy).Contents (Elt F)) : (⟨S3, .f32⟩ : BufTy).Contents (Elt F) :=
  shapeCast S3 (extractStridedSlice S3x1 ![0, 4] W slices_S3x9_S3x1_0_4) shapeCasts_S3x1_S3
def col5 (W : (⟨S3x9, .f32⟩ : BufTy).Contents (Elt F)) : (⟨S3, .f32⟩ : BufTy).Contents (Elt F) :=
  shapeCast S3 (extractStridedSlice S3x1 ![0, 5] W slices_S3x9_S3x1_0_5) shapeCasts_S3x1_S3
def col6 (W : (⟨S3x9, .f32⟩ : BufTy).Contents (Elt F)) : (⟨S3, .f32⟩ : BufTy).Contents (Elt F) :=
  shapeCast S3 (extractStridedSlice S3x1 ![0, 6] W slices_S3x9_S3x1_0_6) shapeCasts_S3x1_S3
def col7 (W : (⟨S3x9, .f32⟩ : BufTy).Contents (Elt F)) : (⟨S3, .f32⟩ : BufTy).Contents (Elt F) :=
  shapeCast S3 (extractStridedSlice S3x1 ![0, 7] W slices_S3x9_S3x1_0_7) shapeCasts_S3x1_S3
def col8 (W : (⟨S3x9, .f32⟩ : BufTy).Contents (Elt F)) : (⟨S3, .f32⟩ : BufTy).Contents (Elt F) :=
  shapeCast S3 (extractStridedSlice S3x1 ![0, 8] W slices_S3x9_S3x1_0_8) shapeCasts_S3x1_S3

/-- The angles halved. -/
def halfAngle (θ : (⟨S3, .f32⟩ : BufTy).Contents (Elt F)) : (⟨S3, .f32⟩ : BufTy).Contents (Elt F) :=
  mulf θ (broadcastInDim S3 ![] bcast_S_S3 (constant S_ .f32 0x3F000000#32))

/-- The cosines of the half angles, one per row. -/
def cosB (θ : (⟨S3, .f32⟩ : BufTy).Contents (Elt F)) : (⟨S3x1x1, .f32⟩ : BufTy).Contents (Elt F) :=
  broadcastInDim S3x1x1 ![0] bcast_S3_S3x1x1_0 (Host.cos (halfAngle θ))

/-- The sines of the half angles, one per row. -/
def sinB (θ : (⟨S3, .f32⟩ : BufTy).Contents (Elt F)) : (⟨S3x1x1, .f32⟩ : BufTy).Contents (Elt F) :=
  broadcastInDim S3x1x1 ![0] bcast_S3_S3x1x1_0 (Host.sin (halfAngle θ))

/-! ### Qubit 0: the state as 3×4×2×1, the qubit's bit the third axis -/

/-- The amplitudes whose bit 0 is clear, as 3×4×1. -/
def lo0 (psi : (⟨S3x8, .f32⟩ : BufTy).Contents (Elt F)) : (⟨S3x4x1, .f32⟩ : BufTy).Contents (Elt F) :=
  shapeCast S3x4x1 (extractStridedSlice S3x4x1x1 ![0, 0, 0, 0] (shapeCast S3x4x2x1 psi shapeCasts_S3x8_S3x4x2x1) slices_S3x4x2x1_S3x4x1x1_0_0_0_0) shapeCasts_S3x4x1x1_S3x4x1

/-- The amplitudes whose bit 0 is set. -/
def hi0 (psi : (⟨S3x8, .f32⟩ : BufTy).Contents (Elt F)) : (⟨S3x4x1, .f32⟩ : BufTy).Contents (Elt F) :=
  shapeCast S3x4x1 (extractStridedSlice S3x4x1x1 ![0, 0, 1, 0] (shapeCast S3x4x2x1 psi shapeCasts_S3x8_S3x4x2x1) slices_S3x4x2x1_S3x4x1x1_0_0_1_0) shapeCasts_S3x4x1x1_S3x4x1

/-- A per-row scalar spread over the row's half state. -/
def bc0 (x : (⟨S3x1x1, .f32⟩ : BufTy).Contents (Elt F)) : (⟨S3x4x1, .f32⟩ : BufTy).Contents (Elt F) :=
  broadcastInDim S3x4x1 ![0, 1, 2] bcast_S3x1x1_S3x4x1_0_1_2 x

/-- The two new halves stacked on the bit's axis and flattened to rows of eight. -/
def stack0 (a b : (⟨S3x4x1, .f32⟩ : BufTy).Contents (Elt F)) : (⟨S3x8, .f32⟩ : BufTy).Contents (Elt F) :=
  shapeCast S3x8 (concatenate S3x4x2x1 2 [⟨S3x4x1x1, broadcastInDim S3x4x1x1 ![0, 1, 3] bcast_S3x4x1_S3x4x1x1_0_1_3 a⟩, ⟨S3x4x1x1, broadcastInDim S3x4x1x1 ![0, 1, 3] bcast_S3x4x1_S3x4x1x1_0_1_3 b⟩] concatenates_S3x4x1x1_S3x4x1x1_S3x4x2x1_d2) shapeCasts_S3x4x2x1_S3x8

/-- The rotation on qubit 0 by the three rows' angles θ: the clear half becomes c·lo − s·hi, the set half s·lo + c·hi. -/
def rotQ0 (θ : (⟨S3, .f32⟩ : BufTy).Contents (Elt F)) (psi : (⟨S3x8, .f32⟩ : BufTy).Contents (Elt F)) : (⟨S3x8, .f32⟩ : BufTy).Contents (Elt F) :=
  stack0 (subf (mulf (bc0 (cosB θ)) (lo0 psi)) (mulf (bc0 (sinB θ)) (hi0 psi)))
    (addf (mulf (bc0 (sinB θ)) (lo0 psi)) (mulf (bc0 (cosB θ)) (hi0 psi)))

/-! ### Qubit 1: the state as 3×2×2×2, the qubit's bit the third axis -/

/-- The amplitudes whose bit 1 is clear, as 3×2×2. -/
def lo1 (psi : (⟨S3x8, .f32⟩ : BufTy).Contents (Elt F)) : (⟨S3x2x2, .f32⟩ : BufTy).Contents (Elt F) :=
  shapeCast S3x2x2 (extractStridedSlice S3x2x1x2 ![0, 0, 0, 0] (shapeCast S3x2x2x2 psi shapeCasts_S3x8_S3x2x2x2) slices_S3x2x2x2_S3x2x1x2_0_0_0_0) shapeCasts_S3x2x1x2_S3x2x2

/-- The amplitudes whose bit 1 is set. -/
def hi1 (psi : (⟨S3x8, .f32⟩ : BufTy).Contents (Elt F)) : (⟨S3x2x2, .f32⟩ : BufTy).Contents (Elt F) :=
  shapeCast S3x2x2 (extractStridedSlice S3x2x1x2 ![0, 0, 1, 0] (shapeCast S3x2x2x2 psi shapeCasts_S3x8_S3x2x2x2) slices_S3x2x2x2_S3x2x1x2_0_0_1_0) shapeCasts_S3x2x1x2_S3x2x2

/-- A per-row scalar spread over the row's half state. -/
def bc1 (x : (⟨S3x1x1, .f32⟩ : BufTy).Contents (Elt F)) : (⟨S3x2x2, .f32⟩ : BufTy).Contents (Elt F) :=
  broadcastInDim S3x2x2 ![0, 1, 2] bcast_S3x1x1_S3x2x2_0_1_2 x

/-- The two new halves stacked on the bit's axis and flattened to rows of eight. -/
def stack1 (a b : (⟨S3x2x2, .f32⟩ : BufTy).Contents (Elt F)) : (⟨S3x8, .f32⟩ : BufTy).Contents (Elt F) :=
  shapeCast S3x8 (concatenate S3x2x2x2 2 [⟨S3x2x1x2, broadcastInDim S3x2x1x2 ![0, 1, 3] bcast_S3x2x2_S3x2x1x2_0_1_3 a⟩, ⟨S3x2x1x2, broadcastInDim S3x2x1x2 ![0, 1, 3] bcast_S3x2x2_S3x2x1x2_0_1_3 b⟩] concatenates_S3x2x1x2_S3x2x1x2_S3x2x2x2_d2) shapeCasts_S3x2x2x2_S3x8

/-- The rotation on qubit 1 by the three rows' angles θ: the clear half becomes c·lo − s·hi, the set half s·lo + c·hi. -/
def rotQ1 (θ : (⟨S3, .f32⟩ : BufTy).Contents (Elt F)) (psi : (⟨S3x8, .f32⟩ : BufTy).Contents (Elt F)) : (⟨S3x8, .f32⟩ : BufTy).Contents (Elt F) :=
  stack1 (subf (mulf (bc1 (cosB θ)) (lo1 psi)) (mulf (bc1 (sinB θ)) (hi1 psi)))
    (addf (mulf (bc1 (sinB θ)) (lo1 psi)) (mulf (bc1 (cosB θ)) (hi1 psi)))

/-! ### Qubit 2: the state as 3×1×2×4, the qubit's bit the third axis -/

/-- The amplitudes whose bit 2 is clear, as 3×1×4. -/
def lo2 (psi : (⟨S3x8, .f32⟩ : BufTy).Contents (Elt F)) : (⟨S3x1x4, .f32⟩ : BufTy).Contents (Elt F) :=
  shapeCast S3x1x4 (extractStridedSlice S3x1x1x4 ![0, 0, 0, 0] (shapeCast S3x1x2x4 psi shapeCasts_S3x8_S3x1x2x4) slices_S3x1x2x4_S3x1x1x4_0_0_0_0) shapeCasts_S3x1x1x4_S3x1x4

/-- The amplitudes whose bit 2 is set. -/
def hi2 (psi : (⟨S3x8, .f32⟩ : BufTy).Contents (Elt F)) : (⟨S3x1x4, .f32⟩ : BufTy).Contents (Elt F) :=
  shapeCast S3x1x4 (extractStridedSlice S3x1x1x4 ![0, 0, 1, 0] (shapeCast S3x1x2x4 psi shapeCasts_S3x8_S3x1x2x4) slices_S3x1x2x4_S3x1x1x4_0_0_1_0) shapeCasts_S3x1x1x4_S3x1x4

/-- A per-row scalar spread over the row's half state. -/
def bc2 (x : (⟨S3x1x1, .f32⟩ : BufTy).Contents (Elt F)) : (⟨S3x1x4, .f32⟩ : BufTy).Contents (Elt F) :=
  broadcastInDim S3x1x4 ![0, 1, 2] bcast_S3x1x1_S3x1x4_0_1_2 x

/-- The two new halves stacked on the bit's axis and flattened to rows of eight. -/
def stack2 (a b : (⟨S3x1x4, .f32⟩ : BufTy).Contents (Elt F)) : (⟨S3x8, .f32⟩ : BufTy).Contents (Elt F) :=
  shapeCast S3x8 (concatenate S3x1x2x4 2 [⟨S3x1x1x4, broadcastInDim S3x1x1x4 ![0, 1, 3] bcast_S3x1x4_S3x1x1x4_0_1_3 a⟩, ⟨S3x1x1x4, broadcastInDim S3x1x1x4 ![0, 1, 3] bcast_S3x1x4_S3x1x1x4_0_1_3 b⟩] concatenates_S3x1x1x4_S3x1x1x4_S3x1x2x4_d2) shapeCasts_S3x1x2x4_S3x8

/-- The rotation on qubit 2 by the three rows' angles θ: the clear half becomes c·lo − s·hi, the set half s·lo + c·hi. -/
def rotQ2 (θ : (⟨S3, .f32⟩ : BufTy).Contents (Elt F)) (psi : (⟨S3x8, .f32⟩ : BufTy).Contents (Elt F)) : (⟨S3x8, .f32⟩ : BufTy).Contents (Elt F) :=
  stack2 (subf (mulf (bc2 (cosB θ)) (lo2 psi)) (mulf (bc2 (sinB θ)) (hi2 psi)))
    (addf (mulf (bc2 (sinB θ)) (lo2 psi)) (mulf (bc2 (cosB θ)) (hi2 psi)))

/-! ### A controlled-NOT: basis state d takes the amplitude at d xor (((d >> sh) & 1) << amt) -/

/-- An integer constant spread over the eight basis states. -/
def bcI (b : BitVec 32) : (⟨S8, .i32⟩ : BufTy).Contents (Elt F) :=
  broadcastInDim S8 ![] bcast_S_S8 (constantI S_ 32 b)

/-- The source position of each basis state. -/
def cxSrc (sh amt : BitVec 32) : (⟨S8, .i32⟩ : BufTy).Contents (Elt F) :=
  xori (iotaInDim S8 32 0) (Host.shli (andi (Host.shrsi (iotaInDim S8 32 0) (bcI (F := F) sh)) (bcI (F := F) 1#32)) (bcI (F := F) amt))

/-- The source positions as start indices: a negative one wrapped by eight (none is), as a column. -/
def cxIdx (sh amt : BitVec 32) : (⟨S8x1, .i32⟩ : BufTy).Contents (Elt F) :=
  broadcastInDim S8x1 ![0] bcast_S8_S8x1_0
    (select (cmpi .slt (cxSrc (F := F) sh amt) (bcI (F := F) 0#32)) (addi (cxSrc (F := F) sh amt) (bcI (F := F) 8#32)) (cxSrc (F := F) sh amt))

/-- The gate: each row gathered along the state axis at the source positions. -/
def cxFn (sh amt : BitVec 32) (psi : (⟨S3x8, .f32⟩ : BufTy).Contents (Elt F)) : (⟨S3x8, .f32⟩ : BufTy).Contents (Elt F) :=
  Host.gather gather_S3x8_S8x1_S3x8_0_1_n_n_1_1_31 psi (cxIdx (F := F) sh amt)

end Cert.Quanv.KHost

end
-- ==== Proof.KernHostRunA.lean ====
/-
  The starting state and rotations 0 to 2, run from any contents.
  Each stretch of the host program leaves in its result buffer its function of the buffers it read,
  whatever the contents it started from, and leaves the weights alone.
-/
import proofs.«180459_j52956946760354_2_alg».proof.Proof.KernHostOps
import proofs.«180459_j52956946760354_2_alg».proof.Proof.KernHostFn

noncomputable section

namespace Cert.Quanv.KHost

open Cert.KernelIdeal Cert.KernelIdeal.Gen Cert.KernelIdeal.GenP Cert.Quanv
open Idealize.ShloMosaic Idealize.ShloMosaic.ValueIdx Idealize.ShloMosaic.TcCoe

set_option maxRecDepth 16384

/-- The first stretch leaves the uniform state. -/
theorem init_out (W : Valuation τ sig (Elt Ideal)) :
    StableHlo.after (opsInit (F := Ideal)) W (Proc.devRef .tc main_v1) = psi0 (F := Ideal) := by
  dsimp only [opsInit]
  after_results_simp
  rfl

/-- The first stretch does not write the weights. -/
theorem init_arg1 (W : Valuation τ sig (Elt Ideal)) :
    StableHlo.after (opsInit (F := Ideal)) W (Proc.devRef .tc main_arg1) = W (Proc.devRef .tc main_arg1) := by
  dsimp only [opsInit]
  after_results_simp

/-- Rotation 0 leaves in its result the rotation on qubit 0, by column 0 of the weights, of the state it found. -/
theorem rot0_out (W : Valuation τ sig (Elt Ideal)) :
    StableHlo.after (opsRot0 (F := Ideal)) W (Proc.devRef .tc main_v28)
      = rotQ0 (F := Ideal) (col0 (F := Ideal) (W (Proc.devRef .tc main_arg1))) (W (Proc.devRef .tc main_v1)) := by
  dsimp only [opsRot0]
  after_results_simp
  rfl

/-- Rotation 0 does not write the weights. -/
theorem rot0_arg1 (W : Valuation τ sig (Elt Ideal)) :
    StableHlo.after (opsRot0 (F := Ideal)) W (Proc.devRef .tc main_arg1) = W (Proc.devRef .tc main_arg1) := by
  dsimp only [opsRot0]
  after_results_simp

/-- Rotation 1 leaves in its result the rotation on qubit 1, by column 1 of the weights, of the state it found. -/
theorem rot1_out (W : Valuation τ sig (Elt Ideal)) :
    StableHlo.after (opsRot1 (F := Ideal)) W (Proc.devRef .tc main_v55)
      = rotQ1 (F := Ideal) (col1 (F := Ideal) (W (Proc.devRef .tc main_arg1))) (W (Proc.devRef .tc main_v28)) := by
  dsimp only [opsRot1]
  after_results_simp
  rfl

/-- Rotation 1 does not write the weights. -/
theorem rot1_arg1 (W : Valuation τ sig (Elt Ideal)) :
    StableHlo.after (opsRot1 (F := Ideal)) W (Proc.devRef .tc main_arg1) = W (Proc.devRef .tc main_arg1) := by
  dsimp only [opsRot1]
  after_results_simp

/-- Rotation 2 leaves in its result the rotation on qubit 2, by column 2 of the weights, of the state it found. -/
theorem rot2_out (W : Valuation τ sig (Elt Ideal)) :
    StableHlo.after (opsRot2 (F := Ideal)) W (Proc.devRef .tc main_v82)
      = rotQ2 (F := Ideal) (col2 (F := Ideal) (W (Proc.devRef .tc main_arg1))) (W (Proc.devRef .tc main_v55)) := by
  dsimp only [opsRot2]
  after_results_simp
  rfl

/-- Rotation 2 does not write the weights. -/
theorem rot2_arg1 (W : Valuation τ sig (Elt Ideal)) :
    StableHlo.after (opsRot2 (F := Ideal)) W (Proc.devRef .tc main_arg1) = W (Proc.devRef .tc main_arg1) := by
  dsimp only [opsRot2]
  after_results_simp

end Cert.Quanv.KHost

end
-- ==== Proof.KernHostRunB.lean ====
/-
  Rotations 3 to 5, run from any contents.
  Each stretch of the host program leaves in its result buffer its function of the buffers it read,
  whatever the contents it started from, and leaves the weights alone.
-/
import proofs.«180459_j52956946760354_2_alg».proof.Proof.KernHostOps
import proofs.«180459_j52956946760354_2_alg».proof.Proof.KernHostFn

noncomputable section

namespace Cert.Quanv.KHost

open Cert.KernelIdeal Cert.KernelIdeal.Gen Cert.KernelIdeal.GenP Cert.Quanv
open Idealize.ShloMosaic Idealize.ShloMosaic.ValueIdx Idealize.ShloMosaic.TcCoe

set_option maxRecDepth 16384

/-- Rotation 3 leaves in its result the rotation on qubit 0, by column 3 of the weights, of the state it found. -/
theorem rot3_out (W : Valuation τ sig (Elt Ideal)) :
    StableHlo.after (opsRot3 (F := Ideal)) W (Proc.devRef .tc main_v109)
      = rotQ0 (F := Ideal) (col3 (F := Ideal) (W (Proc.devRef .tc main_arg1))) (W (Proc.devRef .tc main_v82)) := by
  dsimp only [opsRot3]
  after_results_simp
  rfl

/-- Rotation 3 does not write the weights. -/
theorem rot3_arg1 (W : Valuation τ sig (Elt Ideal)) :
    StableHlo.after (opsRot3 (F := Ideal)) W (Proc.devRef .tc main_arg1) = W (Proc.devRef .tc main_arg1) := by
  dsimp only [opsRot3]
  after_results_simp

/-- Rotation 4 leaves in its result the rotation on qubit 1, by column 4 of the weights, of the state it found. -/
theorem rot4_out (W : Valuation τ sig (Elt Ideal)) :
    StableHlo.after (opsRot4 (F := Ideal)) W (Proc.devRef .tc main_v136)
      = rotQ1 (F := Ideal) (col4 (F := Ideal) (W (Proc.devRef .tc main_arg1))) (W (Proc.devRef .tc main_v109)) := by
  dsimp only [opsRot4]
  after_results_simp
  rfl

/-- Rotation 4 does not write the weights. -/
theorem rot4_arg1 (W : Valuation τ sig (Elt Ideal)) :
    StableHlo.after (opsRot4 (F := Ideal)) W (Proc.devRef .tc main_arg1) = W (Proc.devRef .tc main_arg1) := by
  dsimp only [opsRot4]
  after_results_simp

/-- Rotation 5 leaves in its result the rotation on qubit 2, by column 5 of the weights, of the state it found. -/
theorem rot5_out (W : Valuation τ sig (Elt Ideal)) :
    StableHlo.after (opsRot5 (F := Ideal)) W (Proc.devRef .tc main_v163)
      = rotQ2 (F := Ideal) (col5 (F := Ideal) (W (Proc.devRef .tc main_arg1))) (W (Proc.devRef .tc main_v136)) := by
  dsimp only [opsRot5]
  after_results_simp
  rfl

/-- Rotation 5 does not write the weights. -/
theorem rot5_arg1 (W : Valuation τ sig (Elt Ideal)) :
    StableHlo.after (opsRot5 (F := Ideal)) W (Proc.devRef .tc main_arg1) = W (Proc.devRef .tc main_arg1) := by
  dsimp only [opsRot5]
  after_results_simp

end Cert.Quanv.KHost

end
-- ==== Proof.KernHostRunC.lean ====
/-
  Rotations 6 to 8, run from any contents.
  Each stretch of the host program leaves in its result buffer its function of the buffers it read,
  whatever the contents it started from, and leaves the weights alone.
-/
import proofs.«180459_j52956946760354_2_alg».proof.Proof.KernHostOps
import proofs.«180459_j52956946760354_2_alg».proof.Proof.KernHostFn

noncomputable section

namespace Cert.Quanv.KHost

open Cert.KernelIdeal Cert.KernelIdeal.Gen Cert.KernelIdeal.GenP Cert.Quanv
open Idealize.ShloMosaic Idealize.ShloMosaic.ValueIdx Idealize.ShloMosaic.TcCoe

set_option maxRecDepth 16384

/-- Rotation 6 leaves in its result the rotation on qubit 0, by column 6 of the weights, of the state it found. -/
theorem rot6_out (W : Valuation τ sig (Elt Ideal)) :
    StableHlo.after (opsRot6 (F := Ideal)) W (Proc.devRef .tc main_v190)
      = rotQ0 (F := Ideal) (col6 (F := Ideal) (W (Proc.devRef .tc main_arg1))) (W (Proc.devRef .tc main_v163)) := by
  dsimp only [opsRot6]
  after_results_simp
  rfl

/-- Rotation 6 does not write the weights. -/
theorem rot6_arg1 (W : Valuation τ sig (Elt Ideal)) :
    StableHlo.after (opsRot6 (F := Ideal)) W (Proc.devRef .tc main_arg1) = W (Proc.devRef .tc main_arg1) := by
  dsimp only [opsRot6]
  after_results_simp

/-- Rotation 7 leaves in its result the rotation on qubit 1, by column 7 of the weights, of the state it found. -/
theorem rot7_out (W : Valuation τ sig (Elt Ideal)) :
    StableHlo.after (opsRot7 (F := Ideal)) W (Proc.devRef .tc main_v217)
      = rotQ1 (F := Ideal) (col7 (F := Ideal) (W (Proc.devRef .tc main_arg1))) (W (Proc.devRef .tc main_v190)) := by
  dsimp only [opsRot7]
  after_results_simp
  rfl

/-- Rotation 7 does not write the weights. -/
theorem rot7_arg1 (W : Valuation τ sig (Elt Ideal)) :
    StableHlo.after (opsRot7 (F := Ideal)) W (Proc.devRef .tc main_arg1) = W (Proc.devRef .tc main_arg1) := by
  dsimp only [opsRot7]
  after_results_simp

/-- Rotation 8 leaves in its result the rotation on qubit 2, by column 8 of the weights, of the state it found. -/
theorem rot8_out (W : Valuation τ sig (Elt Ideal)) :
    StableHlo.after (opsRot8 (F := Ideal)) W (Proc.devRef .tc main_v244)
      = rotQ2 (F := Ideal) (col8 (F := Ideal) (W (Proc.devRef .tc main_arg1))) (W (Proc.devRef .tc main_v217)) := by
  dsimp only [opsRot8]
  after_results_simp
  rfl

/-- Rotation 8 does not write the weights. -/
theorem rot8_arg1 (W : Valuation τ sig (Elt Ideal)) :
    StableHlo.after (opsRot8 (F := Ideal)) W (Proc.devRef .tc main_arg1) = W (Proc.devRef .tc main_arg1) := by
  dsimp only [opsRot8]
  after_results_simp

end Cert.Quanv.KHost

end
-- ==== Proof.KernHostRunD.lean ====
/-
  The two controlled-NOTs, and the operations before the starting state (the padding of the images), run from any contents.
  Each stretch of the host program leaves in its result buffer its function of the buffers it read,
  whatever the contents it started from, and leaves the weights alone.
-/
import proofs.«180459_j52956946760354_2_alg».proof.Proof.KernHostOps
import proofs.«180459_j52956946760354_2_alg».proof.Proof.KernHostFn

noncomputable section

namespace Cert.Quanv.KHost

open Cert.KernelIdeal Cert.KernelIdeal.Gen Cert.KernelIdeal.GenP Cert.Quanv
open Idealize.ShloMosaic Idealize.ShloMosaic.ValueIdx Idealize.ShloMosaic.TcCoe

set_option maxRecDepth 16384

/-- The first gate's stretch leaves the gather of the state it found at its source positions. -/
theorem cx01_out (W : Valuation τ sig (Elt Ideal)) :
    StableHlo.after (opsCx01 (F := Ideal)) W (Proc.devRef .tc main_v259)
      = cxFn (F := Ideal) 0#32 1#32 (W (Proc.devRef .tc main_v244)) := by
  dsimp only [opsCx01]
  after_results_simp
  rfl

/-- The second gate's stretch. -/
theorem cx12_out (W : Valuation τ sig (Elt Ideal)) :
    StableHlo.after (opsCx12 (F := Ideal)) W (Proc.devRef .tc main_v274)
      = cxFn (F := Ideal) 1#32 2#32 (W (Proc.devRef .tc main_v259)) := by
  dsimp only [opsCx12]
  after_results_simp
  rfl

/-- The integer zero and the padding do not write the weights. -/
theorem pre0_arg1 (W : Valuation τ sig (Elt Ideal)) :
    StableHlo.after (hostOps0 (F := Ideal)) W (Proc.devRef .tc main_arg1) = W (Proc.devRef .tc main_arg1) := by
  dsimp only [hostOps0]
  after_results_simp

theorem pre1_arg1 (W : Valuation τ sig (Elt Ideal)) :
    StableHlo.after (hostOps0_1 (F := Ideal)) W (Proc.devRef .tc main_arg1) = W (Proc.devRef .tc main_arg1) := by
  dsimp only [hostOps0_1]
  after_results_simp

end Cert.Quanv.KHost

end
-- ==== Proof.KernHostAngle.lean ====
/-
  The pieces every rotation shares, read at an index: a column of the weights is one angle per row; the
  broadcast cosine and sine at row i are the cosine and sine of that row's angle times one half; the
  starting state is the uniform amplitude everywhere.
-/
import proofs.«180459_j52956946760354_2_alg».proof.Proof.KernHostFn

noncomputable section

namespace Cert.Quanv.KHost

open Cert.KernelIdeal Cert.KernelIdeal.Gen Cert.KernelIdeal.GenP Cert.Quanv
open Idealize.ShloMosaic Idealize.ShloMosaic.ValueIdx Idealize.ShloMosaic.TcCoe

/-- Row i of a three-row state array, as a state. -/
def row (x : (⟨S3x8, .f32⟩ : BufTy).Contents (Elt Ideal)) (i : Fin 3) : St := fun d => x (ix2 i d)

/-- The starting state is the uniform amplitude at every basis state of every row. -/
theorem psi0_row (i : Fin 3) : row (psi0 (F := Ideal)) i = fun _ => amp0 := rfl

/-- Column 0 of the weights at row i. -/
theorem col0_apply (W : (⟨S3x9, .f32⟩ : BufTy).Contents (Elt Ideal)) (i : Fin 3) : col0 (F := Ideal) W (ix1 i) = W (ix2 i (0 : Fin 9)) := by
  unfold col0
  refine (shapeCast_apply _ _ (ix1 i) (ix2 i (0 : Fin 1)) (by
    rw [Shape.rowMajor_val_two, Shape.rowMajor_val_one]
    show i.val * 1 + 0 = i.val
    omega)).trans ?_
  exact extractStridedSlice_apply _ _ _ (ix2 i (0 : Fin 1)) (ix2 i (0 : Fin 9)) (fun e => match e with
    | ⟨0, _⟩ => by show i.val = 0 + i.val; omega
    | ⟨1, _⟩ => by show 0 = 0 + 0; omega)

/-- Column 1 of the weights at row i. -/
theorem col1_apply (W : (⟨S3x9, .f32⟩ : BufTy).Contents (Elt Ideal)) (i : Fin 3) : col1 (F := Ideal) W (ix1 i) = W (ix2 i (1 : Fin 9)) := by
  unfold col1
  refine (shapeCast_apply _ _ (ix1 i) (ix2 i (0 : Fin 1)) (by
    rw [Shape.rowMajor_val_two, Shape.rowMajor_val_one]
    show i.val * 1 + 0 = i.val
    omega)).trans ?_
  exact extractStridedSlice_apply _ _ _ (ix2 i (0 : Fin 1)) (ix2 i (1 : Fin 9)) (fun e => match e with
    | ⟨0, _⟩ => by show i.val = 0 + i.val; omega
    | ⟨1, _⟩ => by show 1 = 1 + 0; omega)

/-- Column 2 of the weights at row i. -/
theorem col2_apply (W : (⟨S3x9, .f32⟩ : BufTy).Contents (Elt Ideal)) (i : Fin 3) : col2 (F := Ideal) W (ix1 i) = W (ix2 i (2 : Fin 9)) := by
  unfold col2
  refine (shapeCast_apply _ _ (ix1 i) (ix2 i (0 : Fin 1)) (by
    rw [Shape.rowMajor_val_two, Shape.rowMajor_val_one]
    show i.val * 1 + 0 = i.val
    omega)).trans ?_
  exact extractStridedSlice_apply _ _ _ (ix2 i (0 : Fin 1)) (ix2 i (2 : Fin 9)) (fun e => match e with
    | ⟨0, _⟩ => by show i.val = 0 + i.val; omega
    | ⟨1, _⟩ => by show 2 = 2 + 0; omega)

/-- Column 3 of the weights at row i. -/
theorem col3_apply (W : (⟨S3x9, .f32⟩ : BufTy).Contents (Elt Ideal)) (i : Fin 3) : col3 (F := Ideal) W (ix1 i) = W (ix2 i (3 : Fin 9)) := by
  unfold col3
  refine (shapeCast_apply _ _ (ix1 i) (ix2 i (0 : Fin 1)) (by
    rw [Shape.rowMajor_val_two, Shape.rowMajor_val_one]
    show i.val * 1 + 0 = i.val
    omega)).trans ?_
  exact extractStridedSlice_apply _ _ _ (ix2 i (0 : Fin 1)) (ix2 i (3 : Fin 9)) (fun e => match e with
    | ⟨0, _⟩ => by show i.val = 0 + i.val; omega
    | ⟨1, _⟩ => by show 3 = 3 + 0; omega)

/-- Column 4 of the weights at row i. -/
theorem col4_apply (W : (⟨S3x9, .f32⟩ : BufTy).Contents (Elt Ideal)) (i : Fin 3) : col4 (F := Ideal) W (ix1 i) = W (ix2 i (4 : Fin 9)) := by
  unfold col4
  refine (shapeCast_apply _ _ (ix1 i) (ix2 i (0 : Fin 1)) (by
    rw [Shape.rowMajor_val_two, Shape.rowMajor_val_one]
    show i.val * 1 + 0 = i.val
    omega)).trans ?_
  exact extractStridedSlice_apply _ _ _ (ix2 i (0 : Fin 1)) (ix2 i (4 : Fin 9)) (fun e => match e with
    | ⟨0, _⟩ => by show i.val = 0 + i.val; omega
    | ⟨1, _⟩ => by show 4 = 4 + 0; omega)

/-- Column 5 of the weights at row i. -/
theorem col5_apply (W : (⟨S3x9, .f32⟩ : BufTy).Contents (Elt Ideal)) (i : Fin 3) : col5 (F := Ideal) W (ix1 i) = W (ix2 i (5 : Fin 9)) := by
  unfold col5
  refine (shapeCast_apply _ _ (ix1 i) (ix2 i (0 : Fin 1)) (by
    rw [Shape.rowMajor_val_two, Shape.rowMajor_val_one]
    show i.val * 1 + 0 = i.val
    omega)).trans ?_
  exact extractStridedSlice_apply _ _ _ (ix2 i (0 : Fin 1)) (ix2 i (5 : Fin 9)) (fun e => match e with
    | ⟨0, _⟩ => by show i.val = 0 + i.val; omega
    | ⟨1, _⟩ => by show 5 = 5 + 0; omega)

/-- Column 6 of the weights at row i. -/
theorem col6_apply (W : (⟨S3x9, .f32⟩ : BufTy).Contents (Elt Ideal)) (i : Fin 3) : col6 (F := Ideal) W (ix1 i) = W (ix2 i (6 : Fin 9)) := by
  unfold col6
  refine (shapeCast_apply _ _ (ix1 i) (ix2 i (0 : Fin 1)) (by
    rw [Shape.rowMajor_val_two, Shape.rowMajor_val_one]
    show i.val * 1 + 0 = i.val
    omega)).trans ?_
  exact extractStridedSlice_apply _ _ _ (ix2 i (0 : Fin 1)) (ix2 i (6 : Fin 9)) (fun e => match e with
    | ⟨0, _⟩ => by show i.val = 0 + i.val; omega
    | ⟨1, _⟩ => by show 6 = 6 + 0; omega)

/-- Column 7 of the weights at row i. -/
theorem col7_apply (W : (⟨S3x9, .f32⟩ : BufTy).Contents (Elt Ideal)) (i : Fin 3) : col7 (F := Ideal) W (ix1 i) = W (ix2 i (7 : Fin 9)) := by
  unfold col7
  refine (shapeCast_apply _ _ (ix1 i) (ix2 i (0 : Fin 1)) (by
    rw [Shape.rowMajor_val_two, Shape.rowMajor_val_one]
    show i.val * 1 + 0 = i.val
    omega)).trans ?_
  exact extractStridedSlice_apply _ _ _ (ix2 i (0 : Fin 1)) (ix2 i (7 : Fin 9)) (fun e => match e with
    | ⟨0, _⟩ => by show i.val = 0 + i.val; omega
    | ⟨1, _⟩ => by show 7 = 7 + 0; omega)

/-- Column 8 of the weights at row i. -/
theorem col8_apply (W : (⟨S3x9, .f32⟩ : BufTy).Contents (Elt Ideal)) (i : Fin 3) : col8 (F := Ideal) W (ix1 i) = W (ix2 i (8 : Fin 9)) := by
  unfold col8
  refine (shapeCast_apply _ _ (ix1 i) (ix2 i (0 : Fin 1)) (by
    rw [Shape.rowMajor_val_two, Shape.rowMajor_val_one]
    show i.val * 1 + 0 = i.val
    omega)).trans ?_
  exact extractStridedSlice_apply _ _ _ (ix2 i (0 : Fin 1)) (ix2 i (8 : Fin 9)) (fun e => match e with
    | ⟨0, _⟩ => by show i.val = 0 + i.val; omega
    | ⟨1, _⟩ => by show 8 = 8 + 0; omega)

/-- The broadcast cosine at row i: the cosine of the row's angle times one half. -/
theorem cosB_apply (θ : (⟨S3, .f32⟩ : BufTy).Contents (Elt Ideal)) (i : Fin 3) :
    cosB (F := Ideal) θ (ix3 i (0 : Fin 1) (0 : Fin 1)) = Ideal.cos (θ (ix1 i) * half) := by
  unfold cosB
  refine (broadcastInDim_apply _ _ _ (ix3 i (0 : Fin 1) (0 : Fin 1)) (ix1 i) (fun e => by
    match e with
    | ⟨0, _⟩ => rfl)).trans ?_
  rfl

/-- The broadcast sine at row i. -/
theorem sinB_apply (θ : (⟨S3, .f32⟩ : BufTy).Contents (Elt Ideal)) (i : Fin 3) :
    sinB (F := Ideal) θ (ix3 i (0 : Fin 1) (0 : Fin 1)) = Ideal.sin (θ (ix1 i) * half) := by
  unfold sinB
  refine (broadcastInDim_apply _ _ _ (ix3 i (0 : Fin 1) (0 : Fin 1)) (ix1 i) (fun e => by
    match e with
    | ⟨0, _⟩ => rfl)).trans ?_
  rfl

end Cert.Quanv.KHost

end
-- ==== Proof.KernHostRot0.lean ====
/-
  The rotation on qubit 0 read at an index. A row of eight amplitudes is re-laid as 4×2×1: basis state
  d = 2·a + 1·b + c has the qubit's bit b as its middle coordinate. The clear half (b = 0) becomes
  cos·lo − sin·hi and the set half sin·lo + cos·hi, position by position, with the row's own half angle;
  stacked back on the bit's axis and flattened, row i is the 2×2 rotation applied to each of its four pairs.
-/
import proofs.«180459_j52956946760354_2_alg».proof.Proof.KernHostAngle

noncomputable section

namespace Cert.Quanv.KHost

open Cert.KernelIdeal Cert.KernelIdeal.Gen Cert.KernelIdeal.GenP Cert.Quanv
open Idealize.ShloMosaic Idealize.ShloMosaic.ValueIdx Idealize.ShloMosaic.TcCoe

/-- The clear half at row i, position (a, c): the amplitude at basis state 2·a + c. -/
theorem lo0_apply (psi : (⟨S3x8, .f32⟩ : BufTy).Contents (Elt Ideal)) (i : Fin 3) (a : Fin 4) (c : Fin 1) :
    lo0 (F := Ideal) psi (ix3 i a c) = psi (ix2 i ⟨2 * a.val + c.val, by have := a.isLt; have := c.isLt; omega⟩) := by
  have ha := a.isLt
  have hc := c.isLt
  unfold lo0
  refine (shapeCast_apply _ _ (ix3 i a c) (ix4 i a (0 : Fin 1) c) (by
    rw [Shape.rowMajor_val_four, Shape.rowMajor_val_three]
    show ((i.val * 4 + a.val) * 1 + 0) * 1 + c.val = (i.val * 4 + a.val) * 1 + c.val
    omega)).trans ?_
  refine (extractStridedSlice_apply _ _ _ (ix4 i a (0 : Fin 1) c) (ix4 i a (0 : Fin 2) c) (fun e => match e with
    | ⟨0, _⟩ => by show i.val = 0 + i.val; omega
    | ⟨1, _⟩ => by show a.val = 0 + a.val; omega
    | ⟨2, _⟩ => by show 0 = 0 + 0; omega
    | ⟨3, _⟩ => by show c.val = 0 + c.val; omega)).trans ?_
  exact shapeCast_apply _ _ (ix4 i a (0 : Fin 2) c) (ix2 i ⟨2 * a.val + c.val, by have := a.isLt; have := c.isLt; omega⟩) (by
    rw [Shape.rowMajor_val_two, Shape.rowMajor_val_four]
    show i.val * 8 + (2 * a.val + c.val) = ((i.val * 4 + a.val) * 2 + 0) * 1 + c.val
    omega)

/-- The set half at row i, position (a, c): the amplitude at basis state 2·a + 1 + c. -/
theorem hi0_apply (psi : (⟨S3x8, .f32⟩ : BufTy).Contents (Elt Ideal)) (i : Fin 3) (a : Fin 4) (c : Fin 1) :
    hi0 (F := Ideal) psi (ix3 i a c) = psi (ix2 i ⟨2 * a.val + 1 + c.val, by have := a.isLt; have := c.isLt; omega⟩) := by
  have ha := a.isLt
  have hc := c.isLt
  unfold hi0
  refine (shapeCast_apply _ _ (ix3 i a c) (ix4 i a (0 : Fin 1) c) (by
    rw [Shape.rowMajor_val_four, Shape.rowMajor_val_three]
    show ((i.val * 4 + a.val) * 1 + 0) * 1 + c.val = (i.val * 4 + a.val) * 1 + c.val
    omega)).trans ?_
  refine (extractStridedSlice_apply _ _ _ (ix4 i a (0 : Fin 1) c) (ix4 i a (1 : Fin 2) c) (fun e => match e with
    | ⟨0, _⟩ => by show i.val = 0 + i.val; omega
    | ⟨1, _⟩ => by show a.val = 0 + a.val; omega
    | ⟨2, _⟩ => by show 1 = 1 + 0; omega
    | ⟨3, _⟩ => by show c.val = 0 + c.val; omega)).trans ?_
  exact shapeCast_apply _ _ (ix4 i a (1 : Fin 2) c) (ix2 i ⟨2 * a.val + 1 + c.val, by have := a.isLt; have := c.isLt; omega⟩) (by
    rw [Shape.rowMajor_val_two, Shape.rowMajor_val_four]
    show i.val * 8 + (2 * a.val + 1 + c.val) = ((i.val * 4 + a.val) * 2 + 1) * 1 + c.val
    omega)

/-- A per-row scalar spread over the half state reads the row's scalar. -/
theorem bc0_apply (x : (⟨S3x1x1, .f32⟩ : BufTy).Contents (Elt Ideal)) (i : Fin 3) (a : Fin 4) (c : Fin 1) :
    bc0 (F := Ideal) x (ix3 i a c) = x (ix3 i (0 : Fin 1) (0 : Fin 1)) := by
  unfold bc0
  exact broadcastInDim_apply _ _ _ (ix3 i a c) (ix3 i (0 : Fin 1) (0 : Fin 1)) (fun e => by
    match e with
    | ⟨0, _⟩ => rfl
    | ⟨1, _⟩ => rfl
    | ⟨2, _⟩ => rfl)

/-- The re-stacked state at basis state 2·a + c of row i is the first half at (a, c). -/
theorem stack0_lo (x y : (⟨S3x4x1, .f32⟩ : BufTy).Contents (Elt Ideal)) (i : Fin 3) (a : Fin 4) (c : Fin 1) :
    stack0 (F := Ideal) x y (ix2 i ⟨2 * a.val + c.val, by have := a.isLt; have := c.isLt; omega⟩) = x (ix3 i a c) := by
  have ha := a.isLt
  have hc := c.isLt
  unfold stack0
  refine (shapeCast_apply _ _ (ix2 i ⟨2 * a.val + c.val, by have := a.isLt; have := c.isLt; omega⟩) (ix4 i a (0 : Fin 2) c) (by
    rw [Shape.rowMajor_val_four, Shape.rowMajor_val_two]
    show ((i.val * 4 + a.val) * 2 + 0) * 1 + c.val = i.val * 8 + (2 * a.val + c.val)
    omega)).trans ?_
  refine (concatenate_pair_apply_left (t := S3x4x2x1) (s₁ := S3x4x1x1) (s₂ := S3x4x1x1) 2 _ _ _ (ix4 i a (0 : Fin 2) c) rfl (ix4 i a (0 : Fin 1) c) (fun e => by
    match e with
    | ⟨0, _⟩ => rfl
    | ⟨1, _⟩ => rfl
    | ⟨2, _⟩ => rfl
    | ⟨3, _⟩ => rfl)).trans ?_
  exact broadcastInDim_apply _ _ _ (ix4 i a (0 : Fin 1) c) (ix3 i a c) (fun e => by
    match e with
    | ⟨0, _⟩ => rfl
    | ⟨1, _⟩ => rfl
    | ⟨2, _⟩ => show c.val = 0; omega)

/-- The re-stacked state at basis state 2·a + 1 + c of row i is the second half at (a, c). -/
theorem stack0_hi (x y : (⟨S3x4x1, .f32⟩ : BufTy).Contents (Elt Ideal)) (i : Fin 3) (a : Fin 4) (c : Fin 1) :
    stack0 (F := Ideal) x y (ix2 i ⟨2 * a.val + 1 + c.val, by have := a.isLt; have := c.isLt; omega⟩) = y (ix3 i a c) := by
  have ha := a.isLt
  have hc := c.isLt
  unfold stack0
  refine (shapeCast_apply _ _ (ix2 i ⟨2 * a.val + 1 + c.val, by have := a.isLt; have := c.isLt; omega⟩) (ix4 i a (1 : Fin 2) c) (by
    rw [Shape.rowMajor_val_four, Shape.rowMajor_val_two]
    show ((i.val * 4 + a.val) * 2 + 1) * 1 + c.val = i.val * 8 + (2 * a.val + 1 + c.val)
    omega)).trans ?_
  refine (concatenate_pair_apply_right (t := S3x4x2x1) (s₁ := S3x4x1x1) (s₂ := S3x4x1x1) 2 _ _ _ (ix4 i a (1 : Fin 2) c) rfl rfl (ix4 i a (0 : Fin 1) c) (fun e he => by
    match e with
    | ⟨0, _⟩ => rfl
    | ⟨1, _⟩ => rfl
    | ⟨2, _⟩ => exact absurd rfl he
    | ⟨3, _⟩ => rfl) rfl).trans ?_
  exact broadcastInDim_apply _ _ _ (ix4 i a (0 : Fin 1) c) (ix3 i a c) (fun e => by
    match e with
    | ⟨0, _⟩ => rfl
    | ⟨1, _⟩ => rfl
    | ⟨2, _⟩ => show c.val = 0; omega)

/-- The rotated state where the qubit's bit is clear. -/
theorem rotQ0_lo (θ : (⟨S3, .f32⟩ : BufTy).Contents (Elt Ideal)) (psi : (⟨S3x8, .f32⟩ : BufTy).Contents (Elt Ideal)) (i : Fin 3) (a : Fin 4) (c : Fin 1) :
    rotQ0 (F := Ideal) θ psi (ix2 i ⟨2 * a.val + c.val, by have := a.isLt; have := c.isLt; omega⟩)
      = Ideal.cos (θ (ix1 i) * half) * psi (ix2 i ⟨2 * a.val + c.val, by have := a.isLt; have := c.isLt; omega⟩)
        - Ideal.sin (θ (ix1 i) * half) * psi (ix2 i ⟨2 * a.val + 1 + c.val, by have := a.isLt; have := c.isLt; omega⟩) := by
  unfold rotQ0
  rw [stack0_lo, subf_apply, mulf_apply, mulf_apply, bc0_apply, bc0_apply, cosB_apply, sinB_apply, lo0_apply, hi0_apply]

/-- The rotated state where the qubit's bit is set. -/
theorem rotQ0_hi (θ : (⟨S3, .f32⟩ : BufTy).Contents (Elt Ideal)) (psi : (⟨S3x8, .f32⟩ : BufTy).Contents (Elt Ideal)) (i : Fin 3) (a : Fin 4) (c : Fin 1) :
    rotQ0 (F := Ideal) θ psi (ix2 i ⟨2 * a.val + 1 + c.val, by have := a.isLt; have := c.isLt; omega⟩)
      = Ideal.sin (θ (ix1 i) * half) * psi (ix2 i ⟨2 * a.val + c.val, by have := a.isLt; have := c.isLt; omega⟩)
        + Ideal.cos (θ (ix1 i) * half) * psi (ix2 i ⟨2 * a.val + 1 + c.val, by have := a.isLt; have := c.isLt; omega⟩) := by
  unfold rotQ0
  rw [stack0_hi, addf_apply, mulf_apply, mulf_apply, bc0_apply, bc0_apply, cosB_apply, sinB_apply, lo0_apply, hi0_apply]

/-- Row i of the rotated state is the specification's rotation on qubit 0, by the row's angle, of row i. -/
theorem rotQ0_row (θ : (⟨S3, .f32⟩ : BufTy).Contents (Elt Ideal)) (psi : (⟨S3x8, .f32⟩ : BufTy).Contents (Elt Ideal)) (i : Fin 3) :
    row (rotQ0 (F := Ideal) θ psi) i = rot0 (θ (ix1 i)) (row psi i) := by
  funext d
  show rotQ0 (F := Ideal) θ psi (ix2 i d) = rot0 (θ (ix1 i)) (fun d => psi (ix2 i d)) d
  fin_cases d
  · exact (rotQ0_lo θ psi i (0 : Fin 4) (0 : Fin 1)).trans rfl
  · exact (rotQ0_hi θ psi i (0 : Fin 4) (0 : Fin 1)).trans rfl
  · exact (rotQ0_lo θ psi i (1 : Fin 4) (0 : Fin 1)).trans rfl
  · exact (rotQ0_hi θ psi i (1 : Fin 4) (0 : Fin 1)).trans rfl
  · exact (rotQ0_lo θ psi i (2 : Fin 4) (0 : Fin 1)).trans rfl
  · exact (rotQ0_hi θ psi i (2 : Fin 4) (0 : Fin 1)).trans rfl
  · exact (rotQ0_lo θ psi i (3 : Fin 4) (0 : Fin 1)).trans rfl
  · exact (rotQ0_hi θ psi i (3 : Fin 4) (0 : Fin 1)).trans rfl

end Cert.Quanv.KHost

end
-- ==== Proof.KernHostRot1.lean ====
/-
  The rotation on qubit 1 read at an index. A row of eight amplitudes is re-laid as 2×2×2: basis state
  d = 4·a + 2·b + c has the qubit's bit b as its middle coordinate. The clear half (b = 0) becomes
  cos·lo − sin·hi and the set half sin·lo + cos·hi, position by position, with the row's own half angle;
  stacked back on the bit's axis and flattened, row i is the 2×2 rotation applied to each of its four pairs.
-/
import proofs.«180459_j52956946760354_2_alg».proof.Proof.KernHostAngle

noncomputable section

namespace Cert.Quanv.KHost

open Cert.KernelIdeal Cert.KernelIdeal.Gen Cert.KernelIdeal.GenP Cert.Quanv
open Idealize.ShloMosaic Idealize.ShloMosaic.ValueIdx Idealize.ShloMosaic.TcCoe

/-- The clear half at row i, position (a, c): the amplitude at basis state 4·a + c. -/
theorem lo1_apply (psi : (⟨S3x8, .f32⟩ : BufTy).Contents (Elt Ideal)) (i : Fin 3) (a : Fin 2) (c : Fin 2) :
    lo1 (F := Ideal) psi (ix3 i a c) = psi (ix2 i ⟨4 * a.val + c.val, by have := a.isLt; have := c.isLt; omega⟩) := by
  have ha := a.isLt
  have hc := c.isLt
  unfold lo1
  refine (shapeCast_apply _ _ (ix3 i a c) (ix4 i a (0 : Fin 1) c) (by
    rw [Shape.rowMajor_val_four, Shape.rowMajor_val_three]
    show ((i.val * 2 + a.val) * 1 + 0) * 2 + c.val = (i.val * 2 + a.val) * 2 + c.val
    omega)).trans ?_
  refine (extractStridedSlice_apply _ _ _ (ix4 i a (0 : Fin 1) c) (ix4 i a (0 : Fin 2) c) (fun e => match e with
    | ⟨0, _⟩ => by show i.val = 0 + i.val; omega
    | ⟨1, _⟩ => by show a.val = 0 + a.val; omega
    | ⟨2, _⟩ => by show 0 = 0 + 0; omega
    | ⟨3, _⟩ => by show c.val = 0 + c.val; omega)).trans ?_
  exact shapeCast_apply _ _ (ix4 i a (0 : Fin 2) c) (ix2 i ⟨4 * a.val + c.val, by have := a.isLt; have := c.isLt; omega⟩) (by
    rw [Shape.rowMajor_val_two, Shape.rowMajor_val_four]
    show i.val * 8 + (4 * a.val + c.val) = ((i.val * 2 + a.val) * 2 + 0) * 2 + c.val
    omega)

/-- The set half at row i, position (a, c): the amplitude at basis state 4·a + 2 + c. -/
theorem hi1_apply (psi : (⟨S3x8, .f32⟩ : BufTy).Contents (Elt Ideal)) (i : Fin 3) (a : Fin 2) (c : Fin 2) :
    hi1 (F := Ideal) psi (ix3 i a c) = psi (ix2 i ⟨4 * a.val + 2 + c.val, by have := a.isLt; have := c.isLt; omega⟩) := by
  have ha := a.isLt
  have hc := c.isLt
  unfold hi1
  refine (shapeCast_apply _ _ (ix3 i a c) (ix4 i a (0 : Fin 1) c) (by
    rw [Shape.rowMajor_val_four, Shape.rowMajor_val_three]
    show ((i.val * 2 + a.val) * 1 + 0) * 2 + c.val = (i.val * 2 + a.val) * 2 + c.val
    omega)).trans ?_
  refine (extractStridedSlice_apply _ _ _ (ix4 i a (0 : Fin 1) c) (ix4 i a (1 : Fin 2) c) (fun e => match e with
    | ⟨0, _⟩ => by show i.val = 0 + i.val; omega
    | ⟨1, _⟩ => by show a.val = 0 + a.val; omega
    | ⟨2, _⟩ => by show 1 = 1 + 0; omega
    | ⟨3, _⟩ => by show c.val = 0 + c.val; omega)).trans ?_
  exact shapeCast_apply _ _ (ix4 i a (1 : Fin 2) c) (ix2 i ⟨4 * a.val + 2 + c.val, by have := a.isLt; have := c.isLt; omega⟩) (by
    rw [Shape.rowMajor_val_two, Shape.rowMajor_val_four]
    show i.val * 8 + (4 * a.val + 2 + c.val) = ((i.val * 2 + a.val) * 2 + 1) * 2 + c.val
    omega)

/-- A per-row scalar spread over the half state reads the row's scalar. -/
theorem bc1_apply (x : (⟨S3x1x1, .f32⟩ : BufTy).Contents (Elt Ideal)) (i : Fin 3) (a : Fin 2) (c : Fin 2) :
    bc1 (F := Ideal) x (ix3 i a c) = x (ix3 i (0 : Fin 1) (0 : Fin 1)) := by
  unfold bc1
  exact broadcastInDim_apply _ _ _ (ix3 i a c) (ix3 i (0 : Fin 1) (0 : Fin 1)) (fun e => by
    match e with
    | ⟨0, _⟩ => rfl
    | ⟨1, _⟩ => rfl
    | ⟨2, _⟩ => rfl)

/-- The re-stacked state at basis state 4·a + c of row i is the first half at (a, c). -/
theorem stack1_lo (x y : (⟨S3x2x2, .f32⟩ : BufTy).Contents (Elt Ideal)) (i : Fin 3) (a : Fin 2) (c : Fin 2) :
    stack1 (F := Ideal) x y (ix2 i ⟨4 * a.val + c.val, by have := a.isLt; have := c.isLt; omega⟩) = x (ix3 i a c) := by
  have ha := a.isLt
  have hc := c.isLt
  unfold stack1
  refine (shapeCast_apply _ _ (ix2 i ⟨4 * a.val + c.val, by have := a.isLt; have := c.isLt; omega⟩) (ix4 i a (0 : Fin 2) c) (by
    rw [Shape.rowMajor_val_four, Shape.rowMajor_val_two]
    show ((i.val * 2 + a.val) * 2 + 0) * 2 + c.val = i.val * 8 + (4 * a.val + c.val)
    omega)).trans ?_
  refine (concatenate_pair_apply_left (t := S3x2x2x2) (s₁ := S3x2x1x2) (s₂ := S3x2x1x2) 2 _ _ _ (ix4 i a (0 : Fin 2) c) rfl (ix4 i a (0 : Fin 1) c) (fun e => by
    match e with
    | ⟨0, _⟩ => rfl
    | ⟨1, _⟩ => rfl
    | ⟨2, _⟩ => rfl
    | ⟨3, _⟩ => rfl)).trans ?_
  exact broadcastInDim_apply _ _ _ (ix4 i a (0 : Fin 1) c) (ix3 i a c) (fun e => by
    match e with
    | ⟨0, _⟩ => rfl
    | ⟨1, _⟩ => rfl
    | ⟨2, _⟩ => rfl)

/-- The re-stacked state at basis state 4·a + 2 + c of row i is the second half at (a, c). -/
theorem stack1_hi (x y : (⟨S3x2x2, .f32⟩ : BufTy).Contents (Elt Ideal)) (i : Fin 3) (a : Fin 2) (c : Fin 2) :
    stack1 (F := Ideal) x y (ix2 i ⟨4 * a.val + 2 + c.val, by have := a.isLt; have := c.isLt; omega⟩) = y (ix3 i a c) := by
  have ha := a.isLt
  have hc := c.isLt
  unfold stack1
  refine (shapeCast_apply _ _ (ix2 i ⟨4 * a.val + 2 + c.val, by have := a.isLt; have := c.isLt; omega⟩) (ix4 i a (1 : Fin 2) c) (by
    rw [Shape.rowMajor_val_four, Shape.rowMajor_val_two]
    show ((i.val * 2 + a.val) * 2 + 1) * 2 + c.val = i.val * 8 + (4 * a.val + 2 + c.val)
    omega)).trans ?_
  refine (concatenate_pair_apply_right (t := S3x2x2x2) (s₁ := S3x2x1x2) (s₂ := S3x2x1x2) 2 _ _ _ (ix4 i a (1 : Fin 2) c) rfl rfl (ix4 i a (0 : Fin 1) c) (fun e he => by
    match e with
    | ⟨0, _⟩ => rfl
    | ⟨1, _⟩ => rfl
    | ⟨2, _⟩ => exact absurd rfl he
    | ⟨3, _⟩ => rfl) rfl).trans ?_
  exact broadcastInDim_apply _ _ _ (ix4 i a (0 : Fin 1) c) (ix3 i a c) (fun e => by
    match e with
    | ⟨0, _⟩ => rfl
    | ⟨1, _⟩ => rfl
    | ⟨2, _⟩ => rfl)

/-- The rotated state where the qubit's bit is clear. -/
theorem rotQ1_lo (θ : (⟨S3, .f32⟩ : BufTy).Contents (Elt Ideal)) (psi : (⟨S3x8, .f32⟩ : BufTy).Contents (Elt Ideal)) (i : Fin 3) (a : Fin 2) (c : Fin 2) :
    rotQ1 (F := Ideal) θ psi (ix2 i ⟨4 * a.val + c.val, by have := a.isLt; have := c.isLt; omega⟩)
      = Ideal.cos (θ (ix1 i) * half) * psi (ix2 i ⟨4 * a.val + c.val, by have := a.isLt; have := c.isLt; omega⟩)
        - Ideal.sin (θ (ix1 i) * half) * psi (ix2 i ⟨4 * a.val + 2 + c.val, by have := a.isLt; have := c.isLt; omega⟩) := by
  unfold rotQ1
  rw [stack1_lo, subf_apply, mulf_apply, mulf_apply, bc1_apply, bc1_apply, cosB_apply, sinB_apply, lo1_apply, hi1_apply]

/-- The rotated state where the qubit's bit is set. -/
theorem rotQ1_hi (θ : (⟨S3, .f32⟩ : BufTy).Contents (Elt Ideal)) (psi : (⟨S3x8, .f32⟩ : BufTy).Contents (Elt Ideal)) (i : Fin 3) (a : Fin 2) (c : Fin 2) :
    rotQ1 (F := Ideal) θ psi (ix2 i ⟨4 * a.val + 2 + c.val, by have := a.isLt; have := c.isLt; omega⟩)
      = Ideal.sin (θ (ix1 i) * half) * psi (ix2 i ⟨4 * a.val + c.val, by have := a.isLt; have := c.isLt; omega⟩)
        + Ideal.cos (θ (ix1 i) * half) * psi (ix2 i ⟨4 * a.val + 2 + c.val, by have := a.isLt; have := c.isLt; omega⟩) := by
  unfold rotQ1
  rw [stack1_hi, addf_apply, mulf_apply, mulf_apply, bc1_apply, bc1_apply, cosB_apply, sinB_apply, lo1_apply, hi1_apply]

/-- Row i of the rotated state is the specification's rotation on qubit 1, by the row's angle, of row i. -/
theorem rotQ1_row (θ : (⟨S3, .f32⟩ : BufTy).Contents (Elt Ideal)) (psi : (⟨S3x8, .f32⟩ : BufTy).Contents (Elt Ideal)) (i : Fin 3) :
    row (rotQ1 (F := Ideal) θ psi) i = rot1 (θ (ix1 i)) (row psi i) := by
  funext d
  show rotQ1 (F := Ideal) θ psi (ix2 i d) = rot1 (θ (ix1 i)) (fun d => psi (ix2 i d)) d
  fin_cases d
  · exact (rotQ1_lo θ psi i (0 : Fin 2) (0 : Fin 2)).trans rfl
  · exact (rotQ1_lo θ psi i (0 : Fin 2) (1 : Fin 2)).trans rfl
  · exact (rotQ1_hi θ psi i (0 : Fin 2) (0 : Fin 2)).trans rfl
  · exact (rotQ1_hi θ psi i (0 : Fin 2) (1 : Fin 2)).trans rfl
  · exact (rotQ1_lo θ psi i (1 : Fin 2) (0 : Fin 2)).trans rfl
  · exact (rotQ1_lo θ psi i (1 : Fin 2) (1 : Fin 2)).trans rfl
  · exact (rotQ1_hi θ psi i (1 : Fin 2) (0 : Fin 2)).trans rfl
  · exact (rotQ1_hi θ psi i (1 : Fin 2) (1 : Fin 2)).trans rfl

end Cert.Quanv.KHost

end
-- ==== Proof.KernHostRot2.lean ====
/-
  The rotation on qubit 2 read at an index. A row of eight amplitudes is re-laid as 1×2×4: basis state
  d = 8·a + 4·b + c has the qubit's bit b as its middle coordinate. The clear half (b = 0) becomes
  cos·lo − sin·hi and the set half sin·lo + cos·hi, position by position, with the row's own half angle;
  stacked back on the bit's axis and flattened, row i is the 2×2 rotation applied to each of its four pairs.
-/
import proofs.«180459_j52956946760354_2_alg».proof.Proof.KernHostAngle

noncomputable section

namespace Cert.Quanv.KHost

open Cert.KernelIdeal Cert.KernelIdeal.Gen Cert.KernelIdeal.GenP Cert.Quanv
open Idealize.ShloMosaic Idealize.ShloMosaic.ValueIdx Idealize.ShloMosaic.TcCoe

/-- The clear half at row i, position (a, c): the amplitude at basis state 8·a + c. -/
theorem lo2_apply (psi : (⟨S3x8, .f32⟩ : BufTy).Contents (Elt Ideal)) (i : Fin 3) (a : Fin 1) (c : Fin 4) :
    lo2 (F := Ideal) psi (ix3 i a c) = psi (ix2 i ⟨8 * a.val + c.val, by have := a.isLt; have := c.isLt; omega⟩) := by
  have ha := a.isLt
  have hc := c.isLt
  unfold lo2
  refine (shapeCast_apply _ _ (ix3 i a c) (ix4 i a (0 : Fin 1) c) (by
    rw [Shape.rowMajor_val_four, Shape.rowMajor_val_three]
    show ((i.val * 1 + a.val) * 1 + 0) * 4 + c.val = (i.val * 1 + a.val) * 4 + c.val
    omega)).trans ?_
  refine (extractStridedSlice_apply _ _ _ (ix4 i a (0 : Fin 1) c) (ix4 i a (0 : Fin 2) c) (fun e => match e with
    | ⟨0, _⟩ => by show i.val = 0 + i.val; omega
    | ⟨1, _⟩ => by show a.val = 0 + a.val; omega
    | ⟨2, _⟩ => by show 0 = 0 + 0; omega
    | ⟨3, _⟩ => by show c.val = 0 + c.val; omega)).trans ?_
  exact shapeCast_apply _ _ (ix4 i a (0 : Fin 2) c) (ix2 i ⟨8 * a.val + c.val, by have := a.isLt; have := c.isLt; omega⟩) (by
    rw [Shape.rowMajor_val_two, Shape.rowMajor_val_four]
    show i.val * 8 + (8 * a.val + c.val) = ((i.val * 1 + a.val) * 2 + 0) * 4 + c.val
    omega)

/-- The set half at row i, position (a, c): the amplitude at basis state 8·a + 4 + c. -/
theorem hi2_apply (psi : (⟨S3x8, .f32⟩ : BufTy).Contents (Elt Ideal)) (i : Fin 3) (a : Fin 1) (c : Fin 4) :
    hi2 (F := Ideal) psi (ix3 i a c) = psi (ix2 i ⟨8 * a.val + 4 + c.val, by have := a.isLt; have := c.isLt; omega⟩) := by
  have ha := a.isLt
  have hc := c.isLt
  unfold hi2
  refine (shapeCast_apply _ _ (ix3 i a c) (ix4 i a (0 : Fin 1) c) (by
    rw [Shape.rowMajor_val_four, Shape.rowMajor_val_three]
    show ((i.val * 1 + a.val) * 1 + 0) * 4 + c.val = (i.val * 1 + a.val) * 4 + c.val
    omega)).trans ?_
  refine (extractStridedSlice_apply _ _ _ (ix4 i a (0 : Fin 1) c) (ix4 i a (1 : Fin 2) c) (fun e => match e with
    | ⟨0, _⟩ => by show i.val = 0 + i.val; omega
    | ⟨1, _⟩ => by show a.val = 0 + a.val; omega
    | ⟨2, _⟩ => by show 1 = 1 + 0; omega
    | ⟨3, _⟩ => by show c.val = 0 + c.val; omega)).trans ?_
  exact shapeCast_apply _ _ (ix4 i a (1 : Fin 2) c) (ix2 i ⟨8 * a.val + 4 + c.val, by have := a.isLt; have := c.isLt; omega⟩) (by
    rw [Shape.rowMajor_val_two, Shape.rowMajor_val_four]
    show i.val * 8 + (8 * a.val + 4 + c.val) = ((i.val * 1 + a.val) * 2 + 1) * 4 + c.val
    omega)

/-- A per-row scalar spread over the half state reads the row's scalar. -/
theorem bc2_apply (x : (⟨S3x1x1, .f32⟩ : BufTy).Contents (Elt Ideal)) (i : Fin 3) (a : Fin 1) (c : Fin 4) :
    bc2 (F := Ideal) x (ix3 i a c) = x (ix3 i (0 : Fin 1) (0 : Fin 1)) := by
  unfold bc2
  exact broadcastInDim_apply _ _ _ (ix3 i a c) (ix3 i (0 : Fin 1) (0 : Fin 1)) (fun e => by
    match e with
    | ⟨0, _⟩ => rfl
    | ⟨1, _⟩ => rfl
    | ⟨2, _⟩ => rfl)

/-- The re-stacked state at basis state 8·a + c of row i is the first half at (a, c). -/
theorem stack2_lo (x y : (⟨S3x1x4, .f32⟩ : BufTy).Contents (Elt Ideal)) (i : Fin 3) (a : Fin 1) (c : Fin 4) :
    stack2 (F := Ideal) x y (ix2 i ⟨8 * a.val + c.val, by have := a.isLt; have := c.isLt; omega⟩) = x (ix3 i a c) := by
  have ha := a.isLt
  have hc := c.isLt
  unfold stack2
  refine (shapeCast_apply _ _ (ix2 i ⟨8 * a.val + c.val, by have := a.isLt; have := c.isLt; omega⟩) (ix4 i a (0 : Fin 2) c) (by
    rw [Shape.rowMajor_val_four, Shape.rowMajor_val_two]
    show ((i.val * 1 + a.val) * 2 + 0) * 4 + c.val = i.val * 8 + (8 * a.val + c.val)
    omega)).trans ?_
  refine (concatenate_pair_apply_left (t := S3x1x2x4) (s₁ := S3x1x1x4) (s₂ := S3x1x1x4) 2 _ _ _ (ix4 i a (0 : Fin 2) c) rfl (ix4 i a (0 : Fin 1) c) (fun e => by
    match e with
    | ⟨0, _⟩ => rfl
    | ⟨1, _⟩ => rfl
    | ⟨2, _⟩ => rfl
    | ⟨3, _⟩ => rfl)).trans ?_
  exact broadcastInDim_apply _ _ _ (ix4 i a (0 : Fin 1) c) (ix3 i a c) (fun e => by
    match e with
    | ⟨0, _⟩ => rfl
    | ⟨1, _⟩ => show a.val = 0; omega
    | ⟨2, _⟩ => rfl)

/-- The re-stacked state at basis state 8·a + 4 + c of row i is the second half at (a, c). -/
theorem stack2_hi (x y : (⟨S3x1x4, .f32⟩ : BufTy).Contents (Elt Ideal)) (i : Fin 3) (a : Fin 1) (c : Fin 4) :
    stack2 (F := Ideal) x y (ix2 i ⟨8 * a.val + 4 + c.val, by have := a.isLt; have := c.isLt; omega⟩) = y (ix3 i a c) := by
  have ha := a.isLt
  have hc := c.isLt
  unfold stack2
  refine (shapeCast_apply _ _ (ix2 i ⟨8 * a.val + 4 + c.val, by have := a.isLt; have := c.isLt; omega⟩) (ix4 i a (1 : Fin 2) c) (by
    rw [Shape.rowMajor_val_four, Shape.rowMajor_val_two]
    show ((i.val * 1 + a.val) * 2 + 1) * 4 + c.val = i.val * 8 + (8 * a.val + 4 + c.val)
    omega)).trans ?_
  refine (concatenate_pair_apply_right (t := S3x1x2x4) (s₁ := S3x1x1x4) (s₂ := S3x1x1x4) 2 _ _ _ (ix4 i a (1 : Fin 2) c) rfl rfl (ix4 i a (0 : Fin 1) c) (fun e he => by
    match e with
    | ⟨0, _⟩ => rfl
    | ⟨1, _⟩ => rfl
    | ⟨2, _⟩ => exact absurd rfl he
    | ⟨3, _⟩ => rfl) rfl).trans ?_
  exact broadcastInDim_apply _ _ _ (ix4 i a (0 : Fin 1) c) (ix3 i a c) (fun e => by
    match e with
    | ⟨0, _⟩ => rfl
    | ⟨1, _⟩ => show a.val = 0; omega
    | ⟨2, _⟩ => rfl)

/-- The rotated state where the qubit's bit is clear. -/
theorem rotQ2_lo (θ : (⟨S3, .f32⟩ : BufTy).Contents (Elt Ideal)) (psi : (⟨S3x8, .f32⟩ : BufTy).Contents (Elt Ideal)) (i : Fin 3) (a : Fin 1) (c : Fin 4) :
    rotQ2 (F := Ideal) θ psi (ix2 i ⟨8 * a.val + c.val, by have := a.isLt; have := c.isLt; omega⟩)
      = Ideal.cos (θ (ix1 i) * half) * psi (ix2 i ⟨8 * a.val + c.val, by have := a.isLt; have := c.isLt; omega⟩)
        - Ideal.sin (θ (ix1 i) * half) * psi (ix2 i ⟨8 * a.val + 4 + c.val, by have := a.isLt; have := c.isLt; omega⟩) := by
  unfold rotQ2
  rw [stack2_lo, subf_apply, mulf_apply, mulf_apply, bc2_apply, bc2_apply, cosB_apply, sinB_apply, lo2_apply, hi2_apply]

/-- The rotated state where the qubit's bit is set. -/
theorem rotQ2_hi (θ : (⟨S3, .f32⟩ : BufTy).Contents (Elt Ideal)) (psi : (⟨S3x8, .f32⟩ : BufTy).Contents (Elt Ideal)) (i : Fin 3) (a : Fin 1) (c : Fin 4) :
    rotQ2 (F := Ideal) θ psi (ix2 i ⟨8 * a.val + 4 + c.val, by have := a.isLt; have := c.isLt; omega⟩)
      = Ideal.sin (θ (ix1 i) * half) * psi (ix2 i ⟨8 * a.val + c.val, by have := a.isLt; have := c.isLt; omega⟩)
        + Ideal.cos (θ (ix1 i) * half) * psi (ix2 i ⟨8 * a.val + 4 + c.val, by have := a.isLt; have := c.isLt; omega⟩) := by
  unfold rotQ2
  rw [stack2_hi, addf_apply, mulf_apply, mulf_apply, bc2_apply, bc2_apply, cosB_apply, sinB_apply, lo2_apply, hi2_apply]

/-- Row i of the rotated state is the specification's rotation on qubit 2, by the row's angle, of row i. -/
theorem rotQ2_row (θ : (⟨S3, .f32⟩ : BufTy).Contents (Elt Ideal)) (psi : (⟨S3x8, .f32⟩ : BufTy).Contents (Elt Ideal)) (i : Fin 3) :
    row (rotQ2 (F := Ideal) θ psi) i = rot2 (θ (ix1 i)) (row psi i) := by
  funext d
  show rotQ2 (F := Ideal) θ psi (ix2 i d) = rot2 (θ (ix1 i)) (fun d => psi (ix2 i d)) d
  fin_cases d
  · exact (rotQ2_lo θ psi i (0 : Fin 1) (0 : Fin 4)).trans rfl
  · exact (rotQ2_lo θ psi i (0 : Fin 1) (1 : Fin 4)).trans rfl
  · exact (rotQ2_lo θ psi i (0 : Fin 1) (2 : Fin 4)).trans rfl
  · exact (rotQ2_lo θ psi i (0 : Fin 1) (3 : Fin 4)).trans rfl
  · exact (rotQ2_hi θ psi i (0 : Fin 1) (0 : Fin 4)).trans rfl
  · exact (rotQ2_hi θ psi i (0 : Fin 1) (1 : Fin 4)).trans rfl
  · exact (rotQ2_hi θ psi i (0 : Fin 1) (2 : Fin 4)).trans rfl
  · exact (rotQ2_hi θ psi i (0 : Fin 1) (3 : Fin 4)).trans rfl

end Cert.Quanv.KHost

end
-- ==== Proof.KernHostCx.lean ====
/-
  A controlled-NOT read at an index. The gather along the state axis at a column of start indices reads,
  at row i and basis state d, the operand's row i at the start index d names (read signed, clamped into
  0 … 7). The start indices are computed from the basis state's own number: d xor (((d >> sh) & 1) << amt);
  over the eight basis states that is the permutation the gate is, so row i of the result is the gate
  applied to row i of the operand.
-/
import proofs.«180459_j52956946760354_2_alg».proof.Proof.KernHostAngle

noncomputable section

namespace Cert.Quanv.KHost

open Cert.KernelIdeal Cert.KernelIdeal.Gen Cert.KernelIdeal.GenP Cert.Quanv
open Idealize.ShloMosaic Idealize.ShloMosaic.ValueIdx Idealize.ShloMosaic.TcCoe

/-- The gather at row i, basis state d. -/
theorem gather_row_apply (x : (⟨S3x8, .f32⟩ : BufTy).Contents (Elt Ideal)) (idx : IVec S8x1 32) (i : Fin 3) (d : Fin 8) :
    Host.gather gather_S3x8_S8x1_S3x8_0_1_n_n_1_1_31 x idx (ix2 i d)
      = x (ix2 i ⟨min (idx (ix2 d (0 : Fin 1))).toInt.toNat 7, by omega⟩) := by
  unfold Host.gather
  refine congrArg x (funext fun a => Fin.ext ?_)
  match a with
  | ⟨0, _⟩ =>
    show gather_S3x8_S8x1_S3x8_0_1_n_n_1_1_31.start (ix2 i d) idx 0 + gather_S3x8_S8x1_S3x8_0_1_n_n_1_1_31.batchCoord (ix2 i d) 0 + gather_S3x8_S8x1_S3x8_0_1_n_n_1_1_31.offCoord (ix2 i d) 0 = i.val
    have h1 : gather_S3x8_S8x1_S3x8_0_1_n_n_1_1_31.start (ix2 i d) idx 0 = 0 := rfl
    have h2 : gather_S3x8_S8x1_S3x8_0_1_n_n_1_1_31.batchCoord (ix2 i d) 0 = 0 := rfl
    have h3 : gather_S3x8_S8x1_S3x8_0_1_n_n_1_1_31.offCoord (ix2 i d) 0 = i.val := rfl
    rw [h1, h2, h3]
    omega
  | ⟨1, _⟩ =>
    show gather_S3x8_S8x1_S3x8_0_1_n_n_1_1_31.start (ix2 i d) idx 1 + gather_S3x8_S8x1_S3x8_0_1_n_n_1_1_31.batchCoord (ix2 i d) 1 + gather_S3x8_S8x1_S3x8_0_1_n_n_1_1_31.offCoord (ix2 i d) 1
      = min (idx (ix2 d (0 : Fin 1))).toInt.toNat 7
    have h2 : gather_S3x8_S8x1_S3x8_0_1_n_n_1_1_31.batchCoord (ix2 i d) 1 = 0 := rfl
    have h3 : gather_S3x8_S8x1_S3x8_0_1_n_n_1_1_31.offCoord (ix2 i d) 1 = 0 := rfl
    have hsi : gather_S3x8_S8x1_S3x8_0_1_n_n_1_1_31.siIdx (ix2 i d) ⟨0, by decide⟩ = ix2 d (0 : Fin 1) := by
      funext b
      match b with
      | ⟨0, _⟩ => rfl
      | ⟨1, _⟩ => rfl
    have h1 : gather_S3x8_S8x1_S3x8_0_1_n_n_1_1_31.start (ix2 i d) idx 1
        = min (idx (gather_S3x8_S8x1_S3x8_0_1_n_n_1_1_31.siIdx (ix2 i d) ⟨0, by decide⟩)).toInt.toNat 7 := rfl
    rw [h1, h2, h3, hsi]
    rfl

/-- The first gate's start indices: basis state d reads d with bit 1 flipped when bit 0 is set. -/
theorem cxIdx01_val : ∀ d : Fin 8, min ((cxIdx (F := Ideal) 0#32 1#32) (ix2 d (0 : Fin 1))).toInt.toNat 7
    = (![0, 3, 2, 1, 4, 7, 6, 5] : Fin 8 → Nat) d := by decide

/-- The second gate's start indices: basis state d reads d with bit 2 flipped when bit 1 is set. -/
theorem cxIdx12_val : ∀ d : Fin 8, min ((cxIdx (F := Ideal) 1#32 2#32) (ix2 d (0 : Fin 1))).toInt.toNat 7
    = (![0, 1, 6, 7, 4, 5, 2, 3] : Fin 8 → Nat) d := by decide

/-- Row i of the first gate's result is CX 0→1 of row i. -/
theorem cx01_row (psi : (⟨S3x8, .f32⟩ : BufTy).Contents (Elt Ideal)) (i : Fin 3) :
    row (cxFn (F := Ideal) 0#32 1#32 psi) i = cx01 (row psi i) := by
  funext d
  show Host.gather gather_S3x8_S8x1_S3x8_0_1_n_n_1_1_31 psi (cxIdx (F := Ideal) 0#32 1#32) (ix2 i d) = cx01 (fun d => psi (ix2 i d)) d
  rw [gather_row_apply]
  have h := cxIdx01_val d
  fin_cases d <;> exact congrArg (fun k => psi (ix2 i k)) (Fin.ext h)

/-- Row i of the second gate's result is CX 1→2 of row i. -/
theorem cx12_row (psi : (⟨S3x8, .f32⟩ : BufTy).Contents (Elt Ideal)) (i : Fin 3) :
    row (cxFn (F := Ideal) 1#32 2#32 psi) i = cx12 (row psi i) := by
  funext d
  show Host.gather gather_S3x8_S8x1_S3x8_0_1_n_n_1_1_31 psi (cxIdx (F := Ideal) 1#32 2#32) (ix2 i d) = cx12 (fun d => psi (ix2 i d)) d
  rw [gather_row_apply]
  have h := cxIdx12_val d
  fin_cases d <;> exact congrArg (fun k => psi (ix2 i k)) (Fin.ext h)

end Cert.Quanv.KHost

end
-- ==== Proof.KernHostPsi.lean ====
/-
  The kernel's first operand, as the region finds it. The host runs, per input channel (a row of the
  weights), the weight circuit from the uniform state: nine rotations, angle k on qubit k mod 3, then
  CX 0→1 and CX 1→2. Chaining the stretches, the operand is that composition of the stretches' functions
  applied to the weights as launched; read row by row, each stretch is the specification's gate on the
  row, so row i is the specification's weight state of row i of the weights.
-/
import proofs.«180459_j52956946760354_2_alg».proof.Proof.KernHostRunA
import proofs.«180459_j52956946760354_2_alg».proof.Proof.KernHostRunB
import proofs.«180459_j52956946760354_2_alg».proof.Proof.KernHostRunC
import proofs.«180459_j52956946760354_2_alg».proof.Proof.KernHostRunD
import proofs.«180459_j52956946760354_2_alg».proof.Proof.KernHostRot0
import proofs.«180459_j52956946760354_2_alg».proof.Proof.KernHostRot1
import proofs.«180459_j52956946760354_2_alg».proof.Proof.KernHostRot2
import proofs.«180459_j52956946760354_2_alg».proof.Proof.KernHostCx

noncomputable section

namespace Cert.Quanv.KHost

open Cert.KernelIdeal Cert.KernelIdeal.Gen Cert.KernelIdeal.GenP Cert.Quanv
open Idealize.ShloMosaic Idealize.ShloMosaic.ValueIdx Idealize.ShloMosaic.TcCoe

set_option maxRecDepth 16384

/-- The three rows' weight states as one function of the weights: the stretches' functions composed. -/
def hostState (A : (⟨S3x9, .f32⟩ : BufTy).Contents (Elt Ideal)) : (⟨S3x8, .f32⟩ : BufTy).Contents (Elt Ideal) :=
  cxFn (F := Ideal) 1#32 2#32 (cxFn (F := Ideal) 0#32 1#32 (rotQ2 (F := Ideal) (col8 (F := Ideal) A) (rotQ1 (F := Ideal) (col7 (F := Ideal) A) (rotQ0 (F := Ideal) (col6 (F := Ideal) A) (rotQ2 (F := Ideal) (col5 (F := Ideal) A) (rotQ1 (F := Ideal) (col4 (F := Ideal) A) (rotQ0 (F := Ideal) (col3 (F := Ideal) A) (rotQ2 (F := Ideal) (col2 (F := Ideal) A) (rotQ1 (F := Ideal) (col1 (F := Ideal) A) (rotQ0 (F := Ideal) (col0 (F := Ideal) A) (psi0 (F := Ideal))))))))))))

/-- The host operations, run from any contents, leave the weight states of the weights they found. -/
theorem host_psi (V0 : Valuation τ sig (Elt Ideal)) :
    StableHlo.after (List.flatten [hostOps0 (F := Ideal), hostOps0_1, hostOps0_2]) V0 (Proc.devRef .tc main_v274)
      = hostState (V0 (Proc.devRef .tc main_arg1)) := by
  simp only [List.flatten_cons, List.flatten_nil, List.append_nil]
  rw [hostOps0_2_eq]
  simp only [after_append]
  rw [cx12_out, cx01_out]
  rw [rot8_out, rot7_arg1, rot6_arg1, rot5_arg1, rot4_arg1, rot3_arg1, rot2_arg1, rot1_arg1, rot0_arg1, init_arg1, pre1_arg1, pre0_arg1]
  rw [rot7_out, rot6_arg1, rot5_arg1, rot4_arg1, rot3_arg1, rot2_arg1, rot1_arg1, rot0_arg1, init_arg1, pre1_arg1, pre0_arg1]
  rw [rot6_out, rot5_arg1, rot4_arg1, rot3_arg1, rot2_arg1, rot1_arg1, rot0_arg1, init_arg1, pre1_arg1, pre0_arg1]
  rw [rot5_out, rot4_arg1, rot3_arg1, rot2_arg1, rot1_arg1, rot0_arg1, init_arg1, pre1_arg1, pre0_arg1]
  rw [rot4_out, rot3_arg1, rot2_arg1, rot1_arg1, rot0_arg1, init_arg1, pre1_arg1, pre0_arg1]
  rw [rot3_out, rot2_arg1, rot1_arg1, rot0_arg1, init_arg1, pre1_arg1, pre0_arg1]
  rw [rot2_out, rot1_arg1, rot0_arg1, init_arg1, pre1_arg1, pre0_arg1]
  rw [rot1_out, rot0_arg1, init_arg1, pre1_arg1, pre0_arg1]
  rw [rot0_out, init_arg1, pre1_arg1, pre0_arg1]
  rw [init_out]
  rfl

/-- Row i of the weight states is the specification's weight circuit on row i of the weights. -/
theorem hostState_row (A : (⟨S3x9, .f32⟩ : BufTy).Contents (Elt Ideal)) (i : Fin 3) :
    row (hostState A) i = wstate (fun k => A (ix2 i k)) := by
  unfold hostState
  rw [cx12_row, cx01_row, rotQ2_row, rotQ1_row, rotQ0_row, rotQ2_row, rotQ1_row, rotQ0_row, rotQ2_row, rotQ1_row, rotQ0_row,
    psi0_row, col0_apply, col1_apply, col2_apply, col3_apply, col4_apply, col5_apply, col6_apply, col7_apply, col8_apply]
  rfl

variable (m : (ℓ : Loc nD τ sig) → Buf (Elt Ideal) ℓ) (c : Dev nD)

/-- The kernel's first operand at row i, basis state d: the weight state of row i of the weights as launched. -/
theorem V_psi (i : Fin 3) (d : Fin 8) :
    V (F := Ideal) m c main_v274 (ix2 i d) = wstate (fun k => (m ((c.tc : Thread nD τ).loc main_arg1)) (ix2 i k)) d := by
  show StableHlo.after (List.flatten [hostOps0, hostOps0_1, hostOps0_2]) (fun b => m (c, b)) (Proc.devRef .tc main_v274) (ix2 i d) = _
  rw [host_psi]
  exact congrFun (hostState_row (m (c, Proc.devRef .tc main_arg1)) i) d

end Cert.Quanv.KHost

end
-- ==== Proof.KernHostPad.lean ====
/-
  The padded images the kernel reads. The host pads each 128×128 image with two columns and two rows of
  the converted integer zero at the high end; no later host operation writes the padded array. At
  (b, i, h, w) the padded array is the input at (b, i, h, w) when h and w are below 128, and zero
  otherwise: the image read at natural coordinates.
-/
import proofs.«180459_j52956946760354_2_alg».proof.Proof.KernHostOps

noncomputable section

namespace Cert.Quanv.KHost

open Cert.KernelIdeal Cert.KernelIdeal.Gen Cert.KernelIdeal.GenP Cert.Quanv
open Idealize.ShloMosaic Idealize.ShloMosaic.ValueIdx Idealize.ShloMosaic.TcCoe

set_option maxRecDepth 16384

/-- A zero-padding at the high end of the last two axes, read at an index. -/
theorem pad_apply (X : (⟨S32x3x128x128, .f32⟩ : BufTy).Contents (Elt Ideal)) (v : (⟨S_, .f32⟩ : BufTy).Contents (Elt Ideal)) (b : Fin 32) (i : Fin 3) (h w : Fin 130) :
    pad S32x3x130x130 ![0, 0, 0, 0] ![0, 0, 2, 2] ![0, 0, 0, 0] X v pads_S32x3x128x128_S32x3x130x130_000_000_020_020 h_S_ (ix4 b i h w)
      = if hh : h.val < 128 ∧ w.val < 128 then X (ix4 b i ⟨h.val, hh.1⟩ ⟨w.val, hh.2⟩) else v ix0 := by
  have hb := b.isLt
  have hi := i.isLt
  unfold pad
  split
  · rename_i hin
    have h2 : (h.val - 0) / (0 + 1) < 128 := (hin 2).2.2
    have h3 : (w.val - 0) / (0 + 1) < 128 := (hin 3).2.2
    have hh : h.val < 128 ∧ w.val < 128 := ⟨by omega, by omega⟩
    rw [dif_pos hh]
    refine congrArg X (funext fun a => Fin.ext ?_)
    match a with
    | ⟨0, _⟩ => show (b.val - 0) / (0 + 1) = b.val; omega
    | ⟨1, _⟩ => show (i.val - 0) / (0 + 1) = i.val; omega
    | ⟨2, _⟩ => show (h.val - 0) / (0 + 1) = h.val; omega
    | ⟨3, _⟩ => show (w.val - 0) / (0 + 1) = w.val; omega
  · rename_i hin
    have hh : ¬(h.val < 128 ∧ w.val < 128) := fun hh => hin fun a => by
      match a with
      | ⟨0, _⟩ => show 0 ≤ b.val ∧ (b.val - 0) % (0 + 1) = 0 ∧ (b.val - 0) / (0 + 1) < 32; omega
      | ⟨1, _⟩ => show 0 ≤ i.val ∧ (i.val - 0) % (0 + 1) = 0 ∧ (i.val - 0) / (0 + 1) < 3; omega
      | ⟨2, _⟩ => show 0 ≤ h.val ∧ (h.val - 0) % (0 + 1) = 0 ∧ (h.val - 0) / (0 + 1) < 128; omega
      | ⟨3, _⟩ => show 0 ≤ w.val ∧ (w.val - 0) % (0 + 1) = 0 ∧ (w.val - 0) / (0 + 1) < 128; omega
    rw [dif_neg hh]
    exact congrArg v (funext fun a => a.elim0)

/-- The integer zero and the padding leave the padded input in the padded array's buffer. -/
theorem pre_v0 (W : Valuation τ sig (Elt Ideal)) :
    StableHlo.after (hostOps0_1 (F := Ideal)) (StableHlo.after (hostOps0 (F := Ideal)) W) (Proc.devRef .tc main_v0)
      = pad S32x3x130x130 ![0, 0, 0, 0] ![0, 0, 2, 2] ![0, 0, 0, 0] (W (Proc.devRef .tc main_arg0))
          (sitofp (F := Ideal) .f32 (constantI S_ 32 0#32)) pads_S32x3x128x128_S32x3x130x130_000_000_020_020 h_S_ := by
  dsimp only [hostOps0, hostOps0_1]
  after_results_simp
  rfl

/-- No operation of the state's stretches writes the padded array. -/
theorem ops2_v0 (W : Valuation τ sig (Elt Ideal)) :
    StableHlo.after (hostOps0_2 (F := Ideal)) W (Proc.devRef .tc main_v0) = W (Proc.devRef .tc main_v0) :=
  StableHlo.after_of_forall_not_mem (b := Proc.devRef .tc main_v0) _ _ (List.forall_iff_forall_mem.mp (by
    simp only [hostOps0_2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- The converted integer zero is the extended real zero. -/
theorem sitofp_zero : (sitofp (F := Ideal) .f32 (constantI S_ 32 0#32) : (⟨S_, .f32⟩ : BufTy).Contents (Elt Ideal)) ix0 = 0 := by
  show (((0#32 : BitVec 32).toInt : ℝ) : EReal) = 0
  rw [show (0#32 : BitVec 32).toInt = 0 from by decide, Int.cast_zero, EReal.coe_zero]

variable (m : (ℓ : Loc nD τ sig) → Buf (Elt Ideal) ℓ) (c : Dev nD)

/-- The padded array as the region finds it: the image read at natural coordinates, zero outside. -/
theorem V_xpad (b : Fin 32) (i : Fin 3) (h w : Fin 130) :
    V (F := Ideal) m c main_v0 (ix4 b i h w) = img (m ((c.tc : Thread nD τ).loc main_arg0)) b i h.val w.val := by
  show StableHlo.after (List.flatten [hostOps0, hostOps0_1, hostOps0_2]) (fun b => m (c, b)) (Proc.devRef .tc main_v0) (ix4 b i h w) = _
  simp only [List.flatten_cons, List.flatten_nil, List.append_nil]
  rw [after_append, after_append, ops2_v0, pre_v0, pad_apply]
  unfold img
  by_cases hh : h.val < 128 ∧ w.val < 128
  · rw [dif_pos hh, dif_pos hh]
  · rw [dif_neg hh, dif_neg hh]
    exact sitofp_zero

end Cert.Quanv.KHost

end
-- ==== Proof.KernFinal.lean ====
/-
  The idealized kernel program's result array as one function of its two arguments.

  The pipeline runs the body at 32 grid points; point t stages the whole 3×8 weight-state array and image t of the
  zero-padded input (a 1×3×130×130 block), and writes back block t (1×4×128×128) of the result. The body's block at
  (0, j, h, w) is the circuit value of the patch at (h, w) of the staged image (masked outside the 125×125 window);
  the weight-state array holds each channel's weight state; the padded image agrees with the input wherever a patch
  of the window reads it. Hence block t of the result is block t of the specification's array, and the 32 blocks
  tile the array.
-/
import proofs.«180459_j52956946760354_2_alg».proof.Proof.FrameKernelIdealP
import proofs.«180459_j52956946760354_2_alg».proof.Proof.Spec
import proofs.«180459_j52956946760354_2_alg».proof.Proof.KernPay
import proofs.«180459_j52956946760354_2_alg».proof.Proof.KernHostPsi
import proofs.«180459_j52956946760354_2_alg».proof.Proof.KernHostPad
import Idealize.ShloMosaic.Lib.Pipeline.Value
import Idealize.ShloMosaic.Lib.ValueIdx

set_option maxRecDepth 16384

noncomputable section

namespace Cert.Quanv.KFin

open Cert.KernelIdeal Cert.KernelIdeal.Gen Cert.KernelIdeal.GenP Cert.Quanv Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

/-- The printed index maps over the 32 grid points: the weight-state window stays at block (0, 0); the image and
    the result windows are at block (t, 0, 0, 0). -/
theorem idx_facts0 : ∀ t : Fin cfg0.N, win0_0.index t (0 : Fin 2) = 0 ∧ win0_0.index t (1 : Fin 2) = 0 :=
  (by decide +kernel : ∀ t : Fin grid0.N, _)
theorem t_lt (t : Fin cfg0.N) : t.val < 32 := by have h1 := t.isLt; have h2 : cfg0.N = 32 := N_0; omega

/-- On the one-axis grid of 32 points the coordinate of point t is t. -/
theorem coords0 (t : Fin cfg0.N) : (grid0.coords t (0 : Fin 1)).val = t.val := by
  show t.val / grid0.stride 0 % 32 = t.val
  have hs : grid0.stride (0 : Fin 1) = 1 := by decide
  rw [hs, Nat.div_one, Nat.mod_eq_of_lt (t_lt t)]

theorem idx_facts1 (t : Fin cfg0.N) :
    win0_1.index t (0 : Fin 4) = t.val ∧ win0_1.index t (1 : Fin 4) = 0 ∧ win0_1.index t (2 : Fin 4) = 0 ∧ win0_1.index t (3 : Fin 4) = 0 := by
  refine ⟨?_, rfl, rfl, rfl⟩
  show (BitVec.ofNat 32 (grid0.coords t (0 : Fin 1)).val).toNat = t.val
  rw [coords0, BitVec.toNat_ofNat, Nat.mod_eq_of_lt (by have := t_lt t; omega)]

theorem idx_facts2 (t : Fin cfg0.N) :
    win0_2.index t (0 : Fin 4) = t.val ∧ win0_2.index t (1 : Fin 4) = 0 ∧ win0_2.index t (2 : Fin 4) = 0 ∧ win0_2.index t (3 : Fin 4) = 0 := by
  refine ⟨?_, rfl, rfl, rfl⟩
  show (BitVec.ofNat 32 (grid0.coords t (0 : Fin 1)).val).toNat = t.val
  rw [coords0, BitVec.toNat_ofNat, Nat.mod_eq_of_lt (by have := t_lt t; omega)]

theorem read0 (c : Dev nD) (A : (b : Ref sig .tc) → Buf (Elt Ideal) ((c : Thread nD τ).loc b)) (t : Fin cfg0.N) (i : Fin 3) (d : Fin 8) :
    ((cfg0.win 0).blk t).view.read (Elt Ideal) (A (Pipeline.arrRef spec0 0)) (ix2 i d) = A main_v274 (ix2 i d) := by
  obtain ⟨e0, e1⟩ := idx_facts0 t
  show A main_v274 (((cfg0.win 0).blk t).view.emb (ix2 i d)) = _
  refine congrArg _ (funext fun a => Fin.ext ?_)
  match a with
  | ⟨0, _⟩ => show win0_0.index t (0 : Fin 2) * 3 + 1 * i.val = i.val; omega
  | ⟨1, _⟩ => show win0_0.index t (1 : Fin 2) * 8 + 1 * d.val = d.val; omega

theorem iblk0_apply (c : Dev nD) (t : Fin cfg0.N) (i : Fin 3) (d : Fin 8) :
    iblk m c 0 t (ix2 i d) = V m c main_v274 (ix2 i d) := by
  unfold iblk
  exact read0 c (V m c) t i d

theorem read1 (c : Dev nD) (A : (b : Ref sig .tc) → Buf (Elt Ideal) ((c : Thread nD τ).loc b)) (t : Fin cfg0.N) (i : Fin 3) (h w : Fin 130) :
    ((cfg0.win 1).blk t).view.read (Elt Ideal) (A (Pipeline.arrRef spec0 1)) (ix4 0 i h w) = A main_v0 (ix4 ⟨t.val, t_lt t⟩ i h w) := by
  obtain ⟨e0, e1, e2, e3⟩ := idx_facts1 t
  show A main_v0 (((cfg0.win 1).blk t).view.emb (ix4 0 i h w)) = _
  refine congrArg _ (funext fun a => Fin.ext ?_)
  match a with
  | ⟨0, _⟩ => show win0_1.index t (0 : Fin 4) * 1 + 1 * 0 = t.val; omega
  | ⟨1, _⟩ => show win0_1.index t (1 : Fin 4) * 3 + 1 * i.val = i.val; omega
  | ⟨2, _⟩ => show win0_1.index t (2 : Fin 4) * 130 + 1 * h.val = h.val; omega
  | ⟨3, _⟩ => show win0_1.index t (3 : Fin 4) * 130 + 1 * w.val = w.val; omega

theorem iblk1_apply (c : Dev nD) (t : Fin cfg0.N) (i : Fin 3) (h w : Fin 130) :
    iblk m c 1 t (ix4 0 i h w) = V m c main_v0 (ix4 ⟨t.val, t_lt t⟩ i h w) := by
  unfold iblk
  exact read1 c (V m c) t i h w

/-- The result at array index (b, j, h, w) is the specification's value there. -/
theorem G_ix4 (X : (⟨4, ![32, 3, 128, 128]⟩ : Shape).Idx → EReal) (W : (⟨2, ![3, 9]⟩ : Shape).Idx → EReal)
    (b : Fin 32) (j : Fin 4) (h w : Fin 128) : G X W (ix4 b j h w) = outAt X W b j h w := rfl

/-- The image block at point t, read at natural coordinates, is image t of the input (zero beyond the image). -/
theorem blk_img (c : Dev nD) (t : Fin cfg0.N) (i : Fin 3) :
    Kern.blkImg (iblk m c 1 t) i = img (m ((c.tc : Thread nD τ).loc main_arg0)) ⟨t.val, t_lt t⟩ i := by
  funext h w
  unfold Kern.blkImg
  by_cases hh : h < 130 ∧ w < 130
  · rw [dif_pos hh, iblk1_apply, KHost.V_xpad]
  · rw [dif_neg hh]
    unfold img
    rw [dif_neg (fun h2 => hh ⟨by omega, by omega⟩)]

theorem emb2 (t : Fin cfg0.N) (j : Fin 4) (h w : Fin 128) :
    ((cfg0.win 2).blk t).view.emb (ix4 0 j h w) = (ix4 ⟨t.val, t_lt t⟩ j h w : S32x4x128x128.Idx) := by
  obtain ⟨e0, e1, e2, e3⟩ := idx_facts2 t
  refine funext fun a => Fin.ext ?_
  match a with
  | ⟨0, _⟩ => show win0_2.index t (0 : Fin 4) * 1 + 1 * 0 = t.val; omega
  | ⟨1, _⟩ => show win0_2.index t (1 : Fin 4) * 4 + 1 * j.val = j.val; omega
  | ⟨2, _⟩ => show win0_2.index t (2 : Fin 4) * 128 + 1 * h.val = h.val; omega
  | ⟨3, _⟩ => show win0_2.index t (3 : Fin 4) * 128 + 1 * w.val = w.val; omega

/-- What point t writes back is block t of the specification's array. -/
theorem flushed_eq (c : Dev nD) (t : Fin cfg0.N) :
    (dats m 0 c).flushed 2 t = ((cfg0.win 2).blk t).view.read (Elt Ideal)
      (G (m ((c.tc : Thread nD τ).loc main_arg0)) (m ((c.tc : Thread nD τ).loc main_arg1))) := by
  show (cfg0.win 2).cut (grid0.coords t) ((dats m 0 c).after 2 t) = _
  rw [after0_2]
  funext y
  obtain ⟨z, j, h, w, rfl⟩ : ∃ (z : Fin 1) (j : Fin 4) (h w : Fin 128), y = ix4 z j h w := ⟨y 0, y 1, y 2, y 3, eq_ix4 y⟩
  obtain rfl : z = 0 := Subsingleton.elim _ _
  show out0_2 (iblk m c 0 t) (iblk m c 1 t) (ix4 0 j h w)
    = G (m ((c.tc : Thread nD τ).loc main_arg0)) (m ((c.tc : Thread nD τ).loc main_arg1)) (((cfg0.win 2).blk t).view.emb (ix4 0 j h w))
  refine (Kern.out_block _ _ j h w).trans ?_
  rw [emb2, G_ix4]
  unfold outAt
  refine if_congr Iff.rfl (congrArg (fun P => accum P j) (funext fun i => ?_)) rfl
  rw [blk_img m c t i]
  show circ _ _ = circ _ (wstate _)
  exact congrArg _ (funext fun d => (iblk0_apply m c t i d).trans (KHost.V_psi m c i d))

/-- An index of the result array is in point t's block iff each coordinate is in the block's range on its axis. -/
theorem mem_blk2 (t : Fin cfg0.N) (i : S32x4x128x128.Idx) :
    i ∈ ((cfg0.win 2).blk t).view.set ↔ ∀ a : Fin 4, win0_2.index t a * S1x4x128x128.size a ≤ (i a).val ∧ (i a).val < win0_2.index t a * S1x4x128x128.size a + S1x4x128x128.size a := by
  show i ∈ ((View.whole main_v275).slice (win0_2.rect t)).set ↔ _
  rw [View.set_slice_whole, Rect.mem_set_unit]
  exact Iff.rfl

/-- Every index of the result array lies in the block of the grid point named by its first coordinate. -/
theorem cover2 (i : S32x4x128x128.Idx) :
    ∃ t : Fin cfg0.N, (cfg0.win 2).flush t = true ∧ i ∈ ((cfg0.win 2).blk t).view.set := by
  have hN : cfg0.N = 32 := N_0
  have h0 : (i 0).val < 32 := (i 0).isLt
  have h1 : (i 1).val < 4 := (i 1).isLt
  have h2 : (i 2).val < 128 := (i 2).isLt
  have h3 : (i 3).val < 128 := (i 3).isLt
  obtain ⟨t, ht⟩ : ∃ t : Fin cfg0.N, t.val = (i 0).val := ⟨⟨(i 0).val, by omega⟩, rfl⟩
  refine ⟨t, flush0_2 t, ?_⟩
  obtain ⟨e0, e1, e2, e3⟩ := idx_facts2 t
  rw [mem_blk2]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 4 ≤ (i 1).val ∧ (i 1).val < win0_2.index t (1 : Fin 4) * 4 + 4; omega
  | ⟨2, _⟩ => show win0_2.index t (2 : Fin 4) * 128 ≤ (i 2).val ∧ (i 2).val < win0_2.index t (2 : Fin 4) * 128 + 128; omega
  | ⟨3, _⟩ => show win0_2.index t (3 : Fin 4) * 128 ≤ (i 3).val ∧ (i 3).val < win0_2.index t (3 : Fin 4) * 128 + 128; omega

theorem final (c : Dev nD) : (dats m 0 c).arrAt 2 cfg0.N
    = G (m ((c.tc : Thread nD τ).loc main_arg0)) (m ((c.tc : Thread nD τ).loc main_arg1)) :=
  (dats m 0 c).arrAt_eq_of_cover 2 _ (fun t _ => flushed_eq m c t) cover2

/-- After the frame run the result buffer is the result window's array. -/
theorem post2 (r : PUnit × MemSt nD τ sig (Elt Ideal)) (h : Pipeline.FramePost cfgs (dats m) 0 (V m) r) (c : Dev nD) :
    r.2.mem ((c : Thread nD τ).loc main_v275) = (dats m 0 c).arrAt 2 cfg0.N :=
  (h c).1 2

theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- Every weakly fair execution of the idealized kernel program terminates with the result array at the specification's
    function of the two argument arrays, the arguments unchanged. -/
theorem run : θ_run defs (onTc (τ := τ) (main (F := Ideal))) ⟨m, fun _ => 0, ρ⟩ fun r => ∀ c : Dev nD,
      r.2.mem ((c : Thread nD τ).loc main_v275)
        = G (m ((c.tc : Thread nD τ).loc main_arg0)) (m ((c.tc : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post2 m r h c).trans (final m c), kept_main_arg0 m r h c, kept_main_arg1 m r h c⟩)
    (run_main m ρ)

end Cert.Quanv.KFin

end
-- ==== Proof.RefFns.lean ====
/- TABLE written by: bun scratch/gen_ref.js <unit> all — one definition per kind of stretch of the reference's host program: the stretch's operations composed,
   as a function of the buffers the stretch reads (an operand slice whose offsets differ between instances of the kind is a parameter). -/
import proofs.«180459_j52956946760354_2_alg».proof.ReferenceIdeal

noncomputable section

namespace Cert.Quanv.Ref

open Cert.ReferenceIdeal Cert.ReferenceIdeal.Facts₀ Cert.ReferenceIdeal.Facts Idealize.ShloMosaic

variable {F : FTy → Type} [FloatOps F] [Cert.ReferenceIdeal.Facts]

/-- Kind patch: 19 operations (first instance: Patch). -/
def patchFn (x0 : FVec F S32x3x128x128 .f32) : FVec F S32x3x125x125x9 .f32 :=
  ((fun u => concatenate S32x3x125x125x9 4 [⟨S32x3x125x125x1, u 0⟩, ⟨S32x3x125x125x1, u 1⟩, ⟨S32x3x125x125x1, u 2⟩, ⟨S32x3x125x125x1, u 3⟩, ⟨S32x3x125x125x1, u 4⟩, ⟨S32x3x125x125x1, u 5⟩, ⟨S32x3x125x125x1, u 6⟩, ⟨S32x3x125x125x1, u 7⟩, ⟨S32x3x125x125x1, u 8⟩] concatenates_S32x3x125x125x1_S32x3x125x125x1_S32x3x125x125x1_S32x3x125x125x1_S32x3x125x125x1_S32x3x125x125x1_S32x3x125x125x1_S32x3x125x125x1_S32x3x125x125x1_S32x3x125x125x9_d4) (fun k => (![((broadcastInDim S32x3x125x125x1 ![0, 1, 2, 3] bcast_S32x3x125x125_S32x3x125x125x1_0_1_2_3 : (⟨S32x3x125x125, .f32⟩ : BufTy).Contents (Elt F) → (⟨S32x3x125x125x1, .f32⟩ : BufTy).Contents (Elt F)) (((extractStridedSlice S32x3x125x125 ![0, 0, 0, 0] · slices_S32x3x128x128_S32x3x125x125_0_0_0_0) : (⟨S32x3x128x128, .f32⟩ : BufTy).Contents (Elt F) → (⟨S32x3x125x125, .f32⟩ : BufTy).Contents (Elt F)) x0)), ((broadcastInDim S32x3x125x125x1 ![0, 1, 2, 3] bcast_S32x3x125x125_S32x3x125x125x1_0_1_2_3 : (⟨S32x3x125x125, .f32⟩ : BufTy).Contents (Elt F) → (⟨S32x3x125x125x1, .f32⟩ : BufTy).Contents (Elt F)) (((extractStridedSlice S32x3x125x125 ![0, 0, 0, 1] · slices_S32x3x128x128_S32x3x125x125_0_0_0_1) : (⟨S32x3x128x128, .f32⟩ : BufTy).Contents (Elt F) → (⟨S32x3x125x125, .f32⟩ : BufTy).Contents (Elt F)) x0)), ((broadcastInDim S32x3x125x125x1 ![0, 1, 2, 3] bcast_S32x3x125x125_S32x3x125x125x1_0_1_2_3 : (⟨S32x3x125x125, .f32⟩ : BufTy).Contents (Elt F) → (⟨S32x3x125x125x1, .f32⟩ : BufTy).Contents (Elt F)) (((extractStridedSlice S32x3x125x125 ![0, 0, 0, 2] · slices_S32x3x128x128_S32x3x125x125_0_0_0_2) : (⟨S32x3x128x128, .f32⟩ : BufTy).Contents (Elt F) → (⟨S32x3x125x125, .f32⟩ : BufTy).Contents (Elt F)) x0)), ((broadcastInDim S32x3x125x125x1 ![0, 1, 2, 3] bcast_S32x3x125x125_S32x3x125x125x1_0_1_2_3 : (⟨S32x3x125x125, .f32⟩ : BufTy).Contents (Elt F) → (⟨S32x3x125x125x1, .f32⟩ : BufTy).Contents (Elt F)) (((extractStridedSlice S32x3x125x125 ![0, 0, 1, 0] · slices_S32x3x128x128_S32x3x125x125_0_0_1_0) : (⟨S32x3x128x128, .f32⟩ : BufTy).Contents (Elt F) → (⟨S32x3x125x125, .f32⟩ : BufTy).Contents (Elt F)) x0)), ((broadcastInDim S32x3x125x125x1 ![0, 1, 2, 3] bcast_S32x3x125x125_S32x3x125x125x1_0_1_2_3 : (⟨S32x3x125x125, .f32⟩ : BufTy).Contents (Elt F) → (⟨S32x3x125x125x1, .f32⟩ : BufTy).Contents (Elt F)) (((extractStridedSlice S32x3x125x125 ![0, 0, 1, 1] · slices_S32x3x128x128_S32x3x125x125_0_0_1_1) : (⟨S32x3x128x128, .f32⟩ : BufTy).Contents (Elt F) → (⟨S32x3x125x125, .f32⟩ : BufTy).Contents (Elt F)) x0)), ((broadcastInDim S32x3x125x125x1 ![0, 1, 2, 3] bcast_S32x3x125x125_S32x3x125x125x1_0_1_2_3 : (⟨S32x3x125x125, .f32⟩ : BufTy).Contents (Elt F) → (⟨S32x3x125x125x1, .f32⟩ : BufTy).Contents (Elt F)) (((extractStridedSlice S32x3x125x125 ![0, 0, 1, 2] · slices_S32x3x128x128_S32x3x125x125_0_0_1_2) : (⟨S32x3x128x128, .f32⟩ : BufTy).Contents (Elt F) → (⟨S32x3x125x125, .f32⟩ : BufTy).Contents (Elt F)) x0)), ((broadcastInDim S32x3x125x125x1 ![0, 1, 2, 3] bcast_S32x3x125x125_S32x3x125x125x1_0_1_2_3 : (⟨S32x3x125x125, .f32⟩ : BufTy).Contents (Elt F) → (⟨S32x3x125x125x1, .f32⟩ : BufTy).Contents (Elt F)) (((extractStridedSlice S32x3x125x125 ![0, 0, 2, 0] · slices_S32x3x128x128_S32x3x125x125_0_0_2_0) : (⟨S32x3x128x128, .f32⟩ : BufTy).Contents (Elt F) → (⟨S32x3x125x125, .f32⟩ : BufTy).Contents (Elt F)) x0)), ((broadcastInDim S32x3x125x125x1 ![0, 1, 2, 3] bcast_S32x3x125x125_S32x3x125x125x1_0_1_2_3 : (⟨S32x3x125x125, .f32⟩ : BufTy).Contents (Elt F) → (⟨S32x3x125x125x1, .f32⟩ : BufTy).Contents (Elt F)) (((extractStridedSlice S32x3x125x125 ![0, 0, 2, 1] · slices_S32x3x128x128_S32x3x125x125_0_0_2_1) : (⟨S32x3x128x128, .f32⟩ : BufTy).Contents (Elt F) → (⟨S32x3x125x125, .f32⟩ : BufTy).Contents (Elt F)) x0)), ((broadcastInDim S32x3x125x125x1 ![0, 1, 2, 3] bcast_S32x3x125x125_S32x3x125x125x1_0_1_2_3 : (⟨S32x3x125x125, .f32⟩ : BufTy).Contents (Elt F) → (⟨S32x3x125x125x1, .f32⟩ : BufTy).Contents (Elt F)) (((extractStridedSlice S32x3x125x125 ![0, 0, 2, 2] · slices_S32x3x128x128_S32x3x125x125_0_0_2_2) : (⟨S32x3x128x128, .f32⟩ : BufTy).Contents (Elt F) → (⟨S32x3x125x125, .f32⟩ : BufTy).Contents (Elt F)) x0))] : Fin 9 → _) k))

/-- Kind oneHot: 29 operations (first instance: OneHot). -/
def oneHotFn : FVec F S8x4 .f32 :=
  ((uitofp .f32) ((cmpi .eq) ((broadcastInDim S8x4 ![0, 1] bcast_S8x1_S8x4_0_1) ((broadcastInDim S8x1 ![0] bcast_S8_S8x1_0) (select (andi ((cmpi .ne) ((cmpi .slt) (Host.remsi ((iotaInDim S8 32 0)) ((broadcastInDim S8 ![] bcast_S_S8) (select ((cmpi .eq) (id ((constantI S_ 32 4#32))) ((constantI S_ 32 0#32))) ((constantI S_ 32 1#32)) (id ((constantI S_ 32 4#32)))))) ((broadcastInDim S8 ![] bcast_S_S8) ((constantI S_ 32 0#32)))) ((broadcastInDim S8 ![] bcast_S_S8) ((cmpi .slt) (select ((cmpi .eq) (id ((constantI S_ 32 4#32))) ((constantI S_ 32 0#32))) ((constantI S_ 32 1#32)) (id ((constantI S_ 32 4#32)))) ((constantI S_ 32 0#32))))) ((cmpi .ne) (Host.remsi ((iotaInDim S8 32 0)) ((broadcastInDim S8 ![] bcast_S_S8) (select ((cmpi .eq) (id ((constantI S_ 32 4#32))) ((constantI S_ 32 0#32))) ((constantI S_ 32 1#32)) (id ((constantI S_ 32 4#32)))))) ((broadcastInDim S8 ![] bcast_S_S8) ((constantI S_ 32 0#32))))) (addi (Host.remsi ((iotaInDim S8 32 0)) ((broadcastInDim S8 ![] bcast_S_S8) (select ((cmpi .eq) (id ((constantI S_ 32 4#32))) ((constantI S_ 32 0#32))) ((constantI S_ 32 1#32)) (id ((constantI S_ 32 4#32)))))) ((broadcastInDim S8 ![] bcast_S_S8) (select ((cmpi .eq) (id ((constantI S_ 32 4#32))) ((constantI S_ 32 0#32))) ((constantI S_ 32 1#32)) (id ((constantI S_ 32 4#32)))))) (Host.remsi ((iotaInDim S8 32 0)) ((broadcastInDim S8 ![] bcast_S_S8) (select ((cmpi .eq) (id ((constantI S_ 32 4#32))) ((constantI S_ 32 0#32))) ((constantI S_ 32 1#32)) (id ((constantI S_ 32 4#32))))))))) ((broadcastInDim S8x4 ![0, 1] bcast_S1x4_S8x4_0_1) ((iotaInDim S1x4 32 1)))))

/-- Kind acc0: 2 operations (first instance: Acc0). -/
def acc0Fn : FVec F S32x125x125x4 .f32 :=
  ((broadcastInDim S32x125x125x4 ![] bcast_S_S32x125x125x4 : (⟨S_, .f32⟩ : BufTy).Contents (Elt F) → (⟨S32x125x125x4, .f32⟩ : BufTy).Contents (Elt F)) ((constant (F := F) S_ .f32 0x00000000#32)))

/-- Kind psi0: 2 operations (first instance: C0Psi0). -/
def psi0Fn : FVec F S8 .f32 :=
  ((broadcastInDim S8 ![] bcast_S_S8 : (⟨S_, .f32⟩ : BufTy).Contents (Elt F) → (⟨S8, .f32⟩ : BufTy).Contents (Elt F)) ((constant (F := F) S_ .f32 0x3EB504F3#32)))

/-- Kind ryW0: 27 operations (first instance: C0W0). -/
def ryW0Fn (x0 : FVec F S8 .f32) (x1 : FVec F S1x1 .f32) : FVec F S8 .f32 :=
  (shapeCast S8 (((fun a b => concatenate S4x2x1 1 [⟨S4x1x1, a⟩, ⟨S4x1x1, b⟩] concatenates_S4x1x1_S4x1x1_S4x2x1_d1) : (⟨S4x1x1, .f32⟩ : BufTy).Contents (Elt F) → (⟨S4x1x1, .f32⟩ : BufTy).Contents (Elt F) → (⟨S4x2x1, .f32⟩ : BufTy).Contents (Elt F)) ((broadcastInDim S4x1x1 ![0, 2] bcast_S4x1_S4x1x1_0_2 : (⟨S4x1, .f32⟩ : BufTy).Contents (Elt F) → (⟨S4x1x1, .f32⟩ : BufTy).Contents (Elt F)) ((subf : (⟨S4x1, .f32⟩ : BufTy).Contents (Elt F) → (⟨S4x1, .f32⟩ : BufTy).Contents (Elt F) → (⟨S4x1, .f32⟩ : BufTy).Contents (Elt F)) ((mulf : (⟨S4x1, .f32⟩ : BufTy).Contents (Elt F) → (⟨S4x1, .f32⟩ : BufTy).Contents (Elt F) → (⟨S4x1, .f32⟩ : BufTy).Contents (Elt F)) ((broadcastInDim S4x1 ![0, 1] bcast_S1x1_S4x1_0_1 : (⟨S1x1, .f32⟩ : BufTy).Contents (Elt F) → (⟨S4x1, .f32⟩ : BufTy).Contents (Elt F)) ((broadcastInDim S1x1 ![] bcast_S_S1x1 : (⟨S_, .f32⟩ : BufTy).Contents (Elt F) → (⟨S1x1, .f32⟩ : BufTy).Contents (Elt F)) ((Host.cos : (⟨S_, .f32⟩ : BufTy).Contents (Elt F) → (⟨S_, .f32⟩ : BufTy).Contents (Elt F)) ((mulf : (⟨S_, .f32⟩ : BufTy).Contents (Elt F) → (⟨S_, .f32⟩ : BufTy).Contents (Elt F) → (⟨S_, .f32⟩ : BufTy).Contents (Elt F)) (shapeCast S_ x1 shapeCasts_S1x1_S_) ((constant (F := F) S_ .f32 0x3F000000#32)))))) (shapeCast S4x1 (((extractStridedSlice S4x1x1 ![0, 0, 0] · slices_S4x2x1_S4x1x1_0_0_0) : (⟨S4x2x1, .f32⟩ : BufTy).Contents (Elt F) → (⟨S4x1x1, .f32⟩ : BufTy).Contents (Elt F)) (shapeCast S4x2x1 x0 shapeCasts_S8_S4x2x1)) shapeCasts_S4x1x1_S4x1)) ((mulf : (⟨S4x1, .f32⟩ : BufTy).Contents (Elt F) → (⟨S4x1, .f32⟩ : BufTy).Contents (Elt F) → (⟨S4x1, .f32⟩ : BufTy).Contents (Elt F)) ((broadcastInDim S4x1 ![0, 1] bcast_S1x1_S4x1_0_1 : (⟨S1x1, .f32⟩ : BufTy).Contents (Elt F) → (⟨S4x1, .f32⟩ : BufTy).Contents (Elt F)) ((broadcastInDim S1x1 ![] bcast_S_S1x1 : (⟨S_, .f32⟩ : BufTy).Contents (Elt F) → (⟨S1x1, .f32⟩ : BufTy).Contents (Elt F)) ((Host.sin : (⟨S_, .f32⟩ : BufTy).Contents (Elt F) → (⟨S_, .f32⟩ : BufTy).Contents (Elt F)) ((mulf : (⟨S_, .f32⟩ : BufTy).Contents (Elt F) → (⟨S_, .f32⟩ : BufTy).Contents (Elt F) → (⟨S_, .f32⟩ : BufTy).Contents (Elt F)) (shapeCast S_ x1 shapeCasts_S1x1_S_) ((constant (F := F) S_ .f32 0x3F000000#32)))))) (shapeCast S4x1 (((extractStridedSlice S4x1x1 ![0, 1, 0] · slices_S4x2x1_S4x1x1_0_1_0) : (⟨S4x2x1, .f32⟩ : BufTy).Contents (Elt F) → (⟨S4x1x1, .f32⟩ : BufTy).Contents (Elt F)) (shapeCast S4x2x1 x0 shapeCasts_S8_S4x2x1)) shapeCasts_S4x1x1_S4x1)))) ((broadcastInDim S4x1x1 ![0, 2] bcast_S4x1_S4x1x1_0_2 : (⟨S4x1, .f32⟩ : BufTy).Contents (Elt F) → (⟨S4x1x1, .f32⟩ : BufTy).Contents (Elt F)) ((addf : (⟨S4x1, .f32⟩ : BufTy).Contents (Elt F) → (⟨S4x1, .f32⟩ : BufTy).Contents (Elt F) → (⟨S4x1, .f32⟩ : BufTy).Contents (Elt F)) ((mulf : (⟨S4x1, .f32⟩ : BufTy).Contents (Elt F) → (⟨S4x1, .f32⟩ : BufTy).Contents (Elt F) → (⟨S4x1, .f32⟩ : BufTy).Contents (Elt F)) ((broadcastInDim S4x1 ![0, 1] bcast_S1x1_S4x1_0_1 : (⟨S1x1, .f32⟩ : BufTy).Contents (Elt F) → (⟨S4x1, .f32⟩ : BufTy).Contents (Elt F)) ((broadcastInDim S1x1 ![] bcast_S_S1x1 : (⟨S_, .f32⟩ : BufTy).Contents (Elt F) → (⟨S1x1, .f32⟩ : BufTy).Contents (Elt F)) ((Host.sin : (⟨S_, .f32⟩ : BufTy).Contents (Elt F) → (⟨S_, .f32⟩ : BufTy).Contents (Elt F)) ((mulf : (⟨S_, .f32⟩ : BufTy).Contents (Elt F) → (⟨S_, .f32⟩ : BufTy).Contents (Elt F) → (⟨S_, .f32⟩ : BufTy).Contents (Elt F)) (shapeCast S_ x1 shapeCasts_S1x1_S_) ((constant (F := F) S_ .f32 0x3F000000#32)))))) (shapeCast S4x1 (((extractStridedSlice S4x1x1 ![0, 0, 0] · slices_S4x2x1_S4x1x1_0_0_0) : (⟨S4x2x1, .f32⟩ : BufTy).Contents (Elt F) → (⟨S4x1x1, .f32⟩ : BufTy).Contents (Elt F)) (shapeCast S4x2x1 x0 shapeCasts_S8_S4x2x1)) shapeCasts_S4x1x1_S4x1)) ((mulf : (⟨S4x1, .f32⟩ : BufTy).Contents (Elt F) → (⟨S4x1, .f32⟩ : BufTy).Contents (Elt F) → (⟨S4x1, .f32⟩ : BufTy).Contents (Elt F)) ((broadcastInDim S4x1 ![0, 1] bcast_S1x1_S4x1_0_1 : (⟨S1x1, .f32⟩ : BufTy).Contents (Elt F) → (⟨S4x1, .f32⟩ : BufTy).Contents (Elt F)) ((broadcastInDim S1x1 ![] bcast_S_S1x1 : (⟨S_, .f32⟩ : BufTy).Contents (Elt F) → (⟨S1x1, .f32⟩ : BufTy).Contents (Elt F)) ((Host.cos : (⟨S_, .f32⟩ : BufTy).Contents (Elt F) → (⟨S_, .f32⟩ : BufTy).Contents (Elt F)) ((mulf : (⟨S_, .f32⟩ : BufTy).Contents (Elt F) → (⟨S_, .f32⟩ : BufTy).Contents (Elt F) → (⟨S_, .f32⟩ : BufTy).Contents (Elt F)) (shapeCast S_ x1 shapeCasts_S1x1_S_) ((constant (F := F) S_ .f32 0x3F000000#32)))))) (shapeCast S4x1 (((extractStridedSlice S4x1x1 ![0, 1, 0] · slices_S4x2x1_S4x1x1_0_1_0) : (⟨S4x2x1, .f32⟩ : BufTy).Contents (Elt F) → (⟨S4x1x1, .f32⟩ : BufTy).Contents (Elt F)) (shapeCast S4x2x1 x0 shapeCasts_S8_S4x2x1)) shapeCasts_S4x1x1_S4x1))))) shapeCasts_S4x2x1_S8)

/-- Kind ryW1: 27 operations (first instance: C0W1). -/
def ryW1Fn (x0 : FVec F S8 .f32) (x1 : FVec F S1x1 .f32) : FVec F S8 .f32 :=
  (shapeCast S8 (((fun a b => concatenate S2x2x2 1 [⟨S2x1x2, a⟩, ⟨S2x1x2, b⟩] concatenates_S2x1x2_S2x1x2_S2x2x2_d1) : (⟨S2x1x2, .f32⟩ : BufTy).Contents (Elt F) → (⟨S2x1x2, .f32⟩ : BufTy).Contents (Elt F) → (⟨S2x2x2, .f32⟩ : BufTy).Contents (Elt F)) ((broadcastInDim S2x1x2 ![0, 2] bcast_S2x2_S2x1x2_0_2 : (⟨S2x2, .f32⟩ : BufTy).Contents (Elt F) → (⟨S2x1x2, .f32⟩ : BufTy).Contents (Elt F)) ((subf : (⟨S2x2, .f32⟩ : BufTy).Contents (Elt F) → (⟨S2x2, .f32⟩ : BufTy).Contents (Elt F) → (⟨S2x2, .f32⟩ : BufTy).Contents (Elt F)) ((mulf : (⟨S2x2, .f32⟩ : BufTy).Contents (Elt F) → (⟨S2x2, .f32⟩ : BufTy).Contents (Elt F) → (⟨S2x2, .f32⟩ : BufTy).Contents (Elt F)) ((broadcastInDim S2x2 ![0, 1] bcast_S1x1_S2x2_0_1 : (⟨S1x1, .f32⟩ : BufTy).Contents (Elt F) → (⟨S2x2, .f32⟩ : BufTy).Contents (Elt F)) ((broadcastInDim S1x1 ![] bcast_S_S1x1 : (⟨S_, .f32⟩ : BufTy).Contents (Elt F) → (⟨S1x1, .f32⟩ : BufTy).Contents (Elt F)) ((Host.cos : (⟨S_, .f32⟩ : BufTy).Contents (Elt F) → (⟨S_, .f32⟩ : BufTy).Contents (Elt F)) ((mulf : (⟨S_, .f32⟩ : BufTy).Contents (Elt F) → (⟨S_, .f32⟩ : BufTy).Contents (Elt F) → (⟨S_, .f32⟩ : BufTy).Contents (Elt F)) (shapeCast S_ x1 shapeCasts_S1x1_S_) ((constant (F := F) S_ .f32 0x3F000000#32)))))) (shapeCast S2x2 (((extractStridedSlice S2x1x2 ![0, 0, 0] · slices_S2x2x2_S2x1x2_0_0_0) : (⟨S2x2x2, .f32⟩ : BufTy).Contents (Elt F) → (⟨S2x1x2, .f32⟩ : BufTy).Contents (Elt F)) (shapeCast S2x2x2 x0 shapeCasts_S8_S2x2x2)) shapeCasts_S2x1x2_S2x2)) ((mulf : (⟨S2x2, .f32⟩ : BufTy).Contents (Elt F) → (⟨S2x2, .f32⟩ : BufTy).Contents (Elt F) → (⟨S2x2, .f32⟩ : BufTy).Contents (Elt F)) ((broadcastInDim S2x2 ![0, 1] bcast_S1x1_S2x2_0_1 : (⟨S1x1, .f32⟩ : BufTy).Contents (Elt F) → (⟨S2x2, .f32⟩ : BufTy).Contents (Elt F)) ((broadcastInDim S1x1 ![] bcast_S_S1x1 : (⟨S_, .f32⟩ : BufTy).Contents (Elt F) → (⟨S1x1, .f32⟩ : BufTy).Contents (Elt F)) ((Host.sin : (⟨S_, .f32⟩ : BufTy).Contents (Elt F) → (⟨S_, .f32⟩ : BufTy).Contents (Elt F)) ((mulf : (⟨S_, .f32⟩ : BufTy).Contents (Elt F) → (⟨S_, .f32⟩ : BufTy).Contents (Elt F) → (⟨S_, .f32⟩ : BufTy).Contents (Elt F)) (shapeCast S_ x1 shapeCasts_S1x1_S_) ((constant (F := F) S_ .f32 0x3F000000#32)))))) (shapeCast S2x2 (((extractStridedSlice S2x1x2 ![0, 1, 0] · slices_S2x2x2_S2x1x2_0_1_0) : (⟨S2x2x2, .f32⟩ : BufTy).Contents (Elt F) → (⟨S2x1x2, .f32⟩ : BufTy).Contents (Elt F)) (shapeCast S2x2x2 x0 shapeCasts_S8_S2x2x2)) shapeCasts_S2x1x2_S2x2)))) ((broadcastInDim S2x1x2 ![0, 2] bcast_S2x2_S2x1x2_0_2 : (⟨S2x2, .f32⟩ : BufTy).Contents (Elt F) → (⟨S2x1x2, .f32⟩ : BufTy).Contents (Elt F)) ((addf : (⟨S2x2, .f32⟩ : BufTy).Contents (Elt F) → (⟨S2x2, .f32⟩ : BufTy).Contents (Elt F) → (⟨S2x2, .f32⟩ : BufTy).Contents (Elt F)) ((mulf : (⟨S2x2, .f32⟩ : BufTy).Contents (Elt F) → (⟨S2x2, .f32⟩ : BufTy).Contents (Elt F) → (⟨S2x2, .f32⟩ : BufTy).Contents (Elt F)) ((broadcastInDim S2x2 ![0, 1] bcast_S1x1_S2x2_0_1 : (⟨S1x1, .f32⟩ : BufTy).Contents (Elt F) → (⟨S2x2, .f32⟩ : BufTy).Contents (Elt F)) ((broadcastInDim S1x1 ![] bcast_S_S1x1 : (⟨S_, .f32⟩ : BufTy).Contents (Elt F) → (⟨S1x1, .f32⟩ : BufTy).Contents (Elt F)) ((Host.sin : (⟨S_, .f32⟩ : BufTy).Contents (Elt F) → (⟨S_, .f32⟩ : BufTy).Contents (Elt F)) ((mulf : (⟨S_, .f32⟩ : BufTy).Contents (Elt F) → (⟨S_, .f32⟩ : BufTy).Contents (Elt F) → (⟨S_, .f32⟩ : BufTy).Contents (Elt F)) (shapeCast S_ x1 shapeCasts_S1x1_S_) ((constant (F := F) S_ .f32 0x3F000000#32)))))) (shapeCast S2x2 (((extractStridedSlice S2x1x2 ![0, 0, 0] · slices_S2x2x2_S2x1x2_0_0_0) : (⟨S2x2x2, .f32⟩ : BufTy).Contents (Elt F) → (⟨S2x1x2, .f32⟩ : BufTy).Contents (Elt F)) (shapeCast S2x2x2 x0 shapeCasts_S8_S2x2x2)) shapeCasts_S2x1x2_S2x2)) ((mulf : (⟨S2x2, .f32⟩ : BufTy).Contents (Elt F) → (⟨S2x2, .f32⟩ : BufTy).Contents (Elt F) → (⟨S2x2, .f32⟩ : BufTy).Contents (Elt F)) ((broadcastInDim S2x2 ![0, 1] bcast_S1x1_S2x2_0_1 : (⟨S1x1, .f32⟩ : BufTy).Contents (Elt F) → (⟨S2x2, .f32⟩ : BufTy).Contents (Elt F)) ((broadcastInDim S1x1 ![] bcast_S_S1x1 : (⟨S_, .f32⟩ : BufTy).Contents (Elt F) → (⟨S1x1, .f32⟩ : BufTy).Contents (Elt F)) ((Host.cos : (⟨S_, .f32⟩ : BufTy).Contents (Elt F) → (⟨S_, .f32⟩ : BufTy).Contents (Elt F)) ((mulf : (⟨S_, .f32⟩ : BufTy).Contents (Elt F) → (⟨S_, .f32⟩ : BufTy).Contents (Elt F) → (⟨S_, .f32⟩ : BufTy).Contents (Elt F)) (shapeCast S_ x1 shapeCasts_S1x1_S_) ((constant (F := F) S_ .f32 0x3F000000#32)))))) (shapeCast S2x2 (((extractStridedSlice S2x1x2 ![0, 1, 0] · slices_S2x2x2_S2x1x2_0_1_0) : (⟨S2x2x2, .f32⟩ : BufTy).Contents (Elt F) → (⟨S2x1x2, .f32⟩ : BufTy).Contents (Elt F)) (shapeCast S2x2x2 x0 shapeCasts_S8_S2x2x2)) shapeCasts_S2x1x2_S2x2))))) shapeCasts_S2x2x2_S8)

/-- Kind ryW2: 27 operations (first instance: C0W2). -/
def ryW2Fn (x0 : FVec F S8 .f32) (x1 : FVec F S1x1 .f32) : FVec F S8 .f32 :=
  (shapeCast S8 (((fun a b => concatenate S1x2x4 1 [⟨S1x1x4, a⟩, ⟨S1x1x4, b⟩] concatenates_S1x1x4_S1x1x4_S1x2x4_d1) : (⟨S1x1x4, .f32⟩ : BufTy).Contents (Elt F) → (⟨S1x1x4, .f32⟩ : BufTy).Contents (Elt F) → (⟨S1x2x4, .f32⟩ : BufTy).Contents (Elt F)) ((broadcastInDim S1x1x4 ![0, 2] bcast_S1x4_S1x1x4_0_2 : (⟨S1x4, .f32⟩ : BufTy).Contents (Elt F) → (⟨S1x1x4, .f32⟩ : BufTy).Contents (Elt F)) ((subf : (⟨S1x4, .f32⟩ : BufTy).Contents (Elt F) → (⟨S1x4, .f32⟩ : BufTy).Contents (Elt F) → (⟨S1x4, .f32⟩ : BufTy).Contents (Elt F)) ((mulf : (⟨S1x4, .f32⟩ : BufTy).Contents (Elt F) → (⟨S1x4, .f32⟩ : BufTy).Contents (Elt F) → (⟨S1x4, .f32⟩ : BufTy).Contents (Elt F)) ((broadcastInDim S1x4 ![0, 1] bcast_S1x1_S1x4_0_1 : (⟨S1x1, .f32⟩ : BufTy).Contents (Elt F) → (⟨S1x4, .f32⟩ : BufTy).Contents (Elt F)) ((broadcastInDim S1x1 ![] bcast_S_S1x1 : (⟨S_, .f32⟩ : BufTy).Contents (Elt F) → (⟨S1x1, .f32⟩ : BufTy).Contents (Elt F)) ((Host.cos : (⟨S_, .f32⟩ : BufTy).Contents (Elt F) → (⟨S_, .f32⟩ : BufTy).Contents (Elt F)) ((mulf : (⟨S_, .f32⟩ : BufTy).Contents (Elt F) → (⟨S_, .f32⟩ : BufTy).Contents (Elt F) → (⟨S_, .f32⟩ : BufTy).Contents (Elt F)) (shapeCast S_ x1 shapeCasts_S1x1_S_) ((constant (F := F) S_ .f32 0x3F000000#32)))))) (shapeCast S1x4 (((extractStridedSlice S1x1x4 ![0, 0, 0] · slices_S1x2x4_S1x1x4_0_0_0) : (⟨S1x2x4, .f32⟩ : BufTy).Contents (Elt F) → (⟨S1x1x4, .f32⟩ : BufTy).Contents (Elt F)) (shapeCast S1x2x4 x0 shapeCasts_S8_S1x2x4)) shapeCasts_S1x1x4_S1x4)) ((mulf : (⟨S1x4, .f32⟩ : BufTy).Contents (Elt F) → (⟨S1x4, .f32⟩ : BufTy).Contents (Elt F) → (⟨S1x4, .f32⟩ : BufTy).Contents (Elt F)) ((broadcastInDim S1x4 ![0, 1] bcast_S1x1_S1x4_0_1 : (⟨S1x1, .f32⟩ : BufTy).Contents (Elt F) → (⟨S1x4, .f32⟩ : BufTy).Contents (Elt F)) ((broadcastInDim S1x1 ![] bcast_S_S1x1 : (⟨S_, .f32⟩ : BufTy).Contents (Elt F) → (⟨S1x1, .f32⟩ : BufTy).Contents (Elt F)) ((Host.sin : (⟨S_, .f32⟩ : BufTy).Contents (Elt F) → (⟨S_, .f32⟩ : BufTy).Contents (Elt F)) ((mulf : (⟨S_, .f32⟩ : BufTy).Contents (Elt F) → (⟨S_, .f32⟩ : BufTy).Contents (Elt F) → (⟨S_, .f32⟩ : BufTy).Contents (Elt F)) (shapeCast S_ x1 shapeCasts_S1x1_S_) ((constant (F := F) S_ .f32 0x3F000000#32)))))) (shapeCast S1x4 (((extractStridedSlice S1x1x4 ![0, 1, 0] · slices_S1x2x4_S1x1x4_0_1_0) : (⟨S1x2x4, .f32⟩ : BufTy).Contents (Elt F) → (⟨S1x1x4, .f32⟩ : BufTy).Contents (Elt F)) (shapeCast S1x2x4 x0 shapeCasts_S8_S1x2x4)) shapeCasts_S1x1x4_S1x4)))) ((broadcastInDim S1x1x4 ![0, 2] bcast_S1x4_S1x1x4_0_2 : (⟨S1x4, .f32⟩ : BufTy).Contents (Elt F) → (⟨S1x1x4, .f32⟩ : BufTy).Contents (Elt F)) ((addf : (⟨S1x4, .f32⟩ : BufTy).Contents (Elt F) → (⟨S1x4, .f32⟩ : BufTy).Contents (Elt F) → (⟨S1x4, .f32⟩ : BufTy).Contents (Elt F)) ((mulf : (⟨S1x4, .f32⟩ : BufTy).Contents (Elt F) → (⟨S1x4, .f32⟩ : BufTy).Contents (Elt F) → (⟨S1x4, .f32⟩ : BufTy).Contents (Elt F)) ((broadcastInDim S1x4 ![0, 1] bcast_S1x1_S1x4_0_1 : (⟨S1x1, .f32⟩ : BufTy).Contents (Elt F) → (⟨S1x4, .f32⟩ : BufTy).Contents (Elt F)) ((broadcastInDim S1x1 ![] bcast_S_S1x1 : (⟨S_, .f32⟩ : BufTy).Contents (Elt F) → (⟨S1x1, .f32⟩ : BufTy).Contents (Elt F)) ((Host.sin : (⟨S_, .f32⟩ : BufTy).Contents (Elt F) → (⟨S_, .f32⟩ : BufTy).Contents (Elt F)) ((mulf : (⟨S_, .f32⟩ : BufTy).Contents (Elt F) → (⟨S_, .f32⟩ : BufTy).Contents (Elt F) → (⟨S_, .f32⟩ : BufTy).Contents (Elt F)) (shapeCast S_ x1 shapeCasts_S1x1_S_) ((constant (F := F) S_ .f32 0x3F000000#32)))))) (shapeCast S1x4 (((extractStridedSlice S1x1x4 ![0, 0, 0] · slices_S1x2x4_S1x1x4_0_0_0) : (⟨S1x2x4, .f32⟩ : BufTy).Contents (Elt F) → (⟨S1x1x4, .f32⟩ : BufTy).Contents (Elt F)) (shapeCast S1x2x4 x0 shapeCasts_S8_S1x2x4)) shapeCasts_S1x1x4_S1x4)) ((mulf : (⟨S1x4, .f32⟩ : BufTy).Contents (Elt F) → (⟨S1x4, .f32⟩ : BufTy).Contents (Elt F) → (⟨S1x4, .f32⟩ : BufTy).Contents (Elt F)) ((broadcastInDim S1x4 ![0, 1] bcast_S1x1_S1x4_0_1 : (⟨S1x1, .f32⟩ : BufTy).Contents (Elt F) → (⟨S1x4, .f32⟩ : BufTy).Contents (Elt F)) ((broadcastInDim S1x1 ![] bcast_S_S1x1 : (⟨S_, .f32⟩ : BufTy).Contents (Elt F) → (⟨S1x1, .f32⟩ : BufTy).Contents (Elt F)) ((Host.cos : (⟨S_, .f32⟩ : BufTy).Contents (Elt F) → (⟨S_, .f32⟩ : BufTy).Contents (Elt F)) ((mulf : (⟨S_, .f32⟩ : BufTy).Contents (Elt F) → (⟨S_, .f32⟩ : BufTy).Contents (Elt F) → (⟨S_, .f32⟩ : BufTy).Contents (Elt F)) (shapeCast S_ x1 shapeCasts_S1x1_S_) ((constant (F := F) S_ .f32 0x3F000000#32)))))) (shapeCast S1x4 (((extractStridedSlice S1x1x4 ![0, 1, 0] · slices_S1x2x4_S1x1x4_0_1_0) : (⟨S1x2x4, .f32⟩ : BufTy).Contents (Elt F) → (⟨S1x1x4, .f32⟩ : BufTy).Contents (Elt F)) (shapeCast S1x2x4 x0 shapeCasts_S8_S1x2x4)) shapeCasts_S1x1x4_S1x4))))) shapeCasts_S1x2x4_S8)

/-- Kind cxWa: 20 operations (first instance: C0WX01). -/
def cxWaFn (x0 : FVec F S8 .f32) : FVec F S8 .f32 :=
  (((fun x i => Host.gather gather_S8_S8x1_S8_n_0_n_n_0_1_1 x i) : (⟨S8, .f32⟩ : BufTy).Contents (Elt F) → (⟨S8x1, .i32⟩ : BufTy).Contents (Elt F) → (⟨S8, .f32⟩ : BufTy).Contents (Elt F)) x0 ((broadcastInDim S8x1 ![0] bcast_S8_S8x1_0 : (⟨S8, .i32⟩ : BufTy).Contents (Elt F) → (⟨S8x1, .i32⟩ : BufTy).Contents (Elt F)) ((select : (⟨S8, .i1⟩ : BufTy).Contents (Elt F) → (⟨S8, .i32⟩ : BufTy).Contents (Elt F) → (⟨S8, .i32⟩ : BufTy).Contents (Elt F) → (⟨S8, .i32⟩ : BufTy).Contents (Elt F)) ((cmpi .slt : (⟨S8, .i32⟩ : BufTy).Contents (Elt F) → (⟨S8, .i32⟩ : BufTy).Contents (Elt F) → (⟨S8, .i1⟩ : BufTy).Contents (Elt F)) ((xori : (⟨S8, .i32⟩ : BufTy).Contents (Elt F) → (⟨S8, .i32⟩ : BufTy).Contents (Elt F) → (⟨S8, .i32⟩ : BufTy).Contents (Elt F)) ((iotaInDim S8 32 0)) ((Host.shli : (⟨S8, .i32⟩ : BufTy).Contents (Elt F) → (⟨S8, .i32⟩ : BufTy).Contents (Elt F) → (⟨S8, .i32⟩ : BufTy).Contents (Elt F)) ((andi : (⟨S8, .i32⟩ : BufTy).Contents (Elt F) → (⟨S8, .i32⟩ : BufTy).Contents (Elt F) → (⟨S8, .i32⟩ : BufTy).Contents (Elt F)) ((Host.shrsi : (⟨S8, .i32⟩ : BufTy).Contents (Elt F) → (⟨S8, .i32⟩ : BufTy).Contents (Elt F) → (⟨S8, .i32⟩ : BufTy).Contents (Elt F)) ((iotaInDim S8 32 0)) ((broadcastInDim S8 ![] bcast_S_S8 : (⟨S_, .i32⟩ : BufTy).Contents (Elt F) → (⟨S8, .i32⟩ : BufTy).Contents (Elt F)) ((constantI S_ 32 0#32)))) ((broadcastInDim S8 ![] bcast_S_S8 : (⟨S_, .i32⟩ : BufTy).Contents (Elt F) → (⟨S8, .i32⟩ : BufTy).Contents (Elt F)) ((constantI S_ 32 1#32)))) ((broadcastInDim S8 ![] bcast_S_S8 : (⟨S_, .i32⟩ : BufTy).Contents (Elt F) → (⟨S8, .i32⟩ : BufTy).Contents (Elt F)) ((constantI S_ 32 1#32))))) ((broadcastInDim S8 ![] bcast_S_S8 : (⟨S_, .i32⟩ : BufTy).Contents (Elt F) → (⟨S8, .i32⟩ : BufTy).Contents (Elt F)) ((constantI S_ 32 0#32)))) ((addi : (⟨S8, .i32⟩ : BufTy).Contents (Elt F) → (⟨S8, .i32⟩ : BufTy).Contents (Elt F) → (⟨S8, .i32⟩ : BufTy).Contents (Elt F)) ((xori : (⟨S8, .i32⟩ : BufTy).Contents (Elt F) → (⟨S8, .i32⟩ : BufTy).Contents (Elt F) → (⟨S8, .i32⟩ : BufTy).Contents (Elt F)) ((iotaInDim S8 32 0)) ((Host.shli : (⟨S8, .i32⟩ : BufTy).Contents (Elt F) → (⟨S8, .i32⟩ : BufTy).Contents (Elt F) → (⟨S8, .i32⟩ : BufTy).Contents (Elt F)) ((andi : (⟨S8, .i32⟩ : BufTy).Contents (Elt F) → (⟨S8, .i32⟩ : BufTy).Contents (Elt F) → (⟨S8, .i32⟩ : BufTy).Contents (Elt F)) ((Host.shrsi : (⟨S8, .i32⟩ : BufTy).Contents (Elt F) → (⟨S8, .i32⟩ : BufTy).Contents (Elt F) → (⟨S8, .i32⟩ : BufTy).Contents (Elt F)) ((iotaInDim S8 32 0)) ((broadcastInDim S8 ![] bcast_S_S8 : (⟨S_, .i32⟩ : BufTy).Contents (Elt F) → (⟨S8, .i32⟩ : BufTy).Contents (Elt F)) ((constantI S_ 32 0#32)))) ((broadcastInDim S8 ![] bcast_S_S8 : (⟨S_, .i32⟩ : BufTy).Contents (Elt F) → (⟨S8, .i32⟩ : BufTy).Contents (Elt F)) ((constantI S_ 32 1#32)))) ((broadcastInDim S8 ![] bcast_S_S8 : (⟨S_, .i32⟩ : BufTy).Contents (Elt F) → (⟨S8, .i32⟩ : BufTy).Contents (Elt F)) ((constantI S_ 32 1#32))))) ((broadcastInDim S8 ![] bcast_S_S8 : (⟨S_, .i32⟩ : BufTy).Contents (Elt F) → (⟨S8, .i32⟩ : BufTy).Contents (Elt F)) ((constantI S_ 32 8#32)))) ((xori : (⟨S8, .i32⟩ : BufTy).Contents (Elt F) → (⟨S8, .i32⟩ : BufTy).Contents (Elt F) → (⟨S8, .i32⟩ : BufTy).Contents (Elt F)) ((iotaInDim S8 32 0)) ((Host.shli : (⟨S8, .i32⟩ : BufTy).Contents (Elt F) → (⟨S8, .i32⟩ : BufTy).Contents (Elt F) → (⟨S8, .i32⟩ : BufTy).Contents (Elt F)) ((andi : (⟨S8, .i32⟩ : BufTy).Contents (Elt F) → (⟨S8, .i32⟩ : BufTy).Contents (Elt F) → (⟨S8, .i32⟩ : BufTy).Contents (Elt F)) ((Host.shrsi : (⟨S8, .i32⟩ : BufTy).Contents (Elt F) → (⟨S8, .i32⟩ : BufTy).Contents (Elt F) → (⟨S8, .i32⟩ : BufTy).Contents (Elt F)) ((iotaInDim S8 32 0)) ((broadcastInDim S8 ![] bcast_S_S8 : (⟨S_, .i32⟩ : BufTy).Contents (Elt F) → (⟨S8, .i32⟩ : BufTy).Contents (Elt F)) ((constantI S_ 32 0#32)))) ((broadcastInDim S8 ![] bcast_S_S8 : (⟨S_, .i32⟩ : BufTy).Contents (Elt F) → (⟨S8, .i32⟩ : BufTy).Contents (Elt F)) ((constantI S_ 32 1#32)))) ((broadcastInDim S8 ![] bcast_S_S8 : (⟨S_, .i32⟩ : BufTy).Contents (Elt F) → (⟨S8, .i32⟩ : BufTy).Contents (Elt F)) ((constantI S_ 32 1#32))))))))

/-- Kind cxWb: 20 operations (first instance: C0WX12). -/
def cxWbFn (x0 : FVec F S8 .f32) : FVec F S8 .f32 :=
  (((fun x i => Host.gather gather_S8_S8x1_S8_n_0_n_n_0_1_1 x i) : (⟨S8, .f32⟩ : BufTy).Contents (Elt F) → (⟨S8x1, .i32⟩ : BufTy).Contents (Elt F) → (⟨S8, .f32⟩ : BufTy).Contents (Elt F)) x0 ((broadcastInDim S8x1 ![0] bcast_S8_S8x1_0 : (⟨S8, .i32⟩ : BufTy).Contents (Elt F) → (⟨S8x1, .i32⟩ : BufTy).Contents (Elt F)) ((select : (⟨S8, .i1⟩ : BufTy).Contents (Elt F) → (⟨S8, .i32⟩ : BufTy).Contents (Elt F) → (⟨S8, .i32⟩ : BufTy).Contents (Elt F) → (⟨S8, .i32⟩ : BufTy).Contents (Elt F)) ((cmpi .slt : (⟨S8, .i32⟩ : BufTy).Contents (Elt F) → (⟨S8, .i32⟩ : BufTy).Contents (Elt F) → (⟨S8, .i1⟩ : BufTy).Contents (Elt F)) ((xori : (⟨S8, .i32⟩ : BufTy).Contents (Elt F) → (⟨S8, .i32⟩ : BufTy).Contents (Elt F) → (⟨S8, .i32⟩ : BufTy).Contents (Elt F)) ((iotaInDim S8 32 0)) ((Host.shli : (⟨S8, .i32⟩ : BufTy).Contents (Elt F) → (⟨S8, .i32⟩ : BufTy).Contents (Elt F) → (⟨S8, .i32⟩ : BufTy).Contents (Elt F)) ((andi : (⟨S8, .i32⟩ : BufTy).Contents (Elt F) → (⟨S8, .i32⟩ : BufTy).Contents (Elt F) → (⟨S8, .i32⟩ : BufTy).Contents (Elt F)) ((Host.shrsi : (⟨S8, .i32⟩ : BufTy).Contents (Elt F) → (⟨S8, .i32⟩ : BufTy).Contents (Elt F) → (⟨S8, .i32⟩ : BufTy).Contents (Elt F)) ((iotaInDim S8 32 0)) ((broadcastInDim S8 ![] bcast_S_S8 : (⟨S_, .i32⟩ : BufTy).Contents (Elt F) → (⟨S8, .i32⟩ : BufTy).Contents (Elt F)) ((constantI S_ 32 1#32)))) ((broadcastInDim S8 ![] bcast_S_S8 : (⟨S_, .i32⟩ : BufTy).Contents (Elt F) → (⟨S8, .i32⟩ : BufTy).Contents (Elt F)) ((constantI S_ 32 1#32)))) ((broadcastInDim S8 ![] bcast_S_S8 : (⟨S_, .i32⟩ : BufTy).Contents (Elt F) → (⟨S8, .i32⟩ : BufTy).Contents (Elt F)) ((constantI S_ 32 2#32))))) ((broadcastInDim S8 ![] bcast_S_S8 : (⟨S_, .i32⟩ : BufTy).Contents (Elt F) → (⟨S8, .i32⟩ : BufTy).Contents (Elt F)) ((constantI S_ 32 0#32)))) ((addi : (⟨S8, .i32⟩ : BufTy).Contents (Elt F) → (⟨S8, .i32⟩ : BufTy).Contents (Elt F) → (⟨S8, .i32⟩ : BufTy).Contents (Elt F)) ((xori : (⟨S8, .i32⟩ : BufTy).Contents (Elt F) → (⟨S8, .i32⟩ : BufTy).Contents (Elt F) → (⟨S8, .i32⟩ : BufTy).Contents (Elt F)) ((iotaInDim S8 32 0)) ((Host.shli : (⟨S8, .i32⟩ : BufTy).Contents (Elt F) → (⟨S8, .i32⟩ : BufTy).Contents (Elt F) → (⟨S8, .i32⟩ : BufTy).Contents (Elt F)) ((andi : (⟨S8, .i32⟩ : BufTy).Contents (Elt F) → (⟨S8, .i32⟩ : BufTy).Contents (Elt F) → (⟨S8, .i32⟩ : BufTy).Contents (Elt F)) ((Host.shrsi : (⟨S8, .i32⟩ : BufTy).Contents (Elt F) → (⟨S8, .i32⟩ : BufTy).Contents (Elt F) → (⟨S8, .i32⟩ : BufTy).Contents (Elt F)) ((iotaInDim S8 32 0)) ((broadcastInDim S8 ![] bcast_S_S8 : (⟨S_, .i32⟩ : BufTy).Contents (Elt F) → (⟨S8, .i32⟩ : BufTy).Contents (Elt F)) ((constantI S_ 32 1#32)))) ((broadcastInDim S8 ![] bcast_S_S8 : (⟨S_, .i32⟩ : BufTy).Contents (Elt F) → (⟨S8, .i32⟩ : BufTy).Contents (Elt F)) ((constantI S_ 32 1#32)))) ((broadcastInDim S8 ![] bcast_S_S8 : (⟨S_, .i32⟩ : BufTy).Contents (Elt F) → (⟨S8, .i32⟩ : BufTy).Contents (Elt F)) ((constantI S_ 32 2#32))))) ((broadcastInDim S8 ![] bcast_S_S8 : (⟨S_, .i32⟩ : BufTy).Contents (Elt F) → (⟨S8, .i32⟩ : BufTy).Contents (Elt F)) ((constantI S_ 32 8#32)))) ((xori : (⟨S8, .i32⟩ : BufTy).Contents (Elt F) → (⟨S8, .i32⟩ : BufTy).Contents (Elt F) → (⟨S8, .i32⟩ : BufTy).Contents (Elt F)) ((iotaInDim S8 32 0)) ((Host.shli : (⟨S8, .i32⟩ : BufTy).Contents (Elt F) → (⟨S8, .i32⟩ : BufTy).Contents (Elt F) → (⟨S8, .i32⟩ : BufTy).Contents (Elt F)) ((andi : (⟨S8, .i32⟩ : BufTy).Contents (Elt F) → (⟨S8, .i32⟩ : BufTy).Contents (Elt F) → (⟨S8, .i32⟩ : BufTy).Contents (Elt F)) ((Host.shrsi : (⟨S8, .i32⟩ : BufTy).Contents (Elt F) → (⟨S8, .i32⟩ : BufTy).Contents (Elt F) → (⟨S8, .i32⟩ : BufTy).Contents (Elt F)) ((iotaInDim S8 32 0)) ((broadcastInDim S8 ![] bcast_S_S8 : (⟨S_, .i32⟩ : BufTy).Contents (Elt F) → (⟨S8, .i32⟩ : BufTy).Contents (Elt F)) ((constantI S_ 32 1#32)))) ((broadcastInDim S8 ![] bcast_S_S8 : (⟨S_, .i32⟩ : BufTy).Contents (Elt F) → (⟨S8, .i32⟩ : BufTy).Contents (Elt F)) ((constantI S_ 32 1#32)))) ((broadcastInDim S8 ![] bcast_S_S8 : (⟨S_, .i32⟩ : BufTy).Contents (Elt F) → (⟨S8, .i32⟩ : BufTy).Contents (Elt F)) ((constantI S_ 32 2#32))))))))

/-- Kind xcol: 3 operations (first instance: C0XCol). -/
def xcolFn (x0 : FVec F S32x1x125x125x9 .f32) : FVec F S500000x9 .f32 :=
  (shapeCast S500000x9 (shapeCast S32x125x125x9 x0 shapeCasts_S32x1x125x125x9_S32x125x125x9) shapeCasts_S32x125x125x9_S500000x9)

/-- Kind bpsi: 1 operations (first instance: C0BPsi). -/
def bpsiFn (x0 : FVec F S8 .f32) : FVec F S500000x8 .f32 :=
  ((broadcastInDim S500000x8 ![1] bcast_S8_S500000x8_1 : (⟨S8, .f32⟩ : BufTy).Contents (Elt F) → (⟨S500000x8, .f32⟩ : BufTy).Contents (Elt F)) x0)

/-- Kind ryD0: 28 operations (first instance: C0D0). -/
def ryD0Fn (x0 : FVec F S500000x8 .f32) (x1 : FVec F S500000x1 .f32) : FVec F S500000x8 .f32 :=
  (shapeCast S500000x8 (((fun a b => concatenate S500000x4x2x1 2 [⟨S500000x4x1x1, a⟩, ⟨S500000x4x1x1, b⟩] concatenates_S500000x4x1x1_S500000x4x1x1_S500000x4x2x1_d2) : (⟨S500000x4x1x1, .f32⟩ : BufTy).Contents (Elt F) → (⟨S500000x4x1x1, .f32⟩ : BufTy).Contents (Elt F) → (⟨S500000x4x2x1, .f32⟩ : BufTy).Contents (Elt F)) ((broadcastInDim S500000x4x1x1 ![0, 1, 3] bcast_S500000x4x1_S500000x4x1x1_0_1_3 : (⟨S500000x4x1, .f32⟩ : BufTy).Contents (Elt F) → (⟨S500000x4x1x1, .f32⟩ : BufTy).Contents (Elt F)) ((subf : (⟨S500000x4x1, .f32⟩ : BufTy).Contents (Elt F) → (⟨S500000x4x1, .f32⟩ : BufTy).Contents (Elt F) → (⟨S500000x4x1, .f32⟩ : BufTy).Contents (Elt F)) ((mulf : (⟨S500000x4x1, .f32⟩ : BufTy).Contents (Elt F) → (⟨S500000x4x1, .f32⟩ : BufTy).Contents (Elt F) → (⟨S500000x4x1, .f32⟩ : BufTy).Contents (Elt F)) ((broadcastInDim S500000x4x1 ![0, 1, 2] bcast_S500000x1x1_S500000x4x1_0_1_2 : (⟨S500000x1x1, .f32⟩ : BufTy).Contents (Elt F) → (⟨S500000x4x1, .f32⟩ : BufTy).Contents (Elt F)) ((broadcastInDim S500000x1x1 ![0] bcast_S500000_S500000x1x1_0 : (⟨S500000, .f32⟩ : BufTy).Contents (Elt F) → (⟨S500000x1x1, .f32⟩ : BufTy).Contents (Elt F)) ((Host.cos : (⟨S500000, .f32⟩ : BufTy).Contents (Elt F) → (⟨S500000, .f32⟩ : BufTy).Contents (Elt F)) ((mulf : (⟨S500000, .f32⟩ : BufTy).Contents (Elt F) → (⟨S500000, .f32⟩ : BufTy).Contents (Elt F) → (⟨S500000, .f32⟩ : BufTy).Contents (Elt F)) (shapeCast S500000 x1 shapeCasts_S500000x1_S500000) ((broadcastInDim S500000 ![] bcast_S_S500000 : (⟨S_, .f32⟩ : BufTy).Contents (Elt F) → (⟨S500000, .f32⟩ : BufTy).Contents (Elt F)) ((constant (F := F) S_ .f32 0x3F000000#32))))))) (shapeCast S500000x4x1 (((extractStridedSlice S500000x4x1x1 ![0, 0, 0, 0] · slices_S500000x4x2x1_S500000x4x1x1_0_0_0_0) : (⟨S500000x4x2x1, .f32⟩ : BufTy).Contents (Elt F) → (⟨S500000x4x1x1, .f32⟩ : BufTy).Contents (Elt F)) (shapeCast S500000x4x2x1 x0 shapeCasts_S500000x8_S500000x4x2x1)) shapeCasts_S500000x4x1x1_S500000x4x1)) ((mulf : (⟨S500000x4x1, .f32⟩ : BufTy).Contents (Elt F) → (⟨S500000x4x1, .f32⟩ : BufTy).Contents (Elt F) → (⟨S500000x4x1, .f32⟩ : BufTy).Contents (Elt F)) ((broadcastInDim S500000x4x1 ![0, 1, 2] bcast_S500000x1x1_S500000x4x1_0_1_2 : (⟨S500000x1x1, .f32⟩ : BufTy).Contents (Elt F) → (⟨S500000x4x1, .f32⟩ : BufTy).Contents (Elt F)) ((broadcastInDim S500000x1x1 ![0] bcast_S500000_S500000x1x1_0 : (⟨S500000, .f32⟩ : BufTy).Contents (Elt F) → (⟨S500000x1x1, .f32⟩ : BufTy).Contents (Elt F)) ((Host.sin : (⟨S500000, .f32⟩ : BufTy).Contents (Elt F) → (⟨S500000, .f32⟩ : BufTy).Contents (Elt F)) ((mulf : (⟨S500000, .f32⟩ : BufTy).Contents (Elt F) → (⟨S500000, .f32⟩ : BufTy).Contents (Elt F) → (⟨S500000, .f32⟩ : BufTy).Contents (Elt F)) (shapeCast S500000 x1 shapeCasts_S500000x1_S500000) ((broadcastInDim S500000 ![] bcast_S_S500000 : (⟨S_, .f32⟩ : BufTy).Contents (Elt F) → (⟨S500000, .f32⟩ : BufTy).Contents (Elt F)) ((constant (F := F) S_ .f32 0x3F000000#32))))))) (shapeCast S500000x4x1 (((extractStridedSlice S500000x4x1x1 ![0, 0, 1, 0] · slices_S500000x4x2x1_S500000x4x1x1_0_0_1_0) : (⟨S500000x4x2x1, .f32⟩ : BufTy).Contents (Elt F) → (⟨S500000x4x1x1, .f32⟩ : BufTy).Contents (Elt F)) (shapeCast S500000x4x2x1 x0 shapeCasts_S500000x8_S500000x4x2x1)) shapeCasts_S500000x4x1x1_S500000x4x1)))) ((broadcastInDim S500000x4x1x1 ![0, 1, 3] bcast_S500000x4x1_S500000x4x1x1_0_1_3 : (⟨S500000x4x1, .f32⟩ : BufTy).Contents (Elt F) → (⟨S500000x4x1x1, .f32⟩ : BufTy).Contents (Elt F)) ((addf : (⟨S500000x4x1, .f32⟩ : BufTy).Contents (Elt F) → (⟨S500000x4x1, .f32⟩ : BufTy).Contents (Elt F) → (⟨S500000x4x1, .f32⟩ : BufTy).Contents (Elt F)) ((mulf : (⟨S500000x4x1, .f32⟩ : BufTy).Contents (Elt F) → (⟨S500000x4x1, .f32⟩ : BufTy).Contents (Elt F) → (⟨S500000x4x1, .f32⟩ : BufTy).Contents (Elt F)) ((broadcastInDim S500000x4x1 ![0, 1, 2] bcast_S500000x1x1_S500000x4x1_0_1_2 : (⟨S500000x1x1, .f32⟩ : BufTy).Contents (Elt F) → (⟨S500000x4x1, .f32⟩ : BufTy).Contents (Elt F)) ((broadcastInDim S500000x1x1 ![0] bcast_S500000_S500000x1x1_0 : (⟨S500000, .f32⟩ : BufTy).Contents (Elt F) → (⟨S500000x1x1, .f32⟩ : BufTy).Contents (Elt F)) ((Host.sin : (⟨S500000, .f32⟩ : BufTy).Contents (Elt F) → (⟨S500000, .f32⟩ : BufTy).Contents (Elt F)) ((mulf : (⟨S500000, .f32⟩ : BufTy).Contents (Elt F) → (⟨S500000, .f32⟩ : BufTy).Contents (Elt F) → (⟨S500000, .f32⟩ : BufTy).Contents (Elt F)) (shapeCast S500000 x1 shapeCasts_S500000x1_S500000) ((broadcastInDim S500000 ![] bcast_S_S500000 : (⟨S_, .f32⟩ : BufTy).Contents (Elt F) → (⟨S500000, .f32⟩ : BufTy).Contents (Elt F)) ((constant (F := F) S_ .f32 0x3F000000#32))))))) (shapeCast S500000x4x1 (((extractStridedSlice S500000x4x1x1 ![0, 0, 0, 0] · slices_S500000x4x2x1_S500000x4x1x1_0_0_0_0) : (⟨S500000x4x2x1, .f32⟩ : BufTy).Contents (Elt F) → (⟨S500000x4x1x1, .f32⟩ : BufTy).Contents (Elt F)) (shapeCast S500000x4x2x1 x0 shapeCasts_S500000x8_S500000x4x2x1)) shapeCasts_S500000x4x1x1_S500000x4x1)) ((mulf : (⟨S500000x4x1, .f32⟩ : BufTy).Contents (Elt F) → (⟨S500000x4x1, .f32⟩ : BufTy).Contents (Elt F) → (⟨S500000x4x1, .f32⟩ : BufTy).Contents (Elt F)) ((broadcastInDim S500000x4x1 ![0, 1, 2] bcast_S500000x1x1_S500000x4x1_0_1_2 : (⟨S500000x1x1, .f32⟩ : BufTy).Contents (Elt F) → (⟨S500000x4x1, .f32⟩ : BufTy).Contents (Elt F)) ((broadcastInDim S500000x1x1 ![0] bcast_S500000_S500000x1x1_0 : (⟨S500000, .f32⟩ : BufTy).Contents (Elt F) → (⟨S500000x1x1, .f32⟩ : BufTy).Contents (Elt F)) ((Host.cos : (⟨S500000, .f32⟩ : BufTy).Contents (Elt F) → (⟨S500000, .f32⟩ : BufTy).Contents (Elt F)) ((mulf : (⟨S500000, .f32⟩ : BufTy).Contents (Elt F) → (⟨S500000, .f32⟩ : BufTy).Contents (Elt F) → (⟨S500000, .f32⟩ : BufTy).Contents (Elt F)) (shapeCast S500000 x1 shapeCasts_S500000x1_S500000) ((broadcastInDim S500000 ![] bcast_S_S500000 : (⟨S_, .f32⟩ : BufTy).Contents (Elt F) → (⟨S500000, .f32⟩ : BufTy).Contents (Elt F)) ((constant (F := F) S_ .f32 0x3F000000#32))))))) (shapeCast S500000x4x1 (((extractStridedSlice S500000x4x1x1 ![0, 0, 1, 0] · slices_S500000x4x2x1_S500000x4x1x1_0_0_1_0) : (⟨S500000x4x2x1, .f32⟩ : BufTy).Contents (Elt F) → (⟨S500000x4x1x1, .f32⟩ : BufTy).Contents (Elt F)) (shapeCast S500000x4x2x1 x0 shapeCasts_S500000x8_S500000x4x2x1)) shapeCasts_S500000x4x1x1_S500000x4x1))))) shapeCasts_S500000x4x2x1_S500000x8)

/-- Kind ryD1: 28 operations (first instance: C0D1). -/
def ryD1Fn (x0 : FVec F S500000x8 .f32) (x1 : FVec F S500000x1 .f32) : FVec F S500000x8 .f32 :=
  (shapeCast S500000x8 (((fun a b => concatenate S500000x2x2x2 2 [⟨S500000x2x1x2, a⟩, ⟨S500000x2x1x2, b⟩] concatenates_S500000x2x1x2_S500000x2x1x2_S500000x2x2x2_d2) : (⟨S500000x2x1x2, .f32⟩ : BufTy).Contents (Elt F) → (⟨S500000x2x1x2, .f32⟩ : BufTy).Contents (Elt F) → (⟨S500000x2x2x2, .f32⟩ : BufTy).Contents (Elt F)) ((broadcastInDim S500000x2x1x2 ![0, 1, 3] bcast_S500000x2x2_S500000x2x1x2_0_1_3 : (⟨S500000x2x2, .f32⟩ : BufTy).Contents (Elt F) → (⟨S500000x2x1x2, .f32⟩ : BufTy).Contents (Elt F)) ((subf : (⟨S500000x2x2, .f32⟩ : BufTy).Contents (Elt F) → (⟨S500000x2x2, .f32⟩ : BufTy).Contents (Elt F) → (⟨S500000x2x2, .f32⟩ : BufTy).Contents (Elt F)) ((mulf : (⟨S500000x2x2, .f32⟩ : BufTy).Contents (Elt F) → (⟨S500000x2x2, .f32⟩ : BufTy).Contents (Elt F) → (⟨S500000x2x2, .f32⟩ : BufTy).Contents (Elt F)) ((broadcastInDim S500000x2x2 ![0, 1, 2] bcast_S500000x1x1_S500000x2x2_0_1_2 : (⟨S500000x1x1, .f32⟩ : BufTy).Contents (Elt F) → (⟨S500000x2x2, .f32⟩ : BufTy).Contents (Elt F)) ((broadcastInDim S500000x1x1 ![0] bcast_S500000_S500000x1x1_0 : (⟨S500000, .f32⟩ : BufTy).Contents (Elt F) → (⟨S500000x1x1, .f32⟩ : BufTy).Contents (Elt F)) ((Host.cos : (⟨S500000, .f32⟩ : BufTy).Contents (Elt F) → (⟨S500000, .f32⟩ : BufTy).Contents (Elt F)) ((mulf : (⟨S500000, .f32⟩ : BufTy).Contents (Elt F) → (⟨S500000, .f32⟩ : BufTy).Contents (Elt F) → (⟨S500000, .f32⟩ : BufTy).Contents (Elt F)) (shapeCast S500000 x1 shapeCasts_S500000x1_S500000) ((broadcastInDim S500000 ![] bcast_S_S500000 : (⟨S_, .f32⟩ : BufTy).Contents (Elt F) → (⟨S500000, .f32⟩ : BufTy).Contents (Elt F)) ((constant (F := F) S_ .f32 0x3F000000#32))))))) (shapeCast S500000x2x2 (((extractStridedSlice S500000x2x1x2 ![0, 0, 0, 0] · slices_S500000x2x2x2_S500000x2x1x2_0_0_0_0) : (⟨S500000x2x2x2, .f32⟩ : BufTy).Contents (Elt F) → (⟨S500000x2x1x2, .f32⟩ : BufTy).Contents (Elt F)) (shapeCast S500000x2x2x2 x0 shapeCasts_S500000x8_S500000x2x2x2)) shapeCasts_S500000x2x1x2_S500000x2x2)) ((mulf : (⟨S500000x2x2, .f32⟩ : BufTy).Contents (Elt F) → (⟨S500000x2x2, .f32⟩ : BufTy).Contents (Elt F) → (⟨S500000x2x2, .f32⟩ : BufTy).Contents (Elt F)) ((broadcastInDim S500000x2x2 ![0, 1, 2] bcast_S500000x1x1_S500000x2x2_0_1_2 : (⟨S500000x1x1, .f32⟩ : BufTy).Contents (Elt F) → (⟨S500000x2x2, .f32⟩ : BufTy).Contents (Elt F)) ((broadcastInDim S500000x1x1 ![0] bcast_S500000_S500000x1x1_0 : (⟨S500000, .f32⟩ : BufTy).Contents (Elt F) → (⟨S500000x1x1, .f32⟩ : BufTy).Contents (Elt F)) ((Host.sin : (⟨S500000, .f32⟩ : BufTy).Contents (Elt F) → (⟨S500000, .f32⟩ : BufTy).Contents (Elt F)) ((mulf : (⟨S500000, .f32⟩ : BufTy).Contents (Elt F) → (⟨S500000, .f32⟩ : BufTy).Contents (Elt F) → (⟨S500000, .f32⟩ : BufTy).Contents (Elt F)) (shapeCast S500000 x1 shapeCasts_S500000x1_S500000) ((broadcastInDim S500000 ![] bcast_S_S500000 : (⟨S_, .f32⟩ : BufTy).Contents (Elt F) → (⟨S500000, .f32⟩ : BufTy).Contents (Elt F)) ((constant (F := F) S_ .f32 0x3F000000#32))))))) (shapeCast S500000x2x2 (((extractStridedSlice S500000x2x1x2 ![0, 0, 1, 0] · slices_S500000x2x2x2_S500000x2x1x2_0_0_1_0) : (⟨S500000x2x2x2, .f32⟩ : BufTy).Contents (Elt F) → (⟨S500000x2x1x2, .f32⟩ : BufTy).Contents (Elt F)) (shapeCast S500000x2x2x2 x0 shapeCasts_S500000x8_S500000x2x2x2)) shapeCasts_S500000x2x1x2_S500000x2x2)))) ((broadcastInDim S500000x2x1x2 ![0, 1, 3] bcast_S500000x2x2_S500000x2x1x2_0_1_3 : (⟨S500000x2x2, .f32⟩ : BufTy).Contents (Elt F) → (⟨S500000x2x1x2, .f32⟩ : BufTy).Contents (Elt F)) ((addf : (⟨S500000x2x2, .f32⟩ : BufTy).Contents (Elt F) → (⟨S500000x2x2, .f32⟩ : BufTy).Contents (Elt F) → (⟨S500000x2x2, .f32⟩ : BufTy).Contents (Elt F)) ((mulf : (⟨S500000x2x2, .f32⟩ : BufTy).Contents (Elt F) → (⟨S500000x2x2, .f32⟩ : BufTy).Contents (Elt F) → (⟨S500000x2x2, .f32⟩ : BufTy).Contents (Elt F)) ((broadcastInDim S500000x2x2 ![0, 1, 2] bcast_S500000x1x1_S500000x2x2_0_1_2 : (⟨S500000x1x1, .f32⟩ : BufTy).Contents (Elt F) → (⟨S500000x2x2, .f32⟩ : BufTy).Contents (Elt F)) ((broadcastInDim S500000x1x1 ![0] bcast_S500000_S500000x1x1_0 : (⟨S500000, .f32⟩ : BufTy).Contents (Elt F) → (⟨S500000x1x1, .f32⟩ : BufTy).Contents (Elt F)) ((Host.sin : (⟨S500000, .f32⟩ : BufTy).Contents (Elt F) → (⟨S500000, .f32⟩ : BufTy).Contents (Elt F)) ((mulf : (⟨S500000, .f32⟩ : BufTy).Contents (Elt F) → (⟨S500000, .f32⟩ : BufTy).Contents (Elt F) → (⟨S500000, .f32⟩ : BufTy).Contents (Elt F)) (shapeCast S500000 x1 shapeCasts_S500000x1_S500000) ((broadcastInDim S500000 ![] bcast_S_S500000 : (⟨S_, .f32⟩ : BufTy).Contents (Elt F) → (⟨S500000, .f32⟩ : BufTy).Contents (Elt F)) ((constant (F := F) S_ .f32 0x3F000000#32))))))) (shapeCast S500000x2x2 (((extractStridedSlice S500000x2x1x2 ![0, 0, 0, 0] · slices_S500000x2x2x2_S500000x2x1x2_0_0_0_0) : (⟨S500000x2x2x2, .f32⟩ : BufTy).Contents (Elt F) → (⟨S500000x2x1x2, .f32⟩ : BufTy).Contents (Elt F)) (shapeCast S500000x2x2x2 x0 shapeCasts_S500000x8_S500000x2x2x2)) shapeCasts_S500000x2x1x2_S500000x2x2)) ((mulf : (⟨S500000x2x2, .f32⟩ : BufTy).Contents (Elt F) → (⟨S500000x2x2, .f32⟩ : BufTy).Contents (Elt F) → (⟨S500000x2x2, .f32⟩ : BufTy).Contents (Elt F)) ((broadcastInDim S500000x2x2 ![0, 1, 2] bcast_S500000x1x1_S500000x2x2_0_1_2 : (⟨S500000x1x1, .f32⟩ : BufTy).Contents (Elt F) → (⟨S500000x2x2, .f32⟩ : BufTy).Contents (Elt F)) ((broadcastInDim S500000x1x1 ![0] bcast_S500000_S500000x1x1_0 : (⟨S500000, .f32⟩ : BufTy).Contents (Elt F) → (⟨S500000x1x1, .f32⟩ : BufTy).Contents (Elt F)) ((Host.cos : (⟨S500000, .f32⟩ : BufTy).Contents (Elt F) → (⟨S500000, .f32⟩ : BufTy).Contents (Elt F)) ((mulf : (⟨S500000, .f32⟩ : BufTy).Contents (Elt F) → (⟨S500000, .f32⟩ : BufTy).Contents (Elt F) → (⟨S500000, .f32⟩ : BufTy).Contents (Elt F)) (shapeCast S500000 x1 shapeCasts_S500000x1_S500000) ((broadcastInDim S500000 ![] bcast_S_S500000 : (⟨S_, .f32⟩ : BufTy).Contents (Elt F) → (⟨S500000, .f32⟩ : BufTy).Contents (Elt F)) ((constant (F := F) S_ .f32 0x3F000000#32))))))) (shapeCast S500000x2x2 (((extractStridedSlice S500000x2x1x2 ![0, 0, 1, 0] · slices_S500000x2x2x2_S500000x2x1x2_0_0_1_0) : (⟨S500000x2x2x2, .f32⟩ : BufTy).Contents (Elt F) → (⟨S500000x2x1x2, .f32⟩ : BufTy).Contents (Elt F)) (shapeCast S500000x2x2x2 x0 shapeCasts_S500000x8_S500000x2x2x2)) shapeCasts_S500000x2x1x2_S500000x2x2))))) shapeCasts_S500000x2x2x2_S500000x8)

/-- Kind ryD2: 28 operations (first instance: C0D2). -/
def ryD2Fn (x0 : FVec F S500000x8 .f32) (x1 : FVec F S500000x1 .f32) : FVec F S500000x8 .f32 :=
  (shapeCast S500000x8 (((fun a b => concatenate S500000x1x2x4 2 [⟨S500000x1x1x4, a⟩, ⟨S500000x1x1x4, b⟩] concatenates_S500000x1x1x4_S500000x1x1x4_S500000x1x2x4_d2) : (⟨S500000x1x1x4, .f32⟩ : BufTy).Contents (Elt F) → (⟨S500000x1x1x4, .f32⟩ : BufTy).Contents (Elt F) → (⟨S500000x1x2x4, .f32⟩ : BufTy).Contents (Elt F)) ((broadcastInDim S500000x1x1x4 ![0, 1, 3] bcast_S500000x1x4_S500000x1x1x4_0_1_3 : (⟨S500000x1x4, .f32⟩ : BufTy).Contents (Elt F) → (⟨S500000x1x1x4, .f32⟩ : BufTy).Contents (Elt F)) ((subf : (⟨S500000x1x4, .f32⟩ : BufTy).Contents (Elt F) → (⟨S500000x1x4, .f32⟩ : BufTy).Contents (Elt F) → (⟨S500000x1x4, .f32⟩ : BufTy).Contents (Elt F)) ((mulf : (⟨S500000x1x4, .f32⟩ : BufTy).Contents (Elt F) → (⟨S500000x1x4, .f32⟩ : BufTy).Contents (Elt F) → (⟨S500000x1x4, .f32⟩ : BufTy).Contents (Elt F)) ((broadcastInDim S500000x1x4 ![0, 1, 2] bcast_S500000x1x1_S500000x1x4_0_1_2 : (⟨S500000x1x1, .f32⟩ : BufTy).Contents (Elt F) → (⟨S500000x1x4, .f32⟩ : BufTy).Contents (Elt F)) ((broadcastInDim S500000x1x1 ![0] bcast_S500000_S500000x1x1_0 : (⟨S500000, .f32⟩ : BufTy).Contents (Elt F) → (⟨S500000x1x1, .f32⟩ : BufTy).Contents (Elt F)) ((Host.cos : (⟨S500000, .f32⟩ : BufTy).Contents (Elt F) → (⟨S500000, .f32⟩ : BufTy).Contents (Elt F)) ((mulf : (⟨S500000, .f32⟩ : BufTy).Contents (Elt F) → (⟨S500000, .f32⟩ : BufTy).Contents (Elt F) → (⟨S500000, .f32⟩ : BufTy).Contents (Elt F)) (shapeCast S500000 x1 shapeCasts_S500000x1_S500000) ((broadcastInDim S500000 ![] bcast_S_S500000 : (⟨S_, .f32⟩ : BufTy).Contents (Elt F) → (⟨S500000, .f32⟩ : BufTy).Contents (Elt F)) ((constant (F := F) S_ .f32 0x3F000000#32))))))) (shapeCast S500000x1x4 (((extractStridedSlice S500000x1x1x4 ![0, 0, 0, 0] · slices_S500000x1x2x4_S500000x1x1x4_0_0_0_0) : (⟨S500000x1x2x4, .f32⟩ : BufTy).Contents (Elt F) → (⟨S500000x1x1x4, .f32⟩ : BufTy).Contents (Elt F)) (shapeCast S500000x1x2x4 x0 shapeCasts_S500000x8_S500000x1x2x4)) shapeCasts_S500000x1x1x4_S500000x1x4)) ((mulf : (⟨S500000x1x4, .f32⟩ : BufTy).Contents (Elt F) → (⟨S500000x1x4, .f32⟩ : BufTy).Contents (Elt F) → (⟨S500000x1x4, .f32⟩ : BufTy).Contents (Elt F)) ((broadcastInDim S500000x1x4 ![0, 1, 2] bcast_S500000x1x1_S500000x1x4_0_1_2 : (⟨S500000x1x1, .f32⟩ : BufTy).Contents (Elt F) → (⟨S500000x1x4, .f32⟩ : BufTy).Contents (Elt F)) ((broadcastInDim S500000x1x1 ![0] bcast_S500000_S500000x1x1_0 : (⟨S500000, .f32⟩ : BufTy).Contents (Elt F) → (⟨S500000x1x1, .f32⟩ : BufTy).Contents (Elt F)) ((Host.sin : (⟨S500000, .f32⟩ : BufTy).Contents (Elt F) → (⟨S500000, .f32⟩ : BufTy).Contents (Elt F)) ((mulf : (⟨S500000, .f32⟩ : BufTy).Contents (Elt F) → (⟨S500000, .f32⟩ : BufTy).Contents (Elt F) → (⟨S500000, .f32⟩ : BufTy).Contents (Elt F)) (shapeCast S500000 x1 shapeCasts_S500000x1_S500000) ((broadcastInDim S500000 ![] bcast_S_S500000 : (⟨S_, .f32⟩ : BufTy).Contents (Elt F) → (⟨S500000, .f32⟩ : BufTy).Contents (Elt F)) ((constant (F := F) S_ .f32 0x3F000000#32))))))) (shapeCast S500000x1x4 (((extractStridedSlice S500000x1x1x4 ![0, 0, 1, 0] · slices_S500000x1x2x4_S500000x1x1x4_0_0_1_0) : (⟨S500000x1x2x4, .f32⟩ : BufTy).Contents (Elt F) → (⟨S500000x1x1x4, .f32⟩ : BufTy).Contents (Elt F)) (shapeCast S500000x1x2x4 x0 shapeCasts_S500000x8_S500000x1x2x4)) shapeCasts_S500000x1x1x4_S500000x1x4)))) ((broadcastInDim S500000x1x1x4 ![0, 1, 3] bcast_S500000x1x4_S500000x1x1x4_0_1_3 : (⟨S500000x1x4, .f32⟩ : BufTy).Contents (Elt F) → (⟨S500000x1x1x4, .f32⟩ : BufTy).Contents (Elt F)) ((addf : (⟨S500000x1x4, .f32⟩ : BufTy).Contents (Elt F) → (⟨S500000x1x4, .f32⟩ : BufTy).Contents (Elt F) → (⟨S500000x1x4, .f32⟩ : BufTy).Contents (Elt F)) ((mulf : (⟨S500000x1x4, .f32⟩ : BufTy).Contents (Elt F) → (⟨S500000x1x4, .f32⟩ : BufTy).Contents (Elt F) → (⟨S500000x1x4, .f32⟩ : BufTy).Contents (Elt F)) ((broadcastInDim S500000x1x4 ![0, 1, 2] bcast_S500000x1x1_S500000x1x4_0_1_2 : (⟨S500000x1x1, .f32⟩ : BufTy).Contents (Elt F) → (⟨S500000x1x4, .f32⟩ : BufTy).Contents (Elt F)) ((broadcastInDim S500000x1x1 ![0] bcast_S500000_S500000x1x1_0 : (⟨S500000, .f32⟩ : BufTy).Contents (Elt F) → (⟨S500000x1x1, .f32⟩ : BufTy).Contents (Elt F)) ((Host.sin : (⟨S500000, .f32⟩ : BufTy).Contents (Elt F) → (⟨S500000, .f32⟩ : BufTy).Contents (Elt F)) ((mulf : (⟨S500000, .f32⟩ : BufTy).Contents (Elt F) → (⟨S500000, .f32⟩ : BufTy).Contents (Elt F) → (⟨S500000, .f32⟩ : BufTy).Contents (Elt F)) (shapeCast S500000 x1 shapeCasts_S500000x1_S500000) ((broadcastInDim S500000 ![] bcast_S_S500000 : (⟨S_, .f32⟩ : BufTy).Contents (Elt F) → (⟨S500000, .f32⟩ : BufTy).Contents (Elt F)) ((constant (F := F) S_ .f32 0x3F000000#32))))))) (shapeCast S500000x1x4 (((extractStridedSlice S500000x1x1x4 ![0, 0, 0, 0] · slices_S500000x1x2x4_S500000x1x1x4_0_0_0_0) : (⟨S500000x1x2x4, .f32⟩ : BufTy).Contents (Elt F) → (⟨S500000x1x1x4, .f32⟩ : BufTy).Contents (Elt F)) (shapeCast S500000x1x2x4 x0 shapeCasts_S500000x8_S500000x1x2x4)) shapeCasts_S500000x1x1x4_S500000x1x4)) ((mulf : (⟨S500000x1x4, .f32⟩ : BufTy).Contents (Elt F) → (⟨S500000x1x4, .f32⟩ : BufTy).Contents (Elt F) → (⟨S500000x1x4, .f32⟩ : BufTy).Contents (Elt F)) ((broadcastInDim S500000x1x4 ![0, 1, 2] bcast_S500000x1x1_S500000x1x4_0_1_2 : (⟨S500000x1x1, .f32⟩ : BufTy).Contents (Elt F) → (⟨S500000x1x4, .f32⟩ : BufTy).Contents (Elt F)) ((broadcastInDim S500000x1x1 ![0] bcast_S500000_S500000x1x1_0 : (⟨S500000, .f32⟩ : BufTy).Contents (Elt F) → (⟨S500000x1x1, .f32⟩ : BufTy).Contents (Elt F)) ((Host.cos : (⟨S500000, .f32⟩ : BufTy).Contents (Elt F) → (⟨S500000, .f32⟩ : BufTy).Contents (Elt F)) ((mulf : (⟨S500000, .f32⟩ : BufTy).Contents (Elt F) → (⟨S500000, .f32⟩ : BufTy).Contents (Elt F) → (⟨S500000, .f32⟩ : BufTy).Contents (Elt F)) (shapeCast S500000 x1 shapeCasts_S500000x1_S500000) ((broadcastInDim S500000 ![] bcast_S_S500000 : (⟨S_, .f32⟩ : BufTy).Contents (Elt F) → (⟨S500000, .f32⟩ : BufTy).Contents (Elt F)) ((constant (F := F) S_ .f32 0x3F000000#32))))))) (shapeCast S500000x1x4 (((extractStridedSlice S500000x1x1x4 ![0, 0, 1, 0] · slices_S500000x1x2x4_S500000x1x1x4_0_0_1_0) : (⟨S500000x1x2x4, .f32⟩ : BufTy).Contents (Elt F) → (⟨S500000x1x1x4, .f32⟩ : BufTy).Contents (Elt F)) (shapeCast S500000x1x2x4 x0 shapeCasts_S500000x8_S500000x1x2x4)) shapeCasts_S500000x1x1x4_S500000x1x4))))) shapeCasts_S500000x1x2x4_S500000x8)

/-- Kind cxDa: 20 operations (first instance: C0DX01). -/
def cxDaFn (x0 : FVec F S500000x8 .f32) : FVec F S500000x8 .f32 :=
  (((fun x i => Host.gather gather_S500000x8_S8x1_S500000x8_0_1_n_n_1_1_5000001 x i) : (⟨S500000x8, .f32⟩ : BufTy).Contents (Elt F) → (⟨S8x1, .i32⟩ : BufTy).Contents (Elt F) → (⟨S500000x8, .f32⟩ : BufTy).Contents (Elt F)) x0 ((broadcastInDim S8x1 ![0] bcast_S8_S8x1_0 : (⟨S8, .i32⟩ : BufTy).Contents (Elt F) → (⟨S8x1, .i32⟩ : BufTy).Contents (Elt F)) ((select : (⟨S8, .i1⟩ : BufTy).Contents (Elt F) → (⟨S8, .i32⟩ : BufTy).Contents (Elt F) → (⟨S8, .i32⟩ : BufTy).Contents (Elt F) → (⟨S8, .i32⟩ : BufTy).Contents (Elt F)) ((cmpi .slt : (⟨S8, .i32⟩ : BufTy).Contents (Elt F) → (⟨S8, .i32⟩ : BufTy).Contents (Elt F) → (⟨S8, .i1⟩ : BufTy).Contents (Elt F)) ((xori : (⟨S8, .i32⟩ : BufTy).Contents (Elt F) → (⟨S8, .i32⟩ : BufTy).Contents (Elt F) → (⟨S8, .i32⟩ : BufTy).Contents (Elt F)) ((iotaInDim S8 32 0)) ((Host.shli : (⟨S8, .i32⟩ : BufTy).Contents (Elt F) → (⟨S8, .i32⟩ : BufTy).Contents (Elt F) → (⟨S8, .i32⟩ : BufTy).Contents (Elt F)) ((andi : (⟨S8, .i32⟩ : BufTy).Contents (Elt F) → (⟨S8, .i32⟩ : BufTy).Contents (Elt F) → (⟨S8, .i32⟩ : BufTy).Contents (Elt F)) ((Host.shrsi : (⟨S8, .i32⟩ : BufTy).Contents (Elt F) → (⟨S8, .i32⟩ : BufTy).Contents (Elt F) → (⟨S8, .i32⟩ : BufTy).Contents (Elt F)) ((iotaInDim S8 32 0)) ((broadcastInDim S8 ![] bcast_S_S8 : (⟨S_, .i32⟩ : BufTy).Contents (Elt F) → (⟨S8, .i32⟩ : BufTy).Contents (Elt F)) ((constantI S_ 32 0#32)))) ((broadcastInDim S8 ![] bcast_S_S8 : (⟨S_, .i32⟩ : BufTy).Contents (Elt F) → (⟨S8, .i32⟩ : BufTy).Contents (Elt F)) ((constantI S_ 32 1#32)))) ((broadcastInDim S8 ![] bcast_S_S8 : (⟨S_, .i32⟩ : BufTy).Contents (Elt F) → (⟨S8, .i32⟩ : BufTy).Contents (Elt F)) ((constantI S_ 32 1#32))))) ((broadcastInDim S8 ![] bcast_S_S8 : (⟨S_, .i32⟩ : BufTy).Contents (Elt F) → (⟨S8, .i32⟩ : BufTy).Contents (Elt F)) ((constantI S_ 32 0#32)))) ((addi : (⟨S8, .i32⟩ : BufTy).Contents (Elt F) → (⟨S8, .i32⟩ : BufTy).Contents (Elt F) → (⟨S8, .i32⟩ : BufTy).Contents (Elt F)) ((xori : (⟨S8, .i32⟩ : BufTy).Contents (Elt F) → (⟨S8, .i32⟩ : BufTy).Contents (Elt F) → (⟨S8, .i32⟩ : BufTy).Contents (Elt F)) ((iotaInDim S8 32 0)) ((Host.shli : (⟨S8, .i32⟩ : BufTy).Contents (Elt F) → (⟨S8, .i32⟩ : BufTy).Contents (Elt F) → (⟨S8, .i32⟩ : BufTy).Contents (Elt F)) ((andi : (⟨S8, .i32⟩ : BufTy).Contents (Elt F) → (⟨S8, .i32⟩ : BufTy).Contents (Elt F) → (⟨S8, .i32⟩ : BufTy).Contents (Elt F)) ((Host.shrsi : (⟨S8, .i32⟩ : BufTy).Contents (Elt F) → (⟨S8, .i32⟩ : BufTy).Contents (Elt F) → (⟨S8, .i32⟩ : BufTy).Contents (Elt F)) ((iotaInDim S8 32 0)) ((broadcastInDim S8 ![] bcast_S_S8 : (⟨S_, .i32⟩ : BufTy).Contents (Elt F) → (⟨S8, .i32⟩ : BufTy).Contents (Elt F)) ((constantI S_ 32 0#32)))) ((broadcastInDim S8 ![] bcast_S_S8 : (⟨S_, .i32⟩ : BufTy).Contents (Elt F) → (⟨S8, .i32⟩ : BufTy).Contents (Elt F)) ((constantI S_ 32 1#32)))) ((broadcastInDim S8 ![] bcast_S_S8 : (⟨S_, .i32⟩ : BufTy).Contents (Elt F) → (⟨S8, .i32⟩ : BufTy).Contents (Elt F)) ((constantI S_ 32 1#32))))) ((broadcastInDim S8 ![] bcast_S_S8 : (⟨S_, .i32⟩ : BufTy).Contents (Elt F) → (⟨S8, .i32⟩ : BufTy).Contents (Elt F)) ((constantI S_ 32 8#32)))) ((xori : (⟨S8, .i32⟩ : BufTy).Contents (Elt F) → (⟨S8, .i32⟩ : BufTy).Contents (Elt F) → (⟨S8, .i32⟩ : BufTy).Contents (Elt F)) ((iotaInDim S8 32 0)) ((Host.shli : (⟨S8, .i32⟩ : BufTy).Contents (Elt F) → (⟨S8, .i32⟩ : BufTy).Contents (Elt F) → (⟨S8, .i32⟩ : BufTy).Contents (Elt F)) ((andi : (⟨S8, .i32⟩ : BufTy).Contents (Elt F) → (⟨S8, .i32⟩ : BufTy).Contents (Elt F) → (⟨S8, .i32⟩ : BufTy).Contents (Elt F)) ((Host.shrsi : (⟨S8, .i32⟩ : BufTy).Contents (Elt F) → (⟨S8, .i32⟩ : BufTy).Contents (Elt F) → (⟨S8, .i32⟩ : BufTy).Contents (Elt F)) ((iotaInDim S8 32 0)) ((broadcastInDim S8 ![] bcast_S_S8 : (⟨S_, .i32⟩ : BufTy).Contents (Elt F) → (⟨S8, .i32⟩ : BufTy).Contents (Elt F)) ((constantI S_ 32 0#32)))) ((broadcastInDim S8 ![] bcast_S_S8 : (⟨S_, .i32⟩ : BufTy).Contents (Elt F) → (⟨S8, .i32⟩ : BufTy).Contents (Elt F)) ((constantI S_ 32 1#32)))) ((broadcastInDim S8 ![] bcast_S_S8 : (⟨S_, .i32⟩ : BufTy).Contents (Elt F) → (⟨S8, .i32⟩ : BufTy).Contents (Elt F)) ((constantI S_ 32 1#32))))))))

/-- Kind cxDb: 20 operations (first instance: C0DX12). -/
def cxDbFn (x0 : FVec F S500000x8 .f32) : FVec F S500000x8 .f32 :=
  (((fun x i => Host.gather gather_S500000x8_S8x1_S500000x8_0_1_n_n_1_1_5000001 x i) : (⟨S500000x8, .f32⟩ : BufTy).Contents (Elt F) → (⟨S8x1, .i32⟩ : BufTy).Contents (Elt F) → (⟨S500000x8, .f32⟩ : BufTy).Contents (Elt F)) x0 ((broadcastInDim S8x1 ![0] bcast_S8_S8x1_0 : (⟨S8, .i32⟩ : BufTy).Contents (Elt F) → (⟨S8x1, .i32⟩ : BufTy).Contents (Elt F)) ((select : (⟨S8, .i1⟩ : BufTy).Contents (Elt F) → (⟨S8, .i32⟩ : BufTy).Contents (Elt F) → (⟨S8, .i32⟩ : BufTy).Contents (Elt F) → (⟨S8, .i32⟩ : BufTy).Contents (Elt F)) ((cmpi .slt : (⟨S8, .i32⟩ : BufTy).Contents (Elt F) → (⟨S8, .i32⟩ : BufTy).Contents (Elt F) → (⟨S8, .i1⟩ : BufTy).Contents (Elt F)) ((xori : (⟨S8, .i32⟩ : BufTy).Contents (Elt F) → (⟨S8, .i32⟩ : BufTy).Contents (Elt F) → (⟨S8, .i32⟩ : BufTy).Contents (Elt F)) ((iotaInDim S8 32 0)) ((Host.shli : (⟨S8, .i32⟩ : BufTy).Contents (Elt F) → (⟨S8, .i32⟩ : BufTy).Contents (Elt F) → (⟨S8, .i32⟩ : BufTy).Contents (Elt F)) ((andi : (⟨S8, .i32⟩ : BufTy).Contents (Elt F) → (⟨S8, .i32⟩ : BufTy).Contents (Elt F) → (⟨S8, .i32⟩ : BufTy).Contents (Elt F)) ((Host.shrsi : (⟨S8, .i32⟩ : BufTy).Contents (Elt F) → (⟨S8, .i32⟩ : BufTy).Contents (Elt F) → (⟨S8, .i32⟩ : BufTy).Contents (Elt F)) ((iotaInDim S8 32 0)) ((broadcastInDim S8 ![] bcast_S_S8 : (⟨S_, .i32⟩ : BufTy).Contents (Elt F) → (⟨S8, .i32⟩ : BufTy).Contents (Elt F)) ((constantI S_ 32 1#32)))) ((broadcastInDim S8 ![] bcast_S_S8 : (⟨S_, .i32⟩ : BufTy).Contents (Elt F) → (⟨S8, .i32⟩ : BufTy).Contents (Elt F)) ((constantI S_ 32 1#32)))) ((broadcastInDim S8 ![] bcast_S_S8 : (⟨S_, .i32⟩ : BufTy).Contents (Elt F) → (⟨S8, .i32⟩ : BufTy).Contents (Elt F)) ((constantI S_ 32 2#32))))) ((broadcastInDim S8 ![] bcast_S_S8 : (⟨S_, .i32⟩ : BufTy).Contents (Elt F) → (⟨S8, .i32⟩ : BufTy).Contents (Elt F)) ((constantI S_ 32 0#32)))) ((addi : (⟨S8, .i32⟩ : BufTy).Contents (Elt F) → (⟨S8, .i32⟩ : BufTy).Contents (Elt F) → (⟨S8, .i32⟩ : BufTy).Contents (Elt F)) ((xori : (⟨S8, .i32⟩ : BufTy).Contents (Elt F) → (⟨S8, .i32⟩ : BufTy).Contents (Elt F) → (⟨S8, .i32⟩ : BufTy).Contents (Elt F)) ((iotaInDim S8 32 0)) ((Host.shli : (⟨S8, .i32⟩ : BufTy).Contents (Elt F) → (⟨S8, .i32⟩ : BufTy).Contents (Elt F) → (⟨S8, .i32⟩ : BufTy).Contents (Elt F)) ((andi : (⟨S8, .i32⟩ : BufTy).Contents (Elt F) → (⟨S8, .i32⟩ : BufTy).Contents (Elt F) → (⟨S8, .i32⟩ : BufTy).Contents (Elt F)) ((Host.shrsi : (⟨S8, .i32⟩ : BufTy).Contents (Elt F) → (⟨S8, .i32⟩ : BufTy).Contents (Elt F) → (⟨S8, .i32⟩ : BufTy).Contents (Elt F)) ((iotaInDim S8 32 0)) ((broadcastInDim S8 ![] bcast_S_S8 : (⟨S_, .i32⟩ : BufTy).Contents (Elt F) → (⟨S8, .i32⟩ : BufTy).Contents (Elt F)) ((constantI S_ 32 1#32)))) ((broadcastInDim S8 ![] bcast_S_S8 : (⟨S_, .i32⟩ : BufTy).Contents (Elt F) → (⟨S8, .i32⟩ : BufTy).Contents (Elt F)) ((constantI S_ 32 1#32)))) ((broadcastInDim S8 ![] bcast_S_S8 : (⟨S_, .i32⟩ : BufTy).Contents (Elt F) → (⟨S8, .i32⟩ : BufTy).Contents (Elt F)) ((constantI S_ 32 2#32))))) ((broadcastInDim S8 ![] bcast_S_S8 : (⟨S_, .i32⟩ : BufTy).Contents (Elt F) → (⟨S8, .i32⟩ : BufTy).Contents (Elt F)) ((constantI S_ 32 8#32)))) ((xori : (⟨S8, .i32⟩ : BufTy).Contents (Elt F) → (⟨S8, .i32⟩ : BufTy).Contents (Elt F) → (⟨S8, .i32⟩ : BufTy).Contents (Elt F)) ((iotaInDim S8 32 0)) ((Host.shli : (⟨S8, .i32⟩ : BufTy).Contents (Elt F) → (⟨S8, .i32⟩ : BufTy).Contents (Elt F) → (⟨S8, .i32⟩ : BufTy).Contents (Elt F)) ((andi : (⟨S8, .i32⟩ : BufTy).Contents (Elt F) → (⟨S8, .i32⟩ : BufTy).Contents (Elt F) → (⟨S8, .i32⟩ : BufTy).Contents (Elt F)) ((Host.shrsi : (⟨S8, .i32⟩ : BufTy).Contents (Elt F) → (⟨S8, .i32⟩ : BufTy).Contents (Elt F) → (⟨S8, .i32⟩ : BufTy).Contents (Elt F)) ((iotaInDim S8 32 0)) ((broadcastInDim S8 ![] bcast_S_S8 : (⟨S_, .i32⟩ : BufTy).Contents (Elt F) → (⟨S8, .i32⟩ : BufTy).Contents (Elt F)) ((constantI S_ 32 1#32)))) ((broadcastInDim S8 ![] bcast_S_S8 : (⟨S_, .i32⟩ : BufTy).Contents (Elt F) → (⟨S8, .i32⟩ : BufTy).Contents (Elt F)) ((constantI S_ 32 1#32)))) ((broadcastInDim S8 ![] bcast_S_S8 : (⟨S_, .i32⟩ : BufTy).Contents (Elt F) → (⟨S8, .i32⟩ : BufTy).Contents (Elt F)) ((constantI S_ 32 2#32))))))))

/-- Kind tail: 4 operations (first instance: C0Tail). -/
def tailFn (x0 : FVec F S500000x8 .f32) (x1 : FVec F S8x4 .f32) (x2 : FVec F S32x125x125x4 .f32) : FVec F S32x125x125x4 .f32 :=
  ((addf : (⟨S32x125x125x4, .f32⟩ : BufTy).Contents (Elt F) → (⟨S32x125x125x4, .f32⟩ : BufTy).Contents (Elt F) → (⟨S32x125x125x4, .f32⟩ : BufTy).Contents (Elt F)) x2 (shapeCast S32x125x125x4 (((fun l r => Host.dotGeneral dot_S500000x8_S8x4_S500000x4_1_0_0_1_n_n none l r) : (⟨S500000x8, .f32⟩ : BufTy).Contents (Elt F) → (⟨S8x4, .f32⟩ : BufTy).Contents (Elt F) → (⟨S500000x4, .f32⟩ : BufTy).Contents (Elt F)) ((mulf : (⟨S500000x8, .f32⟩ : BufTy).Contents (Elt F) → (⟨S500000x8, .f32⟩ : BufTy).Contents (Elt F) → (⟨S500000x8, .f32⟩ : BufTy).Contents (Elt F)) x0 x0) x1) shapeCasts_S500000x4_S32x125x125x4))

/-- Kind fin: 4 operations (first instance: Fin). -/
def finFn (x0 : FVec F S32x125x125x4 .f32) : FVec F S32x4x128x128 .f32 :=
  ((fun x v => pad S32x4x128x128 ![0, 0, 0, 0] ![0, 0, 3, 3] ![0, 0, 0, 0] x v pads_S32x4x125x125_S32x4x128x128_000_000_030_030 h_S_) (((transpose S32x4x125x125 [0, 3, 1, 2] · transposes_S32x125x125x4_S32x4x125x125_0_3_1_2) : (⟨S32x125x125x4, .f32⟩ : BufTy).Contents (Elt F) → (⟨S32x4x125x125, .f32⟩ : BufTy).Contents (Elt F)) x0) ((sitofp .f32) ((constantI S_ 32 0#32))))

end Cert.Quanv.Ref

end
-- ==== Proof.LibNary9.lean ====
/-
  A nine-operand host operation's result, with each operand's contents read at its own buffer.

  The host fold gives the result of an n-ary operation as its function of the family `fun k => F (xs k)` of the operands'
  contents; for a literal family of nine buffers that family is the tuple of the nine contents, which lets the contents of
  each operand be rewritten further, buffer by buffer (the library states this for four operands).
-/
import Idealize.ShloMosaic.Lib.StableHlo.Run

noncomputable section

namespace Idealize.ShloMosaic.StableHlo

variable {τ : Topo} {sig : RefSig} {Val : EltTy → Type}
variable {x0 x1 x2 x3 x4 x5 x6 x7 x8 y : Ref sig .tc}

/-- The result of an operation over nine literal operand buffers is its function of the nine contents, as a tuple. -/
theorem nary9_result
    (f : ((k : Fin 9) → ((![x0, x1, x2, x3, x4, x5, x6, x7, x8] : Fin 9 → Ref sig .tc) k).ty.Contents Val) → y.ty.Contents Val)
    (hxs hy) (F : Valuation τ sig Val) :
    (nary (τ := τ) ![x0, x1, x2, x3, x4, x5, x6, x7, x8] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (Fin.cons (F (Proc.devRef .tc x8))
          (fun i => i.elim0)))))))))) := by
  rw [nary_result]; congr 1; funext k; fin_cases k <;> rfl

/-- The same, in the form a simplification pass over a fold of operations can use. -/
theorem nary9_result'
    (f : ((k : Fin 9) → ((![x0, x1, x2, x3, x4, x5, x6, x7, x8] : Fin 9 → Ref sig .tc) k).ty.Contents Val) → y.ty.Contents Val)
    (hxs hy) (F : Valuation τ sig Val) :
    (nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (Fin.cons (F (Proc.devRef .tc x8))
          (fun i => i.elim0)))))))))) :=
  nary9_result f hxs hy F

end Idealize.ShloMosaic.StableHlo

end
-- ==== Proof.RefOps.PA0.lean ====
/- TABLE written by: bun scratch/gen_ref.js <unit> ops — stretches Patch of the reference's host program: per stretch the list of its operations, what it leaves
   in its result buffer as the kind's function of what it reads, and that it writes nothing else. -/
import proofs.«180459_j52956946760354_2_alg».proof.Proof.RefFns
import proofs.«180459_j52956946760354_2_alg».proof.Proof.LibNary9
import Idealize.ShloMosaic.Lib.StableHlo.Run

noncomputable section

namespace Cert.Quanv.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-! ## Stretch Patch (operations 0 … 18, kind patch) -/

noncomputable def opsPatch : List (HloOp τ sig (Elt F)) :=
  [ unary main_arg0 main_v0 ((extractStridedSlice S32x3x125x125 ![0, 0, 0, 0] · slices_S32x3x128x128_S32x3x125x125_0_0_0_0) : (⟨S32x3x128x128, .f32⟩ : BufTy).Contents (Elt F) → (⟨S32x3x125x125, .f32⟩ : BufTy).Contents (Elt F)),
    unary main_arg0 main_v1 ((extractStridedSlice S32x3x125x125 ![0, 0, 0, 1] · slices_S32x3x128x128_S32x3x125x125_0_0_0_1) : (⟨S32x3x128x128, .f32⟩ : BufTy).Contents (Elt F) → (⟨S32x3x125x125, .f32⟩ : BufTy).Contents (Elt F)),
    unary main_arg0 main_v2 ((extractStridedSlice S32x3x125x125 ![0, 0, 0, 2] · slices_S32x3x128x128_S32x3x125x125_0_0_0_2) : (⟨S32x3x128x128, .f32⟩ : BufTy).Contents (Elt F) → (⟨S32x3x125x125, .f32⟩ : BufTy).Contents (Elt F)),
    unary main_arg0 main_v3 ((extractStridedSlice S32x3x125x125 ![0, 0, 1, 0] · slices_S32x3x128x128_S32x3x125x125_0_0_1_0) : (⟨S32x3x128x128, .f32⟩ : BufTy).Contents (Elt F) → (⟨S32x3x125x125, .f32⟩ : BufTy).Contents (Elt F)),
    unary main_arg0 main_v4 ((extractStridedSlice S32x3x125x125 ![0, 0, 1, 1] · slices_S32x3x128x128_S32x3x125x125_0_0_1_1) : (⟨S32x3x128x128, .f32⟩ : BufTy).Contents (Elt F) → (⟨S32x3x125x125, .f32⟩ : BufTy).Contents (Elt F)),
    unary main_arg0 main_v5 ((extractStridedSlice S32x3x125x125 ![0, 0, 1, 2] · slices_S32x3x128x128_S32x3x125x125_0_0_1_2) : (⟨S32x3x128x128, .f32⟩ : BufTy).Contents (Elt F) → (⟨S32x3x125x125, .f32⟩ : BufTy).Contents (Elt F)),
    unary main_arg0 main_v6 ((extractStridedSlice S32x3x125x125 ![0, 0, 2, 0] · slices_S32x3x128x128_S32x3x125x125_0_0_2_0) : (⟨S32x3x128x128, .f32⟩ : BufTy).Contents (Elt F) → (⟨S32x3x125x125, .f32⟩ : BufTy).Contents (Elt F)),
    unary main_arg0 main_v7 ((extractStridedSlice S32x3x125x125 ![0, 0, 2, 1] · slices_S32x3x128x128_S32x3x125x125_0_0_2_1) : (⟨S32x3x128x128, .f32⟩ : BufTy).Contents (Elt F) → (⟨S32x3x125x125, .f32⟩ : BufTy).Contents (Elt F)),
    unary main_arg0 main_v8 ((extractStridedSlice S32x3x125x125 ![0, 0, 2, 2] · slices_S32x3x128x128_S32x3x125x125_0_0_2_2) : (⟨S32x3x128x128, .f32⟩ : BufTy).Contents (Elt F) → (⟨S32x3x125x125, .f32⟩ : BufTy).Contents (Elt F)),
    unary main_v0 main_v9 (broadcastInDim S32x3x125x125x1 ![0, 1, 2, 3] bcast_S32x3x125x125_S32x3x125x125x1_0_1_2_3 : (⟨S32x3x125x125, .f32⟩ : BufTy).Contents (Elt F) → (⟨S32x3x125x125x1, .f32⟩ : BufTy).Contents (Elt F)),
    unary main_v1 main_v10 (broadcastInDim S32x3x125x125x1 ![0, 1, 2, 3] bcast_S32x3x125x125_S32x3x125x125x1_0_1_2_3 : (⟨S32x3x125x125, .f32⟩ : BufTy).Contents (Elt F) → (⟨S32x3x125x125x1, .f32⟩ : BufTy).Contents (Elt F)),
    unary main_v2 main_v11 (broadcastInDim S32x3x125x125x1 ![0, 1, 2, 3] bcast_S32x3x125x125_S32x3x125x125x1_0_1_2_3 : (⟨S32x3x125x125, .f32⟩ : BufTy).Contents (Elt F) → (⟨S32x3x125x125x1, .f32⟩ : BufTy).Contents (Elt F)),
    unary main_v3 main_v12 (broadcastInDim S32x3x125x125x1 ![0, 1, 2, 3] bcast_S32x3x125x125_S32x3x125x125x1_0_1_2_3 : (⟨S32x3x125x125, .f32⟩ : BufTy).Contents (Elt F) → (⟨S32x3x125x125x1, .f32⟩ : BufTy).Contents (Elt F)),
    unary main_v4 main_v13 (broadcastInDim S32x3x125x125x1 ![0, 1, 2, 3] bcast_S32x3x125x125_S32x3x125x125x1_0_1_2_3 : (⟨S32x3x125x125, .f32⟩ : BufTy).Contents (Elt F) → (⟨S32x3x125x125x1, .f32⟩ : BufTy).Contents (Elt F)),
    unary main_v5 main_v14 (broadcastInDim S32x3x125x125x1 ![0, 1, 2, 3] bcast_S32x3x125x125_S32x3x125x125x1_0_1_2_3 : (⟨S32x3x125x125, .f32⟩ : BufTy).Contents (Elt F) → (⟨S32x3x125x125x1, .f32⟩ : BufTy).Contents (Elt F)),
    unary main_v6 main_v15 (broadcastInDim S32x3x125x125x1 ![0, 1, 2, 3] bcast_S32x3x125x125_S32x3x125x125x1_0_1_2_3 : (⟨S32x3x125x125, .f32⟩ : BufTy).Contents (Elt F) → (⟨S32x3x125x125x1, .f32⟩ : BufTy).Contents (Elt F)),
    unary main_v7 main_v16 (broadcastInDim S32x3x125x125x1 ![0, 1, 2, 3] bcast_S32x3x125x125_S32x3x125x125x1_0_1_2_3 : (⟨S32x3x125x125, .f32⟩ : BufTy).Contents (Elt F) → (⟨S32x3x125x125x1, .f32⟩ : BufTy).Contents (Elt F)),
    unary main_v8 main_v17 (broadcastInDim S32x3x125x125x1 ![0, 1, 2, 3] bcast_S32x3x125x125_S32x3x125x125x1_0_1_2_3 : (⟨S32x3x125x125, .f32⟩ : BufTy).Contents (Elt F) → (⟨S32x3x125x125x1, .f32⟩ : BufTy).Contents (Elt F)),
    nary ![main_v9, main_v10, main_v11, main_v12, main_v13, main_v14, main_v15, main_v16, main_v17] main_v18 (fun u => concatenate S32x3x125x125x9 4 [⟨S32x3x125x125x1, u 0⟩, ⟨S32x3x125x125x1, u 1⟩, ⟨S32x3x125x125x1, u 2⟩, ⟨S32x3x125x125x1, u 3⟩, ⟨S32x3x125x125x1, u 4⟩, ⟨S32x3x125x125x1, u 5⟩, ⟨S32x3x125x125x1, u 6⟩, ⟨S32x3x125x125x1, u 7⟩, ⟨S32x3x125x125x1, u 8⟩] concatenates_S32x3x125x125x1_S32x3x125x125x1_S32x3x125x125x1_S32x3x125x125x1_S32x3x125x125x1_S32x3x125x125x1_S32x3x125x125x1_S32x3x125x125x1_S32x3x125x125x1_S32x3x125x125x9_d4) ]

end Cert.Quanv.Ref

end
-- ==== Proof.RefOps.PA1.lean ====
/- TABLE written by: bun scratch/gen_ref.js <unit> ops — stretches Patch of the reference's host program: per stretch the list of its operations, what it leaves
   in its result buffer as the kind's function of what it reads, and that it writes nothing else. -/
import proofs.«180459_j52956946760354_2_alg».proof.Proof.RefOps.PA0
import proofs.«180459_j52956946760354_2_alg».proof.Proof.LibNary9
import Idealize.ShloMosaic.Lib.StableHlo.Run

noncomputable section

namespace Cert.Quanv.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-- The stretch's operations composed, the concatenate's nine operands written out (the kind's function with each operand of its
    family read at its literal position). -/
noncomputable def patchBFn (x0 : FVec F S32x3x128x128 .f32) : FVec F S32x3x125x125x9 .f32 :=
  concatenate S32x3x125x125x9 4 [⟨S32x3x125x125x1, ((broadcastInDim S32x3x125x125x1 ![0, 1, 2, 3] bcast_S32x3x125x125_S32x3x125x125x1_0_1_2_3 : (⟨S32x3x125x125, .f32⟩ : BufTy).Contents (Elt F) → (⟨S32x3x125x125x1, .f32⟩ : BufTy).Contents (Elt F)) (((extractStridedSlice S32x3x125x125 ![0, 0, 0, 0] · slices_S32x3x128x128_S32x3x125x125_0_0_0_0) : (⟨S32x3x128x128, .f32⟩ : BufTy).Contents (Elt F) → (⟨S32x3x125x125, .f32⟩ : BufTy).Contents (Elt F)) x0))⟩, ⟨S32x3x125x125x1, ((broadcastInDim S32x3x125x125x1 ![0, 1, 2, 3] bcast_S32x3x125x125_S32x3x125x125x1_0_1_2_3 : (⟨S32x3x125x125, .f32⟩ : BufTy).Contents (Elt F) → (⟨S32x3x125x125x1, .f32⟩ : BufTy).Contents (Elt F)) (((extractStridedSlice S32x3x125x125 ![0, 0, 0, 1] · slices_S32x3x128x128_S32x3x125x125_0_0_0_1) : (⟨S32x3x128x128, .f32⟩ : BufTy).Contents (Elt F) → (⟨S32x3x125x125, .f32⟩ : BufTy).Contents (Elt F)) x0))⟩, ⟨S32x3x125x125x1, ((broadcastInDim S32x3x125x125x1 ![0, 1, 2, 3] bcast_S32x3x125x125_S32x3x125x125x1_0_1_2_3 : (⟨S32x3x125x125, .f32⟩ : BufTy).Contents (Elt F) → (⟨S32x3x125x125x1, .f32⟩ : BufTy).Contents (Elt F)) (((extractStridedSlice S32x3x125x125 ![0, 0, 0, 2] · slices_S32x3x128x128_S32x3x125x125_0_0_0_2) : (⟨S32x3x128x128, .f32⟩ : BufTy).Contents (Elt F) → (⟨S32x3x125x125, .f32⟩ : BufTy).Contents (Elt F)) x0))⟩, ⟨S32x3x125x125x1, ((broadcastInDim S32x3x125x125x1 ![0, 1, 2, 3] bcast_S32x3x125x125_S32x3x125x125x1_0_1_2_3 : (⟨S32x3x125x125, .f32⟩ : BufTy).Contents (Elt F) → (⟨S32x3x125x125x1, .f32⟩ : BufTy).Contents (Elt F)) (((extractStridedSlice S32x3x125x125 ![0, 0, 1, 0] · slices_S32x3x128x128_S32x3x125x125_0_0_1_0) : (⟨S32x3x128x128, .f32⟩ : BufTy).Contents (Elt F) → (⟨S32x3x125x125, .f32⟩ : BufTy).Contents (Elt F)) x0))⟩, ⟨S32x3x125x125x1, ((broadcastInDim S32x3x125x125x1 ![0, 1, 2, 3] bcast_S32x3x125x125_S32x3x125x125x1_0_1_2_3 : (⟨S32x3x125x125, .f32⟩ : BufTy).Contents (Elt F) → (⟨S32x3x125x125x1, .f32⟩ : BufTy).Contents (Elt F)) (((extractStridedSlice S32x3x125x125 ![0, 0, 1, 1] · slices_S32x3x128x128_S32x3x125x125_0_0_1_1) : (⟨S32x3x128x128, .f32⟩ : BufTy).Contents (Elt F) → (⟨S32x3x125x125, .f32⟩ : BufTy).Contents (Elt F)) x0))⟩, ⟨S32x3x125x125x1, ((broadcastInDim S32x3x125x125x1 ![0, 1, 2, 3] bcast_S32x3x125x125_S32x3x125x125x1_0_1_2_3 : (⟨S32x3x125x125, .f32⟩ : BufTy).Contents (Elt F) → (⟨S32x3x125x125x1, .f32⟩ : BufTy).Contents (Elt F)) (((extractStridedSlice S32x3x125x125 ![0, 0, 1, 2] · slices_S32x3x128x128_S32x3x125x125_0_0_1_2) : (⟨S32x3x128x128, .f32⟩ : BufTy).Contents (Elt F) → (⟨S32x3x125x125, .f32⟩ : BufTy).Contents (Elt F)) x0))⟩, ⟨S32x3x125x125x1, ((broadcastInDim S32x3x125x125x1 ![0, 1, 2, 3] bcast_S32x3x125x125_S32x3x125x125x1_0_1_2_3 : (⟨S32x3x125x125, .f32⟩ : BufTy).Contents (Elt F) → (⟨S32x3x125x125x1, .f32⟩ : BufTy).Contents (Elt F)) (((extractStridedSlice S32x3x125x125 ![0, 0, 2, 0] · slices_S32x3x128x128_S32x3x125x125_0_0_2_0) : (⟨S32x3x128x128, .f32⟩ : BufTy).Contents (Elt F) → (⟨S32x3x125x125, .f32⟩ : BufTy).Contents (Elt F)) x0))⟩, ⟨S32x3x125x125x1, ((broadcastInDim S32x3x125x125x1 ![0, 1, 2, 3] bcast_S32x3x125x125_S32x3x125x125x1_0_1_2_3 : (⟨S32x3x125x125, .f32⟩ : BufTy).Contents (Elt F) → (⟨S32x3x125x125x1, .f32⟩ : BufTy).Contents (Elt F)) (((extractStridedSlice S32x3x125x125 ![0, 0, 2, 1] · slices_S32x3x128x128_S32x3x125x125_0_0_2_1) : (⟨S32x3x128x128, .f32⟩ : BufTy).Contents (Elt F) → (⟨S32x3x125x125, .f32⟩ : BufTy).Contents (Elt F)) x0))⟩, ⟨S32x3x125x125x1, ((broadcastInDim S32x3x125x125x1 ![0, 1, 2, 3] bcast_S32x3x125x125_S32x3x125x125x1_0_1_2_3 : (⟨S32x3x125x125, .f32⟩ : BufTy).Contents (Elt F) → (⟨S32x3x125x125x1, .f32⟩ : BufTy).Contents (Elt F)) (((extractStridedSlice S32x3x125x125 ![0, 0, 2, 2] · slices_S32x3x128x128_S32x3x125x125_0_0_2_2) : (⟨S32x3x128x128, .f32⟩ : BufTy).Contents (Elt F) → (⟨S32x3x125x125, .f32⟩ : BufTy).Contents (Elt F)) x0))⟩] concatenates_S32x3x125x125x1_S32x3x125x125x1_S32x3x125x125x1_S32x3x125x125x1_S32x3x125x125x1_S32x3x125x125x1_S32x3x125x125x1_S32x3x125x125x1_S32x3x125x125x1_S32x3x125x125x9_d4

theorem patchBFn_eq (x0 : FVec F S32x3x128x128 .f32) : patchBFn (F := F) x0 = patchFn x0 := rfl

set_option maxHeartbeats 2000000 in
theorem valPatch (V : Valuation τ sig (Elt F)) :
    after (opsPatch (F := F)) V (no_index (Proc.devRef .tc main_v18)) = patchFn (V (Proc.devRef .tc main_arg0)) := by
  refine Eq.trans ?_ (patchBFn_eq _)
  unfold opsPatch patchBFn
  simp (disch := decide) only [after_cons, after_nil, nullary_result', unary_result', binary_result', ternary_result', reshape_result', nary9_result', nullary_result_ne', unary_result_ne', binary_result_ne', ternary_result_ne', reshape_result_ne', nary_result_ne']
  rfl

end Cert.Quanv.Ref

end
-- ==== Proof.RefOps.PA2.lean ====
/- TABLE written by: bun scratch/gen_ref.js <unit> ops — stretches Patch of the reference's host program: per stretch the list of its operations, what it leaves
   in its result buffer as the kind's function of what it reads, and that it writes nothing else. -/
import proofs.«180459_j52956946760354_2_alg».proof.Proof.RefOps.PA1
import Idealize.ShloMosaic.Lib.StableHlo.Run

noncomputable section

namespace Cert.Quanv.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

theorem subPatch : (opsPatch : List (HloOp τ sig (Elt F))).Forall fun op => op.bufs ⊆ tcRefs τ sig := by
  unfold opsPatch
  exact ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub ..⟩

end Cert.Quanv.Ref

end
-- ==== Proof.RefOps.PA3.lean ====
/- TABLE written by: bun scratch/gen_ref.js <unit> ops — stretches Patch of the reference's host program: per stretch the list of its operations, what it leaves
   in its result buffer as the kind's function of what it reads, and that it writes nothing else. -/
import proofs.«180459_j52956946760354_2_alg».proof.Proof.RefOps.PA2
import Idealize.ShloMosaic.Lib.StableHlo.Run

noncomputable section

namespace Cert.Quanv.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

theorem freshPatch : ∀ op ∈ (opsPatch : List (HloOp τ sig (Elt F))), op.fresh = ∅ := by
  unfold opsPatch
  exact List.forall_iff_forall_mem.mp ⟨rfl, rfl, rfl, rfl, rfl, rfl, rfl, rfl, rfl, rfl, rfl, rfl, rfl, rfl, rfl, rfl, rfl, rfl, rfl⟩

end Cert.Quanv.Ref

end
-- ==== Proof.RefOps.PA4.lean ====
/- TABLE written by: bun scratch/gen_ref.js <unit> ops — stretches Patch of the reference's host program: per stretch the list of its operations, what it leaves
   in its result buffer as the kind's function of what it reads, and that it writes nothing else. -/
import proofs.«180459_j52956946760354_2_alg».proof.Proof.RefOps.PA3
import Idealize.ShloMosaic.Lib.StableHlo.Run

noncomputable section

namespace Cert.Quanv.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

noncomputable def wrPatch : List (Ref sig .tc) := [main_v0, main_v1, main_v2, main_v3, main_v4, main_v5, main_v6, main_v7, main_v8, main_v9, main_v10, main_v11, main_v12, main_v13, main_v14, main_v15, main_v16, main_v17, main_v18]

theorem keepPatch (V : Valuation τ sig (Elt F)) (r : Ref sig .tc) (hr : r ∉ wrPatch) :
    after (opsPatch (F := F)) V (no_index (Proc.devRef .tc r)) = V (Proc.devRef .tc r) :=
  after_of_writes_sub _ V (W := wrPatch) (by
    unfold opsPatch wrPatch
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _)))))))))))))))))))))⟩) hr

end Cert.Quanv.Ref

end
-- ==== Proof.RefOps.PB.lean ====
/- TABLE written by: bun scratch/gen_ref.js <unit> ops — stretches OneHot of the reference's host program: per stretch the list of its operations, what it leaves
   in its result buffer as the kind's function of what it reads, and that it writes nothing else. -/
import proofs.«180459_j52956946760354_2_alg».proof.Proof.RefFns
import Idealize.ShloMosaic.Lib.StableHlo.Run

noncomputable section

namespace Cert.Quanv.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-! ## Stretch OneHot (operations 19 … 47, kind oneHot) -/

noncomputable def opsOneHot : List (HloOp τ sig (Elt F)) :=
  [ nullary main_v19 (iotaInDim S8 32 0),
    nullary main_c (constantI S_ 32 4#32),
    TRef.unary (.of main_c : StableHlo.TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S8 ![] bcast_S_S8),
    TRef.binary (.of main_v19 : StableHlo.TRef sig ⟨S8, .i32⟩) main_call0.v3 main_call0.v4 Host.remsi,
    TRef.nullary main_call0.c_1 (constantI S_ 32 0#32),
    TRef.unary main_call0.c_1 main_call0.v5 (broadcastInDim S8 ![] bcast_S_S8),
    TRef.binary main_call0.v4 main_call0.v5 main_call0.v6 (cmpi .ne),
    TRef.nullary main_call0.c_2 (constantI S_ 32 0#32),
    TRef.unary main_call0.c_2 main_call0.v7 (broadcastInDim S8 ![] bcast_S_S8),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S8 ![] bcast_S_S8),
    TRef.binary main_call0.v8 main_call0.v10 main_call0.v11 (cmpi .ne),
    TRef.binary main_call0.v11 main_call0.v6 main_call0.v12 andi,
    TRef.unary main_call0.call0.v0 main_call0.v13 (broadcastInDim S8 ![] bcast_S_S8),
    TRef.binary main_call0.v4 main_call0.v13 main_call0.v14 addi,
    TRef.ternary main_call0.v12 main_call0.v14 main_call0.v4 main_call0.v15 select,
    TRef.unary (.of main_v20 : StableHlo.TRef sig ⟨S8, .i32⟩) main_call1.v0 (broadcastInDim S8x1 ![0] bcast_S8_S8x1_0),
    TRef.nullary main_call1.v1 (iotaInDim S1x4 32 1),
    TRef.unary main_call1.v0 main_call1.v2 (broadcastInDim S8x4 ![0, 1] bcast_S8x1_S8x4_0_1),
    TRef.unary main_call1.v1 main_call1.v3 (broadcastInDim S8x4 ![0, 1] bcast_S1x4_S8x4_0_1),
    TRef.binary main_call1.v2 main_call1.v3 main_call1.v4 (cmpi .eq),
    TRef.unary main_call1.v4 main_call1.v5 (uitofp .f32) ]

theorem valOneHot (V : Valuation τ sig (Elt F)) :
    after (opsOneHot (F := F)) V (no_index (Proc.devRef .tc main_v21)) = oneHotFn := by
  unfold opsOneHot
  after_results_simp
  rfl

noncomputable def wrOneHot : List (Ref sig .tc) := [main_v19, main_c, main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v20, main_call1_v0, main_call1_v1, main_call1_v2, main_call1_v3, main_call1_v4, main_v21]

theorem subOneHot : (opsOneHot : List (HloOp τ sig (Elt F))).Forall fun op => op.bufs ⊆ tcRefs τ sig := by
  unfold opsOneHot
  exact ⟨nullary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., nullary_bufs_sub .., unary_bufs_sub .., unary_bufs_sub .., binary_bufs_sub .., unary_bufs_sub ..⟩

theorem freshOneHot : ∀ op ∈ (opsOneHot : List (HloOp τ sig (Elt F))), op.fresh = ∅ := by
  unfold opsOneHot
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl⟩

theorem keepOneHot (V : Valuation τ sig (Elt F)) (r : Ref sig .tc) (hr : r ∉ wrOneHot) :
    after (opsOneHot (F := F)) V (no_index (Proc.devRef .tc r)) = V (Proc.devRef .tc r) :=
  after_of_writes_sub _ V (W := wrOneHot) (by
    unfold opsOneHot wrOneHot
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))⟩) hr

end Cert.Quanv.Ref

end
-- ==== Proof.RefOps.PC.lean ====
/- TABLE written by: bun scratch/gen_ref.js <unit> ops — stretches Acc0 of the reference's host program: per stretch the list of its operations, what it leaves
   in its result buffer as the kind's function of what it reads, and that it writes nothing else. -/
import proofs.«180459_j52956946760354_2_alg».proof.Proof.RefFns
import Idealize.ShloMosaic.Lib.StableHlo.Run

noncomputable section

namespace Cert.Quanv.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-! ## Stretch Acc0 (operations 48 … 49, kind acc0) -/

noncomputable def opsAcc0 : List (HloOp τ sig (Elt F)) :=
  [ nullary main_cst (constant S_ .f32 0x00000000#32),
    unary main_cst main_v22 (broadcastInDim S32x125x125x4 ![] bcast_S_S32x125x125x4 : (⟨S_, .f32⟩ : BufTy).Contents (Elt F) → (⟨S32x125x125x4, .f32⟩ : BufTy).Contents (Elt F)) ]

theorem valAcc0 (V : Valuation τ sig (Elt F)) :
    after (opsAcc0 (F := F)) V (no_index (Proc.devRef .tc main_v22)) = acc0Fn := by
  unfold opsAcc0
  after_results_simp
  rfl

noncomputable def wrAcc0 : List (Ref sig .tc) := [main_cst, main_v22]

theorem subAcc0 : (opsAcc0 : List (HloOp τ sig (Elt F))).Forall fun op => op.bufs ⊆ tcRefs τ sig := by
  unfold opsAcc0
  exact ⟨nullary_bufs_sub .., unary_bufs_sub ..⟩

theorem freshAcc0 : ∀ op ∈ (opsAcc0 : List (HloOp τ sig (Elt F))), op.fresh = ∅ := by
  unfold opsAcc0
  exact List.forall_iff_forall_mem.mp ⟨rfl, rfl⟩

theorem keepAcc0 (V : Valuation τ sig (Elt F)) (r : Ref sig .tc) (hr : r ∉ wrAcc0) :
    after (opsAcc0 (F := F)) V (no_index (Proc.devRef .tc r)) = V (Proc.devRef .tc r) :=
  after_of_writes_sub _ V (W := wrAcc0) (by
    unfold opsAcc0 wrAcc0
    exact ⟨Finset.singleton_subset_iff.mpr (List.mem_toFinset.mpr (List.mem_map_of_mem (.head _))),
     Finset.singleton_subset_iff.mpr (List.mem_toFinset.mpr (List.mem_map_of_mem (.tail _ (.head _))))⟩) hr

end Cert.Quanv.Ref

end
-- ==== Proof.RefOps.C0A.lean ====
/- TABLE written by: bun scratch/gen_ref.js <unit> ops — stretches C0Psi0, C0W0, C0W1, C0W2, C0W3, C0W4 of the reference's host program: per stretch the list of its operations, what it leaves
   in its result buffer as the kind's function of what it reads, and that it writes nothing else. -/
import proofs.«180459_j52956946760354_2_alg».proof.Proof.RefFns
import Idealize.ShloMosaic.Lib.StableHlo.Run

noncomputable section

namespace Cert.Quanv.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-! ## Stretch C0Psi0 (operations 50 … 51, kind psi0) -/

noncomputable def opsC0Psi0 : List (HloOp τ sig (Elt F)) :=
  [ nullary main_cst_0 (constant S_ .f32 0x3EB504F3#32),
    unary main_cst_0 main_v23 (broadcastInDim S8 ![] bcast_S_S8 : (⟨S_, .f32⟩ : BufTy).Contents (Elt F) → (⟨S8, .f32⟩ : BufTy).Contents (Elt F)) ]

theorem valC0Psi0 (V : Valuation τ sig (Elt F)) :
    after (opsC0Psi0 (F := F)) V (no_index (Proc.devRef .tc main_v23)) = psi0Fn := by
  unfold opsC0Psi0
  after_results_simp
  rfl

noncomputable def wrC0Psi0 : List (Ref sig .tc) := [main_cst_0, main_v23]

theorem subC0Psi0 : (opsC0Psi0 : List (HloOp τ sig (Elt F))).Forall fun op => op.bufs ⊆ tcRefs τ sig := by
  unfold opsC0Psi0
  exact ⟨nullary_bufs_sub .., unary_bufs_sub ..⟩

theorem freshC0Psi0 : ∀ op ∈ (opsC0Psi0 : List (HloOp τ sig (Elt F))), op.fresh = ∅ := by
  unfold opsC0Psi0
  exact List.forall_iff_forall_mem.mp ⟨rfl, rfl⟩

theorem keepC0Psi0 (V : Valuation τ sig (Elt F)) (r : Ref sig .tc) (hr : r ∉ wrC0Psi0) :
    after (opsC0Psi0 (F := F)) V (no_index (Proc.devRef .tc r)) = V (Proc.devRef .tc r) :=
  after_of_writes_sub _ V (W := wrC0Psi0) (by
    unfold opsC0Psi0 wrC0Psi0
    exact ⟨Finset.singleton_subset_iff.mpr (List.mem_toFinset.mpr (List.mem_map_of_mem (.head _))),
     Finset.singleton_subset_iff.mpr (List.mem_toFinset.mpr (List.mem_map_of_mem (.tail _ (.head _))))⟩) hr

/-! ## Stretch C0W0 (operations 52 … 78, kind ryW0) -/

noncomputable def opsC0W0 : List (HloOp τ sig (Elt F)) :=
  [ unary main_arg1 main_v24 ((extractStridedSlice S1x1 ![0, 0] · slices_S3x9_S1x1_0_0) : (⟨S3x9, .f32⟩ : BufTy).Contents (Elt F) → (⟨S1x1, .f32⟩ : BufTy).Contents (Elt F)),
    reshape main_v24 main_v25 rfl shapeCasts_S1x1_S_,
    reshape main_v23 main_v26 rfl shapeCasts_S8_S4x2x1,
    nullary main_cst_1 (constant S_ .f32 0x3F000000#32),
    binary main_v25 main_cst_1 main_v27 (mulf : (⟨S_, .f32⟩ : BufTy).Contents (Elt F) → (⟨S_, .f32⟩ : BufTy).Contents (Elt F) → (⟨S_, .f32⟩ : BufTy).Contents (Elt F)),
    unary main_v27 main_v28 (Host.cos : (⟨S_, .f32⟩ : BufTy).Contents (Elt F) → (⟨S_, .f32⟩ : BufTy).Contents (Elt F)),
    unary main_v28 main_v29 (broadcastInDim S1x1 ![] bcast_S_S1x1 : (⟨S_, .f32⟩ : BufTy).Contents (Elt F) → (⟨S1x1, .f32⟩ : BufTy).Contents (Elt F)),
    unary main_v27 main_v30 (Host.sin : (⟨S_, .f32⟩ : BufTy).Contents (Elt F) → (⟨S_, .f32⟩ : BufTy).Contents (Elt F)),
    unary main_v30 main_v31 (broadcastInDim S1x1 ![] bcast_S_S1x1 : (⟨S_, .f32⟩ : BufTy).Contents (Elt F) → (⟨S1x1, .f32⟩ : BufTy).Contents (Elt F)),
    unary main_v26 main_v32 ((extractStridedSlice S4x1x1 ![0, 0, 0] · slices_S4x2x1_S4x1x1_0_0_0) : (⟨S4x2x1, .f32⟩ : BufTy).Contents (Elt F) → (⟨S4x1x1, .f32⟩ : BufTy).Contents (Elt F)),
    reshape main_v32 main_v33 rfl shapeCasts_S4x1x1_S4x1,
    unary main_v26 main_v34 ((extractStridedSlice S4x1x1 ![0, 1, 0] · slices_S4x2x1_S4x1x1_0_1_0) : (⟨S4x2x1, .f32⟩ : BufTy).Contents (Elt F) → (⟨S4x1x1, .f32⟩ : BufTy).Contents (Elt F)),
    reshape main_v34 main_v35 rfl shapeCasts_S4x1x1_S4x1,
    unary main_v29 main_v36 (broadcastInDim S4x1 ![0, 1] bcast_S1x1_S4x1_0_1 : (⟨S1x1, .f32⟩ : BufTy).Contents (Elt F) → (⟨S4x1, .f32⟩ : BufTy).Contents (Elt F)),
    binary main_v36 main_v33 main_v37 (mulf : (⟨S4x1, .f32⟩ : BufTy).Contents (Elt F) → (⟨S4x1, .f32⟩ : BufTy).Contents (Elt F) → (⟨S4x1, .f32⟩ : BufTy).Contents (Elt F)),
    unary main_v31 main_v38 (broadcastInDim S4x1 ![0, 1] bcast_S1x1_S4x1_0_1 : (⟨S1x1, .f32⟩ : BufTy).Contents (Elt F) → (⟨S4x1, .f32⟩ : BufTy).Contents (Elt F)),
    binary main_v38 main_v35 main_v39 (mulf : (⟨S4x1, .f32⟩ : BufTy).Contents (Elt F) → (⟨S4x1, .f32⟩ : BufTy).Contents (Elt F) → (⟨S4x1, .f32⟩ : BufTy).Contents (Elt F)),
    binary main_v37 main_v39 main_v40 (subf : (⟨S4x1, .f32⟩ : BufTy).Contents (Elt F) → (⟨S4x1, .f32⟩ : BufTy).Contents (Elt F) → (⟨S4x1, .f32⟩ : BufTy).Contents (Elt F)),
    unary main_v31 main_v41 (broadcastInDim S4x1 ![0, 1] bcast_S1x1_S4x1_0_1 : (⟨S1x1, .f32⟩ : BufTy).Contents (Elt F) → (⟨S4x1, .f32⟩ : BufTy).Contents (Elt F)),
    binary main_v41 main_v33 main_v42 (mulf : (⟨S4x1, .f32⟩ : BufTy).Contents (Elt F) → (⟨S4x1, .f32⟩ : BufTy).Contents (Elt F) → (⟨S4x1, .f32⟩ : BufTy).Contents (Elt F)),
    unary main_v29 main_v43 (broadcastInDim S4x1 ![0, 1] bcast_S1x1_S4x1_0_1 : (⟨S1x1, .f32⟩ : BufTy).Contents (Elt F) → (⟨S4x1, .f32⟩ : BufTy).Contents (Elt F)),
    binary main_v43 main_v35 main_v44 (mulf : (⟨S4x1, .f32⟩ : BufTy).Contents (Elt F) → (⟨S4x1, .f32⟩ : BufTy).Contents (Elt F) → (⟨S4x1, .f32⟩ : BufTy).Contents (Elt F)),
    binary main_v42 main_v44 main_v45 (addf : (⟨S4x1, .f32⟩ : BufTy).Contents (Elt F) → (⟨S4x1, .f32⟩ : BufTy).Contents (Elt F) → (⟨S4x1, .f32⟩ : BufTy).Contents (Elt F)),
    unary main_v40 main_v46 (broadcastInDim S4x1x1 ![0, 2] bcast_S4x1_S4x1x1_0_2 : (⟨S4x1, .f32⟩ : BufTy).Contents (Elt F) → (⟨S4x1x1, .f32⟩ : BufTy).Contents (Elt F)),
    unary main_v45 main_v47 (broadcastInDim S4x1x1 ![0, 2] bcast_S4x1_S4x1x1_0_2 : (⟨S4x1, .f32⟩ : BufTy).Contents (Elt F) → (⟨S4x1x1, .f32⟩ : BufTy).Contents (Elt F)),
    binary main_v46 main_v47 main_v48 ((fun a b => concatenate S4x2x1 1 [⟨S4x1x1, a⟩, ⟨S4x1x1, b⟩] concatenates_S4x1x1_S4x1x1_S4x2x1_d1) : (⟨S4x1x1, .f32⟩ : BufTy).Contents (Elt F) → (⟨S4x1x1, .f32⟩ : BufTy).Contents (Elt F) → (⟨S4x2x1, .f32⟩ : BufTy).Contents (Elt F)),
    reshape main_v48 main_v49 rfl shapeCasts_S4x2x1_S8 ]

theorem valC0W0 (V : Valuation τ sig (Elt F)) :
    after (opsC0W0 (F := F)) V (no_index (Proc.devRef .tc main_v49)) = ryW0Fn (V (Proc.devRef .tc main_v23)) (((extractStridedSlice S1x1 ![0, 0] · slices_S3x9_S1x1_0_0) : (⟨S3x9, .f32⟩ : BufTy).Contents (Elt F) → (⟨S1x1, .f32⟩ : BufTy).Contents (Elt F)) (V (Proc.devRef .tc main_arg1))) := by
  unfold opsC0W0
  after_results_simp
  rfl

noncomputable def wrC0W0 : List (Ref sig .tc) := [main_v24, main_v25, main_v26, main_cst_1, main_v27, main_v28, main_v29, main_v30, main_v31, main_v32, main_v33, main_v34, main_v35, main_v36, main_v37, main_v38, main_v39, main_v40, main_v41, main_v42, main_v43, main_v44, main_v45, main_v46, main_v47, main_v48, main_v49]

theorem subC0W0 : (opsC0W0 : List (HloOp τ sig (Elt F))).Forall fun op => op.bufs ⊆ tcRefs τ sig := by
  unfold opsC0W0
  exact ⟨unary_bufs_sub .., reshape_bufs_sub .., reshape_bufs_sub .., nullary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC0W0 : ∀ op ∈ (opsC0W0 : List (HloOp τ sig (Elt F))), op.fresh = ∅ := by
  unfold opsC0W0
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem keepC0W0 (V : Valuation τ sig (Elt F)) (r : Ref sig .tc) (hr : r ∉ wrC0W0) :
    after (opsC0W0 (F := F)) V (no_index (Proc.devRef .tc r)) = V (Proc.devRef .tc r) :=
  after_of_writes_sub _ V (W := wrC0W0) (by
    unfold opsC0W0 wrC0W0
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))⟩) hr

/-! ## Stretch C0W1 (operations 79 … 105, kind ryW1) -/

noncomputable def opsC0W1 : List (HloOp τ sig (Elt F)) :=
  [ unary main_arg1 main_v50 ((extractStridedSlice S1x1 ![0, 1] · slices_S3x9_S1x1_0_1) : (⟨S3x9, .f32⟩ : BufTy).Contents (Elt F) → (⟨S1x1, .f32⟩ : BufTy).Contents (Elt F)),
    reshape main_v50 main_v51 rfl shapeCasts_S1x1_S_,
    reshape main_v49 main_v52 rfl shapeCasts_S8_S2x2x2,
    nullary main_cst_2 (constant S_ .f32 0x3F000000#32),
    binary main_v51 main_cst_2 main_v53 (mulf : (⟨S_, .f32⟩ : BufTy).Contents (Elt F) → (⟨S_, .f32⟩ : BufTy).Contents (Elt F) → (⟨S_, .f32⟩ : BufTy).Contents (Elt F)),
    unary main_v53 main_v54 (Host.cos : (⟨S_, .f32⟩ : BufTy).Contents (Elt F) → (⟨S_, .f32⟩ : BufTy).Contents (Elt F)),
    unary main_v54 main_v55 (broadcastInDim S1x1 ![] bcast_S_S1x1 : (⟨S_, .f32⟩ : BufTy).Contents (Elt F) → (⟨S1x1, .f32⟩ : BufTy).Contents (Elt F)),
    unary main_v53 main_v56 (Host.sin : (⟨S_, .f32⟩ : BufTy).Contents (Elt F) → (⟨S_, .f32⟩ : BufTy).Contents (Elt F)),
    unary main_v56 main_v57 (broadcastInDim S1x1 ![] bcast_S_S1x1 : (⟨S_, .f32⟩ : BufTy).Contents (Elt F) → (⟨S1x1, .f32⟩ : BufTy).Contents (Elt F)),
    unary main_v52 main_v58 ((extractStridedSlice S2x1x2 ![0, 0, 0] · slices_S2x2x2_S2x1x2_0_0_0) : (⟨S2x2x2, .f32⟩ : BufTy).Contents (Elt F) → (⟨S2x1x2, .f32⟩ : BufTy).Contents (Elt F)),
    reshape main_v58 main_v59 rfl shapeCasts_S2x1x2_S2x2,
    unary main_v52 main_v60 ((extractStridedSlice S2x1x2 ![0, 1, 0] · slices_S2x2x2_S2x1x2_0_1_0) : (⟨S2x2x2, .f32⟩ : BufTy).Contents (Elt F) → (⟨S2x1x2, .f32⟩ : BufTy).Contents (Elt F)),
    reshape main_v60 main_v61 rfl shapeCasts_S2x1x2_S2x2,
    unary main_v55 main_v62 (broadcastInDim S2x2 ![0, 1] bcast_S1x1_S2x2_0_1 : (⟨S1x1, .f32⟩ : BufTy).Contents (Elt F) → (⟨S2x2, .f32⟩ : BufTy).Contents (Elt F)),
    binary main_v62 main_v59 main_v63 (mulf : (⟨S2x2, .f32⟩ : BufTy).Contents (Elt F) → (⟨S2x2, .f32⟩ : BufTy).Contents (Elt F) → (⟨S2x2, .f32⟩ : BufTy).Contents (Elt F)),
    unary main_v57 main_v64 (broadcastInDim S2x2 ![0, 1] bcast_S1x1_S2x2_0_1 : (⟨S1x1, .f32⟩ : BufTy).Contents (Elt F) → (⟨S2x2, .f32⟩ : BufTy).Contents (Elt F)),
    binary main_v64 main_v61 main_v65 (mulf : (⟨S2x2, .f32⟩ : BufTy).Contents (Elt F) → (⟨S2x2, .f32⟩ : BufTy).Contents (Elt F) → (⟨S2x2, .f32⟩ : BufTy).Contents (Elt F)),
    binary main_v63 main_v65 main_v66 (subf : (⟨S2x2, .f32⟩ : BufTy).Contents (Elt F) → (⟨S2x2, .f32⟩ : BufTy).Contents (Elt F) → (⟨S2x2, .f32⟩ : BufTy).Contents (Elt F)),
    unary main_v57 main_v67 (broadcastInDim S2x2 ![0, 1] bcast_S1x1_S2x2_0_1 : (⟨S1x1, .f32⟩ : BufTy).Contents (Elt F) → (⟨S2x2, .f32⟩ : BufTy).Contents (Elt F)),
    binary main_v67 main_v59 main_v68 (mulf : (⟨S2x2, .f32⟩ : BufTy).Contents (Elt F) → (⟨S2x2, .f32⟩ : BufTy).Contents (Elt F) → (⟨S2x2, .f32⟩ : BufTy).Contents (Elt F)),
    unary main_v55 main_v69 (broadcastInDim S2x2 ![0, 1] bcast_S1x1_S2x2_0_1 : (⟨S1x1, .f32⟩ : BufTy).Contents (Elt F) → (⟨S2x2, .f32⟩ : BufTy).Contents (Elt F)),
    binary main_v69 main_v61 main_v70 (mulf : (⟨S2x2, .f32⟩ : BufTy).Contents (Elt F) → (⟨S2x2, .f32⟩ : BufTy).Contents (Elt F) → (⟨S2x2, .f32⟩ : BufTy).Contents (Elt F)),
    binary main_v68 main_v70 main_v71 (addf : (⟨S2x2, .f32⟩ : BufTy).Contents (Elt F) → (⟨S2x2, .f32⟩ : BufTy).Contents (Elt F) → (⟨S2x2, .f32⟩ : BufTy).Contents (Elt F)),
    unary main_v66 main_v72 (broadcastInDim S2x1x2 ![0, 2] bcast_S2x2_S2x1x2_0_2 : (⟨S2x2, .f32⟩ : BufTy).Contents (Elt F) → (⟨S2x1x2, .f32⟩ : BufTy).Contents (Elt F)),
    unary main_v71 main_v73 (broadcastInDim S2x1x2 ![0, 2] bcast_S2x2_S2x1x2_0_2 : (⟨S2x2, .f32⟩ : BufTy).Contents (Elt F) → (⟨S2x1x2, .f32⟩ : BufTy).Contents (Elt F)),
    binary main_v72 main_v73 main_v74 ((fun a b => concatenate S2x2x2 1 [⟨S2x1x2, a⟩, ⟨S2x1x2, b⟩] concatenates_S2x1x2_S2x1x2_S2x2x2_d1) : (⟨S2x1x2, .f32⟩ : BufTy).Contents (Elt F) → (⟨S2x1x2, .f32⟩ : BufTy).Contents (Elt F) → (⟨S2x2x2, .f32⟩ : BufTy).Contents (Elt F)),
    reshape main_v74 main_v75 rfl shapeCasts_S2x2x2_S8 ]

theorem valC0W1 (V : Valuation τ sig (Elt F)) :
    after (opsC0W1 (F := F)) V (no_index (Proc.devRef .tc main_v75)) = ryW1Fn (V (Proc.devRef .tc main_v49)) (((extractStridedSlice S1x1 ![0, 1] · slices_S3x9_S1x1_0_1) : (⟨S3x9, .f32⟩ : BufTy).Contents (Elt F) → (⟨S1x1, .f32⟩ : BufTy).Contents (Elt F)) (V (Proc.devRef .tc main_arg1))) := by
  unfold opsC0W1
  after_results_simp
  rfl

noncomputable def wrC0W1 : List (Ref sig .tc) := [main_v50, main_v51, main_v52, main_cst_2, main_v53, main_v54, main_v55, main_v56, main_v57, main_v58, main_v59, main_v60, main_v61, main_v62, main_v63, main_v64, main_v65, main_v66, main_v67, main_v68, main_v69, main_v70, main_v71, main_v72, main_v73, main_v74, main_v75]

theorem subC0W1 : (opsC0W1 : List (HloOp τ sig (Elt F))).Forall fun op => op.bufs ⊆ tcRefs τ sig := by
  unfold opsC0W1
  exact ⟨unary_bufs_sub .., reshape_bufs_sub .., reshape_bufs_sub .., nullary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC0W1 : ∀ op ∈ (opsC0W1 : List (HloOp τ sig (Elt F))), op.fresh = ∅ := by
  unfold opsC0W1
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem keepC0W1 (V : Valuation τ sig (Elt F)) (r : Ref sig .tc) (hr : r ∉ wrC0W1) :
    after (opsC0W1 (F := F)) V (no_index (Proc.devRef .tc r)) = V (Proc.devRef .tc r) :=
  after_of_writes_sub _ V (W := wrC0W1) (by
    unfold opsC0W1 wrC0W1
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))⟩) hr

/-! ## Stretch C0W2 (operations 106 … 132, kind ryW2) -/

noncomputable def opsC0W2 : List (HloOp τ sig (Elt F)) :=
  [ unary main_arg1 main_v76 ((extractStridedSlice S1x1 ![0, 2] · slices_S3x9_S1x1_0_2) : (⟨S3x9, .f32⟩ : BufTy).Contents (Elt F) → (⟨S1x1, .f32⟩ : BufTy).Contents (Elt F)),
    reshape main_v76 main_v77 rfl shapeCasts_S1x1_S_,
    reshape main_v75 main_v78 rfl shapeCasts_S8_S1x2x4,
    nullary main_cst_3 (constant S_ .f32 0x3F000000#32),
    binary main_v77 main_cst_3 main_v79 (mulf : (⟨S_, .f32⟩ : BufTy).Contents (Elt F) → (⟨S_, .f32⟩ : BufTy).Contents (Elt F) → (⟨S_, .f32⟩ : BufTy).Contents (Elt F)),
    unary main_v79 main_v80 (Host.cos : (⟨S_, .f32⟩ : BufTy).Contents (Elt F) → (⟨S_, .f32⟩ : BufTy).Contents (Elt F)),
    unary main_v80 main_v81 (broadcastInDim S1x1 ![] bcast_S_S1x1 : (⟨S_, .f32⟩ : BufTy).Contents (Elt F) → (⟨S1x1, .f32⟩ : BufTy).Contents (Elt F)),
    unary main_v79 main_v82 (Host.sin : (⟨S_, .f32⟩ : BufTy).Contents (Elt F) → (⟨S_, .f32⟩ : BufTy).Contents (Elt F)),
    unary main_v82 main_v83 (broadcastInDim S1x1 ![] bcast_S_S1x1 : (⟨S_, .f32⟩ : BufTy).Contents (Elt F) → (⟨S1x1, .f32⟩ : BufTy).Contents (Elt F)),
    unary main_v78 main_v84 ((extractStridedSlice S1x1x4 ![0, 0, 0] · slices_S1x2x4_S1x1x4_0_0_0) : (⟨S1x2x4, .f32⟩ : BufTy).Contents (Elt F) → (⟨S1x1x4, .f32⟩ : BufTy).Contents (Elt F)),
    reshape main_v84 main_v85 rfl shapeCasts_S1x1x4_S1x4,
    unary main_v78 main_v86 ((extractStridedSlice S1x1x4 ![0, 1, 0] · slices_S1x2x4_S1x1x4_0_1_0) : (⟨S1x2x4, .f32⟩ : BufTy).Contents (Elt F) → (⟨S1x1x4, .f32⟩ : BufTy).Contents (Elt F)),
    reshape main_v86 main_v87 rfl shapeCasts_S1x1x4_S1x4,
    unary main_v81 main_v88 (broadcastInDim S1x4 ![0, 1] bcast_S1x1_S1x4_0_1 : (⟨S1x1, .f32⟩ : BufTy).Contents (Elt F) → (⟨S1x4, .f32⟩ : BufTy).Contents (Elt F)),
    binary main_v88 main_v85 main_v89 (mulf : (⟨S1x4, .f32⟩ : BufTy).Contents (Elt F) → (⟨S1x4, .f32⟩ : BufTy).Contents (Elt F) → (⟨S1x4, .f32⟩ : BufTy).Contents (Elt F)),
    unary main_v83 main_v90 (broadcastInDim S1x4 ![0, 1] bcast_S1x1_S1x4_0_1 : (⟨S1x1, .f32⟩ : BufTy).Contents (Elt F) → (⟨S1x4, .f32⟩ : BufTy).Contents (Elt F)),
    binary main_v90 main_v87 main_v91 (mulf : (⟨S1x4, .f32⟩ : BufTy).Contents (Elt F) → (⟨S1x4, .f32⟩ : BufTy).Contents (Elt F) → (⟨S1x4, .f32⟩ : BufTy).Contents (Elt F)),
    binary main_v89 main_v91 main_v92 (subf : (⟨S1x4, .f32⟩ : BufTy).Contents (Elt F) → (⟨S1x4, .f32⟩ : BufTy).Contents (Elt F) → (⟨S1x4, .f32⟩ : BufTy).Contents (Elt F)),
    unary main_v83 main_v93 (broadcastInDim S1x4 ![0, 1] bcast_S1x1_S1x4_0_1 : (⟨S1x1, .f32⟩ : BufTy).Contents (Elt F) → (⟨S1x4, .f32⟩ : BufTy).Contents (Elt F)),
    binary main_v93 main_v85 main_v94 (mulf : (⟨S1x4, .f32⟩ : BufTy).Contents (Elt F) → (⟨S1x4, .f32⟩ : BufTy).Contents (Elt F) → (⟨S1x4, .f32⟩ : BufTy).Contents (Elt F)),
    unary main_v81 main_v95 (broadcastInDim S1x4 ![0, 1] bcast_S1x1_S1x4_0_1 : (⟨S1x1, .f32⟩ : BufTy).Contents (Elt F) → (⟨S1x4, .f32⟩ : BufTy).Contents (Elt F)),
    binary main_v95 main_v87 main_v96 (mulf : (⟨S1x4, .f32⟩ : BufTy).Contents (Elt F) → (⟨S1x4, .f32⟩ : BufTy).Contents (Elt F) → (⟨S1x4, .f32⟩ : BufTy).Contents (Elt F)),
    binary main_v94 main_v96 main_v97 (addf : (⟨S1x4, .f32⟩ : BufTy).Contents (Elt F) → (⟨S1x4, .f32⟩ : BufTy).Contents (Elt F) → (⟨S1x4, .f32⟩ : BufTy).Contents (Elt F)),
    unary main_v92 main_v98 (broadcastInDim S1x1x4 ![0, 2] bcast_S1x4_S1x1x4_0_2 : (⟨S1x4, .f32⟩ : BufTy).Contents (Elt F) → (⟨S1x1x4, .f32⟩ : BufTy).Contents (Elt F)),
    unary main_v97 main_v99 (broadcastInDim S1x1x4 ![0, 2] bcast_S1x4_S1x1x4_0_2 : (⟨S1x4, .f32⟩ : BufTy).Contents (Elt F) → (⟨S1x1x4, .f32⟩ : BufTy).Contents (Elt F)),
    binary main_v98 main_v99 main_v100 ((fun a b => concatenate S1x2x4 1 [⟨S1x1x4, a⟩, ⟨S1x1x4, b⟩] concatenates_S1x1x4_S1x1x4_S1x2x4_d1) : (⟨S1x1x4, .f32⟩ : BufTy).Contents (Elt F) → (⟨S1x1x4, .f32⟩ : BufTy).Contents (Elt F) → (⟨S1x2x4, .f32⟩ : BufTy).Contents (Elt F)),
    reshape main_v100 main_v101 rfl shapeCasts_S1x2x4_S8 ]

theorem valC0W2 (V : Valuation τ sig (Elt F)) :
    after (opsC0W2 (F := F)) V (no_index (Proc.devRef .tc main_v101)) = ryW2Fn (V (Proc.devRef .tc main_v75)) (((extractStridedSlice S1x1 ![0, 2] · slices_S3x9_S1x1_0_2) : (⟨S3x9, .f32⟩ : BufTy).Contents (Elt F) → (⟨S1x1, .f32⟩ : BufTy).Contents (Elt F)) (V (Proc.devRef .tc main_arg1))) := by
  unfold opsC0W2
  after_results_simp
  rfl

noncomputable def wrC0W2 : List (Ref sig .tc) := [main_v76, main_v77, main_v78, main_cst_3, main_v79, main_v80, main_v81, main_v82, main_v83, main_v84, main_v85, main_v86, main_v87, main_v88, main_v89, main_v90, main_v91, main_v92, main_v93, main_v94, main_v95, main_v96, main_v97, main_v98, main_v99, main_v100, main_v101]

theorem subC0W2 : (opsC0W2 : List (HloOp τ sig (Elt F))).Forall fun op => op.bufs ⊆ tcRefs τ sig := by
  unfold opsC0W2
  exact ⟨unary_bufs_sub .., reshape_bufs_sub .., reshape_bufs_sub .., nullary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC0W2 : ∀ op ∈ (opsC0W2 : List (HloOp τ sig (Elt F))), op.fresh = ∅ := by
  unfold opsC0W2
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem keepC0W2 (V : Valuation τ sig (Elt F)) (r : Ref sig .tc) (hr : r ∉ wrC0W2) :
    after (opsC0W2 (F := F)) V (no_index (Proc.devRef .tc r)) = V (Proc.devRef .tc r) :=
  after_of_writes_sub _ V (W := wrC0W2) (by
    unfold opsC0W2 wrC0W2
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))⟩) hr

/-! ## Stretch C0W3 (operations 133 … 159, kind ryW0) -/

noncomputable def opsC0W3 : List (HloOp τ sig (Elt F)) :=
  [ unary main_arg1 main_v102 ((extractStridedSlice S1x1 ![0, 3] · slices_S3x9_S1x1_0_3) : (⟨S3x9, .f32⟩ : BufTy).Contents (Elt F) → (⟨S1x1, .f32⟩ : BufTy).Contents (Elt F)),
    reshape main_v102 main_v103 rfl shapeCasts_S1x1_S_,
    reshape main_v101 main_v104 rfl shapeCasts_S8_S4x2x1,
    nullary main_cst_4 (constant S_ .f32 0x3F000000#32),
    binary main_v103 main_cst_4 main_v105 (mulf : (⟨S_, .f32⟩ : BufTy).Contents (Elt F) → (⟨S_, .f32⟩ : BufTy).Contents (Elt F) → (⟨S_, .f32⟩ : BufTy).Contents (Elt F)),
    unary main_v105 main_v106 (Host.cos : (⟨S_, .f32⟩ : BufTy).Contents (Elt F) → (⟨S_, .f32⟩ : BufTy).Contents (Elt F)),
    unary main_v106 main_v107 (broadcastInDim S1x1 ![] bcast_S_S1x1 : (⟨S_, .f32⟩ : BufTy).Contents (Elt F) → (⟨S1x1, .f32⟩ : BufTy).Contents (Elt F)),
    unary main_v105 main_v108 (Host.sin : (⟨S_, .f32⟩ : BufTy).Contents (Elt F) → (⟨S_, .f32⟩ : BufTy).Contents (Elt F)),
    unary main_v108 main_v109 (broadcastInDim S1x1 ![] bcast_S_S1x1 : (⟨S_, .f32⟩ : BufTy).Contents (Elt F) → (⟨S1x1, .f32⟩ : BufTy).Contents (Elt F)),
    unary main_v104 main_v110 ((extractStridedSlice S4x1x1 ![0, 0, 0] · slices_S4x2x1_S4x1x1_0_0_0) : (⟨S4x2x1, .f32⟩ : BufTy).Contents (Elt F) → (⟨S4x1x1, .f32⟩ : BufTy).Contents (Elt F)),
    reshape main_v110 main_v111 rfl shapeCasts_S4x1x1_S4x1,
    unary main_v104 main_v112 ((extractStridedSlice S4x1x1 ![0, 1, 0] · slices_S4x2x1_S4x1x1_0_1_0) : (⟨S4x2x1, .f32⟩ : BufTy).Contents (Elt F) → (⟨S4x1x1, .f32⟩ : BufTy).Contents (Elt F)),
    reshape main_v112 main_v113 rfl shapeCasts_S4x1x1_S4x1,
    unary main_v107 main_v114 (broadcastInDim S4x1 ![0, 1] bcast_S1x1_S4x1_0_1 : (⟨S1x1, .f32⟩ : BufTy).Contents (Elt F) → (⟨S4x1, .f32⟩ : BufTy).Contents (Elt F)),
    binary main_v114 main_v111 main_v115 (mulf : (⟨S4x1, .f32⟩ : BufTy).Contents (Elt F) → (⟨S4x1, .f32⟩ : BufTy).Contents (Elt F) → (⟨S4x1, .f32⟩ : BufTy).Contents (Elt F)),
    unary main_v109 main_v116 (broadcastInDim S4x1 ![0, 1] bcast_S1x1_S4x1_0_1 : (⟨S1x1, .f32⟩ : BufTy).Contents (Elt F) → (⟨S4x1, .f32⟩ : BufTy).Contents (Elt F)),
    binary main_v116 main_v113 main_v117 (mulf : (⟨S4x1, .f32⟩ : BufTy).Contents (Elt F) → (⟨S4x1, .f32⟩ : BufTy).Contents (Elt F) → (⟨S4x1, .f32⟩ : BufTy).Contents (Elt F)),
    binary main_v115 main_v117 main_v118 (subf : (⟨S4x1, .f32⟩ : BufTy).Contents (Elt F) → (⟨S4x1, .f32⟩ : BufTy).Contents (Elt F) → (⟨S4x1, .f32⟩ : BufTy).Contents (Elt F)),
    unary main_v109 main_v119 (broadcastInDim S4x1 ![0, 1] bcast_S1x1_S4x1_0_1 : (⟨S1x1, .f32⟩ : BufTy).Contents (Elt F) → (⟨S4x1, .f32⟩ : BufTy).Contents (Elt F)),
    binary main_v119 main_v111 main_v120 (mulf : (⟨S4x1, .f32⟩ : BufTy).Contents (Elt F) → (⟨S4x1, .f32⟩ : BufTy).Contents (Elt F) → (⟨S4x1, .f32⟩ : BufTy).Contents (Elt F)),
    unary main_v107 main_v121 (broadcastInDim S4x1 ![0, 1] bcast_S1x1_S4x1_0_1 : (⟨S1x1, .f32⟩ : BufTy).Contents (Elt F) → (⟨S4x1, .f32⟩ : BufTy).Contents (Elt F)),
    binary main_v121 main_v113 main_v122 (mulf : (⟨S4x1, .f32⟩ : BufTy).Contents (Elt F) → (⟨S4x1, .f32⟩ : BufTy).Contents (Elt F) → (⟨S4x1, .f32⟩ : BufTy).Contents (Elt F)),
    binary main_v120 main_v122 main_v123 (addf : (⟨S4x1, .f32⟩ : BufTy).Contents (Elt F) → (⟨S4x1, .f32⟩ : BufTy).Contents (Elt F) → (⟨S4x1, .f32⟩ : BufTy).Contents (Elt F)),
    unary main_v118 main_v124 (broadcastInDim S4x1x1 ![0, 2] bcast_S4x1_S4x1x1_0_2 : (⟨S4x1, .f32⟩ : BufTy).Contents (Elt F) → (⟨S4x1x1, .f32⟩ : BufTy).Contents (Elt F)),
    unary main_v123 main_v125 (broadcastInDim S4x1x1 ![0, 2] bcast_S4x1_S4x1x1_0_2 : (⟨S4x1, .f32⟩ : BufTy).Contents (Elt F) → (⟨S4x1x1, .f32⟩ : BufTy).Contents (Elt F)),
    binary main_v124 main_v125 main_v126 ((fun a b => concatenate S4x2x1 1 [⟨S4x1x1, a⟩, ⟨S4x1x1, b⟩] concatenates_S4x1x1_S4x1x1_S4x2x1_d1) : (⟨S4x1x1, .f32⟩ : BufTy).Contents (Elt F) → (⟨S4x1x1, .f32⟩ : BufTy).Contents (Elt F) → (⟨S4x2x1, .f32⟩ : BufTy).Contents (Elt F)),
    reshape main_v126 main_v127 rfl shapeCasts_S4x2x1_S8 ]

theorem valC0W3 (V : Valuation τ sig (Elt F)) :
    after (opsC0W3 (F := F)) V (no_index (Proc.devRef .tc main_v127)) = ryW0Fn (V (Proc.devRef .tc main_v101)) (((extractStridedSlice S1x1 ![0, 3] · slices_S3x9_S1x1_0_3) : (⟨S3x9, .f32⟩ : BufTy).Contents (Elt F) → (⟨S1x1, .f32⟩ : BufTy).Contents (Elt F)) (V (Proc.devRef .tc main_arg1))) := by
  unfold opsC0W3
  after_results_simp
  rfl

noncomputable def wrC0W3 : List (Ref sig .tc) := [main_v102, main_v103, main_v104, main_cst_4, main_v105, main_v106, main_v107, main_v108, main_v109, main_v110, main_v111, main_v112, main_v113, main_v114, main_v115, main_v116, main_v117, main_v118, main_v119, main_v120, main_v121, main_v122, main_v123, main_v124, main_v125, main_v126, main_v127]

theorem subC0W3 : (opsC0W3 : List (HloOp τ sig (Elt F))).Forall fun op => op.bufs ⊆ tcRefs τ sig := by
  unfold opsC0W3
  exact ⟨unary_bufs_sub .., reshape_bufs_sub .., reshape_bufs_sub .., nullary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC0W3 : ∀ op ∈ (opsC0W3 : List (HloOp τ sig (Elt F))), op.fresh = ∅ := by
  unfold opsC0W3
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem keepC0W3 (V : Valuation τ sig (Elt F)) (r : Ref sig .tc) (hr : r ∉ wrC0W3) :
    after (opsC0W3 (F := F)) V (no_index (Proc.devRef .tc r)) = V (Proc.devRef .tc r) :=
  after_of_writes_sub _ V (W := wrC0W3) (by
    unfold opsC0W3 wrC0W3
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))⟩) hr

/-! ## Stretch C0W4 (operations 160 … 186, kind ryW1) -/

noncomputable def opsC0W4 : List (HloOp τ sig (Elt F)) :=
  [ unary main_arg1 main_v128 ((extractStridedSlice S1x1 ![0, 4] · slices_S3x9_S1x1_0_4) : (⟨S3x9, .f32⟩ : BufTy).Contents (Elt F) → (⟨S1x1, .f32⟩ : BufTy).Contents (Elt F)),
    reshape main_v128 main_v129 rfl shapeCasts_S1x1_S_,
    reshape main_v127 main_v130 rfl shapeCasts_S8_S2x2x2,
    nullary main_cst_5 (constant S_ .f32 0x3F000000#32),
    binary main_v129 main_cst_5 main_v131 (mulf : (⟨S_, .f32⟩ : BufTy).Contents (Elt F) → (⟨S_, .f32⟩ : BufTy).Contents (Elt F) → (⟨S_, .f32⟩ : BufTy).Contents (Elt F)),
    unary main_v131 main_v132 (Host.cos : (⟨S_, .f32⟩ : BufTy).Contents (Elt F) → (⟨S_, .f32⟩ : BufTy).Contents (Elt F)),
    unary main_v132 main_v133 (broadcastInDim S1x1 ![] bcast_S_S1x1 : (⟨S_, .f32⟩ : BufTy).Contents (Elt F) → (⟨S1x1, .f32⟩ : BufTy).Contents (Elt F)),
    unary main_v131 main_v134 (Host.sin : (⟨S_, .f32⟩ : BufTy).Contents (Elt F) → (⟨S_, .f32⟩ : BufTy).Contents (Elt F)),
    unary main_v134 main_v135 (broadcastInDim S1x1 ![] bcast_S_S1x1 : (⟨S_, .f32⟩ : BufTy).Contents (Elt F) → (⟨S1x1, .f32⟩ : BufTy).Contents (Elt F)),
    unary main_v130 main_v136 ((extractStridedSlice S2x1x2 ![0, 0, 0] · slices_S2x2x2_S2x1x2_0_0_0) : (⟨S2x2x2, .f32⟩ : BufTy).Contents (Elt F) → (⟨S2x1x2, .f32⟩ : BufTy).Contents (Elt F)),
    reshape main_v136 main_v137 rfl shapeCasts_S2x1x2_S2x2,
    unary main_v130 main_v138 ((extractStridedSlice S2x1x2 ![0, 1, 0] · slices_S2x2x2_S2x1x2_0_1_0) : (⟨S2x2x2, .f32⟩ : BufTy).Contents (Elt F) → (⟨S2x1x2, .f32⟩ : BufTy).Contents (Elt F)),
    reshape main_v138 main_v139 rfl shapeCasts_S2x1x2_S2x2,
    unary main_v133 main_v140 (broadcastInDim S2x2 ![0, 1] bcast_S1x1_S2x2_0_1 : (⟨S1x1, .f32⟩ : BufTy).Contents (Elt F) → (⟨S2x2, .f32⟩ : BufTy).Contents (Elt F)),
    binary main_v140 main_v137 main_v141 (mulf : (⟨S2x2, .f32⟩ : BufTy).Contents (Elt F) → (⟨S2x2, .f32⟩ : BufTy).Contents (Elt F) → (⟨S2x2, .f32⟩ : BufTy).Contents (Elt F)),
    unary main_v135 main_v142 (broadcastInDim S2x2 ![0, 1] bcast_S1x1_S2x2_0_1 : (⟨S1x1, .f32⟩ : BufTy).Contents (Elt F) → (⟨S2x2, .f32⟩ : BufTy).Contents (Elt F)),
    binary main_v142 main_v139 main_v143 (mulf : (⟨S2x2, .f32⟩ : BufTy).Contents (Elt F) → (⟨S2x2, .f32⟩ : BufTy).Contents (Elt F) → (⟨S2x2, .f32⟩ : BufTy).Contents (Elt F)),
    binary main_v141 main_v143 main_v144 (subf : (⟨S2x2, .f32⟩ : BufTy).Contents (Elt F) → (⟨S2x2, .f32⟩ : BufTy).Contents (Elt F) → (⟨S2x2, .f32⟩ : BufTy).Contents (Elt F)),
    unary main_v135 main_v145 (broadcastInDim S2x2 ![0, 1] bcast_S1x1_S2x2_0_1 : (⟨S1x1, .f32⟩ : BufTy).Contents (Elt F) → (⟨S2x2, .f32⟩ : BufTy).Contents (Elt F)),
    binary main_v145 main_v137 main_v146 (mulf : (⟨S2x2, .f32⟩ : BufTy).Contents (Elt F) → (⟨S2x2, .f32⟩ : BufTy).Contents (Elt F) → (⟨S2x2, .f32⟩ : BufTy).Contents (Elt F)),
    unary main_v133 main_v147 (broadcastInDim S2x2 ![0, 1] bcast_S1x1_S2x2_0_1 : (⟨S1x1, .f32⟩ : BufTy).Contents (Elt F) → (⟨S2x2, .f32⟩ : BufTy).Contents (Elt F)),
    binary main_v147 main_v139 main_v148 (mulf : (⟨S2x2, .f32⟩ : BufTy).Contents (Elt F) → (⟨S2x2, .f32⟩ : BufTy).Contents (Elt F) → (⟨S2x2, .f32⟩ : BufTy).Contents (Elt F)),
    binary main_v146 main_v148 main_v149 (addf : (⟨S2x2, .f32⟩ : BufTy).Contents (Elt F) → (⟨S2x2, .f32⟩ : BufTy).Contents (Elt F) → (⟨S2x2, .f32⟩ : BufTy).Contents (Elt F)),
    unary main_v144 main_v150 (broadcastInDim S2x1x2 ![0, 2] bcast_S2x2_S2x1x2_0_2 : (⟨S2x2, .f32⟩ : BufTy).Contents (Elt F) → (⟨S2x1x2, .f32⟩ : BufTy).Contents (Elt F)),
    unary main_v149 main_v151 (broadcastInDim S2x1x2 ![0, 2] bcast_S2x2_S2x1x2_0_2 : (⟨S2x2, .f32⟩ : BufTy).Contents (Elt F) → (⟨S2x1x2, .f32⟩ : BufTy).Contents (Elt F)),
    binary main_v150 main_v151 main_v152 ((fun a b => concatenate S2x2x2 1 [⟨S2x1x2, a⟩, ⟨S2x1x2, b⟩] concatenates_S2x1x2_S2x1x2_S2x2x2_d1) : (⟨S2x1x2, .f32⟩ : BufTy).Contents (Elt F) → (⟨S2x1x2, .f32⟩ : BufTy).Contents (Elt F) → (⟨S2x2x2, .f32⟩ : BufTy).Contents (Elt F)),
    reshape main_v152 main_v153 rfl shapeCasts_S2x2x2_S8 ]

theorem valC0W4 (V : Valuation τ sig (Elt F)) :
    after (opsC0W4 (F := F)) V (no_index (Proc.devRef .tc main_v153)) = ryW1Fn (V (Proc.devRef .tc main_v127)) (((extractStridedSlice S1x1 ![0, 4] · slices_S3x9_S1x1_0_4) : (⟨S3x9, .f32⟩ : BufTy).Contents (Elt F) → (⟨S1x1, .f32⟩ : BufTy).Contents (Elt F)) (V (Proc.devRef .tc main_arg1))) := by
  unfold opsC0W4
  after_results_simp
  rfl

noncomputable def wrC0W4 : List (Ref sig .tc) := [main_v128, main_v129, main_v130, main_cst_5, main_v131, main_v132, main_v133, main_v134, main_v135, main_v136, main_v137, main_v138, main_v139, main_v140, main_v141, main_v142, main_v143, main_v144, main_v145, main_v146, main_v147, main_v148, main_v149, main_v150, main_v151, main_v152, main_v153]

theorem subC0W4 : (opsC0W4 : List (HloOp τ sig (Elt F))).Forall fun op => op.bufs ⊆ tcRefs τ sig := by
  unfold opsC0W4
  exact ⟨unary_bufs_sub .., reshape_bufs_sub .., reshape_bufs_sub .., nullary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC0W4 : ∀ op ∈ (opsC0W4 : List (HloOp τ sig (Elt F))), op.fresh = ∅ := by
  unfold opsC0W4
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem keepC0W4 (V : Valuation τ sig (Elt F)) (r : Ref sig .tc) (hr : r ∉ wrC0W4) :
    after (opsC0W4 (F := F)) V (no_index (Proc.devRef .tc r)) = V (Proc.devRef .tc r) :=
  after_of_writes_sub _ V (W := wrC0W4) (by
    unfold opsC0W4 wrC0W4
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))⟩) hr

end Cert.Quanv.Ref

end
-- ==== Proof.RefOps.C0B.lean ====
/- TABLE written by: bun scratch/gen_ref.js <unit> ops — stretches C0W5, C0W6, C0W7, C0W8, C0WX01, C0WX12 of the reference's host program: per stretch the list of its operations, what it leaves
   in its result buffer as the kind's function of what it reads, and that it writes nothing else. -/
import proofs.«180459_j52956946760354_2_alg».proof.Proof.RefFns
import Idealize.ShloMosaic.Lib.StableHlo.Run

noncomputable section

namespace Cert.Quanv.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-! ## Stretch C0W5 (operations 187 … 213, kind ryW2) -/

noncomputable def opsC0W5 : List (HloOp τ sig (Elt F)) :=
  [ unary main_arg1 main_v154 ((extractStridedSlice S1x1 ![0, 5] · slices_S3x9_S1x1_0_5) : (⟨S3x9, .f32⟩ : BufTy).Contents (Elt F) → (⟨S1x1, .f32⟩ : BufTy).Contents (Elt F)),
    reshape main_v154 main_v155 rfl shapeCasts_S1x1_S_,
    reshape main_v153 main_v156 rfl shapeCasts_S8_S1x2x4,
    nullary main_cst_6 (constant S_ .f32 0x3F000000#32),
    binary main_v155 main_cst_6 main_v157 (mulf : (⟨S_, .f32⟩ : BufTy).Contents (Elt F) → (⟨S_, .f32⟩ : BufTy).Contents (Elt F) → (⟨S_, .f32⟩ : BufTy).Contents (Elt F)),
    unary main_v157 main_v158 (Host.cos : (⟨S_, .f32⟩ : BufTy).Contents (Elt F) → (⟨S_, .f32⟩ : BufTy).Contents (Elt F)),
    unary main_v158 main_v159 (broadcastInDim S1x1 ![] bcast_S_S1x1 : (⟨S_, .f32⟩ : BufTy).Contents (Elt F) → (⟨S1x1, .f32⟩ : BufTy).Contents (Elt F)),
    unary main_v157 main_v160 (Host.sin : (⟨S_, .f32⟩ : BufTy).Contents (Elt F) → (⟨S_, .f32⟩ : BufTy).Contents (Elt F)),
    unary main_v160 main_v161 (broadcastInDim S1x1 ![] bcast_S_S1x1 : (⟨S_, .f32⟩ : BufTy).Contents (Elt F) → (⟨S1x1, .f32⟩ : BufTy).Contents (Elt F)),
    unary main_v156 main_v162 ((extractStridedSlice S1x1x4 ![0, 0, 0] · slices_S1x2x4_S1x1x4_0_0_0) : (⟨S1x2x4, .f32⟩ : BufTy).Contents (Elt F) → (⟨S1x1x4, .f32⟩ : BufTy).Contents (Elt F)),
    reshape main_v162 main_v163 rfl shapeCasts_S1x1x4_S1x4,
    unary main_v156 main_v164 ((extractStridedSlice S1x1x4 ![0, 1, 0] · slices_S1x2x4_S1x1x4_0_1_0) : (⟨S1x2x4, .f32⟩ : BufTy).Contents (Elt F) → (⟨S1x1x4, .f32⟩ : BufTy).Contents (Elt F)),
    reshape main_v164 main_v165 rfl shapeCasts_S1x1x4_S1x4,
    unary main_v159 main_v166 (broadcastInDim S1x4 ![0, 1] bcast_S1x1_S1x4_0_1 : (⟨S1x1, .f32⟩ : BufTy).Contents (Elt F) → (⟨S1x4, .f32⟩ : BufTy).Contents (Elt F)),
    binary main_v166 main_v163 main_v167 (mulf : (⟨S1x4, .f32⟩ : BufTy).Contents (Elt F) → (⟨S1x4, .f32⟩ : BufTy).Contents (Elt F) → (⟨S1x4, .f32⟩ : BufTy).Contents (Elt F)),
    unary main_v161 main_v168 (broadcastInDim S1x4 ![0, 1] bcast_S1x1_S1x4_0_1 : (⟨S1x1, .f32⟩ : BufTy).Contents (Elt F) → (⟨S1x4, .f32⟩ : BufTy).Contents (Elt F)),
    binary main_v168 main_v165 main_v169 (mulf : (⟨S1x4, .f32⟩ : BufTy).Contents (Elt F) → (⟨S1x4, .f32⟩ : BufTy).Contents (Elt F) → (⟨S1x4, .f32⟩ : BufTy).Contents (Elt F)),
    binary main_v167 main_v169 main_v170 (subf : (⟨S1x4, .f32⟩ : BufTy).Contents (Elt F) → (⟨S1x4, .f32⟩ : BufTy).Contents (Elt F) → (⟨S1x4, .f32⟩ : BufTy).Contents (Elt F)),
    unary main_v161 main_v171 (broadcastInDim S1x4 ![0, 1] bcast_S1x1_S1x4_0_1 : (⟨S1x1, .f32⟩ : BufTy).Contents (Elt F) → (⟨S1x4, .f32⟩ : BufTy).Contents (Elt F)),
    binary main_v171 main_v163 main_v172 (mulf : (⟨S1x4, .f32⟩ : BufTy).Contents (Elt F) → (⟨S1x4, .f32⟩ : BufTy).Contents (Elt F) → (⟨S1x4, .f32⟩ : BufTy).Contents (Elt F)),
    unary main_v159 main_v173 (broadcastInDim S1x4 ![0, 1] bcast_S1x1_S1x4_0_1 : (⟨S1x1, .f32⟩ : BufTy).Contents (Elt F) → (⟨S1x4, .f32⟩ : BufTy).Contents (Elt F)),
    binary main_v173 main_v165 main_v174 (mulf : (⟨S1x4, .f32⟩ : BufTy).Contents (Elt F) → (⟨S1x4, .f32⟩ : BufTy).Contents (Elt F) → (⟨S1x4, .f32⟩ : BufTy).Contents (Elt F)),
    binary main_v172 main_v174 main_v175 (addf : (⟨S1x4, .f32⟩ : BufTy).Contents (Elt F) → (⟨S1x4, .f32⟩ : BufTy).Contents (Elt F) → (⟨S1x4, .f32⟩ : BufTy).Contents (Elt F)),
    unary main_v170 main_v176 (broadcastInDim S1x1x4 ![0, 2] bcast_S1x4_S1x1x4_0_2 : (⟨S1x4, .f32⟩ : BufTy).Contents (Elt F) → (⟨S1x1x4, .f32⟩ : BufTy).Contents (Elt F)),
    unary main_v175 main_v177 (broadcastInDim S1x1x4 ![0, 2] bcast_S1x4_S1x1x4_0_2 : (⟨S1x4, .f32⟩ : BufTy).Contents (Elt F) → (⟨S1x1x4, .f32⟩ : BufTy).Contents (Elt F)),
    binary main_v176 main_v177 main_v178 ((fun a b => concatenate S1x2x4 1 [⟨S1x1x4, a⟩, ⟨S1x1x4, b⟩] concatenates_S1x1x4_S1x1x4_S1x2x4_d1) : (⟨S1x1x4, .f32⟩ : BufTy).Contents (Elt F) → (⟨S1x1x4, .f32⟩ : BufTy).Contents (Elt F) → (⟨S1x2x4, .f32⟩ : BufTy).Contents (Elt F)),
    reshape main_v178 main_v179 rfl shapeCasts_S1x2x4_S8 ]

theorem valC0W5 (V : Valuation τ sig (Elt F)) :
    after (opsC0W5 (F := F)) V (no_index (Proc.devRef .tc main_v179)) = ryW2Fn (V (Proc.devRef .tc main_v153)) (((extractStridedSlice S1x1 ![0, 5] · slices_S3x9_S1x1_0_5) : (⟨S3x9, .f32⟩ : BufTy).Contents (Elt F) → (⟨S1x1, .f32⟩ : BufTy).Contents (Elt F)) (V (Proc.devRef .tc main_arg1))) := by
  unfold opsC0W5
  after_results_simp
  rfl

noncomputable def wrC0W5 : List (Ref sig .tc) := [main_v154, main_v155, main_v156, main_cst_6, main_v157, main_v158, main_v159, main_v160, main_v161, main_v162, main_v163, main_v164, main_v165, main_v166, main_v167, main_v168, main_v169, main_v170, main_v171, main_v172, main_v173, main_v174, main_v175, main_v176, main_v177, main_v178, main_v179]

theorem subC0W5 : (opsC0W5 : List (HloOp τ sig (Elt F))).Forall fun op => op.bufs ⊆ tcRefs τ sig := by
  unfold opsC0W5
  exact ⟨unary_bufs_sub .., reshape_bufs_sub .., reshape_bufs_sub .., nullary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC0W5 : ∀ op ∈ (opsC0W5 : List (HloOp τ sig (Elt F))), op.fresh = ∅ := by
  unfold opsC0W5
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem keepC0W5 (V : Valuation τ sig (Elt F)) (r : Ref sig .tc) (hr : r ∉ wrC0W5) :
    after (opsC0W5 (F := F)) V (no_index (Proc.devRef .tc r)) = V (Proc.devRef .tc r) :=
  after_of_writes_sub _ V (W := wrC0W5) (by
    unfold opsC0W5 wrC0W5
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))⟩) hr

/-! ## Stretch C0W6 (operations 214 … 240, kind ryW0) -/

noncomputable def opsC0W6 : List (HloOp τ sig (Elt F)) :=
  [ unary main_arg1 main_v180 ((extractStridedSlice S1x1 ![0, 6] · slices_S3x9_S1x1_0_6) : (⟨S3x9, .f32⟩ : BufTy).Contents (Elt F) → (⟨S1x1, .f32⟩ : BufTy).Contents (Elt F)),
    reshape main_v180 main_v181 rfl shapeCasts_S1x1_S_,
    reshape main_v179 main_v182 rfl shapeCasts_S8_S4x2x1,
    nullary main_cst_7 (constant S_ .f32 0x3F000000#32),
    binary main_v181 main_cst_7 main_v183 (mulf : (⟨S_, .f32⟩ : BufTy).Contents (Elt F) → (⟨S_, .f32⟩ : BufTy).Contents (Elt F) → (⟨S_, .f32⟩ : BufTy).Contents (Elt F)),
    unary main_v183 main_v184 (Host.cos : (⟨S_, .f32⟩ : BufTy).Contents (Elt F) → (⟨S_, .f32⟩ : BufTy).Contents (Elt F)),
    unary main_v184 main_v185 (broadcastInDim S1x1 ![] bcast_S_S1x1 : (⟨S_, .f32⟩ : BufTy).Contents (Elt F) → (⟨S1x1, .f32⟩ : BufTy).Contents (Elt F)),
    unary main_v183 main_v186 (Host.sin : (⟨S_, .f32⟩ : BufTy).Contents (Elt F) → (⟨S_, .f32⟩ : BufTy).Contents (Elt F)),
    unary main_v186 main_v187 (broadcastInDim S1x1 ![] bcast_S_S1x1 : (⟨S_, .f32⟩ : BufTy).Contents (Elt F) → (⟨S1x1, .f32⟩ : BufTy).Contents (Elt F)),
    unary main_v182 main_v188 ((extractStridedSlice S4x1x1 ![0, 0, 0] · slices_S4x2x1_S4x1x1_0_0_0) : (⟨S4x2x1, .f32⟩ : BufTy).Contents (Elt F) → (⟨S4x1x1, .f32⟩ : BufTy).Contents (Elt F)),
    reshape main_v188 main_v189 rfl shapeCasts_S4x1x1_S4x1,
    unary main_v182 main_v190 ((extractStridedSlice S4x1x1 ![0, 1, 0] · slices_S4x2x1_S4x1x1_0_1_0) : (⟨S4x2x1, .f32⟩ : BufTy).Contents (Elt F) → (⟨S4x1x1, .f32⟩ : BufTy).Contents (Elt F)),
    reshape main_v190 main_v191 rfl shapeCasts_S4x1x1_S4x1,
    unary main_v185 main_v192 (broadcastInDim S4x1 ![0, 1] bcast_S1x1_S4x1_0_1 : (⟨S1x1, .f32⟩ : BufTy).Contents (Elt F) → (⟨S4x1, .f32⟩ : BufTy).Contents (Elt F)),
    binary main_v192 main_v189 main_v193 (mulf : (⟨S4x1, .f32⟩ : BufTy).Contents (Elt F) → (⟨S4x1, .f32⟩ : BufTy).Contents (Elt F) → (⟨S4x1, .f32⟩ : BufTy).Contents (Elt F)),
    unary main_v187 main_v194 (broadcastInDim S4x1 ![0, 1] bcast_S1x1_S4x1_0_1 : (⟨S1x1, .f32⟩ : BufTy).Contents (Elt F) → (⟨S4x1, .f32⟩ : BufTy).Contents (Elt F)),
    binary main_v194 main_v191 main_v195 (mulf : (⟨S4x1, .f32⟩ : BufTy).Contents (Elt F) → (⟨S4x1, .f32⟩ : BufTy).Contents (Elt F) → (⟨S4x1, .f32⟩ : BufTy).Contents (Elt F)),
    binary main_v193 main_v195 main_v196 (subf : (⟨S4x1, .f32⟩ : BufTy).Contents (Elt F) → (⟨S4x1, .f32⟩ : BufTy).Contents (Elt F) → (⟨S4x1, .f32⟩ : BufTy).Contents (Elt F)),
    unary main_v187 main_v197 (broadcastInDim S4x1 ![0, 1] bcast_S1x1_S4x1_0_1 : (⟨S1x1, .f32⟩ : BufTy).Contents (Elt F) → (⟨S4x1, .f32⟩ : BufTy).Contents (Elt F)),
    binary main_v197 main_v189 main_v198 (mulf : (⟨S4x1, .f32⟩ : BufTy).Contents (Elt F) → (⟨S4x1, .f32⟩ : BufTy).Contents (Elt F) → (⟨S4x1, .f32⟩ : BufTy).Contents (Elt F)),
    unary main_v185 main_v199 (broadcastInDim S4x1 ![0, 1] bcast_S1x1_S4x1_0_1 : (⟨S1x1, .f32⟩ : BufTy).Contents (Elt F) → (⟨S4x1, .f32⟩ : BufTy).Contents (Elt F)),
    binary main_v199 main_v191 main_v200 (mulf : (⟨S4x1, .f32⟩ : BufTy).Contents (Elt F) → (⟨S4x1, .f32⟩ : BufTy).Contents (Elt F) → (⟨S4x1, .f32⟩ : BufTy).Contents (Elt F)),
    binary main_v198 main_v200 main_v201 (addf : (⟨S4x1, .f32⟩ : BufTy).Contents (Elt F) → (⟨S4x1, .f32⟩ : BufTy).Contents (Elt F) → (⟨S4x1, .f32⟩ : BufTy).Contents (Elt F)),
    unary main_v196 main_v202 (broadcastInDim S4x1x1 ![0, 2] bcast_S4x1_S4x1x1_0_2 : (⟨S4x1, .f32⟩ : BufTy).Contents (Elt F) → (⟨S4x1x1, .f32⟩ : BufTy).Contents (Elt F)),
    unary main_v201 main_v203 (broadcastInDim S4x1x1 ![0, 2] bcast_S4x1_S4x1x1_0_2 : (⟨S4x1, .f32⟩ : BufTy).Contents (Elt F) → (⟨S4x1x1, .f32⟩ : BufTy).Contents (Elt F)),
    binary main_v202 main_v203 main_v204 ((fun a b => concatenate S4x2x1 1 [⟨S4x1x1, a⟩, ⟨S4x1x1, b⟩] concatenates_S4x1x1_S4x1x1_S4x2x1_d1) : (⟨S4x1x1, .f32⟩ : BufTy).Contents (Elt F) → (⟨S4x1x1, .f32⟩ : BufTy).Contents (Elt F) → (⟨S4x2x1, .f32⟩ : BufTy).Contents (Elt F)),
    reshape main_v204 main_v205 rfl shapeCasts_S4x2x1_S8 ]

theorem valC0W6 (V : Valuation τ sig (Elt F)) :
    after (opsC0W6 (F := F)) V (no_index (Proc.devRef .tc main_v205)) = ryW0Fn (V (Proc.devRef .tc main_v179)) (((extractStridedSlice S1x1 ![0, 6] · slices_S3x9_S1x1_0_6) : (⟨S3x9, .f32⟩ : BufTy).Contents (Elt F) → (⟨S1x1, .f32⟩ : BufTy).Contents (Elt F)) (V (Proc.devRef .tc main_arg1))) := by
  unfold opsC0W6
  after_results_simp
  rfl

noncomputable def wrC0W6 : List (Ref sig .tc) := [main_v180, main_v181, main_v182, main_cst_7, main_v183, main_v184, main_v185, main_v186, main_v187, main_v188, main_v189, main_v190, main_v191, main_v192, main_v193, main_v194, main_v195, main_v196, main_v197, main_v198, main_v199, main_v200, main_v201, main_v202, main_v203, main_v204, main_v205]

theorem subC0W6 : (opsC0W6 : List (HloOp τ sig (Elt F))).Forall fun op => op.bufs ⊆ tcRefs τ sig := by
  unfold opsC0W6
  exact ⟨unary_bufs_sub .., reshape_bufs_sub .., reshape_bufs_sub .., nullary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC0W6 : ∀ op ∈ (opsC0W6 : List (HloOp τ sig (Elt F))), op.fresh = ∅ := by
  unfold opsC0W6
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem keepC0W6 (V : Valuation τ sig (Elt F)) (r : Ref sig .tc) (hr : r ∉ wrC0W6) :
    after (opsC0W6 (F := F)) V (no_index (Proc.devRef .tc r)) = V (Proc.devRef .tc r) :=
  after_of_writes_sub _ V (W := wrC0W6) (by
    unfold opsC0W6 wrC0W6
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))⟩) hr

/-! ## Stretch C0W7 (operations 241 … 267, kind ryW1) -/

noncomputable def opsC0W7 : List (HloOp τ sig (Elt F)) :=
  [ unary main_arg1 main_v206 ((extractStridedSlice S1x1 ![0, 7] · slices_S3x9_S1x1_0_7) : (⟨S3x9, .f32⟩ : BufTy).Contents (Elt F) → (⟨S1x1, .f32⟩ : BufTy).Contents (Elt F)),
    reshape main_v206 main_v207 rfl shapeCasts_S1x1_S_,
    reshape main_v205 main_v208 rfl shapeCasts_S8_S2x2x2,
    nullary main_cst_8 (constant S_ .f32 0x3F000000#32),
    binary main_v207 main_cst_8 main_v209 (mulf : (⟨S_, .f32⟩ : BufTy).Contents (Elt F) → (⟨S_, .f32⟩ : BufTy).Contents (Elt F) → (⟨S_, .f32⟩ : BufTy).Contents (Elt F)),
    unary main_v209 main_v210 (Host.cos : (⟨S_, .f32⟩ : BufTy).Contents (Elt F) → (⟨S_, .f32⟩ : BufTy).Contents (Elt F)),
    unary main_v210 main_v211 (broadcastInDim S1x1 ![] bcast_S_S1x1 : (⟨S_, .f32⟩ : BufTy).Contents (Elt F) → (⟨S1x1, .f32⟩ : BufTy).Contents (Elt F)),
    unary main_v209 main_v212 (Host.sin : (⟨S_, .f32⟩ : BufTy).Contents (Elt F) → (⟨S_, .f32⟩ : BufTy).Contents (Elt F)),
    unary main_v212 main_v213 (broadcastInDim S1x1 ![] bcast_S_S1x1 : (⟨S_, .f32⟩ : BufTy).Contents (Elt F) → (⟨S1x1, .f32⟩ : BufTy).Contents (Elt F)),
    unary main_v208 main_v214 ((extractStridedSlice S2x1x2 ![0, 0, 0] · slices_S2x2x2_S2x1x2_0_0_0) : (⟨S2x2x2, .f32⟩ : BufTy).Contents (Elt F) → (⟨S2x1x2, .f32⟩ : BufTy).Contents (Elt F)),
    reshape main_v214 main_v215 rfl shapeCasts_S2x1x2_S2x2,
    unary main_v208 main_v216 ((extractStridedSlice S2x1x2 ![0, 1, 0] · slices_S2x2x2_S2x1x2_0_1_0) : (⟨S2x2x2, .f32⟩ : BufTy).Contents (Elt F) → (⟨S2x1x2, .f32⟩ : BufTy).Contents (Elt F)),
    reshape main_v216 main_v217 rfl shapeCasts_S2x1x2_S2x2,
    unary main_v211 main_v218 (broadcastInDim S2x2 ![0, 1] bcast_S1x1_S2x2_0_1 : (⟨S1x1, .f32⟩ : BufTy).Contents (Elt F) → (⟨S2x2, .f32⟩ : BufTy).Contents (Elt F)),
    binary main_v218 main_v215 main_v219 (mulf : (⟨S2x2, .f32⟩ : BufTy).Contents (Elt F) → (⟨S2x2, .f32⟩ : BufTy).Contents (Elt F) → (⟨S2x2, .f32⟩ : BufTy).Contents (Elt F)),
    unary main_v213 main_v220 (broadcastInDim S2x2 ![0, 1] bcast_S1x1_S2x2_0_1 : (⟨S1x1, .f32⟩ : BufTy).Contents (Elt F) → (⟨S2x2, .f32⟩ : BufTy).Contents (Elt F)),
    binary main_v220 main_v217 main_v221 (mulf : (⟨S2x2, .f32⟩ : BufTy).Contents (Elt F) → (⟨S2x2, .f32⟩ : BufTy).Contents (Elt F) → (⟨S2x2, .f32⟩ : BufTy).Contents (Elt F)),
    binary main_v219 main_v221 main_v222 (subf : (⟨S2x2, .f32⟩ : BufTy).Contents (Elt F) → (⟨S2x2, .f32⟩ : BufTy).Contents (Elt F) → (⟨S2x2, .f32⟩ : BufTy).Contents (Elt F)),
    unary main_v213 main_v223 (broadcastInDim S2x2 ![0, 1] bcast_S1x1_S2x2_0_1 : (⟨S1x1, .f32⟩ : BufTy).Contents (Elt F) → (⟨S2x2, .f32⟩ : BufTy).Contents (Elt F)),
    binary main_v223 main_v215 main_v224 (mulf : (⟨S2x2, .f32⟩ : BufTy).Contents (Elt F) → (⟨S2x2, .f32⟩ : BufTy).Contents (Elt F) → (⟨S2x2, .f32⟩ : BufTy).Contents (Elt F)),
    unary main_v211 main_v225 (broadcastInDim S2x2 ![0, 1] bcast_S1x1_S2x2_0_1 : (⟨S1x1, .f32⟩ : BufTy).Contents (Elt F) → (⟨S2x2, .f32⟩ : BufTy).Contents (Elt F)),
    binary main_v225 main_v217 main_v226 (mulf : (⟨S2x2, .f32⟩ : BufTy).Contents (Elt F) → (⟨S2x2, .f32⟩ : BufTy).Contents (Elt F) → (⟨S2x2, .f32⟩ : BufTy).Contents (Elt F)),
    binary main_v224 main_v226 main_v227 (addf : (⟨S2x2, .f32⟩ : BufTy).Contents (Elt F) → (⟨S2x2, .f32⟩ : BufTy).Contents (Elt F) → (⟨S2x2, .f32⟩ : BufTy).Contents (Elt F)),
    unary main_v222 main_v228 (broadcastInDim S2x1x2 ![0, 2] bcast_S2x2_S2x1x2_0_2 : (⟨S2x2, .f32⟩ : BufTy).Contents (Elt F) → (⟨S2x1x2, .f32⟩ : BufTy).Contents (Elt F)),
    unary main_v227 main_v229 (broadcastInDim S2x1x2 ![0, 2] bcast_S2x2_S2x1x2_0_2 : (⟨S2x2, .f32⟩ : BufTy).Contents (Elt F) → (⟨S2x1x2, .f32⟩ : BufTy).Contents (Elt F)),
    binary main_v228 main_v229 main_v230 ((fun a b => concatenate S2x2x2 1 [⟨S2x1x2, a⟩, ⟨S2x1x2, b⟩] concatenates_S2x1x2_S2x1x2_S2x2x2_d1) : (⟨S2x1x2, .f32⟩ : BufTy).Contents (Elt F) → (⟨S2x1x2, .f32⟩ : BufTy).Contents (Elt F) → (⟨S2x2x2, .f32⟩ : BufTy).Contents (Elt F)),
    reshape main_v230 main_v231 rfl shapeCasts_S2x2x2_S8 ]

theorem valC0W7 (V : Valuation τ sig (Elt F)) :
    after (opsC0W7 (F := F)) V (no_index (Proc.devRef .tc main_v231)) = ryW1Fn (V (Proc.devRef .tc main_v205)) (((extractStridedSlice S1x1 ![0, 7] · slices_S3x9_S1x1_0_7) : (⟨S3x9, .f32⟩ : BufTy).Contents (Elt F) → (⟨S1x1, .f32⟩ : BufTy).Contents (Elt F)) (V (Proc.devRef .tc main_arg1))) := by
  unfold opsC0W7
  after_results_simp
  rfl

noncomputable def wrC0W7 : List (Ref sig .tc) := [main_v206, main_v207, main_v208, main_cst_8, main_v209, main_v210, main_v211, main_v212, main_v213, main_v214, main_v215, main_v216, main_v217, main_v218, main_v219, main_v220, main_v221, main_v222, main_v223, main_v224, main_v225, main_v226, main_v227, main_v228, main_v229, main_v230, main_v231]

theorem subC0W7 : (opsC0W7 : List (HloOp τ sig (Elt F))).Forall fun op => op.bufs ⊆ tcRefs τ sig := by
  unfold opsC0W7
  exact ⟨unary_bufs_sub .., reshape_bufs_sub .., reshape_bufs_sub .., nullary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC0W7 : ∀ op ∈ (opsC0W7 : List (HloOp τ sig (Elt F))), op.fresh = ∅ := by
  unfold opsC0W7
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem keepC0W7 (V : Valuation τ sig (Elt F)) (r : Ref sig .tc) (hr : r ∉ wrC0W7) :
    after (opsC0W7 (F := F)) V (no_index (Proc.devRef .tc r)) = V (Proc.devRef .tc r) :=
  after_of_writes_sub _ V (W := wrC0W7) (by
    unfold opsC0W7 wrC0W7
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))⟩) hr

/-! ## Stretch C0W8 (operations 268 … 294, kind ryW2) -/

noncomputable def opsC0W8 : List (HloOp τ sig (Elt F)) :=
  [ unary main_arg1 main_v232 ((extractStridedSlice S1x1 ![0, 8] · slices_S3x9_S1x1_0_8) : (⟨S3x9, .f32⟩ : BufTy).Contents (Elt F) → (⟨S1x1, .f32⟩ : BufTy).Contents (Elt F)),
    reshape main_v232 main_v233 rfl shapeCasts_S1x1_S_,
    reshape main_v231 main_v234 rfl shapeCasts_S8_S1x2x4,
    nullary main_cst_9 (constant S_ .f32 0x3F000000#32),
    binary main_v233 main_cst_9 main_v235 (mulf : (⟨S_, .f32⟩ : BufTy).Contents (Elt F) → (⟨S_, .f32⟩ : BufTy).Contents (Elt F) → (⟨S_, .f32⟩ : BufTy).Contents (Elt F)),
    unary main_v235 main_v236 (Host.cos : (⟨S_, .f32⟩ : BufTy).Contents (Elt F) → (⟨S_, .f32⟩ : BufTy).Contents (Elt F)),
    unary main_v236 main_v237 (broadcastInDim S1x1 ![] bcast_S_S1x1 : (⟨S_, .f32⟩ : BufTy).Contents (Elt F) → (⟨S1x1, .f32⟩ : BufTy).Contents (Elt F)),
    unary main_v235 main_v238 (Host.sin : (⟨S_, .f32⟩ : BufTy).Contents (Elt F) → (⟨S_, .f32⟩ : BufTy).Contents (Elt F)),
    unary main_v238 main_v239 (broadcastInDim S1x1 ![] bcast_S_S1x1 : (⟨S_, .f32⟩ : BufTy).Contents (Elt F) → (⟨S1x1, .f32⟩ : BufTy).Contents (Elt F)),
    unary main_v234 main_v240 ((extractStridedSlice S1x1x4 ![0, 0, 0] · slices_S1x2x4_S1x1x4_0_0_0) : (⟨S1x2x4, .f32⟩ : BufTy).Contents (Elt F) → (⟨S1x1x4, .f32⟩ : BufTy).Contents (Elt F)),
    reshape main_v240 main_v241 rfl shapeCasts_S1x1x4_S1x4,
    unary main_v234 main_v242 ((extractStridedSlice S1x1x4 ![0, 1, 0] · slices_S1x2x4_S1x1x4_0_1_0) : (⟨S1x2x4, .f32⟩ : BufTy).Contents (Elt F) → (⟨S1x1x4, .f32⟩ : BufTy).Contents (Elt F)),
    reshape main_v242 main_v243 rfl shapeCasts_S1x1x4_S1x4,
    unary main_v237 main_v244 (broadcastInDim S1x4 ![0, 1] bcast_S1x1_S1x4_0_1 : (⟨S1x1, .f32⟩ : BufTy).Contents (Elt F) → (⟨S1x4, .f32⟩ : BufTy).Contents (Elt F)),
    binary main_v244 main_v241 main_v245 (mulf : (⟨S1x4, .f32⟩ : BufTy).Contents (Elt F) → (⟨S1x4, .f32⟩ : BufTy).Contents (Elt F) → (⟨S1x4, .f32⟩ : BufTy).Contents (Elt F)),
    unary main_v239 main_v246 (broadcastInDim S1x4 ![0, 1] bcast_S1x1_S1x4_0_1 : (⟨S1x1, .f32⟩ : BufTy).Contents (Elt F) → (⟨S1x4, .f32⟩ : BufTy).Contents (Elt F)),
    binary main_v246 main_v243 main_v247 (mulf : (⟨S1x4, .f32⟩ : BufTy).Contents (Elt F) → (⟨S1x4, .f32⟩ : BufTy).Contents (Elt F) → (⟨S1x4, .f32⟩ : BufTy).Contents (Elt F)),
    binary main_v245 main_v247 main_v248 (subf : (⟨S1x4, .f32⟩ : BufTy).Contents (Elt F) → (⟨S1x4, .f32⟩ : BufTy).Contents (Elt F) → (⟨S1x4, .f32⟩ : BufTy).Contents (Elt F)),
    unary main_v239 main_v249 (broadcastInDim S1x4 ![0, 1] bcast_S1x1_S1x4_0_1 : (⟨S1x1, .f32⟩ : BufTy).Contents (Elt F) → (⟨S1x4, .f32⟩ : BufTy).Contents (Elt F)),
    binary main_v249 main_v241 main_v250 (mulf : (⟨S1x4, .f32⟩ : BufTy).Contents (Elt F) → (⟨S1x4, .f32⟩ : BufTy).Contents (Elt F) → (⟨S1x4, .f32⟩ : BufTy).Contents (Elt F)),
    unary main_v237 main_v251 (broadcastInDim S1x4 ![0, 1] bcast_S1x1_S1x4_0_1 : (⟨S1x1, .f32⟩ : BufTy).Contents (Elt F) → (⟨S1x4, .f32⟩ : BufTy).Contents (Elt F)),
    binary main_v251 main_v243 main_v252 (mulf : (⟨S1x4, .f32⟩ : BufTy).Contents (Elt F) → (⟨S1x4, .f32⟩ : BufTy).Contents (Elt F) → (⟨S1x4, .f32⟩ : BufTy).Contents (Elt F)),
    binary main_v250 main_v252 main_v253 (addf : (⟨S1x4, .f32⟩ : BufTy).Contents (Elt F) → (⟨S1x4, .f32⟩ : BufTy).Contents (Elt F) → (⟨S1x4, .f32⟩ : BufTy).Contents (Elt F)),
    unary main_v248 main_v254 (broadcastInDim S1x1x4 ![0, 2] bcast_S1x4_S1x1x4_0_2 : (⟨S1x4, .f32⟩ : BufTy).Contents (Elt F) → (⟨S1x1x4, .f32⟩ : BufTy).Contents (Elt F)),
    unary main_v253 main_v255 (broadcastInDim S1x1x4 ![0, 2] bcast_S1x4_S1x1x4_0_2 : (⟨S1x4, .f32⟩ : BufTy).Contents (Elt F) → (⟨S1x1x4, .f32⟩ : BufTy).Contents (Elt F)),
    binary main_v254 main_v255 main_v256 ((fun a b => concatenate S1x2x4 1 [⟨S1x1x4, a⟩, ⟨S1x1x4, b⟩] concatenates_S1x1x4_S1x1x4_S1x2x4_d1) : (⟨S1x1x4, .f32⟩ : BufTy).Contents (Elt F) → (⟨S1x1x4, .f32⟩ : BufTy).Contents (Elt F) → (⟨S1x2x4, .f32⟩ : BufTy).Contents (Elt F)),
    reshape main_v256 main_v257 rfl shapeCasts_S1x2x4_S8 ]

theorem valC0W8 (V : Valuation τ sig (Elt F)) :
    after (opsC0W8 (F := F)) V (no_index (Proc.devRef .tc main_v257)) = ryW2Fn (V (Proc.devRef .tc main_v231)) (((extractStridedSlice S1x1 ![0, 8] · slices_S3x9_S1x1_0_8) : (⟨S3x9, .f32⟩ : BufTy).Contents (Elt F) → (⟨S1x1, .f32⟩ : BufTy).Contents (Elt F)) (V (Proc.devRef .tc main_arg1))) := by
  unfold opsC0W8
  after_results_simp
  rfl

noncomputable def wrC0W8 : List (Ref sig .tc) := [main_v232, main_v233, main_v234, main_cst_9, main_v235, main_v236, main_v237, main_v238, main_v239, main_v240, main_v241, main_v242, main_v243, main_v244, main_v245, main_v246, main_v247, main_v248, main_v249, main_v250, main_v251, main_v252, main_v253, main_v254, main_v255, main_v256, main_v257]

theorem subC0W8 : (opsC0W8 : List (HloOp τ sig (Elt F))).Forall fun op => op.bufs ⊆ tcRefs τ sig := by
  unfold opsC0W8
  exact ⟨unary_bufs_sub .., reshape_bufs_sub .., reshape_bufs_sub .., nullary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC0W8 : ∀ op ∈ (opsC0W8 : List (HloOp τ sig (Elt F))), op.fresh = ∅ := by
  unfold opsC0W8
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem keepC0W8 (V : Valuation τ sig (Elt F)) (r : Ref sig .tc) (hr : r ∉ wrC0W8) :
    after (opsC0W8 (F := F)) V (no_index (Proc.devRef .tc r)) = V (Proc.devRef .tc r) :=
  after_of_writes_sub _ V (W := wrC0W8) (by
    unfold opsC0W8 wrC0W8
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))⟩) hr

/-! ## Stretch C0WX01 (operations 295 … 314, kind cxWa) -/

noncomputable def opsC0WX01 : List (HloOp τ sig (Elt F)) :=
  [ nullary main_v258 (iotaInDim S8 32 0),
    nullary main_c_10 (constantI S_ 32 0#32),
    unary main_c_10 main_v259 (broadcastInDim S8 ![] bcast_S_S8 : (⟨S_, .i32⟩ : BufTy).Contents (Elt F) → (⟨S8, .i32⟩ : BufTy).Contents (Elt F)),
    binary main_v258 main_v259 main_v260 (Host.shrsi : (⟨S8, .i32⟩ : BufTy).Contents (Elt F) → (⟨S8, .i32⟩ : BufTy).Contents (Elt F) → (⟨S8, .i32⟩ : BufTy).Contents (Elt F)),
    nullary main_c_11 (constantI S_ 32 1#32),
    unary main_c_11 main_v261 (broadcastInDim S8 ![] bcast_S_S8 : (⟨S_, .i32⟩ : BufTy).Contents (Elt F) → (⟨S8, .i32⟩ : BufTy).Contents (Elt F)),
    binary main_v260 main_v261 main_v262 (andi : (⟨S8, .i32⟩ : BufTy).Contents (Elt F) → (⟨S8, .i32⟩ : BufTy).Contents (Elt F) → (⟨S8, .i32⟩ : BufTy).Contents (Elt F)),
    nullary main_c_12 (constantI S_ 32 1#32),
    unary main_c_12 main_v263 (broadcastInDim S8 ![] bcast_S_S8 : (⟨S_, .i32⟩ : BufTy).Contents (Elt F) → (⟨S8, .i32⟩ : BufTy).Contents (Elt F)),
    binary main_v262 main_v263 main_v264 (Host.shli : (⟨S8, .i32⟩ : BufTy).Contents (Elt F) → (⟨S8, .i32⟩ : BufTy).Contents (Elt F) → (⟨S8, .i32⟩ : BufTy).Contents (Elt F)),
    binary main_v258 main_v264 main_v265 (xori : (⟨S8, .i32⟩ : BufTy).Contents (Elt F) → (⟨S8, .i32⟩ : BufTy).Contents (Elt F) → (⟨S8, .i32⟩ : BufTy).Contents (Elt F)),
    nullary main_c_13 (constantI S_ 32 0#32),
    unary main_c_13 main_v266 (broadcastInDim S8 ![] bcast_S_S8 : (⟨S_, .i32⟩ : BufTy).Contents (Elt F) → (⟨S8, .i32⟩ : BufTy).Contents (Elt F)),
    binary main_v265 main_v266 main_v267 (cmpi .slt : (⟨S8, .i32⟩ : BufTy).Contents (Elt F) → (⟨S8, .i32⟩ : BufTy).Contents (Elt F) → (⟨S8, .i1⟩ : BufTy).Contents (Elt F)),
    nullary main_c_14 (constantI S_ 32 8#32),
    unary main_c_14 main_v268 (broadcastInDim S8 ![] bcast_S_S8 : (⟨S_, .i32⟩ : BufTy).Contents (Elt F) → (⟨S8, .i32⟩ : BufTy).Contents (Elt F)),
    binary main_v265 main_v268 main_v269 (addi : (⟨S8, .i32⟩ : BufTy).Contents (Elt F) → (⟨S8, .i32⟩ : BufTy).Contents (Elt F) → (⟨S8, .i32⟩ : BufTy).Contents (Elt F)),
    ternary main_v267 main_v269 main_v265 main_v270 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_v270 main_v271 (broadcastInDim S8x1 ![0] bcast_S8_S8x1_0 : (⟨S8, .i32⟩ : BufTy).Contents (Elt F) → (⟨S8x1, .i32⟩ : BufTy).Contents (Elt F)),
    binary main_v257 main_v271 main_v272 ((fun x i => Host.gather gather_S8_S8x1_S8_n_0_n_n_0_1_1 x i) : (⟨S8, .f32⟩ : BufTy).Contents (Elt F) → (⟨S8x1, .i32⟩ : BufTy).Contents (Elt F) → (⟨S8, .f32⟩ : BufTy).Contents (Elt F)) ]

theorem valC0WX01 (V : Valuation τ sig (Elt F)) :
    after (opsC0WX01 (F := F)) V (no_index (Proc.devRef .tc main_v272)) = cxWaFn (V (Proc.devRef .tc main_v257)) := by
  unfold opsC0WX01
  after_results_simp
  rfl

noncomputable def wrC0WX01 : List (Ref sig .tc) := [main_v258, main_c_10, main_v259, main_v260, main_c_11, main_v261, main_v262, main_c_12, main_v263, main_v264, main_v265, main_c_13, main_v266, main_v267, main_c_14, main_v268, main_v269, main_v270, main_v271, main_v272]

theorem subC0WX01 : (opsC0WX01 : List (HloOp τ sig (Elt F))).Forall fun op => op.bufs ⊆ tcRefs τ sig := by
  unfold opsC0WX01
  exact ⟨nullary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem freshC0WX01 : ∀ op ∈ (opsC0WX01 : List (HloOp τ sig (Elt F))), op.fresh = ∅ := by
  unfold opsC0WX01
  exact List.forall_iff_forall_mem.mp ⟨rfl, rfl, rfl, rfl, rfl, rfl, rfl, rfl, rfl, rfl, rfl, rfl, rfl, rfl, rfl, rfl, rfl, rfl, rfl, rfl⟩

theorem keepC0WX01 (V : Valuation τ sig (Elt F)) (r : Ref sig .tc) (hr : r ∉ wrC0WX01) :
    after (opsC0WX01 (F := F)) V (no_index (Proc.devRef .tc r)) = V (Proc.devRef .tc r) :=
  after_of_writes_sub _ V (W := wrC0WX01) (by
    unfold opsC0WX01 wrC0WX01
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))⟩) hr

/-! ## Stretch C0WX12 (operations 315 … 334, kind cxWb) -/

noncomputable def opsC0WX12 : List (HloOp τ sig (Elt F)) :=
  [ nullary main_v273 (iotaInDim S8 32 0),
    nullary main_c_15 (constantI S_ 32 1#32),
    unary main_c_15 main_v274 (broadcastInDim S8 ![] bcast_S_S8 : (⟨S_, .i32⟩ : BufTy).Contents (Elt F) → (⟨S8, .i32⟩ : BufTy).Contents (Elt F)),
    binary main_v273 main_v274 main_v275 (Host.shrsi : (⟨S8, .i32⟩ : BufTy).Contents (Elt F) → (⟨S8, .i32⟩ : BufTy).Contents (Elt F) → (⟨S8, .i32⟩ : BufTy).Contents (Elt F)),
    nullary main_c_16 (constantI S_ 32 1#32),
    unary main_c_16 main_v276 (broadcastInDim S8 ![] bcast_S_S8 : (⟨S_, .i32⟩ : BufTy).Contents (Elt F) → (⟨S8, .i32⟩ : BufTy).Contents (Elt F)),
    binary main_v275 main_v276 main_v277 (andi : (⟨S8, .i32⟩ : BufTy).Contents (Elt F) → (⟨S8, .i32⟩ : BufTy).Contents (Elt F) → (⟨S8, .i32⟩ : BufTy).Contents (Elt F)),
    nullary main_c_17 (constantI S_ 32 2#32),
    unary main_c_17 main_v278 (broadcastInDim S8 ![] bcast_S_S8 : (⟨S_, .i32⟩ : BufTy).Contents (Elt F) → (⟨S8, .i32⟩ : BufTy).Contents (Elt F)),
    binary main_v277 main_v278 main_v279 (Host.shli : (⟨S8, .i32⟩ : BufTy).Contents (Elt F) → (⟨S8, .i32⟩ : BufTy).Contents (Elt F) → (⟨S8, .i32⟩ : BufTy).Contents (Elt F)),
    binary main_v273 main_v279 main_v280 (xori : (⟨S8, .i32⟩ : BufTy).Contents (Elt F) → (⟨S8, .i32⟩ : BufTy).Contents (Elt F) → (⟨S8, .i32⟩ : BufTy).Contents (Elt F)),
    nullary main_c_18 (constantI S_ 32 0#32),
    unary main_c_18 main_v281 (broadcastInDim S8 ![] bcast_S_S8 : (⟨S_, .i32⟩ : BufTy).Contents (Elt F) → (⟨S8, .i32⟩ : BufTy).Contents (Elt F)),
    binary main_v280 main_v281 main_v282 (cmpi .slt : (⟨S8, .i32⟩ : BufTy).Contents (Elt F) → (⟨S8, .i32⟩ : BufTy).Contents (Elt F) → (⟨S8, .i1⟩ : BufTy).Contents (Elt F)),
    nullary main_c_19 (constantI S_ 32 8#32),
    unary main_c_19 main_v283 (broadcastInDim S8 ![] bcast_S_S8 : (⟨S_, .i32⟩ : BufTy).Contents (Elt F) → (⟨S8, .i32⟩ : BufTy).Contents (Elt F)),
    binary main_v280 main_v283 main_v284 (addi : (⟨S8, .i32⟩ : BufTy).Contents (Elt F) → (⟨S8, .i32⟩ : BufTy).Contents (Elt F) → (⟨S8, .i32⟩ : BufTy).Contents (Elt F)),
    ternary main_v282 main_v284 main_v280 main_v285 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_v285 main_v286 (broadcastInDim S8x1 ![0] bcast_S8_S8x1_0 : (⟨S8, .i32⟩ : BufTy).Contents (Elt F) → (⟨S8x1, .i32⟩ : BufTy).Contents (Elt F)),
    binary main_v272 main_v286 main_v287 ((fun x i => Host.gather gather_S8_S8x1_S8_n_0_n_n_0_1_1 x i) : (⟨S8, .f32⟩ : BufTy).Contents (Elt F) → (⟨S8x1, .i32⟩ : BufTy).Contents (Elt F) → (⟨S8, .f32⟩ : BufTy).Contents (Elt F)) ]

theorem valC0WX12 (V : Valuation τ sig (Elt F)) :
    after (opsC0WX12 (F := F)) V (no_index (Proc.devRef .tc main_v287)) = cxWbFn (V (Proc.devRef .tc main_v272)) := by
  unfold opsC0WX12
  after_results_simp
  rfl

noncomputable def wrC0WX12 : List (Ref sig .tc) := [main_v273, main_c_15, main_v274, main_v275, main_c_16, main_v276, main_v277, main_c_17, main_v278, main_v279, main_v280, main_c_18, main_v281, main_v282, main_c_19, main_v283, main_v284, main_v285, main_v286, main_v287]

theorem subC0WX12 : (opsC0WX12 : List (HloOp τ sig (Elt F))).Forall fun op => op.bufs ⊆ tcRefs τ sig := by
  unfold opsC0WX12
  exact ⟨nullary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem freshC0WX12 : ∀ op ∈ (opsC0WX12 : List (HloOp τ sig (Elt F))), op.fresh = ∅ := by
  unfold opsC0WX12
  exact List.forall_iff_forall_mem.mp ⟨rfl, rfl, rfl, rfl, rfl, rfl, rfl, rfl, rfl, rfl, rfl, rfl, rfl, rfl, rfl, rfl, rfl, rfl, rfl, rfl⟩

theorem keepC0WX12 (V : Valuation τ sig (Elt F)) (r : Ref sig .tc) (hr : r ∉ wrC0WX12) :
    after (opsC0WX12 (F := F)) V (no_index (Proc.devRef .tc r)) = V (Proc.devRef .tc r) :=
  after_of_writes_sub _ V (W := wrC0WX12) (by
    unfold opsC0WX12 wrC0WX12
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))⟩) hr

end Cert.Quanv.Ref

end
-- ==== Proof.RefOps.C0C.lean ====
/- TABLE written by: bun scratch/gen_ref.js <unit> ops — stretches C0XCol, C0BPsi, C0D0, C0D1, C0D2 of the reference's host program: per stretch the list of its operations, what it leaves
   in its result buffer as the kind's function of what it reads, and that it writes nothing else. -/
import proofs.«180459_j52956946760354_2_alg».proof.Proof.RefFns
import Idealize.ShloMosaic.Lib.StableHlo.Run

noncomputable section

namespace Cert.Quanv.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-! ## Stretch C0XCol (operations 335 … 337, kind xcol) -/

noncomputable def opsC0XCol : List (HloOp τ sig (Elt F)) :=
  [ unary main_v18 main_v288 ((extractStridedSlice S32x1x125x125x9 ![0, 0, 0, 0, 0] · slices_S32x3x125x125x9_S32x1x125x125x9_0_0_0_0_0) : (⟨S32x3x125x125x9, .f32⟩ : BufTy).Contents (Elt F) → (⟨S32x1x125x125x9, .f32⟩ : BufTy).Contents (Elt F)),
    reshape main_v288 main_v289 rfl shapeCasts_S32x1x125x125x9_S32x125x125x9,
    reshape main_v289 main_v290 rfl shapeCasts_S32x125x125x9_S500000x9 ]

theorem valC0XCol (V : Valuation τ sig (Elt F)) :
    after (opsC0XCol (F := F)) V (no_index (Proc.devRef .tc main_v290)) = xcolFn (((extractStridedSlice S32x1x125x125x9 ![0, 0, 0, 0, 0] · slices_S32x3x125x125x9_S32x1x125x125x9_0_0_0_0_0) : (⟨S32x3x125x125x9, .f32⟩ : BufTy).Contents (Elt F) → (⟨S32x1x125x125x9, .f32⟩ : BufTy).Contents (Elt F)) (V (Proc.devRef .tc main_v18))) := by
  unfold opsC0XCol
  after_results_simp
  rfl

noncomputable def wrC0XCol : List (Ref sig .tc) := [main_v288, main_v289, main_v290]

theorem subC0XCol : (opsC0XCol : List (HloOp τ sig (Elt F))).Forall fun op => op.bufs ⊆ tcRefs τ sig := by
  unfold opsC0XCol
  exact ⟨unary_bufs_sub .., reshape_bufs_sub .., reshape_bufs_sub ..⟩

theorem freshC0XCol : ∀ op ∈ (opsC0XCol : List (HloOp τ sig (Elt F))), op.fresh = ∅ := by
  unfold opsC0XCol
  exact List.forall_iff_forall_mem.mp ⟨rfl, rfl, rfl⟩

theorem keepC0XCol (V : Valuation τ sig (Elt F)) (r : Ref sig .tc) (hr : r ∉ wrC0XCol) :
    after (opsC0XCol (F := F)) V (no_index (Proc.devRef .tc r)) = V (Proc.devRef .tc r) :=
  after_of_writes_sub _ V (W := wrC0XCol) (by
    unfold opsC0XCol wrC0XCol
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _)))))⟩) hr

/-! ## Stretch C0BPsi (operations 338 … 338, kind bpsi) -/

noncomputable def opsC0BPsi : List (HloOp τ sig (Elt F)) :=
  [ unary main_v287 main_v291 (broadcastInDim S500000x8 ![1] bcast_S8_S500000x8_1 : (⟨S8, .f32⟩ : BufTy).Contents (Elt F) → (⟨S500000x8, .f32⟩ : BufTy).Contents (Elt F)) ]

theorem valC0BPsi (V : Valuation τ sig (Elt F)) :
    after (opsC0BPsi (F := F)) V (no_index (Proc.devRef .tc main_v291)) = bpsiFn (V (Proc.devRef .tc main_v287)) := by
  unfold opsC0BPsi
  after_results_simp
  rfl

noncomputable def wrC0BPsi : List (Ref sig .tc) := [main_v291]

theorem subC0BPsi : (opsC0BPsi : List (HloOp τ sig (Elt F))).Forall fun op => op.bufs ⊆ tcRefs τ sig := by
  unfold opsC0BPsi
  exact (unary_bufs_sub ..)

theorem freshC0BPsi : ∀ op ∈ (opsC0BPsi : List (HloOp τ sig (Elt F))), op.fresh = ∅ := by
  unfold opsC0BPsi
  exact List.forall_iff_forall_mem.mp (rfl)

theorem keepC0BPsi (V : Valuation τ sig (Elt F)) (r : Ref sig .tc) (hr : r ∉ wrC0BPsi) :
    after (opsC0BPsi (F := F)) V (no_index (Proc.devRef .tc r)) = V (Proc.devRef .tc r) :=
  after_of_writes_sub _ V (W := wrC0BPsi) (by
    unfold opsC0BPsi wrC0BPsi
    exact (Finset.singleton_subset_iff.mpr (List.mem_toFinset.mpr (List.mem_map_of_mem (.head _))))) hr

/-! ## Stretch C0D0 (operations 339 … 366, kind ryD0) -/

noncomputable def opsC0D0 : List (HloOp τ sig (Elt F)) :=
  [ unary main_v290 main_v292 ((extractStridedSlice S500000x1 ![0, 0] · slices_S500000x9_S500000x1_0_0) : (⟨S500000x9, .f32⟩ : BufTy).Contents (Elt F) → (⟨S500000x1, .f32⟩ : BufTy).Contents (Elt F)),
    reshape main_v292 main_v293 rfl shapeCasts_S500000x1_S500000,
    reshape main_v291 main_v294 rfl shapeCasts_S500000x8_S500000x4x2x1,
    nullary main_cst_20 (constant S_ .f32 0x3F000000#32),
    unary main_cst_20 main_v295 (broadcastInDim S500000 ![] bcast_S_S500000 : (⟨S_, .f32⟩ : BufTy).Contents (Elt F) → (⟨S500000, .f32⟩ : BufTy).Contents (Elt F)),
    binary main_v293 main_v295 main_v296 (mulf : (⟨S500000, .f32⟩ : BufTy).Contents (Elt F) → (⟨S500000, .f32⟩ : BufTy).Contents (Elt F) → (⟨S500000, .f32⟩ : BufTy).Contents (Elt F)),
    unary main_v296 main_v297 (Host.cos : (⟨S500000, .f32⟩ : BufTy).Contents (Elt F) → (⟨S500000, .f32⟩ : BufTy).Contents (Elt F)),
    unary main_v297 main_v298 (broadcastInDim S500000x1x1 ![0] bcast_S500000_S500000x1x1_0 : (⟨S500000, .f32⟩ : BufTy).Contents (Elt F) → (⟨S500000x1x1, .f32⟩ : BufTy).Contents (Elt F)),
    unary main_v296 main_v299 (Host.sin : (⟨S500000, .f32⟩ : BufTy).Contents (Elt F) → (⟨S500000, .f32⟩ : BufTy).Contents (Elt F)),
    unary main_v299 main_v300 (broadcastInDim S500000x1x1 ![0] bcast_S500000_S500000x1x1_0 : (⟨S500000, .f32⟩ : BufTy).Contents (Elt F) → (⟨S500000x1x1, .f32⟩ : BufTy).Contents (Elt F)),
    unary main_v294 main_v301 ((extractStridedSlice S500000x4x1x1 ![0, 0, 0, 0] · slices_S500000x4x2x1_S500000x4x1x1_0_0_0_0) : (⟨S500000x4x2x1, .f32⟩ : BufTy).Contents (Elt F) → (⟨S500000x4x1x1, .f32⟩ : BufTy).Contents (Elt F)),
    reshape main_v301 main_v302 rfl shapeCasts_S500000x4x1x1_S500000x4x1,
    unary main_v294 main_v303 ((extractStridedSlice S500000x4x1x1 ![0, 0, 1, 0] · slices_S500000x4x2x1_S500000x4x1x1_0_0_1_0) : (⟨S500000x4x2x1, .f32⟩ : BufTy).Contents (Elt F) → (⟨S500000x4x1x1, .f32⟩ : BufTy).Contents (Elt F)),
    reshape main_v303 main_v304 rfl shapeCasts_S500000x4x1x1_S500000x4x1,
    unary main_v298 main_v305 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v305 main_v302 main_v306 (mulf : (⟨S500000x4x1, .f32⟩ : BufTy).Contents (Elt F) → (⟨S500000x4x1, .f32⟩ : BufTy).Contents (Elt F) → (⟨S500000x4x1, .f32⟩ : BufTy).Contents (Elt F)),
    unary main_v300 main_v307 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v307 main_v304 main_v308 (mulf : (⟨S500000x4x1, .f32⟩ : BufTy).Contents (Elt F) → (⟨S500000x4x1, .f32⟩ : BufTy).Contents (Elt F) → (⟨S500000x4x1, .f32⟩ : BufTy).Contents (Elt F)),
    binary main_v306 main_v308 main_v309 (subf : (⟨S500000x4x1, .f32⟩ : BufTy).Contents (Elt F) → (⟨S500000x4x1, .f32⟩ : BufTy).Contents (Elt F) → (⟨S500000x4x1, .f32⟩ : BufTy).Contents (Elt F)),
    unary main_v300 main_v310 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v310 main_v302 main_v311 (mulf : (⟨S500000x4x1, .f32⟩ : BufTy).Contents (Elt F) → (⟨S500000x4x1, .f32⟩ : BufTy).Contents (Elt F) → (⟨S500000x4x1, .f32⟩ : BufTy).Contents (Elt F)),
    unary main_v298 main_v312 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v312 main_v304 main_v313 (mulf : (⟨S500000x4x1, .f32⟩ : BufTy).Contents (Elt F) → (⟨S500000x4x1, .f32⟩ : BufTy).Contents (Elt F) → (⟨S500000x4x1, .f32⟩ : BufTy).Contents (Elt F)),
    binary main_v311 main_v313 main_v314 (addf : (⟨S500000x4x1, .f32⟩ : BufTy).Contents (Elt F) → (⟨S500000x4x1, .f32⟩ : BufTy).Contents (Elt F) → (⟨S500000x4x1, .f32⟩ : BufTy).Contents (Elt F)),
    unary main_v309 main_v315 (broadcastInDim S500000x4x1x1 ![0, 1, 3] bcast_S500000x4x1_S500000x4x1x1_0_1_3 : (⟨S500000x4x1, .f32⟩ : BufTy).Contents (Elt F) → (⟨S500000x4x1x1, .f32⟩ : BufTy).Contents (Elt F)),
    unary main_v314 main_v316 (broadcastInDim S500000x4x1x1 ![0, 1, 3] bcast_S500000x4x1_S500000x4x1x1_0_1_3 : (⟨S500000x4x1, .f32⟩ : BufTy).Contents (Elt F) → (⟨S500000x4x1x1, .f32⟩ : BufTy).Contents (Elt F)),
    binary main_v315 main_v316 main_v317 ((fun a b => concatenate S500000x4x2x1 2 [⟨S500000x4x1x1, a⟩, ⟨S500000x4x1x1, b⟩] concatenates_S500000x4x1x1_S500000x4x1x1_S500000x4x2x1_d2) : (⟨S500000x4x1x1, .f32⟩ : BufTy).Contents (Elt F) → (⟨S500000x4x1x1, .f32⟩ : BufTy).Contents (Elt F) → (⟨S500000x4x2x1, .f32⟩ : BufTy).Contents (Elt F)),
    reshape main_v317 main_v318 rfl shapeCasts_S500000x4x2x1_S500000x8 ]

theorem valC0D0 (V : Valuation τ sig (Elt F)) :
    after (opsC0D0 (F := F)) V (no_index (Proc.devRef .tc main_v318)) = ryD0Fn (V (Proc.devRef .tc main_v291)) (((extractStridedSlice S500000x1 ![0, 0] · slices_S500000x9_S500000x1_0_0) : (⟨S500000x9, .f32⟩ : BufTy).Contents (Elt F) → (⟨S500000x1, .f32⟩ : BufTy).Contents (Elt F)) (V (Proc.devRef .tc main_v290))) := by
  unfold opsC0D0
  after_results_simp
  rfl

noncomputable def wrC0D0 : List (Ref sig .tc) := [main_v292, main_v293, main_v294, main_cst_20, main_v295, main_v296, main_v297, main_v298, main_v299, main_v300, main_v301, main_v302, main_v303, main_v304, main_v305, main_v306, main_v307, main_v308, main_v309, main_v310, main_v311, main_v312, main_v313, main_v314, main_v315, main_v316, main_v317, main_v318]

theorem subC0D0 : (opsC0D0 : List (HloOp τ sig (Elt F))).Forall fun op => op.bufs ⊆ tcRefs τ sig := by
  unfold opsC0D0
  exact ⟨unary_bufs_sub .., reshape_bufs_sub .., reshape_bufs_sub .., nullary_bufs_sub .., unary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC0D0 : ∀ op ∈ (opsC0D0 : List (HloOp τ sig (Elt F))), op.fresh = ∅ := by
  unfold opsC0D0
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl⟩

theorem keepC0D0 (V : Valuation τ sig (Elt F)) (r : Ref sig .tc) (hr : r ∉ wrC0D0) :
    after (opsC0D0 (F := F)) V (no_index (Proc.devRef .tc r)) = V (Proc.devRef .tc r) :=
  after_of_writes_sub _ V (W := wrC0D0) (by
    unfold opsC0D0 wrC0D0
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))⟩) hr

/-! ## Stretch C0D1 (operations 367 … 394, kind ryD1) -/

noncomputable def opsC0D1 : List (HloOp τ sig (Elt F)) :=
  [ unary main_v290 main_v319 ((extractStridedSlice S500000x1 ![0, 1] · slices_S500000x9_S500000x1_0_1) : (⟨S500000x9, .f32⟩ : BufTy).Contents (Elt F) → (⟨S500000x1, .f32⟩ : BufTy).Contents (Elt F)),
    reshape main_v319 main_v320 rfl shapeCasts_S500000x1_S500000,
    reshape main_v318 main_v321 rfl shapeCasts_S500000x8_S500000x2x2x2,
    nullary main_cst_21 (constant S_ .f32 0x3F000000#32),
    unary main_cst_21 main_v322 (broadcastInDim S500000 ![] bcast_S_S500000 : (⟨S_, .f32⟩ : BufTy).Contents (Elt F) → (⟨S500000, .f32⟩ : BufTy).Contents (Elt F)),
    binary main_v320 main_v322 main_v323 (mulf : (⟨S500000, .f32⟩ : BufTy).Contents (Elt F) → (⟨S500000, .f32⟩ : BufTy).Contents (Elt F) → (⟨S500000, .f32⟩ : BufTy).Contents (Elt F)),
    unary main_v323 main_v324 (Host.cos : (⟨S500000, .f32⟩ : BufTy).Contents (Elt F) → (⟨S500000, .f32⟩ : BufTy).Contents (Elt F)),
    unary main_v324 main_v325 (broadcastInDim S500000x1x1 ![0] bcast_S500000_S500000x1x1_0 : (⟨S500000, .f32⟩ : BufTy).Contents (Elt F) → (⟨S500000x1x1, .f32⟩ : BufTy).Contents (Elt F)),
    unary main_v323 main_v326 (Host.sin : (⟨S500000, .f32⟩ : BufTy).Contents (Elt F) → (⟨S500000, .f32⟩ : BufTy).Contents (Elt F)),
    unary main_v326 main_v327 (broadcastInDim S500000x1x1 ![0] bcast_S500000_S500000x1x1_0 : (⟨S500000, .f32⟩ : BufTy).Contents (Elt F) → (⟨S500000x1x1, .f32⟩ : BufTy).Contents (Elt F)),
    unary main_v321 main_v328 ((extractStridedSlice S500000x2x1x2 ![0, 0, 0, 0] · slices_S500000x2x2x2_S500000x2x1x2_0_0_0_0) : (⟨S500000x2x2x2, .f32⟩ : BufTy).Contents (Elt F) → (⟨S500000x2x1x2, .f32⟩ : BufTy).Contents (Elt F)),
    reshape main_v328 main_v329 rfl shapeCasts_S500000x2x1x2_S500000x2x2,
    unary main_v321 main_v330 ((extractStridedSlice S500000x2x1x2 ![0, 0, 1, 0] · slices_S500000x2x2x2_S500000x2x1x2_0_0_1_0) : (⟨S500000x2x2x2, .f32⟩ : BufTy).Contents (Elt F) → (⟨S500000x2x1x2, .f32⟩ : BufTy).Contents (Elt F)),
    reshape main_v330 main_v331 rfl shapeCasts_S500000x2x1x2_S500000x2x2,
    unary main_v325 main_v332 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v332 main_v329 main_v333 (mulf : (⟨S500000x2x2, .f32⟩ : BufTy).Contents (Elt F) → (⟨S500000x2x2, .f32⟩ : BufTy).Contents (Elt F) → (⟨S500000x2x2, .f32⟩ : BufTy).Contents (Elt F)),
    unary main_v327 main_v334 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v334 main_v331 main_v335 (mulf : (⟨S500000x2x2, .f32⟩ : BufTy).Contents (Elt F) → (⟨S500000x2x2, .f32⟩ : BufTy).Contents (Elt F) → (⟨S500000x2x2, .f32⟩ : BufTy).Contents (Elt F)),
    binary main_v333 main_v335 main_v336 (subf : (⟨S500000x2x2, .f32⟩ : BufTy).Contents (Elt F) → (⟨S500000x2x2, .f32⟩ : BufTy).Contents (Elt F) → (⟨S500000x2x2, .f32⟩ : BufTy).Contents (Elt F)),
    unary main_v327 main_v337 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v337 main_v329 main_v338 (mulf : (⟨S500000x2x2, .f32⟩ : BufTy).Contents (Elt F) → (⟨S500000x2x2, .f32⟩ : BufTy).Contents (Elt F) → (⟨S500000x2x2, .f32⟩ : BufTy).Contents (Elt F)),
    unary main_v325 main_v339 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v339 main_v331 main_v340 (mulf : (⟨S500000x2x2, .f32⟩ : BufTy).Contents (Elt F) → (⟨S500000x2x2, .f32⟩ : BufTy).Contents (Elt F) → (⟨S500000x2x2, .f32⟩ : BufTy).Contents (Elt F)),
    binary main_v338 main_v340 main_v341 (addf : (⟨S500000x2x2, .f32⟩ : BufTy).Contents (Elt F) → (⟨S500000x2x2, .f32⟩ : BufTy).Contents (Elt F) → (⟨S500000x2x2, .f32⟩ : BufTy).Contents (Elt F)),
    unary main_v336 main_v342 (broadcastInDim S500000x2x1x2 ![0, 1, 3] bcast_S500000x2x2_S500000x2x1x2_0_1_3 : (⟨S500000x2x2, .f32⟩ : BufTy).Contents (Elt F) → (⟨S500000x2x1x2, .f32⟩ : BufTy).Contents (Elt F)),
    unary main_v341 main_v343 (broadcastInDim S500000x2x1x2 ![0, 1, 3] bcast_S500000x2x2_S500000x2x1x2_0_1_3 : (⟨S500000x2x2, .f32⟩ : BufTy).Contents (Elt F) → (⟨S500000x2x1x2, .f32⟩ : BufTy).Contents (Elt F)),
    binary main_v342 main_v343 main_v344 ((fun a b => concatenate S500000x2x2x2 2 [⟨S500000x2x1x2, a⟩, ⟨S500000x2x1x2, b⟩] concatenates_S500000x2x1x2_S500000x2x1x2_S500000x2x2x2_d2) : (⟨S500000x2x1x2, .f32⟩ : BufTy).Contents (Elt F) → (⟨S500000x2x1x2, .f32⟩ : BufTy).Contents (Elt F) → (⟨S500000x2x2x2, .f32⟩ : BufTy).Contents (Elt F)),
    reshape main_v344 main_v345 rfl shapeCasts_S500000x2x2x2_S500000x8 ]

theorem valC0D1 (V : Valuation τ sig (Elt F)) :
    after (opsC0D1 (F := F)) V (no_index (Proc.devRef .tc main_v345)) = ryD1Fn (V (Proc.devRef .tc main_v318)) (((extractStridedSlice S500000x1 ![0, 1] · slices_S500000x9_S500000x1_0_1) : (⟨S500000x9, .f32⟩ : BufTy).Contents (Elt F) → (⟨S500000x1, .f32⟩ : BufTy).Contents (Elt F)) (V (Proc.devRef .tc main_v290))) := by
  unfold opsC0D1
  after_results_simp
  rfl

noncomputable def wrC0D1 : List (Ref sig .tc) := [main_v319, main_v320, main_v321, main_cst_21, main_v322, main_v323, main_v324, main_v325, main_v326, main_v327, main_v328, main_v329, main_v330, main_v331, main_v332, main_v333, main_v334, main_v335, main_v336, main_v337, main_v338, main_v339, main_v340, main_v341, main_v342, main_v343, main_v344, main_v345]

theorem subC0D1 : (opsC0D1 : List (HloOp τ sig (Elt F))).Forall fun op => op.bufs ⊆ tcRefs τ sig := by
  unfold opsC0D1
  exact ⟨unary_bufs_sub .., reshape_bufs_sub .., reshape_bufs_sub .., nullary_bufs_sub .., unary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC0D1 : ∀ op ∈ (opsC0D1 : List (HloOp τ sig (Elt F))), op.fresh = ∅ := by
  unfold opsC0D1
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl⟩

theorem keepC0D1 (V : Valuation τ sig (Elt F)) (r : Ref sig .tc) (hr : r ∉ wrC0D1) :
    after (opsC0D1 (F := F)) V (no_index (Proc.devRef .tc r)) = V (Proc.devRef .tc r) :=
  after_of_writes_sub _ V (W := wrC0D1) (by
    unfold opsC0D1 wrC0D1
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))⟩) hr

/-! ## Stretch C0D2 (operations 395 … 422, kind ryD2) -/

noncomputable def opsC0D2 : List (HloOp τ sig (Elt F)) :=
  [ unary main_v290 main_v346 ((extractStridedSlice S500000x1 ![0, 2] · slices_S500000x9_S500000x1_0_2) : (⟨S500000x9, .f32⟩ : BufTy).Contents (Elt F) → (⟨S500000x1, .f32⟩ : BufTy).Contents (Elt F)),
    reshape main_v346 main_v347 rfl shapeCasts_S500000x1_S500000,
    reshape main_v345 main_v348 rfl shapeCasts_S500000x8_S500000x1x2x4,
    nullary main_cst_22 (constant S_ .f32 0x3F000000#32),
    unary main_cst_22 main_v349 (broadcastInDim S500000 ![] bcast_S_S500000 : (⟨S_, .f32⟩ : BufTy).Contents (Elt F) → (⟨S500000, .f32⟩ : BufTy).Contents (Elt F)),
    binary main_v347 main_v349 main_v350 (mulf : (⟨S500000, .f32⟩ : BufTy).Contents (Elt F) → (⟨S500000, .f32⟩ : BufTy).Contents (Elt F) → (⟨S500000, .f32⟩ : BufTy).Contents (Elt F)),
    unary main_v350 main_v351 (Host.cos : (⟨S500000, .f32⟩ : BufTy).Contents (Elt F) → (⟨S500000, .f32⟩ : BufTy).Contents (Elt F)),
    unary main_v351 main_v352 (broadcastInDim S500000x1x1 ![0] bcast_S500000_S500000x1x1_0 : (⟨S500000, .f32⟩ : BufTy).Contents (Elt F) → (⟨S500000x1x1, .f32⟩ : BufTy).Contents (Elt F)),
    unary main_v350 main_v353 (Host.sin : (⟨S500000, .f32⟩ : BufTy).Contents (Elt F) → (⟨S500000, .f32⟩ : BufTy).Contents (Elt F)),
    unary main_v353 main_v354 (broadcastInDim S500000x1x1 ![0] bcast_S500000_S500000x1x1_0 : (⟨S500000, .f32⟩ : BufTy).Contents (Elt F) → (⟨S500000x1x1, .f32⟩ : BufTy).Contents (Elt F)),
    unary main_v348 main_v355 ((extractStridedSlice S500000x1x1x4 ![0, 0, 0, 0] · slices_S500000x1x2x4_S500000x1x1x4_0_0_0_0) : (⟨S500000x1x2x4, .f32⟩ : BufTy).Contents (Elt F) → (⟨S500000x1x1x4, .f32⟩ : BufTy).Contents (Elt F)),
    reshape main_v355 main_v356 rfl shapeCasts_S500000x1x1x4_S500000x1x4,
    unary main_v348 main_v357 ((extractStridedSlice S500000x1x1x4 ![0, 0, 1, 0] · slices_S500000x1x2x4_S500000x1x1x4_0_0_1_0) : (⟨S500000x1x2x4, .f32⟩ : BufTy).Contents (Elt F) → (⟨S500000x1x1x4, .f32⟩ : BufTy).Contents (Elt F)),
    reshape main_v357 main_v358 rfl shapeCasts_S500000x1x1x4_S500000x1x4,
    unary main_v352 main_v359 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v359 main_v356 main_v360 (mulf : (⟨S500000x1x4, .f32⟩ : BufTy).Contents (Elt F) → (⟨S500000x1x4, .f32⟩ : BufTy).Contents (Elt F) → (⟨S500000x1x4, .f32⟩ : BufTy).Contents (Elt F)),
    unary main_v354 main_v361 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v361 main_v358 main_v362 (mulf : (⟨S500000x1x4, .f32⟩ : BufTy).Contents (Elt F) → (⟨S500000x1x4, .f32⟩ : BufTy).Contents (Elt F) → (⟨S500000x1x4, .f32⟩ : BufTy).Contents (Elt F)),
    binary main_v360 main_v362 main_v363 (subf : (⟨S500000x1x4, .f32⟩ : BufTy).Contents (Elt F) → (⟨S500000x1x4, .f32⟩ : BufTy).Contents (Elt F) → (⟨S500000x1x4, .f32⟩ : BufTy).Contents (Elt F)),
    unary main_v354 main_v364 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v364 main_v356 main_v365 (mulf : (⟨S500000x1x4, .f32⟩ : BufTy).Contents (Elt F) → (⟨S500000x1x4, .f32⟩ : BufTy).Contents (Elt F) → (⟨S500000x1x4, .f32⟩ : BufTy).Contents (Elt F)),
    unary main_v352 main_v366 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v366 main_v358 main_v367 (mulf : (⟨S500000x1x4, .f32⟩ : BufTy).Contents (Elt F) → (⟨S500000x1x4, .f32⟩ : BufTy).Contents (Elt F) → (⟨S500000x1x4, .f32⟩ : BufTy).Contents (Elt F)),
    binary main_v365 main_v367 main_v368 (addf : (⟨S500000x1x4, .f32⟩ : BufTy).Contents (Elt F) → (⟨S500000x1x4, .f32⟩ : BufTy).Contents (Elt F) → (⟨S500000x1x4, .f32⟩ : BufTy).Contents (Elt F)),
    unary main_v363 main_v369 (broadcastInDim S500000x1x1x4 ![0, 1, 3] bcast_S500000x1x4_S500000x1x1x4_0_1_3 : (⟨S500000x1x4, .f32⟩ : BufTy).Contents (Elt F) → (⟨S500000x1x1x4, .f32⟩ : BufTy).Contents (Elt F)),
    unary main_v368 main_v370 (broadcastInDim S500000x1x1x4 ![0, 1, 3] bcast_S500000x1x4_S500000x1x1x4_0_1_3 : (⟨S500000x1x4, .f32⟩ : BufTy).Contents (Elt F) → (⟨S500000x1x1x4, .f32⟩ : BufTy).Contents (Elt F)),
    binary main_v369 main_v370 main_v371 ((fun a b => concatenate S500000x1x2x4 2 [⟨S500000x1x1x4, a⟩, ⟨S500000x1x1x4, b⟩] concatenates_S500000x1x1x4_S500000x1x1x4_S500000x1x2x4_d2) : (⟨S500000x1x1x4, .f32⟩ : BufTy).Contents (Elt F) → (⟨S500000x1x1x4, .f32⟩ : BufTy).Contents (Elt F) → (⟨S500000x1x2x4, .f32⟩ : BufTy).Contents (Elt F)),
    reshape main_v371 main_v372 rfl shapeCasts_S500000x1x2x4_S500000x8 ]

theorem valC0D2 (V : Valuation τ sig (Elt F)) :
    after (opsC0D2 (F := F)) V (no_index (Proc.devRef .tc main_v372)) = ryD2Fn (V (Proc.devRef .tc main_v345)) (((extractStridedSlice S500000x1 ![0, 2] · slices_S500000x9_S500000x1_0_2) : (⟨S500000x9, .f32⟩ : BufTy).Contents (Elt F) → (⟨S500000x1, .f32⟩ : BufTy).Contents (Elt F)) (V (Proc.devRef .tc main_v290))) := by
  unfold opsC0D2
  after_results_simp
  rfl

noncomputable def wrC0D2 : List (Ref sig .tc) := [main_v346, main_v347, main_v348, main_cst_22, main_v349, main_v350, main_v351, main_v352, main_v353, main_v354, main_v355, main_v356, main_v357, main_v358, main_v359, main_v360, main_v361, main_v362, main_v363, main_v364, main_v365, main_v366, main_v367, main_v368, main_v369, main_v370, main_v371, main_v372]

theorem subC0D2 : (opsC0D2 : List (HloOp τ sig (Elt F))).Forall fun op => op.bufs ⊆ tcRefs τ sig := by
  unfold opsC0D2
  exact ⟨unary_bufs_sub .., reshape_bufs_sub .., reshape_bufs_sub .., nullary_bufs_sub .., unary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC0D2 : ∀ op ∈ (opsC0D2 : List (HloOp τ sig (Elt F))), op.fresh = ∅ := by
  unfold opsC0D2
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl⟩

theorem keepC0D2 (V : Valuation τ sig (Elt F)) (r : Ref sig .tc) (hr : r ∉ wrC0D2) :
    after (opsC0D2 (F := F)) V (no_index (Proc.devRef .tc r)) = V (Proc.devRef .tc r) :=
  after_of_writes_sub _ V (W := wrC0D2) (by
    unfold opsC0D2 wrC0D2
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))⟩) hr

end Cert.Quanv.Ref

end
-- ==== Proof.RefOps.C0D.lean ====
/- TABLE written by: bun scratch/gen_ref.js <unit> ops — stretches C0D3, C0D4, C0D5 of the reference's host program: per stretch the list of its operations, what it leaves
   in its result buffer as the kind's function of what it reads, and that it writes nothing else. -/
import proofs.«180459_j52956946760354_2_alg».proof.Proof.RefFns
import Idealize.ShloMosaic.Lib.StableHlo.Run

noncomputable section

namespace Cert.Quanv.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-! ## Stretch C0D3 (operations 423 … 450, kind ryD0) -/

noncomputable def opsC0D3 : List (HloOp τ sig (Elt F)) :=
  [ unary main_v290 main_v373 ((extractStridedSlice S500000x1 ![0, 3] · slices_S500000x9_S500000x1_0_3) : (⟨S500000x9, .f32⟩ : BufTy).Contents (Elt F) → (⟨S500000x1, .f32⟩ : BufTy).Contents (Elt F)),
    reshape main_v373 main_v374 rfl shapeCasts_S500000x1_S500000,
    reshape main_v372 main_v375 rfl shapeCasts_S500000x8_S500000x4x2x1,
    nullary main_cst_23 (constant S_ .f32 0x3F000000#32),
    unary main_cst_23 main_v376 (broadcastInDim S500000 ![] bcast_S_S500000 : (⟨S_, .f32⟩ : BufTy).Contents (Elt F) → (⟨S500000, .f32⟩ : BufTy).Contents (Elt F)),
    binary main_v374 main_v376 main_v377 (mulf : (⟨S500000, .f32⟩ : BufTy).Contents (Elt F) → (⟨S500000, .f32⟩ : BufTy).Contents (Elt F) → (⟨S500000, .f32⟩ : BufTy).Contents (Elt F)),
    unary main_v377 main_v378 (Host.cos : (⟨S500000, .f32⟩ : BufTy).Contents (Elt F) → (⟨S500000, .f32⟩ : BufTy).Contents (Elt F)),
    unary main_v378 main_v379 (broadcastInDim S500000x1x1 ![0] bcast_S500000_S500000x1x1_0 : (⟨S500000, .f32⟩ : BufTy).Contents (Elt F) → (⟨S500000x1x1, .f32⟩ : BufTy).Contents (Elt F)),
    unary main_v377 main_v380 (Host.sin : (⟨S500000, .f32⟩ : BufTy).Contents (Elt F) → (⟨S500000, .f32⟩ : BufTy).Contents (Elt F)),
    unary main_v380 main_v381 (broadcastInDim S500000x1x1 ![0] bcast_S500000_S500000x1x1_0 : (⟨S500000, .f32⟩ : BufTy).Contents (Elt F) → (⟨S500000x1x1, .f32⟩ : BufTy).Contents (Elt F)),
    unary main_v375 main_v382 ((extractStridedSlice S500000x4x1x1 ![0, 0, 0, 0] · slices_S500000x4x2x1_S500000x4x1x1_0_0_0_0) : (⟨S500000x4x2x1, .f32⟩ : BufTy).Contents (Elt F) → (⟨S500000x4x1x1, .f32⟩ : BufTy).Contents (Elt F)),
    reshape main_v382 main_v383 rfl shapeCasts_S500000x4x1x1_S500000x4x1,
    unary main_v375 main_v384 ((extractStridedSlice S500000x4x1x1 ![0, 0, 1, 0] · slices_S500000x4x2x1_S500000x4x1x1_0_0_1_0) : (⟨S500000x4x2x1, .f32⟩ : BufTy).Contents (Elt F) → (⟨S500000x4x1x1, .f32⟩ : BufTy).Contents (Elt F)),
    reshape main_v384 main_v385 rfl shapeCasts_S500000x4x1x1_S500000x4x1,
    unary main_v379 main_v386 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v386 main_v383 main_v387 (mulf : (⟨S500000x4x1, .f32⟩ : BufTy).Contents (Elt F) → (⟨S500000x4x1, .f32⟩ : BufTy).Contents (Elt F) → (⟨S500000x4x1, .f32⟩ : BufTy).Contents (Elt F)),
    unary main_v381 main_v388 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v388 main_v385 main_v389 (mulf : (⟨S500000x4x1, .f32⟩ : BufTy).Contents (Elt F) → (⟨S500000x4x1, .f32⟩ : BufTy).Contents (Elt F) → (⟨S500000x4x1, .f32⟩ : BufTy).Contents (Elt F)),
    binary main_v387 main_v389 main_v390 (subf : (⟨S500000x4x1, .f32⟩ : BufTy).Contents (Elt F) → (⟨S500000x4x1, .f32⟩ : BufTy).Contents (Elt F) → (⟨S500000x4x1, .f32⟩ : BufTy).Contents (Elt F)),
    unary main_v381 main_v391 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v391 main_v383 main_v392 (mulf : (⟨S500000x4x1, .f32⟩ : BufTy).Contents (Elt F) → (⟨S500000x4x1, .f32⟩ : BufTy).Contents (Elt F) → (⟨S500000x4x1, .f32⟩ : BufTy).Contents (Elt F)),
    unary main_v379 main_v393 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v393 main_v385 main_v394 (mulf : (⟨S500000x4x1, .f32⟩ : BufTy).Contents (Elt F) → (⟨S500000x4x1, .f32⟩ : BufTy).Contents (Elt F) → (⟨S500000x4x1, .f32⟩ : BufTy).Contents (Elt F)),
    binary main_v392 main_v394 main_v395 (addf : (⟨S500000x4x1, .f32⟩ : BufTy).Contents (Elt F) → (⟨S500000x4x1, .f32⟩ : BufTy).Contents (Elt F) → (⟨S500000x4x1, .f32⟩ : BufTy).Contents (Elt F)),
    unary main_v390 main_v396 (broadcastInDim S500000x4x1x1 ![0, 1, 3] bcast_S500000x4x1_S500000x4x1x1_0_1_3 : (⟨S500000x4x1, .f32⟩ : BufTy).Contents (Elt F) → (⟨S500000x4x1x1, .f32⟩ : BufTy).Contents (Elt F)),
    unary main_v395 main_v397 (broadcastInDim S500000x4x1x1 ![0, 1, 3] bcast_S500000x4x1_S500000x4x1x1_0_1_3 : (⟨S500000x4x1, .f32⟩ : BufTy).Contents (Elt F) → (⟨S500000x4x1x1, .f32⟩ : BufTy).Contents (Elt F)),
    binary main_v396 main_v397 main_v398 ((fun a b => concatenate S500000x4x2x1 2 [⟨S500000x4x1x1, a⟩, ⟨S500000x4x1x1, b⟩] concatenates_S500000x4x1x1_S500000x4x1x1_S500000x4x2x1_d2) : (⟨S500000x4x1x1, .f32⟩ : BufTy).Contents (Elt F) → (⟨S500000x4x1x1, .f32⟩ : BufTy).Contents (Elt F) → (⟨S500000x4x2x1, .f32⟩ : BufTy).Contents (Elt F)),
    reshape main_v398 main_v399 rfl shapeCasts_S500000x4x2x1_S500000x8 ]

theorem valC0D3 (V : Valuation τ sig (Elt F)) :
    after (opsC0D3 (F := F)) V (no_index (Proc.devRef .tc main_v399)) = ryD0Fn (V (Proc.devRef .tc main_v372)) (((extractStridedSlice S500000x1 ![0, 3] · slices_S500000x9_S500000x1_0_3) : (⟨S500000x9, .f32⟩ : BufTy).Contents (Elt F) → (⟨S500000x1, .f32⟩ : BufTy).Contents (Elt F)) (V (Proc.devRef .tc main_v290))) := by
  unfold opsC0D3
  after_results_simp
  rfl

noncomputable def wrC0D3 : List (Ref sig .tc) := [main_v373, main_v374, main_v375, main_cst_23, main_v376, main_v377, main_v378, main_v379, main_v380, main_v381, main_v382, main_v383, main_v384, main_v385, main_v386, main_v387, main_v388, main_v389, main_v390, main_v391, main_v392, main_v393, main_v394, main_v395, main_v396, main_v397, main_v398, main_v399]

theorem subC0D3 : (opsC0D3 : List (HloOp τ sig (Elt F))).Forall fun op => op.bufs ⊆ tcRefs τ sig := by
  unfold opsC0D3
  exact ⟨unary_bufs_sub .., reshape_bufs_sub .., reshape_bufs_sub .., nullary_bufs_sub .., unary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC0D3 : ∀ op ∈ (opsC0D3 : List (HloOp τ sig (Elt F))), op.fresh = ∅ := by
  unfold opsC0D3
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl⟩

theorem keepC0D3 (V : Valuation τ sig (Elt F)) (r : Ref sig .tc) (hr : r ∉ wrC0D3) :
    after (opsC0D3 (F := F)) V (no_index (Proc.devRef .tc r)) = V (Proc.devRef .tc r) :=
  after_of_writes_sub _ V (W := wrC0D3) (by
    unfold opsC0D3 wrC0D3
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))⟩) hr

/-! ## Stretch C0D4 (operations 451 … 478, kind ryD1) -/

noncomputable def opsC0D4 : List (HloOp τ sig (Elt F)) :=
  [ unary main_v290 main_v400 ((extractStridedSlice S500000x1 ![0, 4] · slices_S500000x9_S500000x1_0_4) : (⟨S500000x9, .f32⟩ : BufTy).Contents (Elt F) → (⟨S500000x1, .f32⟩ : BufTy).Contents (Elt F)),
    reshape main_v400 main_v401 rfl shapeCasts_S500000x1_S500000,
    reshape main_v399 main_v402 rfl shapeCasts_S500000x8_S500000x2x2x2,
    nullary main_cst_24 (constant S_ .f32 0x3F000000#32),
    unary main_cst_24 main_v403 (broadcastInDim S500000 ![] bcast_S_S500000 : (⟨S_, .f32⟩ : BufTy).Contents (Elt F) → (⟨S500000, .f32⟩ : BufTy).Contents (Elt F)),
    binary main_v401 main_v403 main_v404 (mulf : (⟨S500000, .f32⟩ : BufTy).Contents (Elt F) → (⟨S500000, .f32⟩ : BufTy).Contents (Elt F) → (⟨S500000, .f32⟩ : BufTy).Contents (Elt F)),
    unary main_v404 main_v405 (Host.cos : (⟨S500000, .f32⟩ : BufTy).Contents (Elt F) → (⟨S500000, .f32⟩ : BufTy).Contents (Elt F)),
    unary main_v405 main_v406 (broadcastInDim S500000x1x1 ![0] bcast_S500000_S500000x1x1_0 : (⟨S500000, .f32⟩ : BufTy).Contents (Elt F) → (⟨S500000x1x1, .f32⟩ : BufTy).Contents (Elt F)),
    unary main_v404 main_v407 (Host.sin : (⟨S500000, .f32⟩ : BufTy).Contents (Elt F) → (⟨S500000, .f32⟩ : BufTy).Contents (Elt F)),
    unary main_v407 main_v408 (broadcastInDim S500000x1x1 ![0] bcast_S500000_S500000x1x1_0 : (⟨S500000, .f32⟩ : BufTy).Contents (Elt F) → (⟨S500000x1x1, .f32⟩ : BufTy).Contents (Elt F)),
    unary main_v402 main_v409 ((extractStridedSlice S500000x2x1x2 ![0, 0, 0, 0] · slices_S500000x2x2x2_S500000x2x1x2_0_0_0_0) : (⟨S500000x2x2x2, .f32⟩ : BufTy).Contents (Elt F) → (⟨S500000x2x1x2, .f32⟩ : BufTy).Contents (Elt F)),
    reshape main_v409 main_v410 rfl shapeCasts_S500000x2x1x2_S500000x2x2,
    unary main_v402 main_v411 ((extractStridedSlice S500000x2x1x2 ![0, 0, 1, 0] · slices_S500000x2x2x2_S500000x2x1x2_0_0_1_0) : (⟨S500000x2x2x2, .f32⟩ : BufTy).Contents (Elt F) → (⟨S500000x2x1x2, .f32⟩ : BufTy).Contents (Elt F)),
    reshape main_v411 main_v412 rfl shapeCasts_S500000x2x1x2_S500000x2x2,
    unary main_v406 main_v413 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v413 main_v410 main_v414 (mulf : (⟨S500000x2x2, .f32⟩ : BufTy).Contents (Elt F) → (⟨S500000x2x2, .f32⟩ : BufTy).Contents (Elt F) → (⟨S500000x2x2, .f32⟩ : BufTy).Contents (Elt F)),
    unary main_v408 main_v415 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v415 main_v412 main_v416 (mulf : (⟨S500000x2x2, .f32⟩ : BufTy).Contents (Elt F) → (⟨S500000x2x2, .f32⟩ : BufTy).Contents (Elt F) → (⟨S500000x2x2, .f32⟩ : BufTy).Contents (Elt F)),
    binary main_v414 main_v416 main_v417 (subf : (⟨S500000x2x2, .f32⟩ : BufTy).Contents (Elt F) → (⟨S500000x2x2, .f32⟩ : BufTy).Contents (Elt F) → (⟨S500000x2x2, .f32⟩ : BufTy).Contents (Elt F)),
    unary main_v408 main_v418 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v418 main_v410 main_v419 (mulf : (⟨S500000x2x2, .f32⟩ : BufTy).Contents (Elt F) → (⟨S500000x2x2, .f32⟩ : BufTy).Contents (Elt F) → (⟨S500000x2x2, .f32⟩ : BufTy).Contents (Elt F)),
    unary main_v406 main_v420 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v420 main_v412 main_v421 (mulf : (⟨S500000x2x2, .f32⟩ : BufTy).Contents (Elt F) → (⟨S500000x2x2, .f32⟩ : BufTy).Contents (Elt F) → (⟨S500000x2x2, .f32⟩ : BufTy).Contents (Elt F)),
    binary main_v419 main_v421 main_v422 (addf : (⟨S500000x2x2, .f32⟩ : BufTy).Contents (Elt F) → (⟨S500000x2x2, .f32⟩ : BufTy).Contents (Elt F) → (⟨S500000x2x2, .f32⟩ : BufTy).Contents (Elt F)),
    unary main_v417 main_v423 (broadcastInDim S500000x2x1x2 ![0, 1, 3] bcast_S500000x2x2_S500000x2x1x2_0_1_3 : (⟨S500000x2x2, .f32⟩ : BufTy).Contents (Elt F) → (⟨S500000x2x1x2, .f32⟩ : BufTy).Contents (Elt F)),
    unary main_v422 main_v424 (broadcastInDim S500000x2x1x2 ![0, 1, 3] bcast_S500000x2x2_S500000x2x1x2_0_1_3 : (⟨S500000x2x2, .f32⟩ : BufTy).Contents (Elt F) → (⟨S500000x2x1x2, .f32⟩ : BufTy).Contents (Elt F)),
    binary main_v423 main_v424 main_v425 ((fun a b => concatenate S500000x2x2x2 2 [⟨S500000x2x1x2, a⟩, ⟨S500000x2x1x2, b⟩] concatenates_S500000x2x1x2_S500000x2x1x2_S500000x2x2x2_d2) : (⟨S500000x2x1x2, .f32⟩ : BufTy).Contents (Elt F) → (⟨S500000x2x1x2, .f32⟩ : BufTy).Contents (Elt F) → (⟨S500000x2x2x2, .f32⟩ : BufTy).Contents (Elt F)),
    reshape main_v425 main_v426 rfl shapeCasts_S500000x2x2x2_S500000x8 ]

theorem valC0D4 (V : Valuation τ sig (Elt F)) :
    after (opsC0D4 (F := F)) V (no_index (Proc.devRef .tc main_v426)) = ryD1Fn (V (Proc.devRef .tc main_v399)) (((extractStridedSlice S500000x1 ![0, 4] · slices_S500000x9_S500000x1_0_4) : (⟨S500000x9, .f32⟩ : BufTy).Contents (Elt F) → (⟨S500000x1, .f32⟩ : BufTy).Contents (Elt F)) (V (Proc.devRef .tc main_v290))) := by
  unfold opsC0D4
  after_results_simp
  rfl

noncomputable def wrC0D4 : List (Ref sig .tc) := [main_v400, main_v401, main_v402, main_cst_24, main_v403, main_v404, main_v405, main_v406, main_v407, main_v408, main_v409, main_v410, main_v411, main_v412, main_v413, main_v414, main_v415, main_v416, main_v417, main_v418, main_v419, main_v420, main_v421, main_v422, main_v423, main_v424, main_v425, main_v426]

theorem subC0D4 : (opsC0D4 : List (HloOp τ sig (Elt F))).Forall fun op => op.bufs ⊆ tcRefs τ sig := by
  unfold opsC0D4
  exact ⟨unary_bufs_sub .., reshape_bufs_sub .., reshape_bufs_sub .., nullary_bufs_sub .., unary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC0D4 : ∀ op ∈ (opsC0D4 : List (HloOp τ sig (Elt F))), op.fresh = ∅ := by
  unfold opsC0D4
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl⟩

theorem keepC0D4 (V : Valuation τ sig (Elt F)) (r : Ref sig .tc) (hr : r ∉ wrC0D4) :
    after (opsC0D4 (F := F)) V (no_index (Proc.devRef .tc r)) = V (Proc.devRef .tc r) :=
  after_of_writes_sub _ V (W := wrC0D4) (by
    unfold opsC0D4 wrC0D4
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))⟩) hr

/-! ## Stretch C0D5 (operations 479 … 506, kind ryD2) -/

noncomputable def opsC0D5 : List (HloOp τ sig (Elt F)) :=
  [ unary main_v290 main_v427 ((extractStridedSlice S500000x1 ![0, 5] · slices_S500000x9_S500000x1_0_5) : (⟨S500000x9, .f32⟩ : BufTy).Contents (Elt F) → (⟨S500000x1, .f32⟩ : BufTy).Contents (Elt F)),
    reshape main_v427 main_v428 rfl shapeCasts_S500000x1_S500000,
    reshape main_v426 main_v429 rfl shapeCasts_S500000x8_S500000x1x2x4,
    nullary main_cst_25 (constant S_ .f32 0x3F000000#32),
    unary main_cst_25 main_v430 (broadcastInDim S500000 ![] bcast_S_S500000 : (⟨S_, .f32⟩ : BufTy).Contents (Elt F) → (⟨S500000, .f32⟩ : BufTy).Contents (Elt F)),
    binary main_v428 main_v430 main_v431 (mulf : (⟨S500000, .f32⟩ : BufTy).Contents (Elt F) → (⟨S500000, .f32⟩ : BufTy).Contents (Elt F) → (⟨S500000, .f32⟩ : BufTy).Contents (Elt F)),
    unary main_v431 main_v432 (Host.cos : (⟨S500000, .f32⟩ : BufTy).Contents (Elt F) → (⟨S500000, .f32⟩ : BufTy).Contents (Elt F)),
    unary main_v432 main_v433 (broadcastInDim S500000x1x1 ![0] bcast_S500000_S500000x1x1_0 : (⟨S500000, .f32⟩ : BufTy).Contents (Elt F) → (⟨S500000x1x1, .f32⟩ : BufTy).Contents (Elt F)),
    unary main_v431 main_v434 (Host.sin : (⟨S500000, .f32⟩ : BufTy).Contents (Elt F) → (⟨S500000, .f32⟩ : BufTy).Contents (Elt F)),
    unary main_v434 main_v435 (broadcastInDim S500000x1x1 ![0] bcast_S500000_S500000x1x1_0 : (⟨S500000, .f32⟩ : BufTy).Contents (Elt F) → (⟨S500000x1x1, .f32⟩ : BufTy).Contents (Elt F)),
    unary main_v429 main_v436 ((extractStridedSlice S500000x1x1x4 ![0, 0, 0, 0] · slices_S500000x1x2x4_S500000x1x1x4_0_0_0_0) : (⟨S500000x1x2x4, .f32⟩ : BufTy).Contents (Elt F) → (⟨S500000x1x1x4, .f32⟩ : BufTy).Contents (Elt F)),
    reshape main_v436 main_v437 rfl shapeCasts_S500000x1x1x4_S500000x1x4,
    unary main_v429 main_v438 ((extractStridedSlice S500000x1x1x4 ![0, 0, 1, 0] · slices_S500000x1x2x4_S500000x1x1x4_0_0_1_0) : (⟨S500000x1x2x4, .f32⟩ : BufTy).Contents (Elt F) → (⟨S500000x1x1x4, .f32⟩ : BufTy).Contents (Elt F)),
    reshape main_v438 main_v439 rfl shapeCasts_S500000x1x1x4_S500000x1x4,
    unary main_v433 main_v440 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v440 main_v437 main_v441 (mulf : (⟨S500000x1x4, .f32⟩ : BufTy).Contents (Elt F) → (⟨S500000x1x4, .f32⟩ : BufTy).Contents (Elt F) → (⟨S500000x1x4, .f32⟩ : BufTy).Contents (Elt F)),
    unary main_v435 main_v442 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v442 main_v439 main_v443 (mulf : (⟨S500000x1x4, .f32⟩ : BufTy).Contents (Elt F) → (⟨S500000x1x4, .f32⟩ : BufTy).Contents (Elt F) → (⟨S500000x1x4, .f32⟩ : BufTy).Contents (Elt F)),
    binary main_v441 main_v443 main_v444 (subf : (⟨S500000x1x4, .f32⟩ : BufTy).Contents (Elt F) → (⟨S500000x1x4, .f32⟩ : BufTy).Contents (Elt F) → (⟨S500000x1x4, .f32⟩ : BufTy).Contents (Elt F)),
    unary main_v435 main_v445 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v445 main_v437 main_v446 (mulf : (⟨S500000x1x4, .f32⟩ : BufTy).Contents (Elt F) → (⟨S500000x1x4, .f32⟩ : BufTy).Contents (Elt F) → (⟨S500000x1x4, .f32⟩ : BufTy).Contents (Elt F)),
    unary main_v433 main_v447 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v447 main_v439 main_v448 (mulf : (⟨S500000x1x4, .f32⟩ : BufTy).Contents (Elt F) → (⟨S500000x1x4, .f32⟩ : BufTy).Contents (Elt F) → (⟨S500000x1x4, .f32⟩ : BufTy).Contents (Elt F)),
    binary main_v446 main_v448 main_v449 (addf : (⟨S500000x1x4, .f32⟩ : BufTy).Contents (Elt F) → (⟨S500000x1x4, .f32⟩ : BufTy).Contents (Elt F) → (⟨S500000x1x4, .f32⟩ : BufTy).Contents (Elt F)),
    unary main_v444 main_v450 (broadcastInDim S500000x1x1x4 ![0, 1, 3] bcast_S500000x1x4_S500000x1x1x4_0_1_3 : (⟨S500000x1x4, .f32⟩ : BufTy).Contents (Elt F) → (⟨S500000x1x1x4, .f32⟩ : BufTy).Contents (Elt F)),
    unary main_v449 main_v451 (broadcastInDim S500000x1x1x4 ![0, 1, 3] bcast_S500000x1x4_S500000x1x1x4_0_1_3 : (⟨S500000x1x4, .f32⟩ : BufTy).Contents (Elt F) → (⟨S500000x1x1x4, .f32⟩ : BufTy).Contents (Elt F)),
    binary main_v450 main_v451 main_v452 ((fun a b => concatenate S500000x1x2x4 2 [⟨S500000x1x1x4, a⟩, ⟨S500000x1x1x4, b⟩] concatenates_S500000x1x1x4_S500000x1x1x4_S500000x1x2x4_d2) : (⟨S500000x1x1x4, .f32⟩ : BufTy).Contents (Elt F) → (⟨S500000x1x1x4, .f32⟩ : BufTy).Contents (Elt F) → (⟨S500000x1x2x4, .f32⟩ : BufTy).Contents (Elt F)),
    reshape main_v452 main_v453 rfl shapeCasts_S500000x1x2x4_S500000x8 ]

theorem valC0D5 (V : Valuation τ sig (Elt F)) :
    after (opsC0D5 (F := F)) V (no_index (Proc.devRef .tc main_v453)) = ryD2Fn (V (Proc.devRef .tc main_v426)) (((extractStridedSlice S500000x1 ![0, 5] · slices_S500000x9_S500000x1_0_5) : (⟨S500000x9, .f32⟩ : BufTy).Contents (Elt F) → (⟨S500000x1, .f32⟩ : BufTy).Contents (Elt F)) (V (Proc.devRef .tc main_v290))) := by
  unfold opsC0D5
  after_results_simp
  rfl

noncomputable def wrC0D5 : List (Ref sig .tc) := [main_v427, main_v428, main_v429, main_cst_25, main_v430, main_v431, main_v432, main_v433, main_v434, main_v435, main_v436, main_v437, main_v438, main_v439, main_v440, main_v441, main_v442, main_v443, main_v444, main_v445, main_v446, main_v447, main_v448, main_v449, main_v450, main_v451, main_v452, main_v453]

theorem subC0D5 : (opsC0D5 : List (HloOp τ sig (Elt F))).Forall fun op => op.bufs ⊆ tcRefs τ sig := by
  unfold opsC0D5
  exact ⟨unary_bufs_sub .., reshape_bufs_sub .., reshape_bufs_sub .., nullary_bufs_sub .., unary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC0D5 : ∀ op ∈ (opsC0D5 : List (HloOp τ sig (Elt F))), op.fresh = ∅ := by
  unfold opsC0D5
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl⟩

theorem keepC0D5 (V : Valuation τ sig (Elt F)) (r : Ref sig .tc) (hr : r ∉ wrC0D5) :
    after (opsC0D5 (F := F)) V (no_index (Proc.devRef .tc r)) = V (Proc.devRef .tc r) :=
  after_of_writes_sub _ V (W := wrC0D5) (by
    unfold opsC0D5 wrC0D5
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))⟩) hr

end Cert.Quanv.Ref

end
-- ==== Proof.RefOps.C0E.lean ====
/- TABLE written by: bun scratch/gen_ref.js <unit> ops — stretches C0D6, C0D7, C0D8 of the reference's host program: per stretch the list of its operations, what it leaves
   in its result buffer as the kind's function of what it reads, and that it writes nothing else. -/
import proofs.«180459_j52956946760354_2_alg».proof.Proof.RefFns
import Idealize.ShloMosaic.Lib.StableHlo.Run

noncomputable section

namespace Cert.Quanv.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-! ## Stretch C0D6 (operations 507 … 534, kind ryD0) -/

noncomputable def opsC0D6 : List (HloOp τ sig (Elt F)) :=
  [ unary main_v290 main_v454 ((extractStridedSlice S500000x1 ![0, 6] · slices_S500000x9_S500000x1_0_6) : (⟨S500000x9, .f32⟩ : BufTy).Contents (Elt F) → (⟨S500000x1, .f32⟩ : BufTy).Contents (Elt F)),
    reshape main_v454 main_v455 rfl shapeCasts_S500000x1_S500000,
    reshape main_v453 main_v456 rfl shapeCasts_S500000x8_S500000x4x2x1,
    nullary main_cst_26 (constant S_ .f32 0x3F000000#32),
    unary main_cst_26 main_v457 (broadcastInDim S500000 ![] bcast_S_S500000 : (⟨S_, .f32⟩ : BufTy).Contents (Elt F) → (⟨S500000, .f32⟩ : BufTy).Contents (Elt F)),
    binary main_v455 main_v457 main_v458 (mulf : (⟨S500000, .f32⟩ : BufTy).Contents (Elt F) → (⟨S500000, .f32⟩ : BufTy).Contents (Elt F) → (⟨S500000, .f32⟩ : BufTy).Contents (Elt F)),
    unary main_v458 main_v459 (Host.cos : (⟨S500000, .f32⟩ : BufTy).Contents (Elt F) → (⟨S500000, .f32⟩ : BufTy).Contents (Elt F)),
    unary main_v459 main_v460 (broadcastInDim S500000x1x1 ![0] bcast_S500000_S500000x1x1_0 : (⟨S500000, .f32⟩ : BufTy).Contents (Elt F) → (⟨S500000x1x1, .f32⟩ : BufTy).Contents (Elt F)),
    unary main_v458 main_v461 (Host.sin : (⟨S500000, .f32⟩ : BufTy).Contents (Elt F) → (⟨S500000, .f32⟩ : BufTy).Contents (Elt F)),
    unary main_v461 main_v462 (broadcastInDim S500000x1x1 ![0] bcast_S500000_S500000x1x1_0 : (⟨S500000, .f32⟩ : BufTy).Contents (Elt F) → (⟨S500000x1x1, .f32⟩ : BufTy).Contents (Elt F)),
    unary main_v456 main_v463 ((extractStridedSlice S500000x4x1x1 ![0, 0, 0, 0] · slices_S500000x4x2x1_S500000x4x1x1_0_0_0_0) : (⟨S500000x4x2x1, .f32⟩ : BufTy).Contents (Elt F) → (⟨S500000x4x1x1, .f32⟩ : BufTy).Contents (Elt F)),
    reshape main_v463 main_v464 rfl shapeCasts_S500000x4x1x1_S500000x4x1,
    unary main_v456 main_v465 ((extractStridedSlice S500000x4x1x1 ![0, 0, 1, 0] · slices_S500000x4x2x1_S500000x4x1x1_0_0_1_0) : (⟨S500000x4x2x1, .f32⟩ : BufTy).Contents (Elt F) → (⟨S500000x4x1x1, .f32⟩ : BufTy).Contents (Elt F)),
    reshape main_v465 main_v466 rfl shapeCasts_S500000x4x1x1_S500000x4x1,
    unary main_v460 main_v467 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v467 main_v464 main_v468 (mulf : (⟨S500000x4x1, .f32⟩ : BufTy).Contents (Elt F) → (⟨S500000x4x1, .f32⟩ : BufTy).Contents (Elt F) → (⟨S500000x4x1, .f32⟩ : BufTy).Contents (Elt F)),
    unary main_v462 main_v469 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v469 main_v466 main_v470 (mulf : (⟨S500000x4x1, .f32⟩ : BufTy).Contents (Elt F) → (⟨S500000x4x1, .f32⟩ : BufTy).Contents (Elt F) → (⟨S500000x4x1, .f32⟩ : BufTy).Contents (Elt F)),
    binary main_v468 main_v470 main_v471 (subf : (⟨S500000x4x1, .f32⟩ : BufTy).Contents (Elt F) → (⟨S500000x4x1, .f32⟩ : BufTy).Contents (Elt F) → (⟨S500000x4x1, .f32⟩ : BufTy).Contents (Elt F)),
    unary main_v462 main_v472 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v472 main_v464 main_v473 (mulf : (⟨S500000x4x1, .f32⟩ : BufTy).Contents (Elt F) → (⟨S500000x4x1, .f32⟩ : BufTy).Contents (Elt F) → (⟨S500000x4x1, .f32⟩ : BufTy).Contents (Elt F)),
    unary main_v460 main_v474 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v474 main_v466 main_v475 (mulf : (⟨S500000x4x1, .f32⟩ : BufTy).Contents (Elt F) → (⟨S500000x4x1, .f32⟩ : BufTy).Contents (Elt F) → (⟨S500000x4x1, .f32⟩ : BufTy).Contents (Elt F)),
    binary main_v473 main_v475 main_v476 (addf : (⟨S500000x4x1, .f32⟩ : BufTy).Contents (Elt F) → (⟨S500000x4x1, .f32⟩ : BufTy).Contents (Elt F) → (⟨S500000x4x1, .f32⟩ : BufTy).Contents (Elt F)),
    unary main_v471 main_v477 (broadcastInDim S500000x4x1x1 ![0, 1, 3] bcast_S500000x4x1_S500000x4x1x1_0_1_3 : (⟨S500000x4x1, .f32⟩ : BufTy).Contents (Elt F) → (⟨S500000x4x1x1, .f32⟩ : BufTy).Contents (Elt F)),
    unary main_v476 main_v478 (broadcastInDim S500000x4x1x1 ![0, 1, 3] bcast_S500000x4x1_S500000x4x1x1_0_1_3 : (⟨S500000x4x1, .f32⟩ : BufTy).Contents (Elt F) → (⟨S500000x4x1x1, .f32⟩ : BufTy).Contents (Elt F)),
    binary main_v477 main_v478 main_v479 ((fun a b => concatenate S500000x4x2x1 2 [⟨S500000x4x1x1, a⟩, ⟨S500000x4x1x1, b⟩] concatenates_S500000x4x1x1_S500000x4x1x1_S500000x4x2x1_d2) : (⟨S500000x4x1x1, .f32⟩ : BufTy).Contents (Elt F) → (⟨S500000x4x1x1, .f32⟩ : BufTy).Contents (Elt F) → (⟨S500000x4x2x1, .f32⟩ : BufTy).Contents (Elt F)),
    reshape main_v479 main_v480 rfl shapeCasts_S500000x4x2x1_S500000x8 ]

theorem valC0D6 (V : Valuation τ sig (Elt F)) :
    after (opsC0D6 (F := F)) V (no_index (Proc.devRef .tc main_v480)) = ryD0Fn (V (Proc.devRef .tc main_v453)) (((extractStridedSlice S500000x1 ![0, 6] · slices_S500000x9_S500000x1_0_6) : (⟨S500000x9, .f32⟩ : BufTy).Contents (Elt F) → (⟨S500000x1, .f32⟩ : BufTy).Contents (Elt F)) (V (Proc.devRef .tc main_v290))) := by
  unfold opsC0D6
  after_results_simp
  rfl

noncomputable def wrC0D6 : List (Ref sig .tc) := [main_v454, main_v455, main_v456, main_cst_26, main_v457, main_v458, main_v459, main_v460, main_v461, main_v462, main_v463, main_v464, main_v465, main_v466, main_v467, main_v468, main_v469, main_v470, main_v471, main_v472, main_v473, main_v474, main_v475, main_v476, main_v477, main_v478, main_v479, main_v480]

theorem subC0D6 : (opsC0D6 : List (HloOp τ sig (Elt F))).Forall fun op => op.bufs ⊆ tcRefs τ sig := by
  unfold opsC0D6
  exact ⟨unary_bufs_sub .., reshape_bufs_sub .., reshape_bufs_sub .., nullary_bufs_sub .., unary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC0D6 : ∀ op ∈ (opsC0D6 : List (HloOp τ sig (Elt F))), op.fresh = ∅ := by
  unfold opsC0D6
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl⟩

theorem keepC0D6 (V : Valuation τ sig (Elt F)) (r : Ref sig .tc) (hr : r ∉ wrC0D6) :
    after (opsC0D6 (F := F)) V (no_index (Proc.devRef .tc r)) = V (Proc.devRef .tc r) :=
  after_of_writes_sub _ V (W := wrC0D6) (by
    unfold opsC0D6 wrC0D6
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))⟩) hr

/-! ## Stretch C0D7 (operations 535 … 562, kind ryD1) -/

noncomputable def opsC0D7 : List (HloOp τ sig (Elt F)) :=
  [ unary main_v290 main_v481 ((extractStridedSlice S500000x1 ![0, 7] · slices_S500000x9_S500000x1_0_7) : (⟨S500000x9, .f32⟩ : BufTy).Contents (Elt F) → (⟨S500000x1, .f32⟩ : BufTy).Contents (Elt F)),
    reshape main_v481 main_v482 rfl shapeCasts_S500000x1_S500000,
    reshape main_v480 main_v483 rfl shapeCasts_S500000x8_S500000x2x2x2,
    nullary main_cst_27 (constant S_ .f32 0x3F000000#32),
    unary main_cst_27 main_v484 (broadcastInDim S500000 ![] bcast_S_S500000 : (⟨S_, .f32⟩ : BufTy).Contents (Elt F) → (⟨S500000, .f32⟩ : BufTy).Contents (Elt F)),
    binary main_v482 main_v484 main_v485 (mulf : (⟨S500000, .f32⟩ : BufTy).Contents (Elt F) → (⟨S500000, .f32⟩ : BufTy).Contents (Elt F) → (⟨S500000, .f32⟩ : BufTy).Contents (Elt F)),
    unary main_v485 main_v486 (Host.cos : (⟨S500000, .f32⟩ : BufTy).Contents (Elt F) → (⟨S500000, .f32⟩ : BufTy).Contents (Elt F)),
    unary main_v486 main_v487 (broadcastInDim S500000x1x1 ![0] bcast_S500000_S500000x1x1_0 : (⟨S500000, .f32⟩ : BufTy).Contents (Elt F) → (⟨S500000x1x1, .f32⟩ : BufTy).Contents (Elt F)),
    unary main_v485 main_v488 (Host.sin : (⟨S500000, .f32⟩ : BufTy).Contents (Elt F) → (⟨S500000, .f32⟩ : BufTy).Contents (Elt F)),
    unary main_v488 main_v489 (broadcastInDim S500000x1x1 ![0] bcast_S500000_S500000x1x1_0 : (⟨S500000, .f32⟩ : BufTy).Contents (Elt F) → (⟨S500000x1x1, .f32⟩ : BufTy).Contents (Elt F)),
    unary main_v483 main_v490 ((extractStridedSlice S500000x2x1x2 ![0, 0, 0, 0] · slices_S500000x2x2x2_S500000x2x1x2_0_0_0_0) : (⟨S500000x2x2x2, .f32⟩ : BufTy).Contents (Elt F) → (⟨S500000x2x1x2, .f32⟩ : BufTy).Contents (Elt F)),
    reshape main_v490 main_v491 rfl shapeCasts_S500000x2x1x2_S500000x2x2,
    unary main_v483 main_v492 ((extractStridedSlice S500000x2x1x2 ![0, 0, 1, 0] · slices_S500000x2x2x2_S500000x2x1x2_0_0_1_0) : (⟨S500000x2x2x2, .f32⟩ : BufTy).Contents (Elt F) → (⟨S500000x2x1x2, .f32⟩ : BufTy).Contents (Elt F)),
    reshape main_v492 main_v493 rfl shapeCasts_S500000x2x1x2_S500000x2x2,
    unary main_v487 main_v494 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v494 main_v491 main_v495 (mulf : (⟨S500000x2x2, .f32⟩ : BufTy).Contents (Elt F) → (⟨S500000x2x2, .f32⟩ : BufTy).Contents (Elt F) → (⟨S500000x2x2, .f32⟩ : BufTy).Contents (Elt F)),
    unary main_v489 main_v496 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v496 main_v493 main_v497 (mulf : (⟨S500000x2x2, .f32⟩ : BufTy).Contents (Elt F) → (⟨S500000x2x2, .f32⟩ : BufTy).Contents (Elt F) → (⟨S500000x2x2, .f32⟩ : BufTy).Contents (Elt F)),
    binary main_v495 main_v497 main_v498 (subf : (⟨S500000x2x2, .f32⟩ : BufTy).Contents (Elt F) → (⟨S500000x2x2, .f32⟩ : BufTy).Contents (Elt F) → (⟨S500000x2x2, .f32⟩ : BufTy).Contents (Elt F)),
    unary main_v489 main_v499 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v499 main_v491 main_v500 (mulf : (⟨S500000x2x2, .f32⟩ : BufTy).Contents (Elt F) → (⟨S500000x2x2, .f32⟩ : BufTy).Contents (Elt F) → (⟨S500000x2x2, .f32⟩ : BufTy).Contents (Elt F)),
    unary main_v487 main_v501 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v501 main_v493 main_v502 (mulf : (⟨S500000x2x2, .f32⟩ : BufTy).Contents (Elt F) → (⟨S500000x2x2, .f32⟩ : BufTy).Contents (Elt F) → (⟨S500000x2x2, .f32⟩ : BufTy).Contents (Elt F)),
    binary main_v500 main_v502 main_v503 (addf : (⟨S500000x2x2, .f32⟩ : BufTy).Contents (Elt F) → (⟨S500000x2x2, .f32⟩ : BufTy).Contents (Elt F) → (⟨S500000x2x2, .f32⟩ : BufTy).Contents (Elt F)),
    unary main_v498 main_v504 (broadcastInDim S500000x2x1x2 ![0, 1, 3] bcast_S500000x2x2_S500000x2x1x2_0_1_3 : (⟨S500000x2x2, .f32⟩ : BufTy).Contents (Elt F) → (⟨S500000x2x1x2, .f32⟩ : BufTy).Contents (Elt F)),
    unary main_v503 main_v505 (broadcastInDim S500000x2x1x2 ![0, 1, 3] bcast_S500000x2x2_S500000x2x1x2_0_1_3 : (⟨S500000x2x2, .f32⟩ : BufTy).Contents (Elt F) → (⟨S500000x2x1x2, .f32⟩ : BufTy).Contents (Elt F)),
    binary main_v504 main_v505 main_v506 ((fun a b => concatenate S500000x2x2x2 2 [⟨S500000x2x1x2, a⟩, ⟨S500000x2x1x2, b⟩] concatenates_S500000x2x1x2_S500000x2x1x2_S500000x2x2x2_d2) : (⟨S500000x2x1x2, .f32⟩ : BufTy).Contents (Elt F) → (⟨S500000x2x1x2, .f32⟩ : BufTy).Contents (Elt F) → (⟨S500000x2x2x2, .f32⟩ : BufTy).Contents (Elt F)),
    reshape main_v506 main_v507 rfl shapeCasts_S500000x2x2x2_S500000x8 ]

theorem valC0D7 (V : Valuation τ sig (Elt F)) :
    after (opsC0D7 (F := F)) V (no_index (Proc.devRef .tc main_v507)) = ryD1Fn (V (Proc.devRef .tc main_v480)) (((extractStridedSlice S500000x1 ![0, 7] · slices_S500000x9_S500000x1_0_7) : (⟨S500000x9, .f32⟩ : BufTy).Contents (Elt F) → (⟨S500000x1, .f32⟩ : BufTy).Contents (Elt F)) (V (Proc.devRef .tc main_v290))) := by
  unfold opsC0D7
  after_results_simp
  rfl

noncomputable def wrC0D7 : List (Ref sig .tc) := [main_v481, main_v482, main_v483, main_cst_27, main_v484, main_v485, main_v486, main_v487, main_v488, main_v489, main_v490, main_v491, main_v492, main_v493, main_v494, main_v495, main_v496, main_v497, main_v498, main_v499, main_v500, main_v501, main_v502, main_v503, main_v504, main_v505, main_v506, main_v507]

theorem subC0D7 : (opsC0D7 : List (HloOp τ sig (Elt F))).Forall fun op => op.bufs ⊆ tcRefs τ sig := by
  unfold opsC0D7
  exact ⟨unary_bufs_sub .., reshape_bufs_sub .., reshape_bufs_sub .., nullary_bufs_sub .., unary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC0D7 : ∀ op ∈ (opsC0D7 : List (HloOp τ sig (Elt F))), op.fresh = ∅ := by
  unfold opsC0D7
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl⟩

theorem keepC0D7 (V : Valuation τ sig (Elt F)) (r : Ref sig .tc) (hr : r ∉ wrC0D7) :
    after (opsC0D7 (F := F)) V (no_index (Proc.devRef .tc r)) = V (Proc.devRef .tc r) :=
  after_of_writes_sub _ V (W := wrC0D7) (by
    unfold opsC0D7 wrC0D7
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))⟩) hr

/-! ## Stretch C0D8 (operations 563 … 590, kind ryD2) -/

noncomputable def opsC0D8 : List (HloOp τ sig (Elt F)) :=
  [ unary main_v290 main_v508 ((extractStridedSlice S500000x1 ![0, 8] · slices_S500000x9_S500000x1_0_8) : (⟨S500000x9, .f32⟩ : BufTy).Contents (Elt F) → (⟨S500000x1, .f32⟩ : BufTy).Contents (Elt F)),
    reshape main_v508 main_v509 rfl shapeCasts_S500000x1_S500000,
    reshape main_v507 main_v510 rfl shapeCasts_S500000x8_S500000x1x2x4,
    nullary main_cst_28 (constant S_ .f32 0x3F000000#32),
    unary main_cst_28 main_v511 (broadcastInDim S500000 ![] bcast_S_S500000 : (⟨S_, .f32⟩ : BufTy).Contents (Elt F) → (⟨S500000, .f32⟩ : BufTy).Contents (Elt F)),
    binary main_v509 main_v511 main_v512 (mulf : (⟨S500000, .f32⟩ : BufTy).Contents (Elt F) → (⟨S500000, .f32⟩ : BufTy).Contents (Elt F) → (⟨S500000, .f32⟩ : BufTy).Contents (Elt F)),
    unary main_v512 main_v513 (Host.cos : (⟨S500000, .f32⟩ : BufTy).Contents (Elt F) → (⟨S500000, .f32⟩ : BufTy).Contents (Elt F)),
    unary main_v513 main_v514 (broadcastInDim S500000x1x1 ![0] bcast_S500000_S500000x1x1_0 : (⟨S500000, .f32⟩ : BufTy).Contents (Elt F) → (⟨S500000x1x1, .f32⟩ : BufTy).Contents (Elt F)),
    unary main_v512 main_v515 (Host.sin : (⟨S500000, .f32⟩ : BufTy).Contents (Elt F) → (⟨S500000, .f32⟩ : BufTy).Contents (Elt F)),
    unary main_v515 main_v516 (broadcastInDim S500000x1x1 ![0] bcast_S500000_S500000x1x1_0 : (⟨S500000, .f32⟩ : BufTy).Contents (Elt F) → (⟨S500000x1x1, .f32⟩ : BufTy).Contents (Elt F)),
    unary main_v510 main_v517 ((extractStridedSlice S500000x1x1x4 ![0, 0, 0, 0] · slices_S500000x1x2x4_S500000x1x1x4_0_0_0_0) : (⟨S500000x1x2x4, .f32⟩ : BufTy).Contents (Elt F) → (⟨S500000x1x1x4, .f32⟩ : BufTy).Contents (Elt F)),
    reshape main_v517 main_v518 rfl shapeCasts_S500000x1x1x4_S500000x1x4,
    unary main_v510 main_v519 ((extractStridedSlice S500000x1x1x4 ![0, 0, 1, 0] · slices_S500000x1x2x4_S500000x1x1x4_0_0_1_0) : (⟨S500000x1x2x4, .f32⟩ : BufTy).Contents (Elt F) → (⟨S500000x1x1x4, .f32⟩ : BufTy).Contents (Elt F)),
    reshape main_v519 main_v520 rfl shapeCasts_S500000x1x1x4_S500000x1x4,
    unary main_v514 main_v521 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v521 main_v518 main_v522 (mulf : (⟨S500000x1x4, .f32⟩ : BufTy).Contents (Elt F) → (⟨S500000x1x4, .f32⟩ : BufTy).Contents (Elt F) → (⟨S500000x1x4, .f32⟩ : BufTy).Contents (Elt F)),
    unary main_v516 main_v523 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v523 main_v520 main_v524 (mulf : (⟨S500000x1x4, .f32⟩ : BufTy).Contents (Elt F) → (⟨S500000x1x4, .f32⟩ : BufTy).Contents (Elt F) → (⟨S500000x1x4, .f32⟩ : BufTy).Contents (Elt F)),
    binary main_v522 main_v524 main_v525 (subf : (⟨S500000x1x4, .f32⟩ : BufTy).Contents (Elt F) → (⟨S500000x1x4, .f32⟩ : BufTy).Contents (Elt F) → (⟨S500000x1x4, .f32⟩ : BufTy).Contents (Elt F)),
    unary main_v516 main_v526 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v526 main_v518 main_v527 (mulf : (⟨S500000x1x4, .f32⟩ : BufTy).Contents (Elt F) → (⟨S500000x1x4, .f32⟩ : BufTy).Contents (Elt F) → (⟨S500000x1x4, .f32⟩ : BufTy).Contents (Elt F)),
    unary main_v514 main_v528 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v528 main_v520 main_v529 (mulf : (⟨S500000x1x4, .f32⟩ : BufTy).Contents (Elt F) → (⟨S500000x1x4, .f32⟩ : BufTy).Contents (Elt F) → (⟨S500000x1x4, .f32⟩ : BufTy).Contents (Elt F)),
    binary main_v527 main_v529 main_v530 (addf : (⟨S500000x1x4, .f32⟩ : BufTy).Contents (Elt F) → (⟨S500000x1x4, .f32⟩ : BufTy).Contents (Elt F) → (⟨S500000x1x4, .f32⟩ : BufTy).Contents (Elt F)),
    unary main_v525 main_v531 (broadcastInDim S500000x1x1x4 ![0, 1, 3] bcast_S500000x1x4_S500000x1x1x4_0_1_3 : (⟨S500000x1x4, .f32⟩ : BufTy).Contents (Elt F) → (⟨S500000x1x1x4, .f32⟩ : BufTy).Contents (Elt F)),
    unary main_v530 main_v532 (broadcastInDim S500000x1x1x4 ![0, 1, 3] bcast_S500000x1x4_S500000x1x1x4_0_1_3 : (⟨S500000x1x4, .f32⟩ : BufTy).Contents (Elt F) → (⟨S500000x1x1x4, .f32⟩ : BufTy).Contents (Elt F)),
    binary main_v531 main_v532 main_v533 ((fun a b => concatenate S500000x1x2x4 2 [⟨S500000x1x1x4, a⟩, ⟨S500000x1x1x4, b⟩] concatenates_S500000x1x1x4_S500000x1x1x4_S500000x1x2x4_d2) : (⟨S500000x1x1x4, .f32⟩ : BufTy).Contents (Elt F) → (⟨S500000x1x1x4, .f32⟩ : BufTy).Contents (Elt F) → (⟨S500000x1x2x4, .f32⟩ : BufTy).Contents (Elt F)),
    reshape main_v533 main_v534 rfl shapeCasts_S500000x1x2x4_S500000x8 ]

theorem valC0D8 (V : Valuation τ sig (Elt F)) :
    after (opsC0D8 (F := F)) V (no_index (Proc.devRef .tc main_v534)) = ryD2Fn (V (Proc.devRef .tc main_v507)) (((extractStridedSlice S500000x1 ![0, 8] · slices_S500000x9_S500000x1_0_8) : (⟨S500000x9, .f32⟩ : BufTy).Contents (Elt F) → (⟨S500000x1, .f32⟩ : BufTy).Contents (Elt F)) (V (Proc.devRef .tc main_v290))) := by
  unfold opsC0D8
  after_results_simp
  rfl

noncomputable def wrC0D8 : List (Ref sig .tc) := [main_v508, main_v509, main_v510, main_cst_28, main_v511, main_v512, main_v513, main_v514, main_v515, main_v516, main_v517, main_v518, main_v519, main_v520, main_v521, main_v522, main_v523, main_v524, main_v525, main_v526, main_v527, main_v528, main_v529, main_v530, main_v531, main_v532, main_v533, main_v534]

theorem subC0D8 : (opsC0D8 : List (HloOp τ sig (Elt F))).Forall fun op => op.bufs ⊆ tcRefs τ sig := by
  unfold opsC0D8
  exact ⟨unary_bufs_sub .., reshape_bufs_sub .., reshape_bufs_sub .., nullary_bufs_sub .., unary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC0D8 : ∀ op ∈ (opsC0D8 : List (HloOp τ sig (Elt F))), op.fresh = ∅ := by
  unfold opsC0D8
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl⟩

theorem keepC0D8 (V : Valuation τ sig (Elt F)) (r : Ref sig .tc) (hr : r ∉ wrC0D8) :
    after (opsC0D8 (F := F)) V (no_index (Proc.devRef .tc r)) = V (Proc.devRef .tc r) :=
  after_of_writes_sub _ V (W := wrC0D8) (by
    unfold opsC0D8 wrC0D8
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))⟩) hr

end Cert.Quanv.Ref

end
-- ==== Proof.RefOps.C0F.lean ====
/- TABLE written by: bun scratch/gen_ref.js <unit> ops — stretches C0DX01, C0DX12, C0Tail of the reference's host program: per stretch the list of its operations, what it leaves
   in its result buffer as the kind's function of what it reads, and that it writes nothing else. -/
import proofs.«180459_j52956946760354_2_alg».proof.Proof.RefFns
import Idealize.ShloMosaic.Lib.StableHlo.Run

noncomputable section

namespace Cert.Quanv.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-! ## Stretch C0DX01 (operations 591 … 610, kind cxDa) -/

noncomputable def opsC0DX01 : List (HloOp τ sig (Elt F)) :=
  [ nullary main_v535 (iotaInDim S8 32 0),
    nullary main_c_29 (constantI S_ 32 0#32),
    unary main_c_29 main_v536 (broadcastInDim S8 ![] bcast_S_S8 : (⟨S_, .i32⟩ : BufTy).Contents (Elt F) → (⟨S8, .i32⟩ : BufTy).Contents (Elt F)),
    binary main_v535 main_v536 main_v537 (Host.shrsi : (⟨S8, .i32⟩ : BufTy).Contents (Elt F) → (⟨S8, .i32⟩ : BufTy).Contents (Elt F) → (⟨S8, .i32⟩ : BufTy).Contents (Elt F)),
    nullary main_c_30 (constantI S_ 32 1#32),
    unary main_c_30 main_v538 (broadcastInDim S8 ![] bcast_S_S8 : (⟨S_, .i32⟩ : BufTy).Contents (Elt F) → (⟨S8, .i32⟩ : BufTy).Contents (Elt F)),
    binary main_v537 main_v538 main_v539 (andi : (⟨S8, .i32⟩ : BufTy).Contents (Elt F) → (⟨S8, .i32⟩ : BufTy).Contents (Elt F) → (⟨S8, .i32⟩ : BufTy).Contents (Elt F)),
    nullary main_c_31 (constantI S_ 32 1#32),
    unary main_c_31 main_v540 (broadcastInDim S8 ![] bcast_S_S8 : (⟨S_, .i32⟩ : BufTy).Contents (Elt F) → (⟨S8, .i32⟩ : BufTy).Contents (Elt F)),
    binary main_v539 main_v540 main_v541 (Host.shli : (⟨S8, .i32⟩ : BufTy).Contents (Elt F) → (⟨S8, .i32⟩ : BufTy).Contents (Elt F) → (⟨S8, .i32⟩ : BufTy).Contents (Elt F)),
    binary main_v535 main_v541 main_v542 (xori : (⟨S8, .i32⟩ : BufTy).Contents (Elt F) → (⟨S8, .i32⟩ : BufTy).Contents (Elt F) → (⟨S8, .i32⟩ : BufTy).Contents (Elt F)),
    nullary main_c_32 (constantI S_ 32 0#32),
    unary main_c_32 main_v543 (broadcastInDim S8 ![] bcast_S_S8 : (⟨S_, .i32⟩ : BufTy).Contents (Elt F) → (⟨S8, .i32⟩ : BufTy).Contents (Elt F)),
    binary main_v542 main_v543 main_v544 (cmpi .slt : (⟨S8, .i32⟩ : BufTy).Contents (Elt F) → (⟨S8, .i32⟩ : BufTy).Contents (Elt F) → (⟨S8, .i1⟩ : BufTy).Contents (Elt F)),
    nullary main_c_33 (constantI S_ 32 8#32),
    unary main_c_33 main_v545 (broadcastInDim S8 ![] bcast_S_S8 : (⟨S_, .i32⟩ : BufTy).Contents (Elt F) → (⟨S8, .i32⟩ : BufTy).Contents (Elt F)),
    binary main_v542 main_v545 main_v546 (addi : (⟨S8, .i32⟩ : BufTy).Contents (Elt F) → (⟨S8, .i32⟩ : BufTy).Contents (Elt F) → (⟨S8, .i32⟩ : BufTy).Contents (Elt F)),
    ternary main_v544 main_v546 main_v542 main_v547 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_v547 main_v548 (broadcastInDim S8x1 ![0] bcast_S8_S8x1_0 : (⟨S8, .i32⟩ : BufTy).Contents (Elt F) → (⟨S8x1, .i32⟩ : BufTy).Contents (Elt F)),
    binary main_v534 main_v548 main_v549 ((fun x i => Host.gather gather_S500000x8_S8x1_S500000x8_0_1_n_n_1_1_5000001 x i) : (⟨S500000x8, .f32⟩ : BufTy).Contents (Elt F) → (⟨S8x1, .i32⟩ : BufTy).Contents (Elt F) → (⟨S500000x8, .f32⟩ : BufTy).Contents (Elt F)) ]

theorem valC0DX01 (V : Valuation τ sig (Elt F)) :
    after (opsC0DX01 (F := F)) V (no_index (Proc.devRef .tc main_v549)) = cxDaFn (V (Proc.devRef .tc main_v534)) := by
  unfold opsC0DX01
  after_results_simp
  rfl

noncomputable def wrC0DX01 : List (Ref sig .tc) := [main_v535, main_c_29, main_v536, main_v537, main_c_30, main_v538, main_v539, main_c_31, main_v540, main_v541, main_v542, main_c_32, main_v543, main_v544, main_c_33, main_v545, main_v546, main_v547, main_v548, main_v549]

theorem subC0DX01 : (opsC0DX01 : List (HloOp τ sig (Elt F))).Forall fun op => op.bufs ⊆ tcRefs τ sig := by
  unfold opsC0DX01
  exact ⟨nullary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem freshC0DX01 : ∀ op ∈ (opsC0DX01 : List (HloOp τ sig (Elt F))), op.fresh = ∅ := by
  unfold opsC0DX01
  exact List.forall_iff_forall_mem.mp ⟨rfl, rfl, rfl, rfl, rfl, rfl, rfl, rfl, rfl, rfl, rfl, rfl, rfl, rfl, rfl, rfl, rfl, rfl, rfl, rfl⟩

theorem keepC0DX01 (V : Valuation τ sig (Elt F)) (r : Ref sig .tc) (hr : r ∉ wrC0DX01) :
    after (opsC0DX01 (F := F)) V (no_index (Proc.devRef .tc r)) = V (Proc.devRef .tc r) :=
  after_of_writes_sub _ V (W := wrC0DX01) (by
    unfold opsC0DX01 wrC0DX01
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))⟩) hr

/-! ## Stretch C0DX12 (operations 611 … 630, kind cxDb) -/

noncomputable def opsC0DX12 : List (HloOp τ sig (Elt F)) :=
  [ nullary main_v550 (iotaInDim S8 32 0),
    nullary main_c_34 (constantI S_ 32 1#32),
    unary main_c_34 main_v551 (broadcastInDim S8 ![] bcast_S_S8 : (⟨S_, .i32⟩ : BufTy).Contents (Elt F) → (⟨S8, .i32⟩ : BufTy).Contents (Elt F)),
    binary main_v550 main_v551 main_v552 (Host.shrsi : (⟨S8, .i32⟩ : BufTy).Contents (Elt F) → (⟨S8, .i32⟩ : BufTy).Contents (Elt F) → (⟨S8, .i32⟩ : BufTy).Contents (Elt F)),
    nullary main_c_35 (constantI S_ 32 1#32),
    unary main_c_35 main_v553 (broadcastInDim S8 ![] bcast_S_S8 : (⟨S_, .i32⟩ : BufTy).Contents (Elt F) → (⟨S8, .i32⟩ : BufTy).Contents (Elt F)),
    binary main_v552 main_v553 main_v554 (andi : (⟨S8, .i32⟩ : BufTy).Contents (Elt F) → (⟨S8, .i32⟩ : BufTy).Contents (Elt F) → (⟨S8, .i32⟩ : BufTy).Contents (Elt F)),
    nullary main_c_36 (constantI S_ 32 2#32),
    unary main_c_36 main_v555 (broadcastInDim S8 ![] bcast_S_S8 : (⟨S_, .i32⟩ : BufTy).Contents (Elt F) → (⟨S8, .i32⟩ : BufTy).Contents (Elt F)),
    binary main_v554 main_v555 main_v556 (Host.shli : (⟨S8, .i32⟩ : BufTy).Contents (Elt F) → (⟨S8, .i32⟩ : BufTy).Contents (Elt F) → (⟨S8, .i32⟩ : BufTy).Contents (Elt F)),
    binary main_v550 main_v556 main_v557 (xori : (⟨S8, .i32⟩ : BufTy).Contents (Elt F) → (⟨S8, .i32⟩ : BufTy).Contents (Elt F) → (⟨S8, .i32⟩ : BufTy).Contents (Elt F)),
    nullary main_c_37 (constantI S_ 32 0#32),
    unary main_c_37 main_v558 (broadcastInDim S8 ![] bcast_S_S8 : (⟨S_, .i32⟩ : BufTy).Contents (Elt F) → (⟨S8, .i32⟩ : BufTy).Contents (Elt F)),
    binary main_v557 main_v558 main_v559 (cmpi .slt : (⟨S8, .i32⟩ : BufTy).Contents (Elt F) → (⟨S8, .i32⟩ : BufTy).Contents (Elt F) → (⟨S8, .i1⟩ : BufTy).Contents (Elt F)),
    nullary main_c_38 (constantI S_ 32 8#32),
    unary main_c_38 main_v560 (broadcastInDim S8 ![] bcast_S_S8 : (⟨S_, .i32⟩ : BufTy).Contents (Elt F) → (⟨S8, .i32⟩ : BufTy).Contents (Elt F)),
    binary main_v557 main_v560 main_v561 (addi : (⟨S8, .i32⟩ : BufTy).Contents (Elt F) → (⟨S8, .i32⟩ : BufTy).Contents (Elt F) → (⟨S8, .i32⟩ : BufTy).Contents (Elt F)),
    ternary main_v559 main_v561 main_v557 main_v562 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_v562 main_v563 (broadcastInDim S8x1 ![0] bcast_S8_S8x1_0 : (⟨S8, .i32⟩ : BufTy).Contents (Elt F) → (⟨S8x1, .i32⟩ : BufTy).Contents (Elt F)),
    binary main_v549 main_v563 main_v564 ((fun x i => Host.gather gather_S500000x8_S8x1_S500000x8_0_1_n_n_1_1_5000001 x i) : (⟨S500000x8, .f32⟩ : BufTy).Contents (Elt F) → (⟨S8x1, .i32⟩ : BufTy).Contents (Elt F) → (⟨S500000x8, .f32⟩ : BufTy).Contents (Elt F)) ]

theorem valC0DX12 (V : Valuation τ sig (Elt F)) :
    after (opsC0DX12 (F := F)) V (no_index (Proc.devRef .tc main_v564)) = cxDbFn (V (Proc.devRef .tc main_v549)) := by
  unfold opsC0DX12
  after_results_simp
  rfl

noncomputable def wrC0DX12 : List (Ref sig .tc) := [main_v550, main_c_34, main_v551, main_v552, main_c_35, main_v553, main_v554, main_c_36, main_v555, main_v556, main_v557, main_c_37, main_v558, main_v559, main_c_38, main_v560, main_v561, main_v562, main_v563, main_v564]

theorem subC0DX12 : (opsC0DX12 : List (HloOp τ sig (Elt F))).Forall fun op => op.bufs ⊆ tcRefs τ sig := by
  unfold opsC0DX12
  exact ⟨nullary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem freshC0DX12 : ∀ op ∈ (opsC0DX12 : List (HloOp τ sig (Elt F))), op.fresh = ∅ := by
  unfold opsC0DX12
  exact List.forall_iff_forall_mem.mp ⟨rfl, rfl, rfl, rfl, rfl, rfl, rfl, rfl, rfl, rfl, rfl, rfl, rfl, rfl, rfl, rfl, rfl, rfl, rfl, rfl⟩

theorem keepC0DX12 (V : Valuation τ sig (Elt F)) (r : Ref sig .tc) (hr : r ∉ wrC0DX12) :
    after (opsC0DX12 (F := F)) V (no_index (Proc.devRef .tc r)) = V (Proc.devRef .tc r) :=
  after_of_writes_sub _ V (W := wrC0DX12) (by
    unfold opsC0DX12 wrC0DX12
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))⟩) hr

/-! ## Stretch C0Tail (operations 631 … 634, kind tail) -/

noncomputable def opsC0Tail : List (HloOp τ sig (Elt F)) :=
  [ binary main_v564 main_v564 main_v565 (mulf : (⟨S500000x8, .f32⟩ : BufTy).Contents (Elt F) → (⟨S500000x8, .f32⟩ : BufTy).Contents (Elt F) → (⟨S500000x8, .f32⟩ : BufTy).Contents (Elt F)),
    binary main_v565 main_v21 main_v566 ((fun l r => Host.dotGeneral dot_S500000x8_S8x4_S500000x4_1_0_0_1_n_n none l r) : (⟨S500000x8, .f32⟩ : BufTy).Contents (Elt F) → (⟨S8x4, .f32⟩ : BufTy).Contents (Elt F) → (⟨S500000x4, .f32⟩ : BufTy).Contents (Elt F)),
    reshape main_v566 main_v567 rfl shapeCasts_S500000x4_S32x125x125x4,
    binary main_v22 main_v567 main_v568 (addf : (⟨S32x125x125x4, .f32⟩ : BufTy).Contents (Elt F) → (⟨S32x125x125x4, .f32⟩ : BufTy).Contents (Elt F) → (⟨S32x125x125x4, .f32⟩ : BufTy).Contents (Elt F)) ]

theorem valC0Tail (V : Valuation τ sig (Elt F)) :
    after (opsC0Tail (F := F)) V (no_index (Proc.devRef .tc main_v568)) = tailFn (V (Proc.devRef .tc main_v564)) (V (Proc.devRef .tc main_v21)) (V (Proc.devRef .tc main_v22)) := by
  unfold opsC0Tail
  after_results_simp
  rfl

noncomputable def wrC0Tail : List (Ref sig .tc) := [main_v565, main_v566, main_v567, main_v568]

theorem subC0Tail : (opsC0Tail : List (HloOp τ sig (Elt F))).Forall fun op => op.bufs ⊆ tcRefs τ sig := by
  unfold opsC0Tail
  exact ⟨binary_bufs_sub .., binary_bufs_sub .., reshape_bufs_sub .., binary_bufs_sub ..⟩

theorem freshC0Tail : ∀ op ∈ (opsC0Tail : List (HloOp τ sig (Elt F))), op.fresh = ∅ := by
  unfold opsC0Tail
  exact List.forall_iff_forall_mem.mp ⟨rfl, rfl, rfl, rfl⟩

theorem keepC0Tail (V : Valuation τ sig (Elt F)) (r : Ref sig .tc) (hr : r ∉ wrC0Tail) :
    after (opsC0Tail (F := F)) V (no_index (Proc.devRef .tc r)) = V (Proc.devRef .tc r) :=
  after_of_writes_sub _ V (W := wrC0Tail) (by
    unfold opsC0Tail wrC0Tail
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _))))))⟩) hr

end Cert.Quanv.Ref

end
-- ==== Proof.RefOps.C1A.lean ====
/- TABLE written by: bun scratch/gen_ref.js <unit> ops — stretches C1Psi0, C1W0, C1W1, C1W2, C1W3, C1W4 of the reference's host program: per stretch the list of its operations, what it leaves
   in its result buffer as the kind's function of what it reads, and that it writes nothing else. -/
import proofs.«180459_j52956946760354_2_alg».proof.Proof.RefFns
import Idealize.ShloMosaic.Lib.StableHlo.Run

noncomputable section

namespace Cert.Quanv.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-! ## Stretch C1Psi0 (operations 635 … 636, kind psi0) -/

noncomputable def opsC1Psi0 : List (HloOp τ sig (Elt F)) :=
  [ nullary main_cst_39 (constant S_ .f32 0x3EB504F3#32),
    unary main_cst_39 main_v569 (broadcastInDim S8 ![] bcast_S_S8 : (⟨S_, .f32⟩ : BufTy).Contents (Elt F) → (⟨S8, .f32⟩ : BufTy).Contents (Elt F)) ]

theorem valC1Psi0 (V : Valuation τ sig (Elt F)) :
    after (opsC1Psi0 (F := F)) V (no_index (Proc.devRef .tc main_v569)) = psi0Fn := by
  unfold opsC1Psi0
  after_results_simp
  rfl

noncomputable def wrC1Psi0 : List (Ref sig .tc) := [main_cst_39, main_v569]

theorem subC1Psi0 : (opsC1Psi0 : List (HloOp τ sig (Elt F))).Forall fun op => op.bufs ⊆ tcRefs τ sig := by
  unfold opsC1Psi0
  exact ⟨nullary_bufs_sub .., unary_bufs_sub ..⟩

theorem freshC1Psi0 : ∀ op ∈ (opsC1Psi0 : List (HloOp τ sig (Elt F))), op.fresh = ∅ := by
  unfold opsC1Psi0
  exact List.forall_iff_forall_mem.mp ⟨rfl, rfl⟩

theorem keepC1Psi0 (V : Valuation τ sig (Elt F)) (r : Ref sig .tc) (hr : r ∉ wrC1Psi0) :
    after (opsC1Psi0 (F := F)) V (no_index (Proc.devRef .tc r)) = V (Proc.devRef .tc r) :=
  after_of_writes_sub _ V (W := wrC1Psi0) (by
    unfold opsC1Psi0 wrC1Psi0
    exact ⟨Finset.singleton_subset_iff.mpr (List.mem_toFinset.mpr (List.mem_map_of_mem (.head _))),
     Finset.singleton_subset_iff.mpr (List.mem_toFinset.mpr (List.mem_map_of_mem (.tail _ (.head _))))⟩) hr

/-! ## Stretch C1W0 (operations 637 … 663, kind ryW0) -/

noncomputable def opsC1W0 : List (HloOp τ sig (Elt F)) :=
  [ unary main_arg1 main_v570 ((extractStridedSlice S1x1 ![1, 0] · slices_S3x9_S1x1_1_0) : (⟨S3x9, .f32⟩ : BufTy).Contents (Elt F) → (⟨S1x1, .f32⟩ : BufTy).Contents (Elt F)),
    reshape main_v570 main_v571 rfl shapeCasts_S1x1_S_,
    reshape main_v569 main_v572 rfl shapeCasts_S8_S4x2x1,
    nullary main_cst_40 (constant S_ .f32 0x3F000000#32),
    binary main_v571 main_cst_40 main_v573 (mulf : (⟨S_, .f32⟩ : BufTy).Contents (Elt F) → (⟨S_, .f32⟩ : BufTy).Contents (Elt F) → (⟨S_, .f32⟩ : BufTy).Contents (Elt F)),
    unary main_v573 main_v574 (Host.cos : (⟨S_, .f32⟩ : BufTy).Contents (Elt F) → (⟨S_, .f32⟩ : BufTy).Contents (Elt F)),
    unary main_v574 main_v575 (broadcastInDim S1x1 ![] bcast_S_S1x1 : (⟨S_, .f32⟩ : BufTy).Contents (Elt F) → (⟨S1x1, .f32⟩ : BufTy).Contents (Elt F)),
    unary main_v573 main_v576 (Host.sin : (⟨S_, .f32⟩ : BufTy).Contents (Elt F) → (⟨S_, .f32⟩ : BufTy).Contents (Elt F)),
    unary main_v576 main_v577 (broadcastInDim S1x1 ![] bcast_S_S1x1 : (⟨S_, .f32⟩ : BufTy).Contents (Elt F) → (⟨S1x1, .f32⟩ : BufTy).Contents (Elt F)),
    unary main_v572 main_v578 ((extractStridedSlice S4x1x1 ![0, 0, 0] · slices_S4x2x1_S4x1x1_0_0_0) : (⟨S4x2x1, .f32⟩ : BufTy).Contents (Elt F) → (⟨S4x1x1, .f32⟩ : BufTy).Contents (Elt F)),
    reshape main_v578 main_v579 rfl shapeCasts_S4x1x1_S4x1,
    unary main_v572 main_v580 ((extractStridedSlice S4x1x1 ![0, 1, 0] · slices_S4x2x1_S4x1x1_0_1_0) : (⟨S4x2x1, .f32⟩ : BufTy).Contents (Elt F) → (⟨S4x1x1, .f32⟩ : BufTy).Contents (Elt F)),
    reshape main_v580 main_v581 rfl shapeCasts_S4x1x1_S4x1,
    unary main_v575 main_v582 (broadcastInDim S4x1 ![0, 1] bcast_S1x1_S4x1_0_1 : (⟨S1x1, .f32⟩ : BufTy).Contents (Elt F) → (⟨S4x1, .f32⟩ : BufTy).Contents (Elt F)),
    binary main_v582 main_v579 main_v583 (mulf : (⟨S4x1, .f32⟩ : BufTy).Contents (Elt F) → (⟨S4x1, .f32⟩ : BufTy).Contents (Elt F) → (⟨S4x1, .f32⟩ : BufTy).Contents (Elt F)),
    unary main_v577 main_v584 (broadcastInDim S4x1 ![0, 1] bcast_S1x1_S4x1_0_1 : (⟨S1x1, .f32⟩ : BufTy).Contents (Elt F) → (⟨S4x1, .f32⟩ : BufTy).Contents (Elt F)),
    binary main_v584 main_v581 main_v585 (mulf : (⟨S4x1, .f32⟩ : BufTy).Contents (Elt F) → (⟨S4x1, .f32⟩ : BufTy).Contents (Elt F) → (⟨S4x1, .f32⟩ : BufTy).Contents (Elt F)),
    binary main_v583 main_v585 main_v586 (subf : (⟨S4x1, .f32⟩ : BufTy).Contents (Elt F) → (⟨S4x1, .f32⟩ : BufTy).Contents (Elt F) → (⟨S4x1, .f32⟩ : BufTy).Contents (Elt F)),
    unary main_v577 main_v587 (broadcastInDim S4x1 ![0, 1] bcast_S1x1_S4x1_0_1 : (⟨S1x1, .f32⟩ : BufTy).Contents (Elt F) → (⟨S4x1, .f32⟩ : BufTy).Contents (Elt F)),
    binary main_v587 main_v579 main_v588 (mulf : (⟨S4x1, .f32⟩ : BufTy).Contents (Elt F) → (⟨S4x1, .f32⟩ : BufTy).Contents (Elt F) → (⟨S4x1, .f32⟩ : BufTy).Contents (Elt F)),
    unary main_v575 main_v589 (broadcastInDim S4x1 ![0, 1] bcast_S1x1_S4x1_0_1 : (⟨S1x1, .f32⟩ : BufTy).Contents (Elt F) → (⟨S4x1, .f32⟩ : BufTy).Contents (Elt F)),
    binary main_v589 main_v581 main_v590 (mulf : (⟨S4x1, .f32⟩ : BufTy).Contents (Elt F) → (⟨S4x1, .f32⟩ : BufTy).Contents (Elt F) → (⟨S4x1, .f32⟩ : BufTy).Contents (Elt F)),
    binary main_v588 main_v590 main_v591 (addf : (⟨S4x1, .f32⟩ : BufTy).Contents (Elt F) → (⟨S4x1, .f32⟩ : BufTy).Contents (Elt F) → (⟨S4x1, .f32⟩ : BufTy).Contents (Elt F)),
    unary main_v586 main_v592 (broadcastInDim S4x1x1 ![0, 2] bcast_S4x1_S4x1x1_0_2 : (⟨S4x1, .f32⟩ : BufTy).Contents (Elt F) → (⟨S4x1x1, .f32⟩ : BufTy).Contents (Elt F)),
    unary main_v591 main_v593 (broadcastInDim S4x1x1 ![0, 2] bcast_S4x1_S4x1x1_0_2 : (⟨S4x1, .f32⟩ : BufTy).Contents (Elt F) → (⟨S4x1x1, .f32⟩ : BufTy).Contents (Elt F)),
    binary main_v592 main_v593 main_v594 ((fun a b => concatenate S4x2x1 1 [⟨S4x1x1, a⟩, ⟨S4x1x1, b⟩] concatenates_S4x1x1_S4x1x1_S4x2x1_d1) : (⟨S4x1x1, .f32⟩ : BufTy).Contents (Elt F) → (⟨S4x1x1, .f32⟩ : BufTy).Contents (Elt F) → (⟨S4x2x1, .f32⟩ : BufTy).Contents (Elt F)),
    reshape main_v594 main_v595 rfl shapeCasts_S4x2x1_S8 ]

theorem valC1W0 (V : Valuation τ sig (Elt F)) :
    after (opsC1W0 (F := F)) V (no_index (Proc.devRef .tc main_v595)) = ryW0Fn (V (Proc.devRef .tc main_v569)) (((extractStridedSlice S1x1 ![1, 0] · slices_S3x9_S1x1_1_0) : (⟨S3x9, .f32⟩ : BufTy).Contents (Elt F) → (⟨S1x1, .f32⟩ : BufTy).Contents (Elt F)) (V (Proc.devRef .tc main_arg1))) := by
  unfold opsC1W0
  after_results_simp
  rfl

noncomputable def wrC1W0 : List (Ref sig .tc) := [main_v570, main_v571, main_v572, main_cst_40, main_v573, main_v574, main_v575, main_v576, main_v577, main_v578, main_v579, main_v580, main_v581, main_v582, main_v583, main_v584, main_v585, main_v586, main_v587, main_v588, main_v589, main_v590, main_v591, main_v592, main_v593, main_v594, main_v595]

theorem subC1W0 : (opsC1W0 : List (HloOp τ sig (Elt F))).Forall fun op => op.bufs ⊆ tcRefs τ sig := by
  unfold opsC1W0
  exact ⟨unary_bufs_sub .., reshape_bufs_sub .., reshape_bufs_sub .., nullary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC1W0 : ∀ op ∈ (opsC1W0 : List (HloOp τ sig (Elt F))), op.fresh = ∅ := by
  unfold opsC1W0
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem keepC1W0 (V : Valuation τ sig (Elt F)) (r : Ref sig .tc) (hr : r ∉ wrC1W0) :
    after (opsC1W0 (F := F)) V (no_index (Proc.devRef .tc r)) = V (Proc.devRef .tc r) :=
  after_of_writes_sub _ V (W := wrC1W0) (by
    unfold opsC1W0 wrC1W0
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))⟩) hr

/-! ## Stretch C1W1 (operations 664 … 690, kind ryW1) -/

noncomputable def opsC1W1 : List (HloOp τ sig (Elt F)) :=
  [ unary main_arg1 main_v596 ((extractStridedSlice S1x1 ![1, 1] · slices_S3x9_S1x1_1_1) : (⟨S3x9, .f32⟩ : BufTy).Contents (Elt F) → (⟨S1x1, .f32⟩ : BufTy).Contents (Elt F)),
    reshape main_v596 main_v597 rfl shapeCasts_S1x1_S_,
    reshape main_v595 main_v598 rfl shapeCasts_S8_S2x2x2,
    nullary main_cst_41 (constant S_ .f32 0x3F000000#32),
    binary main_v597 main_cst_41 main_v599 (mulf : (⟨S_, .f32⟩ : BufTy).Contents (Elt F) → (⟨S_, .f32⟩ : BufTy).Contents (Elt F) → (⟨S_, .f32⟩ : BufTy).Contents (Elt F)),
    unary main_v599 main_v600 (Host.cos : (⟨S_, .f32⟩ : BufTy).Contents (Elt F) → (⟨S_, .f32⟩ : BufTy).Contents (Elt F)),
    unary main_v600 main_v601 (broadcastInDim S1x1 ![] bcast_S_S1x1 : (⟨S_, .f32⟩ : BufTy).Contents (Elt F) → (⟨S1x1, .f32⟩ : BufTy).Contents (Elt F)),
    unary main_v599 main_v602 (Host.sin : (⟨S_, .f32⟩ : BufTy).Contents (Elt F) → (⟨S_, .f32⟩ : BufTy).Contents (Elt F)),
    unary main_v602 main_v603 (broadcastInDim S1x1 ![] bcast_S_S1x1 : (⟨S_, .f32⟩ : BufTy).Contents (Elt F) → (⟨S1x1, .f32⟩ : BufTy).Contents (Elt F)),
    unary main_v598 main_v604 ((extractStridedSlice S2x1x2 ![0, 0, 0] · slices_S2x2x2_S2x1x2_0_0_0) : (⟨S2x2x2, .f32⟩ : BufTy).Contents (Elt F) → (⟨S2x1x2, .f32⟩ : BufTy).Contents (Elt F)),
    reshape main_v604 main_v605 rfl shapeCasts_S2x1x2_S2x2,
    unary main_v598 main_v606 ((extractStridedSlice S2x1x2 ![0, 1, 0] · slices_S2x2x2_S2x1x2_0_1_0) : (⟨S2x2x2, .f32⟩ : BufTy).Contents (Elt F) → (⟨S2x1x2, .f32⟩ : BufTy).Contents (Elt F)),
    reshape main_v606 main_v607 rfl shapeCasts_S2x1x2_S2x2,
    unary main_v601 main_v608 (broadcastInDim S2x2 ![0, 1] bcast_S1x1_S2x2_0_1 : (⟨S1x1, .f32⟩ : BufTy).Contents (Elt F) → (⟨S2x2, .f32⟩ : BufTy).Contents (Elt F)),
    binary main_v608 main_v605 main_v609 (mulf : (⟨S2x2, .f32⟩ : BufTy).Contents (Elt F) → (⟨S2x2, .f32⟩ : BufTy).Contents (Elt F) → (⟨S2x2, .f32⟩ : BufTy).Contents (Elt F)),
    unary main_v603 main_v610 (broadcastInDim S2x2 ![0, 1] bcast_S1x1_S2x2_0_1 : (⟨S1x1, .f32⟩ : BufTy).Contents (Elt F) → (⟨S2x2, .f32⟩ : BufTy).Contents (Elt F)),
    binary main_v610 main_v607 main_v611 (mulf : (⟨S2x2, .f32⟩ : BufTy).Contents (Elt F) → (⟨S2x2, .f32⟩ : BufTy).Contents (Elt F) → (⟨S2x2, .f32⟩ : BufTy).Contents (Elt F)),
    binary main_v609 main_v611 main_v612 (subf : (⟨S2x2, .f32⟩ : BufTy).Contents (Elt F) → (⟨S2x2, .f32⟩ : BufTy).Contents (Elt F) → (⟨S2x2, .f32⟩ : BufTy).Contents (Elt F)),
    unary main_v603 main_v613 (broadcastInDim S2x2 ![0, 1] bcast_S1x1_S2x2_0_1 : (⟨S1x1, .f32⟩ : BufTy).Contents (Elt F) → (⟨S2x2, .f32⟩ : BufTy).Contents (Elt F)),
    binary main_v613 main_v605 main_v614 (mulf : (⟨S2x2, .f32⟩ : BufTy).Contents (Elt F) → (⟨S2x2, .f32⟩ : BufTy).Contents (Elt F) → (⟨S2x2, .f32⟩ : BufTy).Contents (Elt F)),
    unary main_v601 main_v615 (broadcastInDim S2x2 ![0, 1] bcast_S1x1_S2x2_0_1 : (⟨S1x1, .f32⟩ : BufTy).Contents (Elt F) → (⟨S2x2, .f32⟩ : BufTy).Contents (Elt F)),
    binary main_v615 main_v607 main_v616 (mulf : (⟨S2x2, .f32⟩ : BufTy).Contents (Elt F) → (⟨S2x2, .f32⟩ : BufTy).Contents (Elt F) → (⟨S2x2, .f32⟩ : BufTy).Contents (Elt F)),
    binary main_v614 main_v616 main_v617 (addf : (⟨S2x2, .f32⟩ : BufTy).Contents (Elt F) → (⟨S2x2, .f32⟩ : BufTy).Contents (Elt F) → (⟨S2x2, .f32⟩ : BufTy).Contents (Elt F)),
    unary main_v612 main_v618 (broadcastInDim S2x1x2 ![0, 2] bcast_S2x2_S2x1x2_0_2 : (⟨S2x2, .f32⟩ : BufTy).Contents (Elt F) → (⟨S2x1x2, .f32⟩ : BufTy).Contents (Elt F)),
    unary main_v617 main_v619 (broadcastInDim S2x1x2 ![0, 2] bcast_S2x2_S2x1x2_0_2 : (⟨S2x2, .f32⟩ : BufTy).Contents (Elt F) → (⟨S2x1x2, .f32⟩ : BufTy).Contents (Elt F)),
    binary main_v618 main_v619 main_v620 ((fun a b => concatenate S2x2x2 1 [⟨S2x1x2, a⟩, ⟨S2x1x2, b⟩] concatenates_S2x1x2_S2x1x2_S2x2x2_d1) : (⟨S2x1x2, .f32⟩ : BufTy).Contents (Elt F) → (⟨S2x1x2, .f32⟩ : BufTy).Contents (Elt F) → (⟨S2x2x2, .f32⟩ : BufTy).Contents (Elt F)),
    reshape main_v620 main_v621 rfl shapeCasts_S2x2x2_S8 ]

theorem valC1W1 (V : Valuation τ sig (Elt F)) :
    after (opsC1W1 (F := F)) V (no_index (Proc.devRef .tc main_v621)) = ryW1Fn (V (Proc.devRef .tc main_v595)) (((extractStridedSlice S1x1 ![1, 1] · slices_S3x9_S1x1_1_1) : (⟨S3x9, .f32⟩ : BufTy).Contents (Elt F) → (⟨S1x1, .f32⟩ : BufTy).Contents (Elt F)) (V (Proc.devRef .tc main_arg1))) := by
  unfold opsC1W1
  after_results_simp
  rfl

noncomputable def wrC1W1 : List (Ref sig .tc) := [main_v596, main_v597, main_v598, main_cst_41, main_v599, main_v600, main_v601, main_v602, main_v603, main_v604, main_v605, main_v606, main_v607, main_v608, main_v609, main_v610, main_v611, main_v612, main_v613, main_v614, main_v615, main_v616, main_v617, main_v618, main_v619, main_v620, main_v621]

theorem subC1W1 : (opsC1W1 : List (HloOp τ sig (Elt F))).Forall fun op => op.bufs ⊆ tcRefs τ sig := by
  unfold opsC1W1
  exact ⟨unary_bufs_sub .., reshape_bufs_sub .., reshape_bufs_sub .., nullary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC1W1 : ∀ op ∈ (opsC1W1 : List (HloOp τ sig (Elt F))), op.fresh = ∅ := by
  unfold opsC1W1
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem keepC1W1 (V : Valuation τ sig (Elt F)) (r : Ref sig .tc) (hr : r ∉ wrC1W1) :
    after (opsC1W1 (F := F)) V (no_index (Proc.devRef .tc r)) = V (Proc.devRef .tc r) :=
  after_of_writes_sub _ V (W := wrC1W1) (by
    unfold opsC1W1 wrC1W1
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))⟩) hr

/-! ## Stretch C1W2 (operations 691 … 717, kind ryW2) -/

noncomputable def opsC1W2 : List (HloOp τ sig (Elt F)) :=
  [ unary main_arg1 main_v622 ((extractStridedSlice S1x1 ![1, 2] · slices_S3x9_S1x1_1_2) : (⟨S3x9, .f32⟩ : BufTy).Contents (Elt F) → (⟨S1x1, .f32⟩ : BufTy).Contents (Elt F)),
    reshape main_v622 main_v623 rfl shapeCasts_S1x1_S_,
    reshape main_v621 main_v624 rfl shapeCasts_S8_S1x2x4,
    nullary main_cst_42 (constant S_ .f32 0x3F000000#32),
    binary main_v623 main_cst_42 main_v625 (mulf : (⟨S_, .f32⟩ : BufTy).Contents (Elt F) → (⟨S_, .f32⟩ : BufTy).Contents (Elt F) → (⟨S_, .f32⟩ : BufTy).Contents (Elt F)),
    unary main_v625 main_v626 (Host.cos : (⟨S_, .f32⟩ : BufTy).Contents (Elt F) → (⟨S_, .f32⟩ : BufTy).Contents (Elt F)),
    unary main_v626 main_v627 (broadcastInDim S1x1 ![] bcast_S_S1x1 : (⟨S_, .f32⟩ : BufTy).Contents (Elt F) → (⟨S1x1, .f32⟩ : BufTy).Contents (Elt F)),
    unary main_v625 main_v628 (Host.sin : (⟨S_, .f32⟩ : BufTy).Contents (Elt F) → (⟨S_, .f32⟩ : BufTy).Contents (Elt F)),
    unary main_v628 main_v629 (broadcastInDim S1x1 ![] bcast_S_S1x1 : (⟨S_, .f32⟩ : BufTy).Contents (Elt F) → (⟨S1x1, .f32⟩ : BufTy).Contents (Elt F)),
    unary main_v624 main_v630 ((extractStridedSlice S1x1x4 ![0, 0, 0] · slices_S1x2x4_S1x1x4_0_0_0) : (⟨S1x2x4, .f32⟩ : BufTy).Contents (Elt F) → (⟨S1x1x4, .f32⟩ : BufTy).Contents (Elt F)),
    reshape main_v630 main_v631 rfl shapeCasts_S1x1x4_S1x4,
    unary main_v624 main_v632 ((extractStridedSlice S1x1x4 ![0, 1, 0] · slices_S1x2x4_S1x1x4_0_1_0) : (⟨S1x2x4, .f32⟩ : BufTy).Contents (Elt F) → (⟨S1x1x4, .f32⟩ : BufTy).Contents (Elt F)),
    reshape main_v632 main_v633 rfl shapeCasts_S1x1x4_S1x4,
    unary main_v627 main_v634 (broadcastInDim S1x4 ![0, 1] bcast_S1x1_S1x4_0_1 : (⟨S1x1, .f32⟩ : BufTy).Contents (Elt F) → (⟨S1x4, .f32⟩ : BufTy).Contents (Elt F)),
    binary main_v634 main_v631 main_v635 (mulf : (⟨S1x4, .f32⟩ : BufTy).Contents (Elt F) → (⟨S1x4, .f32⟩ : BufTy).Contents (Elt F) → (⟨S1x4, .f32⟩ : BufTy).Contents (Elt F)),
    unary main_v629 main_v636 (broadcastInDim S1x4 ![0, 1] bcast_S1x1_S1x4_0_1 : (⟨S1x1, .f32⟩ : BufTy).Contents (Elt F) → (⟨S1x4, .f32⟩ : BufTy).Contents (Elt F)),
    binary main_v636 main_v633 main_v637 (mulf : (⟨S1x4, .f32⟩ : BufTy).Contents (Elt F) → (⟨S1x4, .f32⟩ : BufTy).Contents (Elt F) → (⟨S1x4, .f32⟩ : BufTy).Contents (Elt F)),
    binary main_v635 main_v637 main_v638 (subf : (⟨S1x4, .f32⟩ : BufTy).Contents (Elt F) → (⟨S1x4, .f32⟩ : BufTy).Contents (Elt F) → (⟨S1x4, .f32⟩ : BufTy).Contents (Elt F)),
    unary main_v629 main_v639 (broadcastInDim S1x4 ![0, 1] bcast_S1x1_S1x4_0_1 : (⟨S1x1, .f32⟩ : BufTy).Contents (Elt F) → (⟨S1x4, .f32⟩ : BufTy).Contents (Elt F)),
    binary main_v639 main_v631 main_v640 (mulf : (⟨S1x4, .f32⟩ : BufTy).Contents (Elt F) → (⟨S1x4, .f32⟩ : BufTy).Contents (Elt F) → (⟨S1x4, .f32⟩ : BufTy).Contents (Elt F)),
    unary main_v627 main_v641 (broadcastInDim S1x4 ![0, 1] bcast_S1x1_S1x4_0_1 : (⟨S1x1, .f32⟩ : BufTy).Contents (Elt F) → (⟨S1x4, .f32⟩ : BufTy).Contents (Elt F)),
    binary main_v641 main_v633 main_v642 (mulf : (⟨S1x4, .f32⟩ : BufTy).Contents (Elt F) → (⟨S1x4, .f32⟩ : BufTy).Contents (Elt F) → (⟨S1x4, .f32⟩ : BufTy).Contents (Elt F)),
    binary main_v640 main_v642 main_v643 (addf : (⟨S1x4, .f32⟩ : BufTy).Contents (Elt F) → (⟨S1x4, .f32⟩ : BufTy).Contents (Elt F) → (⟨S1x4, .f32⟩ : BufTy).Contents (Elt F)),
    unary main_v638 main_v644 (broadcastInDim S1x1x4 ![0, 2] bcast_S1x4_S1x1x4_0_2 : (⟨S1x4, .f32⟩ : BufTy).Contents (Elt F) → (⟨S1x1x4, .f32⟩ : BufTy).Contents (Elt F)),
    unary main_v643 main_v645 (broadcastInDim S1x1x4 ![0, 2] bcast_S1x4_S1x1x4_0_2 : (⟨S1x4, .f32⟩ : BufTy).Contents (Elt F) → (⟨S1x1x4, .f32⟩ : BufTy).Contents (Elt F)),
    binary main_v644 main_v645 main_v646 ((fun a b => concatenate S1x2x4 1 [⟨S1x1x4, a⟩, ⟨S1x1x4, b⟩] concatenates_S1x1x4_S1x1x4_S1x2x4_d1) : (⟨S1x1x4, .f32⟩ : BufTy).Contents (Elt F) → (⟨S1x1x4, .f32⟩ : BufTy).Contents (Elt F) → (⟨S1x2x4, .f32⟩ : BufTy).Contents (Elt F)),
    reshape main_v646 main_v647 rfl shapeCasts_S1x2x4_S8 ]

theorem valC1W2 (V : Valuation τ sig (Elt F)) :
    after (opsC1W2 (F := F)) V (no_index (Proc.devRef .tc main_v647)) = ryW2Fn (V (Proc.devRef .tc main_v621)) (((extractStridedSlice S1x1 ![1, 2] · slices_S3x9_S1x1_1_2) : (⟨S3x9, .f32⟩ : BufTy).Contents (Elt F) → (⟨S1x1, .f32⟩ : BufTy).Contents (Elt F)) (V (Proc.devRef .tc main_arg1))) := by
  unfold opsC1W2
  after_results_simp
  rfl

noncomputable def wrC1W2 : List (Ref sig .tc) := [main_v622, main_v623, main_v624, main_cst_42, main_v625, main_v626, main_v627, main_v628, main_v629, main_v630, main_v631, main_v632, main_v633, main_v634, main_v635, main_v636, main_v637, main_v638, main_v639, main_v640, main_v641, main_v642, main_v643, main_v644, main_v645, main_v646, main_v647]

theorem subC1W2 : (opsC1W2 : List (HloOp τ sig (Elt F))).Forall fun op => op.bufs ⊆ tcRefs τ sig := by
  unfold opsC1W2
  exact ⟨unary_bufs_sub .., reshape_bufs_sub .., reshape_bufs_sub .., nullary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC1W2 : ∀ op ∈ (opsC1W2 : List (HloOp τ sig (Elt F))), op.fresh = ∅ := by
  unfold opsC1W2
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem keepC1W2 (V : Valuation τ sig (Elt F)) (r : Ref sig .tc) (hr : r ∉ wrC1W2) :
    after (opsC1W2 (F := F)) V (no_index (Proc.devRef .tc r)) = V (Proc.devRef .tc r) :=
  after_of_writes_sub _ V (W := wrC1W2) (by
    unfold opsC1W2 wrC1W2
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))⟩) hr

/-! ## Stretch C1W3 (operations 718 … 744, kind ryW0) -/

noncomputable def opsC1W3 : List (HloOp τ sig (Elt F)) :=
  [ unary main_arg1 main_v648 ((extractStridedSlice S1x1 ![1, 3] · slices_S3x9_S1x1_1_3) : (⟨S3x9, .f32⟩ : BufTy).Contents (Elt F) → (⟨S1x1, .f32⟩ : BufTy).Contents (Elt F)),
    reshape main_v648 main_v649 rfl shapeCasts_S1x1_S_,
    reshape main_v647 main_v650 rfl shapeCasts_S8_S4x2x1,
    nullary main_cst_43 (constant S_ .f32 0x3F000000#32),
    binary main_v649 main_cst_43 main_v651 (mulf : (⟨S_, .f32⟩ : BufTy).Contents (Elt F) → (⟨S_, .f32⟩ : BufTy).Contents (Elt F) → (⟨S_, .f32⟩ : BufTy).Contents (Elt F)),
    unary main_v651 main_v652 (Host.cos : (⟨S_, .f32⟩ : BufTy).Contents (Elt F) → (⟨S_, .f32⟩ : BufTy).Contents (Elt F)),
    unary main_v652 main_v653 (broadcastInDim S1x1 ![] bcast_S_S1x1 : (⟨S_, .f32⟩ : BufTy).Contents (Elt F) → (⟨S1x1, .f32⟩ : BufTy).Contents (Elt F)),
    unary main_v651 main_v654 (Host.sin : (⟨S_, .f32⟩ : BufTy).Contents (Elt F) → (⟨S_, .f32⟩ : BufTy).Contents (Elt F)),
    unary main_v654 main_v655 (broadcastInDim S1x1 ![] bcast_S_S1x1 : (⟨S_, .f32⟩ : BufTy).Contents (Elt F) → (⟨S1x1, .f32⟩ : BufTy).Contents (Elt F)),
    unary main_v650 main_v656 ((extractStridedSlice S4x1x1 ![0, 0, 0] · slices_S4x2x1_S4x1x1_0_0_0) : (⟨S4x2x1, .f32⟩ : BufTy).Contents (Elt F) → (⟨S4x1x1, .f32⟩ : BufTy).Contents (Elt F)),
    reshape main_v656 main_v657 rfl shapeCasts_S4x1x1_S4x1,
    unary main_v650 main_v658 ((extractStridedSlice S4x1x1 ![0, 1, 0] · slices_S4x2x1_S4x1x1_0_1_0) : (⟨S4x2x1, .f32⟩ : BufTy).Contents (Elt F) → (⟨S4x1x1, .f32⟩ : BufTy).Contents (Elt F)),
    reshape main_v658 main_v659 rfl shapeCasts_S4x1x1_S4x1,
    unary main_v653 main_v660 (broadcastInDim S4x1 ![0, 1] bcast_S1x1_S4x1_0_1 : (⟨S1x1, .f32⟩ : BufTy).Contents (Elt F) → (⟨S4x1, .f32⟩ : BufTy).Contents (Elt F)),
    binary main_v660 main_v657 main_v661 (mulf : (⟨S4x1, .f32⟩ : BufTy).Contents (Elt F) → (⟨S4x1, .f32⟩ : BufTy).Contents (Elt F) → (⟨S4x1, .f32⟩ : BufTy).Contents (Elt F)),
    unary main_v655 main_v662 (broadcastInDim S4x1 ![0, 1] bcast_S1x1_S4x1_0_1 : (⟨S1x1, .f32⟩ : BufTy).Contents (Elt F) → (⟨S4x1, .f32⟩ : BufTy).Contents (Elt F)),
    binary main_v662 main_v659 main_v663 (mulf : (⟨S4x1, .f32⟩ : BufTy).Contents (Elt F) → (⟨S4x1, .f32⟩ : BufTy).Contents (Elt F) → (⟨S4x1, .f32⟩ : BufTy).Contents (Elt F)),
    binary main_v661 main_v663 main_v664 (subf : (⟨S4x1, .f32⟩ : BufTy).Contents (Elt F) → (⟨S4x1, .f32⟩ : BufTy).Contents (Elt F) → (⟨S4x1, .f32⟩ : BufTy).Contents (Elt F)),
    unary main_v655 main_v665 (broadcastInDim S4x1 ![0, 1] bcast_S1x1_S4x1_0_1 : (⟨S1x1, .f32⟩ : BufTy).Contents (Elt F) → (⟨S4x1, .f32⟩ : BufTy).Contents (Elt F)),
    binary main_v665 main_v657 main_v666 (mulf : (⟨S4x1, .f32⟩ : BufTy).Contents (Elt F) → (⟨S4x1, .f32⟩ : BufTy).Contents (Elt F) → (⟨S4x1, .f32⟩ : BufTy).Contents (Elt F)),
    unary main_v653 main_v667 (broadcastInDim S4x1 ![0, 1] bcast_S1x1_S4x1_0_1 : (⟨S1x1, .f32⟩ : BufTy).Contents (Elt F) → (⟨S4x1, .f32⟩ : BufTy).Contents (Elt F)),
    binary main_v667 main_v659 main_v668 (mulf : (⟨S4x1, .f32⟩ : BufTy).Contents (Elt F) → (⟨S4x1, .f32⟩ : BufTy).Contents (Elt F) → (⟨S4x1, .f32⟩ : BufTy).Contents (Elt F)),
    binary main_v666 main_v668 main_v669 (addf : (⟨S4x1, .f32⟩ : BufTy).Contents (Elt F) → (⟨S4x1, .f32⟩ : BufTy).Contents (Elt F) → (⟨S4x1, .f32⟩ : BufTy).Contents (Elt F)),
    unary main_v664 main_v670 (broadcastInDim S4x1x1 ![0, 2] bcast_S4x1_S4x1x1_0_2 : (⟨S4x1, .f32⟩ : BufTy).Contents (Elt F) → (⟨S4x1x1, .f32⟩ : BufTy).Contents (Elt F)),
    unary main_v669 main_v671 (broadcastInDim S4x1x1 ![0, 2] bcast_S4x1_S4x1x1_0_2 : (⟨S4x1, .f32⟩ : BufTy).Contents (Elt F) → (⟨S4x1x1, .f32⟩ : BufTy).Contents (Elt F)),
    binary main_v670 main_v671 main_v672 ((fun a b => concatenate S4x2x1 1 [⟨S4x1x1, a⟩, ⟨S4x1x1, b⟩] concatenates_S4x1x1_S4x1x1_S4x2x1_d1) : (⟨S4x1x1, .f32⟩ : BufTy).Contents (Elt F) → (⟨S4x1x1, .f32⟩ : BufTy).Contents (Elt F) → (⟨S4x2x1, .f32⟩ : BufTy).Contents (Elt F)),
    reshape main_v672 main_v673 rfl shapeCasts_S4x2x1_S8 ]

theorem valC1W3 (V : Valuation τ sig (Elt F)) :
    after (opsC1W3 (F := F)) V (no_index (Proc.devRef .tc main_v673)) = ryW0Fn (V (Proc.devRef .tc main_v647)) (((extractStridedSlice S1x1 ![1, 3] · slices_S3x9_S1x1_1_3) : (⟨S3x9, .f32⟩ : BufTy).Contents (Elt F) → (⟨S1x1, .f32⟩ : BufTy).Contents (Elt F)) (V (Proc.devRef .tc main_arg1))) := by
  unfold opsC1W3
  after_results_simp
  rfl

noncomputable def wrC1W3 : List (Ref sig .tc) := [main_v648, main_v649, main_v650, main_cst_43, main_v651, main_v652, main_v653, main_v654, main_v655, main_v656, main_v657, main_v658, main_v659, main_v660, main_v661, main_v662, main_v663, main_v664, main_v665, main_v666, main_v667, main_v668, main_v669, main_v670, main_v671, main_v672, main_v673]

theorem subC1W3 : (opsC1W3 : List (HloOp τ sig (Elt F))).Forall fun op => op.bufs ⊆ tcRefs τ sig := by
  unfold opsC1W3
  exact ⟨unary_bufs_sub .., reshape_bufs_sub .., reshape_bufs_sub .., nullary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC1W3 : ∀ op ∈ (opsC1W3 : List (HloOp τ sig (Elt F))), op.fresh = ∅ := by
  unfold opsC1W3
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem keepC1W3 (V : Valuation τ sig (Elt F)) (r : Ref sig .tc) (hr : r ∉ wrC1W3) :
    after (opsC1W3 (F := F)) V (no_index (Proc.devRef .tc r)) = V (Proc.devRef .tc r) :=
  after_of_writes_sub _ V (W := wrC1W3) (by
    unfold opsC1W3 wrC1W3
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))⟩) hr

/-! ## Stretch C1W4 (operations 745 … 771, kind ryW1) -/

noncomputable def opsC1W4 : List (HloOp τ sig (Elt F)) :=
  [ unary main_arg1 main_v674 ((extractStridedSlice S1x1 ![1, 4] · slices_S3x9_S1x1_1_4) : (⟨S3x9, .f32⟩ : BufTy).Contents (Elt F) → (⟨S1x1, .f32⟩ : BufTy).Contents (Elt F)),
    reshape main_v674 main_v675 rfl shapeCasts_S1x1_S_,
    reshape main_v673 main_v676 rfl shapeCasts_S8_S2x2x2,
    nullary main_cst_44 (constant S_ .f32 0x3F000000#32),
    binary main_v675 main_cst_44 main_v677 (mulf : (⟨S_, .f32⟩ : BufTy).Contents (Elt F) → (⟨S_, .f32⟩ : BufTy).Contents (Elt F) → (⟨S_, .f32⟩ : BufTy).Contents (Elt F)),
    unary main_v677 main_v678 (Host.cos : (⟨S_, .f32⟩ : BufTy).Contents (Elt F) → (⟨S_, .f32⟩ : BufTy).Contents (Elt F)),
    unary main_v678 main_v679 (broadcastInDim S1x1 ![] bcast_S_S1x1 : (⟨S_, .f32⟩ : BufTy).Contents (Elt F) → (⟨S1x1, .f32⟩ : BufTy).Contents (Elt F)),
    unary main_v677 main_v680 (Host.sin : (⟨S_, .f32⟩ : BufTy).Contents (Elt F) → (⟨S_, .f32⟩ : BufTy).Contents (Elt F)),
    unary main_v680 main_v681 (broadcastInDim S1x1 ![] bcast_S_S1x1 : (⟨S_, .f32⟩ : BufTy).Contents (Elt F) → (⟨S1x1, .f32⟩ : BufTy).Contents (Elt F)),
    unary main_v676 main_v682 ((extractStridedSlice S2x1x2 ![0, 0, 0] · slices_S2x2x2_S2x1x2_0_0_0) : (⟨S2x2x2, .f32⟩ : BufTy).Contents (Elt F) → (⟨S2x1x2, .f32⟩ : BufTy).Contents (Elt F)),
    reshape main_v682 main_v683 rfl shapeCasts_S2x1x2_S2x2,
    unary main_v676 main_v684 ((extractStridedSlice S2x1x2 ![0, 1, 0] · slices_S2x2x2_S2x1x2_0_1_0) : (⟨S2x2x2, .f32⟩ : BufTy).Contents (Elt F) → (⟨S2x1x2, .f32⟩ : BufTy).Contents (Elt F)),
    reshape main_v684 main_v685 rfl shapeCasts_S2x1x2_S2x2,
    unary main_v679 main_v686 (broadcastInDim S2x2 ![0, 1] bcast_S1x1_S2x2_0_1 : (⟨S1x1, .f32⟩ : BufTy).Contents (Elt F) → (⟨S2x2, .f32⟩ : BufTy).Contents (Elt F)),
    binary main_v686 main_v683 main_v687 (mulf : (⟨S2x2, .f32⟩ : BufTy).Contents (Elt F) → (⟨S2x2, .f32⟩ : BufTy).Contents (Elt F) → (⟨S2x2, .f32⟩ : BufTy).Contents (Elt F)),
    unary main_v681 main_v688 (broadcastInDim S2x2 ![0, 1] bcast_S1x1_S2x2_0_1 : (⟨S1x1, .f32⟩ : BufTy).Contents (Elt F) → (⟨S2x2, .f32⟩ : BufTy).Contents (Elt F)),
    binary main_v688 main_v685 main_v689 (mulf : (⟨S2x2, .f32⟩ : BufTy).Contents (Elt F) → (⟨S2x2, .f32⟩ : BufTy).Contents (Elt F) → (⟨S2x2, .f32⟩ : BufTy).Contents (Elt F)),
    binary main_v687 main_v689 main_v690 (subf : (⟨S2x2, .f32⟩ : BufTy).Contents (Elt F) → (⟨S2x2, .f32⟩ : BufTy).Contents (Elt F) → (⟨S2x2, .f32⟩ : BufTy).Contents (Elt F)),
    unary main_v681 main_v691 (broadcastInDim S2x2 ![0, 1] bcast_S1x1_S2x2_0_1 : (⟨S1x1, .f32⟩ : BufTy).Contents (Elt F) → (⟨S2x2, .f32⟩ : BufTy).Contents (Elt F)),
    binary main_v691 main_v683 main_v692 (mulf : (⟨S2x2, .f32⟩ : BufTy).Contents (Elt F) → (⟨S2x2, .f32⟩ : BufTy).Contents (Elt F) → (⟨S2x2, .f32⟩ : BufTy).Contents (Elt F)),
    unary main_v679 main_v693 (broadcastInDim S2x2 ![0, 1] bcast_S1x1_S2x2_0_1 : (⟨S1x1, .f32⟩ : BufTy).Contents (Elt F) → (⟨S2x2, .f32⟩ : BufTy).Contents (Elt F)),
    binary main_v693 main_v685 main_v694 (mulf : (⟨S2x2, .f32⟩ : BufTy).Contents (Elt F) → (⟨S2x2, .f32⟩ : BufTy).Contents (Elt F) → (⟨S2x2, .f32⟩ : BufTy).Contents (Elt F)),
    binary main_v692 main_v694 main_v695 (addf : (⟨S2x2, .f32⟩ : BufTy).Contents (Elt F) → (⟨S2x2, .f32⟩ : BufTy).Contents (Elt F) → (⟨S2x2, .f32⟩ : BufTy).Contents (Elt F)),
    unary main_v690 main_v696 (broadcastInDim S2x1x2 ![0, 2] bcast_S2x2_S2x1x2_0_2 : (⟨S2x2, .f32⟩ : BufTy).Contents (Elt F) → (⟨S2x1x2, .f32⟩ : BufTy).Contents (Elt F)),
    unary main_v695 main_v697 (broadcastInDim S2x1x2 ![0, 2] bcast_S2x2_S2x1x2_0_2 : (⟨S2x2, .f32⟩ : BufTy).Contents (Elt F) → (⟨S2x1x2, .f32⟩ : BufTy).Contents (Elt F)),
    binary main_v696 main_v697 main_v698 ((fun a b => concatenate S2x2x2 1 [⟨S2x1x2, a⟩, ⟨S2x1x2, b⟩] concatenates_S2x1x2_S2x1x2_S2x2x2_d1) : (⟨S2x1x2, .f32⟩ : BufTy).Contents (Elt F) → (⟨S2x1x2, .f32⟩ : BufTy).Contents (Elt F) → (⟨S2x2x2, .f32⟩ : BufTy).Contents (Elt F)),
    reshape main_v698 main_v699 rfl shapeCasts_S2x2x2_S8 ]

theorem valC1W4 (V : Valuation τ sig (Elt F)) :
    after (opsC1W4 (F := F)) V (no_index (Proc.devRef .tc main_v699)) = ryW1Fn (V (Proc.devRef .tc main_v673)) (((extractStridedSlice S1x1 ![1, 4] · slices_S3x9_S1x1_1_4) : (⟨S3x9, .f32⟩ : BufTy).Contents (Elt F) → (⟨S1x1, .f32⟩ : BufTy).Contents (Elt F)) (V (Proc.devRef .tc main_arg1))) := by
  unfold opsC1W4
  after_results_simp
  rfl

noncomputable def wrC1W4 : List (Ref sig .tc) := [main_v674, main_v675, main_v676, main_cst_44, main_v677, main_v678, main_v679, main_v680, main_v681, main_v682, main_v683, main_v684, main_v685, main_v686, main_v687, main_v688, main_v689, main_v690, main_v691, main_v692, main_v693, main_v694, main_v695, main_v696, main_v697, main_v698, main_v699]

theorem subC1W4 : (opsC1W4 : List (HloOp τ sig (Elt F))).Forall fun op => op.bufs ⊆ tcRefs τ sig := by
  unfold opsC1W4
  exact ⟨unary_bufs_sub .., reshape_bufs_sub .., reshape_bufs_sub .., nullary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC1W4 : ∀ op ∈ (opsC1W4 : List (HloOp τ sig (Elt F))), op.fresh = ∅ := by
  unfold opsC1W4
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem keepC1W4 (V : Valuation τ sig (Elt F)) (r : Ref sig .tc) (hr : r ∉ wrC1W4) :
    after (opsC1W4 (F := F)) V (no_index (Proc.devRef .tc r)) = V (Proc.devRef .tc r) :=
  after_of_writes_sub _ V (W := wrC1W4) (by
    unfold opsC1W4 wrC1W4
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))⟩) hr

end Cert.Quanv.Ref

end
-- ==== Proof.RefOps.C1B.lean ====
/- TABLE written by: bun scratch/gen_ref.js <unit> ops — stretches C1W5, C1W6, C1W7, C1W8, C1WX01, C1WX12 of the reference's host program: per stretch the list of its operations, what it leaves
   in its result buffer as the kind's function of what it reads, and that it writes nothing else. -/
import proofs.«180459_j52956946760354_2_alg».proof.Proof.RefFns
import Idealize.ShloMosaic.Lib.StableHlo.Run

noncomputable section

namespace Cert.Quanv.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-! ## Stretch C1W5 (operations 772 … 798, kind ryW2) -/

noncomputable def opsC1W5 : List (HloOp τ sig (Elt F)) :=
  [ unary main_arg1 main_v700 ((extractStridedSlice S1x1 ![1, 5] · slices_S3x9_S1x1_1_5) : (⟨S3x9, .f32⟩ : BufTy).Contents (Elt F) → (⟨S1x1, .f32⟩ : BufTy).Contents (Elt F)),
    reshape main_v700 main_v701 rfl shapeCasts_S1x1_S_,
    reshape main_v699 main_v702 rfl shapeCasts_S8_S1x2x4,
    nullary main_cst_45 (constant S_ .f32 0x3F000000#32),
    binary main_v701 main_cst_45 main_v703 (mulf : (⟨S_, .f32⟩ : BufTy).Contents (Elt F) → (⟨S_, .f32⟩ : BufTy).Contents (Elt F) → (⟨S_, .f32⟩ : BufTy).Contents (Elt F)),
    unary main_v703 main_v704 (Host.cos : (⟨S_, .f32⟩ : BufTy).Contents (Elt F) → (⟨S_, .f32⟩ : BufTy).Contents (Elt F)),
    unary main_v704 main_v705 (broadcastInDim S1x1 ![] bcast_S_S1x1 : (⟨S_, .f32⟩ : BufTy).Contents (Elt F) → (⟨S1x1, .f32⟩ : BufTy).Contents (Elt F)),
    unary main_v703 main_v706 (Host.sin : (⟨S_, .f32⟩ : BufTy).Contents (Elt F) → (⟨S_, .f32⟩ : BufTy).Contents (Elt F)),
    unary main_v706 main_v707 (broadcastInDim S1x1 ![] bcast_S_S1x1 : (⟨S_, .f32⟩ : BufTy).Contents (Elt F) → (⟨S1x1, .f32⟩ : BufTy).Contents (Elt F)),
    unary main_v702 main_v708 ((extractStridedSlice S1x1x4 ![0, 0, 0] · slices_S1x2x4_S1x1x4_0_0_0) : (⟨S1x2x4, .f32⟩ : BufTy).Contents (Elt F) → (⟨S1x1x4, .f32⟩ : BufTy).Contents (Elt F)),
    reshape main_v708 main_v709 rfl shapeCasts_S1x1x4_S1x4,
    unary main_v702 main_v710 ((extractStridedSlice S1x1x4 ![0, 1, 0] · slices_S1x2x4_S1x1x4_0_1_0) : (⟨S1x2x4, .f32⟩ : BufTy).Contents (Elt F) → (⟨S1x1x4, .f32⟩ : BufTy).Contents (Elt F)),
    reshape main_v710 main_v711 rfl shapeCasts_S1x1x4_S1x4,
    unary main_v705 main_v712 (broadcastInDim S1x4 ![0, 1] bcast_S1x1_S1x4_0_1 : (⟨S1x1, .f32⟩ : BufTy).Contents (Elt F) → (⟨S1x4, .f32⟩ : BufTy).Contents (Elt F)),
    binary main_v712 main_v709 main_v713 (mulf : (⟨S1x4, .f32⟩ : BufTy).Contents (Elt F) → (⟨S1x4, .f32⟩ : BufTy).Contents (Elt F) → (⟨S1x4, .f32⟩ : BufTy).Contents (Elt F)),
    unary main_v707 main_v714 (broadcastInDim S1x4 ![0, 1] bcast_S1x1_S1x4_0_1 : (⟨S1x1, .f32⟩ : BufTy).Contents (Elt F) → (⟨S1x4, .f32⟩ : BufTy).Contents (Elt F)),
    binary main_v714 main_v711 main_v715 (mulf : (⟨S1x4, .f32⟩ : BufTy).Contents (Elt F) → (⟨S1x4, .f32⟩ : BufTy).Contents (Elt F) → (⟨S1x4, .f32⟩ : BufTy).Contents (Elt F)),
    binary main_v713 main_v715 main_v716 (subf : (⟨S1x4, .f32⟩ : BufTy).Contents (Elt F) → (⟨S1x4, .f32⟩ : BufTy).Contents (Elt F) → (⟨S1x4, .f32⟩ : BufTy).Contents (Elt F)),
    unary main_v707 main_v717 (broadcastInDim S1x4 ![0, 1] bcast_S1x1_S1x4_0_1 : (⟨S1x1, .f32⟩ : BufTy).Contents (Elt F) → (⟨S1x4, .f32⟩ : BufTy).Contents (Elt F)),
    binary main_v717 main_v709 main_v718 (mulf : (⟨S1x4, .f32⟩ : BufTy).Contents (Elt F) → (⟨S1x4, .f32⟩ : BufTy).Contents (Elt F) → (⟨S1x4, .f32⟩ : BufTy).Contents (Elt F)),
    unary main_v705 main_v719 (broadcastInDim S1x4 ![0, 1] bcast_S1x1_S1x4_0_1 : (⟨S1x1, .f32⟩ : BufTy).Contents (Elt F) → (⟨S1x4, .f32⟩ : BufTy).Contents (Elt F)),
    binary main_v719 main_v711 main_v720 (mulf : (⟨S1x4, .f32⟩ : BufTy).Contents (Elt F) → (⟨S1x4, .f32⟩ : BufTy).Contents (Elt F) → (⟨S1x4, .f32⟩ : BufTy).Contents (Elt F)),
    binary main_v718 main_v720 main_v721 (addf : (⟨S1x4, .f32⟩ : BufTy).Contents (Elt F) → (⟨S1x4, .f32⟩ : BufTy).Contents (Elt F) → (⟨S1x4, .f32⟩ : BufTy).Contents (Elt F)),
    unary main_v716 main_v722 (broadcastInDim S1x1x4 ![0, 2] bcast_S1x4_S1x1x4_0_2 : (⟨S1x4, .f32⟩ : BufTy).Contents (Elt F) → (⟨S1x1x4, .f32⟩ : BufTy).Contents (Elt F)),
    unary main_v721 main_v723 (broadcastInDim S1x1x4 ![0, 2] bcast_S1x4_S1x1x4_0_2 : (⟨S1x4, .f32⟩ : BufTy).Contents (Elt F) → (⟨S1x1x4, .f32⟩ : BufTy).Contents (Elt F)),
    binary main_v722 main_v723 main_v724 ((fun a b => concatenate S1x2x4 1 [⟨S1x1x4, a⟩, ⟨S1x1x4, b⟩] concatenates_S1x1x4_S1x1x4_S1x2x4_d1) : (⟨S1x1x4, .f32⟩ : BufTy).Contents (Elt F) → (⟨S1x1x4, .f32⟩ : BufTy).Contents (Elt F) → (⟨S1x2x4, .f32⟩ : BufTy).Contents (Elt F)),
    reshape main_v724 main_v725 rfl shapeCasts_S1x2x4_S8 ]

theorem valC1W5 (V : Valuation τ sig (Elt F)) :
    after (opsC1W5 (F := F)) V (no_index (Proc.devRef .tc main_v725)) = ryW2Fn (V (Proc.devRef .tc main_v699)) (((extractStridedSlice S1x1 ![1, 5] · slices_S3x9_S1x1_1_5) : (⟨S3x9, .f32⟩ : BufTy).Contents (Elt F) → (⟨S1x1, .f32⟩ : BufTy).Contents (Elt F)) (V (Proc.devRef .tc main_arg1))) := by
  unfold opsC1W5
  after_results_simp
  rfl

noncomputable def wrC1W5 : List (Ref sig .tc) := [main_v700, main_v701, main_v702, main_cst_45, main_v703, main_v704, main_v705, main_v706, main_v707, main_v708, main_v709, main_v710, main_v711, main_v712, main_v713, main_v714, main_v715, main_v716, main_v717, main_v718, main_v719, main_v720, main_v721, main_v722, main_v723, main_v724, main_v725]

theorem subC1W5 : (opsC1W5 : List (HloOp τ sig (Elt F))).Forall fun op => op.bufs ⊆ tcRefs τ sig := by
  unfold opsC1W5
  exact ⟨unary_bufs_sub .., reshape_bufs_sub .., reshape_bufs_sub .., nullary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC1W5 : ∀ op ∈ (opsC1W5 : List (HloOp τ sig (Elt F))), op.fresh = ∅ := by
  unfold opsC1W5
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem keepC1W5 (V : Valuation τ sig (Elt F)) (r : Ref sig .tc) (hr : r ∉ wrC1W5) :
    after (opsC1W5 (F := F)) V (no_index (Proc.devRef .tc r)) = V (Proc.devRef .tc r) :=
  after_of_writes_sub _ V (W := wrC1W5) (by
    unfold opsC1W5 wrC1W5
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))⟩) hr

/-! ## Stretch C1W6 (operations 799 … 825, kind ryW0) -/

noncomputable def opsC1W6 : List (HloOp τ sig (Elt F)) :=
  [ unary main_arg1 main_v726 ((extractStridedSlice S1x1 ![1, 6] · slices_S3x9_S1x1_1_6) : (⟨S3x9, .f32⟩ : BufTy).Contents (Elt F) → (⟨S1x1, .f32⟩ : BufTy).Contents (Elt F)),
    reshape main_v726 main_v727 rfl shapeCasts_S1x1_S_,
    reshape main_v725 main_v728 rfl shapeCasts_S8_S4x2x1,
    nullary main_cst_46 (constant S_ .f32 0x3F000000#32),
    binary main_v727 main_cst_46 main_v729 (mulf : (⟨S_, .f32⟩ : BufTy).Contents (Elt F) → (⟨S_, .f32⟩ : BufTy).Contents (Elt F) → (⟨S_, .f32⟩ : BufTy).Contents (Elt F)),
    unary main_v729 main_v730 (Host.cos : (⟨S_, .f32⟩ : BufTy).Contents (Elt F) → (⟨S_, .f32⟩ : BufTy).Contents (Elt F)),
    unary main_v730 main_v731 (broadcastInDim S1x1 ![] bcast_S_S1x1 : (⟨S_, .f32⟩ : BufTy).Contents (Elt F) → (⟨S1x1, .f32⟩ : BufTy).Contents (Elt F)),
    unary main_v729 main_v732 (Host.sin : (⟨S_, .f32⟩ : BufTy).Contents (Elt F) → (⟨S_, .f32⟩ : BufTy).Contents (Elt F)),
    unary main_v732 main_v733 (broadcastInDim S1x1 ![] bcast_S_S1x1 : (⟨S_, .f32⟩ : BufTy).Contents (Elt F) → (⟨S1x1, .f32⟩ : BufTy).Contents (Elt F)),
    unary main_v728 main_v734 ((extractStridedSlice S4x1x1 ![0, 0, 0] · slices_S4x2x1_S4x1x1_0_0_0) : (⟨S4x2x1, .f32⟩ : BufTy).Contents (Elt F) → (⟨S4x1x1, .f32⟩ : BufTy).Contents (Elt F)),
    reshape main_v734 main_v735 rfl shapeCasts_S4x1x1_S4x1,
    unary main_v728 main_v736 ((extractStridedSlice S4x1x1 ![0, 1, 0] · slices_S4x2x1_S4x1x1_0_1_0) : (⟨S4x2x1, .f32⟩ : BufTy).Contents (Elt F) → (⟨S4x1x1, .f32⟩ : BufTy).Contents (Elt F)),
    reshape main_v736 main_v737 rfl shapeCasts_S4x1x1_S4x1,
    unary main_v731 main_v738 (broadcastInDim S4x1 ![0, 1] bcast_S1x1_S4x1_0_1 : (⟨S1x1, .f32⟩ : BufTy).Contents (Elt F) → (⟨S4x1, .f32⟩ : BufTy).Contents (Elt F)),
    binary main_v738 main_v735 main_v739 (mulf : (⟨S4x1, .f32⟩ : BufTy).Contents (Elt F) → (⟨S4x1, .f32⟩ : BufTy).Contents (Elt F) → (⟨S4x1, .f32⟩ : BufTy).Contents (Elt F)),
    unary main_v733 main_v740 (broadcastInDim S4x1 ![0, 1] bcast_S1x1_S4x1_0_1 : (⟨S1x1, .f32⟩ : BufTy).Contents (Elt F) → (⟨S4x1, .f32⟩ : BufTy).Contents (Elt F)),
    binary main_v740 main_v737 main_v741 (mulf : (⟨S4x1, .f32⟩ : BufTy).Contents (Elt F) → (⟨S4x1, .f32⟩ : BufTy).Contents (Elt F) → (⟨S4x1, .f32⟩ : BufTy).Contents (Elt F)),
    binary main_v739 main_v741 main_v742 (subf : (⟨S4x1, .f32⟩ : BufTy).Contents (Elt F) → (⟨S4x1, .f32⟩ : BufTy).Contents (Elt F) → (⟨S4x1, .f32⟩ : BufTy).Contents (Elt F)),
    unary main_v733 main_v743 (broadcastInDim S4x1 ![0, 1] bcast_S1x1_S4x1_0_1 : (⟨S1x1, .f32⟩ : BufTy).Contents (Elt F) → (⟨S4x1, .f32⟩ : BufTy).Contents (Elt F)),
    binary main_v743 main_v735 main_v744 (mulf : (⟨S4x1, .f32⟩ : BufTy).Contents (Elt F) → (⟨S4x1, .f32⟩ : BufTy).Contents (Elt F) → (⟨S4x1, .f32⟩ : BufTy).Contents (Elt F)),
    unary main_v731 main_v745 (broadcastInDim S4x1 ![0, 1] bcast_S1x1_S4x1_0_1 : (⟨S1x1, .f32⟩ : BufTy).Contents (Elt F) → (⟨S4x1, .f32⟩ : BufTy).Contents (Elt F)),
    binary main_v745 main_v737 main_v746 (mulf : (⟨S4x1, .f32⟩ : BufTy).Contents (Elt F) → (⟨S4x1, .f32⟩ : BufTy).Contents (Elt F) → (⟨S4x1, .f32⟩ : BufTy).Contents (Elt F)),
    binary main_v744 main_v746 main_v747 (addf : (⟨S4x1, .f32⟩ : BufTy).Contents (Elt F) → (⟨S4x1, .f32⟩ : BufTy).Contents (Elt F) → (⟨S4x1, .f32⟩ : BufTy).Contents (Elt F)),
    unary main_v742 main_v748 (broadcastInDim S4x1x1 ![0, 2] bcast_S4x1_S4x1x1_0_2 : (⟨S4x1, .f32⟩ : BufTy).Contents (Elt F) → (⟨S4x1x1, .f32⟩ : BufTy).Contents (Elt F)),
    unary main_v747 main_v749 (broadcastInDim S4x1x1 ![0, 2] bcast_S4x1_S4x1x1_0_2 : (⟨S4x1, .f32⟩ : BufTy).Contents (Elt F) → (⟨S4x1x1, .f32⟩ : BufTy).Contents (Elt F)),
    binary main_v748 main_v749 main_v750 ((fun a b => concatenate S4x2x1 1 [⟨S4x1x1, a⟩, ⟨S4x1x1, b⟩] concatenates_S4x1x1_S4x1x1_S4x2x1_d1) : (⟨S4x1x1, .f32⟩ : BufTy).Contents (Elt F) → (⟨S4x1x1, .f32⟩ : BufTy).Contents (Elt F) → (⟨S4x2x1, .f32⟩ : BufTy).Contents (Elt F)),
    reshape main_v750 main_v751 rfl shapeCasts_S4x2x1_S8 ]

theorem valC1W6 (V : Valuation τ sig (Elt F)) :
    after (opsC1W6 (F := F)) V (no_index (Proc.devRef .tc main_v751)) = ryW0Fn (V (Proc.devRef .tc main_v725)) (((extractStridedSlice S1x1 ![1, 6] · slices_S3x9_S1x1_1_6) : (⟨S3x9, .f32⟩ : BufTy).Contents (Elt F) → (⟨S1x1, .f32⟩ : BufTy).Contents (Elt F)) (V (Proc.devRef .tc main_arg1))) := by
  unfold opsC1W6
  after_results_simp
  rfl

noncomputable def wrC1W6 : List (Ref sig .tc) := [main_v726, main_v727, main_v728, main_cst_46, main_v729, main_v730, main_v731, main_v732, main_v733, main_v734, main_v735, main_v736, main_v737, main_v738, main_v739, main_v740, main_v741, main_v742, main_v743, main_v744, main_v745, main_v746, main_v747, main_v748, main_v749, main_v750, main_v751]

theorem subC1W6 : (opsC1W6 : List (HloOp τ sig (Elt F))).Forall fun op => op.bufs ⊆ tcRefs τ sig := by
  unfold opsC1W6
  exact ⟨unary_bufs_sub .., reshape_bufs_sub .., reshape_bufs_sub .., nullary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC1W6 : ∀ op ∈ (opsC1W6 : List (HloOp τ sig (Elt F))), op.fresh = ∅ := by
  unfold opsC1W6
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem keepC1W6 (V : Valuation τ sig (Elt F)) (r : Ref sig .tc) (hr : r ∉ wrC1W6) :
    after (opsC1W6 (F := F)) V (no_index (Proc.devRef .tc r)) = V (Proc.devRef .tc r) :=
  after_of_writes_sub _ V (W := wrC1W6) (by
    unfold opsC1W6 wrC1W6
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))⟩) hr

/-! ## Stretch C1W7 (operations 826 … 852, kind ryW1) -/

noncomputable def opsC1W7 : List (HloOp τ sig (Elt F)) :=
  [ unary main_arg1 main_v752 ((extractStridedSlice S1x1 ![1, 7] · slices_S3x9_S1x1_1_7) : (⟨S3x9, .f32⟩ : BufTy).Contents (Elt F) → (⟨S1x1, .f32⟩ : BufTy).Contents (Elt F)),
    reshape main_v752 main_v753 rfl shapeCasts_S1x1_S_,
    reshape main_v751 main_v754 rfl shapeCasts_S8_S2x2x2,
    nullary main_cst_47 (constant S_ .f32 0x3F000000#32),
    binary main_v753 main_cst_47 main_v755 (mulf : (⟨S_, .f32⟩ : BufTy).Contents (Elt F) → (⟨S_, .f32⟩ : BufTy).Contents (Elt F) → (⟨S_, .f32⟩ : BufTy).Contents (Elt F)),
    unary main_v755 main_v756 (Host.cos : (⟨S_, .f32⟩ : BufTy).Contents (Elt F) → (⟨S_, .f32⟩ : BufTy).Contents (Elt F)),
    unary main_v756 main_v757 (broadcastInDim S1x1 ![] bcast_S_S1x1 : (⟨S_, .f32⟩ : BufTy).Contents (Elt F) → (⟨S1x1, .f32⟩ : BufTy).Contents (Elt F)),
    unary main_v755 main_v758 (Host.sin : (⟨S_, .f32⟩ : BufTy).Contents (Elt F) → (⟨S_, .f32⟩ : BufTy).Contents (Elt F)),
    unary main_v758 main_v759 (broadcastInDim S1x1 ![] bcast_S_S1x1 : (⟨S_, .f32⟩ : BufTy).Contents (Elt F) → (⟨S1x1, .f32⟩ : BufTy).Contents (Elt F)),
    unary main_v754 main_v760 ((extractStridedSlice S2x1x2 ![0, 0, 0] · slices_S2x2x2_S2x1x2_0_0_0) : (⟨S2x2x2, .f32⟩ : BufTy).Contents (Elt F) → (⟨S2x1x2, .f32⟩ : BufTy).Contents (Elt F)),
    reshape main_v760 main_v761 rfl shapeCasts_S2x1x2_S2x2,
    unary main_v754 main_v762 ((extractStridedSlice S2x1x2 ![0, 1, 0] · slices_S2x2x2_S2x1x2_0_1_0) : (⟨S2x2x2, .f32⟩ : BufTy).Contents (Elt F) → (⟨S2x1x2, .f32⟩ : BufTy).Contents (Elt F)),
    reshape main_v762 main_v763 rfl shapeCasts_S2x1x2_S2x2,
    unary main_v757 main_v764 (broadcastInDim S2x2 ![0, 1] bcast_S1x1_S2x2_0_1 : (⟨S1x1, .f32⟩ : BufTy).Contents (Elt F) → (⟨S2x2, .f32⟩ : BufTy).Contents (Elt F)),
    binary main_v764 main_v761 main_v765 (mulf : (⟨S2x2, .f32⟩ : BufTy).Contents (Elt F) → (⟨S2x2, .f32⟩ : BufTy).Contents (Elt F) → (⟨S2x2, .f32⟩ : BufTy).Contents (Elt F)),
    unary main_v759 main_v766 (broadcastInDim S2x2 ![0, 1] bcast_S1x1_S2x2_0_1 : (⟨S1x1, .f32⟩ : BufTy).Contents (Elt F) → (⟨S2x2, .f32⟩ : BufTy).Contents (Elt F)),
    binary main_v766 main_v763 main_v767 (mulf : (⟨S2x2, .f32⟩ : BufTy).Contents (Elt F) → (⟨S2x2, .f32⟩ : BufTy).Contents (Elt F) → (⟨S2x2, .f32⟩ : BufTy).Contents (Elt F)),
    binary main_v765 main_v767 main_v768 (subf : (⟨S2x2, .f32⟩ : BufTy).Contents (Elt F) → (⟨S2x2, .f32⟩ : BufTy).Contents (Elt F) → (⟨S2x2, .f32⟩ : BufTy).Contents (Elt F)),
    unary main_v759 main_v769 (broadcastInDim S2x2 ![0, 1] bcast_S1x1_S2x2_0_1 : (⟨S1x1, .f32⟩ : BufTy).Contents (Elt F) → (⟨S2x2, .f32⟩ : BufTy).Contents (Elt F)),
    binary main_v769 main_v761 main_v770 (mulf : (⟨S2x2, .f32⟩ : BufTy).Contents (Elt F) → (⟨S2x2, .f32⟩ : BufTy).Contents (Elt F) → (⟨S2x2, .f32⟩ : BufTy).Contents (Elt F)),
    unary main_v757 main_v771 (broadcastInDim S2x2 ![0, 1] bcast_S1x1_S2x2_0_1 : (⟨S1x1, .f32⟩ : BufTy).Contents (Elt F) → (⟨S2x2, .f32⟩ : BufTy).Contents (Elt F)),
    binary main_v771 main_v763 main_v772 (mulf : (⟨S2x2, .f32⟩ : BufTy).Contents (Elt F) → (⟨S2x2, .f32⟩ : BufTy).Contents (Elt F) → (⟨S2x2, .f32⟩ : BufTy).Contents (Elt F)),
    binary main_v770 main_v772 main_v773 (addf : (⟨S2x2, .f32⟩ : BufTy).Contents (Elt F) → (⟨S2x2, .f32⟩ : BufTy).Contents (Elt F) → (⟨S2x2, .f32⟩ : BufTy).Contents (Elt F)),
    unary main_v768 main_v774 (broadcastInDim S2x1x2 ![0, 2] bcast_S2x2_S2x1x2_0_2 : (⟨S2x2, .f32⟩ : BufTy).Contents (Elt F) → (⟨S2x1x2, .f32⟩ : BufTy).Contents (Elt F)),
    unary main_v773 main_v775 (broadcastInDim S2x1x2 ![0, 2] bcast_S2x2_S2x1x2_0_2 : (⟨S2x2, .f32⟩ : BufTy).Contents (Elt F) → (⟨S2x1x2, .f32⟩ : BufTy).Contents (Elt F)),
    binary main_v774 main_v775 main_v776 ((fun a b => concatenate S2x2x2 1 [⟨S2x1x2, a⟩, ⟨S2x1x2, b⟩] concatenates_S2x1x2_S2x1x2_S2x2x2_d1) : (⟨S2x1x2, .f32⟩ : BufTy).Contents (Elt F) → (⟨S2x1x2, .f32⟩ : BufTy).Contents (Elt F) → (⟨S2x2x2, .f32⟩ : BufTy).Contents (Elt F)),
    reshape main_v776 main_v777 rfl shapeCasts_S2x2x2_S8 ]

theorem valC1W7 (V : Valuation τ sig (Elt F)) :
    after (opsC1W7 (F := F)) V (no_index (Proc.devRef .tc main_v777)) = ryW1Fn (V (Proc.devRef .tc main_v751)) (((extractStridedSlice S1x1 ![1, 7] · slices_S3x9_S1x1_1_7) : (⟨S3x9, .f32⟩ : BufTy).Contents (Elt F) → (⟨S1x1, .f32⟩ : BufTy).Contents (Elt F)) (V (Proc.devRef .tc main_arg1))) := by
  unfold opsC1W7
  after_results_simp
  rfl

noncomputable def wrC1W7 : List (Ref sig .tc) := [main_v752, main_v753, main_v754, main_cst_47, main_v755, main_v756, main_v757, main_v758, main_v759, main_v760, main_v761, main_v762, main_v763, main_v764, main_v765, main_v766, main_v767, main_v768, main_v769, main_v770, main_v771, main_v772, main_v773, main_v774, main_v775, main_v776, main_v777]

theorem subC1W7 : (opsC1W7 : List (HloOp τ sig (Elt F))).Forall fun op => op.bufs ⊆ tcRefs τ sig := by
  unfold opsC1W7
  exact ⟨unary_bufs_sub .., reshape_bufs_sub .., reshape_bufs_sub .., nullary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC1W7 : ∀ op ∈ (opsC1W7 : List (HloOp τ sig (Elt F))), op.fresh = ∅ := by
  unfold opsC1W7
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem keepC1W7 (V : Valuation τ sig (Elt F)) (r : Ref sig .tc) (hr : r ∉ wrC1W7) :
    after (opsC1W7 (F := F)) V (no_index (Proc.devRef .tc r)) = V (Proc.devRef .tc r) :=
  after_of_writes_sub _ V (W := wrC1W7) (by
    unfold opsC1W7 wrC1W7
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))⟩) hr

/-! ## Stretch C1W8 (operations 853 … 879, kind ryW2) -/

noncomputable def opsC1W8 : List (HloOp τ sig (Elt F)) :=
  [ unary main_arg1 main_v778 ((extractStridedSlice S1x1 ![1, 8] · slices_S3x9_S1x1_1_8) : (⟨S3x9, .f32⟩ : BufTy).Contents (Elt F) → (⟨S1x1, .f32⟩ : BufTy).Contents (Elt F)),
    reshape main_v778 main_v779 rfl shapeCasts_S1x1_S_,
    reshape main_v777 main_v780 rfl shapeCasts_S8_S1x2x4,
    nullary main_cst_48 (constant S_ .f32 0x3F000000#32),
    binary main_v779 main_cst_48 main_v781 (mulf : (⟨S_, .f32⟩ : BufTy).Contents (Elt F) → (⟨S_, .f32⟩ : BufTy).Contents (Elt F) → (⟨S_, .f32⟩ : BufTy).Contents (Elt F)),
    unary main_v781 main_v782 (Host.cos : (⟨S_, .f32⟩ : BufTy).Contents (Elt F) → (⟨S_, .f32⟩ : BufTy).Contents (Elt F)),
    unary main_v782 main_v783 (broadcastInDim S1x1 ![] bcast_S_S1x1 : (⟨S_, .f32⟩ : BufTy).Contents (Elt F) → (⟨S1x1, .f32⟩ : BufTy).Contents (Elt F)),
    unary main_v781 main_v784 (Host.sin : (⟨S_, .f32⟩ : BufTy).Contents (Elt F) → (⟨S_, .f32⟩ : BufTy).Contents (Elt F)),
    unary main_v784 main_v785 (broadcastInDim S1x1 ![] bcast_S_S1x1 : (⟨S_, .f32⟩ : BufTy).Contents (Elt F) → (⟨S1x1, .f32⟩ : BufTy).Contents (Elt F)),
    unary main_v780 main_v786 ((extractStridedSlice S1x1x4 ![0, 0, 0] · slices_S1x2x4_S1x1x4_0_0_0) : (⟨S1x2x4, .f32⟩ : BufTy).Contents (Elt F) → (⟨S1x1x4, .f32⟩ : BufTy).Contents (Elt F)),
    reshape main_v786 main_v787 rfl shapeCasts_S1x1x4_S1x4,
    unary main_v780 main_v788 ((extractStridedSlice S1x1x4 ![0, 1, 0] · slices_S1x2x4_S1x1x4_0_1_0) : (⟨S1x2x4, .f32⟩ : BufTy).Contents (Elt F) → (⟨S1x1x4, .f32⟩ : BufTy).Contents (Elt F)),
    reshape main_v788 main_v789 rfl shapeCasts_S1x1x4_S1x4,
    unary main_v783 main_v790 (broadcastInDim S1x4 ![0, 1] bcast_S1x1_S1x4_0_1 : (⟨S1x1, .f32⟩ : BufTy).Contents (Elt F) → (⟨S1x4, .f32⟩ : BufTy).Contents (Elt F)),
    binary main_v790 main_v787 main_v791 (mulf : (⟨S1x4, .f32⟩ : BufTy).Contents (Elt F) → (⟨S1x4, .f32⟩ : BufTy).Contents (Elt F) → (⟨S1x4, .f32⟩ : BufTy).Contents (Elt F)),
    unary main_v785 main_v792 (broadcastInDim S1x4 ![0, 1] bcast_S1x1_S1x4_0_1 : (⟨S1x1, .f32⟩ : BufTy).Contents (Elt F) → (⟨S1x4, .f32⟩ : BufTy).Contents (Elt F)),
    binary main_v792 main_v789 main_v793 (mulf : (⟨S1x4, .f32⟩ : BufTy).Contents (Elt F) → (⟨S1x4, .f32⟩ : BufTy).Contents (Elt F) → (⟨S1x4, .f32⟩ : BufTy).Contents (Elt F)),
    binary main_v791 main_v793 main_v794 (subf : (⟨S1x4, .f32⟩ : BufTy).Contents (Elt F) → (⟨S1x4, .f32⟩ : BufTy).Contents (Elt F) → (⟨S1x4, .f32⟩ : BufTy).Contents (Elt F)),
    unary main_v785 main_v795 (broadcastInDim S1x4 ![0, 1] bcast_S1x1_S1x4_0_1 : (⟨S1x1, .f32⟩ : BufTy).Contents (Elt F) → (⟨S1x4, .f32⟩ : BufTy).Contents (Elt F)),
    binary main_v795 main_v787 main_v796 (mulf : (⟨S1x4, .f32⟩ : BufTy).Contents (Elt F) → (⟨S1x4, .f32⟩ : BufTy).Contents (Elt F) → (⟨S1x4, .f32⟩ : BufTy).Contents (Elt F)),
    unary main_v783 main_v797 (broadcastInDim S1x4 ![0, 1] bcast_S1x1_S1x4_0_1 : (⟨S1x1, .f32⟩ : BufTy).Contents (Elt F) → (⟨S1x4, .f32⟩ : BufTy).Contents (Elt F)),
    binary main_v797 main_v789 main_v798 (mulf : (⟨S1x4, .f32⟩ : BufTy).Contents (Elt F) → (⟨S1x4, .f32⟩ : BufTy).Contents (Elt F) → (⟨S1x4, .f32⟩ : BufTy).Contents (Elt F)),
    binary main_v796 main_v798 main_v799 (addf : (⟨S1x4, .f32⟩ : BufTy).Contents (Elt F) → (⟨S1x4, .f32⟩ : BufTy).Contents (Elt F) → (⟨S1x4, .f32⟩ : BufTy).Contents (Elt F)),
    unary main_v794 main_v800 (broadcastInDim S1x1x4 ![0, 2] bcast_S1x4_S1x1x4_0_2 : (⟨S1x4, .f32⟩ : BufTy).Contents (Elt F) → (⟨S1x1x4, .f32⟩ : BufTy).Contents (Elt F)),
    unary main_v799 main_v801 (broadcastInDim S1x1x4 ![0, 2] bcast_S1x4_S1x1x4_0_2 : (⟨S1x4, .f32⟩ : BufTy).Contents (Elt F) → (⟨S1x1x4, .f32⟩ : BufTy).Contents (Elt F)),
    binary main_v800 main_v801 main_v802 ((fun a b => concatenate S1x2x4 1 [⟨S1x1x4, a⟩, ⟨S1x1x4, b⟩] concatenates_S1x1x4_S1x1x4_S1x2x4_d1) : (⟨S1x1x4, .f32⟩ : BufTy).Contents (Elt F) → (⟨S1x1x4, .f32⟩ : BufTy).Contents (Elt F) → (⟨S1x2x4, .f32⟩ : BufTy).Contents (Elt F)),
    reshape main_v802 main_v803 rfl shapeCasts_S1x2x4_S8 ]

theorem valC1W8 (V : Valuation τ sig (Elt F)) :
    after (opsC1W8 (F := F)) V (no_index (Proc.devRef .tc main_v803)) = ryW2Fn (V (Proc.devRef .tc main_v777)) (((extractStridedSlice S1x1 ![1, 8] · slices_S3x9_S1x1_1_8) : (⟨S3x9, .f32⟩ : BufTy).Contents (Elt F) → (⟨S1x1, .f32⟩ : BufTy).Contents (Elt F)) (V (Proc.devRef .tc main_arg1))) := by
  unfold opsC1W8
  after_results_simp
  rfl

noncomputable def wrC1W8 : List (Ref sig .tc) := [main_v778, main_v779, main_v780, main_cst_48, main_v781, main_v782, main_v783, main_v784, main_v785, main_v786, main_v787, main_v788, main_v789, main_v790, main_v791, main_v792, main_v793, main_v794, main_v795, main_v796, main_v797, main_v798, main_v799, main_v800, main_v801, main_v802, main_v803]

theorem subC1W8 : (opsC1W8 : List (HloOp τ sig (Elt F))).Forall fun op => op.bufs ⊆ tcRefs τ sig := by
  unfold opsC1W8
  exact ⟨unary_bufs_sub .., reshape_bufs_sub .., reshape_bufs_sub .., nullary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC1W8 : ∀ op ∈ (opsC1W8 : List (HloOp τ sig (Elt F))), op.fresh = ∅ := by
  unfold opsC1W8
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem keepC1W8 (V : Valuation τ sig (Elt F)) (r : Ref sig .tc) (hr : r ∉ wrC1W8) :
    after (opsC1W8 (F := F)) V (no_index (Proc.devRef .tc r)) = V (Proc.devRef .tc r) :=
  after_of_writes_sub _ V (W := wrC1W8) (by
    unfold opsC1W8 wrC1W8
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))⟩) hr

/-! ## Stretch C1WX01 (operations 880 … 899, kind cxWa) -/

noncomputable def opsC1WX01 : List (HloOp τ sig (Elt F)) :=
  [ nullary main_v804 (iotaInDim S8 32 0),
    nullary main_c_49 (constantI S_ 32 0#32),
    unary main_c_49 main_v805 (broadcastInDim S8 ![] bcast_S_S8 : (⟨S_, .i32⟩ : BufTy).Contents (Elt F) → (⟨S8, .i32⟩ : BufTy).Contents (Elt F)),
    binary main_v804 main_v805 main_v806 (Host.shrsi : (⟨S8, .i32⟩ : BufTy).Contents (Elt F) → (⟨S8, .i32⟩ : BufTy).Contents (Elt F) → (⟨S8, .i32⟩ : BufTy).Contents (Elt F)),
    nullary main_c_50 (constantI S_ 32 1#32),
    unary main_c_50 main_v807 (broadcastInDim S8 ![] bcast_S_S8 : (⟨S_, .i32⟩ : BufTy).Contents (Elt F) → (⟨S8, .i32⟩ : BufTy).Contents (Elt F)),
    binary main_v806 main_v807 main_v808 (andi : (⟨S8, .i32⟩ : BufTy).Contents (Elt F) → (⟨S8, .i32⟩ : BufTy).Contents (Elt F) → (⟨S8, .i32⟩ : BufTy).Contents (Elt F)),
    nullary main_c_51 (constantI S_ 32 1#32),
    unary main_c_51 main_v809 (broadcastInDim S8 ![] bcast_S_S8 : (⟨S_, .i32⟩ : BufTy).Contents (Elt F) → (⟨S8, .i32⟩ : BufTy).Contents (Elt F)),
    binary main_v808 main_v809 main_v810 (Host.shli : (⟨S8, .i32⟩ : BufTy).Contents (Elt F) → (⟨S8, .i32⟩ : BufTy).Contents (Elt F) → (⟨S8, .i32⟩ : BufTy).Contents (Elt F)),
    binary main_v804 main_v810 main_v811 (xori : (⟨S8, .i32⟩ : BufTy).Contents (Elt F) → (⟨S8, .i32⟩ : BufTy).Contents (Elt F) → (⟨S8, .i32⟩ : BufTy).Contents (Elt F)),
    nullary main_c_52 (constantI S_ 32 0#32),
    unary main_c_52 main_v812 (broadcastInDim S8 ![] bcast_S_S8 : (⟨S_, .i32⟩ : BufTy).Contents (Elt F) → (⟨S8, .i32⟩ : BufTy).Contents (Elt F)),
    binary main_v811 main_v812 main_v813 (cmpi .slt : (⟨S8, .i32⟩ : BufTy).Contents (Elt F) → (⟨S8, .i32⟩ : BufTy).Contents (Elt F) → (⟨S8, .i1⟩ : BufTy).Contents (Elt F)),
    nullary main_c_53 (constantI S_ 32 8#32),
    unary main_c_53 main_v814 (broadcastInDim S8 ![] bcast_S_S8 : (⟨S_, .i32⟩ : BufTy).Contents (Elt F) → (⟨S8, .i32⟩ : BufTy).Contents (Elt F)),
    binary main_v811 main_v814 main_v815 (addi : (⟨S8, .i32⟩ : BufTy).Contents (Elt F) → (⟨S8, .i32⟩ : BufTy).Contents (Elt F) → (⟨S8, .i32⟩ : BufTy).Contents (Elt F)),
    ternary main_v813 main_v815 main_v811 main_v816 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_v816 main_v817 (broadcastInDim S8x1 ![0] bcast_S8_S8x1_0 : (⟨S8, .i32⟩ : BufTy).Contents (Elt F) → (⟨S8x1, .i32⟩ : BufTy).Contents (Elt F)),
    binary main_v803 main_v817 main_v818 ((fun x i => Host.gather gather_S8_S8x1_S8_n_0_n_n_0_1_1 x i) : (⟨S8, .f32⟩ : BufTy).Contents (Elt F) → (⟨S8x1, .i32⟩ : BufTy).Contents (Elt F) → (⟨S8, .f32⟩ : BufTy).Contents (Elt F)) ]

theorem valC1WX01 (V : Valuation τ sig (Elt F)) :
    after (opsC1WX01 (F := F)) V (no_index (Proc.devRef .tc main_v818)) = cxWaFn (V (Proc.devRef .tc main_v803)) := by
  unfold opsC1WX01
  after_results_simp
  rfl

noncomputable def wrC1WX01 : List (Ref sig .tc) := [main_v804, main_c_49, main_v805, main_v806, main_c_50, main_v807, main_v808, main_c_51, main_v809, main_v810, main_v811, main_c_52, main_v812, main_v813, main_c_53, main_v814, main_v815, main_v816, main_v817, main_v818]

theorem subC1WX01 : (opsC1WX01 : List (HloOp τ sig (Elt F))).Forall fun op => op.bufs ⊆ tcRefs τ sig := by
  unfold opsC1WX01
  exact ⟨nullary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem freshC1WX01 : ∀ op ∈ (opsC1WX01 : List (HloOp τ sig (Elt F))), op.fresh = ∅ := by
  unfold opsC1WX01
  exact List.forall_iff_forall_mem.mp ⟨rfl, rfl, rfl, rfl, rfl, rfl, rfl, rfl, rfl, rfl, rfl, rfl, rfl, rfl, rfl, rfl, rfl, rfl, rfl, rfl⟩

theorem keepC1WX01 (V : Valuation τ sig (Elt F)) (r : Ref sig .tc) (hr : r ∉ wrC1WX01) :
    after (opsC1WX01 (F := F)) V (no_index (Proc.devRef .tc r)) = V (Proc.devRef .tc r) :=
  after_of_writes_sub _ V (W := wrC1WX01) (by
    unfold opsC1WX01 wrC1WX01
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))⟩) hr

/-! ## Stretch C1WX12 (operations 900 … 919, kind cxWb) -/

noncomputable def opsC1WX12 : List (HloOp τ sig (Elt F)) :=
  [ nullary main_v819 (iotaInDim S8 32 0),
    nullary main_c_54 (constantI S_ 32 1#32),
    unary main_c_54 main_v820 (broadcastInDim S8 ![] bcast_S_S8 : (⟨S_, .i32⟩ : BufTy).Contents (Elt F) → (⟨S8, .i32⟩ : BufTy).Contents (Elt F)),
    binary main_v819 main_v820 main_v821 (Host.shrsi : (⟨S8, .i32⟩ : BufTy).Contents (Elt F) → (⟨S8, .i32⟩ : BufTy).Contents (Elt F) → (⟨S8, .i32⟩ : BufTy).Contents (Elt F)),
    nullary main_c_55 (constantI S_ 32 1#32),
    unary main_c_55 main_v822 (broadcastInDim S8 ![] bcast_S_S8 : (⟨S_, .i32⟩ : BufTy).Contents (Elt F) → (⟨S8, .i32⟩ : BufTy).Contents (Elt F)),
    binary main_v821 main_v822 main_v823 (andi : (⟨S8, .i32⟩ : BufTy).Contents (Elt F) → (⟨S8, .i32⟩ : BufTy).Contents (Elt F) → (⟨S8, .i32⟩ : BufTy).Contents (Elt F)),
    nullary main_c_56 (constantI S_ 32 2#32),
    unary main_c_56 main_v824 (broadcastInDim S8 ![] bcast_S_S8 : (⟨S_, .i32⟩ : BufTy).Contents (Elt F) → (⟨S8, .i32⟩ : BufTy).Contents (Elt F)),
    binary main_v823 main_v824 main_v825 (Host.shli : (⟨S8, .i32⟩ : BufTy).Contents (Elt F) → (⟨S8, .i32⟩ : BufTy).Contents (Elt F) → (⟨S8, .i32⟩ : BufTy).Contents (Elt F)),
    binary main_v819 main_v825 main_v826 (xori : (⟨S8, .i32⟩ : BufTy).Contents (Elt F) → (⟨S8, .i32⟩ : BufTy).Contents (Elt F) → (⟨S8, .i32⟩ : BufTy).Contents (Elt F)),
    nullary main_c_57 (constantI S_ 32 0#32),
    unary main_c_57 main_v827 (broadcastInDim S8 ![] bcast_S_S8 : (⟨S_, .i32⟩ : BufTy).Contents (Elt F) → (⟨S8, .i32⟩ : BufTy).Contents (Elt F)),
    binary main_v826 main_v827 main_v828 (cmpi .slt : (⟨S8, .i32⟩ : BufTy).Contents (Elt F) → (⟨S8, .i32⟩ : BufTy).Contents (Elt F) → (⟨S8, .i1⟩ : BufTy).Contents (Elt F)),
    nullary main_c_58 (constantI S_ 32 8#32),
    unary main_c_58 main_v829 (broadcastInDim S8 ![] bcast_S_S8 : (⟨S_, .i32⟩ : BufTy).Contents (Elt F) → (⟨S8, .i32⟩ : BufTy).Contents (Elt F)),
    binary main_v826 main_v829 main_v830 (addi : (⟨S8, .i32⟩ : BufTy).Contents (Elt F) → (⟨S8, .i32⟩ : BufTy).Contents (Elt F) → (⟨S8, .i32⟩ : BufTy).Contents (Elt F)),
    ternary main_v828 main_v830 main_v826 main_v831 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_v831 main_v832 (broadcastInDim S8x1 ![0] bcast_S8_S8x1_0 : (⟨S8, .i32⟩ : BufTy).Contents (Elt F) → (⟨S8x1, .i32⟩ : BufTy).Contents (Elt F)),
    binary main_v818 main_v832 main_v833 ((fun x i => Host.gather gather_S8_S8x1_S8_n_0_n_n_0_1_1 x i) : (⟨S8, .f32⟩ : BufTy).Contents (Elt F) → (⟨S8x1, .i32⟩ : BufTy).Contents (Elt F) → (⟨S8, .f32⟩ : BufTy).Contents (Elt F)) ]

theorem valC1WX12 (V : Valuation τ sig (Elt F)) :
    after (opsC1WX12 (F := F)) V (no_index (Proc.devRef .tc main_v833)) = cxWbFn (V (Proc.devRef .tc main_v818)) := by
  unfold opsC1WX12
  after_results_simp
  rfl

noncomputable def wrC1WX12 : List (Ref sig .tc) := [main_v819, main_c_54, main_v820, main_v821, main_c_55, main_v822, main_v823, main_c_56, main_v824, main_v825, main_v826, main_c_57, main_v827, main_v828, main_c_58, main_v829, main_v830, main_v831, main_v832, main_v833]

theorem subC1WX12 : (opsC1WX12 : List (HloOp τ sig (Elt F))).Forall fun op => op.bufs ⊆ tcRefs τ sig := by
  unfold opsC1WX12
  exact ⟨nullary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem freshC1WX12 : ∀ op ∈ (opsC1WX12 : List (HloOp τ sig (Elt F))), op.fresh = ∅ := by
  unfold opsC1WX12
  exact List.forall_iff_forall_mem.mp ⟨rfl, rfl, rfl, rfl, rfl, rfl, rfl, rfl, rfl, rfl, rfl, rfl, rfl, rfl, rfl, rfl, rfl, rfl, rfl, rfl⟩

theorem keepC1WX12 (V : Valuation τ sig (Elt F)) (r : Ref sig .tc) (hr : r ∉ wrC1WX12) :
    after (opsC1WX12 (F := F)) V (no_index (Proc.devRef .tc r)) = V (Proc.devRef .tc r) :=
  after_of_writes_sub _ V (W := wrC1WX12) (by
    unfold opsC1WX12 wrC1WX12
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))⟩) hr

end Cert.Quanv.Ref

end
-- ==== Proof.RefOps.C1C.lean ====
/- TABLE written by: bun scratch/gen_ref.js <unit> ops — stretches C1XCol, C1BPsi, C1D0, C1D1, C1D2 of the reference's host program: per stretch the list of its operations, what it leaves
   in its result buffer as the kind's function of what it reads, and that it writes nothing else. -/
import proofs.«180459_j52956946760354_2_alg».proof.Proof.RefFns
import Idealize.ShloMosaic.Lib.StableHlo.Run

noncomputable section

namespace Cert.Quanv.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-! ## Stretch C1XCol (operations 920 … 922, kind xcol) -/

noncomputable def opsC1XCol : List (HloOp τ sig (Elt F)) :=
  [ unary main_v18 main_v834 ((extractStridedSlice S32x1x125x125x9 ![0, 1, 0, 0, 0] · slices_S32x3x125x125x9_S32x1x125x125x9_0_1_0_0_0) : (⟨S32x3x125x125x9, .f32⟩ : BufTy).Contents (Elt F) → (⟨S32x1x125x125x9, .f32⟩ : BufTy).Contents (Elt F)),
    reshape main_v834 main_v835 rfl shapeCasts_S32x1x125x125x9_S32x125x125x9,
    reshape main_v835 main_v836 rfl shapeCasts_S32x125x125x9_S500000x9 ]

theorem valC1XCol (V : Valuation τ sig (Elt F)) :
    after (opsC1XCol (F := F)) V (no_index (Proc.devRef .tc main_v836)) = xcolFn (((extractStridedSlice S32x1x125x125x9 ![0, 1, 0, 0, 0] · slices_S32x3x125x125x9_S32x1x125x125x9_0_1_0_0_0) : (⟨S32x3x125x125x9, .f32⟩ : BufTy).Contents (Elt F) → (⟨S32x1x125x125x9, .f32⟩ : BufTy).Contents (Elt F)) (V (Proc.devRef .tc main_v18))) := by
  unfold opsC1XCol
  after_results_simp
  rfl

noncomputable def wrC1XCol : List (Ref sig .tc) := [main_v834, main_v835, main_v836]

theorem subC1XCol : (opsC1XCol : List (HloOp τ sig (Elt F))).Forall fun op => op.bufs ⊆ tcRefs τ sig := by
  unfold opsC1XCol
  exact ⟨unary_bufs_sub .., reshape_bufs_sub .., reshape_bufs_sub ..⟩

theorem freshC1XCol : ∀ op ∈ (opsC1XCol : List (HloOp τ sig (Elt F))), op.fresh = ∅ := by
  unfold opsC1XCol
  exact List.forall_iff_forall_mem.mp ⟨rfl, rfl, rfl⟩

theorem keepC1XCol (V : Valuation τ sig (Elt F)) (r : Ref sig .tc) (hr : r ∉ wrC1XCol) :
    after (opsC1XCol (F := F)) V (no_index (Proc.devRef .tc r)) = V (Proc.devRef .tc r) :=
  after_of_writes_sub _ V (W := wrC1XCol) (by
    unfold opsC1XCol wrC1XCol
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _)))))⟩) hr

/-! ## Stretch C1BPsi (operations 923 … 923, kind bpsi) -/

noncomputable def opsC1BPsi : List (HloOp τ sig (Elt F)) :=
  [ unary main_v833 main_v837 (broadcastInDim S500000x8 ![1] bcast_S8_S500000x8_1 : (⟨S8, .f32⟩ : BufTy).Contents (Elt F) → (⟨S500000x8, .f32⟩ : BufTy).Contents (Elt F)) ]

theorem valC1BPsi (V : Valuation τ sig (Elt F)) :
    after (opsC1BPsi (F := F)) V (no_index (Proc.devRef .tc main_v837)) = bpsiFn (V (Proc.devRef .tc main_v833)) := by
  unfold opsC1BPsi
  after_results_simp
  rfl

noncomputable def wrC1BPsi : List (Ref sig .tc) := [main_v837]

theorem subC1BPsi : (opsC1BPsi : List (HloOp τ sig (Elt F))).Forall fun op => op.bufs ⊆ tcRefs τ sig := by
  unfold opsC1BPsi
  exact (unary_bufs_sub ..)

theorem freshC1BPsi : ∀ op ∈ (opsC1BPsi : List (HloOp τ sig (Elt F))), op.fresh = ∅ := by
  unfold opsC1BPsi
  exact List.forall_iff_forall_mem.mp (rfl)

theorem keepC1BPsi (V : Valuation τ sig (Elt F)) (r : Ref sig .tc) (hr : r ∉ wrC1BPsi) :
    after (opsC1BPsi (F := F)) V (no_index (Proc.devRef .tc r)) = V (Proc.devRef .tc r) :=
  after_of_writes_sub _ V (W := wrC1BPsi) (by
    unfold opsC1BPsi wrC1BPsi
    exact (Finset.singleton_subset_iff.mpr (List.mem_toFinset.mpr (List.mem_map_of_mem (.head _))))) hr

/-! ## Stretch C1D0 (operations 924 … 951, kind ryD0) -/

noncomputable def opsC1D0 : List (HloOp τ sig (Elt F)) :=
  [ unary main_v836 main_v838 ((extractStridedSlice S500000x1 ![0, 0] · slices_S500000x9_S500000x1_0_0) : (⟨S500000x9, .f32⟩ : BufTy).Contents (Elt F) → (⟨S500000x1, .f32⟩ : BufTy).Contents (Elt F)),
    reshape main_v838 main_v839 rfl shapeCasts_S500000x1_S500000,
    reshape main_v837 main_v840 rfl shapeCasts_S500000x8_S500000x4x2x1,
    nullary main_cst_59 (constant S_ .f32 0x3F000000#32),
    unary main_cst_59 main_v841 (broadcastInDim S500000 ![] bcast_S_S500000 : (⟨S_, .f32⟩ : BufTy).Contents (Elt F) → (⟨S500000, .f32⟩ : BufTy).Contents (Elt F)),
    binary main_v839 main_v841 main_v842 (mulf : (⟨S500000, .f32⟩ : BufTy).Contents (Elt F) → (⟨S500000, .f32⟩ : BufTy).Contents (Elt F) → (⟨S500000, .f32⟩ : BufTy).Contents (Elt F)),
    unary main_v842 main_v843 (Host.cos : (⟨S500000, .f32⟩ : BufTy).Contents (Elt F) → (⟨S500000, .f32⟩ : BufTy).Contents (Elt F)),
    unary main_v843 main_v844 (broadcastInDim S500000x1x1 ![0] bcast_S500000_S500000x1x1_0 : (⟨S500000, .f32⟩ : BufTy).Contents (Elt F) → (⟨S500000x1x1, .f32⟩ : BufTy).Contents (Elt F)),
    unary main_v842 main_v845 (Host.sin : (⟨S500000, .f32⟩ : BufTy).Contents (Elt F) → (⟨S500000, .f32⟩ : BufTy).Contents (Elt F)),
    unary main_v845 main_v846 (broadcastInDim S500000x1x1 ![0] bcast_S500000_S500000x1x1_0 : (⟨S500000, .f32⟩ : BufTy).Contents (Elt F) → (⟨S500000x1x1, .f32⟩ : BufTy).Contents (Elt F)),
    unary main_v840 main_v847 ((extractStridedSlice S500000x4x1x1 ![0, 0, 0, 0] · slices_S500000x4x2x1_S500000x4x1x1_0_0_0_0) : (⟨S500000x4x2x1, .f32⟩ : BufTy).Contents (Elt F) → (⟨S500000x4x1x1, .f32⟩ : BufTy).Contents (Elt F)),
    reshape main_v847 main_v848 rfl shapeCasts_S500000x4x1x1_S500000x4x1,
    unary main_v840 main_v849 ((extractStridedSlice S500000x4x1x1 ![0, 0, 1, 0] · slices_S500000x4x2x1_S500000x4x1x1_0_0_1_0) : (⟨S500000x4x2x1, .f32⟩ : BufTy).Contents (Elt F) → (⟨S500000x4x1x1, .f32⟩ : BufTy).Contents (Elt F)),
    reshape main_v849 main_v850 rfl shapeCasts_S500000x4x1x1_S500000x4x1,
    unary main_v844 main_v851 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v851 main_v848 main_v852 (mulf : (⟨S500000x4x1, .f32⟩ : BufTy).Contents (Elt F) → (⟨S500000x4x1, .f32⟩ : BufTy).Contents (Elt F) → (⟨S500000x4x1, .f32⟩ : BufTy).Contents (Elt F)),
    unary main_v846 main_v853 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v853 main_v850 main_v854 (mulf : (⟨S500000x4x1, .f32⟩ : BufTy).Contents (Elt F) → (⟨S500000x4x1, .f32⟩ : BufTy).Contents (Elt F) → (⟨S500000x4x1, .f32⟩ : BufTy).Contents (Elt F)),
    binary main_v852 main_v854 main_v855 (subf : (⟨S500000x4x1, .f32⟩ : BufTy).Contents (Elt F) → (⟨S500000x4x1, .f32⟩ : BufTy).Contents (Elt F) → (⟨S500000x4x1, .f32⟩ : BufTy).Contents (Elt F)),
    unary main_v846 main_v856 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v856 main_v848 main_v857 (mulf : (⟨S500000x4x1, .f32⟩ : BufTy).Contents (Elt F) → (⟨S500000x4x1, .f32⟩ : BufTy).Contents (Elt F) → (⟨S500000x4x1, .f32⟩ : BufTy).Contents (Elt F)),
    unary main_v844 main_v858 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v858 main_v850 main_v859 (mulf : (⟨S500000x4x1, .f32⟩ : BufTy).Contents (Elt F) → (⟨S500000x4x1, .f32⟩ : BufTy).Contents (Elt F) → (⟨S500000x4x1, .f32⟩ : BufTy).Contents (Elt F)),
    binary main_v857 main_v859 main_v860 (addf : (⟨S500000x4x1, .f32⟩ : BufTy).Contents (Elt F) → (⟨S500000x4x1, .f32⟩ : BufTy).Contents (Elt F) → (⟨S500000x4x1, .f32⟩ : BufTy).Contents (Elt F)),
    unary main_v855 main_v861 (broadcastInDim S500000x4x1x1 ![0, 1, 3] bcast_S500000x4x1_S500000x4x1x1_0_1_3 : (⟨S500000x4x1, .f32⟩ : BufTy).Contents (Elt F) → (⟨S500000x4x1x1, .f32⟩ : BufTy).Contents (Elt F)),
    unary main_v860 main_v862 (broadcastInDim S500000x4x1x1 ![0, 1, 3] bcast_S500000x4x1_S500000x4x1x1_0_1_3 : (⟨S500000x4x1, .f32⟩ : BufTy).Contents (Elt F) → (⟨S500000x4x1x1, .f32⟩ : BufTy).Contents (Elt F)),
    binary main_v861 main_v862 main_v863 ((fun a b => concatenate S500000x4x2x1 2 [⟨S500000x4x1x1, a⟩, ⟨S500000x4x1x1, b⟩] concatenates_S500000x4x1x1_S500000x4x1x1_S500000x4x2x1_d2) : (⟨S500000x4x1x1, .f32⟩ : BufTy).Contents (Elt F) → (⟨S500000x4x1x1, .f32⟩ : BufTy).Contents (Elt F) → (⟨S500000x4x2x1, .f32⟩ : BufTy).Contents (Elt F)),
    reshape main_v863 main_v864 rfl shapeCasts_S500000x4x2x1_S500000x8 ]

theorem valC1D0 (V : Valuation τ sig (Elt F)) :
    after (opsC1D0 (F := F)) V (no_index (Proc.devRef .tc main_v864)) = ryD0Fn (V (Proc.devRef .tc main_v837)) (((extractStridedSlice S500000x1 ![0, 0] · slices_S500000x9_S500000x1_0_0) : (⟨S500000x9, .f32⟩ : BufTy).Contents (Elt F) → (⟨S500000x1, .f32⟩ : BufTy).Contents (Elt F)) (V (Proc.devRef .tc main_v836))) := by
  unfold opsC1D0
  after_results_simp
  rfl

noncomputable def wrC1D0 : List (Ref sig .tc) := [main_v838, main_v839, main_v840, main_cst_59, main_v841, main_v842, main_v843, main_v844, main_v845, main_v846, main_v847, main_v848, main_v849, main_v850, main_v851, main_v852, main_v853, main_v854, main_v855, main_v856, main_v857, main_v858, main_v859, main_v860, main_v861, main_v862, main_v863, main_v864]

theorem subC1D0 : (opsC1D0 : List (HloOp τ sig (Elt F))).Forall fun op => op.bufs ⊆ tcRefs τ sig := by
  unfold opsC1D0
  exact ⟨unary_bufs_sub .., reshape_bufs_sub .., reshape_bufs_sub .., nullary_bufs_sub .., unary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC1D0 : ∀ op ∈ (opsC1D0 : List (HloOp τ sig (Elt F))), op.fresh = ∅ := by
  unfold opsC1D0
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl⟩

theorem keepC1D0 (V : Valuation τ sig (Elt F)) (r : Ref sig .tc) (hr : r ∉ wrC1D0) :
    after (opsC1D0 (F := F)) V (no_index (Proc.devRef .tc r)) = V (Proc.devRef .tc r) :=
  after_of_writes_sub _ V (W := wrC1D0) (by
    unfold opsC1D0 wrC1D0
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))⟩) hr

/-! ## Stretch C1D1 (operations 952 … 979, kind ryD1) -/

noncomputable def opsC1D1 : List (HloOp τ sig (Elt F)) :=
  [ unary main_v836 main_v865 ((extractStridedSlice S500000x1 ![0, 1] · slices_S500000x9_S500000x1_0_1) : (⟨S500000x9, .f32⟩ : BufTy).Contents (Elt F) → (⟨S500000x1, .f32⟩ : BufTy).Contents (Elt F)),
    reshape main_v865 main_v866 rfl shapeCasts_S500000x1_S500000,
    reshape main_v864 main_v867 rfl shapeCasts_S500000x8_S500000x2x2x2,
    nullary main_cst_60 (constant S_ .f32 0x3F000000#32),
    unary main_cst_60 main_v868 (broadcastInDim S500000 ![] bcast_S_S500000 : (⟨S_, .f32⟩ : BufTy).Contents (Elt F) → (⟨S500000, .f32⟩ : BufTy).Contents (Elt F)),
    binary main_v866 main_v868 main_v869 (mulf : (⟨S500000, .f32⟩ : BufTy).Contents (Elt F) → (⟨S500000, .f32⟩ : BufTy).Contents (Elt F) → (⟨S500000, .f32⟩ : BufTy).Contents (Elt F)),
    unary main_v869 main_v870 (Host.cos : (⟨S500000, .f32⟩ : BufTy).Contents (Elt F) → (⟨S500000, .f32⟩ : BufTy).Contents (Elt F)),
    unary main_v870 main_v871 (broadcastInDim S500000x1x1 ![0] bcast_S500000_S500000x1x1_0 : (⟨S500000, .f32⟩ : BufTy).Contents (Elt F) → (⟨S500000x1x1, .f32⟩ : BufTy).Contents (Elt F)),
    unary main_v869 main_v872 (Host.sin : (⟨S500000, .f32⟩ : BufTy).Contents (Elt F) → (⟨S500000, .f32⟩ : BufTy).Contents (Elt F)),
    unary main_v872 main_v873 (broadcastInDim S500000x1x1 ![0] bcast_S500000_S500000x1x1_0 : (⟨S500000, .f32⟩ : BufTy).Contents (Elt F) → (⟨S500000x1x1, .f32⟩ : BufTy).Contents (Elt F)),
    unary main_v867 main_v874 ((extractStridedSlice S500000x2x1x2 ![0, 0, 0, 0] · slices_S500000x2x2x2_S500000x2x1x2_0_0_0_0) : (⟨S500000x2x2x2, .f32⟩ : BufTy).Contents (Elt F) → (⟨S500000x2x1x2, .f32⟩ : BufTy).Contents (Elt F)),
    reshape main_v874 main_v875 rfl shapeCasts_S500000x2x1x2_S500000x2x2,
    unary main_v867 main_v876 ((extractStridedSlice S500000x2x1x2 ![0, 0, 1, 0] · slices_S500000x2x2x2_S500000x2x1x2_0_0_1_0) : (⟨S500000x2x2x2, .f32⟩ : BufTy).Contents (Elt F) → (⟨S500000x2x1x2, .f32⟩ : BufTy).Contents (Elt F)),
    reshape main_v876 main_v877 rfl shapeCasts_S500000x2x1x2_S500000x2x2,
    unary main_v871 main_v878 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v878 main_v875 main_v879 (mulf : (⟨S500000x2x2, .f32⟩ : BufTy).Contents (Elt F) → (⟨S500000x2x2, .f32⟩ : BufTy).Contents (Elt F) → (⟨S500000x2x2, .f32⟩ : BufTy).Contents (Elt F)),
    unary main_v873 main_v880 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v880 main_v877 main_v881 (mulf : (⟨S500000x2x2, .f32⟩ : BufTy).Contents (Elt F) → (⟨S500000x2x2, .f32⟩ : BufTy).Contents (Elt F) → (⟨S500000x2x2, .f32⟩ : BufTy).Contents (Elt F)),
    binary main_v879 main_v881 main_v882 (subf : (⟨S500000x2x2, .f32⟩ : BufTy).Contents (Elt F) → (⟨S500000x2x2, .f32⟩ : BufTy).Contents (Elt F) → (⟨S500000x2x2, .f32⟩ : BufTy).Contents (Elt F)),
    unary main_v873 main_v883 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v883 main_v875 main_v884 (mulf : (⟨S500000x2x2, .f32⟩ : BufTy).Contents (Elt F) → (⟨S500000x2x2, .f32⟩ : BufTy).Contents (Elt F) → (⟨S500000x2x2, .f32⟩ : BufTy).Contents (Elt F)),
    unary main_v871 main_v885 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v885 main_v877 main_v886 (mulf : (⟨S500000x2x2, .f32⟩ : BufTy).Contents (Elt F) → (⟨S500000x2x2, .f32⟩ : BufTy).Contents (Elt F) → (⟨S500000x2x2, .f32⟩ : BufTy).Contents (Elt F)),
    binary main_v884 main_v886 main_v887 (addf : (⟨S500000x2x2, .f32⟩ : BufTy).Contents (Elt F) → (⟨S500000x2x2, .f32⟩ : BufTy).Contents (Elt F) → (⟨S500000x2x2, .f32⟩ : BufTy).Contents (Elt F)),
    unary main_v882 main_v888 (broadcastInDim S500000x2x1x2 ![0, 1, 3] bcast_S500000x2x2_S500000x2x1x2_0_1_3 : (⟨S500000x2x2, .f32⟩ : BufTy).Contents (Elt F) → (⟨S500000x2x1x2, .f32⟩ : BufTy).Contents (Elt F)),
    unary main_v887 main_v889 (broadcastInDim S500000x2x1x2 ![0, 1, 3] bcast_S500000x2x2_S500000x2x1x2_0_1_3 : (⟨S500000x2x2, .f32⟩ : BufTy).Contents (Elt F) → (⟨S500000x2x1x2, .f32⟩ : BufTy).Contents (Elt F)),
    binary main_v888 main_v889 main_v890 ((fun a b => concatenate S500000x2x2x2 2 [⟨S500000x2x1x2, a⟩, ⟨S500000x2x1x2, b⟩] concatenates_S500000x2x1x2_S500000x2x1x2_S500000x2x2x2_d2) : (⟨S500000x2x1x2, .f32⟩ : BufTy).Contents (Elt F) → (⟨S500000x2x1x2, .f32⟩ : BufTy).Contents (Elt F) → (⟨S500000x2x2x2, .f32⟩ : BufTy).Contents (Elt F)),
    reshape main_v890 main_v891 rfl shapeCasts_S500000x2x2x2_S500000x8 ]

theorem valC1D1 (V : Valuation τ sig (Elt F)) :
    after (opsC1D1 (F := F)) V (no_index (Proc.devRef .tc main_v891)) = ryD1Fn (V (Proc.devRef .tc main_v864)) (((extractStridedSlice S500000x1 ![0, 1] · slices_S500000x9_S500000x1_0_1) : (⟨S500000x9, .f32⟩ : BufTy).Contents (Elt F) → (⟨S500000x1, .f32⟩ : BufTy).Contents (Elt F)) (V (Proc.devRef .tc main_v836))) := by
  unfold opsC1D1
  after_results_simp
  rfl

noncomputable def wrC1D1 : List (Ref sig .tc) := [main_v865, main_v866, main_v867, main_cst_60, main_v868, main_v869, main_v870, main_v871, main_v872, main_v873, main_v874, main_v875, main_v876, main_v877, main_v878, main_v879, main_v880, main_v881, main_v882, main_v883, main_v884, main_v885, main_v886, main_v887, main_v888, main_v889, main_v890, main_v891]

theorem subC1D1 : (opsC1D1 : List (HloOp τ sig (Elt F))).Forall fun op => op.bufs ⊆ tcRefs τ sig := by
  unfold opsC1D1
  exact ⟨unary_bufs_sub .., reshape_bufs_sub .., reshape_bufs_sub .., nullary_bufs_sub .., unary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC1D1 : ∀ op ∈ (opsC1D1 : List (HloOp τ sig (Elt F))), op.fresh = ∅ := by
  unfold opsC1D1
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl⟩

theorem keepC1D1 (V : Valuation τ sig (Elt F)) (r : Ref sig .tc) (hr : r ∉ wrC1D1) :
    after (opsC1D1 (F := F)) V (no_index (Proc.devRef .tc r)) = V (Proc.devRef .tc r) :=
  after_of_writes_sub _ V (W := wrC1D1) (by
    unfold opsC1D1 wrC1D1
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))⟩) hr

/-! ## Stretch C1D2 (operations 980 … 1007, kind ryD2) -/

noncomputable def opsC1D2 : List (HloOp τ sig (Elt F)) :=
  [ unary main_v836 main_v892 ((extractStridedSlice S500000x1 ![0, 2] · slices_S500000x9_S500000x1_0_2) : (⟨S500000x9, .f32⟩ : BufTy).Contents (Elt F) → (⟨S500000x1, .f32⟩ : BufTy).Contents (Elt F)),
    reshape main_v892 main_v893 rfl shapeCasts_S500000x1_S500000,
    reshape main_v891 main_v894 rfl shapeCasts_S500000x8_S500000x1x2x4,
    nullary main_cst_61 (constant S_ .f32 0x3F000000#32),
    unary main_cst_61 main_v895 (broadcastInDim S500000 ![] bcast_S_S500000 : (⟨S_, .f32⟩ : BufTy).Contents (Elt F) → (⟨S500000, .f32⟩ : BufTy).Contents (Elt F)),
    binary main_v893 main_v895 main_v896 (mulf : (⟨S500000, .f32⟩ : BufTy).Contents (Elt F) → (⟨S500000, .f32⟩ : BufTy).Contents (Elt F) → (⟨S500000, .f32⟩ : BufTy).Contents (Elt F)),
    unary main_v896 main_v897 (Host.cos : (⟨S500000, .f32⟩ : BufTy).Contents (Elt F) → (⟨S500000, .f32⟩ : BufTy).Contents (Elt F)),
    unary main_v897 main_v898 (broadcastInDim S500000x1x1 ![0] bcast_S500000_S500000x1x1_0 : (⟨S500000, .f32⟩ : BufTy).Contents (Elt F) → (⟨S500000x1x1, .f32⟩ : BufTy).Contents (Elt F)),
    unary main_v896 main_v899 (Host.sin : (⟨S500000, .f32⟩ : BufTy).Contents (Elt F) → (⟨S500000, .f32⟩ : BufTy).Contents (Elt F)),
    unary main_v899 main_v900 (broadcastInDim S500000x1x1 ![0] bcast_S500000_S500000x1x1_0 : (⟨S500000, .f32⟩ : BufTy).Contents (Elt F) → (⟨S500000x1x1, .f32⟩ : BufTy).Contents (Elt F)),
    unary main_v894 main_v901 ((extractStridedSlice S500000x1x1x4 ![0, 0, 0, 0] · slices_S500000x1x2x4_S500000x1x1x4_0_0_0_0) : (⟨S500000x1x2x4, .f32⟩ : BufTy).Contents (Elt F) → (⟨S500000x1x1x4, .f32⟩ : BufTy).Contents (Elt F)),
    reshape main_v901 main_v902 rfl shapeCasts_S500000x1x1x4_S500000x1x4,
    unary main_v894 main_v903 ((extractStridedSlice S500000x1x1x4 ![0, 0, 1, 0] · slices_S500000x1x2x4_S500000x1x1x4_0_0_1_0) : (⟨S500000x1x2x4, .f32⟩ : BufTy).Contents (Elt F) → (⟨S500000x1x1x4, .f32⟩ : BufTy).Contents (Elt F)),
    reshape main_v903 main_v904 rfl shapeCasts_S500000x1x1x4_S500000x1x4,
    unary main_v898 main_v905 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v905 main_v902 main_v906 (mulf : (⟨S500000x1x4, .f32⟩ : BufTy).Contents (Elt F) → (⟨S500000x1x4, .f32⟩ : BufTy).Contents (Elt F) → (⟨S500000x1x4, .f32⟩ : BufTy).Contents (Elt F)),
    unary main_v900 main_v907 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v907 main_v904 main_v908 (mulf : (⟨S500000x1x4, .f32⟩ : BufTy).Contents (Elt F) → (⟨S500000x1x4, .f32⟩ : BufTy).Contents (Elt F) → (⟨S500000x1x4, .f32⟩ : BufTy).Contents (Elt F)),
    binary main_v906 main_v908 main_v909 (subf : (⟨S500000x1x4, .f32⟩ : BufTy).Contents (Elt F) → (⟨S500000x1x4, .f32⟩ : BufTy).Contents (Elt F) → (⟨S500000x1x4, .f32⟩ : BufTy).Contents (Elt F)),
    unary main_v900 main_v910 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v910 main_v902 main_v911 (mulf : (⟨S500000x1x4, .f32⟩ : BufTy).Contents (Elt F) → (⟨S500000x1x4, .f32⟩ : BufTy).Contents (Elt F) → (⟨S500000x1x4, .f32⟩ : BufTy).Contents (Elt F)),
    unary main_v898 main_v912 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v912 main_v904 main_v913 (mulf : (⟨S500000x1x4, .f32⟩ : BufTy).Contents (Elt F) → (⟨S500000x1x4, .f32⟩ : BufTy).Contents (Elt F) → (⟨S500000x1x4, .f32⟩ : BufTy).Contents (Elt F)),
    binary main_v911 main_v913 main_v914 (addf : (⟨S500000x1x4, .f32⟩ : BufTy).Contents (Elt F) → (⟨S500000x1x4, .f32⟩ : BufTy).Contents (Elt F) → (⟨S500000x1x4, .f32⟩ : BufTy).Contents (Elt F)),
    unary main_v909 main_v915 (broadcastInDim S500000x1x1x4 ![0, 1, 3] bcast_S500000x1x4_S500000x1x1x4_0_1_3 : (⟨S500000x1x4, .f32⟩ : BufTy).Contents (Elt F) → (⟨S500000x1x1x4, .f32⟩ : BufTy).Contents (Elt F)),
    unary main_v914 main_v916 (broadcastInDim S500000x1x1x4 ![0, 1, 3] bcast_S500000x1x4_S500000x1x1x4_0_1_3 : (⟨S500000x1x4, .f32⟩ : BufTy).Contents (Elt F) → (⟨S500000x1x1x4, .f32⟩ : BufTy).Contents (Elt F)),
    binary main_v915 main_v916 main_v917 ((fun a b => concatenate S500000x1x2x4 2 [⟨S500000x1x1x4, a⟩, ⟨S500000x1x1x4, b⟩] concatenates_S500000x1x1x4_S500000x1x1x4_S500000x1x2x4_d2) : (⟨S500000x1x1x4, .f32⟩ : BufTy).Contents (Elt F) → (⟨S500000x1x1x4, .f32⟩ : BufTy).Contents (Elt F) → (⟨S500000x1x2x4, .f32⟩ : BufTy).Contents (Elt F)),
    reshape main_v917 main_v918 rfl shapeCasts_S500000x1x2x4_S500000x8 ]

theorem valC1D2 (V : Valuation τ sig (Elt F)) :
    after (opsC1D2 (F := F)) V (no_index (Proc.devRef .tc main_v918)) = ryD2Fn (V (Proc.devRef .tc main_v891)) (((extractStridedSlice S500000x1 ![0, 2] · slices_S500000x9_S500000x1_0_2) : (⟨S500000x9, .f32⟩ : BufTy).Contents (Elt F) → (⟨S500000x1, .f32⟩ : BufTy).Contents (Elt F)) (V (Proc.devRef .tc main_v836))) := by
  unfold opsC1D2
  after_results_simp
  rfl

noncomputable def wrC1D2 : List (Ref sig .tc) := [main_v892, main_v893, main_v894, main_cst_61, main_v895, main_v896, main_v897, main_v898, main_v899, main_v900, main_v901, main_v902, main_v903, main_v904, main_v905, main_v906, main_v907, main_v908, main_v909, main_v910, main_v911, main_v912, main_v913, main_v914, main_v915, main_v916, main_v917, main_v918]

theorem subC1D2 : (opsC1D2 : List (HloOp τ sig (Elt F))).Forall fun op => op.bufs ⊆ tcRefs τ sig := by
  unfold opsC1D2
  exact ⟨unary_bufs_sub .., reshape_bufs_sub .., reshape_bufs_sub .., nullary_bufs_sub .., unary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC1D2 : ∀ op ∈ (opsC1D2 : List (HloOp τ sig (Elt F))), op.fresh = ∅ := by
  unfold opsC1D2
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl⟩

theorem keepC1D2 (V : Valuation τ sig (Elt F)) (r : Ref sig .tc) (hr : r ∉ wrC1D2) :
    after (opsC1D2 (F := F)) V (no_index (Proc.devRef .tc r)) = V (Proc.devRef .tc r) :=
  after_of_writes_sub _ V (W := wrC1D2) (by
    unfold opsC1D2 wrC1D2
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))⟩) hr

end Cert.Quanv.Ref

end
-- ==== Proof.RefOps.C1D.lean ====
/- TABLE written by: bun scratch/gen_ref.js <unit> ops — stretches C1D3, C1D4, C1D5 of the reference's host program: per stretch the list of its operations, what it leaves
   in its result buffer as the kind's function of what it reads, and that it writes nothing else. -/
import proofs.«180459_j52956946760354_2_alg».proof.Proof.RefFns
import Idealize.ShloMosaic.Lib.StableHlo.Run

noncomputable section

namespace Cert.Quanv.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-! ## Stretch C1D3 (operations 1008 … 1035, kind ryD0) -/

noncomputable def opsC1D3 : List (HloOp τ sig (Elt F)) :=
  [ unary main_v836 main_v919 ((extractStridedSlice S500000x1 ![0, 3] · slices_S500000x9_S500000x1_0_3) : (⟨S500000x9, .f32⟩ : BufTy).Contents (Elt F) → (⟨S500000x1, .f32⟩ : BufTy).Contents (Elt F)),
    reshape main_v919 main_v920 rfl shapeCasts_S500000x1_S500000,
    reshape main_v918 main_v921 rfl shapeCasts_S500000x8_S500000x4x2x1,
    nullary main_cst_62 (constant S_ .f32 0x3F000000#32),
    unary main_cst_62 main_v922 (broadcastInDim S500000 ![] bcast_S_S500000 : (⟨S_, .f32⟩ : BufTy).Contents (Elt F) → (⟨S500000, .f32⟩ : BufTy).Contents (Elt F)),
    binary main_v920 main_v922 main_v923 (mulf : (⟨S500000, .f32⟩ : BufTy).Contents (Elt F) → (⟨S500000, .f32⟩ : BufTy).Contents (Elt F) → (⟨S500000, .f32⟩ : BufTy).Contents (Elt F)),
    unary main_v923 main_v924 (Host.cos : (⟨S500000, .f32⟩ : BufTy).Contents (Elt F) → (⟨S500000, .f32⟩ : BufTy).Contents (Elt F)),
    unary main_v924 main_v925 (broadcastInDim S500000x1x1 ![0] bcast_S500000_S500000x1x1_0 : (⟨S500000, .f32⟩ : BufTy).Contents (Elt F) → (⟨S500000x1x1, .f32⟩ : BufTy).Contents (Elt F)),
    unary main_v923 main_v926 (Host.sin : (⟨S500000, .f32⟩ : BufTy).Contents (Elt F) → (⟨S500000, .f32⟩ : BufTy).Contents (Elt F)),
    unary main_v926 main_v927 (broadcastInDim S500000x1x1 ![0] bcast_S500000_S500000x1x1_0 : (⟨S500000, .f32⟩ : BufTy).Contents (Elt F) → (⟨S500000x1x1, .f32⟩ : BufTy).Contents (Elt F)),
    unary main_v921 main_v928 ((extractStridedSlice S500000x4x1x1 ![0, 0, 0, 0] · slices_S500000x4x2x1_S500000x4x1x1_0_0_0_0) : (⟨S500000x4x2x1, .f32⟩ : BufTy).Contents (Elt F) → (⟨S500000x4x1x1, .f32⟩ : BufTy).Contents (Elt F)),
    reshape main_v928 main_v929 rfl shapeCasts_S500000x4x1x1_S500000x4x1,
    unary main_v921 main_v930 ((extractStridedSlice S500000x4x1x1 ![0, 0, 1, 0] · slices_S500000x4x2x1_S500000x4x1x1_0_0_1_0) : (⟨S500000x4x2x1, .f32⟩ : BufTy).Contents (Elt F) → (⟨S500000x4x1x1, .f32⟩ : BufTy).Contents (Elt F)),
    reshape main_v930 main_v931 rfl shapeCasts_S500000x4x1x1_S500000x4x1,
    unary main_v925 main_v932 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v932 main_v929 main_v933 (mulf : (⟨S500000x4x1, .f32⟩ : BufTy).Contents (Elt F) → (⟨S500000x4x1, .f32⟩ : BufTy).Contents (Elt F) → (⟨S500000x4x1, .f32⟩ : BufTy).Contents (Elt F)),
    unary main_v927 main_v934 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v934 main_v931 main_v935 (mulf : (⟨S500000x4x1, .f32⟩ : BufTy).Contents (Elt F) → (⟨S500000x4x1, .f32⟩ : BufTy).Contents (Elt F) → (⟨S500000x4x1, .f32⟩ : BufTy).Contents (Elt F)),
    binary main_v933 main_v935 main_v936 (subf : (⟨S500000x4x1, .f32⟩ : BufTy).Contents (Elt F) → (⟨S500000x4x1, .f32⟩ : BufTy).Contents (Elt F) → (⟨S500000x4x1, .f32⟩ : BufTy).Contents (Elt F)),
    unary main_v927 main_v937 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v937 main_v929 main_v938 (mulf : (⟨S500000x4x1, .f32⟩ : BufTy).Contents (Elt F) → (⟨S500000x4x1, .f32⟩ : BufTy).Contents (Elt F) → (⟨S500000x4x1, .f32⟩ : BufTy).Contents (Elt F)),
    unary main_v925 main_v939 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v939 main_v931 main_v940 (mulf : (⟨S500000x4x1, .f32⟩ : BufTy).Contents (Elt F) → (⟨S500000x4x1, .f32⟩ : BufTy).Contents (Elt F) → (⟨S500000x4x1, .f32⟩ : BufTy).Contents (Elt F)),
    binary main_v938 main_v940 main_v941 (addf : (⟨S500000x4x1, .f32⟩ : BufTy).Contents (Elt F) → (⟨S500000x4x1, .f32⟩ : BufTy).Contents (Elt F) → (⟨S500000x4x1, .f32⟩ : BufTy).Contents (Elt F)),
    unary main_v936 main_v942 (broadcastInDim S500000x4x1x1 ![0, 1, 3] bcast_S500000x4x1_S500000x4x1x1_0_1_3 : (⟨S500000x4x1, .f32⟩ : BufTy).Contents (Elt F) → (⟨S500000x4x1x1, .f32⟩ : BufTy).Contents (Elt F)),
    unary main_v941 main_v943 (broadcastInDim S500000x4x1x1 ![0, 1, 3] bcast_S500000x4x1_S500000x4x1x1_0_1_3 : (⟨S500000x4x1, .f32⟩ : BufTy).Contents (Elt F) → (⟨S500000x4x1x1, .f32⟩ : BufTy).Contents (Elt F)),
    binary main_v942 main_v943 main_v944 ((fun a b => concatenate S500000x4x2x1 2 [⟨S500000x4x1x1, a⟩, ⟨S500000x4x1x1, b⟩] concatenates_S500000x4x1x1_S500000x4x1x1_S500000x4x2x1_d2) : (⟨S500000x4x1x1, .f32⟩ : BufTy).Contents (Elt F) → (⟨S500000x4x1x1, .f32⟩ : BufTy).Contents (Elt F) → (⟨S500000x4x2x1, .f32⟩ : BufTy).Contents (Elt F)),
    reshape main_v944 main_v945 rfl shapeCasts_S500000x4x2x1_S500000x8 ]

theorem valC1D3 (V : Valuation τ sig (Elt F)) :
    after (opsC1D3 (F := F)) V (no_index (Proc.devRef .tc main_v945)) = ryD0Fn (V (Proc.devRef .tc main_v918)) (((extractStridedSlice S500000x1 ![0, 3] · slices_S500000x9_S500000x1_0_3) : (⟨S500000x9, .f32⟩ : BufTy).Contents (Elt F) → (⟨S500000x1, .f32⟩ : BufTy).Contents (Elt F)) (V (Proc.devRef .tc main_v836))) := by
  unfold opsC1D3
  after_results_simp
  rfl

noncomputable def wrC1D3 : List (Ref sig .tc) := [main_v919, main_v920, main_v921, main_cst_62, main_v922, main_v923, main_v924, main_v925, main_v926, main_v927, main_v928, main_v929, main_v930, main_v931, main_v932, main_v933, main_v934, main_v935, main_v936, main_v937, main_v938, main_v939, main_v940, main_v941, main_v942, main_v943, main_v944, main_v945]

theorem subC1D3 : (opsC1D3 : List (HloOp τ sig (Elt F))).Forall fun op => op.bufs ⊆ tcRefs τ sig := by
  unfold opsC1D3
  exact ⟨unary_bufs_sub .., reshape_bufs_sub .., reshape_bufs_sub .., nullary_bufs_sub .., unary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC1D3 : ∀ op ∈ (opsC1D3 : List (HloOp τ sig (Elt F))), op.fresh = ∅ := by
  unfold opsC1D3
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl⟩

theorem keepC1D3 (V : Valuation τ sig (Elt F)) (r : Ref sig .tc) (hr : r ∉ wrC1D3) :
    after (opsC1D3 (F := F)) V (no_index (Proc.devRef .tc r)) = V (Proc.devRef .tc r) :=
  after_of_writes_sub _ V (W := wrC1D3) (by
    unfold opsC1D3 wrC1D3
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))⟩) hr

/-! ## Stretch C1D4 (operations 1036 … 1063, kind ryD1) -/

noncomputable def opsC1D4 : List (HloOp τ sig (Elt F)) :=
  [ unary main_v836 main_v946 ((extractStridedSlice S500000x1 ![0, 4] · slices_S500000x9_S500000x1_0_4) : (⟨S500000x9, .f32⟩ : BufTy).Contents (Elt F) → (⟨S500000x1, .f32⟩ : BufTy).Contents (Elt F)),
    reshape main_v946 main_v947 rfl shapeCasts_S500000x1_S500000,
    reshape main_v945 main_v948 rfl shapeCasts_S500000x8_S500000x2x2x2,
    nullary main_cst_63 (constant S_ .f32 0x3F000000#32),
    unary main_cst_63 main_v949 (broadcastInDim S500000 ![] bcast_S_S500000 : (⟨S_, .f32⟩ : BufTy).Contents (Elt F) → (⟨S500000, .f32⟩ : BufTy).Contents (Elt F)),
    binary main_v947 main_v949 main_v950 (mulf : (⟨S500000, .f32⟩ : BufTy).Contents (Elt F) → (⟨S500000, .f32⟩ : BufTy).Contents (Elt F) → (⟨S500000, .f32⟩ : BufTy).Contents (Elt F)),
    unary main_v950 main_v951 (Host.cos : (⟨S500000, .f32⟩ : BufTy).Contents (Elt F) → (⟨S500000, .f32⟩ : BufTy).Contents (Elt F)),
    unary main_v951 main_v952 (broadcastInDim S500000x1x1 ![0] bcast_S500000_S500000x1x1_0 : (⟨S500000, .f32⟩ : BufTy).Contents (Elt F) → (⟨S500000x1x1, .f32⟩ : BufTy).Contents (Elt F)),
    unary main_v950 main_v953 (Host.sin : (⟨S500000, .f32⟩ : BufTy).Contents (Elt F) → (⟨S500000, .f32⟩ : BufTy).Contents (Elt F)),
    unary main_v953 main_v954 (broadcastInDim S500000x1x1 ![0] bcast_S500000_S500000x1x1_0 : (⟨S500000, .f32⟩ : BufTy).Contents (Elt F) → (⟨S500000x1x1, .f32⟩ : BufTy).Contents (Elt F)),
    unary main_v948 main_v955 ((extractStridedSlice S500000x2x1x2 ![0, 0, 0, 0] · slices_S500000x2x2x2_S500000x2x1x2_0_0_0_0) : (⟨S500000x2x2x2, .f32⟩ : BufTy).Contents (Elt F) → (⟨S500000x2x1x2, .f32⟩ : BufTy).Contents (Elt F)),
    reshape main_v955 main_v956 rfl shapeCasts_S500000x2x1x2_S500000x2x2,
    unary main_v948 main_v957 ((extractStridedSlice S500000x2x1x2 ![0, 0, 1, 0] · slices_S500000x2x2x2_S500000x2x1x2_0_0_1_0) : (⟨S500000x2x2x2, .f32⟩ : BufTy).Contents (Elt F) → (⟨S500000x2x1x2, .f32⟩ : BufTy).Contents (Elt F)),
    reshape main_v957 main_v958 rfl shapeCasts_S500000x2x1x2_S500000x2x2,
    unary main_v952 main_v959 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v959 main_v956 main_v960 (mulf : (⟨S500000x2x2, .f32⟩ : BufTy).Contents (Elt F) → (⟨S500000x2x2, .f32⟩ : BufTy).Contents (Elt F) → (⟨S500000x2x2, .f32⟩ : BufTy).Contents (Elt F)),
    unary main_v954 main_v961 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v961 main_v958 main_v962 (mulf : (⟨S500000x2x2, .f32⟩ : BufTy).Contents (Elt F) → (⟨S500000x2x2, .f32⟩ : BufTy).Contents (Elt F) → (⟨S500000x2x2, .f32⟩ : BufTy).Contents (Elt F)),
    binary main_v960 main_v962 main_v963 (subf : (⟨S500000x2x2, .f32⟩ : BufTy).Contents (Elt F) → (⟨S500000x2x2, .f32⟩ : BufTy).Contents (Elt F) → (⟨S500000x2x2, .f32⟩ : BufTy).Contents (Elt F)),
    unary main_v954 main_v964 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v964 main_v956 main_v965 (mulf : (⟨S500000x2x2, .f32⟩ : BufTy).Contents (Elt F) → (⟨S500000x2x2, .f32⟩ : BufTy).Contents (Elt F) → (⟨S500000x2x2, .f32⟩ : BufTy).Contents (Elt F)),
    unary main_v952 main_v966 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v966 main_v958 main_v967 (mulf : (⟨S500000x2x2, .f32⟩ : BufTy).Contents (Elt F) → (⟨S500000x2x2, .f32⟩ : BufTy).Contents (Elt F) → (⟨S500000x2x2, .f32⟩ : BufTy).Contents (Elt F)),
    binary main_v965 main_v967 main_v968 (addf : (⟨S500000x2x2, .f32⟩ : BufTy).Contents (Elt F) → (⟨S500000x2x2, .f32⟩ : BufTy).Contents (Elt F) → (⟨S500000x2x2, .f32⟩ : BufTy).Contents (Elt F)),
    unary main_v963 main_v969 (broadcastInDim S500000x2x1x2 ![0, 1, 3] bcast_S500000x2x2_S500000x2x1x2_0_1_3 : (⟨S500000x2x2, .f32⟩ : BufTy).Contents (Elt F) → (⟨S500000x2x1x2, .f32⟩ : BufTy).Contents (Elt F)),
    unary main_v968 main_v970 (broadcastInDim S500000x2x1x2 ![0, 1, 3] bcast_S500000x2x2_S500000x2x1x2_0_1_3 : (⟨S500000x2x2, .f32⟩ : BufTy).Contents (Elt F) → (⟨S500000x2x1x2, .f32⟩ : BufTy).Contents (Elt F)),
    binary main_v969 main_v970 main_v971 ((fun a b => concatenate S500000x2x2x2 2 [⟨S500000x2x1x2, a⟩, ⟨S500000x2x1x2, b⟩] concatenates_S500000x2x1x2_S500000x2x1x2_S500000x2x2x2_d2) : (⟨S500000x2x1x2, .f32⟩ : BufTy).Contents (Elt F) → (⟨S500000x2x1x2, .f32⟩ : BufTy).Contents (Elt F) → (⟨S500000x2x2x2, .f32⟩ : BufTy).Contents (Elt F)),
    reshape main_v971 main_v972 rfl shapeCasts_S500000x2x2x2_S500000x8 ]

theorem valC1D4 (V : Valuation τ sig (Elt F)) :
    after (opsC1D4 (F := F)) V (no_index (Proc.devRef .tc main_v972)) = ryD1Fn (V (Proc.devRef .tc main_v945)) (((extractStridedSlice S500000x1 ![0, 4] · slices_S500000x9_S500000x1_0_4) : (⟨S500000x9, .f32⟩ : BufTy).Contents (Elt F) → (⟨S500000x1, .f32⟩ : BufTy).Contents (Elt F)) (V (Proc.devRef .tc main_v836))) := by
  unfold opsC1D4
  after_results_simp
  rfl

noncomputable def wrC1D4 : List (Ref sig .tc) := [main_v946, main_v947, main_v948, main_cst_63, main_v949, main_v950, main_v951, main_v952, main_v953, main_v954, main_v955, main_v956, main_v957, main_v958, main_v959, main_v960, main_v961, main_v962, main_v963, main_v964, main_v965, main_v966, main_v967, main_v968, main_v969, main_v970, main_v971, main_v972]

theorem subC1D4 : (opsC1D4 : List (HloOp τ sig (Elt F))).Forall fun op => op.bufs ⊆ tcRefs τ sig := by
  unfold opsC1D4
  exact ⟨unary_bufs_sub .., reshape_bufs_sub .., reshape_bufs_sub .., nullary_bufs_sub .., unary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC1D4 : ∀ op ∈ (opsC1D4 : List (HloOp τ sig (Elt F))), op.fresh = ∅ := by
  unfold opsC1D4
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl⟩

theorem keepC1D4 (V : Valuation τ sig (Elt F)) (r : Ref sig .tc) (hr : r ∉ wrC1D4) :
    after (opsC1D4 (F := F)) V (no_index (Proc.devRef .tc r)) = V (Proc.devRef .tc r) :=
  after_of_writes_sub _ V (W := wrC1D4) (by
    unfold opsC1D4 wrC1D4
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))⟩) hr

/-! ## Stretch C1D5 (operations 1064 … 1091, kind ryD2) -/

noncomputable def opsC1D5 : List (HloOp τ sig (Elt F)) :=
  [ unary main_v836 main_v973 ((extractStridedSlice S500000x1 ![0, 5] · slices_S500000x9_S500000x1_0_5) : (⟨S500000x9, .f32⟩ : BufTy).Contents (Elt F) → (⟨S500000x1, .f32⟩ : BufTy).Contents (Elt F)),
    reshape main_v973 main_v974 rfl shapeCasts_S500000x1_S500000,
    reshape main_v972 main_v975 rfl shapeCasts_S500000x8_S500000x1x2x4,
    nullary main_cst_64 (constant S_ .f32 0x3F000000#32),
    unary main_cst_64 main_v976 (broadcastInDim S500000 ![] bcast_S_S500000 : (⟨S_, .f32⟩ : BufTy).Contents (Elt F) → (⟨S500000, .f32⟩ : BufTy).Contents (Elt F)),
    binary main_v974 main_v976 main_v977 (mulf : (⟨S500000, .f32⟩ : BufTy).Contents (Elt F) → (⟨S500000, .f32⟩ : BufTy).Contents (Elt F) → (⟨S500000, .f32⟩ : BufTy).Contents (Elt F)),
    unary main_v977 main_v978 (Host.cos : (⟨S500000, .f32⟩ : BufTy).Contents (Elt F) → (⟨S500000, .f32⟩ : BufTy).Contents (Elt F)),
    unary main_v978 main_v979 (broadcastInDim S500000x1x1 ![0] bcast_S500000_S500000x1x1_0 : (⟨S500000, .f32⟩ : BufTy).Contents (Elt F) → (⟨S500000x1x1, .f32⟩ : BufTy).Contents (Elt F)),
    unary main_v977 main_v980 (Host.sin : (⟨S500000, .f32⟩ : BufTy).Contents (Elt F) → (⟨S500000, .f32⟩ : BufTy).Contents (Elt F)),
    unary main_v980 main_v981 (broadcastInDim S500000x1x1 ![0] bcast_S500000_S500000x1x1_0 : (⟨S500000, .f32⟩ : BufTy).Contents (Elt F) → (⟨S500000x1x1, .f32⟩ : BufTy).Contents (Elt F)),
    unary main_v975 main_v982 ((extractStridedSlice S500000x1x1x4 ![0, 0, 0, 0] · slices_S500000x1x2x4_S500000x1x1x4_0_0_0_0) : (⟨S500000x1x2x4, .f32⟩ : BufTy).Contents (Elt F) → (⟨S500000x1x1x4, .f32⟩ : BufTy).Contents (Elt F)),
    reshape main_v982 main_v983 rfl shapeCasts_S500000x1x1x4_S500000x1x4,
    unary main_v975 main_v984 ((extractStridedSlice S500000x1x1x4 ![0, 0, 1, 0] · slices_S500000x1x2x4_S500000x1x1x4_0_0_1_0) : (⟨S500000x1x2x4, .f32⟩ : BufTy).Contents (Elt F) → (⟨S500000x1x1x4, .f32⟩ : BufTy).Contents (Elt F)),
    reshape main_v984 main_v985 rfl shapeCasts_S500000x1x1x4_S500000x1x4,
    unary main_v979 main_v986 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v986 main_v983 main_v987 (mulf : (⟨S500000x1x4, .f32⟩ : BufTy).Contents (Elt F) → (⟨S500000x1x4, .f32⟩ : BufTy).Contents (Elt F) → (⟨S500000x1x4, .f32⟩ : BufTy).Contents (Elt F)),
    unary main_v981 main_v988 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v988 main_v985 main_v989 (mulf : (⟨S500000x1x4, .f32⟩ : BufTy).Contents (Elt F) → (⟨S500000x1x4, .f32⟩ : BufTy).Contents (Elt F) → (⟨S500000x1x4, .f32⟩ : BufTy).Contents (Elt F)),
    binary main_v987 main_v989 main_v990 (subf : (⟨S500000x1x4, .f32⟩ : BufTy).Contents (Elt F) → (⟨S500000x1x4, .f32⟩ : BufTy).Contents (Elt F) → (⟨S500000x1x4, .f32⟩ : BufTy).Contents (Elt F)),
    unary main_v981 main_v991 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v991 main_v983 main_v992 (mulf : (⟨S500000x1x4, .f32⟩ : BufTy).Contents (Elt F) → (⟨S500000x1x4, .f32⟩ : BufTy).Contents (Elt F) → (⟨S500000x1x4, .f32⟩ : BufTy).Contents (Elt F)),
    unary main_v979 main_v993 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v993 main_v985 main_v994 (mulf : (⟨S500000x1x4, .f32⟩ : BufTy).Contents (Elt F) → (⟨S500000x1x4, .f32⟩ : BufTy).Contents (Elt F) → (⟨S500000x1x4, .f32⟩ : BufTy).Contents (Elt F)),
    binary main_v992 main_v994 main_v995 (addf : (⟨S500000x1x4, .f32⟩ : BufTy).Contents (Elt F) → (⟨S500000x1x4, .f32⟩ : BufTy).Contents (Elt F) → (⟨S500000x1x4, .f32⟩ : BufTy).Contents (Elt F)),
    unary main_v990 main_v996 (broadcastInDim S500000x1x1x4 ![0, 1, 3] bcast_S500000x1x4_S500000x1x1x4_0_1_3 : (⟨S500000x1x4, .f32⟩ : BufTy).Contents (Elt F) → (⟨S500000x1x1x4, .f32⟩ : BufTy).Contents (Elt F)),
    unary main_v995 main_v997 (broadcastInDim S500000x1x1x4 ![0, 1, 3] bcast_S500000x1x4_S500000x1x1x4_0_1_3 : (⟨S500000x1x4, .f32⟩ : BufTy).Contents (Elt F) → (⟨S500000x1x1x4, .f32⟩ : BufTy).Contents (Elt F)),
    binary main_v996 main_v997 main_v998 ((fun a b => concatenate S500000x1x2x4 2 [⟨S500000x1x1x4, a⟩, ⟨S500000x1x1x4, b⟩] concatenates_S500000x1x1x4_S500000x1x1x4_S500000x1x2x4_d2) : (⟨S500000x1x1x4, .f32⟩ : BufTy).Contents (Elt F) → (⟨S500000x1x1x4, .f32⟩ : BufTy).Contents (Elt F) → (⟨S500000x1x2x4, .f32⟩ : BufTy).Contents (Elt F)),
    reshape main_v998 main_v999 rfl shapeCasts_S500000x1x2x4_S500000x8 ]

theorem valC1D5 (V : Valuation τ sig (Elt F)) :
    after (opsC1D5 (F := F)) V (no_index (Proc.devRef .tc main_v999)) = ryD2Fn (V (Proc.devRef .tc main_v972)) (((extractStridedSlice S500000x1 ![0, 5] · slices_S500000x9_S500000x1_0_5) : (⟨S500000x9, .f32⟩ : BufTy).Contents (Elt F) → (⟨S500000x1, .f32⟩ : BufTy).Contents (Elt F)) (V (Proc.devRef .tc main_v836))) := by
  unfold opsC1D5
  after_results_simp
  rfl

noncomputable def wrC1D5 : List (Ref sig .tc) := [main_v973, main_v974, main_v975, main_cst_64, main_v976, main_v977, main_v978, main_v979, main_v980, main_v981, main_v982, main_v983, main_v984, main_v985, main_v986, main_v987, main_v988, main_v989, main_v990, main_v991, main_v992, main_v993, main_v994, main_v995, main_v996, main_v997, main_v998, main_v999]

theorem subC1D5 : (opsC1D5 : List (HloOp τ sig (Elt F))).Forall fun op => op.bufs ⊆ tcRefs τ sig := by
  unfold opsC1D5
  exact ⟨unary_bufs_sub .., reshape_bufs_sub .., reshape_bufs_sub .., nullary_bufs_sub .., unary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC1D5 : ∀ op ∈ (opsC1D5 : List (HloOp τ sig (Elt F))), op.fresh = ∅ := by
  unfold opsC1D5
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl⟩

theorem keepC1D5 (V : Valuation τ sig (Elt F)) (r : Ref sig .tc) (hr : r ∉ wrC1D5) :
    after (opsC1D5 (F := F)) V (no_index (Proc.devRef .tc r)) = V (Proc.devRef .tc r) :=
  after_of_writes_sub _ V (W := wrC1D5) (by
    unfold opsC1D5 wrC1D5
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))⟩) hr

end Cert.Quanv.Ref

end
-- ==== Proof.RefOps.C1E.lean ====
/- TABLE written by: bun scratch/gen_ref.js <unit> ops — stretches C1D6, C1D7, C1D8 of the reference's host program: per stretch the list of its operations, what it leaves
   in its result buffer as the kind's function of what it reads, and that it writes nothing else. -/
import proofs.«180459_j52956946760354_2_alg».proof.Proof.RefFns
import Idealize.ShloMosaic.Lib.StableHlo.Run

noncomputable section

namespace Cert.Quanv.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-! ## Stretch C1D6 (operations 1092 … 1119, kind ryD0) -/

noncomputable def opsC1D6 : List (HloOp τ sig (Elt F)) :=
  [ unary main_v836 main_v1000 ((extractStridedSlice S500000x1 ![0, 6] · slices_S500000x9_S500000x1_0_6) : (⟨S500000x9, .f32⟩ : BufTy).Contents (Elt F) → (⟨S500000x1, .f32⟩ : BufTy).Contents (Elt F)),
    reshape main_v1000 main_v1001 rfl shapeCasts_S500000x1_S500000,
    reshape main_v999 main_v1002 rfl shapeCasts_S500000x8_S500000x4x2x1,
    nullary main_cst_65 (constant S_ .f32 0x3F000000#32),
    unary main_cst_65 main_v1003 (broadcastInDim S500000 ![] bcast_S_S500000 : (⟨S_, .f32⟩ : BufTy).Contents (Elt F) → (⟨S500000, .f32⟩ : BufTy).Contents (Elt F)),
    binary main_v1001 main_v1003 main_v1004 (mulf : (⟨S500000, .f32⟩ : BufTy).Contents (Elt F) → (⟨S500000, .f32⟩ : BufTy).Contents (Elt F) → (⟨S500000, .f32⟩ : BufTy).Contents (Elt F)),
    unary main_v1004 main_v1005 (Host.cos : (⟨S500000, .f32⟩ : BufTy).Contents (Elt F) → (⟨S500000, .f32⟩ : BufTy).Contents (Elt F)),
    unary main_v1005 main_v1006 (broadcastInDim S500000x1x1 ![0] bcast_S500000_S500000x1x1_0 : (⟨S500000, .f32⟩ : BufTy).Contents (Elt F) → (⟨S500000x1x1, .f32⟩ : BufTy).Contents (Elt F)),
    unary main_v1004 main_v1007 (Host.sin : (⟨S500000, .f32⟩ : BufTy).Contents (Elt F) → (⟨S500000, .f32⟩ : BufTy).Contents (Elt F)),
    unary main_v1007 main_v1008 (broadcastInDim S500000x1x1 ![0] bcast_S500000_S500000x1x1_0 : (⟨S500000, .f32⟩ : BufTy).Contents (Elt F) → (⟨S500000x1x1, .f32⟩ : BufTy).Contents (Elt F)),
    unary main_v1002 main_v1009 ((extractStridedSlice S500000x4x1x1 ![0, 0, 0, 0] · slices_S500000x4x2x1_S500000x4x1x1_0_0_0_0) : (⟨S500000x4x2x1, .f32⟩ : BufTy).Contents (Elt F) → (⟨S500000x4x1x1, .f32⟩ : BufTy).Contents (Elt F)),
    reshape main_v1009 main_v1010 rfl shapeCasts_S500000x4x1x1_S500000x4x1,
    unary main_v1002 main_v1011 ((extractStridedSlice S500000x4x1x1 ![0, 0, 1, 0] · slices_S500000x4x2x1_S500000x4x1x1_0_0_1_0) : (⟨S500000x4x2x1, .f32⟩ : BufTy).Contents (Elt F) → (⟨S500000x4x1x1, .f32⟩ : BufTy).Contents (Elt F)),
    reshape main_v1011 main_v1012 rfl shapeCasts_S500000x4x1x1_S500000x4x1,
    unary main_v1006 main_v1013 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v1013 main_v1010 main_v1014 (mulf : (⟨S500000x4x1, .f32⟩ : BufTy).Contents (Elt F) → (⟨S500000x4x1, .f32⟩ : BufTy).Contents (Elt F) → (⟨S500000x4x1, .f32⟩ : BufTy).Contents (Elt F)),
    unary main_v1008 main_v1015 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v1015 main_v1012 main_v1016 (mulf : (⟨S500000x4x1, .f32⟩ : BufTy).Contents (Elt F) → (⟨S500000x4x1, .f32⟩ : BufTy).Contents (Elt F) → (⟨S500000x4x1, .f32⟩ : BufTy).Contents (Elt F)),
    binary main_v1014 main_v1016 main_v1017 (subf : (⟨S500000x4x1, .f32⟩ : BufTy).Contents (Elt F) → (⟨S500000x4x1, .f32⟩ : BufTy).Contents (Elt F) → (⟨S500000x4x1, .f32⟩ : BufTy).Contents (Elt F)),
    unary main_v1008 main_v1018 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v1018 main_v1010 main_v1019 (mulf : (⟨S500000x4x1, .f32⟩ : BufTy).Contents (Elt F) → (⟨S500000x4x1, .f32⟩ : BufTy).Contents (Elt F) → (⟨S500000x4x1, .f32⟩ : BufTy).Contents (Elt F)),
    unary main_v1006 main_v1020 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v1020 main_v1012 main_v1021 (mulf : (⟨S500000x4x1, .f32⟩ : BufTy).Contents (Elt F) → (⟨S500000x4x1, .f32⟩ : BufTy).Contents (Elt F) → (⟨S500000x4x1, .f32⟩ : BufTy).Contents (Elt F)),
    binary main_v1019 main_v1021 main_v1022 (addf : (⟨S500000x4x1, .f32⟩ : BufTy).Contents (Elt F) → (⟨S500000x4x1, .f32⟩ : BufTy).Contents (Elt F) → (⟨S500000x4x1, .f32⟩ : BufTy).Contents (Elt F)),
    unary main_v1017 main_v1023 (broadcastInDim S500000x4x1x1 ![0, 1, 3] bcast_S500000x4x1_S500000x4x1x1_0_1_3 : (⟨S500000x4x1, .f32⟩ : BufTy).Contents (Elt F) → (⟨S500000x4x1x1, .f32⟩ : BufTy).Contents (Elt F)),
    unary main_v1022 main_v1024 (broadcastInDim S500000x4x1x1 ![0, 1, 3] bcast_S500000x4x1_S500000x4x1x1_0_1_3 : (⟨S500000x4x1, .f32⟩ : BufTy).Contents (Elt F) → (⟨S500000x4x1x1, .f32⟩ : BufTy).Contents (Elt F)),
    binary main_v1023 main_v1024 main_v1025 ((fun a b => concatenate S500000x4x2x1 2 [⟨S500000x4x1x1, a⟩, ⟨S500000x4x1x1, b⟩] concatenates_S500000x4x1x1_S500000x4x1x1_S500000x4x2x1_d2) : (⟨S500000x4x1x1, .f32⟩ : BufTy).Contents (Elt F) → (⟨S500000x4x1x1, .f32⟩ : BufTy).Contents (Elt F) → (⟨S500000x4x2x1, .f32⟩ : BufTy).Contents (Elt F)),
    reshape main_v1025 main_v1026 rfl shapeCasts_S500000x4x2x1_S500000x8 ]

theorem valC1D6 (V : Valuation τ sig (Elt F)) :
    after (opsC1D6 (F := F)) V (no_index (Proc.devRef .tc main_v1026)) = ryD0Fn (V (Proc.devRef .tc main_v999)) (((extractStridedSlice S500000x1 ![0, 6] · slices_S500000x9_S500000x1_0_6) : (⟨S500000x9, .f32⟩ : BufTy).Contents (Elt F) → (⟨S500000x1, .f32⟩ : BufTy).Contents (Elt F)) (V (Proc.devRef .tc main_v836))) := by
  unfold opsC1D6
  after_results_simp
  rfl

noncomputable def wrC1D6 : List (Ref sig .tc) := [main_v1000, main_v1001, main_v1002, main_cst_65, main_v1003, main_v1004, main_v1005, main_v1006, main_v1007, main_v1008, main_v1009, main_v1010, main_v1011, main_v1012, main_v1013, main_v1014, main_v1015, main_v1016, main_v1017, main_v1018, main_v1019, main_v1020, main_v1021, main_v1022, main_v1023, main_v1024, main_v1025, main_v1026]

theorem subC1D6 : (opsC1D6 : List (HloOp τ sig (Elt F))).Forall fun op => op.bufs ⊆ tcRefs τ sig := by
  unfold opsC1D6
  exact ⟨unary_bufs_sub .., reshape_bufs_sub .., reshape_bufs_sub .., nullary_bufs_sub .., unary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC1D6 : ∀ op ∈ (opsC1D6 : List (HloOp τ sig (Elt F))), op.fresh = ∅ := by
  unfold opsC1D6
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl⟩

theorem keepC1D6 (V : Valuation τ sig (Elt F)) (r : Ref sig .tc) (hr : r ∉ wrC1D6) :
    after (opsC1D6 (F := F)) V (no_index (Proc.devRef .tc r)) = V (Proc.devRef .tc r) :=
  after_of_writes_sub _ V (W := wrC1D6) (by
    unfold opsC1D6 wrC1D6
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))⟩) hr

/-! ## Stretch C1D7 (operations 1120 … 1147, kind ryD1) -/

noncomputable def opsC1D7 : List (HloOp τ sig (Elt F)) :=
  [ unary main_v836 main_v1027 ((extractStridedSlice S500000x1 ![0, 7] · slices_S500000x9_S500000x1_0_7) : (⟨S500000x9, .f32⟩ : BufTy).Contents (Elt F) → (⟨S500000x1, .f32⟩ : BufTy).Contents (Elt F)),
    reshape main_v1027 main_v1028 rfl shapeCasts_S500000x1_S500000,
    reshape main_v1026 main_v1029 rfl shapeCasts_S500000x8_S500000x2x2x2,
    nullary main_cst_66 (constant S_ .f32 0x3F000000#32),
    unary main_cst_66 main_v1030 (broadcastInDim S500000 ![] bcast_S_S500000 : (⟨S_, .f32⟩ : BufTy).Contents (Elt F) → (⟨S500000, .f32⟩ : BufTy).Contents (Elt F)),
    binary main_v1028 main_v1030 main_v1031 (mulf : (⟨S500000, .f32⟩ : BufTy).Contents (Elt F) → (⟨S500000, .f32⟩ : BufTy).Contents (Elt F) → (⟨S500000, .f32⟩ : BufTy).Contents (Elt F)),
    unary main_v1031 main_v1032 (Host.cos : (⟨S500000, .f32⟩ : BufTy).Contents (Elt F) → (⟨S500000, .f32⟩ : BufTy).Contents (Elt F)),
    unary main_v1032 main_v1033 (broadcastInDim S500000x1x1 ![0] bcast_S500000_S500000x1x1_0 : (⟨S500000, .f32⟩ : BufTy).Contents (Elt F) → (⟨S500000x1x1, .f32⟩ : BufTy).Contents (Elt F)),
    unary main_v1031 main_v1034 (Host.sin : (⟨S500000, .f32⟩ : BufTy).Contents (Elt F) → (⟨S500000, .f32⟩ : BufTy).Contents (Elt F)),
    unary main_v1034 main_v1035 (broadcastInDim S500000x1x1 ![0] bcast_S500000_S500000x1x1_0 : (⟨S500000, .f32⟩ : BufTy).Contents (Elt F) → (⟨S500000x1x1, .f32⟩ : BufTy).Contents (Elt F)),
    unary main_v1029 main_v1036 ((extractStridedSlice S500000x2x1x2 ![0, 0, 0, 0] · slices_S500000x2x2x2_S500000x2x1x2_0_0_0_0) : (⟨S500000x2x2x2, .f32⟩ : BufTy).Contents (Elt F) → (⟨S500000x2x1x2, .f32⟩ : BufTy).Contents (Elt F)),
    reshape main_v1036 main_v1037 rfl shapeCasts_S500000x2x1x2_S500000x2x2,
    unary main_v1029 main_v1038 ((extractStridedSlice S500000x2x1x2 ![0, 0, 1, 0] · slices_S500000x2x2x2_S500000x2x1x2_0_0_1_0) : (⟨S500000x2x2x2, .f32⟩ : BufTy).Contents (Elt F) → (⟨S500000x2x1x2, .f32⟩ : BufTy).Contents (Elt F)),
    reshape main_v1038 main_v1039 rfl shapeCasts_S500000x2x1x2_S500000x2x2,
    unary main_v1033 main_v1040 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v1040 main_v1037 main_v1041 (mulf : (⟨S500000x2x2, .f32⟩ : BufTy).Contents (Elt F) → (⟨S500000x2x2, .f32⟩ : BufTy).Contents (Elt F) → (⟨S500000x2x2, .f32⟩ : BufTy).Contents (Elt F)),
    unary main_v1035 main_v1042 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v1042 main_v1039 main_v1043 (mulf : (⟨S500000x2x2, .f32⟩ : BufTy).Contents (Elt F) → (⟨S500000x2x2, .f32⟩ : BufTy).Contents (Elt F) → (⟨S500000x2x2, .f32⟩ : BufTy).Contents (Elt F)),
    binary main_v1041 main_v1043 main_v1044 (subf : (⟨S500000x2x2, .f32⟩ : BufTy).Contents (Elt F) → (⟨S500000x2x2, .f32⟩ : BufTy).Contents (Elt F) → (⟨S500000x2x2, .f32⟩ : BufTy).Contents (Elt F)),
    unary main_v1035 main_v1045 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v1045 main_v1037 main_v1046 (mulf : (⟨S500000x2x2, .f32⟩ : BufTy).Contents (Elt F) → (⟨S500000x2x2, .f32⟩ : BufTy).Contents (Elt F) → (⟨S500000x2x2, .f32⟩ : BufTy).Contents (Elt F)),
    unary main_v1033 main_v1047 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v1047 main_v1039 main_v1048 (mulf : (⟨S500000x2x2, .f32⟩ : BufTy).Contents (Elt F) → (⟨S500000x2x2, .f32⟩ : BufTy).Contents (Elt F) → (⟨S500000x2x2, .f32⟩ : BufTy).Contents (Elt F)),
    binary main_v1046 main_v1048 main_v1049 (addf : (⟨S500000x2x2, .f32⟩ : BufTy).Contents (Elt F) → (⟨S500000x2x2, .f32⟩ : BufTy).Contents (Elt F) → (⟨S500000x2x2, .f32⟩ : BufTy).Contents (Elt F)),
    unary main_v1044 main_v1050 (broadcastInDim S500000x2x1x2 ![0, 1, 3] bcast_S500000x2x2_S500000x2x1x2_0_1_3 : (⟨S500000x2x2, .f32⟩ : BufTy).Contents (Elt F) → (⟨S500000x2x1x2, .f32⟩ : BufTy).Contents (Elt F)),
    unary main_v1049 main_v1051 (broadcastInDim S500000x2x1x2 ![0, 1, 3] bcast_S500000x2x2_S500000x2x1x2_0_1_3 : (⟨S500000x2x2, .f32⟩ : BufTy).Contents (Elt F) → (⟨S500000x2x1x2, .f32⟩ : BufTy).Contents (Elt F)),
    binary main_v1050 main_v1051 main_v1052 ((fun a b => concatenate S500000x2x2x2 2 [⟨S500000x2x1x2, a⟩, ⟨S500000x2x1x2, b⟩] concatenates_S500000x2x1x2_S500000x2x1x2_S500000x2x2x2_d2) : (⟨S500000x2x1x2, .f32⟩ : BufTy).Contents (Elt F) → (⟨S500000x2x1x2, .f32⟩ : BufTy).Contents (Elt F) → (⟨S500000x2x2x2, .f32⟩ : BufTy).Contents (Elt F)),
    reshape main_v1052 main_v1053 rfl shapeCasts_S500000x2x2x2_S500000x8 ]

theorem valC1D7 (V : Valuation τ sig (Elt F)) :
    after (opsC1D7 (F := F)) V (no_index (Proc.devRef .tc main_v1053)) = ryD1Fn (V (Proc.devRef .tc main_v1026)) (((extractStridedSlice S500000x1 ![0, 7] · slices_S500000x9_S500000x1_0_7) : (⟨S500000x9, .f32⟩ : BufTy).Contents (Elt F) → (⟨S500000x1, .f32⟩ : BufTy).Contents (Elt F)) (V (Proc.devRef .tc main_v836))) := by
  unfold opsC1D7
  after_results_simp
  rfl

noncomputable def wrC1D7 : List (Ref sig .tc) := [main_v1027, main_v1028, main_v1029, main_cst_66, main_v1030, main_v1031, main_v1032, main_v1033, main_v1034, main_v1035, main_v1036, main_v1037, main_v1038, main_v1039, main_v1040, main_v1041, main_v1042, main_v1043, main_v1044, main_v1045, main_v1046, main_v1047, main_v1048, main_v1049, main_v1050, main_v1051, main_v1052, main_v1053]

theorem subC1D7 : (opsC1D7 : List (HloOp τ sig (Elt F))).Forall fun op => op.bufs ⊆ tcRefs τ sig := by
  unfold opsC1D7
  exact ⟨unary_bufs_sub .., reshape_bufs_sub .., reshape_bufs_sub .., nullary_bufs_sub .., unary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC1D7 : ∀ op ∈ (opsC1D7 : List (HloOp τ sig (Elt F))), op.fresh = ∅ := by
  unfold opsC1D7
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl⟩

theorem keepC1D7 (V : Valuation τ sig (Elt F)) (r : Ref sig .tc) (hr : r ∉ wrC1D7) :
    after (opsC1D7 (F := F)) V (no_index (Proc.devRef .tc r)) = V (Proc.devRef .tc r) :=
  after_of_writes_sub _ V (W := wrC1D7) (by
    unfold opsC1D7 wrC1D7
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))⟩) hr

/-! ## Stretch C1D8 (operations 1148 … 1175, kind ryD2) -/

noncomputable def opsC1D8 : List (HloOp τ sig (Elt F)) :=
  [ unary main_v836 main_v1054 ((extractStridedSlice S500000x1 ![0, 8] · slices_S500000x9_S500000x1_0_8) : (⟨S500000x9, .f32⟩ : BufTy).Contents (Elt F) → (⟨S500000x1, .f32⟩ : BufTy).Contents (Elt F)),
    reshape main_v1054 main_v1055 rfl shapeCasts_S500000x1_S500000,
    reshape main_v1053 main_v1056 rfl shapeCasts_S500000x8_S500000x1x2x4,
    nullary main_cst_67 (constant S_ .f32 0x3F000000#32),
    unary main_cst_67 main_v1057 (broadcastInDim S500000 ![] bcast_S_S500000 : (⟨S_, .f32⟩ : BufTy).Contents (Elt F) → (⟨S500000, .f32⟩ : BufTy).Contents (Elt F)),
    binary main_v1055 main_v1057 main_v1058 (mulf : (⟨S500000, .f32⟩ : BufTy).Contents (Elt F) → (⟨S500000, .f32⟩ : BufTy).Contents (Elt F) → (⟨S500000, .f32⟩ : BufTy).Contents (Elt F)),
    unary main_v1058 main_v1059 (Host.cos : (⟨S500000, .f32⟩ : BufTy).Contents (Elt F) → (⟨S500000, .f32⟩ : BufTy).Contents (Elt F)),
    unary main_v1059 main_v1060 (broadcastInDim S500000x1x1 ![0] bcast_S500000_S500000x1x1_0 : (⟨S500000, .f32⟩ : BufTy).Contents (Elt F) → (⟨S500000x1x1, .f32⟩ : BufTy).Contents (Elt F)),
    unary main_v1058 main_v1061 (Host.sin : (⟨S500000, .f32⟩ : BufTy).Contents (Elt F) → (⟨S500000, .f32⟩ : BufTy).Contents (Elt F)),
    unary main_v1061 main_v1062 (broadcastInDim S500000x1x1 ![0] bcast_S500000_S500000x1x1_0 : (⟨S500000, .f32⟩ : BufTy).Contents (Elt F) → (⟨S500000x1x1, .f32⟩ : BufTy).Contents (Elt F)),
    unary main_v1056 main_v1063 ((extractStridedSlice S500000x1x1x4 ![0, 0, 0, 0] · slices_S500000x1x2x4_S500000x1x1x4_0_0_0_0) : (⟨S500000x1x2x4, .f32⟩ : BufTy).Contents (Elt F) → (⟨S500000x1x1x4, .f32⟩ : BufTy).Contents (Elt F)),
    reshape main_v1063 main_v1064 rfl shapeCasts_S500000x1x1x4_S500000x1x4,
    unary main_v1056 main_v1065 ((extractStridedSlice S500000x1x1x4 ![0, 0, 1, 0] · slices_S500000x1x2x4_S500000x1x1x4_0_0_1_0) : (⟨S500000x1x2x4, .f32⟩ : BufTy).Contents (Elt F) → (⟨S500000x1x1x4, .f32⟩ : BufTy).Contents (Elt F)),
    reshape main_v1065 main_v1066 rfl shapeCasts_S500000x1x1x4_S500000x1x4,
    unary main_v1060 main_v1067 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v1067 main_v1064 main_v1068 (mulf : (⟨S500000x1x4, .f32⟩ : BufTy).Contents (Elt F) → (⟨S500000x1x4, .f32⟩ : BufTy).Contents (Elt F) → (⟨S500000x1x4, .f32⟩ : BufTy).Contents (Elt F)),
    unary main_v1062 main_v1069 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v1069 main_v1066 main_v1070 (mulf : (⟨S500000x1x4, .f32⟩ : BufTy).Contents (Elt F) → (⟨S500000x1x4, .f32⟩ : BufTy).Contents (Elt F) → (⟨S500000x1x4, .f32⟩ : BufTy).Contents (Elt F)),
    binary main_v1068 main_v1070 main_v1071 (subf : (⟨S500000x1x4, .f32⟩ : BufTy).Contents (Elt F) → (⟨S500000x1x4, .f32⟩ : BufTy).Contents (Elt F) → (⟨S500000x1x4, .f32⟩ : BufTy).Contents (Elt F)),
    unary main_v1062 main_v1072 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v1072 main_v1064 main_v1073 (mulf : (⟨S500000x1x4, .f32⟩ : BufTy).Contents (Elt F) → (⟨S500000x1x4, .f32⟩ : BufTy).Contents (Elt F) → (⟨S500000x1x4, .f32⟩ : BufTy).Contents (Elt F)),
    unary main_v1060 main_v1074 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v1074 main_v1066 main_v1075 (mulf : (⟨S500000x1x4, .f32⟩ : BufTy).Contents (Elt F) → (⟨S500000x1x4, .f32⟩ : BufTy).Contents (Elt F) → (⟨S500000x1x4, .f32⟩ : BufTy).Contents (Elt F)),
    binary main_v1073 main_v1075 main_v1076 (addf : (⟨S500000x1x4, .f32⟩ : BufTy).Contents (Elt F) → (⟨S500000x1x4, .f32⟩ : BufTy).Contents (Elt F) → (⟨S500000x1x4, .f32⟩ : BufTy).Contents (Elt F)),
    unary main_v1071 main_v1077 (broadcastInDim S500000x1x1x4 ![0, 1, 3] bcast_S500000x1x4_S500000x1x1x4_0_1_3 : (⟨S500000x1x4, .f32⟩ : BufTy).Contents (Elt F) → (⟨S500000x1x1x4, .f32⟩ : BufTy).Contents (Elt F)),
    unary main_v1076 main_v1078 (broadcastInDim S500000x1x1x4 ![0, 1, 3] bcast_S500000x1x4_S500000x1x1x4_0_1_3 : (⟨S500000x1x4, .f32⟩ : BufTy).Contents (Elt F) → (⟨S500000x1x1x4, .f32⟩ : BufTy).Contents (Elt F)),
    binary main_v1077 main_v1078 main_v1079 ((fun a b => concatenate S500000x1x2x4 2 [⟨S500000x1x1x4, a⟩, ⟨S500000x1x1x4, b⟩] concatenates_S500000x1x1x4_S500000x1x1x4_S500000x1x2x4_d2) : (⟨S500000x1x1x4, .f32⟩ : BufTy).Contents (Elt F) → (⟨S500000x1x1x4, .f32⟩ : BufTy).Contents (Elt F) → (⟨S500000x1x2x4, .f32⟩ : BufTy).Contents (Elt F)),
    reshape main_v1079 main_v1080 rfl shapeCasts_S500000x1x2x4_S500000x8 ]

theorem valC1D8 (V : Valuation τ sig (Elt F)) :
    after (opsC1D8 (F := F)) V (no_index (Proc.devRef .tc main_v1080)) = ryD2Fn (V (Proc.devRef .tc main_v1053)) (((extractStridedSlice S500000x1 ![0, 8] · slices_S500000x9_S500000x1_0_8) : (⟨S500000x9, .f32⟩ : BufTy).Contents (Elt F) → (⟨S500000x1, .f32⟩ : BufTy).Contents (Elt F)) (V (Proc.devRef .tc main_v836))) := by
  unfold opsC1D8
  after_results_simp
  rfl

noncomputable def wrC1D8 : List (Ref sig .tc) := [main_v1054, main_v1055, main_v1056, main_cst_67, main_v1057, main_v1058, main_v1059, main_v1060, main_v1061, main_v1062, main_v1063, main_v1064, main_v1065, main_v1066, main_v1067, main_v1068, main_v1069, main_v1070, main_v1071, main_v1072, main_v1073, main_v1074, main_v1075, main_v1076, main_v1077, main_v1078, main_v1079, main_v1080]

theorem subC1D8 : (opsC1D8 : List (HloOp τ sig (Elt F))).Forall fun op => op.bufs ⊆ tcRefs τ sig := by
  unfold opsC1D8
  exact ⟨unary_bufs_sub .., reshape_bufs_sub .., reshape_bufs_sub .., nullary_bufs_sub .., unary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC1D8 : ∀ op ∈ (opsC1D8 : List (HloOp τ sig (Elt F))), op.fresh = ∅ := by
  unfold opsC1D8
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl⟩

theorem keepC1D8 (V : Valuation τ sig (Elt F)) (r : Ref sig .tc) (hr : r ∉ wrC1D8) :
    after (opsC1D8 (F := F)) V (no_index (Proc.devRef .tc r)) = V (Proc.devRef .tc r) :=
  after_of_writes_sub _ V (W := wrC1D8) (by
    unfold opsC1D8 wrC1D8
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))⟩) hr

end Cert.Quanv.Ref

end
-- ==== Proof.RefOps.C1F.lean ====
/- TABLE written by: bun scratch/gen_ref.js <unit> ops — stretches C1DX01, C1DX12, C1Tail of the reference's host program: per stretch the list of its operations, what it leaves
   in its result buffer as the kind's function of what it reads, and that it writes nothing else. -/
import proofs.«180459_j52956946760354_2_alg».proof.Proof.RefFns
import Idealize.ShloMosaic.Lib.StableHlo.Run

noncomputable section

namespace Cert.Quanv.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-! ## Stretch C1DX01 (operations 1176 … 1195, kind cxDa) -/

noncomputable def opsC1DX01 : List (HloOp τ sig (Elt F)) :=
  [ nullary main_v1081 (iotaInDim S8 32 0),
    nullary main_c_68 (constantI S_ 32 0#32),
    unary main_c_68 main_v1082 (broadcastInDim S8 ![] bcast_S_S8 : (⟨S_, .i32⟩ : BufTy).Contents (Elt F) → (⟨S8, .i32⟩ : BufTy).Contents (Elt F)),
    binary main_v1081 main_v1082 main_v1083 (Host.shrsi : (⟨S8, .i32⟩ : BufTy).Contents (Elt F) → (⟨S8, .i32⟩ : BufTy).Contents (Elt F) → (⟨S8, .i32⟩ : BufTy).Contents (Elt F)),
    nullary main_c_69 (constantI S_ 32 1#32),
    unary main_c_69 main_v1084 (broadcastInDim S8 ![] bcast_S_S8 : (⟨S_, .i32⟩ : BufTy).Contents (Elt F) → (⟨S8, .i32⟩ : BufTy).Contents (Elt F)),
    binary main_v1083 main_v1084 main_v1085 (andi : (⟨S8, .i32⟩ : BufTy).Contents (Elt F) → (⟨S8, .i32⟩ : BufTy).Contents (Elt F) → (⟨S8, .i32⟩ : BufTy).Contents (Elt F)),
    nullary main_c_70 (constantI S_ 32 1#32),
    unary main_c_70 main_v1086 (broadcastInDim S8 ![] bcast_S_S8 : (⟨S_, .i32⟩ : BufTy).Contents (Elt F) → (⟨S8, .i32⟩ : BufTy).Contents (Elt F)),
    binary main_v1085 main_v1086 main_v1087 (Host.shli : (⟨S8, .i32⟩ : BufTy).Contents (Elt F) → (⟨S8, .i32⟩ : BufTy).Contents (Elt F) → (⟨S8, .i32⟩ : BufTy).Contents (Elt F)),
    binary main_v1081 main_v1087 main_v1088 (xori : (⟨S8, .i32⟩ : BufTy).Contents (Elt F) → (⟨S8, .i32⟩ : BufTy).Contents (Elt F) → (⟨S8, .i32⟩ : BufTy).Contents (Elt F)),
    nullary main_c_71 (constantI S_ 32 0#32),
    unary main_c_71 main_v1089 (broadcastInDim S8 ![] bcast_S_S8 : (⟨S_, .i32⟩ : BufTy).Contents (Elt F) → (⟨S8, .i32⟩ : BufTy).Contents (Elt F)),
    binary main_v1088 main_v1089 main_v1090 (cmpi .slt : (⟨S8, .i32⟩ : BufTy).Contents (Elt F) → (⟨S8, .i32⟩ : BufTy).Contents (Elt F) → (⟨S8, .i1⟩ : BufTy).Contents (Elt F)),
    nullary main_c_72 (constantI S_ 32 8#32),
    unary main_c_72 main_v1091 (broadcastInDim S8 ![] bcast_S_S8 : (⟨S_, .i32⟩ : BufTy).Contents (Elt F) → (⟨S8, .i32⟩ : BufTy).Contents (Elt F)),
    binary main_v1088 main_v1091 main_v1092 (addi : (⟨S8, .i32⟩ : BufTy).Contents (Elt F) → (⟨S8, .i32⟩ : BufTy).Contents (Elt F) → (⟨S8, .i32⟩ : BufTy).Contents (Elt F)),
    ternary main_v1090 main_v1092 main_v1088 main_v1093 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_v1093 main_v1094 (broadcastInDim S8x1 ![0] bcast_S8_S8x1_0 : (⟨S8, .i32⟩ : BufTy).Contents (Elt F) → (⟨S8x1, .i32⟩ : BufTy).Contents (Elt F)),
    binary main_v1080 main_v1094 main_v1095 ((fun x i => Host.gather gather_S500000x8_S8x1_S500000x8_0_1_n_n_1_1_5000001 x i) : (⟨S500000x8, .f32⟩ : BufTy).Contents (Elt F) → (⟨S8x1, .i32⟩ : BufTy).Contents (Elt F) → (⟨S500000x8, .f32⟩ : BufTy).Contents (Elt F)) ]

theorem valC1DX01 (V : Valuation τ sig (Elt F)) :
    after (opsC1DX01 (F := F)) V (no_index (Proc.devRef .tc main_v1095)) = cxDaFn (V (Proc.devRef .tc main_v1080)) := by
  unfold opsC1DX01
  after_results_simp
  rfl

noncomputable def wrC1DX01 : List (Ref sig .tc) := [main_v1081, main_c_68, main_v1082, main_v1083, main_c_69, main_v1084, main_v1085, main_c_70, main_v1086, main_v1087, main_v1088, main_c_71, main_v1089, main_v1090, main_c_72, main_v1091, main_v1092, main_v1093, main_v1094, main_v1095]

theorem subC1DX01 : (opsC1DX01 : List (HloOp τ sig (Elt F))).Forall fun op => op.bufs ⊆ tcRefs τ sig := by
  unfold opsC1DX01
  exact ⟨nullary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem freshC1DX01 : ∀ op ∈ (opsC1DX01 : List (HloOp τ sig (Elt F))), op.fresh = ∅ := by
  unfold opsC1DX01
  exact List.forall_iff_forall_mem.mp ⟨rfl, rfl, rfl, rfl, rfl, rfl, rfl, rfl, rfl, rfl, rfl, rfl, rfl, rfl, rfl, rfl, rfl, rfl, rfl, rfl⟩

theorem keepC1DX01 (V : Valuation τ sig (Elt F)) (r : Ref sig .tc) (hr : r ∉ wrC1DX01) :
    after (opsC1DX01 (F := F)) V (no_index (Proc.devRef .tc r)) = V (Proc.devRef .tc r) :=
  after_of_writes_sub _ V (W := wrC1DX01) (by
    unfold opsC1DX01 wrC1DX01
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))⟩) hr

/-! ## Stretch C1DX12 (operations 1196 … 1215, kind cxDb) -/

noncomputable def opsC1DX12 : List (HloOp τ sig (Elt F)) :=
  [ nullary main_v1096 (iotaInDim S8 32 0),
    nullary main_c_73 (constantI S_ 32 1#32),
    unary main_c_73 main_v1097 (broadcastInDim S8 ![] bcast_S_S8 : (⟨S_, .i32⟩ : BufTy).Contents (Elt F) → (⟨S8, .i32⟩ : BufTy).Contents (Elt F)),
    binary main_v1096 main_v1097 main_v1098 (Host.shrsi : (⟨S8, .i32⟩ : BufTy).Contents (Elt F) → (⟨S8, .i32⟩ : BufTy).Contents (Elt F) → (⟨S8, .i32⟩ : BufTy).Contents (Elt F)),
    nullary main_c_74 (constantI S_ 32 1#32),
    unary main_c_74 main_v1099 (broadcastInDim S8 ![] bcast_S_S8 : (⟨S_, .i32⟩ : BufTy).Contents (Elt F) → (⟨S8, .i32⟩ : BufTy).Contents (Elt F)),
    binary main_v1098 main_v1099 main_v1100 (andi : (⟨S8, .i32⟩ : BufTy).Contents (Elt F) → (⟨S8, .i32⟩ : BufTy).Contents (Elt F) → (⟨S8, .i32⟩ : BufTy).Contents (Elt F)),
    nullary main_c_75 (constantI S_ 32 2#32),
    unary main_c_75 main_v1101 (broadcastInDim S8 ![] bcast_S_S8 : (⟨S_, .i32⟩ : BufTy).Contents (Elt F) → (⟨S8, .i32⟩ : BufTy).Contents (Elt F)),
    binary main_v1100 main_v1101 main_v1102 (Host.shli : (⟨S8, .i32⟩ : BufTy).Contents (Elt F) → (⟨S8, .i32⟩ : BufTy).Contents (Elt F) → (⟨S8, .i32⟩ : BufTy).Contents (Elt F)),
    binary main_v1096 main_v1102 main_v1103 (xori : (⟨S8, .i32⟩ : BufTy).Contents (Elt F) → (⟨S8, .i32⟩ : BufTy).Contents (Elt F) → (⟨S8, .i32⟩ : BufTy).Contents (Elt F)),
    nullary main_c_76 (constantI S_ 32 0#32),
    unary main_c_76 main_v1104 (broadcastInDim S8 ![] bcast_S_S8 : (⟨S_, .i32⟩ : BufTy).Contents (Elt F) → (⟨S8, .i32⟩ : BufTy).Contents (Elt F)),
    binary main_v1103 main_v1104 main_v1105 (cmpi .slt : (⟨S8, .i32⟩ : BufTy).Contents (Elt F) → (⟨S8, .i32⟩ : BufTy).Contents (Elt F) → (⟨S8, .i1⟩ : BufTy).Contents (Elt F)),
    nullary main_c_77 (constantI S_ 32 8#32),
    unary main_c_77 main_v1106 (broadcastInDim S8 ![] bcast_S_S8 : (⟨S_, .i32⟩ : BufTy).Contents (Elt F) → (⟨S8, .i32⟩ : BufTy).Contents (Elt F)),
    binary main_v1103 main_v1106 main_v1107 (addi : (⟨S8, .i32⟩ : BufTy).Contents (Elt F) → (⟨S8, .i32⟩ : BufTy).Contents (Elt F) → (⟨S8, .i32⟩ : BufTy).Contents (Elt F)),
    ternary main_v1105 main_v1107 main_v1103 main_v1108 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_v1108 main_v1109 (broadcastInDim S8x1 ![0] bcast_S8_S8x1_0 : (⟨S8, .i32⟩ : BufTy).Contents (Elt F) → (⟨S8x1, .i32⟩ : BufTy).Contents (Elt F)),
    binary main_v1095 main_v1109 main_v1110 ((fun x i => Host.gather gather_S500000x8_S8x1_S500000x8_0_1_n_n_1_1_5000001 x i) : (⟨S500000x8, .f32⟩ : BufTy).Contents (Elt F) → (⟨S8x1, .i32⟩ : BufTy).Contents (Elt F) → (⟨S500000x8, .f32⟩ : BufTy).Contents (Elt F)) ]

theorem valC1DX12 (V : Valuation τ sig (Elt F)) :
    after (opsC1DX12 (F := F)) V (no_index (Proc.devRef .tc main_v1110)) = cxDbFn (V (Proc.devRef .tc main_v1095)) := by
  unfold opsC1DX12
  after_results_simp
  rfl

noncomputable def wrC1DX12 : List (Ref sig .tc) := [main_v1096, main_c_73, main_v1097, main_v1098, main_c_74, main_v1099, main_v1100, main_c_75, main_v1101, main_v1102, main_v1103, main_c_76, main_v1104, main_v1105, main_c_77, main_v1106, main_v1107, main_v1108, main_v1109, main_v1110]

theorem subC1DX12 : (opsC1DX12 : List (HloOp τ sig (Elt F))).Forall fun op => op.bufs ⊆ tcRefs τ sig := by
  unfold opsC1DX12
  exact ⟨nullary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem freshC1DX12 : ∀ op ∈ (opsC1DX12 : List (HloOp τ sig (Elt F))), op.fresh = ∅ := by
  unfold opsC1DX12
  exact List.forall_iff_forall_mem.mp ⟨rfl, rfl, rfl, rfl, rfl, rfl, rfl, rfl, rfl, rfl, rfl, rfl, rfl, rfl, rfl, rfl, rfl, rfl, rfl, rfl⟩

theorem keepC1DX12 (V : Valuation τ sig (Elt F)) (r : Ref sig .tc) (hr : r ∉ wrC1DX12) :
    after (opsC1DX12 (F := F)) V (no_index (Proc.devRef .tc r)) = V (Proc.devRef .tc r) :=
  after_of_writes_sub _ V (W := wrC1DX12) (by
    unfold opsC1DX12 wrC1DX12
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))⟩) hr

/-! ## Stretch C1Tail (operations 1216 … 1219, kind tail) -/

noncomputable def opsC1Tail : List (HloOp τ sig (Elt F)) :=
  [ binary main_v1110 main_v1110 main_v1111 (mulf : (⟨S500000x8, .f32⟩ : BufTy).Contents (Elt F) → (⟨S500000x8, .f32⟩ : BufTy).Contents (Elt F) → (⟨S500000x8, .f32⟩ : BufTy).Contents (Elt F)),
    binary main_v1111 main_v21 main_v1112 ((fun l r => Host.dotGeneral dot_S500000x8_S8x4_S500000x4_1_0_0_1_n_n none l r) : (⟨S500000x8, .f32⟩ : BufTy).Contents (Elt F) → (⟨S8x4, .f32⟩ : BufTy).Contents (Elt F) → (⟨S500000x4, .f32⟩ : BufTy).Contents (Elt F)),
    reshape main_v1112 main_v1113 rfl shapeCasts_S500000x4_S32x125x125x4,
    binary main_v568 main_v1113 main_v1114 (addf : (⟨S32x125x125x4, .f32⟩ : BufTy).Contents (Elt F) → (⟨S32x125x125x4, .f32⟩ : BufTy).Contents (Elt F) → (⟨S32x125x125x4, .f32⟩ : BufTy).Contents (Elt F)) ]

theorem valC1Tail (V : Valuation τ sig (Elt F)) :
    after (opsC1Tail (F := F)) V (no_index (Proc.devRef .tc main_v1114)) = tailFn (V (Proc.devRef .tc main_v1110)) (V (Proc.devRef .tc main_v21)) (V (Proc.devRef .tc main_v568)) := by
  unfold opsC1Tail
  after_results_simp
  rfl

noncomputable def wrC1Tail : List (Ref sig .tc) := [main_v1111, main_v1112, main_v1113, main_v1114]

theorem subC1Tail : (opsC1Tail : List (HloOp τ sig (Elt F))).Forall fun op => op.bufs ⊆ tcRefs τ sig := by
  unfold opsC1Tail
  exact ⟨binary_bufs_sub .., binary_bufs_sub .., reshape_bufs_sub .., binary_bufs_sub ..⟩

theorem freshC1Tail : ∀ op ∈ (opsC1Tail : List (HloOp τ sig (Elt F))), op.fresh = ∅ := by
  unfold opsC1Tail
  exact List.forall_iff_forall_mem.mp ⟨rfl, rfl, rfl, rfl⟩

theorem keepC1Tail (V : Valuation τ sig (Elt F)) (r : Ref sig .tc) (hr : r ∉ wrC1Tail) :
    after (opsC1Tail (F := F)) V (no_index (Proc.devRef .tc r)) = V (Proc.devRef .tc r) :=
  after_of_writes_sub _ V (W := wrC1Tail) (by
    unfold opsC1Tail wrC1Tail
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _))))))⟩) hr

end Cert.Quanv.Ref

end
-- ==== Proof.RefOps.C2A.lean ====
/- TABLE written by: bun scratch/gen_ref.js <unit> ops — stretches C2Psi0, C2W0, C2W1, C2W2, C2W3, C2W4 of the reference's host program: per stretch the list of its operations, what it leaves
   in its result buffer as the kind's function of what it reads, and that it writes nothing else. -/
import proofs.«180459_j52956946760354_2_alg».proof.Proof.RefFns
import Idealize.ShloMosaic.Lib.StableHlo.Run

noncomputable section

namespace Cert.Quanv.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-! ## Stretch C2Psi0 (operations 1220 … 1221, kind psi0) -/

noncomputable def opsC2Psi0 : List (HloOp τ sig (Elt F)) :=
  [ nullary main_cst_78 (constant S_ .f32 0x3EB504F3#32),
    unary main_cst_78 main_v1115 (broadcastInDim S8 ![] bcast_S_S8 : (⟨S_, .f32⟩ : BufTy).Contents (Elt F) → (⟨S8, .f32⟩ : BufTy).Contents (Elt F)) ]

theorem valC2Psi0 (V : Valuation τ sig (Elt F)) :
    after (opsC2Psi0 (F := F)) V (no_index (Proc.devRef .tc main_v1115)) = psi0Fn := by
  unfold opsC2Psi0
  after_results_simp
  rfl

noncomputable def wrC2Psi0 : List (Ref sig .tc) := [main_cst_78, main_v1115]

theorem subC2Psi0 : (opsC2Psi0 : List (HloOp τ sig (Elt F))).Forall fun op => op.bufs ⊆ tcRefs τ sig := by
  unfold opsC2Psi0
  exact ⟨nullary_bufs_sub .., unary_bufs_sub ..⟩

theorem freshC2Psi0 : ∀ op ∈ (opsC2Psi0 : List (HloOp τ sig (Elt F))), op.fresh = ∅ := by
  unfold opsC2Psi0
  exact List.forall_iff_forall_mem.mp ⟨rfl, rfl⟩

theorem keepC2Psi0 (V : Valuation τ sig (Elt F)) (r : Ref sig .tc) (hr : r ∉ wrC2Psi0) :
    after (opsC2Psi0 (F := F)) V (no_index (Proc.devRef .tc r)) = V (Proc.devRef .tc r) :=
  after_of_writes_sub _ V (W := wrC2Psi0) (by
    unfold opsC2Psi0 wrC2Psi0
    exact ⟨Finset.singleton_subset_iff.mpr (List.mem_toFinset.mpr (List.mem_map_of_mem (.head _))),
     Finset.singleton_subset_iff.mpr (List.mem_toFinset.mpr (List.mem_map_of_mem (.tail _ (.head _))))⟩) hr

/-! ## Stretch C2W0 (operations 1222 … 1248, kind ryW0) -/

noncomputable def opsC2W0 : List (HloOp τ sig (Elt F)) :=
  [ unary main_arg1 main_v1116 ((extractStridedSlice S1x1 ![2, 0] · slices_S3x9_S1x1_2_0) : (⟨S3x9, .f32⟩ : BufTy).Contents (Elt F) → (⟨S1x1, .f32⟩ : BufTy).Contents (Elt F)),
    reshape main_v1116 main_v1117 rfl shapeCasts_S1x1_S_,
    reshape main_v1115 main_v1118 rfl shapeCasts_S8_S4x2x1,
    nullary main_cst_79 (constant S_ .f32 0x3F000000#32),
    binary main_v1117 main_cst_79 main_v1119 (mulf : (⟨S_, .f32⟩ : BufTy).Contents (Elt F) → (⟨S_, .f32⟩ : BufTy).Contents (Elt F) → (⟨S_, .f32⟩ : BufTy).Contents (Elt F)),
    unary main_v1119 main_v1120 (Host.cos : (⟨S_, .f32⟩ : BufTy).Contents (Elt F) → (⟨S_, .f32⟩ : BufTy).Contents (Elt F)),
    unary main_v1120 main_v1121 (broadcastInDim S1x1 ![] bcast_S_S1x1 : (⟨S_, .f32⟩ : BufTy).Contents (Elt F) → (⟨S1x1, .f32⟩ : BufTy).Contents (Elt F)),
    unary main_v1119 main_v1122 (Host.sin : (⟨S_, .f32⟩ : BufTy).Contents (Elt F) → (⟨S_, .f32⟩ : BufTy).Contents (Elt F)),
    unary main_v1122 main_v1123 (broadcastInDim S1x1 ![] bcast_S_S1x1 : (⟨S_, .f32⟩ : BufTy).Contents (Elt F) → (⟨S1x1, .f32⟩ : BufTy).Contents (Elt F)),
    unary main_v1118 main_v1124 ((extractStridedSlice S4x1x1 ![0, 0, 0] · slices_S4x2x1_S4x1x1_0_0_0) : (⟨S4x2x1, .f32⟩ : BufTy).Contents (Elt F) → (⟨S4x1x1, .f32⟩ : BufTy).Contents (Elt F)),
    reshape main_v1124 main_v1125 rfl shapeCasts_S4x1x1_S4x1,
    unary main_v1118 main_v1126 ((extractStridedSlice S4x1x1 ![0, 1, 0] · slices_S4x2x1_S4x1x1_0_1_0) : (⟨S4x2x1, .f32⟩ : BufTy).Contents (Elt F) → (⟨S4x1x1, .f32⟩ : BufTy).Contents (Elt F)),
    reshape main_v1126 main_v1127 rfl shapeCasts_S4x1x1_S4x1,
    unary main_v1121 main_v1128 (broadcastInDim S4x1 ![0, 1] bcast_S1x1_S4x1_0_1 : (⟨S1x1, .f32⟩ : BufTy).Contents (Elt F) → (⟨S4x1, .f32⟩ : BufTy).Contents (Elt F)),
    binary main_v1128 main_v1125 main_v1129 (mulf : (⟨S4x1, .f32⟩ : BufTy).Contents (Elt F) → (⟨S4x1, .f32⟩ : BufTy).Contents (Elt F) → (⟨S4x1, .f32⟩ : BufTy).Contents (Elt F)),
    unary main_v1123 main_v1130 (broadcastInDim S4x1 ![0, 1] bcast_S1x1_S4x1_0_1 : (⟨S1x1, .f32⟩ : BufTy).Contents (Elt F) → (⟨S4x1, .f32⟩ : BufTy).Contents (Elt F)),
    binary main_v1130 main_v1127 main_v1131 (mulf : (⟨S4x1, .f32⟩ : BufTy).Contents (Elt F) → (⟨S4x1, .f32⟩ : BufTy).Contents (Elt F) → (⟨S4x1, .f32⟩ : BufTy).Contents (Elt F)),
    binary main_v1129 main_v1131 main_v1132 (subf : (⟨S4x1, .f32⟩ : BufTy).Contents (Elt F) → (⟨S4x1, .f32⟩ : BufTy).Contents (Elt F) → (⟨S4x1, .f32⟩ : BufTy).Contents (Elt F)),
    unary main_v1123 main_v1133 (broadcastInDim S4x1 ![0, 1] bcast_S1x1_S4x1_0_1 : (⟨S1x1, .f32⟩ : BufTy).Contents (Elt F) → (⟨S4x1, .f32⟩ : BufTy).Contents (Elt F)),
    binary main_v1133 main_v1125 main_v1134 (mulf : (⟨S4x1, .f32⟩ : BufTy).Contents (Elt F) → (⟨S4x1, .f32⟩ : BufTy).Contents (Elt F) → (⟨S4x1, .f32⟩ : BufTy).Contents (Elt F)),
    unary main_v1121 main_v1135 (broadcastInDim S4x1 ![0, 1] bcast_S1x1_S4x1_0_1 : (⟨S1x1, .f32⟩ : BufTy).Contents (Elt F) → (⟨S4x1, .f32⟩ : BufTy).Contents (Elt F)),
    binary main_v1135 main_v1127 main_v1136 (mulf : (⟨S4x1, .f32⟩ : BufTy).Contents (Elt F) → (⟨S4x1, .f32⟩ : BufTy).Contents (Elt F) → (⟨S4x1, .f32⟩ : BufTy).Contents (Elt F)),
    binary main_v1134 main_v1136 main_v1137 (addf : (⟨S4x1, .f32⟩ : BufTy).Contents (Elt F) → (⟨S4x1, .f32⟩ : BufTy).Contents (Elt F) → (⟨S4x1, .f32⟩ : BufTy).Contents (Elt F)),
    unary main_v1132 main_v1138 (broadcastInDim S4x1x1 ![0, 2] bcast_S4x1_S4x1x1_0_2 : (⟨S4x1, .f32⟩ : BufTy).Contents (Elt F) → (⟨S4x1x1, .f32⟩ : BufTy).Contents (Elt F)),
    unary main_v1137 main_v1139 (broadcastInDim S4x1x1 ![0, 2] bcast_S4x1_S4x1x1_0_2 : (⟨S4x1, .f32⟩ : BufTy).Contents (Elt F) → (⟨S4x1x1, .f32⟩ : BufTy).Contents (Elt F)),
    binary main_v1138 main_v1139 main_v1140 ((fun a b => concatenate S4x2x1 1 [⟨S4x1x1, a⟩, ⟨S4x1x1, b⟩] concatenates_S4x1x1_S4x1x1_S4x2x1_d1) : (⟨S4x1x1, .f32⟩ : BufTy).Contents (Elt F) → (⟨S4x1x1, .f32⟩ : BufTy).Contents (Elt F) → (⟨S4x2x1, .f32⟩ : BufTy).Contents (Elt F)),
    reshape main_v1140 main_v1141 rfl shapeCasts_S4x2x1_S8 ]

theorem valC2W0 (V : Valuation τ sig (Elt F)) :
    after (opsC2W0 (F := F)) V (no_index (Proc.devRef .tc main_v1141)) = ryW0Fn (V (Proc.devRef .tc main_v1115)) (((extractStridedSlice S1x1 ![2, 0] · slices_S3x9_S1x1_2_0) : (⟨S3x9, .f32⟩ : BufTy).Contents (Elt F) → (⟨S1x1, .f32⟩ : BufTy).Contents (Elt F)) (V (Proc.devRef .tc main_arg1))) := by
  unfold opsC2W0
  after_results_simp
  rfl

noncomputable def wrC2W0 : List (Ref sig .tc) := [main_v1116, main_v1117, main_v1118, main_cst_79, main_v1119, main_v1120, main_v1121, main_v1122, main_v1123, main_v1124, main_v1125, main_v1126, main_v1127, main_v1128, main_v1129, main_v1130, main_v1131, main_v1132, main_v1133, main_v1134, main_v1135, main_v1136, main_v1137, main_v1138, main_v1139, main_v1140, main_v1141]

theorem subC2W0 : (opsC2W0 : List (HloOp τ sig (Elt F))).Forall fun op => op.bufs ⊆ tcRefs τ sig := by
  unfold opsC2W0
  exact ⟨unary_bufs_sub .., reshape_bufs_sub .., reshape_bufs_sub .., nullary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC2W0 : ∀ op ∈ (opsC2W0 : List (HloOp τ sig (Elt F))), op.fresh = ∅ := by
  unfold opsC2W0
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem keepC2W0 (V : Valuation τ sig (Elt F)) (r : Ref sig .tc) (hr : r ∉ wrC2W0) :
    after (opsC2W0 (F := F)) V (no_index (Proc.devRef .tc r)) = V (Proc.devRef .tc r) :=
  after_of_writes_sub _ V (W := wrC2W0) (by
    unfold opsC2W0 wrC2W0
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))⟩) hr

/-! ## Stretch C2W1 (operations 1249 … 1275, kind ryW1) -/

noncomputable def opsC2W1 : List (HloOp τ sig (Elt F)) :=
  [ unary main_arg1 main_v1142 ((extractStridedSlice S1x1 ![2, 1] · slices_S3x9_S1x1_2_1) : (⟨S3x9, .f32⟩ : BufTy).Contents (Elt F) → (⟨S1x1, .f32⟩ : BufTy).Contents (Elt F)),
    reshape main_v1142 main_v1143 rfl shapeCasts_S1x1_S_,
    reshape main_v1141 main_v1144 rfl shapeCasts_S8_S2x2x2,
    nullary main_cst_80 (constant S_ .f32 0x3F000000#32),
    binary main_v1143 main_cst_80 main_v1145 (mulf : (⟨S_, .f32⟩ : BufTy).Contents (Elt F) → (⟨S_, .f32⟩ : BufTy).Contents (Elt F) → (⟨S_, .f32⟩ : BufTy).Contents (Elt F)),
    unary main_v1145 main_v1146 (Host.cos : (⟨S_, .f32⟩ : BufTy).Contents (Elt F) → (⟨S_, .f32⟩ : BufTy).Contents (Elt F)),
    unary main_v1146 main_v1147 (broadcastInDim S1x1 ![] bcast_S_S1x1 : (⟨S_, .f32⟩ : BufTy).Contents (Elt F) → (⟨S1x1, .f32⟩ : BufTy).Contents (Elt F)),
    unary main_v1145 main_v1148 (Host.sin : (⟨S_, .f32⟩ : BufTy).Contents (Elt F) → (⟨S_, .f32⟩ : BufTy).Contents (Elt F)),
    unary main_v1148 main_v1149 (broadcastInDim S1x1 ![] bcast_S_S1x1 : (⟨S_, .f32⟩ : BufTy).Contents (Elt F) → (⟨S1x1, .f32⟩ : BufTy).Contents (Elt F)),
    unary main_v1144 main_v1150 ((extractStridedSlice S2x1x2 ![0, 0, 0] · slices_S2x2x2_S2x1x2_0_0_0) : (⟨S2x2x2, .f32⟩ : BufTy).Contents (Elt F) → (⟨S2x1x2, .f32⟩ : BufTy).Contents (Elt F)),
    reshape main_v1150 main_v1151 rfl shapeCasts_S2x1x2_S2x2,
    unary main_v1144 main_v1152 ((extractStridedSlice S2x1x2 ![0, 1, 0] · slices_S2x2x2_S2x1x2_0_1_0) : (⟨S2x2x2, .f32⟩ : BufTy).Contents (Elt F) → (⟨S2x1x2, .f32⟩ : BufTy).Contents (Elt F)),
    reshape main_v1152 main_v1153 rfl shapeCasts_S2x1x2_S2x2,
    unary main_v1147 main_v1154 (broadcastInDim S2x2 ![0, 1] bcast_S1x1_S2x2_0_1 : (⟨S1x1, .f32⟩ : BufTy).Contents (Elt F) → (⟨S2x2, .f32⟩ : BufTy).Contents (Elt F)),
    binary main_v1154 main_v1151 main_v1155 (mulf : (⟨S2x2, .f32⟩ : BufTy).Contents (Elt F) → (⟨S2x2, .f32⟩ : BufTy).Contents (Elt F) → (⟨S2x2, .f32⟩ : BufTy).Contents (Elt F)),
    unary main_v1149 main_v1156 (broadcastInDim S2x2 ![0, 1] bcast_S1x1_S2x2_0_1 : (⟨S1x1, .f32⟩ : BufTy).Contents (Elt F) → (⟨S2x2, .f32⟩ : BufTy).Contents (Elt F)),
    binary main_v1156 main_v1153 main_v1157 (mulf : (⟨S2x2, .f32⟩ : BufTy).Contents (Elt F) → (⟨S2x2, .f32⟩ : BufTy).Contents (Elt F) → (⟨S2x2, .f32⟩ : BufTy).Contents (Elt F)),
    binary main_v1155 main_v1157 main_v1158 (subf : (⟨S2x2, .f32⟩ : BufTy).Contents (Elt F) → (⟨S2x2, .f32⟩ : BufTy).Contents (Elt F) → (⟨S2x2, .f32⟩ : BufTy).Contents (Elt F)),
    unary main_v1149 main_v1159 (broadcastInDim S2x2 ![0, 1] bcast_S1x1_S2x2_0_1 : (⟨S1x1, .f32⟩ : BufTy).Contents (Elt F) → (⟨S2x2, .f32⟩ : BufTy).Contents (Elt F)),
    binary main_v1159 main_v1151 main_v1160 (mulf : (⟨S2x2, .f32⟩ : BufTy).Contents (Elt F) → (⟨S2x2, .f32⟩ : BufTy).Contents (Elt F) → (⟨S2x2, .f32⟩ : BufTy).Contents (Elt F)),
    unary main_v1147 main_v1161 (broadcastInDim S2x2 ![0, 1] bcast_S1x1_S2x2_0_1 : (⟨S1x1, .f32⟩ : BufTy).Contents (Elt F) → (⟨S2x2, .f32⟩ : BufTy).Contents (Elt F)),
    binary main_v1161 main_v1153 main_v1162 (mulf : (⟨S2x2, .f32⟩ : BufTy).Contents (Elt F) → (⟨S2x2, .f32⟩ : BufTy).Contents (Elt F) → (⟨S2x2, .f32⟩ : BufTy).Contents (Elt F)),
    binary main_v1160 main_v1162 main_v1163 (addf : (⟨S2x2, .f32⟩ : BufTy).Contents (Elt F) → (⟨S2x2, .f32⟩ : BufTy).Contents (Elt F) → (⟨S2x2, .f32⟩ : BufTy).Contents (Elt F)),
    unary main_v1158 main_v1164 (broadcastInDim S2x1x2 ![0, 2] bcast_S2x2_S2x1x2_0_2 : (⟨S2x2, .f32⟩ : BufTy).Contents (Elt F) → (⟨S2x1x2, .f32⟩ : BufTy).Contents (Elt F)),
    unary main_v1163 main_v1165 (broadcastInDim S2x1x2 ![0, 2] bcast_S2x2_S2x1x2_0_2 : (⟨S2x2, .f32⟩ : BufTy).Contents (Elt F) → (⟨S2x1x2, .f32⟩ : BufTy).Contents (Elt F)),
    binary main_v1164 main_v1165 main_v1166 ((fun a b => concatenate S2x2x2 1 [⟨S2x1x2, a⟩, ⟨S2x1x2, b⟩] concatenates_S2x1x2_S2x1x2_S2x2x2_d1) : (⟨S2x1x2, .f32⟩ : BufTy).Contents (Elt F) → (⟨S2x1x2, .f32⟩ : BufTy).Contents (Elt F) → (⟨S2x2x2, .f32⟩ : BufTy).Contents (Elt F)),
    reshape main_v1166 main_v1167 rfl shapeCasts_S2x2x2_S8 ]

theorem valC2W1 (V : Valuation τ sig (Elt F)) :
    after (opsC2W1 (F := F)) V (no_index (Proc.devRef .tc main_v1167)) = ryW1Fn (V (Proc.devRef .tc main_v1141)) (((extractStridedSlice S1x1 ![2, 1] · slices_S3x9_S1x1_2_1) : (⟨S3x9, .f32⟩ : BufTy).Contents (Elt F) → (⟨S1x1, .f32⟩ : BufTy).Contents (Elt F)) (V (Proc.devRef .tc main_arg1))) := by
  unfold opsC2W1
  after_results_simp
  rfl

noncomputable def wrC2W1 : List (Ref sig .tc) := [main_v1142, main_v1143, main_v1144, main_cst_80, main_v1145, main_v1146, main_v1147, main_v1148, main_v1149, main_v1150, main_v1151, main_v1152, main_v1153, main_v1154, main_v1155, main_v1156, main_v1157, main_v1158, main_v1159, main_v1160, main_v1161, main_v1162, main_v1163, main_v1164, main_v1165, main_v1166, main_v1167]

theorem subC2W1 : (opsC2W1 : List (HloOp τ sig (Elt F))).Forall fun op => op.bufs ⊆ tcRefs τ sig := by
  unfold opsC2W1
  exact ⟨unary_bufs_sub .., reshape_bufs_sub .., reshape_bufs_sub .., nullary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC2W1 : ∀ op ∈ (opsC2W1 : List (HloOp τ sig (Elt F))), op.fresh = ∅ := by
  unfold opsC2W1
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem keepC2W1 (V : Valuation τ sig (Elt F)) (r : Ref sig .tc) (hr : r ∉ wrC2W1) :
    after (opsC2W1 (F := F)) V (no_index (Proc.devRef .tc r)) = V (Proc.devRef .tc r) :=
  after_of_writes_sub _ V (W := wrC2W1) (by
    unfold opsC2W1 wrC2W1
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))⟩) hr

/-! ## Stretch C2W2 (operations 1276 … 1302, kind ryW2) -/

noncomputable def opsC2W2 : List (HloOp τ sig (Elt F)) :=
  [ unary main_arg1 main_v1168 ((extractStridedSlice S1x1 ![2, 2] · slices_S3x9_S1x1_2_2) : (⟨S3x9, .f32⟩ : BufTy).Contents (Elt F) → (⟨S1x1, .f32⟩ : BufTy).Contents (Elt F)),
    reshape main_v1168 main_v1169 rfl shapeCasts_S1x1_S_,
    reshape main_v1167 main_v1170 rfl shapeCasts_S8_S1x2x4,
    nullary main_cst_81 (constant S_ .f32 0x3F000000#32),
    binary main_v1169 main_cst_81 main_v1171 (mulf : (⟨S_, .f32⟩ : BufTy).Contents (Elt F) → (⟨S_, .f32⟩ : BufTy).Contents (Elt F) → (⟨S_, .f32⟩ : BufTy).Contents (Elt F)),
    unary main_v1171 main_v1172 (Host.cos : (⟨S_, .f32⟩ : BufTy).Contents (Elt F) → (⟨S_, .f32⟩ : BufTy).Contents (Elt F)),
    unary main_v1172 main_v1173 (broadcastInDim S1x1 ![] bcast_S_S1x1 : (⟨S_, .f32⟩ : BufTy).Contents (Elt F) → (⟨S1x1, .f32⟩ : BufTy).Contents (Elt F)),
    unary main_v1171 main_v1174 (Host.sin : (⟨S_, .f32⟩ : BufTy).Contents (Elt F) → (⟨S_, .f32⟩ : BufTy).Contents (Elt F)),
    unary main_v1174 main_v1175 (broadcastInDim S1x1 ![] bcast_S_S1x1 : (⟨S_, .f32⟩ : BufTy).Contents (Elt F) → (⟨S1x1, .f32⟩ : BufTy).Contents (Elt F)),
    unary main_v1170 main_v1176 ((extractStridedSlice S1x1x4 ![0, 0, 0] · slices_S1x2x4_S1x1x4_0_0_0) : (⟨S1x2x4, .f32⟩ : BufTy).Contents (Elt F) → (⟨S1x1x4, .f32⟩ : BufTy).Contents (Elt F)),
    reshape main_v1176 main_v1177 rfl shapeCasts_S1x1x4_S1x4,
    unary main_v1170 main_v1178 ((extractStridedSlice S1x1x4 ![0, 1, 0] · slices_S1x2x4_S1x1x4_0_1_0) : (⟨S1x2x4, .f32⟩ : BufTy).Contents (Elt F) → (⟨S1x1x4, .f32⟩ : BufTy).Contents (Elt F)),
    reshape main_v1178 main_v1179 rfl shapeCasts_S1x1x4_S1x4,
    unary main_v1173 main_v1180 (broadcastInDim S1x4 ![0, 1] bcast_S1x1_S1x4_0_1 : (⟨S1x1, .f32⟩ : BufTy).Contents (Elt F) → (⟨S1x4, .f32⟩ : BufTy).Contents (Elt F)),
    binary main_v1180 main_v1177 main_v1181 (mulf : (⟨S1x4, .f32⟩ : BufTy).Contents (Elt F) → (⟨S1x4, .f32⟩ : BufTy).Contents (Elt F) → (⟨S1x4, .f32⟩ : BufTy).Contents (Elt F)),
    unary main_v1175 main_v1182 (broadcastInDim S1x4 ![0, 1] bcast_S1x1_S1x4_0_1 : (⟨S1x1, .f32⟩ : BufTy).Contents (Elt F) → (⟨S1x4, .f32⟩ : BufTy).Contents (Elt F)),
    binary main_v1182 main_v1179 main_v1183 (mulf : (⟨S1x4, .f32⟩ : BufTy).Contents (Elt F) → (⟨S1x4, .f32⟩ : BufTy).Contents (Elt F) → (⟨S1x4, .f32⟩ : BufTy).Contents (Elt F)),
    binary main_v1181 main_v1183 main_v1184 (subf : (⟨S1x4, .f32⟩ : BufTy).Contents (Elt F) → (⟨S1x4, .f32⟩ : BufTy).Contents (Elt F) → (⟨S1x4, .f32⟩ : BufTy).Contents (Elt F)),
    unary main_v1175 main_v1185 (broadcastInDim S1x4 ![0, 1] bcast_S1x1_S1x4_0_1 : (⟨S1x1, .f32⟩ : BufTy).Contents (Elt F) → (⟨S1x4, .f32⟩ : BufTy).Contents (Elt F)),
    binary main_v1185 main_v1177 main_v1186 (mulf : (⟨S1x4, .f32⟩ : BufTy).Contents (Elt F) → (⟨S1x4, .f32⟩ : BufTy).Contents (Elt F) → (⟨S1x4, .f32⟩ : BufTy).Contents (Elt F)),
    unary main_v1173 main_v1187 (broadcastInDim S1x4 ![0, 1] bcast_S1x1_S1x4_0_1 : (⟨S1x1, .f32⟩ : BufTy).Contents (Elt F) → (⟨S1x4, .f32⟩ : BufTy).Contents (Elt F)),
    binary main_v1187 main_v1179 main_v1188 (mulf : (⟨S1x4, .f32⟩ : BufTy).Contents (Elt F) → (⟨S1x4, .f32⟩ : BufTy).Contents (Elt F) → (⟨S1x4, .f32⟩ : BufTy).Contents (Elt F)),
    binary main_v1186 main_v1188 main_v1189 (addf : (⟨S1x4, .f32⟩ : BufTy).Contents (Elt F) → (⟨S1x4, .f32⟩ : BufTy).Contents (Elt F) → (⟨S1x4, .f32⟩ : BufTy).Contents (Elt F)),
    unary main_v1184 main_v1190 (broadcastInDim S1x1x4 ![0, 2] bcast_S1x4_S1x1x4_0_2 : (⟨S1x4, .f32⟩ : BufTy).Contents (Elt F) → (⟨S1x1x4, .f32⟩ : BufTy).Contents (Elt F)),
    unary main_v1189 main_v1191 (broadcastInDim S1x1x4 ![0, 2] bcast_S1x4_S1x1x4_0_2 : (⟨S1x4, .f32⟩ : BufTy).Contents (Elt F) → (⟨S1x1x4, .f32⟩ : BufTy).Contents (Elt F)),
    binary main_v1190 main_v1191 main_v1192 ((fun a b => concatenate S1x2x4 1 [⟨S1x1x4, a⟩, ⟨S1x1x4, b⟩] concatenates_S1x1x4_S1x1x4_S1x2x4_d1) : (⟨S1x1x4, .f32⟩ : BufTy).Contents (Elt F) → (⟨S1x1x4, .f32⟩ : BufTy).Contents (Elt F) → (⟨S1x2x4, .f32⟩ : BufTy).Contents (Elt F)),
    reshape main_v1192 main_v1193 rfl shapeCasts_S1x2x4_S8 ]

theorem valC2W2 (V : Valuation τ sig (Elt F)) :
    after (opsC2W2 (F := F)) V (no_index (Proc.devRef .tc main_v1193)) = ryW2Fn (V (Proc.devRef .tc main_v1167)) (((extractStridedSlice S1x1 ![2, 2] · slices_S3x9_S1x1_2_2) : (⟨S3x9, .f32⟩ : BufTy).Contents (Elt F) → (⟨S1x1, .f32⟩ : BufTy).Contents (Elt F)) (V (Proc.devRef .tc main_arg1))) := by
  unfold opsC2W2
  after_results_simp
  rfl

noncomputable def wrC2W2 : List (Ref sig .tc) := [main_v1168, main_v1169, main_v1170, main_cst_81, main_v1171, main_v1172, main_v1173, main_v1174, main_v1175, main_v1176, main_v1177, main_v1178, main_v1179, main_v1180, main_v1181, main_v1182, main_v1183, main_v1184, main_v1185, main_v1186, main_v1187, main_v1188, main_v1189, main_v1190, main_v1191, main_v1192, main_v1193]

theorem subC2W2 : (opsC2W2 : List (HloOp τ sig (Elt F))).Forall fun op => op.bufs ⊆ tcRefs τ sig := by
  unfold opsC2W2
  exact ⟨unary_bufs_sub .., reshape_bufs_sub .., reshape_bufs_sub .., nullary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC2W2 : ∀ op ∈ (opsC2W2 : List (HloOp τ sig (Elt F))), op.fresh = ∅ := by
  unfold opsC2W2
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem keepC2W2 (V : Valuation τ sig (Elt F)) (r : Ref sig .tc) (hr : r ∉ wrC2W2) :
    after (opsC2W2 (F := F)) V (no_index (Proc.devRef .tc r)) = V (Proc.devRef .tc r) :=
  after_of_writes_sub _ V (W := wrC2W2) (by
    unfold opsC2W2 wrC2W2
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))⟩) hr

/-! ## Stretch C2W3 (operations 1303 … 1329, kind ryW0) -/

noncomputable def opsC2W3 : List (HloOp τ sig (Elt F)) :=
  [ unary main_arg1 main_v1194 ((extractStridedSlice S1x1 ![2, 3] · slices_S3x9_S1x1_2_3) : (⟨S3x9, .f32⟩ : BufTy).Contents (Elt F) → (⟨S1x1, .f32⟩ : BufTy).Contents (Elt F)),
    reshape main_v1194 main_v1195 rfl shapeCasts_S1x1_S_,
    reshape main_v1193 main_v1196 rfl shapeCasts_S8_S4x2x1,
    nullary main_cst_82 (constant S_ .f32 0x3F000000#32),
    binary main_v1195 main_cst_82 main_v1197 (mulf : (⟨S_, .f32⟩ : BufTy).Contents (Elt F) → (⟨S_, .f32⟩ : BufTy).Contents (Elt F) → (⟨S_, .f32⟩ : BufTy).Contents (Elt F)),
    unary main_v1197 main_v1198 (Host.cos : (⟨S_, .f32⟩ : BufTy).Contents (Elt F) → (⟨S_, .f32⟩ : BufTy).Contents (Elt F)),
    unary main_v1198 main_v1199 (broadcastInDim S1x1 ![] bcast_S_S1x1 : (⟨S_, .f32⟩ : BufTy).Contents (Elt F) → (⟨S1x1, .f32⟩ : BufTy).Contents (Elt F)),
    unary main_v1197 main_v1200 (Host.sin : (⟨S_, .f32⟩ : BufTy).Contents (Elt F) → (⟨S_, .f32⟩ : BufTy).Contents (Elt F)),
    unary main_v1200 main_v1201 (broadcastInDim S1x1 ![] bcast_S_S1x1 : (⟨S_, .f32⟩ : BufTy).Contents (Elt F) → (⟨S1x1, .f32⟩ : BufTy).Contents (Elt F)),
    unary main_v1196 main_v1202 ((extractStridedSlice S4x1x1 ![0, 0, 0] · slices_S4x2x1_S4x1x1_0_0_0) : (⟨S4x2x1, .f32⟩ : BufTy).Contents (Elt F) → (⟨S4x1x1, .f32⟩ : BufTy).Contents (Elt F)),
    reshape main_v1202 main_v1203 rfl shapeCasts_S4x1x1_S4x1,
    unary main_v1196 main_v1204 ((extractStridedSlice S4x1x1 ![0, 1, 0] · slices_S4x2x1_S4x1x1_0_1_0) : (⟨S4x2x1, .f32⟩ : BufTy).Contents (Elt F) → (⟨S4x1x1, .f32⟩ : BufTy).Contents (Elt F)),
    reshape main_v1204 main_v1205 rfl shapeCasts_S4x1x1_S4x1,
    unary main_v1199 main_v1206 (broadcastInDim S4x1 ![0, 1] bcast_S1x1_S4x1_0_1 : (⟨S1x1, .f32⟩ : BufTy).Contents (Elt F) → (⟨S4x1, .f32⟩ : BufTy).Contents (Elt F)),
    binary main_v1206 main_v1203 main_v1207 (mulf : (⟨S4x1, .f32⟩ : BufTy).Contents (Elt F) → (⟨S4x1, .f32⟩ : BufTy).Contents (Elt F) → (⟨S4x1, .f32⟩ : BufTy).Contents (Elt F)),
    unary main_v1201 main_v1208 (broadcastInDim S4x1 ![0, 1] bcast_S1x1_S4x1_0_1 : (⟨S1x1, .f32⟩ : BufTy).Contents (Elt F) → (⟨S4x1, .f32⟩ : BufTy).Contents (Elt F)),
    binary main_v1208 main_v1205 main_v1209 (mulf : (⟨S4x1, .f32⟩ : BufTy).Contents (Elt F) → (⟨S4x1, .f32⟩ : BufTy).Contents (Elt F) → (⟨S4x1, .f32⟩ : BufTy).Contents (Elt F)),
    binary main_v1207 main_v1209 main_v1210 (subf : (⟨S4x1, .f32⟩ : BufTy).Contents (Elt F) → (⟨S4x1, .f32⟩ : BufTy).Contents (Elt F) → (⟨S4x1, .f32⟩ : BufTy).Contents (Elt F)),
    unary main_v1201 main_v1211 (broadcastInDim S4x1 ![0, 1] bcast_S1x1_S4x1_0_1 : (⟨S1x1, .f32⟩ : BufTy).Contents (Elt F) → (⟨S4x1, .f32⟩ : BufTy).Contents (Elt F)),
    binary main_v1211 main_v1203 main_v1212 (mulf : (⟨S4x1, .f32⟩ : BufTy).Contents (Elt F) → (⟨S4x1, .f32⟩ : BufTy).Contents (Elt F) → (⟨S4x1, .f32⟩ : BufTy).Contents (Elt F)),
    unary main_v1199 main_v1213 (broadcastInDim S4x1 ![0, 1] bcast_S1x1_S4x1_0_1 : (⟨S1x1, .f32⟩ : BufTy).Contents (Elt F) → (⟨S4x1, .f32⟩ : BufTy).Contents (Elt F)),
    binary main_v1213 main_v1205 main_v1214 (mulf : (⟨S4x1, .f32⟩ : BufTy).Contents (Elt F) → (⟨S4x1, .f32⟩ : BufTy).Contents (Elt F) → (⟨S4x1, .f32⟩ : BufTy).Contents (Elt F)),
    binary main_v1212 main_v1214 main_v1215 (addf : (⟨S4x1, .f32⟩ : BufTy).Contents (Elt F) → (⟨S4x1, .f32⟩ : BufTy).Contents (Elt F) → (⟨S4x1, .f32⟩ : BufTy).Contents (Elt F)),
    unary main_v1210 main_v1216 (broadcastInDim S4x1x1 ![0, 2] bcast_S4x1_S4x1x1_0_2 : (⟨S4x1, .f32⟩ : BufTy).Contents (Elt F) → (⟨S4x1x1, .f32⟩ : BufTy).Contents (Elt F)),
    unary main_v1215 main_v1217 (broadcastInDim S4x1x1 ![0, 2] bcast_S4x1_S4x1x1_0_2 : (⟨S4x1, .f32⟩ : BufTy).Contents (Elt F) → (⟨S4x1x1, .f32⟩ : BufTy).Contents (Elt F)),
    binary main_v1216 main_v1217 main_v1218 ((fun a b => concatenate S4x2x1 1 [⟨S4x1x1, a⟩, ⟨S4x1x1, b⟩] concatenates_S4x1x1_S4x1x1_S4x2x1_d1) : (⟨S4x1x1, .f32⟩ : BufTy).Contents (Elt F) → (⟨S4x1x1, .f32⟩ : BufTy).Contents (Elt F) → (⟨S4x2x1, .f32⟩ : BufTy).Contents (Elt F)),
    reshape main_v1218 main_v1219 rfl shapeCasts_S4x2x1_S8 ]

theorem valC2W3 (V : Valuation τ sig (Elt F)) :
    after (opsC2W3 (F := F)) V (no_index (Proc.devRef .tc main_v1219)) = ryW0Fn (V (Proc.devRef .tc main_v1193)) (((extractStridedSlice S1x1 ![2, 3] · slices_S3x9_S1x1_2_3) : (⟨S3x9, .f32⟩ : BufTy).Contents (Elt F) → (⟨S1x1, .f32⟩ : BufTy).Contents (Elt F)) (V (Proc.devRef .tc main_arg1))) := by
  unfold opsC2W3
  after_results_simp
  rfl

noncomputable def wrC2W3 : List (Ref sig .tc) := [main_v1194, main_v1195, main_v1196, main_cst_82, main_v1197, main_v1198, main_v1199, main_v1200, main_v1201, main_v1202, main_v1203, main_v1204, main_v1205, main_v1206, main_v1207, main_v1208, main_v1209, main_v1210, main_v1211, main_v1212, main_v1213, main_v1214, main_v1215, main_v1216, main_v1217, main_v1218, main_v1219]

theorem subC2W3 : (opsC2W3 : List (HloOp τ sig (Elt F))).Forall fun op => op.bufs ⊆ tcRefs τ sig := by
  unfold opsC2W3
  exact ⟨unary_bufs_sub .., reshape_bufs_sub .., reshape_bufs_sub .., nullary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC2W3 : ∀ op ∈ (opsC2W3 : List (HloOp τ sig (Elt F))), op.fresh = ∅ := by
  unfold opsC2W3
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem keepC2W3 (V : Valuation τ sig (Elt F)) (r : Ref sig .tc) (hr : r ∉ wrC2W3) :
    after (opsC2W3 (F := F)) V (no_index (Proc.devRef .tc r)) = V (Proc.devRef .tc r) :=
  after_of_writes_sub _ V (W := wrC2W3) (by
    unfold opsC2W3 wrC2W3
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))⟩) hr

/-! ## Stretch C2W4 (operations 1330 … 1356, kind ryW1) -/

noncomputable def opsC2W4 : List (HloOp τ sig (Elt F)) :=
  [ unary main_arg1 main_v1220 ((extractStridedSlice S1x1 ![2, 4] · slices_S3x9_S1x1_2_4) : (⟨S3x9, .f32⟩ : BufTy).Contents (Elt F) → (⟨S1x1, .f32⟩ : BufTy).Contents (Elt F)),
    reshape main_v1220 main_v1221 rfl shapeCasts_S1x1_S_,
    reshape main_v1219 main_v1222 rfl shapeCasts_S8_S2x2x2,
    nullary main_cst_83 (constant S_ .f32 0x3F000000#32),
    binary main_v1221 main_cst_83 main_v1223 (mulf : (⟨S_, .f32⟩ : BufTy).Contents (Elt F) → (⟨S_, .f32⟩ : BufTy).Contents (Elt F) → (⟨S_, .f32⟩ : BufTy).Contents (Elt F)),
    unary main_v1223 main_v1224 (Host.cos : (⟨S_, .f32⟩ : BufTy).Contents (Elt F) → (⟨S_, .f32⟩ : BufTy).Contents (Elt F)),
    unary main_v1224 main_v1225 (broadcastInDim S1x1 ![] bcast_S_S1x1 : (⟨S_, .f32⟩ : BufTy).Contents (Elt F) → (⟨S1x1, .f32⟩ : BufTy).Contents (Elt F)),
    unary main_v1223 main_v1226 (Host.sin : (⟨S_, .f32⟩ : BufTy).Contents (Elt F) → (⟨S_, .f32⟩ : BufTy).Contents (Elt F)),
    unary main_v1226 main_v1227 (broadcastInDim S1x1 ![] bcast_S_S1x1 : (⟨S_, .f32⟩ : BufTy).Contents (Elt F) → (⟨S1x1, .f32⟩ : BufTy).Contents (Elt F)),
    unary main_v1222 main_v1228 ((extractStridedSlice S2x1x2 ![0, 0, 0] · slices_S2x2x2_S2x1x2_0_0_0) : (⟨S2x2x2, .f32⟩ : BufTy).Contents (Elt F) → (⟨S2x1x2, .f32⟩ : BufTy).Contents (Elt F)),
    reshape main_v1228 main_v1229 rfl shapeCasts_S2x1x2_S2x2,
    unary main_v1222 main_v1230 ((extractStridedSlice S2x1x2 ![0, 1, 0] · slices_S2x2x2_S2x1x2_0_1_0) : (⟨S2x2x2, .f32⟩ : BufTy).Contents (Elt F) → (⟨S2x1x2, .f32⟩ : BufTy).Contents (Elt F)),
    reshape main_v1230 main_v1231 rfl shapeCasts_S2x1x2_S2x2,
    unary main_v1225 main_v1232 (broadcastInDim S2x2 ![0, 1] bcast_S1x1_S2x2_0_1 : (⟨S1x1, .f32⟩ : BufTy).Contents (Elt F) → (⟨S2x2, .f32⟩ : BufTy).Contents (Elt F)),
    binary main_v1232 main_v1229 main_v1233 (mulf : (⟨S2x2, .f32⟩ : BufTy).Contents (Elt F) → (⟨S2x2, .f32⟩ : BufTy).Contents (Elt F) → (⟨S2x2, .f32⟩ : BufTy).Contents (Elt F)),
    unary main_v1227 main_v1234 (broadcastInDim S2x2 ![0, 1] bcast_S1x1_S2x2_0_1 : (⟨S1x1, .f32⟩ : BufTy).Contents (Elt F) → (⟨S2x2, .f32⟩ : BufTy).Contents (Elt F)),
    binary main_v1234 main_v1231 main_v1235 (mulf : (⟨S2x2, .f32⟩ : BufTy).Contents (Elt F) → (⟨S2x2, .f32⟩ : BufTy).Contents (Elt F) → (⟨S2x2, .f32⟩ : BufTy).Contents (Elt F)),
    binary main_v1233 main_v1235 main_v1236 (subf : (⟨S2x2, .f32⟩ : BufTy).Contents (Elt F) → (⟨S2x2, .f32⟩ : BufTy).Contents (Elt F) → (⟨S2x2, .f32⟩ : BufTy).Contents (Elt F)),
    unary main_v1227 main_v1237 (broadcastInDim S2x2 ![0, 1] bcast_S1x1_S2x2_0_1 : (⟨S1x1, .f32⟩ : BufTy).Contents (Elt F) → (⟨S2x2, .f32⟩ : BufTy).Contents (Elt F)),
    binary main_v1237 main_v1229 main_v1238 (mulf : (⟨S2x2, .f32⟩ : BufTy).Contents (Elt F) → (⟨S2x2, .f32⟩ : BufTy).Contents (Elt F) → (⟨S2x2, .f32⟩ : BufTy).Contents (Elt F)),
    unary main_v1225 main_v1239 (broadcastInDim S2x2 ![0, 1] bcast_S1x1_S2x2_0_1 : (⟨S1x1, .f32⟩ : BufTy).Contents (Elt F) → (⟨S2x2, .f32⟩ : BufTy).Contents (Elt F)),
    binary main_v1239 main_v1231 main_v1240 (mulf : (⟨S2x2, .f32⟩ : BufTy).Contents (Elt F) → (⟨S2x2, .f32⟩ : BufTy).Contents (Elt F) → (⟨S2x2, .f32⟩ : BufTy).Contents (Elt F)),
    binary main_v1238 main_v1240 main_v1241 (addf : (⟨S2x2, .f32⟩ : BufTy).Contents (Elt F) → (⟨S2x2, .f32⟩ : BufTy).Contents (Elt F) → (⟨S2x2, .f32⟩ : BufTy).Contents (Elt F)),
    unary main_v1236 main_v1242 (broadcastInDim S2x1x2 ![0, 2] bcast_S2x2_S2x1x2_0_2 : (⟨S2x2, .f32⟩ : BufTy).Contents (Elt F) → (⟨S2x1x2, .f32⟩ : BufTy).Contents (Elt F)),
    unary main_v1241 main_v1243 (broadcastInDim S2x1x2 ![0, 2] bcast_S2x2_S2x1x2_0_2 : (⟨S2x2, .f32⟩ : BufTy).Contents (Elt F) → (⟨S2x1x2, .f32⟩ : BufTy).Contents (Elt F)),
    binary main_v1242 main_v1243 main_v1244 ((fun a b => concatenate S2x2x2 1 [⟨S2x1x2, a⟩, ⟨S2x1x2, b⟩] concatenates_S2x1x2_S2x1x2_S2x2x2_d1) : (⟨S2x1x2, .f32⟩ : BufTy).Contents (Elt F) → (⟨S2x1x2, .f32⟩ : BufTy).Contents (Elt F) → (⟨S2x2x2, .f32⟩ : BufTy).Contents (Elt F)),
    reshape main_v1244 main_v1245 rfl shapeCasts_S2x2x2_S8 ]

theorem valC2W4 (V : Valuation τ sig (Elt F)) :
    after (opsC2W4 (F := F)) V (no_index (Proc.devRef .tc main_v1245)) = ryW1Fn (V (Proc.devRef .tc main_v1219)) (((extractStridedSlice S1x1 ![2, 4] · slices_S3x9_S1x1_2_4) : (⟨S3x9, .f32⟩ : BufTy).Contents (Elt F) → (⟨S1x1, .f32⟩ : BufTy).Contents (Elt F)) (V (Proc.devRef .tc main_arg1))) := by
  unfold opsC2W4
  after_results_simp
  rfl

noncomputable def wrC2W4 : List (Ref sig .tc) := [main_v1220, main_v1221, main_v1222, main_cst_83, main_v1223, main_v1224, main_v1225, main_v1226, main_v1227, main_v1228, main_v1229, main_v1230, main_v1231, main_v1232, main_v1233, main_v1234, main_v1235, main_v1236, main_v1237, main_v1238, main_v1239, main_v1240, main_v1241, main_v1242, main_v1243, main_v1244, main_v1245]

theorem subC2W4 : (opsC2W4 : List (HloOp τ sig (Elt F))).Forall fun op => op.bufs ⊆ tcRefs τ sig := by
  unfold opsC2W4
  exact ⟨unary_bufs_sub .., reshape_bufs_sub .., reshape_bufs_sub .., nullary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC2W4 : ∀ op ∈ (opsC2W4 : List (HloOp τ sig (Elt F))), op.fresh = ∅ := by
  unfold opsC2W4
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem keepC2W4 (V : Valuation τ sig (Elt F)) (r : Ref sig .tc) (hr : r ∉ wrC2W4) :
    after (opsC2W4 (F := F)) V (no_index (Proc.devRef .tc r)) = V (Proc.devRef .tc r) :=
  after_of_writes_sub _ V (W := wrC2W4) (by
    unfold opsC2W4 wrC2W4
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))⟩) hr

end Cert.Quanv.Ref

end
-- ==== Proof.RefOps.C2B.lean ====
/- TABLE written by: bun scratch/gen_ref.js <unit> ops — stretches C2W5, C2W6, C2W7, C2W8, C2WX01, C2WX12 of the reference's host program: per stretch the list of its operations, what it leaves
   in its result buffer as the kind's function of what it reads, and that it writes nothing else. -/
import proofs.«180459_j52956946760354_2_alg».proof.Proof.RefFns
import Idealize.ShloMosaic.Lib.StableHlo.Run

noncomputable section

namespace Cert.Quanv.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-! ## Stretch C2W5 (operations 1357 … 1383, kind ryW2) -/

noncomputable def opsC2W5 : List (HloOp τ sig (Elt F)) :=
  [ unary main_arg1 main_v1246 ((extractStridedSlice S1x1 ![2, 5] · slices_S3x9_S1x1_2_5) : (⟨S3x9, .f32⟩ : BufTy).Contents (Elt F) → (⟨S1x1, .f32⟩ : BufTy).Contents (Elt F)),
    reshape main_v1246 main_v1247 rfl shapeCasts_S1x1_S_,
    reshape main_v1245 main_v1248 rfl shapeCasts_S8_S1x2x4,
    nullary main_cst_84 (constant S_ .f32 0x3F000000#32),
    binary main_v1247 main_cst_84 main_v1249 (mulf : (⟨S_, .f32⟩ : BufTy).Contents (Elt F) → (⟨S_, .f32⟩ : BufTy).Contents (Elt F) → (⟨S_, .f32⟩ : BufTy).Contents (Elt F)),
    unary main_v1249 main_v1250 (Host.cos : (⟨S_, .f32⟩ : BufTy).Contents (Elt F) → (⟨S_, .f32⟩ : BufTy).Contents (Elt F)),
    unary main_v1250 main_v1251 (broadcastInDim S1x1 ![] bcast_S_S1x1 : (⟨S_, .f32⟩ : BufTy).Contents (Elt F) → (⟨S1x1, .f32⟩ : BufTy).Contents (Elt F)),
    unary main_v1249 main_v1252 (Host.sin : (⟨S_, .f32⟩ : BufTy).Contents (Elt F) → (⟨S_, .f32⟩ : BufTy).Contents (Elt F)),
    unary main_v1252 main_v1253 (broadcastInDim S1x1 ![] bcast_S_S1x1 : (⟨S_, .f32⟩ : BufTy).Contents (Elt F) → (⟨S1x1, .f32⟩ : BufTy).Contents (Elt F)),
    unary main_v1248 main_v1254 ((extractStridedSlice S1x1x4 ![0, 0, 0] · slices_S1x2x4_S1x1x4_0_0_0) : (⟨S1x2x4, .f32⟩ : BufTy).Contents (Elt F) → (⟨S1x1x4, .f32⟩ : BufTy).Contents (Elt F)),
    reshape main_v1254 main_v1255 rfl shapeCasts_S1x1x4_S1x4,
    unary main_v1248 main_v1256 ((extractStridedSlice S1x1x4 ![0, 1, 0] · slices_S1x2x4_S1x1x4_0_1_0) : (⟨S1x2x4, .f32⟩ : BufTy).Contents (Elt F) → (⟨S1x1x4, .f32⟩ : BufTy).Contents (Elt F)),
    reshape main_v1256 main_v1257 rfl shapeCasts_S1x1x4_S1x4,
    unary main_v1251 main_v1258 (broadcastInDim S1x4 ![0, 1] bcast_S1x1_S1x4_0_1 : (⟨S1x1, .f32⟩ : BufTy).Contents (Elt F) → (⟨S1x4, .f32⟩ : BufTy).Contents (Elt F)),
    binary main_v1258 main_v1255 main_v1259 (mulf : (⟨S1x4, .f32⟩ : BufTy).Contents (Elt F) → (⟨S1x4, .f32⟩ : BufTy).Contents (Elt F) → (⟨S1x4, .f32⟩ : BufTy).Contents (Elt F)),
    unary main_v1253 main_v1260 (broadcastInDim S1x4 ![0, 1] bcast_S1x1_S1x4_0_1 : (⟨S1x1, .f32⟩ : BufTy).Contents (Elt F) → (⟨S1x4, .f32⟩ : BufTy).Contents (Elt F)),
    binary main_v1260 main_v1257 main_v1261 (mulf : (⟨S1x4, .f32⟩ : BufTy).Contents (Elt F) → (⟨S1x4, .f32⟩ : BufTy).Contents (Elt F) → (⟨S1x4, .f32⟩ : BufTy).Contents (Elt F)),
    binary main_v1259 main_v1261 main_v1262 (subf : (⟨S1x4, .f32⟩ : BufTy).Contents (Elt F) → (⟨S1x4, .f32⟩ : BufTy).Contents (Elt F) → (⟨S1x4, .f32⟩ : BufTy).Contents (Elt F)),
    unary main_v1253 main_v1263 (broadcastInDim S1x4 ![0, 1] bcast_S1x1_S1x4_0_1 : (⟨S1x1, .f32⟩ : BufTy).Contents (Elt F) → (⟨S1x4, .f32⟩ : BufTy).Contents (Elt F)),
    binary main_v1263 main_v1255 main_v1264 (mulf : (⟨S1x4, .f32⟩ : BufTy).Contents (Elt F) → (⟨S1x4, .f32⟩ : BufTy).Contents (Elt F) → (⟨S1x4, .f32⟩ : BufTy).Contents (Elt F)),
    unary main_v1251 main_v1265 (broadcastInDim S1x4 ![0, 1] bcast_S1x1_S1x4_0_1 : (⟨S1x1, .f32⟩ : BufTy).Contents (Elt F) → (⟨S1x4, .f32⟩ : BufTy).Contents (Elt F)),
    binary main_v1265 main_v1257 main_v1266 (mulf : (⟨S1x4, .f32⟩ : BufTy).Contents (Elt F) → (⟨S1x4, .f32⟩ : BufTy).Contents (Elt F) → (⟨S1x4, .f32⟩ : BufTy).Contents (Elt F)),
    binary main_v1264 main_v1266 main_v1267 (addf : (⟨S1x4, .f32⟩ : BufTy).Contents (Elt F) → (⟨S1x4, .f32⟩ : BufTy).Contents (Elt F) → (⟨S1x4, .f32⟩ : BufTy).Contents (Elt F)),
    unary main_v1262 main_v1268 (broadcastInDim S1x1x4 ![0, 2] bcast_S1x4_S1x1x4_0_2 : (⟨S1x4, .f32⟩ : BufTy).Contents (Elt F) → (⟨S1x1x4, .f32⟩ : BufTy).Contents (Elt F)),
    unary main_v1267 main_v1269 (broadcastInDim S1x1x4 ![0, 2] bcast_S1x4_S1x1x4_0_2 : (⟨S1x4, .f32⟩ : BufTy).Contents (Elt F) → (⟨S1x1x4, .f32⟩ : BufTy).Contents (Elt F)),
    binary main_v1268 main_v1269 main_v1270 ((fun a b => concatenate S1x2x4 1 [⟨S1x1x4, a⟩, ⟨S1x1x4, b⟩] concatenates_S1x1x4_S1x1x4_S1x2x4_d1) : (⟨S1x1x4, .f32⟩ : BufTy).Contents (Elt F) → (⟨S1x1x4, .f32⟩ : BufTy).Contents (Elt F) → (⟨S1x2x4, .f32⟩ : BufTy).Contents (Elt F)),
    reshape main_v1270 main_v1271 rfl shapeCasts_S1x2x4_S8 ]

theorem valC2W5 (V : Valuation τ sig (Elt F)) :
    after (opsC2W5 (F := F)) V (no_index (Proc.devRef .tc main_v1271)) = ryW2Fn (V (Proc.devRef .tc main_v1245)) (((extractStridedSlice S1x1 ![2, 5] · slices_S3x9_S1x1_2_5) : (⟨S3x9, .f32⟩ : BufTy).Contents (Elt F) → (⟨S1x1, .f32⟩ : BufTy).Contents (Elt F)) (V (Proc.devRef .tc main_arg1))) := by
  unfold opsC2W5
  after_results_simp
  rfl

noncomputable def wrC2W5 : List (Ref sig .tc) := [main_v1246, main_v1247, main_v1248, main_cst_84, main_v1249, main_v1250, main_v1251, main_v1252, main_v1253, main_v1254, main_v1255, main_v1256, main_v1257, main_v1258, main_v1259, main_v1260, main_v1261, main_v1262, main_v1263, main_v1264, main_v1265, main_v1266, main_v1267, main_v1268, main_v1269, main_v1270, main_v1271]

theorem subC2W5 : (opsC2W5 : List (HloOp τ sig (Elt F))).Forall fun op => op.bufs ⊆ tcRefs τ sig := by
  unfold opsC2W5
  exact ⟨unary_bufs_sub .., reshape_bufs_sub .., reshape_bufs_sub .., nullary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC2W5 : ∀ op ∈ (opsC2W5 : List (HloOp τ sig (Elt F))), op.fresh = ∅ := by
  unfold opsC2W5
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem keepC2W5 (V : Valuation τ sig (Elt F)) (r : Ref sig .tc) (hr : r ∉ wrC2W5) :
    after (opsC2W5 (F := F)) V (no_index (Proc.devRef .tc r)) = V (Proc.devRef .tc r) :=
  after_of_writes_sub _ V (W := wrC2W5) (by
    unfold opsC2W5 wrC2W5
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))⟩) hr

/-! ## Stretch C2W6 (operations 1384 … 1410, kind ryW0) -/

noncomputable def opsC2W6 : List (HloOp τ sig (Elt F)) :=
  [ unary main_arg1 main_v1272 ((extractStridedSlice S1x1 ![2, 6] · slices_S3x9_S1x1_2_6) : (⟨S3x9, .f32⟩ : BufTy).Contents (Elt F) → (⟨S1x1, .f32⟩ : BufTy).Contents (Elt F)),
    reshape main_v1272 main_v1273 rfl shapeCasts_S1x1_S_,
    reshape main_v1271 main_v1274 rfl shapeCasts_S8_S4x2x1,
    nullary main_cst_85 (constant S_ .f32 0x3F000000#32),
    binary main_v1273 main_cst_85 main_v1275 (mulf : (⟨S_, .f32⟩ : BufTy).Contents (Elt F) → (⟨S_, .f32⟩ : BufTy).Contents (Elt F) → (⟨S_, .f32⟩ : BufTy).Contents (Elt F)),
    unary main_v1275 main_v1276 (Host.cos : (⟨S_, .f32⟩ : BufTy).Contents (Elt F) → (⟨S_, .f32⟩ : BufTy).Contents (Elt F)),
    unary main_v1276 main_v1277 (broadcastInDim S1x1 ![] bcast_S_S1x1 : (⟨S_, .f32⟩ : BufTy).Contents (Elt F) → (⟨S1x1, .f32⟩ : BufTy).Contents (Elt F)),
    unary main_v1275 main_v1278 (Host.sin : (⟨S_, .f32⟩ : BufTy).Contents (Elt F) → (⟨S_, .f32⟩ : BufTy).Contents (Elt F)),
    unary main_v1278 main_v1279 (broadcastInDim S1x1 ![] bcast_S_S1x1 : (⟨S_, .f32⟩ : BufTy).Contents (Elt F) → (⟨S1x1, .f32⟩ : BufTy).Contents (Elt F)),
    unary main_v1274 main_v1280 ((extractStridedSlice S4x1x1 ![0, 0, 0] · slices_S4x2x1_S4x1x1_0_0_0) : (⟨S4x2x1, .f32⟩ : BufTy).Contents (Elt F) → (⟨S4x1x1, .f32⟩ : BufTy).Contents (Elt F)),
    reshape main_v1280 main_v1281 rfl shapeCasts_S4x1x1_S4x1,
    unary main_v1274 main_v1282 ((extractStridedSlice S4x1x1 ![0, 1, 0] · slices_S4x2x1_S4x1x1_0_1_0) : (⟨S4x2x1, .f32⟩ : BufTy).Contents (Elt F) → (⟨S4x1x1, .f32⟩ : BufTy).Contents (Elt F)),
    reshape main_v1282 main_v1283 rfl shapeCasts_S4x1x1_S4x1,
    unary main_v1277 main_v1284 (broadcastInDim S4x1 ![0, 1] bcast_S1x1_S4x1_0_1 : (⟨S1x1, .f32⟩ : BufTy).Contents (Elt F) → (⟨S4x1, .f32⟩ : BufTy).Contents (Elt F)),
    binary main_v1284 main_v1281 main_v1285 (mulf : (⟨S4x1, .f32⟩ : BufTy).Contents (Elt F) → (⟨S4x1, .f32⟩ : BufTy).Contents (Elt F) → (⟨S4x1, .f32⟩ : BufTy).Contents (Elt F)),
    unary main_v1279 main_v1286 (broadcastInDim S4x1 ![0, 1] bcast_S1x1_S4x1_0_1 : (⟨S1x1, .f32⟩ : BufTy).Contents (Elt F) → (⟨S4x1, .f32⟩ : BufTy).Contents (Elt F)),
    binary main_v1286 main_v1283 main_v1287 (mulf : (⟨S4x1, .f32⟩ : BufTy).Contents (Elt F) → (⟨S4x1, .f32⟩ : BufTy).Contents (Elt F) → (⟨S4x1, .f32⟩ : BufTy).Contents (Elt F)),
    binary main_v1285 main_v1287 main_v1288 (subf : (⟨S4x1, .f32⟩ : BufTy).Contents (Elt F) → (⟨S4x1, .f32⟩ : BufTy).Contents (Elt F) → (⟨S4x1, .f32⟩ : BufTy).Contents (Elt F)),
    unary main_v1279 main_v1289 (broadcastInDim S4x1 ![0, 1] bcast_S1x1_S4x1_0_1 : (⟨S1x1, .f32⟩ : BufTy).Contents (Elt F) → (⟨S4x1, .f32⟩ : BufTy).Contents (Elt F)),
    binary main_v1289 main_v1281 main_v1290 (mulf : (⟨S4x1, .f32⟩ : BufTy).Contents (Elt F) → (⟨S4x1, .f32⟩ : BufTy).Contents (Elt F) → (⟨S4x1, .f32⟩ : BufTy).Contents (Elt F)),
    unary main_v1277 main_v1291 (broadcastInDim S4x1 ![0, 1] bcast_S1x1_S4x1_0_1 : (⟨S1x1, .f32⟩ : BufTy).Contents (Elt F) → (⟨S4x1, .f32⟩ : BufTy).Contents (Elt F)),
    binary main_v1291 main_v1283 main_v1292 (mulf : (⟨S4x1, .f32⟩ : BufTy).Contents (Elt F) → (⟨S4x1, .f32⟩ : BufTy).Contents (Elt F) → (⟨S4x1, .f32⟩ : BufTy).Contents (Elt F)),
    binary main_v1290 main_v1292 main_v1293 (addf : (⟨S4x1, .f32⟩ : BufTy).Contents (Elt F) → (⟨S4x1, .f32⟩ : BufTy).Contents (Elt F) → (⟨S4x1, .f32⟩ : BufTy).Contents (Elt F)),
    unary main_v1288 main_v1294 (broadcastInDim S4x1x1 ![0, 2] bcast_S4x1_S4x1x1_0_2 : (⟨S4x1, .f32⟩ : BufTy).Contents (Elt F) → (⟨S4x1x1, .f32⟩ : BufTy).Contents (Elt F)),
    unary main_v1293 main_v1295 (broadcastInDim S4x1x1 ![0, 2] bcast_S4x1_S4x1x1_0_2 : (⟨S4x1, .f32⟩ : BufTy).Contents (Elt F) → (⟨S4x1x1, .f32⟩ : BufTy).Contents (Elt F)),
    binary main_v1294 main_v1295 main_v1296 ((fun a b => concatenate S4x2x1 1 [⟨S4x1x1, a⟩, ⟨S4x1x1, b⟩] concatenates_S4x1x1_S4x1x1_S4x2x1_d1) : (⟨S4x1x1, .f32⟩ : BufTy).Contents (Elt F) → (⟨S4x1x1, .f32⟩ : BufTy).Contents (Elt F) → (⟨S4x2x1, .f32⟩ : BufTy).Contents (Elt F)),
    reshape main_v1296 main_v1297 rfl shapeCasts_S4x2x1_S8 ]

theorem valC2W6 (V : Valuation τ sig (Elt F)) :
    after (opsC2W6 (F := F)) V (no_index (Proc.devRef .tc main_v1297)) = ryW0Fn (V (Proc.devRef .tc main_v1271)) (((extractStridedSlice S1x1 ![2, 6] · slices_S3x9_S1x1_2_6) : (⟨S3x9, .f32⟩ : BufTy).Contents (Elt F) → (⟨S1x1, .f32⟩ : BufTy).Contents (Elt F)) (V (Proc.devRef .tc main_arg1))) := by
  unfold opsC2W6
  after_results_simp
  rfl

noncomputable def wrC2W6 : List (Ref sig .tc) := [main_v1272, main_v1273, main_v1274, main_cst_85, main_v1275, main_v1276, main_v1277, main_v1278, main_v1279, main_v1280, main_v1281, main_v1282, main_v1283, main_v1284, main_v1285, main_v1286, main_v1287, main_v1288, main_v1289, main_v1290, main_v1291, main_v1292, main_v1293, main_v1294, main_v1295, main_v1296, main_v1297]

theorem subC2W6 : (opsC2W6 : List (HloOp τ sig (Elt F))).Forall fun op => op.bufs ⊆ tcRefs τ sig := by
  unfold opsC2W6
  exact ⟨unary_bufs_sub .., reshape_bufs_sub .., reshape_bufs_sub .., nullary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC2W6 : ∀ op ∈ (opsC2W6 : List (HloOp τ sig (Elt F))), op.fresh = ∅ := by
  unfold opsC2W6
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem keepC2W6 (V : Valuation τ sig (Elt F)) (r : Ref sig .tc) (hr : r ∉ wrC2W6) :
    after (opsC2W6 (F := F)) V (no_index (Proc.devRef .tc r)) = V (Proc.devRef .tc r) :=
  after_of_writes_sub _ V (W := wrC2W6) (by
    unfold opsC2W6 wrC2W6
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))⟩) hr

/-! ## Stretch C2W7 (operations 1411 … 1437, kind ryW1) -/

noncomputable def opsC2W7 : List (HloOp τ sig (Elt F)) :=
  [ unary main_arg1 main_v1298 ((extractStridedSlice S1x1 ![2, 7] · slices_S3x9_S1x1_2_7) : (⟨S3x9, .f32⟩ : BufTy).Contents (Elt F) → (⟨S1x1, .f32⟩ : BufTy).Contents (Elt F)),
    reshape main_v1298 main_v1299 rfl shapeCasts_S1x1_S_,
    reshape main_v1297 main_v1300 rfl shapeCasts_S8_S2x2x2,
    nullary main_cst_86 (constant S_ .f32 0x3F000000#32),
    binary main_v1299 main_cst_86 main_v1301 (mulf : (⟨S_, .f32⟩ : BufTy).Contents (Elt F) → (⟨S_, .f32⟩ : BufTy).Contents (Elt F) → (⟨S_, .f32⟩ : BufTy).Contents (Elt F)),
    unary main_v1301 main_v1302 (Host.cos : (⟨S_, .f32⟩ : BufTy).Contents (Elt F) → (⟨S_, .f32⟩ : BufTy).Contents (Elt F)),
    unary main_v1302 main_v1303 (broadcastInDim S1x1 ![] bcast_S_S1x1 : (⟨S_, .f32⟩ : BufTy).Contents (Elt F) → (⟨S1x1, .f32⟩ : BufTy).Contents (Elt F)),
    unary main_v1301 main_v1304 (Host.sin : (⟨S_, .f32⟩ : BufTy).Contents (Elt F) → (⟨S_, .f32⟩ : BufTy).Contents (Elt F)),
    unary main_v1304 main_v1305 (broadcastInDim S1x1 ![] bcast_S_S1x1 : (⟨S_, .f32⟩ : BufTy).Contents (Elt F) → (⟨S1x1, .f32⟩ : BufTy).Contents (Elt F)),
    unary main_v1300 main_v1306 ((extractStridedSlice S2x1x2 ![0, 0, 0] · slices_S2x2x2_S2x1x2_0_0_0) : (⟨S2x2x2, .f32⟩ : BufTy).Contents (Elt F) → (⟨S2x1x2, .f32⟩ : BufTy).Contents (Elt F)),
    reshape main_v1306 main_v1307 rfl shapeCasts_S2x1x2_S2x2,
    unary main_v1300 main_v1308 ((extractStridedSlice S2x1x2 ![0, 1, 0] · slices_S2x2x2_S2x1x2_0_1_0) : (⟨S2x2x2, .f32⟩ : BufTy).Contents (Elt F) → (⟨S2x1x2, .f32⟩ : BufTy).Contents (Elt F)),
    reshape main_v1308 main_v1309 rfl shapeCasts_S2x1x2_S2x2,
    unary main_v1303 main_v1310 (broadcastInDim S2x2 ![0, 1] bcast_S1x1_S2x2_0_1 : (⟨S1x1, .f32⟩ : BufTy).Contents (Elt F) → (⟨S2x2, .f32⟩ : BufTy).Contents (Elt F)),
    binary main_v1310 main_v1307 main_v1311 (mulf : (⟨S2x2, .f32⟩ : BufTy).Contents (Elt F) → (⟨S2x2, .f32⟩ : BufTy).Contents (Elt F) → (⟨S2x2, .f32⟩ : BufTy).Contents (Elt F)),
    unary main_v1305 main_v1312 (broadcastInDim S2x2 ![0, 1] bcast_S1x1_S2x2_0_1 : (⟨S1x1, .f32⟩ : BufTy).Contents (Elt F) → (⟨S2x2, .f32⟩ : BufTy).Contents (Elt F)),
    binary main_v1312 main_v1309 main_v1313 (mulf : (⟨S2x2, .f32⟩ : BufTy).Contents (Elt F) → (⟨S2x2, .f32⟩ : BufTy).Contents (Elt F) → (⟨S2x2, .f32⟩ : BufTy).Contents (Elt F)),
    binary main_v1311 main_v1313 main_v1314 (subf : (⟨S2x2, .f32⟩ : BufTy).Contents (Elt F) → (⟨S2x2, .f32⟩ : BufTy).Contents (Elt F) → (⟨S2x2, .f32⟩ : BufTy).Contents (Elt F)),
    unary main_v1305 main_v1315 (broadcastInDim S2x2 ![0, 1] bcast_S1x1_S2x2_0_1 : (⟨S1x1, .f32⟩ : BufTy).Contents (Elt F) → (⟨S2x2, .f32⟩ : BufTy).Contents (Elt F)),
    binary main_v1315 main_v1307 main_v1316 (mulf : (⟨S2x2, .f32⟩ : BufTy).Contents (Elt F) → (⟨S2x2, .f32⟩ : BufTy).Contents (Elt F) → (⟨S2x2, .f32⟩ : BufTy).Contents (Elt F)),
    unary main_v1303 main_v1317 (broadcastInDim S2x2 ![0, 1] bcast_S1x1_S2x2_0_1 : (⟨S1x1, .f32⟩ : BufTy).Contents (Elt F) → (⟨S2x2, .f32⟩ : BufTy).Contents (Elt F)),
    binary main_v1317 main_v1309 main_v1318 (mulf : (⟨S2x2, .f32⟩ : BufTy).Contents (Elt F) → (⟨S2x2, .f32⟩ : BufTy).Contents (Elt F) → (⟨S2x2, .f32⟩ : BufTy).Contents (Elt F)),
    binary main_v1316 main_v1318 main_v1319 (addf : (⟨S2x2, .f32⟩ : BufTy).Contents (Elt F) → (⟨S2x2, .f32⟩ : BufTy).Contents (Elt F) → (⟨S2x2, .f32⟩ : BufTy).Contents (Elt F)),
    unary main_v1314 main_v1320 (broadcastInDim S2x1x2 ![0, 2] bcast_S2x2_S2x1x2_0_2 : (⟨S2x2, .f32⟩ : BufTy).Contents (Elt F) → (⟨S2x1x2, .f32⟩ : BufTy).Contents (Elt F)),
    unary main_v1319 main_v1321 (broadcastInDim S2x1x2 ![0, 2] bcast_S2x2_S2x1x2_0_2 : (⟨S2x2, .f32⟩ : BufTy).Contents (Elt F) → (⟨S2x1x2, .f32⟩ : BufTy).Contents (Elt F)),
    binary main_v1320 main_v1321 main_v1322 ((fun a b => concatenate S2x2x2 1 [⟨S2x1x2, a⟩, ⟨S2x1x2, b⟩] concatenates_S2x1x2_S2x1x2_S2x2x2_d1) : (⟨S2x1x2, .f32⟩ : BufTy).Contents (Elt F) → (⟨S2x1x2, .f32⟩ : BufTy).Contents (Elt F) → (⟨S2x2x2, .f32⟩ : BufTy).Contents (Elt F)),
    reshape main_v1322 main_v1323 rfl shapeCasts_S2x2x2_S8 ]

theorem valC2W7 (V : Valuation τ sig (Elt F)) :
    after (opsC2W7 (F := F)) V (no_index (Proc.devRef .tc main_v1323)) = ryW1Fn (V (Proc.devRef .tc main_v1297)) (((extractStridedSlice S1x1 ![2, 7] · slices_S3x9_S1x1_2_7) : (⟨S3x9, .f32⟩ : BufTy).Contents (Elt F) → (⟨S1x1, .f32⟩ : BufTy).Contents (Elt F)) (V (Proc.devRef .tc main_arg1))) := by
  unfold opsC2W7
  after_results_simp
  rfl

noncomputable def wrC2W7 : List (Ref sig .tc) := [main_v1298, main_v1299, main_v1300, main_cst_86, main_v1301, main_v1302, main_v1303, main_v1304, main_v1305, main_v1306, main_v1307, main_v1308, main_v1309, main_v1310, main_v1311, main_v1312, main_v1313, main_v1314, main_v1315, main_v1316, main_v1317, main_v1318, main_v1319, main_v1320, main_v1321, main_v1322, main_v1323]

theorem subC2W7 : (opsC2W7 : List (HloOp τ sig (Elt F))).Forall fun op => op.bufs ⊆ tcRefs τ sig := by
  unfold opsC2W7
  exact ⟨unary_bufs_sub .., reshape_bufs_sub .., reshape_bufs_sub .., nullary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC2W7 : ∀ op ∈ (opsC2W7 : List (HloOp τ sig (Elt F))), op.fresh = ∅ := by
  unfold opsC2W7
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem keepC2W7 (V : Valuation τ sig (Elt F)) (r : Ref sig .tc) (hr : r ∉ wrC2W7) :
    after (opsC2W7 (F := F)) V (no_index (Proc.devRef .tc r)) = V (Proc.devRef .tc r) :=
  after_of_writes_sub _ V (W := wrC2W7) (by
    unfold opsC2W7 wrC2W7
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))⟩) hr

/-! ## Stretch C2W8 (operations 1438 … 1464, kind ryW2) -/

noncomputable def opsC2W8 : List (HloOp τ sig (Elt F)) :=
  [ unary main_arg1 main_v1324 ((extractStridedSlice S1x1 ![2, 8] · slices_S3x9_S1x1_2_8) : (⟨S3x9, .f32⟩ : BufTy).Contents (Elt F) → (⟨S1x1, .f32⟩ : BufTy).Contents (Elt F)),
    reshape main_v1324 main_v1325 rfl shapeCasts_S1x1_S_,
    reshape main_v1323 main_v1326 rfl shapeCasts_S8_S1x2x4,
    nullary main_cst_87 (constant S_ .f32 0x3F000000#32),
    binary main_v1325 main_cst_87 main_v1327 (mulf : (⟨S_, .f32⟩ : BufTy).Contents (Elt F) → (⟨S_, .f32⟩ : BufTy).Contents (Elt F) → (⟨S_, .f32⟩ : BufTy).Contents (Elt F)),
    unary main_v1327 main_v1328 (Host.cos : (⟨S_, .f32⟩ : BufTy).Contents (Elt F) → (⟨S_, .f32⟩ : BufTy).Contents (Elt F)),
    unary main_v1328 main_v1329 (broadcastInDim S1x1 ![] bcast_S_S1x1 : (⟨S_, .f32⟩ : BufTy).Contents (Elt F) → (⟨S1x1, .f32⟩ : BufTy).Contents (Elt F)),
    unary main_v1327 main_v1330 (Host.sin : (⟨S_, .f32⟩ : BufTy).Contents (Elt F) → (⟨S_, .f32⟩ : BufTy).Contents (Elt F)),
    unary main_v1330 main_v1331 (broadcastInDim S1x1 ![] bcast_S_S1x1 : (⟨S_, .f32⟩ : BufTy).Contents (Elt F) → (⟨S1x1, .f32⟩ : BufTy).Contents (Elt F)),
    unary main_v1326 main_v1332 ((extractStridedSlice S1x1x4 ![0, 0, 0] · slices_S1x2x4_S1x1x4_0_0_0) : (⟨S1x2x4, .f32⟩ : BufTy).Contents (Elt F) → (⟨S1x1x4, .f32⟩ : BufTy).Contents (Elt F)),
    reshape main_v1332 main_v1333 rfl shapeCasts_S1x1x4_S1x4,
    unary main_v1326 main_v1334 ((extractStridedSlice S1x1x4 ![0, 1, 0] · slices_S1x2x4_S1x1x4_0_1_0) : (⟨S1x2x4, .f32⟩ : BufTy).Contents (Elt F) → (⟨S1x1x4, .f32⟩ : BufTy).Contents (Elt F)),
    reshape main_v1334 main_v1335 rfl shapeCasts_S1x1x4_S1x4,
    unary main_v1329 main_v1336 (broadcastInDim S1x4 ![0, 1] bcast_S1x1_S1x4_0_1 : (⟨S1x1, .f32⟩ : BufTy).Contents (Elt F) → (⟨S1x4, .f32⟩ : BufTy).Contents (Elt F)),
    binary main_v1336 main_v1333 main_v1337 (mulf : (⟨S1x4, .f32⟩ : BufTy).Contents (Elt F) → (⟨S1x4, .f32⟩ : BufTy).Contents (Elt F) → (⟨S1x4, .f32⟩ : BufTy).Contents (Elt F)),
    unary main_v1331 main_v1338 (broadcastInDim S1x4 ![0, 1] bcast_S1x1_S1x4_0_1 : (⟨S1x1, .f32⟩ : BufTy).Contents (Elt F) → (⟨S1x4, .f32⟩ : BufTy).Contents (Elt F)),
    binary main_v1338 main_v1335 main_v1339 (mulf : (⟨S1x4, .f32⟩ : BufTy).Contents (Elt F) → (⟨S1x4, .f32⟩ : BufTy).Contents (Elt F) → (⟨S1x4, .f32⟩ : BufTy).Contents (Elt F)),
    binary main_v1337 main_v1339 main_v1340 (subf : (⟨S1x4, .f32⟩ : BufTy).Contents (Elt F) → (⟨S1x4, .f32⟩ : BufTy).Contents (Elt F) → (⟨S1x4, .f32⟩ : BufTy).Contents (Elt F)),
    unary main_v1331 main_v1341 (broadcastInDim S1x4 ![0, 1] bcast_S1x1_S1x4_0_1 : (⟨S1x1, .f32⟩ : BufTy).Contents (Elt F) → (⟨S1x4, .f32⟩ : BufTy).Contents (Elt F)),
    binary main_v1341 main_v1333 main_v1342 (mulf : (⟨S1x4, .f32⟩ : BufTy).Contents (Elt F) → (⟨S1x4, .f32⟩ : BufTy).Contents (Elt F) → (⟨S1x4, .f32⟩ : BufTy).Contents (Elt F)),
    unary main_v1329 main_v1343 (broadcastInDim S1x4 ![0, 1] bcast_S1x1_S1x4_0_1 : (⟨S1x1, .f32⟩ : BufTy).Contents (Elt F) → (⟨S1x4, .f32⟩ : BufTy).Contents (Elt F)),
    binary main_v1343 main_v1335 main_v1344 (mulf : (⟨S1x4, .f32⟩ : BufTy).Contents (Elt F) → (⟨S1x4, .f32⟩ : BufTy).Contents (Elt F) → (⟨S1x4, .f32⟩ : BufTy).Contents (Elt F)),
    binary main_v1342 main_v1344 main_v1345 (addf : (⟨S1x4, .f32⟩ : BufTy).Contents (Elt F) → (⟨S1x4, .f32⟩ : BufTy).Contents (Elt F) → (⟨S1x4, .f32⟩ : BufTy).Contents (Elt F)),
    unary main_v1340 main_v1346 (broadcastInDim S1x1x4 ![0, 2] bcast_S1x4_S1x1x4_0_2 : (⟨S1x4, .f32⟩ : BufTy).Contents (Elt F) → (⟨S1x1x4, .f32⟩ : BufTy).Contents (Elt F)),
    unary main_v1345 main_v1347 (broadcastInDim S1x1x4 ![0, 2] bcast_S1x4_S1x1x4_0_2 : (⟨S1x4, .f32⟩ : BufTy).Contents (Elt F) → (⟨S1x1x4, .f32⟩ : BufTy).Contents (Elt F)),
    binary main_v1346 main_v1347 main_v1348 ((fun a b => concatenate S1x2x4 1 [⟨S1x1x4, a⟩, ⟨S1x1x4, b⟩] concatenates_S1x1x4_S1x1x4_S1x2x4_d1) : (⟨S1x1x4, .f32⟩ : BufTy).Contents (Elt F) → (⟨S1x1x4, .f32⟩ : BufTy).Contents (Elt F) → (⟨S1x2x4, .f32⟩ : BufTy).Contents (Elt F)),
    reshape main_v1348 main_v1349 rfl shapeCasts_S1x2x4_S8 ]

theorem valC2W8 (V : Valuation τ sig (Elt F)) :
    after (opsC2W8 (F := F)) V (no_index (Proc.devRef .tc main_v1349)) = ryW2Fn (V (Proc.devRef .tc main_v1323)) (((extractStridedSlice S1x1 ![2, 8] · slices_S3x9_S1x1_2_8) : (⟨S3x9, .f32⟩ : BufTy).Contents (Elt F) → (⟨S1x1, .f32⟩ : BufTy).Contents (Elt F)) (V (Proc.devRef .tc main_arg1))) := by
  unfold opsC2W8
  after_results_simp
  rfl

noncomputable def wrC2W8 : List (Ref sig .tc) := [main_v1324, main_v1325, main_v1326, main_cst_87, main_v1327, main_v1328, main_v1329, main_v1330, main_v1331, main_v1332, main_v1333, main_v1334, main_v1335, main_v1336, main_v1337, main_v1338, main_v1339, main_v1340, main_v1341, main_v1342, main_v1343, main_v1344, main_v1345, main_v1346, main_v1347, main_v1348, main_v1349]

theorem subC2W8 : (opsC2W8 : List (HloOp τ sig (Elt F))).Forall fun op => op.bufs ⊆ tcRefs τ sig := by
  unfold opsC2W8
  exact ⟨unary_bufs_sub .., reshape_bufs_sub .., reshape_bufs_sub .., nullary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC2W8 : ∀ op ∈ (opsC2W8 : List (HloOp τ sig (Elt F))), op.fresh = ∅ := by
  unfold opsC2W8
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem keepC2W8 (V : Valuation τ sig (Elt F)) (r : Ref sig .tc) (hr : r ∉ wrC2W8) :
    after (opsC2W8 (F := F)) V (no_index (Proc.devRef .tc r)) = V (Proc.devRef .tc r) :=
  after_of_writes_sub _ V (W := wrC2W8) (by
    unfold opsC2W8 wrC2W8
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))⟩) hr

/-! ## Stretch C2WX01 (operations 1465 … 1484, kind cxWa) -/

noncomputable def opsC2WX01 : List (HloOp τ sig (Elt F)) :=
  [ nullary main_v1350 (iotaInDim S8 32 0),
    nullary main_c_88 (constantI S_ 32 0#32),
    unary main_c_88 main_v1351 (broadcastInDim S8 ![] bcast_S_S8 : (⟨S_, .i32⟩ : BufTy).Contents (Elt F) → (⟨S8, .i32⟩ : BufTy).Contents (Elt F)),
    binary main_v1350 main_v1351 main_v1352 (Host.shrsi : (⟨S8, .i32⟩ : BufTy).Contents (Elt F) → (⟨S8, .i32⟩ : BufTy).Contents (Elt F) → (⟨S8, .i32⟩ : BufTy).Contents (Elt F)),
    nullary main_c_89 (constantI S_ 32 1#32),
    unary main_c_89 main_v1353 (broadcastInDim S8 ![] bcast_S_S8 : (⟨S_, .i32⟩ : BufTy).Contents (Elt F) → (⟨S8, .i32⟩ : BufTy).Contents (Elt F)),
    binary main_v1352 main_v1353 main_v1354 (andi : (⟨S8, .i32⟩ : BufTy).Contents (Elt F) → (⟨S8, .i32⟩ : BufTy).Contents (Elt F) → (⟨S8, .i32⟩ : BufTy).Contents (Elt F)),
    nullary main_c_90 (constantI S_ 32 1#32),
    unary main_c_90 main_v1355 (broadcastInDim S8 ![] bcast_S_S8 : (⟨S_, .i32⟩ : BufTy).Contents (Elt F) → (⟨S8, .i32⟩ : BufTy).Contents (Elt F)),
    binary main_v1354 main_v1355 main_v1356 (Host.shli : (⟨S8, .i32⟩ : BufTy).Contents (Elt F) → (⟨S8, .i32⟩ : BufTy).Contents (Elt F) → (⟨S8, .i32⟩ : BufTy).Contents (Elt F)),
    binary main_v1350 main_v1356 main_v1357 (xori : (⟨S8, .i32⟩ : BufTy).Contents (Elt F) → (⟨S8, .i32⟩ : BufTy).Contents (Elt F) → (⟨S8, .i32⟩ : BufTy).Contents (Elt F)),
    nullary main_c_91 (constantI S_ 32 0#32),
    unary main_c_91 main_v1358 (broadcastInDim S8 ![] bcast_S_S8 : (⟨S_, .i32⟩ : BufTy).Contents (Elt F) → (⟨S8, .i32⟩ : BufTy).Contents (Elt F)),
    binary main_v1357 main_v1358 main_v1359 (cmpi .slt : (⟨S8, .i32⟩ : BufTy).Contents (Elt F) → (⟨S8, .i32⟩ : BufTy).Contents (Elt F) → (⟨S8, .i1⟩ : BufTy).Contents (Elt F)),
    nullary main_c_92 (constantI S_ 32 8#32),
    unary main_c_92 main_v1360 (broadcastInDim S8 ![] bcast_S_S8 : (⟨S_, .i32⟩ : BufTy).Contents (Elt F) → (⟨S8, .i32⟩ : BufTy).Contents (Elt F)),
    binary main_v1357 main_v1360 main_v1361 (addi : (⟨S8, .i32⟩ : BufTy).Contents (Elt F) → (⟨S8, .i32⟩ : BufTy).Contents (Elt F) → (⟨S8, .i32⟩ : BufTy).Contents (Elt F)),
    ternary main_v1359 main_v1361 main_v1357 main_v1362 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_v1362 main_v1363 (broadcastInDim S8x1 ![0] bcast_S8_S8x1_0 : (⟨S8, .i32⟩ : BufTy).Contents (Elt F) → (⟨S8x1, .i32⟩ : BufTy).Contents (Elt F)),
    binary main_v1349 main_v1363 main_v1364 ((fun x i => Host.gather gather_S8_S8x1_S8_n_0_n_n_0_1_1 x i) : (⟨S8, .f32⟩ : BufTy).Contents (Elt F) → (⟨S8x1, .i32⟩ : BufTy).Contents (Elt F) → (⟨S8, .f32⟩ : BufTy).Contents (Elt F)) ]

theorem valC2WX01 (V : Valuation τ sig (Elt F)) :
    after (opsC2WX01 (F := F)) V (no_index (Proc.devRef .tc main_v1364)) = cxWaFn (V (Proc.devRef .tc main_v1349)) := by
  unfold opsC2WX01
  after_results_simp
  rfl

noncomputable def wrC2WX01 : List (Ref sig .tc) := [main_v1350, main_c_88, main_v1351, main_v1352, main_c_89, main_v1353, main_v1354, main_c_90, main_v1355, main_v1356, main_v1357, main_c_91, main_v1358, main_v1359, main_c_92, main_v1360, main_v1361, main_v1362, main_v1363, main_v1364]

theorem subC2WX01 : (opsC2WX01 : List (HloOp τ sig (Elt F))).Forall fun op => op.bufs ⊆ tcRefs τ sig := by
  unfold opsC2WX01
  exact ⟨nullary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem freshC2WX01 : ∀ op ∈ (opsC2WX01 : List (HloOp τ sig (Elt F))), op.fresh = ∅ := by
  unfold opsC2WX01
  exact List.forall_iff_forall_mem.mp ⟨rfl, rfl, rfl, rfl, rfl, rfl, rfl, rfl, rfl, rfl, rfl, rfl, rfl, rfl, rfl, rfl, rfl, rfl, rfl, rfl⟩

theorem keepC2WX01 (V : Valuation τ sig (Elt F)) (r : Ref sig .tc) (hr : r ∉ wrC2WX01) :
    after (opsC2WX01 (F := F)) V (no_index (Proc.devRef .tc r)) = V (Proc.devRef .tc r) :=
  after_of_writes_sub _ V (W := wrC2WX01) (by
    unfold opsC2WX01 wrC2WX01
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))⟩) hr

/-! ## Stretch C2WX12 (operations 1485 … 1504, kind cxWb) -/

noncomputable def opsC2WX12 : List (HloOp τ sig (Elt F)) :=
  [ nullary main_v1365 (iotaInDim S8 32 0),
    nullary main_c_93 (constantI S_ 32 1#32),
    unary main_c_93 main_v1366 (broadcastInDim S8 ![] bcast_S_S8 : (⟨S_, .i32⟩ : BufTy).Contents (Elt F) → (⟨S8, .i32⟩ : BufTy).Contents (Elt F)),
    binary main_v1365 main_v1366 main_v1367 (Host.shrsi : (⟨S8, .i32⟩ : BufTy).Contents (Elt F) → (⟨S8, .i32⟩ : BufTy).Contents (Elt F) → (⟨S8, .i32⟩ : BufTy).Contents (Elt F)),
    nullary main_c_94 (constantI S_ 32 1#32),
    unary main_c_94 main_v1368 (broadcastInDim S8 ![] bcast_S_S8 : (⟨S_, .i32⟩ : BufTy).Contents (Elt F) → (⟨S8, .i32⟩ : BufTy).Contents (Elt F)),
    binary main_v1367 main_v1368 main_v1369 (andi : (⟨S8, .i32⟩ : BufTy).Contents (Elt F) → (⟨S8, .i32⟩ : BufTy).Contents (Elt F) → (⟨S8, .i32⟩ : BufTy).Contents (Elt F)),
    nullary main_c_95 (constantI S_ 32 2#32),
    unary main_c_95 main_v1370 (broadcastInDim S8 ![] bcast_S_S8 : (⟨S_, .i32⟩ : BufTy).Contents (Elt F) → (⟨S8, .i32⟩ : BufTy).Contents (Elt F)),
    binary main_v1369 main_v1370 main_v1371 (Host.shli : (⟨S8, .i32⟩ : BufTy).Contents (Elt F) → (⟨S8, .i32⟩ : BufTy).Contents (Elt F) → (⟨S8, .i32⟩ : BufTy).Contents (Elt F)),
    binary main_v1365 main_v1371 main_v1372 (xori : (⟨S8, .i32⟩ : BufTy).Contents (Elt F) → (⟨S8, .i32⟩ : BufTy).Contents (Elt F) → (⟨S8, .i32⟩ : BufTy).Contents (Elt F)),
    nullary main_c_96 (constantI S_ 32 0#32),
    unary main_c_96 main_v1373 (broadcastInDim S8 ![] bcast_S_S8 : (⟨S_, .i32⟩ : BufTy).Contents (Elt F) → (⟨S8, .i32⟩ : BufTy).Contents (Elt F)),
    binary main_v1372 main_v1373 main_v1374 (cmpi .slt : (⟨S8, .i32⟩ : BufTy).Contents (Elt F) → (⟨S8, .i32⟩ : BufTy).Contents (Elt F) → (⟨S8, .i1⟩ : BufTy).Contents (Elt F)),
    nullary main_c_97 (constantI S_ 32 8#32),
    unary main_c_97 main_v1375 (broadcastInDim S8 ![] bcast_S_S8 : (⟨S_, .i32⟩ : BufTy).Contents (Elt F) → (⟨S8, .i32⟩ : BufTy).Contents (Elt F)),
    binary main_v1372 main_v1375 main_v1376 (addi : (⟨S8, .i32⟩ : BufTy).Contents (Elt F) → (⟨S8, .i32⟩ : BufTy).Contents (Elt F) → (⟨S8, .i32⟩ : BufTy).Contents (Elt F)),
    ternary main_v1374 main_v1376 main_v1372 main_v1377 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_v1377 main_v1378 (broadcastInDim S8x1 ![0] bcast_S8_S8x1_0 : (⟨S8, .i32⟩ : BufTy).Contents (Elt F) → (⟨S8x1, .i32⟩ : BufTy).Contents (Elt F)),
    binary main_v1364 main_v1378 main_v1379 ((fun x i => Host.gather gather_S8_S8x1_S8_n_0_n_n_0_1_1 x i) : (⟨S8, .f32⟩ : BufTy).Contents (Elt F) → (⟨S8x1, .i32⟩ : BufTy).Contents (Elt F) → (⟨S8, .f32⟩ : BufTy).Contents (Elt F)) ]

theorem valC2WX12 (V : Valuation τ sig (Elt F)) :
    after (opsC2WX12 (F := F)) V (no_index (Proc.devRef .tc main_v1379)) = cxWbFn (V (Proc.devRef .tc main_v1364)) := by
  unfold opsC2WX12
  after_results_simp
  rfl

noncomputable def wrC2WX12 : List (Ref sig .tc) := [main_v1365, main_c_93, main_v1366, main_v1367, main_c_94, main_v1368, main_v1369, main_c_95, main_v1370, main_v1371, main_v1372, main_c_96, main_v1373, main_v1374, main_c_97, main_v1375, main_v1376, main_v1377, main_v1378, main_v1379]

theorem subC2WX12 : (opsC2WX12 : List (HloOp τ sig (Elt F))).Forall fun op => op.bufs ⊆ tcRefs τ sig := by
  unfold opsC2WX12
  exact ⟨nullary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem freshC2WX12 : ∀ op ∈ (opsC2WX12 : List (HloOp τ sig (Elt F))), op.fresh = ∅ := by
  unfold opsC2WX12
  exact List.forall_iff_forall_mem.mp ⟨rfl, rfl, rfl, rfl, rfl, rfl, rfl, rfl, rfl, rfl, rfl, rfl, rfl, rfl, rfl, rfl, rfl, rfl, rfl, rfl⟩

theorem keepC2WX12 (V : Valuation τ sig (Elt F)) (r : Ref sig .tc) (hr : r ∉ wrC2WX12) :
    after (opsC2WX12 (F := F)) V (no_index (Proc.devRef .tc r)) = V (Proc.devRef .tc r) :=
  after_of_writes_sub _ V (W := wrC2WX12) (by
    unfold opsC2WX12 wrC2WX12
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))⟩) hr

end Cert.Quanv.Ref

end
-- ==== Proof.RefOps.C2C.lean ====
/- TABLE written by: bun scratch/gen_ref.js <unit> ops — stretches C2XCol, C2BPsi, C2D0, C2D1, C2D2 of the reference's host program: per stretch the list of its operations, what it leaves
   in its result buffer as the kind's function of what it reads, and that it writes nothing else. -/
import proofs.«180459_j52956946760354_2_alg».proof.Proof.RefFns
import Idealize.ShloMosaic.Lib.StableHlo.Run

noncomputable section

namespace Cert.Quanv.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-! ## Stretch C2XCol (operations 1505 … 1507, kind xcol) -/

noncomputable def opsC2XCol : List (HloOp τ sig (Elt F)) :=
  [ unary main_v18 main_v1380 ((extractStridedSlice S32x1x125x125x9 ![0, 2, 0, 0, 0] · slices_S32x3x125x125x9_S32x1x125x125x9_0_2_0_0_0) : (⟨S32x3x125x125x9, .f32⟩ : BufTy).Contents (Elt F) → (⟨S32x1x125x125x9, .f32⟩ : BufTy).Contents (Elt F)),
    reshape main_v1380 main_v1381 rfl shapeCasts_S32x1x125x125x9_S32x125x125x9,
    reshape main_v1381 main_v1382 rfl shapeCasts_S32x125x125x9_S500000x9 ]

theorem valC2XCol (V : Valuation τ sig (Elt F)) :
    after (opsC2XCol (F := F)) V (no_index (Proc.devRef .tc main_v1382)) = xcolFn (((extractStridedSlice S32x1x125x125x9 ![0, 2, 0, 0, 0] · slices_S32x3x125x125x9_S32x1x125x125x9_0_2_0_0_0) : (⟨S32x3x125x125x9, .f32⟩ : BufTy).Contents (Elt F) → (⟨S32x1x125x125x9, .f32⟩ : BufTy).Contents (Elt F)) (V (Proc.devRef .tc main_v18))) := by
  unfold opsC2XCol
  after_results_simp
  rfl

noncomputable def wrC2XCol : List (Ref sig .tc) := [main_v1380, main_v1381, main_v1382]

theorem subC2XCol : (opsC2XCol : List (HloOp τ sig (Elt F))).Forall fun op => op.bufs ⊆ tcRefs τ sig := by
  unfold opsC2XCol
  exact ⟨unary_bufs_sub .., reshape_bufs_sub .., reshape_bufs_sub ..⟩

theorem freshC2XCol : ∀ op ∈ (opsC2XCol : List (HloOp τ sig (Elt F))), op.fresh = ∅ := by
  unfold opsC2XCol
  exact List.forall_iff_forall_mem.mp ⟨rfl, rfl, rfl⟩

theorem keepC2XCol (V : Valuation τ sig (Elt F)) (r : Ref sig .tc) (hr : r ∉ wrC2XCol) :
    after (opsC2XCol (F := F)) V (no_index (Proc.devRef .tc r)) = V (Proc.devRef .tc r) :=
  after_of_writes_sub _ V (W := wrC2XCol) (by
    unfold opsC2XCol wrC2XCol
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _)))))⟩) hr

/-! ## Stretch C2BPsi (operations 1508 … 1508, kind bpsi) -/

noncomputable def opsC2BPsi : List (HloOp τ sig (Elt F)) :=
  [ unary main_v1379 main_v1383 (broadcastInDim S500000x8 ![1] bcast_S8_S500000x8_1 : (⟨S8, .f32⟩ : BufTy).Contents (Elt F) → (⟨S500000x8, .f32⟩ : BufTy).Contents (Elt F)) ]

theorem valC2BPsi (V : Valuation τ sig (Elt F)) :
    after (opsC2BPsi (F := F)) V (no_index (Proc.devRef .tc main_v1383)) = bpsiFn (V (Proc.devRef .tc main_v1379)) := by
  unfold opsC2BPsi
  after_results_simp
  rfl

noncomputable def wrC2BPsi : List (Ref sig .tc) := [main_v1383]

theorem subC2BPsi : (opsC2BPsi : List (HloOp τ sig (Elt F))).Forall fun op => op.bufs ⊆ tcRefs τ sig := by
  unfold opsC2BPsi
  exact (unary_bufs_sub ..)

theorem freshC2BPsi : ∀ op ∈ (opsC2BPsi : List (HloOp τ sig (Elt F))), op.fresh = ∅ := by
  unfold opsC2BPsi
  exact List.forall_iff_forall_mem.mp (rfl)

theorem keepC2BPsi (V : Valuation τ sig (Elt F)) (r : Ref sig .tc) (hr : r ∉ wrC2BPsi) :
    after (opsC2BPsi (F := F)) V (no_index (Proc.devRef .tc r)) = V (Proc.devRef .tc r) :=
  after_of_writes_sub _ V (W := wrC2BPsi) (by
    unfold opsC2BPsi wrC2BPsi
    exact (Finset.singleton_subset_iff.mpr (List.mem_toFinset.mpr (List.mem_map_of_mem (.head _))))) hr

/-! ## Stretch C2D0 (operations 1509 … 1536, kind ryD0) -/

noncomputable def opsC2D0 : List (HloOp τ sig (Elt F)) :=
  [ unary main_v1382 main_v1384 ((extractStridedSlice S500000x1 ![0, 0] · slices_S500000x9_S500000x1_0_0) : (⟨S500000x9, .f32⟩ : BufTy).Contents (Elt F) → (⟨S500000x1, .f32⟩ : BufTy).Contents (Elt F)),
    reshape main_v1384 main_v1385 rfl shapeCasts_S500000x1_S500000,
    reshape main_v1383 main_v1386 rfl shapeCasts_S500000x8_S500000x4x2x1,
    nullary main_cst_98 (constant S_ .f32 0x3F000000#32),
    unary main_cst_98 main_v1387 (broadcastInDim S500000 ![] bcast_S_S500000 : (⟨S_, .f32⟩ : BufTy).Contents (Elt F) → (⟨S500000, .f32⟩ : BufTy).Contents (Elt F)),
    binary main_v1385 main_v1387 main_v1388 (mulf : (⟨S500000, .f32⟩ : BufTy).Contents (Elt F) → (⟨S500000, .f32⟩ : BufTy).Contents (Elt F) → (⟨S500000, .f32⟩ : BufTy).Contents (Elt F)),
    unary main_v1388 main_v1389 (Host.cos : (⟨S500000, .f32⟩ : BufTy).Contents (Elt F) → (⟨S500000, .f32⟩ : BufTy).Contents (Elt F)),
    unary main_v1389 main_v1390 (broadcastInDim S500000x1x1 ![0] bcast_S500000_S500000x1x1_0 : (⟨S500000, .f32⟩ : BufTy).Contents (Elt F) → (⟨S500000x1x1, .f32⟩ : BufTy).Contents (Elt F)),
    unary main_v1388 main_v1391 (Host.sin : (⟨S500000, .f32⟩ : BufTy).Contents (Elt F) → (⟨S500000, .f32⟩ : BufTy).Contents (Elt F)),
    unary main_v1391 main_v1392 (broadcastInDim S500000x1x1 ![0] bcast_S500000_S500000x1x1_0 : (⟨S500000, .f32⟩ : BufTy).Contents (Elt F) → (⟨S500000x1x1, .f32⟩ : BufTy).Contents (Elt F)),
    unary main_v1386 main_v1393 ((extractStridedSlice S500000x4x1x1 ![0, 0, 0, 0] · slices_S500000x4x2x1_S500000x4x1x1_0_0_0_0) : (⟨S500000x4x2x1, .f32⟩ : BufTy).Contents (Elt F) → (⟨S500000x4x1x1, .f32⟩ : BufTy).Contents (Elt F)),
    reshape main_v1393 main_v1394 rfl shapeCasts_S500000x4x1x1_S500000x4x1,
    unary main_v1386 main_v1395 ((extractStridedSlice S500000x4x1x1 ![0, 0, 1, 0] · slices_S500000x4x2x1_S500000x4x1x1_0_0_1_0) : (⟨S500000x4x2x1, .f32⟩ : BufTy).Contents (Elt F) → (⟨S500000x4x1x1, .f32⟩ : BufTy).Contents (Elt F)),
    reshape main_v1395 main_v1396 rfl shapeCasts_S500000x4x1x1_S500000x4x1,
    unary main_v1390 main_v1397 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v1397 main_v1394 main_v1398 (mulf : (⟨S500000x4x1, .f32⟩ : BufTy).Contents (Elt F) → (⟨S500000x4x1, .f32⟩ : BufTy).Contents (Elt F) → (⟨S500000x4x1, .f32⟩ : BufTy).Contents (Elt F)),
    unary main_v1392 main_v1399 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v1399 main_v1396 main_v1400 (mulf : (⟨S500000x4x1, .f32⟩ : BufTy).Contents (Elt F) → (⟨S500000x4x1, .f32⟩ : BufTy).Contents (Elt F) → (⟨S500000x4x1, .f32⟩ : BufTy).Contents (Elt F)),
    binary main_v1398 main_v1400 main_v1401 (subf : (⟨S500000x4x1, .f32⟩ : BufTy).Contents (Elt F) → (⟨S500000x4x1, .f32⟩ : BufTy).Contents (Elt F) → (⟨S500000x4x1, .f32⟩ : BufTy).Contents (Elt F)),
    unary main_v1392 main_v1402 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v1402 main_v1394 main_v1403 (mulf : (⟨S500000x4x1, .f32⟩ : BufTy).Contents (Elt F) → (⟨S500000x4x1, .f32⟩ : BufTy).Contents (Elt F) → (⟨S500000x4x1, .f32⟩ : BufTy).Contents (Elt F)),
    unary main_v1390 main_v1404 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v1404 main_v1396 main_v1405 (mulf : (⟨S500000x4x1, .f32⟩ : BufTy).Contents (Elt F) → (⟨S500000x4x1, .f32⟩ : BufTy).Contents (Elt F) → (⟨S500000x4x1, .f32⟩ : BufTy).Contents (Elt F)),
    binary main_v1403 main_v1405 main_v1406 (addf : (⟨S500000x4x1, .f32⟩ : BufTy).Contents (Elt F) → (⟨S500000x4x1, .f32⟩ : BufTy).Contents (Elt F) → (⟨S500000x4x1, .f32⟩ : BufTy).Contents (Elt F)),
    unary main_v1401 main_v1407 (broadcastInDim S500000x4x1x1 ![0, 1, 3] bcast_S500000x4x1_S500000x4x1x1_0_1_3 : (⟨S500000x4x1, .f32⟩ : BufTy).Contents (Elt F) → (⟨S500000x4x1x1, .f32⟩ : BufTy).Contents (Elt F)),
    unary main_v1406 main_v1408 (broadcastInDim S500000x4x1x1 ![0, 1, 3] bcast_S500000x4x1_S500000x4x1x1_0_1_3 : (⟨S500000x4x1, .f32⟩ : BufTy).Contents (Elt F) → (⟨S500000x4x1x1, .f32⟩ : BufTy).Contents (Elt F)),
    binary main_v1407 main_v1408 main_v1409 ((fun a b => concatenate S500000x4x2x1 2 [⟨S500000x4x1x1, a⟩, ⟨S500000x4x1x1, b⟩] concatenates_S500000x4x1x1_S500000x4x1x1_S500000x4x2x1_d2) : (⟨S500000x4x1x1, .f32⟩ : BufTy).Contents (Elt F) → (⟨S500000x4x1x1, .f32⟩ : BufTy).Contents (Elt F) → (⟨S500000x4x2x1, .f32⟩ : BufTy).Contents (Elt F)),
    reshape main_v1409 main_v1410 rfl shapeCasts_S500000x4x2x1_S500000x8 ]

theorem valC2D0 (V : Valuation τ sig (Elt F)) :
    after (opsC2D0 (F := F)) V (no_index (Proc.devRef .tc main_v1410)) = ryD0Fn (V (Proc.devRef .tc main_v1383)) (((extractStridedSlice S500000x1 ![0, 0] · slices_S500000x9_S500000x1_0_0) : (⟨S500000x9, .f32⟩ : BufTy).Contents (Elt F) → (⟨S500000x1, .f32⟩ : BufTy).Contents (Elt F)) (V (Proc.devRef .tc main_v1382))) := by
  unfold opsC2D0
  after_results_simp
  rfl

noncomputable def wrC2D0 : List (Ref sig .tc) := [main_v1384, main_v1385, main_v1386, main_cst_98, main_v1387, main_v1388, main_v1389, main_v1390, main_v1391, main_v1392, main_v1393, main_v1394, main_v1395, main_v1396, main_v1397, main_v1398, main_v1399, main_v1400, main_v1401, main_v1402, main_v1403, main_v1404, main_v1405, main_v1406, main_v1407, main_v1408, main_v1409, main_v1410]

theorem subC2D0 : (opsC2D0 : List (HloOp τ sig (Elt F))).Forall fun op => op.bufs ⊆ tcRefs τ sig := by
  unfold opsC2D0
  exact ⟨unary_bufs_sub .., reshape_bufs_sub .., reshape_bufs_sub .., nullary_bufs_sub .., unary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC2D0 : ∀ op ∈ (opsC2D0 : List (HloOp τ sig (Elt F))), op.fresh = ∅ := by
  unfold opsC2D0
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl⟩

theorem keepC2D0 (V : Valuation τ sig (Elt F)) (r : Ref sig .tc) (hr : r ∉ wrC2D0) :
    after (opsC2D0 (F := F)) V (no_index (Proc.devRef .tc r)) = V (Proc.devRef .tc r) :=
  after_of_writes_sub _ V (W := wrC2D0) (by
    unfold opsC2D0 wrC2D0
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))⟩) hr

/-! ## Stretch C2D1 (operations 1537 … 1564, kind ryD1) -/

noncomputable def opsC2D1 : List (HloOp τ sig (Elt F)) :=
  [ unary main_v1382 main_v1411 ((extractStridedSlice S500000x1 ![0, 1] · slices_S500000x9_S500000x1_0_1) : (⟨S500000x9, .f32⟩ : BufTy).Contents (Elt F) → (⟨S500000x1, .f32⟩ : BufTy).Contents (Elt F)),
    reshape main_v1411 main_v1412 rfl shapeCasts_S500000x1_S500000,
    reshape main_v1410 main_v1413 rfl shapeCasts_S500000x8_S500000x2x2x2,
    nullary main_cst_99 (constant S_ .f32 0x3F000000#32),
    unary main_cst_99 main_v1414 (broadcastInDim S500000 ![] bcast_S_S500000 : (⟨S_, .f32⟩ : BufTy).Contents (Elt F) → (⟨S500000, .f32⟩ : BufTy).Contents (Elt F)),
    binary main_v1412 main_v1414 main_v1415 (mulf : (⟨S500000, .f32⟩ : BufTy).Contents (Elt F) → (⟨S500000, .f32⟩ : BufTy).Contents (Elt F) → (⟨S500000, .f32⟩ : BufTy).Contents (Elt F)),
    unary main_v1415 main_v1416 (Host.cos : (⟨S500000, .f32⟩ : BufTy).Contents (Elt F) → (⟨S500000, .f32⟩ : BufTy).Contents (Elt F)),
    unary main_v1416 main_v1417 (broadcastInDim S500000x1x1 ![0] bcast_S500000_S500000x1x1_0 : (⟨S500000, .f32⟩ : BufTy).Contents (Elt F) → (⟨S500000x1x1, .f32⟩ : BufTy).Contents (Elt F)),
    unary main_v1415 main_v1418 (Host.sin : (⟨S500000, .f32⟩ : BufTy).Contents (Elt F) → (⟨S500000, .f32⟩ : BufTy).Contents (Elt F)),
    unary main_v1418 main_v1419 (broadcastInDim S500000x1x1 ![0] bcast_S500000_S500000x1x1_0 : (⟨S500000, .f32⟩ : BufTy).Contents (Elt F) → (⟨S500000x1x1, .f32⟩ : BufTy).Contents (Elt F)),
    unary main_v1413 main_v1420 ((extractStridedSlice S500000x2x1x2 ![0, 0, 0, 0] · slices_S500000x2x2x2_S500000x2x1x2_0_0_0_0) : (⟨S500000x2x2x2, .f32⟩ : BufTy).Contents (Elt F) → (⟨S500000x2x1x2, .f32⟩ : BufTy).Contents (Elt F)),
    reshape main_v1420 main_v1421 rfl shapeCasts_S500000x2x1x2_S500000x2x2,
    unary main_v1413 main_v1422 ((extractStridedSlice S500000x2x1x2 ![0, 0, 1, 0] · slices_S500000x2x2x2_S500000x2x1x2_0_0_1_0) : (⟨S500000x2x2x2, .f32⟩ : BufTy).Contents (Elt F) → (⟨S500000x2x1x2, .f32⟩ : BufTy).Contents (Elt F)),
    reshape main_v1422 main_v1423 rfl shapeCasts_S500000x2x1x2_S500000x2x2,
    unary main_v1417 main_v1424 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v1424 main_v1421 main_v1425 (mulf : (⟨S500000x2x2, .f32⟩ : BufTy).Contents (Elt F) → (⟨S500000x2x2, .f32⟩ : BufTy).Contents (Elt F) → (⟨S500000x2x2, .f32⟩ : BufTy).Contents (Elt F)),
    unary main_v1419 main_v1426 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v1426 main_v1423 main_v1427 (mulf : (⟨S500000x2x2, .f32⟩ : BufTy).Contents (Elt F) → (⟨S500000x2x2, .f32⟩ : BufTy).Contents (Elt F) → (⟨S500000x2x2, .f32⟩ : BufTy).Contents (Elt F)),
    binary main_v1425 main_v1427 main_v1428 (subf : (⟨S500000x2x2, .f32⟩ : BufTy).Contents (Elt F) → (⟨S500000x2x2, .f32⟩ : BufTy).Contents (Elt F) → (⟨S500000x2x2, .f32⟩ : BufTy).Contents (Elt F)),
    unary main_v1419 main_v1429 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v1429 main_v1421 main_v1430 (mulf : (⟨S500000x2x2, .f32⟩ : BufTy).Contents (Elt F) → (⟨S500000x2x2, .f32⟩ : BufTy).Contents (Elt F) → (⟨S500000x2x2, .f32⟩ : BufTy).Contents (Elt F)),
    unary main_v1417 main_v1431 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v1431 main_v1423 main_v1432 (mulf : (⟨S500000x2x2, .f32⟩ : BufTy).Contents (Elt F) → (⟨S500000x2x2, .f32⟩ : BufTy).Contents (Elt F) → (⟨S500000x2x2, .f32⟩ : BufTy).Contents (Elt F)),
    binary main_v1430 main_v1432 main_v1433 (addf : (⟨S500000x2x2, .f32⟩ : BufTy).Contents (Elt F) → (⟨S500000x2x2, .f32⟩ : BufTy).Contents (Elt F) → (⟨S500000x2x2, .f32⟩ : BufTy).Contents (Elt F)),
    unary main_v1428 main_v1434 (broadcastInDim S500000x2x1x2 ![0, 1, 3] bcast_S500000x2x2_S500000x2x1x2_0_1_3 : (⟨S500000x2x2, .f32⟩ : BufTy).Contents (Elt F) → (⟨S500000x2x1x2, .f32⟩ : BufTy).Contents (Elt F)),
    unary main_v1433 main_v1435 (broadcastInDim S500000x2x1x2 ![0, 1, 3] bcast_S500000x2x2_S500000x2x1x2_0_1_3 : (⟨S500000x2x2, .f32⟩ : BufTy).Contents (Elt F) → (⟨S500000x2x1x2, .f32⟩ : BufTy).Contents (Elt F)),
    binary main_v1434 main_v1435 main_v1436 ((fun a b => concatenate S500000x2x2x2 2 [⟨S500000x2x1x2, a⟩, ⟨S500000x2x1x2, b⟩] concatenates_S500000x2x1x2_S500000x2x1x2_S500000x2x2x2_d2) : (⟨S500000x2x1x2, .f32⟩ : BufTy).Contents (Elt F) → (⟨S500000x2x1x2, .f32⟩ : BufTy).Contents (Elt F) → (⟨S500000x2x2x2, .f32⟩ : BufTy).Contents (Elt F)),
    reshape main_v1436 main_v1437 rfl shapeCasts_S500000x2x2x2_S500000x8 ]

theorem valC2D1 (V : Valuation τ sig (Elt F)) :
    after (opsC2D1 (F := F)) V (no_index (Proc.devRef .tc main_v1437)) = ryD1Fn (V (Proc.devRef .tc main_v1410)) (((extractStridedSlice S500000x1 ![0, 1] · slices_S500000x9_S500000x1_0_1) : (⟨S500000x9, .f32⟩ : BufTy).Contents (Elt F) → (⟨S500000x1, .f32⟩ : BufTy).Contents (Elt F)) (V (Proc.devRef .tc main_v1382))) := by
  unfold opsC2D1
  after_results_simp
  rfl

noncomputable def wrC2D1 : List (Ref sig .tc) := [main_v1411, main_v1412, main_v1413, main_cst_99, main_v1414, main_v1415, main_v1416, main_v1417, main_v1418, main_v1419, main_v1420, main_v1421, main_v1422, main_v1423, main_v1424, main_v1425, main_v1426, main_v1427, main_v1428, main_v1429, main_v1430, main_v1431, main_v1432, main_v1433, main_v1434, main_v1435, main_v1436, main_v1437]

theorem subC2D1 : (opsC2D1 : List (HloOp τ sig (Elt F))).Forall fun op => op.bufs ⊆ tcRefs τ sig := by
  unfold opsC2D1
  exact ⟨unary_bufs_sub .., reshape_bufs_sub .., reshape_bufs_sub .., nullary_bufs_sub .., unary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC2D1 : ∀ op ∈ (opsC2D1 : List (HloOp τ sig (Elt F))), op.fresh = ∅ := by
  unfold opsC2D1
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl⟩

theorem keepC2D1 (V : Valuation τ sig (Elt F)) (r : Ref sig .tc) (hr : r ∉ wrC2D1) :
    after (opsC2D1 (F := F)) V (no_index (Proc.devRef .tc r)) = V (Proc.devRef .tc r) :=
  after_of_writes_sub _ V (W := wrC2D1) (by
    unfold opsC2D1 wrC2D1
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))⟩) hr

/-! ## Stretch C2D2 (operations 1565 … 1592, kind ryD2) -/

noncomputable def opsC2D2 : List (HloOp τ sig (Elt F)) :=
  [ unary main_v1382 main_v1438 ((extractStridedSlice S500000x1 ![0, 2] · slices_S500000x9_S500000x1_0_2) : (⟨S500000x9, .f32⟩ : BufTy).Contents (Elt F) → (⟨S500000x1, .f32⟩ : BufTy).Contents (Elt F)),
    reshape main_v1438 main_v1439 rfl shapeCasts_S500000x1_S500000,
    reshape main_v1437 main_v1440 rfl shapeCasts_S500000x8_S500000x1x2x4,
    nullary main_cst_100 (constant S_ .f32 0x3F000000#32),
    unary main_cst_100 main_v1441 (broadcastInDim S500000 ![] bcast_S_S500000 : (⟨S_, .f32⟩ : BufTy).Contents (Elt F) → (⟨S500000, .f32⟩ : BufTy).Contents (Elt F)),
    binary main_v1439 main_v1441 main_v1442 (mulf : (⟨S500000, .f32⟩ : BufTy).Contents (Elt F) → (⟨S500000, .f32⟩ : BufTy).Contents (Elt F) → (⟨S500000, .f32⟩ : BufTy).Contents (Elt F)),
    unary main_v1442 main_v1443 (Host.cos : (⟨S500000, .f32⟩ : BufTy).Contents (Elt F) → (⟨S500000, .f32⟩ : BufTy).Contents (Elt F)),
    unary main_v1443 main_v1444 (broadcastInDim S500000x1x1 ![0] bcast_S500000_S500000x1x1_0 : (⟨S500000, .f32⟩ : BufTy).Contents (Elt F) → (⟨S500000x1x1, .f32⟩ : BufTy).Contents (Elt F)),
    unary main_v1442 main_v1445 (Host.sin : (⟨S500000, .f32⟩ : BufTy).Contents (Elt F) → (⟨S500000, .f32⟩ : BufTy).Contents (Elt F)),
    unary main_v1445 main_v1446 (broadcastInDim S500000x1x1 ![0] bcast_S500000_S500000x1x1_0 : (⟨S500000, .f32⟩ : BufTy).Contents (Elt F) → (⟨S500000x1x1, .f32⟩ : BufTy).Contents (Elt F)),
    unary main_v1440 main_v1447 ((extractStridedSlice S500000x1x1x4 ![0, 0, 0, 0] · slices_S500000x1x2x4_S500000x1x1x4_0_0_0_0) : (⟨S500000x1x2x4, .f32⟩ : BufTy).Contents (Elt F) → (⟨S500000x1x1x4, .f32⟩ : BufTy).Contents (Elt F)),
    reshape main_v1447 main_v1448 rfl shapeCasts_S500000x1x1x4_S500000x1x4,
    unary main_v1440 main_v1449 ((extractStridedSlice S500000x1x1x4 ![0, 0, 1, 0] · slices_S500000x1x2x4_S500000x1x1x4_0_0_1_0) : (⟨S500000x1x2x4, .f32⟩ : BufTy).Contents (Elt F) → (⟨S500000x1x1x4, .f32⟩ : BufTy).Contents (Elt F)),
    reshape main_v1449 main_v1450 rfl shapeCasts_S500000x1x1x4_S500000x1x4,
    unary main_v1444 main_v1451 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v1451 main_v1448 main_v1452 (mulf : (⟨S500000x1x4, .f32⟩ : BufTy).Contents (Elt F) → (⟨S500000x1x4, .f32⟩ : BufTy).Contents (Elt F) → (⟨S500000x1x4, .f32⟩ : BufTy).Contents (Elt F)),
    unary main_v1446 main_v1453 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v1453 main_v1450 main_v1454 (mulf : (⟨S500000x1x4, .f32⟩ : BufTy).Contents (Elt F) → (⟨S500000x1x4, .f32⟩ : BufTy).Contents (Elt F) → (⟨S500000x1x4, .f32⟩ : BufTy).Contents (Elt F)),
    binary main_v1452 main_v1454 main_v1455 (subf : (⟨S500000x1x4, .f32⟩ : BufTy).Contents (Elt F) → (⟨S500000x1x4, .f32⟩ : BufTy).Contents (Elt F) → (⟨S500000x1x4, .f32⟩ : BufTy).Contents (Elt F)),
    unary main_v1446 main_v1456 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v1456 main_v1448 main_v1457 (mulf : (⟨S500000x1x4, .f32⟩ : BufTy).Contents (Elt F) → (⟨S500000x1x4, .f32⟩ : BufTy).Contents (Elt F) → (⟨S500000x1x4, .f32⟩ : BufTy).Contents (Elt F)),
    unary main_v1444 main_v1458 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v1458 main_v1450 main_v1459 (mulf : (⟨S500000x1x4, .f32⟩ : BufTy).Contents (Elt F) → (⟨S500000x1x4, .f32⟩ : BufTy).Contents (Elt F) → (⟨S500000x1x4, .f32⟩ : BufTy).Contents (Elt F)),
    binary main_v1457 main_v1459 main_v1460 (addf : (⟨S500000x1x4, .f32⟩ : BufTy).Contents (Elt F) → (⟨S500000x1x4, .f32⟩ : BufTy).Contents (Elt F) → (⟨S500000x1x4, .f32⟩ : BufTy).Contents (Elt F)),
    unary main_v1455 main_v1461 (broadcastInDim S500000x1x1x4 ![0, 1, 3] bcast_S500000x1x4_S500000x1x1x4_0_1_3 : (⟨S500000x1x4, .f32⟩ : BufTy).Contents (Elt F) → (⟨S500000x1x1x4, .f32⟩ : BufTy).Contents (Elt F)),
    unary main_v1460 main_v1462 (broadcastInDim S500000x1x1x4 ![0, 1, 3] bcast_S500000x1x4_S500000x1x1x4_0_1_3 : (⟨S500000x1x4, .f32⟩ : BufTy).Contents (Elt F) → (⟨S500000x1x1x4, .f32⟩ : BufTy).Contents (Elt F)),
    binary main_v1461 main_v1462 main_v1463 ((fun a b => concatenate S500000x1x2x4 2 [⟨S500000x1x1x4, a⟩, ⟨S500000x1x1x4, b⟩] concatenates_S500000x1x1x4_S500000x1x1x4_S500000x1x2x4_d2) : (⟨S500000x1x1x4, .f32⟩ : BufTy).Contents (Elt F) → (⟨S500000x1x1x4, .f32⟩ : BufTy).Contents (Elt F) → (⟨S500000x1x2x4, .f32⟩ : BufTy).Contents (Elt F)),
    reshape main_v1463 main_v1464 rfl shapeCasts_S500000x1x2x4_S500000x8 ]

theorem valC2D2 (V : Valuation τ sig (Elt F)) :
    after (opsC2D2 (F := F)) V (no_index (Proc.devRef .tc main_v1464)) = ryD2Fn (V (Proc.devRef .tc main_v1437)) (((extractStridedSlice S500000x1 ![0, 2] · slices_S500000x9_S500000x1_0_2) : (⟨S500000x9, .f32⟩ : BufTy).Contents (Elt F) → (⟨S500000x1, .f32⟩ : BufTy).Contents (Elt F)) (V (Proc.devRef .tc main_v1382))) := by
  unfold opsC2D2
  after_results_simp
  rfl

noncomputable def wrC2D2 : List (Ref sig .tc) := [main_v1438, main_v1439, main_v1440, main_cst_100, main_v1441, main_v1442, main_v1443, main_v1444, main_v1445, main_v1446, main_v1447, main_v1448, main_v1449, main_v1450, main_v1451, main_v1452, main_v1453, main_v1454, main_v1455, main_v1456, main_v1457, main_v1458, main_v1459, main_v1460, main_v1461, main_v1462, main_v1463, main_v1464]

theorem subC2D2 : (opsC2D2 : List (HloOp τ sig (Elt F))).Forall fun op => op.bufs ⊆ tcRefs τ sig := by
  unfold opsC2D2
  exact ⟨unary_bufs_sub .., reshape_bufs_sub .., reshape_bufs_sub .., nullary_bufs_sub .., unary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC2D2 : ∀ op ∈ (opsC2D2 : List (HloOp τ sig (Elt F))), op.fresh = ∅ := by
  unfold opsC2D2
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl⟩

theorem keepC2D2 (V : Valuation τ sig (Elt F)) (r : Ref sig .tc) (hr : r ∉ wrC2D2) :
    after (opsC2D2 (F := F)) V (no_index (Proc.devRef .tc r)) = V (Proc.devRef .tc r) :=
  after_of_writes_sub _ V (W := wrC2D2) (by
    unfold opsC2D2 wrC2D2
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))⟩) hr

end Cert.Quanv.Ref

end
-- ==== Proof.RefOps.C2D.lean ====
/- TABLE written by: bun scratch/gen_ref.js <unit> ops — stretches C2D3, C2D4, C2D5 of the reference's host program: per stretch the list of its operations, what it leaves
   in its result buffer as the kind's function of what it reads, and that it writes nothing else. -/
import proofs.«180459_j52956946760354_2_alg».proof.Proof.RefFns
import Idealize.ShloMosaic.Lib.StableHlo.Run

noncomputable section

namespace Cert.Quanv.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-! ## Stretch C2D3 (operations 1593 … 1620, kind ryD0) -/

noncomputable def opsC2D3 : List (HloOp τ sig (Elt F)) :=
  [ unary main_v1382 main_v1465 ((extractStridedSlice S500000x1 ![0, 3] · slices_S500000x9_S500000x1_0_3) : (⟨S500000x9, .f32⟩ : BufTy).Contents (Elt F) → (⟨S500000x1, .f32⟩ : BufTy).Contents (Elt F)),
    reshape main_v1465 main_v1466 rfl shapeCasts_S500000x1_S500000,
    reshape main_v1464 main_v1467 rfl shapeCasts_S500000x8_S500000x4x2x1,
    nullary main_cst_101 (constant S_ .f32 0x3F000000#32),
    unary main_cst_101 main_v1468 (broadcastInDim S500000 ![] bcast_S_S500000 : (⟨S_, .f32⟩ : BufTy).Contents (Elt F) → (⟨S500000, .f32⟩ : BufTy).Contents (Elt F)),
    binary main_v1466 main_v1468 main_v1469 (mulf : (⟨S500000, .f32⟩ : BufTy).Contents (Elt F) → (⟨S500000, .f32⟩ : BufTy).Contents (Elt F) → (⟨S500000, .f32⟩ : BufTy).Contents (Elt F)),
    unary main_v1469 main_v1470 (Host.cos : (⟨S500000, .f32⟩ : BufTy).Contents (Elt F) → (⟨S500000, .f32⟩ : BufTy).Contents (Elt F)),
    unary main_v1470 main_v1471 (broadcastInDim S500000x1x1 ![0] bcast_S500000_S500000x1x1_0 : (⟨S500000, .f32⟩ : BufTy).Contents (Elt F) → (⟨S500000x1x1, .f32⟩ : BufTy).Contents (Elt F)),
    unary main_v1469 main_v1472 (Host.sin : (⟨S500000, .f32⟩ : BufTy).Contents (Elt F) → (⟨S500000, .f32⟩ : BufTy).Contents (Elt F)),
    unary main_v1472 main_v1473 (broadcastInDim S500000x1x1 ![0] bcast_S500000_S500000x1x1_0 : (⟨S500000, .f32⟩ : BufTy).Contents (Elt F) → (⟨S500000x1x1, .f32⟩ : BufTy).Contents (Elt F)),
    unary main_v1467 main_v1474 ((extractStridedSlice S500000x4x1x1 ![0, 0, 0, 0] · slices_S500000x4x2x1_S500000x4x1x1_0_0_0_0) : (⟨S500000x4x2x1, .f32⟩ : BufTy).Contents (Elt F) → (⟨S500000x4x1x1, .f32⟩ : BufTy).Contents (Elt F)),
    reshape main_v1474 main_v1475 rfl shapeCasts_S500000x4x1x1_S500000x4x1,
    unary main_v1467 main_v1476 ((extractStridedSlice S500000x4x1x1 ![0, 0, 1, 0] · slices_S500000x4x2x1_S500000x4x1x1_0_0_1_0) : (⟨S500000x4x2x1, .f32⟩ : BufTy).Contents (Elt F) → (⟨S500000x4x1x1, .f32⟩ : BufTy).Contents (Elt F)),
    reshape main_v1476 main_v1477 rfl shapeCasts_S500000x4x1x1_S500000x4x1,
    unary main_v1471 main_v1478 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v1478 main_v1475 main_v1479 (mulf : (⟨S500000x4x1, .f32⟩ : BufTy).Contents (Elt F) → (⟨S500000x4x1, .f32⟩ : BufTy).Contents (Elt F) → (⟨S500000x4x1, .f32⟩ : BufTy).Contents (Elt F)),
    unary main_v1473 main_v1480 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v1480 main_v1477 main_v1481 (mulf : (⟨S500000x4x1, .f32⟩ : BufTy).Contents (Elt F) → (⟨S500000x4x1, .f32⟩ : BufTy).Contents (Elt F) → (⟨S500000x4x1, .f32⟩ : BufTy).Contents (Elt F)),
    binary main_v1479 main_v1481 main_v1482 (subf : (⟨S500000x4x1, .f32⟩ : BufTy).Contents (Elt F) → (⟨S500000x4x1, .f32⟩ : BufTy).Contents (Elt F) → (⟨S500000x4x1, .f32⟩ : BufTy).Contents (Elt F)),
    unary main_v1473 main_v1483 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v1483 main_v1475 main_v1484 (mulf : (⟨S500000x4x1, .f32⟩ : BufTy).Contents (Elt F) → (⟨S500000x4x1, .f32⟩ : BufTy).Contents (Elt F) → (⟨S500000x4x1, .f32⟩ : BufTy).Contents (Elt F)),
    unary main_v1471 main_v1485 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v1485 main_v1477 main_v1486 (mulf : (⟨S500000x4x1, .f32⟩ : BufTy).Contents (Elt F) → (⟨S500000x4x1, .f32⟩ : BufTy).Contents (Elt F) → (⟨S500000x4x1, .f32⟩ : BufTy).Contents (Elt F)),
    binary main_v1484 main_v1486 main_v1487 (addf : (⟨S500000x4x1, .f32⟩ : BufTy).Contents (Elt F) → (⟨S500000x4x1, .f32⟩ : BufTy).Contents (Elt F) → (⟨S500000x4x1, .f32⟩ : BufTy).Contents (Elt F)),
    unary main_v1482 main_v1488 (broadcastInDim S500000x4x1x1 ![0, 1, 3] bcast_S500000x4x1_S500000x4x1x1_0_1_3 : (⟨S500000x4x1, .f32⟩ : BufTy).Contents (Elt F) → (⟨S500000x4x1x1, .f32⟩ : BufTy).Contents (Elt F)),
    unary main_v1487 main_v1489 (broadcastInDim S500000x4x1x1 ![0, 1, 3] bcast_S500000x4x1_S500000x4x1x1_0_1_3 : (⟨S500000x4x1, .f32⟩ : BufTy).Contents (Elt F) → (⟨S500000x4x1x1, .f32⟩ : BufTy).Contents (Elt F)),
    binary main_v1488 main_v1489 main_v1490 ((fun a b => concatenate S500000x4x2x1 2 [⟨S500000x4x1x1, a⟩, ⟨S500000x4x1x1, b⟩] concatenates_S500000x4x1x1_S500000x4x1x1_S500000x4x2x1_d2) : (⟨S500000x4x1x1, .f32⟩ : BufTy).Contents (Elt F) → (⟨S500000x4x1x1, .f32⟩ : BufTy).Contents (Elt F) → (⟨S500000x4x2x1, .f32⟩ : BufTy).Contents (Elt F)),
    reshape main_v1490 main_v1491 rfl shapeCasts_S500000x4x2x1_S500000x8 ]

theorem valC2D3 (V : Valuation τ sig (Elt F)) :
    after (opsC2D3 (F := F)) V (no_index (Proc.devRef .tc main_v1491)) = ryD0Fn (V (Proc.devRef .tc main_v1464)) (((extractStridedSlice S500000x1 ![0, 3] · slices_S500000x9_S500000x1_0_3) : (⟨S500000x9, .f32⟩ : BufTy).Contents (Elt F) → (⟨S500000x1, .f32⟩ : BufTy).Contents (Elt F)) (V (Proc.devRef .tc main_v1382))) := by
  unfold opsC2D3
  after_results_simp
  rfl

noncomputable def wrC2D3 : List (Ref sig .tc) := [main_v1465, main_v1466, main_v1467, main_cst_101, main_v1468, main_v1469, main_v1470, main_v1471, main_v1472, main_v1473, main_v1474, main_v1475, main_v1476, main_v1477, main_v1478, main_v1479, main_v1480, main_v1481, main_v1482, main_v1483, main_v1484, main_v1485, main_v1486, main_v1487, main_v1488, main_v1489, main_v1490, main_v1491]

theorem subC2D3 : (opsC2D3 : List (HloOp τ sig (Elt F))).Forall fun op => op.bufs ⊆ tcRefs τ sig := by
  unfold opsC2D3
  exact ⟨unary_bufs_sub .., reshape_bufs_sub .., reshape_bufs_sub .., nullary_bufs_sub .., unary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC2D3 : ∀ op ∈ (opsC2D3 : List (HloOp τ sig (Elt F))), op.fresh = ∅ := by
  unfold opsC2D3
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl⟩

theorem keepC2D3 (V : Valuation τ sig (Elt F)) (r : Ref sig .tc) (hr : r ∉ wrC2D3) :
    after (opsC2D3 (F := F)) V (no_index (Proc.devRef .tc r)) = V (Proc.devRef .tc r) :=
  after_of_writes_sub _ V (W := wrC2D3) (by
    unfold opsC2D3 wrC2D3
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))⟩) hr

/-! ## Stretch C2D4 (operations 1621 … 1648, kind ryD1) -/

noncomputable def opsC2D4 : List (HloOp τ sig (Elt F)) :=
  [ unary main_v1382 main_v1492 ((extractStridedSlice S500000x1 ![0, 4] · slices_S500000x9_S500000x1_0_4) : (⟨S500000x9, .f32⟩ : BufTy).Contents (Elt F) → (⟨S500000x1, .f32⟩ : BufTy).Contents (Elt F)),
    reshape main_v1492 main_v1493 rfl shapeCasts_S500000x1_S500000,
    reshape main_v1491 main_v1494 rfl shapeCasts_S500000x8_S500000x2x2x2,
    nullary main_cst_102 (constant S_ .f32 0x3F000000#32),
    unary main_cst_102 main_v1495 (broadcastInDim S500000 ![] bcast_S_S500000 : (⟨S_, .f32⟩ : BufTy).Contents (Elt F) → (⟨S500000, .f32⟩ : BufTy).Contents (Elt F)),
    binary main_v1493 main_v1495 main_v1496 (mulf : (⟨S500000, .f32⟩ : BufTy).Contents (Elt F) → (⟨S500000, .f32⟩ : BufTy).Contents (Elt F) → (⟨S500000, .f32⟩ : BufTy).Contents (Elt F)),
    unary main_v1496 main_v1497 (Host.cos : (⟨S500000, .f32⟩ : BufTy).Contents (Elt F) → (⟨S500000, .f32⟩ : BufTy).Contents (Elt F)),
    unary main_v1497 main_v1498 (broadcastInDim S500000x1x1 ![0] bcast_S500000_S500000x1x1_0 : (⟨S500000, .f32⟩ : BufTy).Contents (Elt F) → (⟨S500000x1x1, .f32⟩ : BufTy).Contents (Elt F)),
    unary main_v1496 main_v1499 (Host.sin : (⟨S500000, .f32⟩ : BufTy).Contents (Elt F) → (⟨S500000, .f32⟩ : BufTy).Contents (Elt F)),
    unary main_v1499 main_v1500 (broadcastInDim S500000x1x1 ![0] bcast_S500000_S500000x1x1_0 : (⟨S500000, .f32⟩ : BufTy).Contents (Elt F) → (⟨S500000x1x1, .f32⟩ : BufTy).Contents (Elt F)),
    unary main_v1494 main_v1501 ((extractStridedSlice S500000x2x1x2 ![0, 0, 0, 0] · slices_S500000x2x2x2_S500000x2x1x2_0_0_0_0) : (⟨S500000x2x2x2, .f32⟩ : BufTy).Contents (Elt F) → (⟨S500000x2x1x2, .f32⟩ : BufTy).Contents (Elt F)),
    reshape main_v1501 main_v1502 rfl shapeCasts_S500000x2x1x2_S500000x2x2,
    unary main_v1494 main_v1503 ((extractStridedSlice S500000x2x1x2 ![0, 0, 1, 0] · slices_S500000x2x2x2_S500000x2x1x2_0_0_1_0) : (⟨S500000x2x2x2, .f32⟩ : BufTy).Contents (Elt F) → (⟨S500000x2x1x2, .f32⟩ : BufTy).Contents (Elt F)),
    reshape main_v1503 main_v1504 rfl shapeCasts_S500000x2x1x2_S500000x2x2,
    unary main_v1498 main_v1505 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v1505 main_v1502 main_v1506 (mulf : (⟨S500000x2x2, .f32⟩ : BufTy).Contents (Elt F) → (⟨S500000x2x2, .f32⟩ : BufTy).Contents (Elt F) → (⟨S500000x2x2, .f32⟩ : BufTy).Contents (Elt F)),
    unary main_v1500 main_v1507 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v1507 main_v1504 main_v1508 (mulf : (⟨S500000x2x2, .f32⟩ : BufTy).Contents (Elt F) → (⟨S500000x2x2, .f32⟩ : BufTy).Contents (Elt F) → (⟨S500000x2x2, .f32⟩ : BufTy).Contents (Elt F)),
    binary main_v1506 main_v1508 main_v1509 (subf : (⟨S500000x2x2, .f32⟩ : BufTy).Contents (Elt F) → (⟨S500000x2x2, .f32⟩ : BufTy).Contents (Elt F) → (⟨S500000x2x2, .f32⟩ : BufTy).Contents (Elt F)),
    unary main_v1500 main_v1510 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v1510 main_v1502 main_v1511 (mulf : (⟨S500000x2x2, .f32⟩ : BufTy).Contents (Elt F) → (⟨S500000x2x2, .f32⟩ : BufTy).Contents (Elt F) → (⟨S500000x2x2, .f32⟩ : BufTy).Contents (Elt F)),
    unary main_v1498 main_v1512 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v1512 main_v1504 main_v1513 (mulf : (⟨S500000x2x2, .f32⟩ : BufTy).Contents (Elt F) → (⟨S500000x2x2, .f32⟩ : BufTy).Contents (Elt F) → (⟨S500000x2x2, .f32⟩ : BufTy).Contents (Elt F)),
    binary main_v1511 main_v1513 main_v1514 (addf : (⟨S500000x2x2, .f32⟩ : BufTy).Contents (Elt F) → (⟨S500000x2x2, .f32⟩ : BufTy).Contents (Elt F) → (⟨S500000x2x2, .f32⟩ : BufTy).Contents (Elt F)),
    unary main_v1509 main_v1515 (broadcastInDim S500000x2x1x2 ![0, 1, 3] bcast_S500000x2x2_S500000x2x1x2_0_1_3 : (⟨S500000x2x2, .f32⟩ : BufTy).Contents (Elt F) → (⟨S500000x2x1x2, .f32⟩ : BufTy).Contents (Elt F)),
    unary main_v1514 main_v1516 (broadcastInDim S500000x2x1x2 ![0, 1, 3] bcast_S500000x2x2_S500000x2x1x2_0_1_3 : (⟨S500000x2x2, .f32⟩ : BufTy).Contents (Elt F) → (⟨S500000x2x1x2, .f32⟩ : BufTy).Contents (Elt F)),
    binary main_v1515 main_v1516 main_v1517 ((fun a b => concatenate S500000x2x2x2 2 [⟨S500000x2x1x2, a⟩, ⟨S500000x2x1x2, b⟩] concatenates_S500000x2x1x2_S500000x2x1x2_S500000x2x2x2_d2) : (⟨S500000x2x1x2, .f32⟩ : BufTy).Contents (Elt F) → (⟨S500000x2x1x2, .f32⟩ : BufTy).Contents (Elt F) → (⟨S500000x2x2x2, .f32⟩ : BufTy).Contents (Elt F)),
    reshape main_v1517 main_v1518 rfl shapeCasts_S500000x2x2x2_S500000x8 ]

theorem valC2D4 (V : Valuation τ sig (Elt F)) :
    after (opsC2D4 (F := F)) V (no_index (Proc.devRef .tc main_v1518)) = ryD1Fn (V (Proc.devRef .tc main_v1491)) (((extractStridedSlice S500000x1 ![0, 4] · slices_S500000x9_S500000x1_0_4) : (⟨S500000x9, .f32⟩ : BufTy).Contents (Elt F) → (⟨S500000x1, .f32⟩ : BufTy).Contents (Elt F)) (V (Proc.devRef .tc main_v1382))) := by
  unfold opsC2D4
  after_results_simp
  rfl

noncomputable def wrC2D4 : List (Ref sig .tc) := [main_v1492, main_v1493, main_v1494, main_cst_102, main_v1495, main_v1496, main_v1497, main_v1498, main_v1499, main_v1500, main_v1501, main_v1502, main_v1503, main_v1504, main_v1505, main_v1506, main_v1507, main_v1508, main_v1509, main_v1510, main_v1511, main_v1512, main_v1513, main_v1514, main_v1515, main_v1516, main_v1517, main_v1518]

theorem subC2D4 : (opsC2D4 : List (HloOp τ sig (Elt F))).Forall fun op => op.bufs ⊆ tcRefs τ sig := by
  unfold opsC2D4
  exact ⟨unary_bufs_sub .., reshape_bufs_sub .., reshape_bufs_sub .., nullary_bufs_sub .., unary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC2D4 : ∀ op ∈ (opsC2D4 : List (HloOp τ sig (Elt F))), op.fresh = ∅ := by
  unfold opsC2D4
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl⟩

theorem keepC2D4 (V : Valuation τ sig (Elt F)) (r : Ref sig .tc) (hr : r ∉ wrC2D4) :
    after (opsC2D4 (F := F)) V (no_index (Proc.devRef .tc r)) = V (Proc.devRef .tc r) :=
  after_of_writes_sub _ V (W := wrC2D4) (by
    unfold opsC2D4 wrC2D4
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))⟩) hr

/-! ## Stretch C2D5 (operations 1649 … 1676, kind ryD2) -/

noncomputable def opsC2D5 : List (HloOp τ sig (Elt F)) :=
  [ unary main_v1382 main_v1519 ((extractStridedSlice S500000x1 ![0, 5] · slices_S500000x9_S500000x1_0_5) : (⟨S500000x9, .f32⟩ : BufTy).Contents (Elt F) → (⟨S500000x1, .f32⟩ : BufTy).Contents (Elt F)),
    reshape main_v1519 main_v1520 rfl shapeCasts_S500000x1_S500000,
    reshape main_v1518 main_v1521 rfl shapeCasts_S500000x8_S500000x1x2x4,
    nullary main_cst_103 (constant S_ .f32 0x3F000000#32),
    unary main_cst_103 main_v1522 (broadcastInDim S500000 ![] bcast_S_S500000 : (⟨S_, .f32⟩ : BufTy).Contents (Elt F) → (⟨S500000, .f32⟩ : BufTy).Contents (Elt F)),
    binary main_v1520 main_v1522 main_v1523 (mulf : (⟨S500000, .f32⟩ : BufTy).Contents (Elt F) → (⟨S500000, .f32⟩ : BufTy).Contents (Elt F) → (⟨S500000, .f32⟩ : BufTy).Contents (Elt F)),
    unary main_v1523 main_v1524 (Host.cos : (⟨S500000, .f32⟩ : BufTy).Contents (Elt F) → (⟨S500000, .f32⟩ : BufTy).Contents (Elt F)),
    unary main_v1524 main_v1525 (broadcastInDim S500000x1x1 ![0] bcast_S500000_S500000x1x1_0 : (⟨S500000, .f32⟩ : BufTy).Contents (Elt F) → (⟨S500000x1x1, .f32⟩ : BufTy).Contents (Elt F)),
    unary main_v1523 main_v1526 (Host.sin : (⟨S500000, .f32⟩ : BufTy).Contents (Elt F) → (⟨S500000, .f32⟩ : BufTy).Contents (Elt F)),
    unary main_v1526 main_v1527 (broadcastInDim S500000x1x1 ![0] bcast_S500000_S500000x1x1_0 : (⟨S500000, .f32⟩ : BufTy).Contents (Elt F) → (⟨S500000x1x1, .f32⟩ : BufTy).Contents (Elt F)),
    unary main_v1521 main_v1528 ((extractStridedSlice S500000x1x1x4 ![0, 0, 0, 0] · slices_S500000x1x2x4_S500000x1x1x4_0_0_0_0) : (⟨S500000x1x2x4, .f32⟩ : BufTy).Contents (Elt F) → (⟨S500000x1x1x4, .f32⟩ : BufTy).Contents (Elt F)),
    reshape main_v1528 main_v1529 rfl shapeCasts_S500000x1x1x4_S500000x1x4,
    unary main_v1521 main_v1530 ((extractStridedSlice S500000x1x1x4 ![0, 0, 1, 0] · slices_S500000x1x2x4_S500000x1x1x4_0_0_1_0) : (⟨S500000x1x2x4, .f32⟩ : BufTy).Contents (Elt F) → (⟨S500000x1x1x4, .f32⟩ : BufTy).Contents (Elt F)),
    reshape main_v1530 main_v1531 rfl shapeCasts_S500000x1x1x4_S500000x1x4,
    unary main_v1525 main_v1532 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v1532 main_v1529 main_v1533 (mulf : (⟨S500000x1x4, .f32⟩ : BufTy).Contents (Elt F) → (⟨S500000x1x4, .f32⟩ : BufTy).Contents (Elt F) → (⟨S500000x1x4, .f32⟩ : BufTy).Contents (Elt F)),
    unary main_v1527 main_v1534 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v1534 main_v1531 main_v1535 (mulf : (⟨S500000x1x4, .f32⟩ : BufTy).Contents (Elt F) → (⟨S500000x1x4, .f32⟩ : BufTy).Contents (Elt F) → (⟨S500000x1x4, .f32⟩ : BufTy).Contents (Elt F)),
    binary main_v1533 main_v1535 main_v1536 (subf : (⟨S500000x1x4, .f32⟩ : BufTy).Contents (Elt F) → (⟨S500000x1x4, .f32⟩ : BufTy).Contents (Elt F) → (⟨S500000x1x4, .f32⟩ : BufTy).Contents (Elt F)),
    unary main_v1527 main_v1537 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v1537 main_v1529 main_v1538 (mulf : (⟨S500000x1x4, .f32⟩ : BufTy).Contents (Elt F) → (⟨S500000x1x4, .f32⟩ : BufTy).Contents (Elt F) → (⟨S500000x1x4, .f32⟩ : BufTy).Contents (Elt F)),
    unary main_v1525 main_v1539 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v1539 main_v1531 main_v1540 (mulf : (⟨S500000x1x4, .f32⟩ : BufTy).Contents (Elt F) → (⟨S500000x1x4, .f32⟩ : BufTy).Contents (Elt F) → (⟨S500000x1x4, .f32⟩ : BufTy).Contents (Elt F)),
    binary main_v1538 main_v1540 main_v1541 (addf : (⟨S500000x1x4, .f32⟩ : BufTy).Contents (Elt F) → (⟨S500000x1x4, .f32⟩ : BufTy).Contents (Elt F) → (⟨S500000x1x4, .f32⟩ : BufTy).Contents (Elt F)),
    unary main_v1536 main_v1542 (broadcastInDim S500000x1x1x4 ![0, 1, 3] bcast_S500000x1x4_S500000x1x1x4_0_1_3 : (⟨S500000x1x4, .f32⟩ : BufTy).Contents (Elt F) → (⟨S500000x1x1x4, .f32⟩ : BufTy).Contents (Elt F)),
    unary main_v1541 main_v1543 (broadcastInDim S500000x1x1x4 ![0, 1, 3] bcast_S500000x1x4_S500000x1x1x4_0_1_3 : (⟨S500000x1x4, .f32⟩ : BufTy).Contents (Elt F) → (⟨S500000x1x1x4, .f32⟩ : BufTy).Contents (Elt F)),
    binary main_v1542 main_v1543 main_v1544 ((fun a b => concatenate S500000x1x2x4 2 [⟨S500000x1x1x4, a⟩, ⟨S500000x1x1x4, b⟩] concatenates_S500000x1x1x4_S500000x1x1x4_S500000x1x2x4_d2) : (⟨S500000x1x1x4, .f32⟩ : BufTy).Contents (Elt F) → (⟨S500000x1x1x4, .f32⟩ : BufTy).Contents (Elt F) → (⟨S500000x1x2x4, .f32⟩ : BufTy).Contents (Elt F)),
    reshape main_v1544 main_v1545 rfl shapeCasts_S500000x1x2x4_S500000x8 ]

theorem valC2D5 (V : Valuation τ sig (Elt F)) :
    after (opsC2D5 (F := F)) V (no_index (Proc.devRef .tc main_v1545)) = ryD2Fn (V (Proc.devRef .tc main_v1518)) (((extractStridedSlice S500000x1 ![0, 5] · slices_S500000x9_S500000x1_0_5) : (⟨S500000x9, .f32⟩ : BufTy).Contents (Elt F) → (⟨S500000x1, .f32⟩ : BufTy).Contents (Elt F)) (V (Proc.devRef .tc main_v1382))) := by
  unfold opsC2D5
  after_results_simp
  rfl

noncomputable def wrC2D5 : List (Ref sig .tc) := [main_v1519, main_v1520, main_v1521, main_cst_103, main_v1522, main_v1523, main_v1524, main_v1525, main_v1526, main_v1527, main_v1528, main_v1529, main_v1530, main_v1531, main_v1532, main_v1533, main_v1534, main_v1535, main_v1536, main_v1537, main_v1538, main_v1539, main_v1540, main_v1541, main_v1542, main_v1543, main_v1544, main_v1545]

theorem subC2D5 : (opsC2D5 : List (HloOp τ sig (Elt F))).Forall fun op => op.bufs ⊆ tcRefs τ sig := by
  unfold opsC2D5
  exact ⟨unary_bufs_sub .., reshape_bufs_sub .., reshape_bufs_sub .., nullary_bufs_sub .., unary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC2D5 : ∀ op ∈ (opsC2D5 : List (HloOp τ sig (Elt F))), op.fresh = ∅ := by
  unfold opsC2D5
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl⟩

theorem keepC2D5 (V : Valuation τ sig (Elt F)) (r : Ref sig .tc) (hr : r ∉ wrC2D5) :
    after (opsC2D5 (F := F)) V (no_index (Proc.devRef .tc r)) = V (Proc.devRef .tc r) :=
  after_of_writes_sub _ V (W := wrC2D5) (by
    unfold opsC2D5 wrC2D5
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))⟩) hr

end Cert.Quanv.Ref

end
-- ==== Proof.RefOps.C2E.lean ====
/- TABLE written by: bun scratch/gen_ref.js <unit> ops — stretches C2D6, C2D7, C2D8 of the reference's host program: per stretch the list of its operations, what it leaves
   in its result buffer as the kind's function of what it reads, and that it writes nothing else. -/
import proofs.«180459_j52956946760354_2_alg».proof.Proof.RefFns
import Idealize.ShloMosaic.Lib.StableHlo.Run

noncomputable section

namespace Cert.Quanv.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-! ## Stretch C2D6 (operations 1677 … 1704, kind ryD0) -/

noncomputable def opsC2D6 : List (HloOp τ sig (Elt F)) :=
  [ unary main_v1382 main_v1546 ((extractStridedSlice S500000x1 ![0, 6] · slices_S500000x9_S500000x1_0_6) : (⟨S500000x9, .f32⟩ : BufTy).Contents (Elt F) → (⟨S500000x1, .f32⟩ : BufTy).Contents (Elt F)),
    reshape main_v1546 main_v1547 rfl shapeCasts_S500000x1_S500000,
    reshape main_v1545 main_v1548 rfl shapeCasts_S500000x8_S500000x4x2x1,
    nullary main_cst_104 (constant S_ .f32 0x3F000000#32),
    unary main_cst_104 main_v1549 (broadcastInDim S500000 ![] bcast_S_S500000 : (⟨S_, .f32⟩ : BufTy).Contents (Elt F) → (⟨S500000, .f32⟩ : BufTy).Contents (Elt F)),
    binary main_v1547 main_v1549 main_v1550 (mulf : (⟨S500000, .f32⟩ : BufTy).Contents (Elt F) → (⟨S500000, .f32⟩ : BufTy).Contents (Elt F) → (⟨S500000, .f32⟩ : BufTy).Contents (Elt F)),
    unary main_v1550 main_v1551 (Host.cos : (⟨S500000, .f32⟩ : BufTy).Contents (Elt F) → (⟨S500000, .f32⟩ : BufTy).Contents (Elt F)),
    unary main_v1551 main_v1552 (broadcastInDim S500000x1x1 ![0] bcast_S500000_S500000x1x1_0 : (⟨S500000, .f32⟩ : BufTy).Contents (Elt F) → (⟨S500000x1x1, .f32⟩ : BufTy).Contents (Elt F)),
    unary main_v1550 main_v1553 (Host.sin : (⟨S500000, .f32⟩ : BufTy).Contents (Elt F) → (⟨S500000, .f32⟩ : BufTy).Contents (Elt F)),
    unary main_v1553 main_v1554 (broadcastInDim S500000x1x1 ![0] bcast_S500000_S500000x1x1_0 : (⟨S500000, .f32⟩ : BufTy).Contents (Elt F) → (⟨S500000x1x1, .f32⟩ : BufTy).Contents (Elt F)),
    unary main_v1548 main_v1555 ((extractStridedSlice S500000x4x1x1 ![0, 0, 0, 0] · slices_S500000x4x2x1_S500000x4x1x1_0_0_0_0) : (⟨S500000x4x2x1, .f32⟩ : BufTy).Contents (Elt F) → (⟨S500000x4x1x1, .f32⟩ : BufTy).Contents (Elt F)),
    reshape main_v1555 main_v1556 rfl shapeCasts_S500000x4x1x1_S500000x4x1,
    unary main_v1548 main_v1557 ((extractStridedSlice S500000x4x1x1 ![0, 0, 1, 0] · slices_S500000x4x2x1_S500000x4x1x1_0_0_1_0) : (⟨S500000x4x2x1, .f32⟩ : BufTy).Contents (Elt F) → (⟨S500000x4x1x1, .f32⟩ : BufTy).Contents (Elt F)),
    reshape main_v1557 main_v1558 rfl shapeCasts_S500000x4x1x1_S500000x4x1,
    unary main_v1552 main_v1559 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v1559 main_v1556 main_v1560 (mulf : (⟨S500000x4x1, .f32⟩ : BufTy).Contents (Elt F) → (⟨S500000x4x1, .f32⟩ : BufTy).Contents (Elt F) → (⟨S500000x4x1, .f32⟩ : BufTy).Contents (Elt F)),
    unary main_v1554 main_v1561 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v1561 main_v1558 main_v1562 (mulf : (⟨S500000x4x1, .f32⟩ : BufTy).Contents (Elt F) → (⟨S500000x4x1, .f32⟩ : BufTy).Contents (Elt F) → (⟨S500000x4x1, .f32⟩ : BufTy).Contents (Elt F)),
    binary main_v1560 main_v1562 main_v1563 (subf : (⟨S500000x4x1, .f32⟩ : BufTy).Contents (Elt F) → (⟨S500000x4x1, .f32⟩ : BufTy).Contents (Elt F) → (⟨S500000x4x1, .f32⟩ : BufTy).Contents (Elt F)),
    unary main_v1554 main_v1564 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v1564 main_v1556 main_v1565 (mulf : (⟨S500000x4x1, .f32⟩ : BufTy).Contents (Elt F) → (⟨S500000x4x1, .f32⟩ : BufTy).Contents (Elt F) → (⟨S500000x4x1, .f32⟩ : BufTy).Contents (Elt F)),
    unary main_v1552 main_v1566 (broadcastInDim S500000x4x1 ![0, 1, 2] bcast_S500000x1x1_S500000x4x1_0_1_2 : (⟨S500000x1x1, .f32⟩ : BufTy).Contents (Elt F) → (⟨S500000x4x1, .f32⟩ : BufTy).Contents (Elt F)),
    binary main_v1566 main_v1558 main_v1567 (mulf : (⟨S500000x4x1, .f32⟩ : BufTy).Contents (Elt F) → (⟨S500000x4x1, .f32⟩ : BufTy).Contents (Elt F) → (⟨S500000x4x1, .f32⟩ : BufTy).Contents (Elt F)),
    binary main_v1565 main_v1567 main_v1568 (addf : (⟨S500000x4x1, .f32⟩ : BufTy).Contents (Elt F) → (⟨S500000x4x1, .f32⟩ : BufTy).Contents (Elt F) → (⟨S500000x4x1, .f32⟩ : BufTy).Contents (Elt F)),
    unary main_v1563 main_v1569 (broadcastInDim S500000x4x1x1 ![0, 1, 3] bcast_S500000x4x1_S500000x4x1x1_0_1_3 : (⟨S500000x4x1, .f32⟩ : BufTy).Contents (Elt F) → (⟨S500000x4x1x1, .f32⟩ : BufTy).Contents (Elt F)),
    unary main_v1568 main_v1570 (broadcastInDim S500000x4x1x1 ![0, 1, 3] bcast_S500000x4x1_S500000x4x1x1_0_1_3 : (⟨S500000x4x1, .f32⟩ : BufTy).Contents (Elt F) → (⟨S500000x4x1x1, .f32⟩ : BufTy).Contents (Elt F)),
    binary main_v1569 main_v1570 main_v1571 ((fun a b => concatenate S500000x4x2x1 2 [⟨S500000x4x1x1, a⟩, ⟨S500000x4x1x1, b⟩] concatenates_S500000x4x1x1_S500000x4x1x1_S500000x4x2x1_d2) : (⟨S500000x4x1x1, .f32⟩ : BufTy).Contents (Elt F) → (⟨S500000x4x1x1, .f32⟩ : BufTy).Contents (Elt F) → (⟨S500000x4x2x1, .f32⟩ : BufTy).Contents (Elt F)),
    reshape main_v1571 main_v1572 rfl shapeCasts_S500000x4x2x1_S500000x8 ]

theorem valC2D6 (V : Valuation τ sig (Elt F)) :
    after (opsC2D6 (F := F)) V (no_index (Proc.devRef .tc main_v1572)) = ryD0Fn (V (Proc.devRef .tc main_v1545)) (((extractStridedSlice S500000x1 ![0, 6] · slices_S500000x9_S500000x1_0_6) : (⟨S500000x9, .f32⟩ : BufTy).Contents (Elt F) → (⟨S500000x1, .f32⟩ : BufTy).Contents (Elt F)) (V (Proc.devRef .tc main_v1382))) := by
  unfold opsC2D6
  after_results_simp
  rfl

noncomputable def wrC2D6 : List (Ref sig .tc) := [main_v1546, main_v1547, main_v1548, main_cst_104, main_v1549, main_v1550, main_v1551, main_v1552, main_v1553, main_v1554, main_v1555, main_v1556, main_v1557, main_v1558, main_v1559, main_v1560, main_v1561, main_v1562, main_v1563, main_v1564, main_v1565, main_v1566, main_v1567, main_v1568, main_v1569, main_v1570, main_v1571, main_v1572]

theorem subC2D6 : (opsC2D6 : List (HloOp τ sig (Elt F))).Forall fun op => op.bufs ⊆ tcRefs τ sig := by
  unfold opsC2D6
  exact ⟨unary_bufs_sub .., reshape_bufs_sub .., reshape_bufs_sub .., nullary_bufs_sub .., unary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC2D6 : ∀ op ∈ (opsC2D6 : List (HloOp τ sig (Elt F))), op.fresh = ∅ := by
  unfold opsC2D6
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl⟩

theorem keepC2D6 (V : Valuation τ sig (Elt F)) (r : Ref sig .tc) (hr : r ∉ wrC2D6) :
    after (opsC2D6 (F := F)) V (no_index (Proc.devRef .tc r)) = V (Proc.devRef .tc r) :=
  after_of_writes_sub _ V (W := wrC2D6) (by
    unfold opsC2D6 wrC2D6
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))⟩) hr

/-! ## Stretch C2D7 (operations 1705 … 1732, kind ryD1) -/

noncomputable def opsC2D7 : List (HloOp τ sig (Elt F)) :=
  [ unary main_v1382 main_v1573 ((extractStridedSlice S500000x1 ![0, 7] · slices_S500000x9_S500000x1_0_7) : (⟨S500000x9, .f32⟩ : BufTy).Contents (Elt F) → (⟨S500000x1, .f32⟩ : BufTy).Contents (Elt F)),
    reshape main_v1573 main_v1574 rfl shapeCasts_S500000x1_S500000,
    reshape main_v1572 main_v1575 rfl shapeCasts_S500000x8_S500000x2x2x2,
    nullary main_cst_105 (constant S_ .f32 0x3F000000#32),
    unary main_cst_105 main_v1576 (broadcastInDim S500000 ![] bcast_S_S500000 : (⟨S_, .f32⟩ : BufTy).Contents (Elt F) → (⟨S500000, .f32⟩ : BufTy).Contents (Elt F)),
    binary main_v1574 main_v1576 main_v1577 (mulf : (⟨S500000, .f32⟩ : BufTy).Contents (Elt F) → (⟨S500000, .f32⟩ : BufTy).Contents (Elt F) → (⟨S500000, .f32⟩ : BufTy).Contents (Elt F)),
    unary main_v1577 main_v1578 (Host.cos : (⟨S500000, .f32⟩ : BufTy).Contents (Elt F) → (⟨S500000, .f32⟩ : BufTy).Contents (Elt F)),
    unary main_v1578 main_v1579 (broadcastInDim S500000x1x1 ![0] bcast_S500000_S500000x1x1_0 : (⟨S500000, .f32⟩ : BufTy).Contents (Elt F) → (⟨S500000x1x1, .f32⟩ : BufTy).Contents (Elt F)),
    unary main_v1577 main_v1580 (Host.sin : (⟨S500000, .f32⟩ : BufTy).Contents (Elt F) → (⟨S500000, .f32⟩ : BufTy).Contents (Elt F)),
    unary main_v1580 main_v1581 (broadcastInDim S500000x1x1 ![0] bcast_S500000_S500000x1x1_0 : (⟨S500000, .f32⟩ : BufTy).Contents (Elt F) → (⟨S500000x1x1, .f32⟩ : BufTy).Contents (Elt F)),
    unary main_v1575 main_v1582 ((extractStridedSlice S500000x2x1x2 ![0, 0, 0, 0] · slices_S500000x2x2x2_S500000x2x1x2_0_0_0_0) : (⟨S500000x2x2x2, .f32⟩ : BufTy).Contents (Elt F) → (⟨S500000x2x1x2, .f32⟩ : BufTy).Contents (Elt F)),
    reshape main_v1582 main_v1583 rfl shapeCasts_S500000x2x1x2_S500000x2x2,
    unary main_v1575 main_v1584 ((extractStridedSlice S500000x2x1x2 ![0, 0, 1, 0] · slices_S500000x2x2x2_S500000x2x1x2_0_0_1_0) : (⟨S500000x2x2x2, .f32⟩ : BufTy).Contents (Elt F) → (⟨S500000x2x1x2, .f32⟩ : BufTy).Contents (Elt F)),
    reshape main_v1584 main_v1585 rfl shapeCasts_S500000x2x1x2_S500000x2x2,
    unary main_v1579 main_v1586 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v1586 main_v1583 main_v1587 (mulf : (⟨S500000x2x2, .f32⟩ : BufTy).Contents (Elt F) → (⟨S500000x2x2, .f32⟩ : BufTy).Contents (Elt F) → (⟨S500000x2x2, .f32⟩ : BufTy).Contents (Elt F)),
    unary main_v1581 main_v1588 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v1588 main_v1585 main_v1589 (mulf : (⟨S500000x2x2, .f32⟩ : BufTy).Contents (Elt F) → (⟨S500000x2x2, .f32⟩ : BufTy).Contents (Elt F) → (⟨S500000x2x2, .f32⟩ : BufTy).Contents (Elt F)),
    binary main_v1587 main_v1589 main_v1590 (subf : (⟨S500000x2x2, .f32⟩ : BufTy).Contents (Elt F) → (⟨S500000x2x2, .f32⟩ : BufTy).Contents (Elt F) → (⟨S500000x2x2, .f32⟩ : BufTy).Contents (Elt F)),
    unary main_v1581 main_v1591 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v1591 main_v1583 main_v1592 (mulf : (⟨S500000x2x2, .f32⟩ : BufTy).Contents (Elt F) → (⟨S500000x2x2, .f32⟩ : BufTy).Contents (Elt F) → (⟨S500000x2x2, .f32⟩ : BufTy).Contents (Elt F)),
    unary main_v1579 main_v1593 (broadcastInDim S500000x2x2 ![0, 1, 2] bcast_S500000x1x1_S500000x2x2_0_1_2 : (⟨S500000x1x1, .f32⟩ : BufTy).Contents (Elt F) → (⟨S500000x2x2, .f32⟩ : BufTy).Contents (Elt F)),
    binary main_v1593 main_v1585 main_v1594 (mulf : (⟨S500000x2x2, .f32⟩ : BufTy).Contents (Elt F) → (⟨S500000x2x2, .f32⟩ : BufTy).Contents (Elt F) → (⟨S500000x2x2, .f32⟩ : BufTy).Contents (Elt F)),
    binary main_v1592 main_v1594 main_v1595 (addf : (⟨S500000x2x2, .f32⟩ : BufTy).Contents (Elt F) → (⟨S500000x2x2, .f32⟩ : BufTy).Contents (Elt F) → (⟨S500000x2x2, .f32⟩ : BufTy).Contents (Elt F)),
    unary main_v1590 main_v1596 (broadcastInDim S500000x2x1x2 ![0, 1, 3] bcast_S500000x2x2_S500000x2x1x2_0_1_3 : (⟨S500000x2x2, .f32⟩ : BufTy).Contents (Elt F) → (⟨S500000x2x1x2, .f32⟩ : BufTy).Contents (Elt F)),
    unary main_v1595 main_v1597 (broadcastInDim S500000x2x1x2 ![0, 1, 3] bcast_S500000x2x2_S500000x2x1x2_0_1_3 : (⟨S500000x2x2, .f32⟩ : BufTy).Contents (Elt F) → (⟨S500000x2x1x2, .f32⟩ : BufTy).Contents (Elt F)),
    binary main_v1596 main_v1597 main_v1598 ((fun a b => concatenate S500000x2x2x2 2 [⟨S500000x2x1x2, a⟩, ⟨S500000x2x1x2, b⟩] concatenates_S500000x2x1x2_S500000x2x1x2_S500000x2x2x2_d2) : (⟨S500000x2x1x2, .f32⟩ : BufTy).Contents (Elt F) → (⟨S500000x2x1x2, .f32⟩ : BufTy).Contents (Elt F) → (⟨S500000x2x2x2, .f32⟩ : BufTy).Contents (Elt F)),
    reshape main_v1598 main_v1599 rfl shapeCasts_S500000x2x2x2_S500000x8 ]

theorem valC2D7 (V : Valuation τ sig (Elt F)) :
    after (opsC2D7 (F := F)) V (no_index (Proc.devRef .tc main_v1599)) = ryD1Fn (V (Proc.devRef .tc main_v1572)) (((extractStridedSlice S500000x1 ![0, 7] · slices_S500000x9_S500000x1_0_7) : (⟨S500000x9, .f32⟩ : BufTy).Contents (Elt F) → (⟨S500000x1, .f32⟩ : BufTy).Contents (Elt F)) (V (Proc.devRef .tc main_v1382))) := by
  unfold opsC2D7
  after_results_simp
  rfl

noncomputable def wrC2D7 : List (Ref sig .tc) := [main_v1573, main_v1574, main_v1575, main_cst_105, main_v1576, main_v1577, main_v1578, main_v1579, main_v1580, main_v1581, main_v1582, main_v1583, main_v1584, main_v1585, main_v1586, main_v1587, main_v1588, main_v1589, main_v1590, main_v1591, main_v1592, main_v1593, main_v1594, main_v1595, main_v1596, main_v1597, main_v1598, main_v1599]

theorem subC2D7 : (opsC2D7 : List (HloOp τ sig (Elt F))).Forall fun op => op.bufs ⊆ tcRefs τ sig := by
  unfold opsC2D7
  exact ⟨unary_bufs_sub .., reshape_bufs_sub .., reshape_bufs_sub .., nullary_bufs_sub .., unary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC2D7 : ∀ op ∈ (opsC2D7 : List (HloOp τ sig (Elt F))), op.fresh = ∅ := by
  unfold opsC2D7
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl⟩

theorem keepC2D7 (V : Valuation τ sig (Elt F)) (r : Ref sig .tc) (hr : r ∉ wrC2D7) :
    after (opsC2D7 (F := F)) V (no_index (Proc.devRef .tc r)) = V (Proc.devRef .tc r) :=
  after_of_writes_sub _ V (W := wrC2D7) (by
    unfold opsC2D7 wrC2D7
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))⟩) hr

/-! ## Stretch C2D8 (operations 1733 … 1760, kind ryD2) -/

noncomputable def opsC2D8 : List (HloOp τ sig (Elt F)) :=
  [ unary main_v1382 main_v1600 ((extractStridedSlice S500000x1 ![0, 8] · slices_S500000x9_S500000x1_0_8) : (⟨S500000x9, .f32⟩ : BufTy).Contents (Elt F) → (⟨S500000x1, .f32⟩ : BufTy).Contents (Elt F)),
    reshape main_v1600 main_v1601 rfl shapeCasts_S500000x1_S500000,
    reshape main_v1599 main_v1602 rfl shapeCasts_S500000x8_S500000x1x2x4,
    nullary main_cst_106 (constant S_ .f32 0x3F000000#32),
    unary main_cst_106 main_v1603 (broadcastInDim S500000 ![] bcast_S_S500000 : (⟨S_, .f32⟩ : BufTy).Contents (Elt F) → (⟨S500000, .f32⟩ : BufTy).Contents (Elt F)),
    binary main_v1601 main_v1603 main_v1604 (mulf : (⟨S500000, .f32⟩ : BufTy).Contents (Elt F) → (⟨S500000, .f32⟩ : BufTy).Contents (Elt F) → (⟨S500000, .f32⟩ : BufTy).Contents (Elt F)),
    unary main_v1604 main_v1605 (Host.cos : (⟨S500000, .f32⟩ : BufTy).Contents (Elt F) → (⟨S500000, .f32⟩ : BufTy).Contents (Elt F)),
    unary main_v1605 main_v1606 (broadcastInDim S500000x1x1 ![0] bcast_S500000_S500000x1x1_0 : (⟨S500000, .f32⟩ : BufTy).Contents (Elt F) → (⟨S500000x1x1, .f32⟩ : BufTy).Contents (Elt F)),
    unary main_v1604 main_v1607 (Host.sin : (⟨S500000, .f32⟩ : BufTy).Contents (Elt F) → (⟨S500000, .f32⟩ : BufTy).Contents (Elt F)),
    unary main_v1607 main_v1608 (broadcastInDim S500000x1x1 ![0] bcast_S500000_S500000x1x1_0 : (⟨S500000, .f32⟩ : BufTy).Contents (Elt F) → (⟨S500000x1x1, .f32⟩ : BufTy).Contents (Elt F)),
    unary main_v1602 main_v1609 ((extractStridedSlice S500000x1x1x4 ![0, 0, 0, 0] · slices_S500000x1x2x4_S500000x1x1x4_0_0_0_0) : (⟨S500000x1x2x4, .f32⟩ : BufTy).Contents (Elt F) → (⟨S500000x1x1x4, .f32⟩ : BufTy).Contents (Elt F)),
    reshape main_v1609 main_v1610 rfl shapeCasts_S500000x1x1x4_S500000x1x4,
    unary main_v1602 main_v1611 ((extractStridedSlice S500000x1x1x4 ![0, 0, 1, 0] · slices_S500000x1x2x4_S500000x1x1x4_0_0_1_0) : (⟨S500000x1x2x4, .f32⟩ : BufTy).Contents (Elt F) → (⟨S500000x1x1x4, .f32⟩ : BufTy).Contents (Elt F)),
    reshape main_v1611 main_v1612 rfl shapeCasts_S500000x1x1x4_S500000x1x4,
    unary main_v1606 main_v1613 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v1613 main_v1610 main_v1614 (mulf : (⟨S500000x1x4, .f32⟩ : BufTy).Contents (Elt F) → (⟨S500000x1x4, .f32⟩ : BufTy).Contents (Elt F) → (⟨S500000x1x4, .f32⟩ : BufTy).Contents (Elt F)),
    unary main_v1608 main_v1615 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v1615 main_v1612 main_v1616 (mulf : (⟨S500000x1x4, .f32⟩ : BufTy).Contents (Elt F) → (⟨S500000x1x4, .f32⟩ : BufTy).Contents (Elt F) → (⟨S500000x1x4, .f32⟩ : BufTy).Contents (Elt F)),
    binary main_v1614 main_v1616 main_v1617 (subf : (⟨S500000x1x4, .f32⟩ : BufTy).Contents (Elt F) → (⟨S500000x1x4, .f32⟩ : BufTy).Contents (Elt F) → (⟨S500000x1x4, .f32⟩ : BufTy).Contents (Elt F)),
    unary main_v1608 main_v1618 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v1618 main_v1610 main_v1619 (mulf : (⟨S500000x1x4, .f32⟩ : BufTy).Contents (Elt F) → (⟨S500000x1x4, .f32⟩ : BufTy).Contents (Elt F) → (⟨S500000x1x4, .f32⟩ : BufTy).Contents (Elt F)),
    unary main_v1606 main_v1620 (broadcastInDim S500000x1x4 ![0, 1, 2] bcast_S500000x1x1_S500000x1x4_0_1_2 : (⟨S500000x1x1, .f32⟩ : BufTy).Contents (Elt F) → (⟨S500000x1x4, .f32⟩ : BufTy).Contents (Elt F)),
    binary main_v1620 main_v1612 main_v1621 (mulf : (⟨S500000x1x4, .f32⟩ : BufTy).Contents (Elt F) → (⟨S500000x1x4, .f32⟩ : BufTy).Contents (Elt F) → (⟨S500000x1x4, .f32⟩ : BufTy).Contents (Elt F)),
    binary main_v1619 main_v1621 main_v1622 (addf : (⟨S500000x1x4, .f32⟩ : BufTy).Contents (Elt F) → (⟨S500000x1x4, .f32⟩ : BufTy).Contents (Elt F) → (⟨S500000x1x4, .f32⟩ : BufTy).Contents (Elt F)),
    unary main_v1617 main_v1623 (broadcastInDim S500000x1x1x4 ![0, 1, 3] bcast_S500000x1x4_S500000x1x1x4_0_1_3 : (⟨S500000x1x4, .f32⟩ : BufTy).Contents (Elt F) → (⟨S500000x1x1x4, .f32⟩ : BufTy).Contents (Elt F)),
    unary main_v1622 main_v1624 (broadcastInDim S500000x1x1x4 ![0, 1, 3] bcast_S500000x1x4_S500000x1x1x4_0_1_3 : (⟨S500000x1x4, .f32⟩ : BufTy).Contents (Elt F) → (⟨S500000x1x1x4, .f32⟩ : BufTy).Contents (Elt F)),
    binary main_v1623 main_v1624 main_v1625 ((fun a b => concatenate S500000x1x2x4 2 [⟨S500000x1x1x4, a⟩, ⟨S500000x1x1x4, b⟩] concatenates_S500000x1x1x4_S500000x1x1x4_S500000x1x2x4_d2) : (⟨S500000x1x1x4, .f32⟩ : BufTy).Contents (Elt F) → (⟨S500000x1x1x4, .f32⟩ : BufTy).Contents (Elt F) → (⟨S500000x1x2x4, .f32⟩ : BufTy).Contents (Elt F)),
    reshape main_v1625 main_v1626 rfl shapeCasts_S500000x1x2x4_S500000x8 ]

theorem valC2D8 (V : Valuation τ sig (Elt F)) :
    after (opsC2D8 (F := F)) V (no_index (Proc.devRef .tc main_v1626)) = ryD2Fn (V (Proc.devRef .tc main_v1599)) (((extractStridedSlice S500000x1 ![0, 8] · slices_S500000x9_S500000x1_0_8) : (⟨S500000x9, .f32⟩ : BufTy).Contents (Elt F) → (⟨S500000x1, .f32⟩ : BufTy).Contents (Elt F)) (V (Proc.devRef .tc main_v1382))) := by
  unfold opsC2D8
  after_results_simp
  rfl

noncomputable def wrC2D8 : List (Ref sig .tc) := [main_v1600, main_v1601, main_v1602, main_cst_106, main_v1603, main_v1604, main_v1605, main_v1606, main_v1607, main_v1608, main_v1609, main_v1610, main_v1611, main_v1612, main_v1613, main_v1614, main_v1615, main_v1616, main_v1617, main_v1618, main_v1619, main_v1620, main_v1621, main_v1622, main_v1623, main_v1624, main_v1625, main_v1626]

theorem subC2D8 : (opsC2D8 : List (HloOp τ sig (Elt F))).Forall fun op => op.bufs ⊆ tcRefs τ sig := by
  unfold opsC2D8
  exact ⟨unary_bufs_sub .., reshape_bufs_sub .., reshape_bufs_sub .., nullary_bufs_sub .., unary_bufs_sub .., binary_bufs_sub .., unary_bufs_sub .., unary_bufs_sub .., unary_bufs_sub .., unary_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub ..⟩

theorem freshC2D8 : ∀ op ∈ (opsC2D8 : List (HloOp τ sig (Elt F))), op.fresh = ∅ := by
  unfold opsC2D8
  exact List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl⟩

theorem keepC2D8 (V : Valuation τ sig (Elt F)) (r : Ref sig .tc) (hr : r ∉ wrC2D8) :
    after (opsC2D8 (F := F)) V (no_index (Proc.devRef .tc r)) = V (Proc.devRef .tc r) :=
  after_of_writes_sub _ V (W := wrC2D8) (by
    unfold opsC2D8 wrC2D8
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))⟩) hr

end Cert.Quanv.Ref

end
-- ==== Proof.RefOps.C2F.lean ====
/- TABLE written by: bun scratch/gen_ref.js <unit> ops — stretches C2DX01, C2DX12, C2Tail of the reference's host program: per stretch the list of its operations, what it leaves
   in its result buffer as the kind's function of what it reads, and that it writes nothing else. -/
import proofs.«180459_j52956946760354_2_alg».proof.Proof.RefFns
import Idealize.ShloMosaic.Lib.StableHlo.Run

noncomputable section

namespace Cert.Quanv.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-! ## Stretch C2DX01 (operations 1761 … 1780, kind cxDa) -/

noncomputable def opsC2DX01 : List (HloOp τ sig (Elt F)) :=
  [ nullary main_v1627 (iotaInDim S8 32 0),
    nullary main_c_107 (constantI S_ 32 0#32),
    unary main_c_107 main_v1628 (broadcastInDim S8 ![] bcast_S_S8 : (⟨S_, .i32⟩ : BufTy).Contents (Elt F) → (⟨S8, .i32⟩ : BufTy).Contents (Elt F)),
    binary main_v1627 main_v1628 main_v1629 (Host.shrsi : (⟨S8, .i32⟩ : BufTy).Contents (Elt F) → (⟨S8, .i32⟩ : BufTy).Contents (Elt F) → (⟨S8, .i32⟩ : BufTy).Contents (Elt F)),
    nullary main_c_108 (constantI S_ 32 1#32),
    unary main_c_108 main_v1630 (broadcastInDim S8 ![] bcast_S_S8 : (⟨S_, .i32⟩ : BufTy).Contents (Elt F) → (⟨S8, .i32⟩ : BufTy).Contents (Elt F)),
    binary main_v1629 main_v1630 main_v1631 (andi : (⟨S8, .i32⟩ : BufTy).Contents (Elt F) → (⟨S8, .i32⟩ : BufTy).Contents (Elt F) → (⟨S8, .i32⟩ : BufTy).Contents (Elt F)),
    nullary main_c_109 (constantI S_ 32 1#32),
    unary main_c_109 main_v1632 (broadcastInDim S8 ![] bcast_S_S8 : (⟨S_, .i32⟩ : BufTy).Contents (Elt F) → (⟨S8, .i32⟩ : BufTy).Contents (Elt F)),
    binary main_v1631 main_v1632 main_v1633 (Host.shli : (⟨S8, .i32⟩ : BufTy).Contents (Elt F) → (⟨S8, .i32⟩ : BufTy).Contents (Elt F) → (⟨S8, .i32⟩ : BufTy).Contents (Elt F)),
    binary main_v1627 main_v1633 main_v1634 (xori : (⟨S8, .i32⟩ : BufTy).Contents (Elt F) → (⟨S8, .i32⟩ : BufTy).Contents (Elt F) → (⟨S8, .i32⟩ : BufTy).Contents (Elt F)),
    nullary main_c_110 (constantI S_ 32 0#32),
    unary main_c_110 main_v1635 (broadcastInDim S8 ![] bcast_S_S8 : (⟨S_, .i32⟩ : BufTy).Contents (Elt F) → (⟨S8, .i32⟩ : BufTy).Contents (Elt F)),
    binary main_v1634 main_v1635 main_v1636 (cmpi .slt : (⟨S8, .i32⟩ : BufTy).Contents (Elt F) → (⟨S8, .i32⟩ : BufTy).Contents (Elt F) → (⟨S8, .i1⟩ : BufTy).Contents (Elt F)),
    nullary main_c_111 (constantI S_ 32 8#32),
    unary main_c_111 main_v1637 (broadcastInDim S8 ![] bcast_S_S8 : (⟨S_, .i32⟩ : BufTy).Contents (Elt F) → (⟨S8, .i32⟩ : BufTy).Contents (Elt F)),
    binary main_v1634 main_v1637 main_v1638 (addi : (⟨S8, .i32⟩ : BufTy).Contents (Elt F) → (⟨S8, .i32⟩ : BufTy).Contents (Elt F) → (⟨S8, .i32⟩ : BufTy).Contents (Elt F)),
    ternary main_v1636 main_v1638 main_v1634 main_v1639 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_v1639 main_v1640 (broadcastInDim S8x1 ![0] bcast_S8_S8x1_0 : (⟨S8, .i32⟩ : BufTy).Contents (Elt F) → (⟨S8x1, .i32⟩ : BufTy).Contents (Elt F)),
    binary main_v1626 main_v1640 main_v1641 ((fun x i => Host.gather gather_S500000x8_S8x1_S500000x8_0_1_n_n_1_1_5000001 x i) : (⟨S500000x8, .f32⟩ : BufTy).Contents (Elt F) → (⟨S8x1, .i32⟩ : BufTy).Contents (Elt F) → (⟨S500000x8, .f32⟩ : BufTy).Contents (Elt F)) ]

theorem valC2DX01 (V : Valuation τ sig (Elt F)) :
    after (opsC2DX01 (F := F)) V (no_index (Proc.devRef .tc main_v1641)) = cxDaFn (V (Proc.devRef .tc main_v1626)) := by
  unfold opsC2DX01
  after_results_simp
  rfl

noncomputable def wrC2DX01 : List (Ref sig .tc) := [main_v1627, main_c_107, main_v1628, main_v1629, main_c_108, main_v1630, main_v1631, main_c_109, main_v1632, main_v1633, main_v1634, main_c_110, main_v1635, main_v1636, main_c_111, main_v1637, main_v1638, main_v1639, main_v1640, main_v1641]

theorem subC2DX01 : (opsC2DX01 : List (HloOp τ sig (Elt F))).Forall fun op => op.bufs ⊆ tcRefs τ sig := by
  unfold opsC2DX01
  exact ⟨nullary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem freshC2DX01 : ∀ op ∈ (opsC2DX01 : List (HloOp τ sig (Elt F))), op.fresh = ∅ := by
  unfold opsC2DX01
  exact List.forall_iff_forall_mem.mp ⟨rfl, rfl, rfl, rfl, rfl, rfl, rfl, rfl, rfl, rfl, rfl, rfl, rfl, rfl, rfl, rfl, rfl, rfl, rfl, rfl⟩

theorem keepC2DX01 (V : Valuation τ sig (Elt F)) (r : Ref sig .tc) (hr : r ∉ wrC2DX01) :
    after (opsC2DX01 (F := F)) V (no_index (Proc.devRef .tc r)) = V (Proc.devRef .tc r) :=
  after_of_writes_sub _ V (W := wrC2DX01) (by
    unfold opsC2DX01 wrC2DX01
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))⟩) hr

/-! ## Stretch C2DX12 (operations 1781 … 1800, kind cxDb) -/

noncomputable def opsC2DX12 : List (HloOp τ sig (Elt F)) :=
  [ nullary main_v1642 (iotaInDim S8 32 0),
    nullary main_c_112 (constantI S_ 32 1#32),
    unary main_c_112 main_v1643 (broadcastInDim S8 ![] bcast_S_S8 : (⟨S_, .i32⟩ : BufTy).Contents (Elt F) → (⟨S8, .i32⟩ : BufTy).Contents (Elt F)),
    binary main_v1642 main_v1643 main_v1644 (Host.shrsi : (⟨S8, .i32⟩ : BufTy).Contents (Elt F) → (⟨S8, .i32⟩ : BufTy).Contents (Elt F) → (⟨S8, .i32⟩ : BufTy).Contents (Elt F)),
    nullary main_c_113 (constantI S_ 32 1#32),
    unary main_c_113 main_v1645 (broadcastInDim S8 ![] bcast_S_S8 : (⟨S_, .i32⟩ : BufTy).Contents (Elt F) → (⟨S8, .i32⟩ : BufTy).Contents (Elt F)),
    binary main_v1644 main_v1645 main_v1646 (andi : (⟨S8, .i32⟩ : BufTy).Contents (Elt F) → (⟨S8, .i32⟩ : BufTy).Contents (Elt F) → (⟨S8, .i32⟩ : BufTy).Contents (Elt F)),
    nullary main_c_114 (constantI S_ 32 2#32),
    unary main_c_114 main_v1647 (broadcastInDim S8 ![] bcast_S_S8 : (⟨S_, .i32⟩ : BufTy).Contents (Elt F) → (⟨S8, .i32⟩ : BufTy).Contents (Elt F)),
    binary main_v1646 main_v1647 main_v1648 (Host.shli : (⟨S8, .i32⟩ : BufTy).Contents (Elt F) → (⟨S8, .i32⟩ : BufTy).Contents (Elt F) → (⟨S8, .i32⟩ : BufTy).Contents (Elt F)),
    binary main_v1642 main_v1648 main_v1649 (xori : (⟨S8, .i32⟩ : BufTy).Contents (Elt F) → (⟨S8, .i32⟩ : BufTy).Contents (Elt F) → (⟨S8, .i32⟩ : BufTy).Contents (Elt F)),
    nullary main_c_115 (constantI S_ 32 0#32),
    unary main_c_115 main_v1650 (broadcastInDim S8 ![] bcast_S_S8 : (⟨S_, .i32⟩ : BufTy).Contents (Elt F) → (⟨S8, .i32⟩ : BufTy).Contents (Elt F)),
    binary main_v1649 main_v1650 main_v1651 (cmpi .slt : (⟨S8, .i32⟩ : BufTy).Contents (Elt F) → (⟨S8, .i32⟩ : BufTy).Contents (Elt F) → (⟨S8, .i1⟩ : BufTy).Contents (Elt F)),
    nullary main_c_116 (constantI S_ 32 8#32),
    unary main_c_116 main_v1652 (broadcastInDim S8 ![] bcast_S_S8 : (⟨S_, .i32⟩ : BufTy).Contents (Elt F) → (⟨S8, .i32⟩ : BufTy).Contents (Elt F)),
    binary main_v1649 main_v1652 main_v1653 (addi : (⟨S8, .i32⟩ : BufTy).Contents (Elt F) → (⟨S8, .i32⟩ : BufTy).Contents (Elt F) → (⟨S8, .i32⟩ : BufTy).Contents (Elt F)),
    ternary main_v1651 main_v1653 main_v1649 main_v1654 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_v1654 main_v1655 (broadcastInDim S8x1 ![0] bcast_S8_S8x1_0 : (⟨S8, .i32⟩ : BufTy).Contents (Elt F) → (⟨S8x1, .i32⟩ : BufTy).Contents (Elt F)),
    binary main_v1641 main_v1655 main_v1656 ((fun x i => Host.gather gather_S500000x8_S8x1_S500000x8_0_1_n_n_1_1_5000001 x i) : (⟨S500000x8, .f32⟩ : BufTy).Contents (Elt F) → (⟨S8x1, .i32⟩ : BufTy).Contents (Elt F) → (⟨S500000x8, .f32⟩ : BufTy).Contents (Elt F)) ]

theorem valC2DX12 (V : Valuation τ sig (Elt F)) :
    after (opsC2DX12 (F := F)) V (no_index (Proc.devRef .tc main_v1656)) = cxDbFn (V (Proc.devRef .tc main_v1641)) := by
  unfold opsC2DX12
  after_results_simp
  rfl

noncomputable def wrC2DX12 : List (Ref sig .tc) := [main_v1642, main_c_112, main_v1643, main_v1644, main_c_113, main_v1645, main_v1646, main_c_114, main_v1647, main_v1648, main_v1649, main_c_115, main_v1650, main_v1651, main_c_116, main_v1652, main_v1653, main_v1654, main_v1655, main_v1656]

theorem subC2DX12 : (opsC2DX12 : List (HloOp τ sig (Elt F))).Forall fun op => op.bufs ⊆ tcRefs τ sig := by
  unfold opsC2DX12
  exact ⟨nullary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem freshC2DX12 : ∀ op ∈ (opsC2DX12 : List (HloOp τ sig (Elt F))), op.fresh = ∅ := by
  unfold opsC2DX12
  exact List.forall_iff_forall_mem.mp ⟨rfl, rfl, rfl, rfl, rfl, rfl, rfl, rfl, rfl, rfl, rfl, rfl, rfl, rfl, rfl, rfl, rfl, rfl, rfl, rfl⟩

theorem keepC2DX12 (V : Valuation τ sig (Elt F)) (r : Ref sig .tc) (hr : r ∉ wrC2DX12) :
    after (opsC2DX12 (F := F)) V (no_index (Proc.devRef .tc r)) = V (Proc.devRef .tc r) :=
  after_of_writes_sub _ V (W := wrC2DX12) (by
    unfold opsC2DX12 wrC2DX12
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _)))))),
     Finset.singleton_subset_iff.mpr (List.mem_toFinset.mpr (List.mem_map_of_mem (.tail _ (.tail _ (.tail _ (.tail _ (.head _))))))),
     Finset.singleton_subset_iff.mpr (List.mem_toFinset.mpr (List.mem_map_of_mem (.tail _ (.tail _ (.tail _ (.tail _ (.tail _ (.head _)))))))),
     Finset.singleton_subset_iff.mpr (List.mem_toFinset.mpr (List.mem_map_of_mem (.tail _ (.tail _ (.tail _ (.tail _ (.tail _ (.tail _ (.head _))))))))),
     Finset.singleton_subset_iff.mpr (List.mem_toFinset.mpr (List.mem_map_of_mem (.tail _ (.tail _ (.tail _ (.tail _ (.tail _ (.tail _ (.tail _ (.head _)))))))))),
     Finset.singleton_subset_iff.mpr (List.mem_toFinset.mpr (List.mem_map_of_mem (.tail _ (.tail _ (.tail _ (.tail _ (.tail _ (.tail _ (.tail _ (.tail _ (.head _))))))))))),
     Finset.singleton_subset_iff.mpr (List.mem_toFinset.mpr (List.mem_map_of_mem (.tail _ (.tail _ (.tail _ (.tail _ (.tail _ (.tail _ (.tail _ (.tail _ (.tail _ (.head _)))))))))))),
     Finset.singleton_subset_iff.mpr (List.mem_toFinset.mpr (List.mem_map_of_mem (.tail _ (.tail _ (.tail _ (.tail _ (.tail _ (.tail _ (.tail _ (.tail _ (.tail _ (.tail _ (.head _))))))))))))),
     Finset.singleton_subset_iff.mpr (List.mem_toFinset.mpr (List.mem_map_of_mem (.tail _ (.tail _ (.tail _ (.tail _ (.tail _ (.tail _ (.tail _ (.tail _ (.tail _ (.tail _ (.tail _ (.head _)))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
     Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))⟩) hr

/-! ## Stretch C2Tail (operations 1801 … 1804, kind tail) -/

noncomputable def opsC2Tail : List (HloOp τ sig (Elt F)) :=
  [ binary main_v1656 main_v1656 main_v1657 (mulf : (⟨S500000x8, .f32⟩ : BufTy).Contents (Elt F) → (⟨S500000x8, .f32⟩ : BufTy).Contents (Elt F) → (⟨S500000x8, .f32⟩ : BufTy).Contents (Elt F)),
    binary main_v1657 main_v21 main_v1658 ((fun l r => Host.dotGeneral dot_S500000x8_S8x4_S500000x4_1_0_0_1_n_n none l r) : (⟨S500000x8, .f32⟩ : BufTy).Contents (Elt F) → (⟨S8x4, .f32⟩ : BufTy).Contents (Elt F) → (⟨S500000x4, .f32⟩ : BufTy).Contents (Elt F)),
    reshape main_v1658 main_v1659 rfl shapeCasts_S500000x4_S32x125x125x4,
    binary main_v1114 main_v1659 main_v1660 (addf : (⟨S32x125x125x4, .f32⟩ : BufTy).Contents (Elt F) → (⟨S32x125x125x4, .f32⟩ : BufTy).Contents (Elt F) → (⟨S32x125x125x4, .f32⟩ : BufTy).Contents (Elt F)) ]

theorem valC2Tail (V : Valuation τ sig (Elt F)) :
    after (opsC2Tail (F := F)) V (no_index (Proc.devRef .tc main_v1660)) = tailFn (V (Proc.devRef .tc main_v1656)) (V (Proc.devRef .tc main_v21)) (V (Proc.devRef .tc main_v1114)) := by
  unfold opsC2Tail
  after_results_simp
  rfl

noncomputable def wrC2Tail : List (Ref sig .tc) := [main_v1657, main_v1658, main_v1659, main_v1660]

theorem subC2Tail : (opsC2Tail : List (HloOp τ sig (Elt F))).Forall fun op => op.bufs ⊆ tcRefs τ sig := by
  unfold opsC2Tail
  exact ⟨binary_bufs_sub .., binary_bufs_sub .., reshape_bufs_sub .., binary_bufs_sub ..⟩

theorem freshC2Tail : ∀ op ∈ (opsC2Tail : List (HloOp τ sig (Elt F))), op.fresh = ∅ := by
  unfold opsC2Tail
  exact List.forall_iff_forall_mem.mp ⟨rfl, rfl, rfl, rfl⟩

theorem keepC2Tail (V : Valuation τ sig (Elt F)) (r : Ref sig .tc) (hr : r ∉ wrC2Tail) :
    after (opsC2Tail (F := F)) V (no_index (Proc.devRef .tc r)) = V (Proc.devRef .tc r) :=
  after_of_writes_sub _ V (W := wrC2Tail) (by
    unfold opsC2Tail wrC2Tail
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _))))))⟩) hr

end Cert.Quanv.Ref

end
-- ==== Proof.RefOps.Z.lean ====
/- TABLE written by: bun scratch/gen_ref.js <unit> ops — stretches Fin of the reference's host program: per stretch the list of its operations, what it leaves
   in its result buffer as the kind's function of what it reads, and that it writes nothing else. -/
import proofs.«180459_j52956946760354_2_alg».proof.Proof.RefFns
import Idealize.ShloMosaic.Lib.StableHlo.Run

noncomputable section

namespace Cert.Quanv.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-! ## Stretch Fin (operations 1805 … 1808, kind fin) -/

noncomputable def opsFin : List (HloOp τ sig (Elt F)) :=
  [ unary main_v1660 main_v1661 ((transpose S32x4x125x125 [0, 3, 1, 2] · transposes_S32x125x125x4_S32x4x125x125_0_3_1_2) : (⟨S32x125x125x4, .f32⟩ : BufTy).Contents (Elt F) → (⟨S32x4x125x125, .f32⟩ : BufTy).Contents (Elt F)),
    nullary main_c_117 (constantI S_ 32 0#32),
    TRef.unary (.of main_c_117 : StableHlo.TRef sig ⟨S_, .i32⟩) main_call2.v0 (sitofp .f32),
    TRef.binary (.of main_v1661 : StableHlo.TRef sig ⟨S32x4x125x125, .f32⟩) main_call2.v0 main_call2.v1 (fun x v => pad S32x4x128x128 ![0, 0, 0, 0] ![0, 0, 3, 3] ![0, 0, 0, 0] x v pads_S32x4x125x125_S32x4x128x128_000_000_030_030 h_S_) ]

theorem valFin (V : Valuation τ sig (Elt F)) :
    after (opsFin (F := F)) V (no_index (Proc.devRef .tc main_v1662)) = finFn (V (Proc.devRef .tc main_v1660)) := by
  unfold opsFin
  after_results_simp
  rfl

noncomputable def wrFin : List (Ref sig .tc) := [main_v1661, main_c_117, main_call2_v0, main_v1662]

theorem subFin : (opsFin : List (HloOp τ sig (Elt F))).Forall fun op => op.bufs ⊆ tcRefs τ sig := by
  unfold opsFin
  exact ⟨unary_bufs_sub .., nullary_bufs_sub .., unary_bufs_sub .., binary_bufs_sub ..⟩

theorem freshFin : ∀ op ∈ (opsFin : List (HloOp τ sig (Elt F))), op.fresh = ∅ := by
  unfold opsFin
  exact List.forall_iff_forall_mem.mp ⟨rfl, rfl, rfl, rfl⟩

theorem keepFin (V : Valuation τ sig (Elt F)) (r : Ref sig .tc) (hr : r ∉ wrFin) :
    after (opsFin (F := F)) V (no_index (Proc.devRef .tc r)) = V (Proc.devRef .tc r) :=
  after_of_writes_sub _ V (W := wrFin) (by
    unfold opsFin wrFin
    exact ⟨Finset.singleton_subset_iff.mpr (List.mem_toFinset.mpr (List.mem_map_of_mem (.head _))),
     Finset.singleton_subset_iff.mpr (List.mem_toFinset.mpr (List.mem_map_of_mem (.tail _ (.head _)))),
     Finset.singleton_subset_iff.mpr (List.mem_toFinset.mpr (List.mem_map_of_mem (.tail _ (.tail _ (.head _))))),
     Finset.singleton_subset_iff.mpr (List.mem_toFinset.mpr (List.mem_map_of_mem (.tail _ (.tail _ (.tail _ (.head _))))))⟩) hr

end Cert.Quanv.Ref

end
-- ==== Proof.RefRun.lean ====
/- (a window's statements by computation), so every weakly fair execution ends with each buffer at the fold of the stretches over the launch contents. -/
import proofs.«180459_j52956946760354_2_alg».proof.Proof.RefOps.PA1
import proofs.«180459_j52956946760354_2_alg».proof.Proof.RefOps.PA2
import proofs.«180459_j52956946760354_2_alg».proof.Proof.RefOps.PA3
import proofs.«180459_j52956946760354_2_alg».proof.Proof.RefOps.PA4
import proofs.«180459_j52956946760354_2_alg».proof.Proof.RefOps.PB
import proofs.«180459_j52956946760354_2_alg».proof.Proof.RefOps.PC
import proofs.«180459_j52956946760354_2_alg».proof.Proof.RefOps.C0A
import proofs.«180459_j52956946760354_2_alg».proof.Proof.RefOps.C0B
import proofs.«180459_j52956946760354_2_alg».proof.Proof.RefOps.C0C
import proofs.«180459_j52956946760354_2_alg».proof.Proof.RefOps.C0D
import proofs.«180459_j52956946760354_2_alg».proof.Proof.RefOps.C0E
import proofs.«180459_j52956946760354_2_alg».proof.Proof.RefOps.C0F
import proofs.«180459_j52956946760354_2_alg».proof.Proof.RefOps.C1A
import proofs.«180459_j52956946760354_2_alg».proof.Proof.RefOps.C1B
import proofs.«180459_j52956946760354_2_alg».proof.Proof.RefOps.C1C
import proofs.«180459_j52956946760354_2_alg».proof.Proof.RefOps.C1D
import proofs.«180459_j52956946760354_2_alg».proof.Proof.RefOps.C1E
import proofs.«180459_j52956946760354_2_alg».proof.Proof.RefOps.C1F
import proofs.«180459_j52956946760354_2_alg».proof.Proof.RefOps.C2A
import proofs.«180459_j52956946760354_2_alg».proof.Proof.RefOps.C2B
import proofs.«180459_j52956946760354_2_alg».proof.Proof.RefOps.C2C
import proofs.«180459_j52956946760354_2_alg».proof.Proof.RefOps.C2D
import proofs.«180459_j52956946760354_2_alg».proof.Proof.RefOps.C2E
import proofs.«180459_j52956946760354_2_alg».proof.Proof.RefOps.C2F
import proofs.«180459_j52956946760354_2_alg».proof.Proof.RefOps.Z
import Idealize.ShloMosaic.Lib.StableHlo.Run

set_option maxRecDepth 65536

noncomputable section

namespace Cert.Quanv.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-- All of @main's operations: the stretches in order. -/
noncomputable def allOps : List (HloOp τ sig (Elt F)) :=
  opsPatch ++
  (opsOneHot ++
  (opsAcc0 ++
  (opsC0Psi0 ++
  (opsC0W0 ++
  (opsC0W1 ++
  (opsC0W2 ++
  (opsC0W3 ++
  (opsC0W4 ++
  (opsC0W5 ++
  (opsC0W6 ++
  (opsC0W7 ++
  (opsC0W8 ++
  (opsC0WX01 ++
  (opsC0WX12 ++
  (opsC0XCol ++
  (opsC0BPsi ++
  (opsC0D0 ++
  (opsC0D1 ++
  (opsC0D2 ++
  (opsC0D3 ++
  (opsC0D4 ++
  (opsC0D5 ++
  (opsC0D6 ++
  (opsC0D7 ++
  (opsC0D8 ++
  (opsC0DX01 ++
  (opsC0DX12 ++
  (opsC0Tail ++
  (opsC1Psi0 ++
  (opsC1W0 ++
  (opsC1W1 ++
  (opsC1W2 ++
  (opsC1W3 ++
  (opsC1W4 ++
  (opsC1W5 ++
  (opsC1W6 ++
  (opsC1W7 ++
  (opsC1W8 ++
  (opsC1WX01 ++
  (opsC1WX12 ++
  (opsC1XCol ++
  (opsC1BPsi ++
  (opsC1D0 ++
  (opsC1D1 ++
  (opsC1D2 ++
  (opsC1D3 ++
  (opsC1D4 ++
  (opsC1D5 ++
  (opsC1D6 ++
  (opsC1D7 ++
  (opsC1D8 ++
  (opsC1DX01 ++
  (opsC1DX12 ++
  (opsC1Tail ++
  (opsC2Psi0 ++
  (opsC2W0 ++
  (opsC2W1 ++
  (opsC2W2 ++
  (opsC2W3 ++
  (opsC2W4 ++
  (opsC2W5 ++
  (opsC2W6 ++
  (opsC2W7 ++
  (opsC2W8 ++
  (opsC2WX01 ++
  (opsC2WX12 ++
  (opsC2XCol ++
  (opsC2BPsi ++
  (opsC2D0 ++
  (opsC2D1 ++
  (opsC2D2 ++
  (opsC2D3 ++
  (opsC2D4 ++
  (opsC2D5 ++
  (opsC2D6 ++
  (opsC2D7 ++
  (opsC2D8 ++
  (opsC2DX01 ++
  (opsC2DX12 ++
  (opsC2Tail ++
  (opsFin)))))))))))))))))))))))))))))))))))))))))))))))))))))))))))))))))))))))))))))))))

/-- Window 0 of @main: operations 0 … 84. -/
noncomputable def win0 : List (HloOp τ sig (Elt F)) :=
  (opsPatch (F := F)) ++ ((opsOneHot (F := F)) ++ ((opsAcc0 (F := F)) ++ ((opsC0Psi0 (F := F)) ++ ((opsC0W0 (F := F)) ++ (((opsC0W1 (F := F)).take 6))))))

theorem win0_eq (d : Dev nD) : main_part0 (F := F) d = seq (win0 (F := F)) := rfl

/-- Window 1 of @main: operations 85 … 144. -/
noncomputable def win1 : List (HloOp τ sig (Elt F)) :=
  ((opsC0W1 (F := F)).drop 6) ++ ((opsC0W2 (F := F)) ++ (((opsC0W3 (F := F)).take 12)))

theorem win1_eq (d : Dev nD) : main_part1 (F := F) d = seq (win1 (F := F)) := rfl

/-- Window 2 of @main: operations 145 … 204. -/
noncomputable def win2 : List (HloOp τ sig (Elt F)) :=
  ((opsC0W3 (F := F)).drop 12) ++ ((opsC0W4 (F := F)) ++ (((opsC0W5 (F := F)).take 18)))

theorem win2_eq (d : Dev nD) : main_part2 (F := F) d = seq (win2 (F := F)) := rfl

/-- Window 3 of @main: operations 205 … 264. -/
noncomputable def win3 : List (HloOp τ sig (Elt F)) :=
  ((opsC0W5 (F := F)).drop 18) ++ ((opsC0W6 (F := F)) ++ (((opsC0W7 (F := F)).take 24)))

theorem win3_eq (d : Dev nD) : main_part3 (F := F) d = seq (win3 (F := F)) := rfl

/-- Window 4 of @main: operations 265 … 324. -/
noncomputable def win4 : List (HloOp τ sig (Elt F)) :=
  ((opsC0W7 (F := F)).drop 24) ++ ((opsC0W8 (F := F)) ++ ((opsC0WX01 (F := F)) ++ (((opsC0WX12 (F := F)).take 10))))

theorem win4_eq (d : Dev nD) : main_part4 (F := F) d = seq (win4 (F := F)) := rfl

/-- Window 5 of @main: operations 325 … 384. -/
noncomputable def win5 : List (HloOp τ sig (Elt F)) :=
  ((opsC0WX12 (F := F)).drop 10) ++ ((opsC0XCol (F := F)) ++ ((opsC0BPsi (F := F)) ++ ((opsC0D0 (F := F)) ++ (((opsC0D1 (F := F)).take 18)))))

theorem win5_eq (d : Dev nD) : main_part5 (F := F) d = seq (win5 (F := F)) := rfl

/-- Window 6 of @main: operations 385 … 444. -/
noncomputable def win6 : List (HloOp τ sig (Elt F)) :=
  ((opsC0D1 (F := F)).drop 18) ++ ((opsC0D2 (F := F)) ++ (((opsC0D3 (F := F)).take 22)))

theorem win6_eq (d : Dev nD) : main_part6 (F := F) d = seq (win6 (F := F)) := rfl

/-- Window 7 of @main: operations 445 … 504. -/
noncomputable def win7 : List (HloOp τ sig (Elt F)) :=
  ((opsC0D3 (F := F)).drop 22) ++ ((opsC0D4 (F := F)) ++ (((opsC0D5 (F := F)).take 26)))

theorem win7_eq (d : Dev nD) : main_part7 (F := F) d = seq (win7 (F := F)) := rfl

/-- Window 8 of @main: operations 505 … 564. -/
noncomputable def win8 : List (HloOp τ sig (Elt F)) :=
  ((opsC0D5 (F := F)).drop 26) ++ ((opsC0D6 (F := F)) ++ ((opsC0D7 (F := F)) ++ (((opsC0D8 (F := F)).take 2))))

theorem win8_eq (d : Dev nD) : main_part8 (F := F) d = seq (win8 (F := F)) := rfl

/-- Window 9 of @main: operations 565 … 624. -/
noncomputable def win9 : List (HloOp τ sig (Elt F)) :=
  ((opsC0D8 (F := F)).drop 2) ++ ((opsC0DX01 (F := F)) ++ (((opsC0DX12 (F := F)).take 14)))

theorem win9_eq (d : Dev nD) : main_part9 (F := F) d = seq (win9 (F := F)) := rfl

/-- Window 10 of @main: operations 625 … 684. -/
noncomputable def win10 : List (HloOp τ sig (Elt F)) :=
  ((opsC0DX12 (F := F)).drop 14) ++ ((opsC0Tail (F := F)) ++ ((opsC1Psi0 (F := F)) ++ ((opsC1W0 (F := F)) ++ (((opsC1W1 (F := F)).take 21)))))

theorem win10_eq (d : Dev nD) : main_part10 (F := F) d = seq (win10 (F := F)) := rfl

/-- Window 11 of @main: operations 685 … 744. -/
noncomputable def win11 : List (HloOp τ sig (Elt F)) :=
  ((opsC1W1 (F := F)).drop 21) ++ ((opsC1W2 (F := F)) ++ ((opsC1W3 (F := F))))

theorem win11_eq (d : Dev nD) : main_part11 (F := F) d = seq (win11 (F := F)) := rfl

/-- Window 12 of @main: operations 745 … 804. -/
noncomputable def win12 : List (HloOp τ sig (Elt F)) :=
  (opsC1W4 (F := F)) ++ ((opsC1W5 (F := F)) ++ (((opsC1W6 (F := F)).take 6)))

theorem win12_eq (d : Dev nD) : main_part12 (F := F) d = seq (win12 (F := F)) := rfl

/-- Window 13 of @main: operations 805 … 864. -/
noncomputable def win13 : List (HloOp τ sig (Elt F)) :=
  ((opsC1W6 (F := F)).drop 6) ++ ((opsC1W7 (F := F)) ++ (((opsC1W8 (F := F)).take 12)))

theorem win13_eq (d : Dev nD) : main_part13 (F := F) d = seq (win13 (F := F)) := rfl

/-- Window 14 of @main: operations 865 … 924. -/
noncomputable def win14 : List (HloOp τ sig (Elt F)) :=
  ((opsC1W8 (F := F)).drop 12) ++ ((opsC1WX01 (F := F)) ++ ((opsC1WX12 (F := F)) ++ ((opsC1XCol (F := F)) ++ ((opsC1BPsi (F := F)) ++ (((opsC1D0 (F := F)).take 1))))))

theorem win14_eq (d : Dev nD) : main_part14 (F := F) d = seq (win14 (F := F)) := rfl

/-- Window 15 of @main: operations 925 … 984. -/
noncomputable def win15 : List (HloOp τ sig (Elt F)) :=
  ((opsC1D0 (F := F)).drop 1) ++ ((opsC1D1 (F := F)) ++ (((opsC1D2 (F := F)).take 5)))

theorem win15_eq (d : Dev nD) : main_part15 (F := F) d = seq (win15 (F := F)) := rfl

/-- Window 16 of @main: operations 985 … 1044. -/
noncomputable def win16 : List (HloOp τ sig (Elt F)) :=
  ((opsC1D2 (F := F)).drop 5) ++ ((opsC1D3 (F := F)) ++ (((opsC1D4 (F := F)).take 9)))

theorem win16_eq (d : Dev nD) : main_part16 (F := F) d = seq (win16 (F := F)) := rfl

/-- Window 17 of @main: operations 1045 … 1104. -/
noncomputable def win17 : List (HloOp τ sig (Elt F)) :=
  ((opsC1D4 (F := F)).drop 9) ++ ((opsC1D5 (F := F)) ++ (((opsC1D6 (F := F)).take 13)))

theorem win17_eq (d : Dev nD) : main_part17 (F := F) d = seq (win17 (F := F)) := rfl

/-- Window 18 of @main: operations 1105 … 1164. -/
noncomputable def win18 : List (HloOp τ sig (Elt F)) :=
  ((opsC1D6 (F := F)).drop 13) ++ ((opsC1D7 (F := F)) ++ (((opsC1D8 (F := F)).take 17)))

theorem win18_eq (d : Dev nD) : main_part18 (F := F) d = seq (win18 (F := F)) := rfl

/-- Window 19 of @main: operations 1165 … 1224. -/
noncomputable def win19 : List (HloOp τ sig (Elt F)) :=
  ((opsC1D8 (F := F)).drop 17) ++ ((opsC1DX01 (F := F)) ++ ((opsC1DX12 (F := F)) ++ ((opsC1Tail (F := F)) ++ ((opsC2Psi0 (F := F)) ++ (((opsC2W0 (F := F)).take 3))))))

theorem win19_eq (d : Dev nD) : main_part19 (F := F) d = seq (win19 (F := F)) := rfl

/-- Window 20 of @main: operations 1225 … 1284. -/
noncomputable def win20 : List (HloOp τ sig (Elt F)) :=
  ((opsC2W0 (F := F)).drop 3) ++ ((opsC2W1 (F := F)) ++ (((opsC2W2 (F := F)).take 9)))

theorem win20_eq (d : Dev nD) : main_part20 (F := F) d = seq (win20 (F := F)) := rfl

/-- Window 21 of @main: operations 1285 … 1344. -/
noncomputable def win21 : List (HloOp τ sig (Elt F)) :=
  ((opsC2W2 (F := F)).drop 9) ++ ((opsC2W3 (F := F)) ++ (((opsC2W4 (F := F)).take 15)))

theorem win21_eq (d : Dev nD) : main_part21 (F := F) d = seq (win21 (F := F)) := rfl

/-- Window 22 of @main: operations 1345 … 1404. -/
noncomputable def win22 : List (HloOp τ sig (Elt F)) :=
  ((opsC2W4 (F := F)).drop 15) ++ ((opsC2W5 (F := F)) ++ (((opsC2W6 (F := F)).take 21)))

theorem win22_eq (d : Dev nD) : main_part22 (F := F) d = seq (win22 (F := F)) := rfl

/-- Window 23 of @main: operations 1405 … 1464. -/
noncomputable def win23 : List (HloOp τ sig (Elt F)) :=
  ((opsC2W6 (F := F)).drop 21) ++ ((opsC2W7 (F := F)) ++ ((opsC2W8 (F := F))))

theorem win23_eq (d : Dev nD) : main_part23 (F := F) d = seq (win23 (F := F)) := rfl

/-- Window 24 of @main: operations 1465 … 1524. -/
noncomputable def win24 : List (HloOp τ sig (Elt F)) :=
  (opsC2WX01 (F := F)) ++ ((opsC2WX12 (F := F)) ++ ((opsC2XCol (F := F)) ++ ((opsC2BPsi (F := F)) ++ (((opsC2D0 (F := F)).take 16)))))

theorem win24_eq (d : Dev nD) : main_part24 (F := F) d = seq (win24 (F := F)) := rfl

/-- Window 25 of @main: operations 1525 … 1584. -/
noncomputable def win25 : List (HloOp τ sig (Elt F)) :=
  ((opsC2D0 (F := F)).drop 16) ++ ((opsC2D1 (F := F)) ++ (((opsC2D2 (F := F)).take 20)))

theorem win25_eq (d : Dev nD) : main_part25 (F := F) d = seq (win25 (F := F)) := rfl

/-- Window 26 of @main: operations 1585 … 1644. -/
noncomputable def win26 : List (HloOp τ sig (Elt F)) :=
  ((opsC2D2 (F := F)).drop 20) ++ ((opsC2D3 (F := F)) ++ (((opsC2D4 (F := F)).take 24)))

theorem win26_eq (d : Dev nD) : main_part26 (F := F) d = seq (win26 (F := F)) := rfl

/-- Window 27 of @main: operations 1645 … 1704. -/
noncomputable def win27 : List (HloOp τ sig (Elt F)) :=
  ((opsC2D4 (F := F)).drop 24) ++ ((opsC2D5 (F := F)) ++ ((opsC2D6 (F := F))))

theorem win27_eq (d : Dev nD) : main_part27 (F := F) d = seq (win27 (F := F)) := rfl

/-- Window 28 of @main: operations 1705 … 1764. -/
noncomputable def win28 : List (HloOp τ sig (Elt F)) :=
  (opsC2D7 (F := F)) ++ ((opsC2D8 (F := F)) ++ (((opsC2DX01 (F := F)).take 4)))

theorem win28_eq (d : Dev nD) : main_part28 (F := F) d = seq (win28 (F := F)) := rfl

/-- Window 29 of @main: operations 1765 … 1808. -/
noncomputable def win29 : List (HloOp τ sig (Elt F)) :=
  ((opsC2DX01 (F := F)).drop 4) ++ ((opsC2DX12 (F := F)) ++ ((opsC2Tail (F := F)) ++ ((opsFin (F := F)))))

theorem win29_eq (d : Dev nD) : main_part29 (F := F) d = seq (win29 (F := F)) := rfl

theorem take_drop_app {α : Type} (l r : List α) (n : Nat) : l.take n ++ (l.drop n ++ r) = l ++ r := by
  rw [← List.append_assoc, List.take_append_drop]

theorem wins_eq : win0 (F := F) ++ (win1 (F := F) ++ (win2 (F := F) ++ (win3 (F := F) ++ (win4 (F := F) ++ (win5 (F := F) ++ (win6 (F := F) ++ (win7 (F := F) ++ (win8 (F := F) ++ (win9 (F := F) ++ (win10 (F := F) ++ (win11 (F := F) ++ (win12 (F := F) ++ (win13 (F := F) ++ (win14 (F := F) ++ (win15 (F := F) ++ (win16 (F := F) ++ (win17 (F := F) ++ (win18 (F := F) ++ (win19 (F := F) ++ (win20 (F := F) ++ (win21 (F := F) ++ (win22 (F := F) ++ (win23 (F := F) ++ (win24 (F := F) ++ (win25 (F := F) ++ (win26 (F := F) ++ (win27 (F := F) ++ (win28 (F := F) ++ (win29 (F := F)))))))))))))))))))))))))))))) = allOps (F := F) := by
  simp only [allOps, win0, win1, win2, win3, win4, win5, win6, win7, win8, win9, win10, win11, win12, win13, win14, win15, win16, win17, win18, win19, win20, win21, win22, win23, win24, win25, win26, win27, win28, win29, List.append_assoc, take_drop_app, List.take_append_drop]

theorem main_eq (d : Dev nD) : main (F := F) d = seq (allOps (F := F)) := by
  rw [← wins_eq]
  simp only [seq_append]
  unfold main
  rw [win0_eq, win1_eq, win2_eq, win3_eq, win4_eq, win5_eq, win6_eq, win7_eq, win8_eq, win9_eq, win10_eq, win11_eq, win12_eq, win13_eq, win14_eq, win15_eq, win16_eq, win17_eq, win18_eq, win19_eq, win20_eq, win21_eq, win22_eq, win23_eq, win24_eq, win25_eq, win26_eq, win27_eq, win28_eq, win29_eq]

theorem forall_app {α : Type} {p : α → Prop} {l r : List α} (hl : l.Forall p) (hr : r.Forall p) : (l ++ r).Forall p :=
  List.forall_iff_forall_mem.mpr fun x hx => (List.mem_append.mp hx).elim (List.forall_iff_forall_mem.mp hl x) (List.forall_iff_forall_mem.mp hr x)

theorem allOps_sub : (allOps : List (HloOp τ sig (Elt F))).Forall fun op => op.bufs ⊆ tcRefs τ sig :=
  forall_app subPatch (forall_app subOneHot (forall_app subAcc0 (forall_app subC0Psi0 (forall_app subC0W0 (forall_app subC0W1 (forall_app subC0W2 (forall_app subC0W3 (forall_app subC0W4 (forall_app subC0W5 (forall_app subC0W6 (forall_app subC0W7 (forall_app subC0W8 (forall_app subC0WX01 (forall_app subC0WX12 (forall_app subC0XCol (forall_app subC0BPsi (forall_app subC0D0 (forall_app subC0D1 (forall_app subC0D2 (forall_app subC0D3 (forall_app subC0D4 (forall_app subC0D5 (forall_app subC0D6 (forall_app subC0D7 (forall_app subC0D8 (forall_app subC0DX01 (forall_app subC0DX12 (forall_app subC0Tail (forall_app subC1Psi0 (forall_app subC1W0 (forall_app subC1W1 (forall_app subC1W2 (forall_app subC1W3 (forall_app subC1W4 (forall_app subC1W5 (forall_app subC1W6 (forall_app subC1W7 (forall_app subC1W8 (forall_app subC1WX01 (forall_app subC1WX12 (forall_app subC1XCol (forall_app subC1BPsi (forall_app subC1D0 (forall_app subC1D1 (forall_app subC1D2 (forall_app subC1D3 (forall_app subC1D4 (forall_app subC1D5 (forall_app subC1D6 (forall_app subC1D7 (forall_app subC1D8 (forall_app subC1DX01 (forall_app subC1DX12 (forall_app subC1Tail (forall_app subC2Psi0 (forall_app subC2W0 (forall_app subC2W1 (forall_app subC2W2 (forall_app subC2W3 (forall_app subC2W4 (forall_app subC2W5 (forall_app subC2W6 (forall_app subC2W7 (forall_app subC2W8 (forall_app subC2WX01 (forall_app subC2WX12 (forall_app subC2XCol (forall_app subC2BPsi (forall_app subC2D0 (forall_app subC2D1 (forall_app subC2D2 (forall_app subC2D3 (forall_app subC2D4 (forall_app subC2D5 (forall_app subC2D6 (forall_app subC2D7 (forall_app subC2D8 (forall_app subC2DX01 (forall_app subC2DX12 (forall_app subC2Tail (subFin)))))))))))))))))))))))))))))))))))))))))))))))))))))))))))))))))))))))))))))))))

theorem mem_app_elim {α : Type} {p : α → Prop} {l r : List α} (hl : ∀ x ∈ l, p x) (hr : ∀ x ∈ r, p x) : ∀ x ∈ l ++ r, p x :=
  fun x hx => (List.mem_append.mp hx).elim (hl x) (hr x)

theorem allOps_fresh : ∀ op ∈ (allOps : List (HloOp τ sig (Elt F))), op.fresh = ∅ :=
  mem_app_elim freshPatch (mem_app_elim freshOneHot (mem_app_elim freshAcc0 (mem_app_elim freshC0Psi0 (mem_app_elim freshC0W0 (mem_app_elim freshC0W1 (mem_app_elim freshC0W2 (mem_app_elim freshC0W3 (mem_app_elim freshC0W4 (mem_app_elim freshC0W5 (mem_app_elim freshC0W6 (mem_app_elim freshC0W7 (mem_app_elim freshC0W8 (mem_app_elim freshC0WX01 (mem_app_elim freshC0WX12 (mem_app_elim freshC0XCol (mem_app_elim freshC0BPsi (mem_app_elim freshC0D0 (mem_app_elim freshC0D1 (mem_app_elim freshC0D2 (mem_app_elim freshC0D3 (mem_app_elim freshC0D4 (mem_app_elim freshC0D5 (mem_app_elim freshC0D6 (mem_app_elim freshC0D7 (mem_app_elim freshC0D8 (mem_app_elim freshC0DX01 (mem_app_elim freshC0DX12 (mem_app_elim freshC0Tail (mem_app_elim freshC1Psi0 (mem_app_elim freshC1W0 (mem_app_elim freshC1W1 (mem_app_elim freshC1W2 (mem_app_elim freshC1W3 (mem_app_elim freshC1W4 (mem_app_elim freshC1W5 (mem_app_elim freshC1W6 (mem_app_elim freshC1W7 (mem_app_elim freshC1W8 (mem_app_elim freshC1WX01 (mem_app_elim freshC1WX12 (mem_app_elim freshC1XCol (mem_app_elim freshC1BPsi (mem_app_elim freshC1D0 (mem_app_elim freshC1D1 (mem_app_elim freshC1D2 (mem_app_elim freshC1D3 (mem_app_elim freshC1D4 (mem_app_elim freshC1D5 (mem_app_elim freshC1D6 (mem_app_elim freshC1D7 (mem_app_elim freshC1D8 (mem_app_elim freshC1DX01 (mem_app_elim freshC1DX12 (mem_app_elim freshC1Tail (mem_app_elim freshC2Psi0 (mem_app_elim freshC2W0 (mem_app_elim freshC2W1 (mem_app_elim freshC2W2 (mem_app_elim freshC2W3 (mem_app_elim freshC2W4 (mem_app_elim freshC2W5 (mem_app_elim freshC2W6 (mem_app_elim freshC2W7 (mem_app_elim freshC2W8 (mem_app_elim freshC2WX01 (mem_app_elim freshC2WX12 (mem_app_elim freshC2XCol (mem_app_elim freshC2BPsi (mem_app_elim freshC2D0 (mem_app_elim freshC2D1 (mem_app_elim freshC2D2 (mem_app_elim freshC2D3 (mem_app_elim freshC2D4 (mem_app_elim freshC2D5 (mem_app_elim freshC2D6 (mem_app_elim freshC2D7 (mem_app_elim freshC2D8 (mem_app_elim freshC2DX01 (mem_app_elim freshC2DX12 (mem_app_elim freshC2Tail (freshFin)))))))))))))))))))))))))))))))))))))))))))))))))))))))))))))))))))))))))))))))))

theorem scopedRefs_eq : (Finset.univ.filter fun b : Ref sig .tc => b.isScoped) = ∅ := by decide
theorem scopedSems_eq : (Finset.univ.filter fun sm : SemLoc sig => sm.isScoped .tc) = ∅ := by decide

/-- Every weakly fair execution of the reference's @main terminates, and every final state has each buffer at the fold of
    the stretches' operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (allOps (F := F)) (launchContents m c) (b : DevRef τ sig) :=
  run_seq scopedRefs_eq scopedSems_eq defs main (fun _ => allOps) main_eq (fun _ => allOps_sub) m ρ (fun _ => allOps_fresh)

end Cert.Quanv.Ref

end
-- ==== Proof.RefDefs.lean ====
/- TABLE written by: bun scratch/gen_ref.js <unit> run — what each stretch leaves in its result buffer as a function of the two argument arrays: the kinds' functions composed along the
   program's data flow, one definition per stretch. -/
import proofs.«180459_j52956946760354_2_alg».proof.Proof.RefFns

set_option maxRecDepth 65536

noncomputable section

namespace Cert.Quanv.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

noncomputable def rPatch (X : FVec F S32x3x128x128 .f32) (W : FVec F S3x9 .f32) : FVec F S32x3x125x125x9 .f32 :=
  patchFn X

noncomputable def rOneHot (X : FVec F S32x3x128x128 .f32) (W : FVec F S3x9 .f32) : FVec F S8x4 .f32 :=
  oneHotFn

noncomputable def rAcc0 (X : FVec F S32x3x128x128 .f32) (W : FVec F S3x9 .f32) : FVec F S32x125x125x4 .f32 :=
  acc0Fn

noncomputable def rC0Psi0 (X : FVec F S32x3x128x128 .f32) (W : FVec F S3x9 .f32) : FVec F S8 .f32 :=
  psi0Fn

noncomputable def rC0W0 (X : FVec F S32x3x128x128 .f32) (W : FVec F S3x9 .f32) : FVec F S8 .f32 :=
  ryW0Fn (rC0Psi0 X W) (((extractStridedSlice S1x1 ![0, 0] · slices_S3x9_S1x1_0_0) : (⟨S3x9, .f32⟩ : BufTy).Contents (Elt F) → (⟨S1x1, .f32⟩ : BufTy).Contents (Elt F)) W)

noncomputable def rC0W1 (X : FVec F S32x3x128x128 .f32) (W : FVec F S3x9 .f32) : FVec F S8 .f32 :=
  ryW1Fn (rC0W0 X W) (((extractStridedSlice S1x1 ![0, 1] · slices_S3x9_S1x1_0_1) : (⟨S3x9, .f32⟩ : BufTy).Contents (Elt F) → (⟨S1x1, .f32⟩ : BufTy).Contents (Elt F)) W)

noncomputable def rC0W2 (X : FVec F S32x3x128x128 .f32) (W : FVec F S3x9 .f32) : FVec F S8 .f32 :=
  ryW2Fn (rC0W1 X W) (((extractStridedSlice S1x1 ![0, 2] · slices_S3x9_S1x1_0_2) : (⟨S3x9, .f32⟩ : BufTy).Contents (Elt F) → (⟨S1x1, .f32⟩ : BufTy).Contents (Elt F)) W)

noncomputable def rC0W3 (X : FVec F S32x3x128x128 .f32) (W : FVec F S3x9 .f32) : FVec F S8 .f32 :=
  ryW0Fn (rC0W2 X W) (((extractStridedSlice S1x1 ![0, 3] · slices_S3x9_S1x1_0_3) : (⟨S3x9, .f32⟩ : BufTy).Contents (Elt F) → (⟨S1x1, .f32⟩ : BufTy).Contents (Elt F)) W)

noncomputable def rC0W4 (X : FVec F S32x3x128x128 .f32) (W : FVec F S3x9 .f32) : FVec F S8 .f32 :=
  ryW1Fn (rC0W3 X W) (((extractStridedSlice S1x1 ![0, 4] · slices_S3x9_S1x1_0_4) : (⟨S3x9, .f32⟩ : BufTy).Contents (Elt F) → (⟨S1x1, .f32⟩ : BufTy).Contents (Elt F)) W)

noncomputable def rC0W5 (X : FVec F S32x3x128x128 .f32) (W : FVec F S3x9 .f32) : FVec F S8 .f32 :=
  ryW2Fn (rC0W4 X W) (((extractStridedSlice S1x1 ![0, 5] · slices_S3x9_S1x1_0_5) : (⟨S3x9, .f32⟩ : BufTy).Contents (Elt F) → (⟨S1x1, .f32⟩ : BufTy).Contents (Elt F)) W)

noncomputable def rC0W6 (X : FVec F S32x3x128x128 .f32) (W : FVec F S3x9 .f32) : FVec F S8 .f32 :=
  ryW0Fn (rC0W5 X W) (((extractStridedSlice S1x1 ![0, 6] · slices_S3x9_S1x1_0_6) : (⟨S3x9, .f32⟩ : BufTy).Contents (Elt F) → (⟨S1x1, .f32⟩ : BufTy).Contents (Elt F)) W)

noncomputable def rC0W7 (X : FVec F S32x3x128x128 .f32) (W : FVec F S3x9 .f32) : FVec F S8 .f32 :=
  ryW1Fn (rC0W6 X W) (((extractStridedSlice S1x1 ![0, 7] · slices_S3x9_S1x1_0_7) : (⟨S3x9, .f32⟩ : BufTy).Contents (Elt F) → (⟨S1x1, .f32⟩ : BufTy).Contents (Elt F)) W)

noncomputable def rC0W8 (X : FVec F S32x3x128x128 .f32) (W : FVec F S3x9 .f32) : FVec F S8 .f32 :=
  ryW2Fn (rC0W7 X W) (((extractStridedSlice S1x1 ![0, 8] · slices_S3x9_S1x1_0_8) : (⟨S3x9, .f32⟩ : BufTy).Contents (Elt F) → (⟨S1x1, .f32⟩ : BufTy).Contents (Elt F)) W)

noncomputable def rC0WX01 (X : FVec F S32x3x128x128 .f32) (W : FVec F S3x9 .f32) : FVec F S8 .f32 :=
  cxWaFn (rC0W8 X W)

noncomputable def rC0WX12 (X : FVec F S32x3x128x128 .f32) (W : FVec F S3x9 .f32) : FVec F S8 .f32 :=
  cxWbFn (rC0WX01 X W)

noncomputable def rC0XCol (X : FVec F S32x3x128x128 .f32) (W : FVec F S3x9 .f32) : FVec F S500000x9 .f32 :=
  xcolFn (((extractStridedSlice S32x1x125x125x9 ![0, 0, 0, 0, 0] · slices_S32x3x125x125x9_S32x1x125x125x9_0_0_0_0_0) : (⟨S32x3x125x125x9, .f32⟩ : BufTy).Contents (Elt F) → (⟨S32x1x125x125x9, .f32⟩ : BufTy).Contents (Elt F)) (rPatch X W))

noncomputable def rC0BPsi (X : FVec F S32x3x128x128 .f32) (W : FVec F S3x9 .f32) : FVec F S500000x8 .f32 :=
  bpsiFn (rC0WX12 X W)

noncomputable def rC0D0 (X : FVec F S32x3x128x128 .f32) (W : FVec F S3x9 .f32) : FVec F S500000x8 .f32 :=
  ryD0Fn (rC0BPsi X W) (((extractStridedSlice S500000x1 ![0, 0] · slices_S500000x9_S500000x1_0_0) : (⟨S500000x9, .f32⟩ : BufTy).Contents (Elt F) → (⟨S500000x1, .f32⟩ : BufTy).Contents (Elt F)) (rC0XCol X W))

noncomputable def rC0D1 (X : FVec F S32x3x128x128 .f32) (W : FVec F S3x9 .f32) : FVec F S500000x8 .f32 :=
  ryD1Fn (rC0D0 X W) (((extractStridedSlice S500000x1 ![0, 1] · slices_S500000x9_S500000x1_0_1) : (⟨S500000x9, .f32⟩ : BufTy).Contents (Elt F) → (⟨S500000x1, .f32⟩ : BufTy).Contents (Elt F)) (rC0XCol X W))

noncomputable def rC0D2 (X : FVec F S32x3x128x128 .f32) (W : FVec F S3x9 .f32) : FVec F S500000x8 .f32 :=
  ryD2Fn (rC0D1 X W) (((extractStridedSlice S500000x1 ![0, 2] · slices_S500000x9_S500000x1_0_2) : (⟨S500000x9, .f32⟩ : BufTy).Contents (Elt F) → (⟨S500000x1, .f32⟩ : BufTy).Contents (Elt F)) (rC0XCol X W))

noncomputable def rC0D3 (X : FVec F S32x3x128x128 .f32) (W : FVec F S3x9 .f32) : FVec F S500000x8 .f32 :=
  ryD0Fn (rC0D2 X W) (((extractStridedSlice S500000x1 ![0, 3] · slices_S500000x9_S500000x1_0_3) : (⟨S500000x9, .f32⟩ : BufTy).Contents (Elt F) → (⟨S500000x1, .f32⟩ : BufTy).Contents (Elt F)) (rC0XCol X W))

noncomputable def rC0D4 (X : FVec F S32x3x128x128 .f32) (W : FVec F S3x9 .f32) : FVec F S500000x8 .f32 :=
  ryD1Fn (rC0D3 X W) (((extractStridedSlice S500000x1 ![0, 4] · slices_S500000x9_S500000x1_0_4) : (⟨S500000x9, .f32⟩ : BufTy).Contents (Elt F) → (⟨S500000x1, .f32⟩ : BufTy).Contents (Elt F)) (rC0XCol X W))

noncomputable def rC0D5 (X : FVec F S32x3x128x128 .f32) (W : FVec F S3x9 .f32) : FVec F S500000x8 .f32 :=
  ryD2Fn (rC0D4 X W) (((extractStridedSlice S500000x1 ![0, 5] · slices_S500000x9_S500000x1_0_5) : (⟨S500000x9, .f32⟩ : BufTy).Contents (Elt F) → (⟨S500000x1, .f32⟩ : BufTy).Contents (Elt F)) (rC0XCol X W))

noncomputable def rC0D6 (X : FVec F S32x3x128x128 .f32) (W : FVec F S3x9 .f32) : FVec F S500000x8 .f32 :=
  ryD0Fn (rC0D5 X W) (((extractStridedSlice S500000x1 ![0, 6] · slices_S500000x9_S500000x1_0_6) : (⟨S500000x9, .f32⟩ : BufTy).Contents (Elt F) → (⟨S500000x1, .f32⟩ : BufTy).Contents (Elt F)) (rC0XCol X W))

noncomputable def rC0D7 (X : FVec F S32x3x128x128 .f32) (W : FVec F S3x9 .f32) : FVec F S500000x8 .f32 :=
  ryD1Fn (rC0D6 X W) (((extractStridedSlice S500000x1 ![0, 7] · slices_S500000x9_S500000x1_0_7) : (⟨S500000x9, .f32⟩ : BufTy).Contents (Elt F) → (⟨S500000x1, .f32⟩ : BufTy).Contents (Elt F)) (rC0XCol X W))

noncomputable def rC0D8 (X : FVec F S32x3x128x128 .f32) (W : FVec F S3x9 .f32) : FVec F S500000x8 .f32 :=
  ryD2Fn (rC0D7 X W) (((extractStridedSlice S500000x1 ![0, 8] · slices_S500000x9_S500000x1_0_8) : (⟨S500000x9, .f32⟩ : BufTy).Contents (Elt F) → (⟨S500000x1, .f32⟩ : BufTy).Contents (Elt F)) (rC0XCol X W))

noncomputable def rC0DX01 (X : FVec F S32x3x128x128 .f32) (W : FVec F S3x9 .f32) : FVec F S500000x8 .f32 :=
  cxDaFn (rC0D8 X W)

noncomputable def rC0DX12 (X : FVec F S32x3x128x128 .f32) (W : FVec F S3x9 .f32) : FVec F S500000x8 .f32 :=
  cxDbFn (rC0DX01 X W)

noncomputable def rC0Tail (X : FVec F S32x3x128x128 .f32) (W : FVec F S3x9 .f32) : FVec F S32x125x125x4 .f32 :=
  tailFn (rC0DX12 X W) (rOneHot X W) (rAcc0 X W)

noncomputable def rC1Psi0 (X : FVec F S32x3x128x128 .f32) (W : FVec F S3x9 .f32) : FVec F S8 .f32 :=
  psi0Fn

noncomputable def rC1W0 (X : FVec F S32x3x128x128 .f32) (W : FVec F S3x9 .f32) : FVec F S8 .f32 :=
  ryW0Fn (rC1Psi0 X W) (((extractStridedSlice S1x1 ![1, 0] · slices_S3x9_S1x1_1_0) : (⟨S3x9, .f32⟩ : BufTy).Contents (Elt F) → (⟨S1x1, .f32⟩ : BufTy).Contents (Elt F)) W)

noncomputable def rC1W1 (X : FVec F S32x3x128x128 .f32) (W : FVec F S3x9 .f32) : FVec F S8 .f32 :=
  ryW1Fn (rC1W0 X W) (((extractStridedSlice S1x1 ![1, 1] · slices_S3x9_S1x1_1_1) : (⟨S3x9, .f32⟩ : BufTy).Contents (Elt F) → (⟨S1x1, .f32⟩ : BufTy).Contents (Elt F)) W)

noncomputable def rC1W2 (X : FVec F S32x3x128x128 .f32) (W : FVec F S3x9 .f32) : FVec F S8 .f32 :=
  ryW2Fn (rC1W1 X W) (((extractStridedSlice S1x1 ![1, 2] · slices_S3x9_S1x1_1_2) : (⟨S3x9, .f32⟩ : BufTy).Contents (Elt F) → (⟨S1x1, .f32⟩ : BufTy).Contents (Elt F)) W)

noncomputable def rC1W3 (X : FVec F S32x3x128x128 .f32) (W : FVec F S3x9 .f32) : FVec F S8 .f32 :=
  ryW0Fn (rC1W2 X W) (((extractStridedSlice S1x1 ![1, 3] · slices_S3x9_S1x1_1_3) : (⟨S3x9, .f32⟩ : BufTy).Contents (Elt F) → (⟨S1x1, .f32⟩ : BufTy).Contents (Elt F)) W)

noncomputable def rC1W4 (X : FVec F S32x3x128x128 .f32) (W : FVec F S3x9 .f32) : FVec F S8 .f32 :=
  ryW1Fn (rC1W3 X W) (((extractStridedSlice S1x1 ![1, 4] · slices_S3x9_S1x1_1_4) : (⟨S3x9, .f32⟩ : BufTy).Contents (Elt F) → (⟨S1x1, .f32⟩ : BufTy).Contents (Elt F)) W)

noncomputable def rC1W5 (X : FVec F S32x3x128x128 .f32) (W : FVec F S3x9 .f32) : FVec F S8 .f32 :=
  ryW2Fn (rC1W4 X W) (((extractStridedSlice S1x1 ![1, 5] · slices_S3x9_S1x1_1_5) : (⟨S3x9, .f32⟩ : BufTy).Contents (Elt F) → (⟨S1x1, .f32⟩ : BufTy).Contents (Elt F)) W)

noncomputable def rC1W6 (X : FVec F S32x3x128x128 .f32) (W : FVec F S3x9 .f32) : FVec F S8 .f32 :=
  ryW0Fn (rC1W5 X W) (((extractStridedSlice S1x1 ![1, 6] · slices_S3x9_S1x1_1_6) : (⟨S3x9, .f32⟩ : BufTy).Contents (Elt F) → (⟨S1x1, .f32⟩ : BufTy).Contents (Elt F)) W)

noncomputable def rC1W7 (X : FVec F S32x3x128x128 .f32) (W : FVec F S3x9 .f32) : FVec F S8 .f32 :=
  ryW1Fn (rC1W6 X W) (((extractStridedSlice S1x1 ![1, 7] · slices_S3x9_S1x1_1_7) : (⟨S3x9, .f32⟩ : BufTy).Contents (Elt F) → (⟨S1x1, .f32⟩ : BufTy).Contents (Elt F)) W)

noncomputable def rC1W8 (X : FVec F S32x3x128x128 .f32) (W : FVec F S3x9 .f32) : FVec F S8 .f32 :=
  ryW2Fn (rC1W7 X W) (((extractStridedSlice S1x1 ![1, 8] · slices_S3x9_S1x1_1_8) : (⟨S3x9, .f32⟩ : BufTy).Contents (Elt F) → (⟨S1x1, .f32⟩ : BufTy).Contents (Elt F)) W)

noncomputable def rC1WX01 (X : FVec F S32x3x128x128 .f32) (W : FVec F S3x9 .f32) : FVec F S8 .f32 :=
  cxWaFn (rC1W8 X W)

noncomputable def rC1WX12 (X : FVec F S32x3x128x128 .f32) (W : FVec F S3x9 .f32) : FVec F S8 .f32 :=
  cxWbFn (rC1WX01 X W)

noncomputable def rC1XCol (X : FVec F S32x3x128x128 .f32) (W : FVec F S3x9 .f32) : FVec F S500000x9 .f32 :=
  xcolFn (((extractStridedSlice S32x1x125x125x9 ![0, 1, 0, 0, 0] · slices_S32x3x125x125x9_S32x1x125x125x9_0_1_0_0_0) : (⟨S32x3x125x125x9, .f32⟩ : BufTy).Contents (Elt F) → (⟨S32x1x125x125x9, .f32⟩ : BufTy).Contents (Elt F)) (rPatch X W))

noncomputable def rC1BPsi (X : FVec F S32x3x128x128 .f32) (W : FVec F S3x9 .f32) : FVec F S500000x8 .f32 :=
  bpsiFn (rC1WX12 X W)

noncomputable def rC1D0 (X : FVec F S32x3x128x128 .f32) (W : FVec F S3x9 .f32) : FVec F S500000x8 .f32 :=
  ryD0Fn (rC1BPsi X W) (((extractStridedSlice S500000x1 ![0, 0] · slices_S500000x9_S500000x1_0_0) : (⟨S500000x9, .f32⟩ : BufTy).Contents (Elt F) → (⟨S500000x1, .f32⟩ : BufTy).Contents (Elt F)) (rC1XCol X W))

noncomputable def rC1D1 (X : FVec F S32x3x128x128 .f32) (W : FVec F S3x9 .f32) : FVec F S500000x8 .f32 :=
  ryD1Fn (rC1D0 X W) (((extractStridedSlice S500000x1 ![0, 1] · slices_S500000x9_S500000x1_0_1) : (⟨S500000x9, .f32⟩ : BufTy).Contents (Elt F) → (⟨S500000x1, .f32⟩ : BufTy).Contents (Elt F)) (rC1XCol X W))

noncomputable def rC1D2 (X : FVec F S32x3x128x128 .f32) (W : FVec F S3x9 .f32) : FVec F S500000x8 .f32 :=
  ryD2Fn (rC1D1 X W) (((extractStridedSlice S500000x1 ![0, 2] · slices_S500000x9_S500000x1_0_2) : (⟨S500000x9, .f32⟩ : BufTy).Contents (Elt F) → (⟨S500000x1, .f32⟩ : BufTy).Contents (Elt F)) (rC1XCol X W))

noncomputable def rC1D3 (X : FVec F S32x3x128x128 .f32) (W : FVec F S3x9 .f32) : FVec F S500000x8 .f32 :=
  ryD0Fn (rC1D2 X W) (((extractStridedSlice S500000x1 ![0, 3] · slices_S500000x9_S500000x1_0_3) : (⟨S500000x9, .f32⟩ : BufTy).Contents (Elt F) → (⟨S500000x1, .f32⟩ : BufTy).Contents (Elt F)) (rC1XCol X W))

noncomputable def rC1D4 (X : FVec F S32x3x128x128 .f32) (W : FVec F S3x9 .f32) : FVec F S500000x8 .f32 :=
  ryD1Fn (rC1D3 X W) (((extractStridedSlice S500000x1 ![0, 4] · slices_S500000x9_S500000x1_0_4) : (⟨S500000x9, .f32⟩ : BufTy).Contents (Elt F) → (⟨S500000x1, .f32⟩ : BufTy).Contents (Elt F)) (rC1XCol X W))

noncomputable def rC1D5 (X : FVec F S32x3x128x128 .f32) (W : FVec F S3x9 .f32) : FVec F S500000x8 .f32 :=
  ryD2Fn (rC1D4 X W) (((extractStridedSlice S500000x1 ![0, 5] · slices_S500000x9_S500000x1_0_5) : (⟨S500000x9, .f32⟩ : BufTy).Contents (Elt F) → (⟨S500000x1, .f32⟩ : BufTy).Contents (Elt F)) (rC1XCol X W))

noncomputable def rC1D6 (X : FVec F S32x3x128x128 .f32) (W : FVec F S3x9 .f32) : FVec F S500000x8 .f32 :=
  ryD0Fn (rC1D5 X W) (((extractStridedSlice S500000x1 ![0, 6] · slices_S500000x9_S500000x1_0_6) : (⟨S500000x9, .f32⟩ : BufTy).Contents (Elt F) → (⟨S500000x1, .f32⟩ : BufTy).Contents (Elt F)) (rC1XCol X W))

noncomputable def rC1D7 (X : FVec F S32x3x128x128 .f32) (W : FVec F S3x9 .f32) : FVec F S500000x8 .f32 :=
  ryD1Fn (rC1D6 X W) (((extractStridedSlice S500000x1 ![0, 7] · slices_S500000x9_S500000x1_0_7) : (⟨S500000x9, .f32⟩ : BufTy).Contents (Elt F) → (⟨S500000x1, .f32⟩ : BufTy).Contents (Elt F)) (rC1XCol X W))

noncomputable def rC1D8 (X : FVec F S32x3x128x128 .f32) (W : FVec F S3x9 .f32) : FVec F S500000x8 .f32 :=
  ryD2Fn (rC1D7 X W) (((extractStridedSlice S500000x1 ![0, 8] · slices_S500000x9_S500000x1_0_8) : (⟨S500000x9, .f32⟩ : BufTy).Contents (Elt F) → (⟨S500000x1, .f32⟩ : BufTy).Contents (Elt F)) (rC1XCol X W))

noncomputable def rC1DX01 (X : FVec F S32x3x128x128 .f32) (W : FVec F S3x9 .f32) : FVec F S500000x8 .f32 :=
  cxDaFn (rC1D8 X W)

noncomputable def rC1DX12 (X : FVec F S32x3x128x128 .f32) (W : FVec F S3x9 .f32) : FVec F S500000x8 .f32 :=
  cxDbFn (rC1DX01 X W)

noncomputable def rC1Tail (X : FVec F S32x3x128x128 .f32) (W : FVec F S3x9 .f32) : FVec F S32x125x125x4 .f32 :=
  tailFn (rC1DX12 X W) (rOneHot X W) (rC0Tail X W)

noncomputable def rC2Psi0 (X : FVec F S32x3x128x128 .f32) (W : FVec F S3x9 .f32) : FVec F S8 .f32 :=
  psi0Fn

noncomputable def rC2W0 (X : FVec F S32x3x128x128 .f32) (W : FVec F S3x9 .f32) : FVec F S8 .f32 :=
  ryW0Fn (rC2Psi0 X W) (((extractStridedSlice S1x1 ![2, 0] · slices_S3x9_S1x1_2_0) : (⟨S3x9, .f32⟩ : BufTy).Contents (Elt F) → (⟨S1x1, .f32⟩ : BufTy).Contents (Elt F)) W)

noncomputable def rC2W1 (X : FVec F S32x3x128x128 .f32) (W : FVec F S3x9 .f32) : FVec F S8 .f32 :=
  ryW1Fn (rC2W0 X W) (((extractStridedSlice S1x1 ![2, 1] · slices_S3x9_S1x1_2_1) : (⟨S3x9, .f32⟩ : BufTy).Contents (Elt F) → (⟨S1x1, .f32⟩ : BufTy).Contents (Elt F)) W)

noncomputable def rC2W2 (X : FVec F S32x3x128x128 .f32) (W : FVec F S3x9 .f32) : FVec F S8 .f32 :=
  ryW2Fn (rC2W1 X W) (((extractStridedSlice S1x1 ![2, 2] · slices_S3x9_S1x1_2_2) : (⟨S3x9, .f32⟩ : BufTy).Contents (Elt F) → (⟨S1x1, .f32⟩ : BufTy).Contents (Elt F)) W)

noncomputable def rC2W3 (X : FVec F S32x3x128x128 .f32) (W : FVec F S3x9 .f32) : FVec F S8 .f32 :=
  ryW0Fn (rC2W2 X W) (((extractStridedSlice S1x1 ![2, 3] · slices_S3x9_S1x1_2_3) : (⟨S3x9, .f32⟩ : BufTy).Contents (Elt F) → (⟨S1x1, .f32⟩ : BufTy).Contents (Elt F)) W)

noncomputable def rC2W4 (X : FVec F S32x3x128x128 .f32) (W : FVec F S3x9 .f32) : FVec F S8 .f32 :=
  ryW1Fn (rC2W3 X W) (((extractStridedSlice S1x1 ![2, 4] · slices_S3x9_S1x1_2_4) : (⟨S3x9, .f32⟩ : BufTy).Contents (Elt F) → (⟨S1x1, .f32⟩ : BufTy).Contents (Elt F)) W)

noncomputable def rC2W5 (X : FVec F S32x3x128x128 .f32) (W : FVec F S3x9 .f32) : FVec F S8 .f32 :=
  ryW2Fn (rC2W4 X W) (((extractStridedSlice S1x1 ![2, 5] · slices_S3x9_S1x1_2_5) : (⟨S3x9, .f32⟩ : BufTy).Contents (Elt F) → (⟨S1x1, .f32⟩ : BufTy).Contents (Elt F)) W)

noncomputable def rC2W6 (X : FVec F S32x3x128x128 .f32) (W : FVec F S3x9 .f32) : FVec F S8 .f32 :=
  ryW0Fn (rC2W5 X W) (((extractStridedSlice S1x1 ![2, 6] · slices_S3x9_S1x1_2_6) : (⟨S3x9, .f32⟩ : BufTy).Contents (Elt F) → (⟨S1x1, .f32⟩ : BufTy).Contents (Elt F)) W)

noncomputable def rC2W7 (X : FVec F S32x3x128x128 .f32) (W : FVec F S3x9 .f32) : FVec F S8 .f32 :=
  ryW1Fn (rC2W6 X W) (((extractStridedSlice S1x1 ![2, 7] · slices_S3x9_S1x1_2_7) : (⟨S3x9, .f32⟩ : BufTy).Contents (Elt F) → (⟨S1x1, .f32⟩ : BufTy).Contents (Elt F)) W)

noncomputable def rC2W8 (X : FVec F S32x3x128x128 .f32) (W : FVec F S3x9 .f32) : FVec F S8 .f32 :=
  ryW2Fn (rC2W7 X W) (((extractStridedSlice S1x1 ![2, 8] · slices_S3x9_S1x1_2_8) : (⟨S3x9, .f32⟩ : BufTy).Contents (Elt F) → (⟨S1x1, .f32⟩ : BufTy).Contents (Elt F)) W)

noncomputable def rC2WX01 (X : FVec F S32x3x128x128 .f32) (W : FVec F S3x9 .f32) : FVec F S8 .f32 :=
  cxWaFn (rC2W8 X W)

noncomputable def rC2WX12 (X : FVec F S32x3x128x128 .f32) (W : FVec F S3x9 .f32) : FVec F S8 .f32 :=
  cxWbFn (rC2WX01 X W)

noncomputable def rC2XCol (X : FVec F S32x3x128x128 .f32) (W : FVec F S3x9 .f32) : FVec F S500000x9 .f32 :=
  xcolFn (((extractStridedSlice S32x1x125x125x9 ![0, 2, 0, 0, 0] · slices_S32x3x125x125x9_S32x1x125x125x9_0_2_0_0_0) : (⟨S32x3x125x125x9, .f32⟩ : BufTy).Contents (Elt F) → (⟨S32x1x125x125x9, .f32⟩ : BufTy).Contents (Elt F)) (rPatch X W))

noncomputable def rC2BPsi (X : FVec F S32x3x128x128 .f32) (W : FVec F S3x9 .f32) : FVec F S500000x8 .f32 :=
  bpsiFn (rC2WX12 X W)

noncomputable def rC2D0 (X : FVec F S32x3x128x128 .f32) (W : FVec F S3x9 .f32) : FVec F S500000x8 .f32 :=
  ryD0Fn (rC2BPsi X W) (((extractStridedSlice S500000x1 ![0, 0] · slices_S500000x9_S500000x1_0_0) : (⟨S500000x9, .f32⟩ : BufTy).Contents (Elt F) → (⟨S500000x1, .f32⟩ : BufTy).Contents (Elt F)) (rC2XCol X W))

noncomputable def rC2D1 (X : FVec F S32x3x128x128 .f32) (W : FVec F S3x9 .f32) : FVec F S500000x8 .f32 :=
  ryD1Fn (rC2D0 X W) (((extractStridedSlice S500000x1 ![0, 1] · slices_S500000x9_S500000x1_0_1) : (⟨S500000x9, .f32⟩ : BufTy).Contents (Elt F) → (⟨S500000x1, .f32⟩ : BufTy).Contents (Elt F)) (rC2XCol X W))

noncomputable def rC2D2 (X : FVec F S32x3x128x128 .f32) (W : FVec F S3x9 .f32) : FVec F S500000x8 .f32 :=
  ryD2Fn (rC2D1 X W) (((extractStridedSlice S500000x1 ![0, 2] · slices_S500000x9_S500000x1_0_2) : (⟨S500000x9, .f32⟩ : BufTy).Contents (Elt F) → (⟨S500000x1, .f32⟩ : BufTy).Contents (Elt F)) (rC2XCol X W))

noncomputable def rC2D3 (X : FVec F S32x3x128x128 .f32) (W : FVec F S3x9 .f32) : FVec F S500000x8 .f32 :=
  ryD0Fn (rC2D2 X W) (((extractStridedSlice S500000x1 ![0, 3] · slices_S500000x9_S500000x1_0_3) : (⟨S500000x9, .f32⟩ : BufTy).Contents (Elt F) → (⟨S500000x1, .f32⟩ : BufTy).Contents (Elt F)) (rC2XCol X W))

noncomputable def rC2D4 (X : FVec F S32x3x128x128 .f32) (W : FVec F S3x9 .f32) : FVec F S500000x8 .f32 :=
  ryD1Fn (rC2D3 X W) (((extractStridedSlice S500000x1 ![0, 4] · slices_S500000x9_S500000x1_0_4) : (⟨S500000x9, .f32⟩ : BufTy).Contents (Elt F) → (⟨S500000x1, .f32⟩ : BufTy).Contents (Elt F)) (rC2XCol X W))

noncomputable def rC2D5 (X : FVec F S32x3x128x128 .f32) (W : FVec F S3x9 .f32) : FVec F S500000x8 .f32 :=
  ryD2Fn (rC2D4 X W) (((extractStridedSlice S500000x1 ![0, 5] · slices_S500000x9_S500000x1_0_5) : (⟨S500000x9, .f32⟩ : BufTy).Contents (Elt F) → (⟨S500000x1, .f32⟩ : BufTy).Contents (Elt F)) (rC2XCol X W))

noncomputable def rC2D6 (X : FVec F S32x3x128x128 .f32) (W : FVec F S3x9 .f32) : FVec F S500000x8 .f32 :=
  ryD0Fn (rC2D5 X W) (((extractStridedSlice S500000x1 ![0, 6] · slices_S500000x9_S500000x1_0_6) : (⟨S500000x9, .f32⟩ : BufTy).Contents (Elt F) → (⟨S500000x1, .f32⟩ : BufTy).Contents (Elt F)) (rC2XCol X W))

noncomputable def rC2D7 (X : FVec F S32x3x128x128 .f32) (W : FVec F S3x9 .f32) : FVec F S500000x8 .f32 :=
  ryD1Fn (rC2D6 X W) (((extractStridedSlice S500000x1 ![0, 7] · slices_S500000x9_S500000x1_0_7) : (⟨S500000x9, .f32⟩ : BufTy).Contents (Elt F) → (⟨S500000x1, .f32⟩ : BufTy).Contents (Elt F)) (rC2XCol X W))

noncomputable def rC2D8 (X : FVec F S32x3x128x128 .f32) (W : FVec F S3x9 .f32) : FVec F S500000x8 .f32 :=
  ryD2Fn (rC2D7 X W) (((extractStridedSlice S500000x1 ![0, 8] · slices_S500000x9_S500000x1_0_8) : (⟨S500000x9, .f32⟩ : BufTy).Contents (Elt F) → (⟨S500000x1, .f32⟩ : BufTy).Contents (Elt F)) (rC2XCol X W))

noncomputable def rC2DX01 (X : FVec F S32x3x128x128 .f32) (W : FVec F S3x9 .f32) : FVec F S500000x8 .f32 :=
  cxDaFn (rC2D8 X W)

noncomputable def rC2DX12 (X : FVec F S32x3x128x128 .f32) (W : FVec F S3x9 .f32) : FVec F S500000x8 .f32 :=
  cxDbFn (rC2DX01 X W)

noncomputable def rC2Tail (X : FVec F S32x3x128x128 .f32) (W : FVec F S3x9 .f32) : FVec F S32x125x125x4 .f32 :=
  tailFn (rC2DX12 X W) (rOneHot X W) (rC1Tail X W)

noncomputable def rFin (X : FVec F S32x3x128x128 .f32) (W : FVec F S3x9 .f32) : FVec F S32x4x128x128 .f32 :=
  finFn (rC2Tail X W)

end Cert.Quanv.Ref

end
-- ==== Proof.RefVal.lean ====
/- TABLE written by: bun scratch/gen_ref.js <unit> run — the fold of all the stretches at the result buffer is the composed function of the launch contents of the two arguments:
   each stretch's value fact rewritten along the data flow, a buffer a stretch does not write left alone. -/
import proofs.«180459_j52956946760354_2_alg».proof.Proof.RefRun
import proofs.«180459_j52956946760354_2_alg».proof.Proof.RefDefs

set_option maxRecDepth 65536

noncomputable section

namespace Cert.Quanv.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

theorem after_app (l₁ l₂ : List (HloOp τ sig (Elt F))) (V : Valuation τ sig (Elt F)) : after (l₁ ++ l₂) V = after l₂ (after l₁ V) := by
  induction l₁ generalizing V with
  | nil => rfl
  | cons op l ih => rw [List.cons_append, after_cons, after_cons, ih]

set_option maxHeartbeats 4000000 in
/-- The result buffer after the whole program is the composed function of the launch contents of the two arguments. -/
theorem out_eq (V : Valuation τ sig (Elt F)) :
    after (allOps (F := F)) V (Proc.devRef .tc main_v1662) = rFin (V (Proc.devRef .tc main_arg0)) (V (Proc.devRef .tc main_arg1)) := by
  simp (disch := decide) only [allOps, after_app,
    valPatch, valOneHot, valAcc0, valC0Psi0, valC0W0, valC0W1, valC0W2, valC0W3, valC0W4, valC0W5, valC0W6, valC0W7, valC0W8, valC0WX01, valC0WX12, valC0XCol, valC0BPsi, valC0D0, valC0D1, valC0D2, valC0D3, valC0D4, valC0D5, valC0D6, valC0D7, valC0D8, valC0DX01, valC0DX12, valC0Tail, valC1Psi0, valC1W0, valC1W1, valC1W2, valC1W3, valC1W4, valC1W5, valC1W6, valC1W7, valC1W8, valC1WX01, valC1WX12, valC1XCol, valC1BPsi, valC1D0, valC1D1, valC1D2, valC1D3, valC1D4, valC1D5, valC1D6, valC1D7, valC1D8, valC1DX01, valC1DX12, valC1Tail, valC2Psi0, valC2W0, valC2W1, valC2W2, valC2W3, valC2W4, valC2W5, valC2W6, valC2W7, valC2W8, valC2WX01, valC2WX12, valC2XCol, valC2BPsi, valC2D0, valC2D1, valC2D2, valC2D3, valC2D4, valC2D5, valC2D6, valC2D7, valC2D8, valC2DX01, valC2DX12, valC2Tail, valFin,
    keepPatch, keepOneHot, keepAcc0, keepC0Psi0, keepC0W0, keepC0W1, keepC0W2, keepC0W3, keepC0W4, keepC0W5, keepC0W6, keepC0W7, keepC0W8, keepC0WX01, keepC0WX12, keepC0XCol, keepC0BPsi, keepC0D0, keepC0D1, keepC0D2, keepC0D3, keepC0D4, keepC0D5, keepC0D6, keepC0D7, keepC0D8, keepC0DX01, keepC0DX12, keepC0Tail, keepC1Psi0, keepC1W0, keepC1W1, keepC1W2, keepC1W3, keepC1W4, keepC1W5, keepC1W6, keepC1W7, keepC1W8, keepC1WX01, keepC1WX12, keepC1XCol, keepC1BPsi, keepC1D0, keepC1D1, keepC1D2, keepC1D3, keepC1D4, keepC1D5, keepC1D6, keepC1D7, keepC1D8, keepC1DX01, keepC1DX12, keepC1Tail, keepC2Psi0, keepC2W0, keepC2W1, keepC2W2, keepC2W3, keepC2W4, keepC2W5, keepC2W6, keepC2W7, keepC2W8, keepC2WX01, keepC2WX12, keepC2XCol, keepC2BPsi, keepC2D0, keepC2D1, keepC2D2, keepC2D3, keepC2D4, keepC2D5, keepC2D6, keepC2D7, keepC2D8, keepC2DX01, keepC2DX12, keepC2Tail, keepFin]
  rfl

set_option maxHeartbeats 4000000 in
theorem main_arg0_eq (V : Valuation τ sig (Elt F)) : after (allOps (F := F)) V (Proc.devRef .tc main_arg0) = V (Proc.devRef .tc main_arg0) := by
  simp (disch := decide) only [allOps, after_app,
    keepPatch, keepOneHot, keepAcc0, keepC0Psi0, keepC0W0, keepC0W1, keepC0W2, keepC0W3, keepC0W4, keepC0W5, keepC0W6, keepC0W7, keepC0W8, keepC0WX01, keepC0WX12, keepC0XCol, keepC0BPsi, keepC0D0, keepC0D1, keepC0D2, keepC0D3, keepC0D4, keepC0D5, keepC0D6, keepC0D7, keepC0D8, keepC0DX01, keepC0DX12, keepC0Tail, keepC1Psi0, keepC1W0, keepC1W1, keepC1W2, keepC1W3, keepC1W4, keepC1W5, keepC1W6, keepC1W7, keepC1W8, keepC1WX01, keepC1WX12, keepC1XCol, keepC1BPsi, keepC1D0, keepC1D1, keepC1D2, keepC1D3, keepC1D4, keepC1D5, keepC1D6, keepC1D7, keepC1D8, keepC1DX01, keepC1DX12, keepC1Tail, keepC2Psi0, keepC2W0, keepC2W1, keepC2W2, keepC2W3, keepC2W4, keepC2W5, keepC2W6, keepC2W7, keepC2W8, keepC2WX01, keepC2WX12, keepC2XCol, keepC2BPsi, keepC2D0, keepC2D1, keepC2D2, keepC2D3, keepC2D4, keepC2D5, keepC2D6, keepC2D7, keepC2D8, keepC2DX01, keepC2DX12, keepC2Tail, keepFin]

set_option maxHeartbeats 4000000 in
theorem main_arg1_eq (V : Valuation τ sig (Elt F)) : after (allOps (F := F)) V (Proc.devRef .tc main_arg1) = V (Proc.devRef .tc main_arg1) := by
  simp (disch := decide) only [allOps, after_app,
    keepPatch, keepOneHot, keepAcc0, keepC0Psi0, keepC0W0, keepC0W1, keepC0W2, keepC0W3, keepC0W4, keepC0W5, keepC0W6, keepC0W7, keepC0W8, keepC0WX01, keepC0WX12, keepC0XCol, keepC0BPsi, keepC0D0, keepC0D1, keepC0D2, keepC0D3, keepC0D4, keepC0D5, keepC0D6, keepC0D7, keepC0D8, keepC0DX01, keepC0DX12, keepC0Tail, keepC1Psi0, keepC1W0, keepC1W1, keepC1W2, keepC1W3, keepC1W4, keepC1W5, keepC1W6, keepC1W7, keepC1W8, keepC1WX01, keepC1WX12, keepC1XCol, keepC1BPsi, keepC1D0, keepC1D1, keepC1D2, keepC1D3, keepC1D4, keepC1D5, keepC1D6, keepC1D7, keepC1D8, keepC1DX01, keepC1DX12, keepC1Tail, keepC2Psi0, keepC2W0, keepC2W1, keepC2W2, keepC2W3, keepC2W4, keepC2W5, keepC2W6, keepC2W7, keepC2W8, keepC2WX01, keepC2WX12, keepC2XCol, keepC2BPsi, keepC2D0, keepC2D1, keepC2D2, keepC2D3, keepC2D4, keepC2D5, keepC2D6, keepC2D7, keepC2D8, keepC2DX01, keepC2DX12, keepC2Tail, keepFin]

end Cert.Quanv.Ref

end
-- ==== Proof.SpecAlg.lean ====
/-
  Two facts about sums of extended reals that join the two programs' accumulations: a sum over the eight basis states
  against the 0/1 table "d mod 4 = j" keeps exactly the terms d = j and d = j + 4 (a product with 1 is the factor, a
  product with 0 is 0, for every extended real), and adding the two terms as one sum or one after the other is the same
  (addition of extended reals is associative).
-/
import proofs.«180459_j52956946760354_2_alg».proof.Proof.Spec

noncomputable section

namespace Cert.Quanv

/-- The sum over the eight basis states of `p d` times the indicator of `d mod 4 = j` is `p j + p (j + 4)`. -/
theorem sum_onehot (p : Fin 8 → EReal) (j : Fin 4) :
    (∑ d : Fin 8, p d * (if d.val % 4 = j.val then (1 : EReal) else 0))
      = p ⟨j.val, by omega⟩ + p ⟨j.val + 4, by omega⟩ := by
  rw [Fin.sum_univ_eight]
  fin_cases j <;> simp

/-- The reference adds each channel's pair as one sum; the kernel adds the two terms one after the other. -/
theorem accum_grouped (P : Fin 3 → St) (j : Fin 4) :
    ((zero + (prob (P 0) ⟨j.val, by omega⟩ + prob (P 0) ⟨j.val + 4, by omega⟩))
        + (prob (P 1) ⟨j.val, by omega⟩ + prob (P 1) ⟨j.val + 4, by omega⟩))
        + (prob (P 2) ⟨j.val, by omega⟩ + prob (P 2) ⟨j.val + 4, by omega⟩) = accum P j := by
  unfold accum
  simp only [add_assoc]

end Cert.Quanv

end
-- ==== Proof.RefMathFacts.lean ====
/-
  What the reference's rotation and entangling stretches compute, read at an index, collected as one hypothesis: each
  rotation stretch applies the spec's rotation by its angle to the state it is given, each entangling stretch the
  spec's permutation, the starting state is uniform, and the per-pixel copy of the weight state is that state. From
  these, the same facts on whole states (eight amplitudes at once), the form in which the circuits compose.
-/
import proofs.«180459_j52956946760354_2_alg».proof.Proof.RefFns
import proofs.«180459_j52956946760354_2_alg».proof.Proof.Spec
import Idealize.ShloMosaic.Lib.ValueIdx

set_option pp.maxSteps 5000
set_option pp.deepTerms false

noncomputable section

namespace Cert.Quanv.Ref

open Cert.ReferenceIdeal Cert.ReferenceIdeal.Facts₀ Cert.ReferenceIdeal.Facts Cert.Quanv Cert.Quanv.Ref Idealize.ShloMosaic Idealize.ShloMosaic.ValueIdx

variable [Cert.ReferenceIdeal.Facts]

/-- The rotation and entangling stretches at an index. -/
structure RotFacts : Prop where
  psi0Fn_apply : ∀ (d : Fin 8), psi0Fn (F := Ideal) (ix1 d) = amp0
  ryW0Fn_apply : ∀ (psi : FVec Ideal S8 .f32) (t : FVec Ideal S1x1 .f32) (d : Fin 8),
    ryW0Fn psi t (ix1 d) = rot0 (t (ix2 0 0)) (fun e => psi (ix1 e)) d
  ryW1Fn_apply : ∀ (psi : FVec Ideal S8 .f32) (t : FVec Ideal S1x1 .f32) (d : Fin 8),
    ryW1Fn psi t (ix1 d) = rot1 (t (ix2 0 0)) (fun e => psi (ix1 e)) d
  ryW2Fn_apply : ∀ (psi : FVec Ideal S8 .f32) (t : FVec Ideal S1x1 .f32) (d : Fin 8),
    ryW2Fn psi t (ix1 d) = rot2 (t (ix2 0 0)) (fun e => psi (ix1 e)) d
  cxWaFn_apply : ∀ (psi : FVec Ideal S8 .f32) (d : Fin 8), cxWaFn psi (ix1 d) = cx01 (fun e => psi (ix1 e)) d
  cxWbFn_apply : ∀ (psi : FVec Ideal S8 .f32) (d : Fin 8), cxWbFn psi (ix1 d) = cx12 (fun e => psi (ix1 e)) d
  bpsiFn_apply : ∀ (psi : FVec Ideal S8 .f32) (n : Fin 500000) (d : Fin 8), bpsiFn psi (ix2 n d) = psi (ix1 d)
  ryD0Fn_apply : ∀ (psi : FVec Ideal S500000x8 .f32) (t : FVec Ideal S500000x1 .f32) (n : Fin 500000) (d : Fin 8),
    ryD0Fn psi t (ix2 n d) = rot0 (t (ix2 n 0)) (fun e => psi (ix2 n e)) d
  ryD1Fn_apply : ∀ (psi : FVec Ideal S500000x8 .f32) (t : FVec Ideal S500000x1 .f32) (n : Fin 500000) (d : Fin 8),
    ryD1Fn psi t (ix2 n d) = rot1 (t (ix2 n 0)) (fun e => psi (ix2 n e)) d
  ryD2Fn_apply : ∀ (psi : FVec Ideal S500000x8 .f32) (t : FVec Ideal S500000x1 .f32) (n : Fin 500000) (d : Fin 8),
    ryD2Fn psi t (ix2 n d) = rot2 (t (ix2 n 0)) (fun e => psi (ix2 n e)) d
  cxDaFn_apply : ∀ (psi : FVec Ideal S500000x8 .f32) (n : Fin 500000) (d : Fin 8),
    cxDaFn psi (ix2 n d) = cx01 (fun e => psi (ix2 n e)) d
  cxDbFn_apply : ∀ (psi : FVec Ideal S500000x8 .f32) (n : Fin 500000) (d : Fin 8),
    cxDbFn psi (ix2 n d) = cx12 (fun e => psi (ix2 n e)) d

section
variable (hR : RotFacts)
include hR

/-- A weight rotation on qubit 0, on whole states: the stretch's result is the rotation of its input state. -/
theorem w0_st {psi : FVec Ideal S8 .f32} {t : FVec Ideal S1x1 .f32} {a : EReal} {s : St}
    (ht : t (ix2 0 0) = a) (hs : (fun e => psi (ix1 e)) = s) : (fun e => ryW0Fn psi t (ix1 e)) = rot0 a s := by
  subst ht hs
  exact funext fun d => hR.ryW0Fn_apply psi t d

/-- A weight rotation on qubit 1, on whole states: the stretch's result is the rotation of its input state. -/
theorem w1_st {psi : FVec Ideal S8 .f32} {t : FVec Ideal S1x1 .f32} {a : EReal} {s : St}
    (ht : t (ix2 0 0) = a) (hs : (fun e => psi (ix1 e)) = s) : (fun e => ryW1Fn psi t (ix1 e)) = rot1 a s := by
  subst ht hs
  exact funext fun d => hR.ryW1Fn_apply psi t d

/-- A weight rotation on qubit 2, on whole states: the stretch's result is the rotation of its input state. -/
theorem w2_st {psi : FVec Ideal S8 .f32} {t : FVec Ideal S1x1 .f32} {a : EReal} {s : St}
    (ht : t (ix2 0 0) = a) (hs : (fun e => psi (ix1 e)) = s) : (fun e => ryW2Fn psi t (ix1 e)) = rot2 a s := by
  subst ht hs
  exact funext fun d => hR.ryW2Fn_apply psi t d

/-- The two entangling gates of the weight circuit, on whole states. -/
theorem wa_st {psi : FVec Ideal S8 .f32} {s : St} (hs : (fun e => psi (ix1 e)) = s) :
    (fun e => cxWaFn psi (ix1 e)) = cx01 s := by
  subst hs
  exact funext fun d => hR.cxWaFn_apply psi d
theorem wb_st {psi : FVec Ideal S8 .f32} {s : St} (hs : (fun e => psi (ix1 e)) = s) :
    (fun e => cxWbFn psi (ix1 e)) = cx12 s := by
  subst hs
  exact funext fun d => hR.cxWbFn_apply psi d

/-- The starting state is uniform. -/
theorem psi0_st : (fun e => psi0Fn (F := Ideal) (ix1 e)) = fun _ => amp0 :=
  funext fun d => hR.psi0Fn_apply d

/-- A state repeated for every pixel is that state at each pixel. -/
theorem bpsi_st {psi : FVec Ideal S8 .f32} {s : St} (n : Fin 500000) (hs : (fun e => psi (ix1 e)) = s) :
    (fun e => bpsiFn psi (ix2 n e)) = s := by
  subst hs
  exact funext fun d => hR.bpsiFn_apply psi n d

/-- A data rotation on qubit 0 at pixel n, on whole states. -/
theorem d0_st {psi : FVec Ideal S500000x8 .f32} {t : FVec Ideal S500000x1 .f32} (n : Fin 500000) {a : EReal} {s : St}
    (ht : t (ix2 n 0) = a) (hs : (fun e => psi (ix2 n e)) = s) : (fun e => ryD0Fn psi t (ix2 n e)) = rot0 a s := by
  subst ht hs
  exact funext fun d => hR.ryD0Fn_apply psi t n d

/-- A data rotation on qubit 1 at pixel n, on whole states. -/
theorem d1_st {psi : FVec Ideal S500000x8 .f32} {t : FVec Ideal S500000x1 .f32} (n : Fin 500000) {a : EReal} {s : St}
    (ht : t (ix2 n 0) = a) (hs : (fun e => psi (ix2 n e)) = s) : (fun e => ryD1Fn psi t (ix2 n e)) = rot1 a s := by
  subst ht hs
  exact funext fun d => hR.ryD1Fn_apply psi t n d

/-- A data rotation on qubit 2 at pixel n, on whole states. -/
theorem d2_st {psi : FVec Ideal S500000x8 .f32} {t : FVec Ideal S500000x1 .f32} (n : Fin 500000) {a : EReal} {s : St}
    (ht : t (ix2 n 0) = a) (hs : (fun e => psi (ix2 n e)) = s) : (fun e => ryD2Fn psi t (ix2 n e)) = rot2 a s := by
  subst ht hs
  exact funext fun d => hR.ryD2Fn_apply psi t n d

/-- The two entangling gates of the data circuit at pixel n, on whole states. -/
theorem da_st {psi : FVec Ideal S500000x8 .f32} (n : Fin 500000) {s : St} (hs : (fun e => psi (ix2 n e)) = s) :
    (fun e => cxDaFn psi (ix2 n e)) = cx01 s := by
  subst hs
  exact funext fun d => hR.cxDaFn_apply psi n d
theorem db_st {psi : FVec Ideal S500000x8 .f32} (n : Fin 500000) {s : St} (hs : (fun e => psi (ix2 n e)) = s) :
    (fun e => cxDbFn psi (ix2 n e)) = cx12 s := by
  subst hs
  exact funext fun d => hR.cxDbFn_apply psi n d

end

end Cert.Quanv.Ref

end
-- ==== Proof.RefLayXcol.lean ====
/-
  The reference's per-channel patch matrix read at an index: two reshapes, (32,1,125,125,9) to (32,125,125,9) to
  (500000,9). A reshape keeps the row-major position, so pixel number n = (b·125 + h)·125 + w of the matrix is
  position (b, 0, h, w) of the channel's slice.
-/
import proofs.«180459_j52956946760354_2_alg».proof.Proof.RefFns
import proofs.«180459_j52956946760354_2_alg».proof.Proof.Spec
import Idealize.ShloMosaic.Lib.Pipeline.Value

set_option pp.maxSteps 5000
set_option pp.deepTerms false

noncomputable section

namespace Cert.Quanv.Ref

open Cert.ReferenceIdeal Cert.ReferenceIdeal.Facts₀ Cert.ReferenceIdeal.Facts Cert.Quanv Cert.Quanv.Ref Idealize.ShloMosaic Idealize.ShloMosaic.ValueIdx

variable [Cert.ReferenceIdeal.Facts]

/-- Row (b·125 + h)·125 + w, column p of the patch matrix is entry (b, 0, h, w, p) of the slice. -/
theorem xcolFn_apply (v : FVec Ideal S32x1x125x125x9 .f32) (b : Fin 32) (h w : Fin 125) (p : Fin 9) :
    xcolFn v (ix2 ⟨(b.val * 125 + h.val) * 125 + w.val, by omega⟩ p) = v (ix5 b 0 h w p) := by
  unfold xcolFn
  refine (shapeCast_apply _ _ _ (ix4 b h w p) (by
    rw [Shape.rowMajor_val_four, Shape.rowMajor_val_two]
    show ((b.val * 125 + h.val) * 125 + w.val) * 9 + p.val = ((b.val * 125 + h.val) * 125 + w.val) * 9 + p.val
    rfl)).trans ?_
  exact shapeCast_apply _ _ _ (ix5 b 0 h w p) (by
    rw [Shape.rowMajor_val_five, Shape.rowMajor_val_four]
    show (((b.val * 1 + 0) * 125 + h.val) * 125 + w.val) * 9 + p.val = ((b.val * 125 + h.val) * 125 + w.val) * 9 + p.val
    omega)

end Cert.Quanv.Ref

end
-- ==== Proof.RefLayPatch.lean ====
/-
  The reference's patch extraction read at an index: nine slices of the input, the one at offset (dh, dw) being the
  125×125 window of each image plane starting at row dh and column dw, each given a trailing unit axis and the nine
  stacked along it in the order p = 3·dh + dw. So entry (b, i, h, w, p) is the input at (b, i, h + p / 3, w + p % 3).
-/
import proofs.«180459_j52956946760354_2_alg».proof.Proof.RefFns
import proofs.«180459_j52956946760354_2_alg».proof.Proof.Spec
import Idealize.ShloMosaic.Lib.Pipeline.Value

set_option pp.maxSteps 5000
set_option pp.deepTerms false

noncomputable section

namespace Cert.Quanv.Ref

open Cert.ReferenceIdeal Cert.ReferenceIdeal.Facts₀ Cert.ReferenceIdeal.Facts Cert.Quanv Cert.Quanv.Ref Idealize.ShloMosaic Idealize.ShloMosaic.ValueIdx

variable [Cert.ReferenceIdeal.Facts]

/-- One stacked piece: the slice at offset (dh, dw) with a trailing unit axis, at (b, i, h, w, ·), is the input at
    (b, i, dh + h, dw + w). -/
theorem patch_slice_apply (X : FVec Ideal S32x3x128x128 .f32) (dh dw : Nat)
    (hs : S32x3x128x128.Slices ![0, 0, dh, dw] S32x3x125x125)
    (b : Fin 32) (i : Fin 3) (h w : Fin 125) (z : Fin 1) (h' w' : Fin 128)
    (eh : h'.val = dh + h.val) (ew : w'.val = dw + w.val) :
    broadcastInDim S32x3x125x125x1 ![0, 1, 2, 3] bcast_S32x3x125x125_S32x3x125x125x1_0_1_2_3
      (extractStridedSlice S32x3x125x125 ![0, 0, dh, dw] X hs) (ix5 b i h w z) = X (ix4 b i h' w') := by
  refine (broadcastInDim_apply _ _ _ (ix5 b i h w z) (ix4 b i h w) (fun a => match a with
    | ⟨0, _⟩ => rfl | ⟨1, _⟩ => rfl | ⟨2, _⟩ => rfl | ⟨3, _⟩ => rfl)).trans ?_
  exact extractStridedSlice_apply _ _ _ (ix4 b i h w) (ix4 b i h' w') (fun a => match a with
    | ⟨0, _⟩ => by show b.val = 0 + b.val; omega
    | ⟨1, _⟩ => by show i.val = 0 + i.val; omega
    | ⟨2, _⟩ => by show h'.val = dh + h.val; exact eh
    | ⟨3, _⟩ => by show w'.val = dw + w.val; exact ew)

/-- Piece 0 of the stack is the slice at offset (0, 0). -/
theorem patchFn_piece_0 (X : FVec Ideal S32x3x128x128 .f32) (b : Fin 32) (i : Fin 3) (h w : Fin 125) (h' w' : Fin 128)
    (eh : h'.val = 0 + h.val) (ew : w'.val = 0 + w.val) :
    patchFn X (ix5 b i h w ⟨0, by omega⟩) = X (ix4 b i h' w') := by
  unfold patchFn
  refine Eq.trans (concatenate_apply_piece _ _ _ _ 0 (by show (0 : Nat) < 9; omega) S32x3x125x125x1 _ (by rfl) (by rfl) 0 (by rfl)
    (ix5 b i h w 0) (fun c hc => match c with
      | ⟨0, _⟩ => rfl | ⟨1, _⟩ => rfl | ⟨2, _⟩ => rfl | ⟨3, _⟩ => rfl | ⟨4, _⟩ => absurd rfl hc) (by rfl)) ?_
  exact patch_slice_apply X 0 0 slices_S32x3x128x128_S32x3x125x125_0_0_0_0 b i h w 0 h' w' eh ew

/-- Piece 1 of the stack is the slice at offset (0, 1). -/
theorem patchFn_piece_1 (X : FVec Ideal S32x3x128x128 .f32) (b : Fin 32) (i : Fin 3) (h w : Fin 125) (h' w' : Fin 128)
    (eh : h'.val = 0 + h.val) (ew : w'.val = 1 + w.val) :
    patchFn X (ix5 b i h w ⟨1, by omega⟩) = X (ix4 b i h' w') := by
  unfold patchFn
  refine Eq.trans (concatenate_apply_piece _ _ _ _ 1 (by show (1 : Nat) < 9; omega) S32x3x125x125x1 _ (by rfl) (by rfl) 1 (by rfl)
    (ix5 b i h w 0) (fun c hc => match c with
      | ⟨0, _⟩ => rfl | ⟨1, _⟩ => rfl | ⟨2, _⟩ => rfl | ⟨3, _⟩ => rfl | ⟨4, _⟩ => absurd rfl hc) (by rfl)) ?_
  exact patch_slice_apply X 0 1 slices_S32x3x128x128_S32x3x125x125_0_0_0_1 b i h w 0 h' w' eh ew

/-- Piece 2 of the stack is the slice at offset (0, 2). -/
theorem patchFn_piece_2 (X : FVec Ideal S32x3x128x128 .f32) (b : Fin 32) (i : Fin 3) (h w : Fin 125) (h' w' : Fin 128)
    (eh : h'.val = 0 + h.val) (ew : w'.val = 2 + w.val) :
    patchFn X (ix5 b i h w ⟨2, by omega⟩) = X (ix4 b i h' w') := by
  unfold patchFn
  refine Eq.trans (concatenate_apply_piece _ _ _ _ 2 (by show (2 : Nat) < 9; omega) S32x3x125x125x1 _ (by rfl) (by rfl) 2 (by rfl)
    (ix5 b i h w 0) (fun c hc => match c with
      | ⟨0, _⟩ => rfl | ⟨1, _⟩ => rfl | ⟨2, _⟩ => rfl | ⟨3, _⟩ => rfl | ⟨4, _⟩ => absurd rfl hc) (by rfl)) ?_
  exact patch_slice_apply X 0 2 slices_S32x3x128x128_S32x3x125x125_0_0_0_2 b i h w 0 h' w' eh ew

/-- Piece 3 of the stack is the slice at offset (1, 0). -/
theorem patchFn_piece_3 (X : FVec Ideal S32x3x128x128 .f32) (b : Fin 32) (i : Fin 3) (h w : Fin 125) (h' w' : Fin 128)
    (eh : h'.val = 1 + h.val) (ew : w'.val = 0 + w.val) :
    patchFn X (ix5 b i h w ⟨3, by omega⟩) = X (ix4 b i h' w') := by
  unfold patchFn
  refine Eq.trans (concatenate_apply_piece _ _ _ _ 3 (by show (3 : Nat) < 9; omega) S32x3x125x125x1 _ (by rfl) (by rfl) 3 (by rfl)
    (ix5 b i h w 0) (fun c hc => match c with
      | ⟨0, _⟩ => rfl | ⟨1, _⟩ => rfl | ⟨2, _⟩ => rfl | ⟨3, _⟩ => rfl | ⟨4, _⟩ => absurd rfl hc) (by rfl)) ?_
  exact patch_slice_apply X 1 0 slices_S32x3x128x128_S32x3x125x125_0_0_1_0 b i h w 0 h' w' eh ew

/-- Piece 4 of the stack is the slice at offset (1, 1). -/
theorem patchFn_piece_4 (X : FVec Ideal S32x3x128x128 .f32) (b : Fin 32) (i : Fin 3) (h w : Fin 125) (h' w' : Fin 128)
    (eh : h'.val = 1 + h.val) (ew : w'.val = 1 + w.val) :
    patchFn X (ix5 b i h w ⟨4, by omega⟩) = X (ix4 b i h' w') := by
  unfold patchFn
  refine Eq.trans (concatenate_apply_piece _ _ _ _ 4 (by show (4 : Nat) < 9; omega) S32x3x125x125x1 _ (by rfl) (by rfl) 4 (by rfl)
    (ix5 b i h w 0) (fun c hc => match c with
      | ⟨0, _⟩ => rfl | ⟨1, _⟩ => rfl | ⟨2, _⟩ => rfl | ⟨3, _⟩ => rfl | ⟨4, _⟩ => absurd rfl hc) (by rfl)) ?_
  exact patch_slice_apply X 1 1 slices_S32x3x128x128_S32x3x125x125_0_0_1_1 b i h w 0 h' w' eh ew

/-- Piece 5 of the stack is the slice at offset (1, 2). -/
theorem patchFn_piece_5 (X : FVec Ideal S32x3x128x128 .f32) (b : Fin 32) (i : Fin 3) (h w : Fin 125) (h' w' : Fin 128)
    (eh : h'.val = 1 + h.val) (ew : w'.val = 2 + w.val) :
    patchFn X (ix5 b i h w ⟨5, by omega⟩) = X (ix4 b i h' w') := by
  unfold patchFn
  refine Eq.trans (concatenate_apply_piece _ _ _ _ 5 (by show (5 : Nat) < 9; omega) S32x3x125x125x1 _ (by rfl) (by rfl) 5 (by rfl)
    (ix5 b i h w 0) (fun c hc => match c with
      | ⟨0, _⟩ => rfl | ⟨1, _⟩ => rfl | ⟨2, _⟩ => rfl | ⟨3, _⟩ => rfl | ⟨4, _⟩ => absurd rfl hc) (by rfl)) ?_
  exact patch_slice_apply X 1 2 slices_S32x3x128x128_S32x3x125x125_0_0_1_2 b i h w 0 h' w' eh ew

/-- Piece 6 of the stack is the slice at offset (2, 0). -/
theorem patchFn_piece_6 (X : FVec Ideal S32x3x128x128 .f32) (b : Fin 32) (i : Fin 3) (h w : Fin 125) (h' w' : Fin 128)
    (eh : h'.val = 2 + h.val) (ew : w'.val = 0 + w.val) :
    patchFn X (ix5 b i h w ⟨6, by omega⟩) = X (ix4 b i h' w') := by
  unfold patchFn
  refine Eq.trans (concatenate_apply_piece _ _ _ _ 6 (by show (6 : Nat) < 9; omega) S32x3x125x125x1 _ (by rfl) (by rfl) 6 (by rfl)
    (ix5 b i h w 0) (fun c hc => match c with
      | ⟨0, _⟩ => rfl | ⟨1, _⟩ => rfl | ⟨2, _⟩ => rfl | ⟨3, _⟩ => rfl | ⟨4, _⟩ => absurd rfl hc) (by rfl)) ?_
  exact patch_slice_apply X 2 0 slices_S32x3x128x128_S32x3x125x125_0_0_2_0 b i h w 0 h' w' eh ew

/-- Piece 7 of the stack is the slice at offset (2, 1). -/
theorem patchFn_piece_7 (X : FVec Ideal S32x3x128x128 .f32) (b : Fin 32) (i : Fin 3) (h w : Fin 125) (h' w' : Fin 128)
    (eh : h'.val = 2 + h.val) (ew : w'.val = 1 + w.val) :
    patchFn X (ix5 b i h w ⟨7, by omega⟩) = X (ix4 b i h' w') := by
  unfold patchFn
  refine Eq.trans (concatenate_apply_piece _ _ _ _ 7 (by show (7 : Nat) < 9; omega) S32x3x125x125x1 _ (by rfl) (by rfl) 7 (by rfl)
    (ix5 b i h w 0) (fun c hc => match c with
      | ⟨0, _⟩ => rfl | ⟨1, _⟩ => rfl | ⟨2, _⟩ => rfl | ⟨3, _⟩ => rfl | ⟨4, _⟩ => absurd rfl hc) (by rfl)) ?_
  exact patch_slice_apply X 2 1 slices_S32x3x128x128_S32x3x125x125_0_0_2_1 b i h w 0 h' w' eh ew

/-- Piece 8 of the stack is the slice at offset (2, 2). -/
theorem patchFn_piece_8 (X : FVec Ideal S32x3x128x128 .f32) (b : Fin 32) (i : Fin 3) (h w : Fin 125) (h' w' : Fin 128)
    (eh : h'.val = 2 + h.val) (ew : w'.val = 2 + w.val) :
    patchFn X (ix5 b i h w ⟨8, by omega⟩) = X (ix4 b i h' w') := by
  unfold patchFn
  refine Eq.trans (concatenate_apply_piece _ _ _ _ 8 (by show (8 : Nat) < 9; omega) S32x3x125x125x1 _ (by rfl) (by rfl) 8 (by rfl)
    (ix5 b i h w 0) (fun c hc => match c with
      | ⟨0, _⟩ => rfl | ⟨1, _⟩ => rfl | ⟨2, _⟩ => rfl | ⟨3, _⟩ => rfl | ⟨4, _⟩ => absurd rfl hc) (by rfl)) ?_
  exact patch_slice_apply X 2 2 slices_S32x3x128x128_S32x3x125x125_0_0_2_2 b i h w 0 h' w' eh ew

/-- The stacked patches at (b, i, h, w, p): the input at (b, i, h + p / 3, w + p % 3). -/
theorem patchFn_apply (X : FVec Ideal S32x3x128x128 .f32) (b : Fin 32) (i : Fin 3) (h w : Fin 125) (p : Fin 9) :
    patchFn X (ix5 b i h w p) = X (ix4 b i ⟨h.val + p.val / 3, by omega⟩ ⟨w.val + p.val % 3, by omega⟩) := by
  fin_cases p
  · exact patchFn_piece_0 X b i h w _ _ (by show h.val + 0 / 3 = 0 + h.val; omega) (by show w.val + 0 % 3 = 0 + w.val; omega)
  · exact patchFn_piece_1 X b i h w _ _ (by show h.val + 1 / 3 = 0 + h.val; omega) (by show w.val + 1 % 3 = 1 + w.val; omega)
  · exact patchFn_piece_2 X b i h w _ _ (by show h.val + 2 / 3 = 0 + h.val; omega) (by show w.val + 2 % 3 = 2 + w.val; omega)
  · exact patchFn_piece_3 X b i h w _ _ (by show h.val + 3 / 3 = 1 + h.val; omega) (by show w.val + 3 % 3 = 0 + w.val; omega)
  · exact patchFn_piece_4 X b i h w _ _ (by show h.val + 4 / 3 = 1 + h.val; omega) (by show w.val + 4 % 3 = 1 + w.val; omega)
  · exact patchFn_piece_5 X b i h w _ _ (by show h.val + 5 / 3 = 1 + h.val; omega) (by show w.val + 5 % 3 = 2 + w.val; omega)
  · exact patchFn_piece_6 X b i h w _ _ (by show h.val + 6 / 3 = 2 + h.val; omega) (by show w.val + 6 % 3 = 0 + w.val; omega)
  · exact patchFn_piece_7 X b i h w _ _ (by show h.val + 7 / 3 = 2 + h.val; omega) (by show w.val + 7 % 3 = 1 + w.val; omega)
  · exact patchFn_piece_8 X b i h w _ _ (by show h.val + 8 / 3 = 2 + h.val; omega) (by show w.val + 8 % 3 = 2 + w.val; omega)

end Cert.Quanv.Ref

end
-- ==== Proof.RefMathSlices.lean ====
/-
  The slices through which the reference hands a channel's data to its circuit, read at an index: one weight out of the
  3×9 table; one column out of a channel's 500000×9 patch matrix; one channel out of the stacked patches. And what a
  channel's patch matrix holds at pixel (b, h, w): the nine values of the 3×3 patch of the image at (h, w).
-/
import proofs.«180459_j52956946760354_2_alg».proof.Proof.RefFns
import proofs.«180459_j52956946760354_2_alg».proof.Proof.Spec
import Idealize.ShloMosaic.Lib.Pipeline.Value
import proofs.«180459_j52956946760354_2_alg».proof.Proof.RefLayXcol
import proofs.«180459_j52956946760354_2_alg».proof.Proof.RefLayPatch

set_option pp.maxSteps 5000
set_option pp.deepTerms false

noncomputable section

namespace Cert.Quanv.Ref

open Cert.ReferenceIdeal Cert.ReferenceIdeal.Facts₀ Cert.ReferenceIdeal.Facts Cert.Quanv Cert.Quanv.Ref Idealize.ShloMosaic Idealize.ShloMosaic.ValueIdx

variable [Cert.ReferenceIdeal.Facts]

/-- The one-entry slice of the weights at (oi, ok) holds weight k of channel i, for i = oi and k = ok. -/
theorem wslice_apply (W : FVec Ideal S3x9 .f32) (oi ok : Nat) (hs : S3x9.Slices ![oi, ok] S1x1) (i : Fin 3) (k : Fin 9)
    (hi : i.val = oi) (hk : k.val = ok) :
    extractStridedSlice S1x1 ![oi, ok] W hs (ix2 0 0) = W (ix2 i k) :=
  extractStridedSlice_apply _ _ _ (ix2 0 0) (ix2 i k) (fun a => match a with
    | ⟨0, _⟩ => by show i.val = oi + 0; omega
    | ⟨1, _⟩ => by show k.val = ok + 0; omega)

/-- Column ok of a patch matrix, at row n, is the matrix at (n, k) for k = ok. -/
theorem colslice_apply (xc : FVec Ideal S500000x9 .f32) (ok : Nat) (hs : S500000x9.Slices ![0, ok] S500000x1)
    (n : Fin 500000) (k : Fin 9) (hk : k.val = ok) :
    extractStridedSlice S500000x1 ![0, ok] xc hs (ix2 n 0) = xc (ix2 n k) :=
  extractStridedSlice_apply _ _ _ (ix2 n 0) (ix2 n k) (fun a => match a with
    | ⟨0, _⟩ => by show n.val = 0 + n.val; omega
    | ⟨1, _⟩ => by show k.val = ok + 0; omega)

/-- Channel oi of the stacked patches, at (b, 0, h, w, p), is the stack at (b, i, h, w, p) for i = oi. -/
theorem chslice_apply (P : FVec Ideal S32x3x125x125x9 .f32) (oi : Nat)
    (hs : S32x3x125x125x9.Slices ![0, oi, 0, 0, 0] S32x1x125x125x9)
    (b : Fin 32) (i : Fin 3) (h w : Fin 125) (p : Fin 9) (hi : i.val = oi) :
    extractStridedSlice S32x1x125x125x9 ![0, oi, 0, 0, 0] P hs (ix5 b 0 h w p) = P (ix5 b i h w p) :=
  extractStridedSlice_apply _ _ _ (ix5 b 0 h w p) (ix5 b i h w p) (fun a => match a with
    | ⟨0, _⟩ => by show b.val = 0 + b.val; omega
    | ⟨1, _⟩ => by show i.val = oi + 0; omega
    | ⟨2, _⟩ => by show h.val = 0 + h.val; omega
    | ⟨3, _⟩ => by show w.val = 0 + w.val; omega
    | ⟨4, _⟩ => by show p.val = 0 + p.val; omega)

/-- Row (b·125 + h)·125 + w of channel i's patch matrix is the 3×3 patch of image b's channel i at (h, w). -/
theorem xcol_patch (X : FVec Ideal S32x3x128x128 .f32) (oi : Nat)
    (hs : S32x3x125x125x9.Slices ![0, oi, 0, 0, 0] S32x1x125x125x9)
    (b : Fin 32) (i : Fin 3) (h w : Fin 125) (k : Fin 9) (hi : i.val = oi) :
    xcolFn (extractStridedSlice S32x1x125x125x9 ![0, oi, 0, 0, 0] (patchFn X) hs)
        (ix2 ⟨(b.val * 125 + h.val) * 125 + w.val, by omega⟩ k)
      = patch (img X b i) h.val w.val k := by
  have hlt : h.val + k.val / 3 < 128 ∧ w.val + k.val % 3 < 128 := ⟨by omega, by omega⟩
  have e : patch (img X b i) h.val w.val k = X (ix4 b i ⟨h.val + k.val / 3, hlt.1⟩ ⟨w.val + k.val % 3, hlt.2⟩) := by
    show (if hh : h.val + k.val / 3 < 128 ∧ w.val + k.val % 3 < 128 then
      X (ix4 b i ⟨h.val + k.val / 3, hh.1⟩ ⟨w.val + k.val % 3, hh.2⟩) else 0) = _
    rw [dif_pos hlt]
  rw [e, xcolFn_apply, chslice_apply _ oi hs b i h w k hi, patchFn_apply]

end Cert.Quanv.Ref

end
-- ==== Proof.RefMathW.lean ====
/-
  The reference's three weight circuits: from the uniform state, nine rotations by the channel's nine weights (one
  entry of the weight table each) and the two entangling gates, composed, are the spec's weight state of the channel.
-/
import proofs.«180459_j52956946760354_2_alg».proof.Proof.RefDefs
import proofs.«180459_j52956946760354_2_alg».proof.Proof.RefMathFacts
import proofs.«180459_j52956946760354_2_alg».proof.Proof.RefMathSlices

set_option pp.maxSteps 5000
set_option pp.deepTerms false

noncomputable section

namespace Cert.Quanv.Ref

open Cert.ReferenceIdeal Cert.ReferenceIdeal.Facts₀ Cert.ReferenceIdeal.Facts Cert.Quanv Cert.Quanv.Ref Idealize.ShloMosaic Idealize.ShloMosaic.ValueIdx

variable [Cert.ReferenceIdeal.Facts]

/-- Channel 0's weight circuit leaves the spec's weight state of row 0 of the weights. -/
theorem rC0WX12_st (hR : RotFacts) (X : FVec Ideal S32x3x128x128 .f32) (W : FVec Ideal S3x9 .f32) :
    (fun e => rC0WX12 X W (ix1 e)) = wstate (fun k => W (ix2 0 k)) := by
  unfold rC0WX12 rC0WX01 rC0W8 rC0W7 rC0W6 rC0W5 rC0W4 rC0W3 rC0W2 rC0W1 rC0W0 rC0Psi0
  show _ = cx12 (cx01 (rot2 (W (ix2 0 8)) (rot1 (W (ix2 0 7)) (rot0 (W (ix2 0 6)) (rot2 (W (ix2 0 5)) (rot1 (W (ix2 0 4)) (rot0 (W (ix2 0 3)) (rot2 (W (ix2 0 2)) (rot1 (W (ix2 0 1)) (rot0 (W (ix2 0 0)) (fun _ => amp0)))))))))))
  refine wb_st hR ?_
  refine wa_st hR ?_
  refine w2_st hR (wslice_apply W 0 8 slices_S3x9_S1x1_0_8 0 8 rfl rfl) ?_
  refine w1_st hR (wslice_apply W 0 7 slices_S3x9_S1x1_0_7 0 7 rfl rfl) ?_
  refine w0_st hR (wslice_apply W 0 6 slices_S3x9_S1x1_0_6 0 6 rfl rfl) ?_
  refine w2_st hR (wslice_apply W 0 5 slices_S3x9_S1x1_0_5 0 5 rfl rfl) ?_
  refine w1_st hR (wslice_apply W 0 4 slices_S3x9_S1x1_0_4 0 4 rfl rfl) ?_
  refine w0_st hR (wslice_apply W 0 3 slices_S3x9_S1x1_0_3 0 3 rfl rfl) ?_
  refine w2_st hR (wslice_apply W 0 2 slices_S3x9_S1x1_0_2 0 2 rfl rfl) ?_
  refine w1_st hR (wslice_apply W 0 1 slices_S3x9_S1x1_0_1 0 1 rfl rfl) ?_
  refine w0_st hR (wslice_apply W 0 0 slices_S3x9_S1x1_0_0 0 0 rfl rfl) ?_
  exact psi0_st hR

/-- Channel 1's weight circuit leaves the spec's weight state of row 1 of the weights. -/
theorem rC1WX12_st (hR : RotFacts) (X : FVec Ideal S32x3x128x128 .f32) (W : FVec Ideal S3x9 .f32) :
    (fun e => rC1WX12 X W (ix1 e)) = wstate (fun k => W (ix2 1 k)) := by
  unfold rC1WX12 rC1WX01 rC1W8 rC1W7 rC1W6 rC1W5 rC1W4 rC1W3 rC1W2 rC1W1 rC1W0 rC1Psi0
  show _ = cx12 (cx01 (rot2 (W (ix2 1 8)) (rot1 (W (ix2 1 7)) (rot0 (W (ix2 1 6)) (rot2 (W (ix2 1 5)) (rot1 (W (ix2 1 4)) (rot0 (W (ix2 1 3)) (rot2 (W (ix2 1 2)) (rot1 (W (ix2 1 1)) (rot0 (W (ix2 1 0)) (fun _ => amp0)))))))))))
  refine wb_st hR ?_
  refine wa_st hR ?_
  refine w2_st hR (wslice_apply W 1 8 slices_S3x9_S1x1_1_8 1 8 rfl rfl) ?_
  refine w1_st hR (wslice_apply W 1 7 slices_S3x9_S1x1_1_7 1 7 rfl rfl) ?_
  refine w0_st hR (wslice_apply W 1 6 slices_S3x9_S1x1_1_6 1 6 rfl rfl) ?_
  refine w2_st hR (wslice_apply W 1 5 slices_S3x9_S1x1_1_5 1 5 rfl rfl) ?_
  refine w1_st hR (wslice_apply W 1 4 slices_S3x9_S1x1_1_4 1 4 rfl rfl) ?_
  refine w0_st hR (wslice_apply W 1 3 slices_S3x9_S1x1_1_3 1 3 rfl rfl) ?_
  refine w2_st hR (wslice_apply W 1 2 slices_S3x9_S1x1_1_2 1 2 rfl rfl) ?_
  refine w1_st hR (wslice_apply W 1 1 slices_S3x9_S1x1_1_1 1 1 rfl rfl) ?_
  refine w0_st hR (wslice_apply W 1 0 slices_S3x9_S1x1_1_0 1 0 rfl rfl) ?_
  exact psi0_st hR

/-- Channel 2's weight circuit leaves the spec's weight state of row 2 of the weights. -/
theorem rC2WX12_st (hR : RotFacts) (X : FVec Ideal S32x3x128x128 .f32) (W : FVec Ideal S3x9 .f32) :
    (fun e => rC2WX12 X W (ix1 e)) = wstate (fun k => W (ix2 2 k)) := by
  unfold rC2WX12 rC2WX01 rC2W8 rC2W7 rC2W6 rC2W5 rC2W4 rC2W3 rC2W2 rC2W1 rC2W0 rC2Psi0
  show _ = cx12 (cx01 (rot2 (W (ix2 2 8)) (rot1 (W (ix2 2 7)) (rot0 (W (ix2 2 6)) (rot2 (W (ix2 2 5)) (rot1 (W (ix2 2 4)) (rot0 (W (ix2 2 3)) (rot2 (W (ix2 2 2)) (rot1 (W (ix2 2 1)) (rot0 (W (ix2 2 0)) (fun _ => amp0)))))))))))
  refine wb_st hR ?_
  refine wa_st hR ?_
  refine w2_st hR (wslice_apply W 2 8 slices_S3x9_S1x1_2_8 2 8 rfl rfl) ?_
  refine w1_st hR (wslice_apply W 2 7 slices_S3x9_S1x1_2_7 2 7 rfl rfl) ?_
  refine w0_st hR (wslice_apply W 2 6 slices_S3x9_S1x1_2_6 2 6 rfl rfl) ?_
  refine w2_st hR (wslice_apply W 2 5 slices_S3x9_S1x1_2_5 2 5 rfl rfl) ?_
  refine w1_st hR (wslice_apply W 2 4 slices_S3x9_S1x1_2_4 2 4 rfl rfl) ?_
  refine w0_st hR (wslice_apply W 2 3 slices_S3x9_S1x1_2_3 2 3 rfl rfl) ?_
  refine w2_st hR (wslice_apply W 2 2 slices_S3x9_S1x1_2_2 2 2 rfl rfl) ?_
  refine w1_st hR (wslice_apply W 2 1 slices_S3x9_S1x1_2_1 2 1 rfl rfl) ?_
  refine w0_st hR (wslice_apply W 2 0 slices_S3x9_S1x1_2_0 2 0 rfl rfl) ?_
  exact psi0_st hR

end Cert.Quanv.Ref

end
-- ==== Proof.RefMathD.lean ====
/-
  The reference's three data circuits at a pixel: from the channel's weight state copied to every pixel, nine rotations
  by the nine columns of the channel's patch matrix and the two entangling gates, composed, are the spec's circuit on the
  pixel's row of the matrix; and that row is the 3×3 patch of the image, so the result is the spec's pixel state.
-/
import proofs.«180459_j52956946760354_2_alg».proof.Proof.RefDefs
import proofs.«180459_j52956946760354_2_alg».proof.Proof.RefMathFacts
import proofs.«180459_j52956946760354_2_alg».proof.Proof.RefMathSlices
import proofs.«180459_j52956946760354_2_alg».proof.Proof.RefMathW

set_option pp.maxSteps 5000
set_option pp.deepTerms false

noncomputable section

namespace Cert.Quanv.Ref

open Cert.ReferenceIdeal Cert.ReferenceIdeal.Facts₀ Cert.ReferenceIdeal.Facts Cert.Quanv Cert.Quanv.Ref Idealize.ShloMosaic Idealize.ShloMosaic.ValueIdx

variable [Cert.ReferenceIdeal.Facts]

/-- Channel 0's data circuit at pixel n: the spec's circuit on row n of the channel's patch matrix, from the
    channel's weight state. -/
theorem rC0DX12_st (hR : RotFacts) (X : FVec Ideal S32x3x128x128 .f32) (W : FVec Ideal S3x9 .f32) (n : Fin 500000) :
    (fun e => rC0DX12 X W (ix2 n e))
      = circ (fun k => rC0XCol X W (ix2 n k)) (wstate (fun k => W (ix2 0 k))) := by
  unfold rC0DX12 rC0DX01 rC0D8 rC0D7 rC0D6 rC0D5 rC0D4 rC0D3 rC0D2 rC0D1 rC0D0 rC0BPsi
  show _ = cx12 (cx01 (rot2 (rC0XCol X W (ix2 n 8)) (rot1 (rC0XCol X W (ix2 n 7)) (rot0 (rC0XCol X W (ix2 n 6)) (rot2 (rC0XCol X W (ix2 n 5)) (rot1 (rC0XCol X W (ix2 n 4)) (rot0 (rC0XCol X W (ix2 n 3)) (rot2 (rC0XCol X W (ix2 n 2)) (rot1 (rC0XCol X W (ix2 n 1)) (rot0 (rC0XCol X W (ix2 n 0)) (wstate (fun k => W (ix2 0 k)))))))))))))
  refine db_st hR n ?_
  refine da_st hR n ?_
  refine d2_st hR n (colslice_apply _ 8 slices_S500000x9_S500000x1_0_8 n 8 rfl) ?_
  refine d1_st hR n (colslice_apply _ 7 slices_S500000x9_S500000x1_0_7 n 7 rfl) ?_
  refine d0_st hR n (colslice_apply _ 6 slices_S500000x9_S500000x1_0_6 n 6 rfl) ?_
  refine d2_st hR n (colslice_apply _ 5 slices_S500000x9_S500000x1_0_5 n 5 rfl) ?_
  refine d1_st hR n (colslice_apply _ 4 slices_S500000x9_S500000x1_0_4 n 4 rfl) ?_
  refine d0_st hR n (colslice_apply _ 3 slices_S500000x9_S500000x1_0_3 n 3 rfl) ?_
  refine d2_st hR n (colslice_apply _ 2 slices_S500000x9_S500000x1_0_2 n 2 rfl) ?_
  refine d1_st hR n (colslice_apply _ 1 slices_S500000x9_S500000x1_0_1 n 1 rfl) ?_
  refine d0_st hR n (colslice_apply _ 0 slices_S500000x9_S500000x1_0_0 n 0 rfl) ?_
  exact bpsi_st hR n (rC0WX12_st hR X W)

/-- Channel 0's final state at pixel (b, h, w): the spec's pixel state of the channel's weights and the 3×3 patch. -/
theorem rC0DX12_apply (hR : RotFacts) (X : FVec Ideal S32x3x128x128 .f32) (W : FVec Ideal S3x9 .f32)
    (b : Fin 32) (h w : Fin 125) (d : Fin 8) :
    rC0DX12 X W (ix2 ⟨(b.val * 125 + h.val) * 125 + w.val, by omega⟩ d)
      = pixState (fun k => W (ix2 0 k)) (patch (img X b 0) h.val w.val) d := by
  refine (congrFun (rC0DX12_st hR X W ⟨(b.val * 125 + h.val) * 125 + w.val, by omega⟩) d).trans ?_
  have e : (fun k => rC0XCol X W (ix2 ⟨(b.val * 125 + h.val) * 125 + w.val, by omega⟩ k))
      = patch (img X b 0) h.val w.val := by
    funext k
    unfold rC0XCol rPatch
    exact xcol_patch X 0 slices_S32x3x125x125x9_S32x1x125x125x9_0_0_0_0_0 b 0 h w k rfl
  rw [e]
  rfl

/-- Channel 1's data circuit at pixel n: the spec's circuit on row n of the channel's patch matrix, from the
    channel's weight state. -/
theorem rC1DX12_st (hR : RotFacts) (X : FVec Ideal S32x3x128x128 .f32) (W : FVec Ideal S3x9 .f32) (n : Fin 500000) :
    (fun e => rC1DX12 X W (ix2 n e))
      = circ (fun k => rC1XCol X W (ix2 n k)) (wstate (fun k => W (ix2 1 k))) := by
  unfold rC1DX12 rC1DX01 rC1D8 rC1D7 rC1D6 rC1D5 rC1D4 rC1D3 rC1D2 rC1D1 rC1D0 rC1BPsi
  show _ = cx12 (cx01 (rot2 (rC1XCol X W (ix2 n 8)) (rot1 (rC1XCol X W (ix2 n 7)) (rot0 (rC1XCol X W (ix2 n 6)) (rot2 (rC1XCol X W (ix2 n 5)) (rot1 (rC1XCol X W (ix2 n 4)) (rot0 (rC1XCol X W (ix2 n 3)) (rot2 (rC1XCol X W (ix2 n 2)) (rot1 (rC1XCol X W (ix2 n 1)) (rot0 (rC1XCol X W (ix2 n 0)) (wstate (fun k => W (ix2 1 k)))))))))))))
  refine db_st hR n ?_
  refine da_st hR n ?_
  refine d2_st hR n (colslice_apply _ 8 slices_S500000x9_S500000x1_0_8 n 8 rfl) ?_
  refine d1_st hR n (colslice_apply _ 7 slices_S500000x9_S500000x1_0_7 n 7 rfl) ?_
  refine d0_st hR n (colslice_apply _ 6 slices_S500000x9_S500000x1_0_6 n 6 rfl) ?_
  refine d2_st hR n (colslice_apply _ 5 slices_S500000x9_S500000x1_0_5 n 5 rfl) ?_
  refine d1_st hR n (colslice_apply _ 4 slices_S500000x9_S500000x1_0_4 n 4 rfl) ?_
  refine d0_st hR n (colslice_apply _ 3 slices_S500000x9_S500000x1_0_3 n 3 rfl) ?_
  refine d2_st hR n (colslice_apply _ 2 slices_S500000x9_S500000x1_0_2 n 2 rfl) ?_
  refine d1_st hR n (colslice_apply _ 1 slices_S500000x9_S500000x1_0_1 n 1 rfl) ?_
  refine d0_st hR n (colslice_apply _ 0 slices_S500000x9_S500000x1_0_0 n 0 rfl) ?_
  exact bpsi_st hR n (rC1WX12_st hR X W)

/-- Channel 1's final state at pixel (b, h, w): the spec's pixel state of the channel's weights and the 3×3 patch. -/
theorem rC1DX12_apply (hR : RotFacts) (X : FVec Ideal S32x3x128x128 .f32) (W : FVec Ideal S3x9 .f32)
    (b : Fin 32) (h w : Fin 125) (d : Fin 8) :
    rC1DX12 X W (ix2 ⟨(b.val * 125 + h.val) * 125 + w.val, by omega⟩ d)
      = pixState (fun k => W (ix2 1 k)) (patch (img X b 1) h.val w.val) d := by
  refine (congrFun (rC1DX12_st hR X W ⟨(b.val * 125 + h.val) * 125 + w.val, by omega⟩) d).trans ?_
  have e : (fun k => rC1XCol X W (ix2 ⟨(b.val * 125 + h.val) * 125 + w.val, by omega⟩ k))
      = patch (img X b 1) h.val w.val := by
    funext k
    unfold rC1XCol rPatch
    exact xcol_patch X 1 slices_S32x3x125x125x9_S32x1x125x125x9_0_1_0_0_0 b 1 h w k rfl
  rw [e]
  rfl

/-- Channel 2's data circuit at pixel n: the spec's circuit on row n of the channel's patch matrix, from the
    channel's weight state. -/
theorem rC2DX12_st (hR : RotFacts) (X : FVec Ideal S32x3x128x128 .f32) (W : FVec Ideal S3x9 .f32) (n : Fin 500000) :
    (fun e => rC2DX12 X W (ix2 n e))
      = circ (fun k => rC2XCol X W (ix2 n k)) (wstate (fun k => W (ix2 2 k))) := by
  unfold rC2DX12 rC2DX01 rC2D8 rC2D7 rC2D6 rC2D5 rC2D4 rC2D3 rC2D2 rC2D1 rC2D0 rC2BPsi
  show _ = cx12 (cx01 (rot2 (rC2XCol X W (ix2 n 8)) (rot1 (rC2XCol X W (ix2 n 7)) (rot0 (rC2XCol X W (ix2 n 6)) (rot2 (rC2XCol X W (ix2 n 5)) (rot1 (rC2XCol X W (ix2 n 4)) (rot0 (rC2XCol X W (ix2 n 3)) (rot2 (rC2XCol X W (ix2 n 2)) (rot1 (rC2XCol X W (ix2 n 1)) (rot0 (rC2XCol X W (ix2 n 0)) (wstate (fun k => W (ix2 2 k)))))))))))))
  refine db_st hR n ?_
  refine da_st hR n ?_
  refine d2_st hR n (colslice_apply _ 8 slices_S500000x9_S500000x1_0_8 n 8 rfl) ?_
  refine d1_st hR n (colslice_apply _ 7 slices_S500000x9_S500000x1_0_7 n 7 rfl) ?_
  refine d0_st hR n (colslice_apply _ 6 slices_S500000x9_S500000x1_0_6 n 6 rfl) ?_
  refine d2_st hR n (colslice_apply _ 5 slices_S500000x9_S500000x1_0_5 n 5 rfl) ?_
  refine d1_st hR n (colslice_apply _ 4 slices_S500000x9_S500000x1_0_4 n 4 rfl) ?_
  refine d0_st hR n (colslice_apply _ 3 slices_S500000x9_S500000x1_0_3 n 3 rfl) ?_
  refine d2_st hR n (colslice_apply _ 2 slices_S500000x9_S500000x1_0_2 n 2 rfl) ?_
  refine d1_st hR n (colslice_apply _ 1 slices_S500000x9_S500000x1_0_1 n 1 rfl) ?_
  refine d0_st hR n (colslice_apply _ 0 slices_S500000x9_S500000x1_0_0 n 0 rfl) ?_
  exact bpsi_st hR n (rC2WX12_st hR X W)

/-- Channel 2's final state at pixel (b, h, w): the spec's pixel state of the channel's weights and the 3×3 patch. -/
theorem rC2DX12_apply (hR : RotFacts) (X : FVec Ideal S32x3x128x128 .f32) (W : FVec Ideal S3x9 .f32)
    (b : Fin 32) (h w : Fin 125) (d : Fin 8) :
    rC2DX12 X W (ix2 ⟨(b.val * 125 + h.val) * 125 + w.val, by omega⟩ d)
      = pixState (fun k => W (ix2 2 k)) (patch (img X b 2) h.val w.val) d := by
  refine (congrFun (rC2DX12_st hR X W ⟨(b.val * 125 + h.val) * 125 + w.val, by omega⟩) d).trans ?_
  have e : (fun k => rC2XCol X W (ix2 ⟨(b.val * 125 + h.val) * 125 + w.val, by omega⟩ k))
      = patch (img X b 2) h.val w.val := by
    funext k
    unfold rC2XCol rPatch
    exact xcol_patch X 2 slices_S32x3x125x125x9_S32x1x125x125x9_0_2_0_0_0 b 2 h w k rfl
  rw [e]
  rfl

end Cert.Quanv.Ref

end
-- ==== Proof.RefLayTail.lean ====
/-
  The reference's per-channel accumulation read at an index: the squared amplitudes (500000 pixels × 8 basis states)
  are multiplied by the 8×4 one-hot matrix — a contraction over the 8 basis states —, the product is reshaped from
  (500000, 4) to (32, 125, 125, 4), pixel number n = (b·125 + h)·125 + w going to (b, h, w), and added to the accumulator.
-/
import proofs.«180459_j52956946760354_2_alg».proof.Proof.RefFns
import proofs.«180459_j52956946760354_2_alg».proof.Proof.Spec
import Idealize.ShloMosaic.Lib.Pipeline.Value
import Idealize.ShloMosaic.PureOps.Ideal.Laws

set_option pp.maxSteps 5000
set_option pp.deepTerms false

noncomputable section

namespace Cert.Quanv.Ref

open Cert.ReferenceIdeal Cert.ReferenceIdeal.Facts₀ Cert.ReferenceIdeal.Facts Cert.Quanv Cert.Quanv.Ref Idealize.ShloMosaic Idealize.ShloMosaic.ValueIdx

variable [Cert.ReferenceIdeal.Facts]

/-- The product's left operand is read at the result's row … -/
theorem tail_lhs_0 (i : S500000x4.Idx) (q : dot_S500000x8_S8x4_S500000x4_1_0_0_1_n_n.contr.Idx) : (dot_S500000x8_S8x4_S500000x4_1_0_0_1_n_n.lhsIdx i q 0).val = (i 0).val := by
  unfold DotDims.lhsIdx
  rw [dif_neg (show ¬(0 : Fin S500000x8.rank) ∈ dot_S500000x8_S8x4_S500000x4_1_0_0_1_n_n.lhsBatch from List.not_mem_nil),
    dif_pos (show (0 : Fin S500000x8.rank) ∈ dot_S500000x8_S8x4_S500000x4_1_0_0_1_n_n.lhsNonContracting from List.mem_singleton.mpr rfl)]
  rfl
/-- … and the contraction position; -/
theorem tail_lhs_1 (i : S500000x4.Idx) (q : dot_S500000x8_S8x4_S500000x4_1_0_0_1_n_n.contr.Idx) : (dot_S500000x8_S8x4_S500000x4_1_0_0_1_n_n.lhsIdx i q 1).val = (q ⟨0, Nat.one_pos⟩).val :=
  dot_S500000x8_S8x4_S500000x4_1_0_0_1_n_n.lhsIdx_val_of_single rfl i q
/-- the right operand at the contraction position … -/
theorem tail_rhs_0 (i : S500000x4.Idx) (q : dot_S500000x8_S8x4_S500000x4_1_0_0_1_n_n.contr.Idx) : (dot_S500000x8_S8x4_S500000x4_1_0_0_1_n_n.rhsIdx i q 0).val = (q ⟨0, Nat.one_pos⟩).val :=
  dot_S500000x8_S8x4_S500000x4_1_0_0_1_n_n.rhsIdx_val_of_single rfl i q
/-- … and the result's column. -/
theorem tail_rhs_1 (i : S500000x4.Idx) (q : dot_S500000x8_S8x4_S500000x4_1_0_0_1_n_n.contr.Idx) : (dot_S500000x8_S8x4_S500000x4_1_0_0_1_n_n.rhsIdx i q 1).val = (i 1).val := by
  unfold DotDims.rhsIdx
  rw [dif_neg (show ¬(1 : Fin S8x4.rank) ∈ dot_S500000x8_S8x4_S500000x4_1_0_0_1_n_n.rhsBatch from List.not_mem_nil),
    dif_pos (show (1 : Fin S8x4.rank) ∈ dot_S500000x8_S8x4_S500000x4_1_0_0_1_n_n.rhsNonContracting from List.mem_singleton.mpr rfl)]
  rfl

/-- The matrix product at (n, j): the sum over the 8 basis states. -/
theorem tail_dot_apply (l : FVec Ideal S500000x8 .f32) (r : FVec Ideal S8x4 .f32) (n : Fin 500000) (j : Fin 4) :
    Host.dotGeneral dot_S500000x8_S8x4_S500000x4_1_0_0_1_n_n none l r (ix2 n j) = ∑ d : Fin 8, l (ix2 n d) * r (ix2 d j) := by
  simp only [Host.dotGeneral]
  rw [Ideal.dotGeneral_apply, ← Equiv.sum_comp (contrEquiv1 dot_S500000x8_S8x4_S500000x4_1_0_0_1_n_n 8 rfl rfl).symm]
  refine Finset.sum_congr rfl fun k _ => ?_
  have hk := contrEquiv1_symm_val dot_S500000x8_S8x4_S500000x4_1_0_0_1_n_n 8 rfl rfl k
  have el : dot_S500000x8_S8x4_S500000x4_1_0_0_1_n_n.lhsIdx (ix2 n j) ((contrEquiv1 dot_S500000x8_S8x4_S500000x4_1_0_0_1_n_n 8 rfl rfl).symm k) = ix2 n k := funext fun a => Fin.ext (by
    match a with
    | ⟨0, _⟩ => exact tail_lhs_0 _ _
    | ⟨1, _⟩ => exact (tail_lhs_1 _ _).trans hk)
  have er : dot_S500000x8_S8x4_S500000x4_1_0_0_1_n_n.rhsIdx (ix2 n j) ((contrEquiv1 dot_S500000x8_S8x4_S500000x4_1_0_0_1_n_n 8 rfl rfl).symm k) = ix2 k j := funext fun a => Fin.ext (by
    match a with
    | ⟨0, _⟩ => exact (tail_rhs_0 _ _).trans hk
    | ⟨1, _⟩ => exact tail_rhs_1 _ _)
  rw [el, er]

/-- A channel's contribution added to the accumulator at (b, h, w, j). -/
theorem tailFn_apply (psi : FVec Ideal S500000x8 .f32) (oh : FVec Ideal S8x4 .f32) (acc : FVec Ideal S32x125x125x4 .f32)
    (b : Fin 32) (h w : Fin 125) (j : Fin 4) :
    tailFn psi oh acc (ix4 b h w j)
      = acc (ix4 b h w j) + ∑ d : Fin 8, (psi (ix2 ⟨(b.val * 125 + h.val) * 125 + w.val, by omega⟩ d) * psi (ix2 ⟨(b.val * 125 + h.val) * 125 + w.val, by omega⟩ d)) * oh (ix2 d j) := by
  unfold tailFn
  rw [addf_apply]
  congr 1
  refine (shapeCast_apply _ _ (ix4 b h w j) (ix2 ⟨(b.val * 125 + h.val) * 125 + w.val, by omega⟩ j) (by
    rw [Shape.rowMajor_val_two, Shape.rowMajor_val_four]
    show ((b.val * 125 + h.val) * 125 + w.val) * 4 + j.val = ((b.val * 125 + h.val) * 125 + w.val) * 4 + j.val
    rfl)).trans ?_
  exact tail_dot_apply _ _ _ _

end Cert.Quanv.Ref

end
-- ==== Proof.RefLayOneHot.lean ====
/-
  The reference's one-hot matrix read at an index: row d is the one-hot vector of d mod 4. The remainder is computed on
  32-bit integers with the sign fix-up of a floored remainder (a no-op here: all operands are non-negative), compared
  with the column number, and the one-bit result converted to a float: 1 where d mod 4 = j, else 0.
-/
import proofs.«180459_j52956946760354_2_alg».proof.Proof.RefFns
import proofs.«180459_j52956946760354_2_alg».proof.Proof.Spec
import Idealize.ShloMosaic.Lib.Pipeline.Value

set_option pp.maxSteps 5000
set_option pp.deepTerms false

noncomputable section

namespace Cert.Quanv.Ref

open Cert.ReferenceIdeal Cert.ReferenceIdeal.Facts₀ Cert.ReferenceIdeal.Facts Cert.Quanv Cert.Quanv.Ref Idealize.ShloMosaic Idealize.ShloMosaic.ValueIdx

variable [Cert.ReferenceIdeal.Facts]

/-- The integer chain on one pair of words: the remainder of x by 4 with the sign of the divisor (the truncated
    remainder, moved by the divisor when it is nonzero and its sign differs from the divisor's), compared with y. -/
def oneHotBit (x y : BitVec 32) : BitVec 1 :=
  IntOp.cmpi .eq
    (Scalar.select
      (IntOp.andi
        (IntOp.cmpi .ne
          (IntOp.cmpi .slt (IntOp.remsi .host x (Scalar.select (IntOp.cmpi .eq 4#32 0#32) 1#32 4#32)) 0#32)
          (IntOp.cmpi .slt (Scalar.select (IntOp.cmpi .eq 4#32 0#32) 1#32 4#32) 0#32))
        (IntOp.cmpi .ne (IntOp.remsi .host x (Scalar.select (IntOp.cmpi .eq 4#32 0#32) 1#32 4#32)) 0#32))
      (IntOp.addi (IntOp.remsi .host x (Scalar.select (IntOp.cmpi .eq 4#32 0#32) 1#32 4#32))
        (Scalar.select (IntOp.cmpi .eq 4#32 0#32) 1#32 4#32))
      (IntOp.remsi .host x (Scalar.select (IntOp.cmpi .eq 4#32 0#32) 1#32 4#32)))
    y

/-- On the words of d < 8 and j < 4 the chain says whether d mod 4 = j. -/
theorem oneHotBit_eq : ∀ (d : Fin 8) (j : Fin 4),
    oneHotBit (BitVec.ofNat 32 d.val) (BitVec.ofNat 32 j.val) = if d.val % 4 = j.val then 1#1 else 0#1 := by
  decide

/-- A column vector of 8 broadcast along the rows' axis, at (d, j), is its entry d. -/
theorem oneHot_bc_col_apply (R : IVec S8 32) (d : Fin 8) (j : Fin 4) :
    broadcastInDim S8x4 ![0, 1] bcast_S8x1_S8x4_0_1 (broadcastInDim S8x1 ![0] bcast_S8_S8x1_0 R) (ix2 d j) = R (ix1 d) := by
  refine (broadcastInDim_apply _ _ _ (ix2 d j) (ix2 d 0) (fun a => match a with | ⟨0, _⟩ => rfl | ⟨1, _⟩ => rfl)).trans ?_
  exact broadcastInDim_apply _ _ _ (ix2 d 0) (ix1 d) (fun a => match a with | ⟨0, _⟩ => rfl)

/-- A row vector of 4 broadcast along the columns' axis, at (d, j), is its entry j. -/
theorem oneHot_bc_row_apply (T : IVec S1x4 32) (d : Fin 8) (j : Fin 4) :
    broadcastInDim S8x4 ![0, 1] bcast_S1x4_S8x4_0_1 T (ix2 d j) = T (ix2 0 j) :=
  broadcastInDim_apply _ _ _ (ix2 d j) (ix2 0 j) (fun a => match a with | ⟨0, _⟩ => rfl | ⟨1, _⟩ => rfl)

/-- A scalar broadcast to a vector of 8 is the scalar at every entry. -/
theorem oneHot_bc_scalar_apply (m : IVec S_ 32) (i : S8.Idx) :
    broadcastInDim S8 ![] bcast_S_S8 m i = m ix0 :=
  broadcastInDim_apply _ _ _ i ix0 (fun a => a.elim0)

theorem oneHot_cmpi_at {s : Shape} {w : Nat} (p : CmpIPredicate) (x y : IVec s w) (i : s.Idx) :
    cmpi p x y i = IntOp.cmpi p (x i) (y i) := rfl
theorem oneHot_andi_at {s : Shape} {w : Nat} (x y : IVec s w) (i : s.Idx) : andi x y i = IntOp.andi (x i) (y i) := rfl
theorem oneHot_addi_at {s : Shape} {w : Nat} (x y : IVec s w) (i : s.Idx) : addi x y i = IntOp.addi (x i) (y i) := rfl
theorem oneHot_remsi_at {s : Shape} {w : Nat} (x y : IVec s w) (i : s.Idx) :
    Host.remsi x y i = IntOp.remsi .host (x i) (y i) := rfl
theorem oneHot_iotaInDim_at {s : Shape} (w : Nat) (a : Fin s.rank) (i : s.Idx) : iotaInDim s w a i = BitVec.ofNat w (i a).val := rfl
theorem oneHot_constantI_at {s : Shape} (w : Nat) (b : BitVec w) (i : s.Idx) : constantI s w b i = b := rfl

/-- The one-bit matrix at (d, j) is the chain on the words of d and j. -/
theorem oneHot_bits (d : Fin 8) (j : Fin 4) (c : IVec S8x4 1)
    (hc : c = ((cmpi .eq) ((broadcastInDim S8x4 ![0, 1] bcast_S8x1_S8x4_0_1) ((broadcastInDim S8x1 ![0] bcast_S8_S8x1_0) (select (andi ((cmpi .ne) ((cmpi .slt) (Host.remsi ((iotaInDim S8 32 0)) ((broadcastInDim S8 ![] bcast_S_S8) (select ((cmpi .eq) (id ((constantI S_ 32 4#32))) ((constantI S_ 32 0#32))) ((constantI S_ 32 1#32)) (id ((constantI S_ 32 4#32)))))) ((broadcastInDim S8 ![] bcast_S_S8) ((constantI S_ 32 0#32)))) ((broadcastInDim S8 ![] bcast_S_S8) ((cmpi .slt) (select ((cmpi .eq) (id ((constantI S_ 32 4#32))) ((constantI S_ 32 0#32))) ((constantI S_ 32 1#32)) (id ((constantI S_ 32 4#32)))) ((constantI S_ 32 0#32))))) ((cmpi .ne) (Host.remsi ((iotaInDim S8 32 0)) ((broadcastInDim S8 ![] bcast_S_S8) (select ((cmpi .eq) (id ((constantI S_ 32 4#32))) ((constantI S_ 32 0#32))) ((constantI S_ 32 1#32)) (id ((constantI S_ 32 4#32)))))) ((broadcastInDim S8 ![] bcast_S_S8) ((constantI S_ 32 0#32))))) (addi (Host.remsi ((iotaInDim S8 32 0)) ((broadcastInDim S8 ![] bcast_S_S8) (select ((cmpi .eq) (id ((constantI S_ 32 4#32))) ((constantI S_ 32 0#32))) ((constantI S_ 32 1#32)) (id ((constantI S_ 32 4#32)))))) ((broadcastInDim S8 ![] bcast_S_S8) (select ((cmpi .eq) (id ((constantI S_ 32 4#32))) ((constantI S_ 32 0#32))) ((constantI S_ 32 1#32)) (id ((constantI S_ 32 4#32)))))) (Host.remsi ((iotaInDim S8 32 0)) ((broadcastInDim S8 ![] bcast_S_S8) (select ((cmpi .eq) (id ((constantI S_ 32 4#32))) ((constantI S_ 32 0#32))) ((constantI S_ 32 1#32)) (id ((constantI S_ 32 4#32))))))))) ((broadcastInDim S8x4 ![0, 1] bcast_S1x4_S8x4_0_1) ((iotaInDim S1x4 32 1))))) :
    c (ix2 d j) = oneHotBit (BitVec.ofNat 32 d.val) (BitVec.ofNat 32 j.val) := by
  subst hc
  simp only [oneHot_cmpi_at, oneHot_bc_col_apply, oneHot_bc_row_apply, select_apply, oneHot_andi_at, oneHot_addi_at, oneHot_remsi_at, oneHot_bc_scalar_apply,
    oneHot_iotaInDim_at, oneHot_constantI_at, id]
  rfl

/-- A one-bit vector converted unsigned reads 1 where the bit is set and 0 where it is not. -/
theorem oneHot_uitofp_bit_apply (c : IVec S8x4 1) (i : S8x4.Idx) (P : Prop) [Decidable P]
    (hc : c i = if P then 1#1 else 0#1) :
    (uitofp .f32 c : FVec Ideal S8x4 .f32) i = if P then 1 else 0 := by
  show (((c i).toNat : ℝ) : EReal) = _
  rw [hc]
  by_cases hP : P
  · rw [if_pos hP, if_pos hP]; simp
  · rw [if_neg hP, if_neg hP]; simp

/-- Entry (d, j) of the one-hot matrix. -/
theorem oneHotFn_apply (d : Fin 8) (j : Fin 4) : oneHotFn (F := Ideal) (ix2 d j) = if d.val % 4 = j.val then 1 else 0 := by
  unfold oneHotFn
  exact oneHot_uitofp_bit_apply _ _ _ ((oneHot_bits d j _ rfl).trans (oneHotBit_eq d j))

end Cert.Quanv.Ref

end
-- ==== Proof.RefLayAcc0.lean ====
/-
  The reference's zero accumulator read at an index: a scalar constant broadcast to the whole array.
-/
import proofs.«180459_j52956946760354_2_alg».proof.Proof.RefFns
import proofs.«180459_j52956946760354_2_alg».proof.Proof.Spec
import Idealize.ShloMosaic.Lib.Pipeline.Value

set_option pp.maxSteps 5000
set_option pp.deepTerms false

noncomputable section

namespace Cert.Quanv.Ref

open Cert.ReferenceIdeal Cert.ReferenceIdeal.Facts₀ Cert.ReferenceIdeal.Facts Cert.Quanv Cert.Quanv.Ref Idealize.ShloMosaic Idealize.ShloMosaic.ValueIdx

variable [Cert.ReferenceIdeal.Facts]

/-- Every entry of the starting accumulator is the zero word's value. -/
theorem acc0Fn_apply (y : S32x125x125x4.Idx) : acc0Fn (F := Ideal) y = zero := by
  unfold acc0Fn
  refine (broadcastInDim_apply _ _ _ y ix0 (fun a => a.elim0)).trans ?_
  rfl

end Cert.Quanv.Ref

end
-- ==== Proof.RefLayFin.lean ====
/-
  The reference's last stretch read at an index: the accumulated array, laid out (image, row, column, channel), is
  transposed to (image, channel, row, column) and padded on the right and at the bottom with three zero rows and
  columns; so inside the 125×125 window it is the accumulator there, and outside it is the converted integer 0.
-/
import proofs.«180459_j52956946760354_2_alg».proof.Proof.RefFns
import proofs.«180459_j52956946760354_2_alg».proof.Proof.Spec
import Idealize.ShloMosaic.Lib.Pipeline.Value
import Idealize.ShloMosaic.Lib.KernelVsHost

set_option pp.maxSteps 5000
set_option pp.deepTerms false

noncomputable section

namespace Cert.Quanv.Ref

open Cert.ReferenceIdeal Cert.ReferenceIdeal.Facts₀ Cert.ReferenceIdeal.Facts Cert.Quanv Cert.Quanv.Ref Idealize.ShloMosaic Idealize.ShloMosaic.ValueIdx

variable [Cert.ReferenceIdeal.Facts]

/-- The padded transpose at (b, j, h, w): the accumulator at (b, h, w, j) inside the window, zero outside. -/
theorem finFn_apply (acc : FVec Ideal S32x125x125x4 .f32) (b : Fin 32) (j : Fin 4) (h w : Fin 128) :
    finFn acc (ix4 b j h w) = if hh : h.val < 125 ∧ w.val < 125 then acc (ix4 b ⟨h.val, hh.1⟩ ⟨w.val, hh.2⟩ j) else 0 := by
  unfold finFn
  by_cases hh : h.val < 125 ∧ w.val < 125
  · rw [dif_pos hh]
    refine (pad_apply_of_inside _ _ _ _ _ _ _ (ix4 b j h w) (ix4 b j ⟨h.val, hh.1⟩ ⟨w.val, hh.2⟩)
      (fun a => match a with
        | ⟨0, _⟩ => by show b.val = 0 + b.val * (0 + 1); omega
        | ⟨1, _⟩ => by show j.val = 0 + j.val * (0 + 1); omega
        | ⟨2, _⟩ => by show h.val = 0 + h.val * (0 + 1); omega
        | ⟨3, _⟩ => by show w.val = 0 + w.val * (0 + 1); omega)).trans ?_
    exact transpose_apply _ _ _ _ (ix4 b ⟨h.val, hh.1⟩ ⟨w.val, hh.2⟩ j)
      (fun c => match c with | ⟨0, _⟩ => rfl | ⟨1, _⟩ => rfl | ⟨2, _⟩ => rfl | ⟨3, _⟩ => rfl)
  · rw [dif_neg hh]
    have hz : (sitofp .f32 (constantI S_ 32 0#32) : FVec Ideal S_ .f32) (Shape.Idx.first h_S_) = 0 := by
      show (((0#32 : BitVec 32).toInt : ℝ) : EReal) = 0
      simp
    by_cases h2 : h.val < 125
    · have h3 : ¬ w.val < 125 := fun h3 => hh ⟨h2, h3⟩
      refine (pad_apply_of_not_inside _ _ _ _ _ _ _ (ix4 b j h w) ⟨3, by decide⟩ ?_).trans hz
      show ¬(0 ≤ w.val ∧ (w.val - 0) % (0 + 1) = 0 ∧ (w.val - 0) / (0 + 1) < 125)
      omega
    · refine (pad_apply_of_not_inside _ _ _ _ _ _ _ (ix4 b j h w) ⟨2, by decide⟩ ?_).trans hz
      show ¬(0 ≤ h.val ∧ (h.val - 0) % (0 + 1) = 0 ∧ (h.val - 0) / (0 + 1) < 125)
      omega

end Cert.Quanv.Ref

end
-- ==== Proof.RefMath.lean ====
/-
  The reference's result is the spec's array G. Per channel the squared amplitudes at a pixel, multiplied by the one-hot
  table and summed over the eight basis states, leave the squared amplitudes at j and j + 4; the three channels are added
  to the zero accumulator in turn, which is the spec's accumulation; and the final transpose and zero padding put it at
  (b, j, h, w) inside the 125×125 window and zero outside, which is the spec's value there.
-/
import proofs.«180459_j52956946760354_2_alg».proof.Proof.RefDefs
import proofs.«180459_j52956946760354_2_alg».proof.Proof.SpecAlg
import proofs.«180459_j52956946760354_2_alg».proof.Proof.RefMathFacts
import proofs.«180459_j52956946760354_2_alg».proof.Proof.RefMathD
import proofs.«180459_j52956946760354_2_alg».proof.Proof.RefLayTail
import proofs.«180459_j52956946760354_2_alg».proof.Proof.RefLayOneHot
import proofs.«180459_j52956946760354_2_alg».proof.Proof.RefLayAcc0
import proofs.«180459_j52956946760354_2_alg».proof.Proof.RefLayFin

set_option pp.maxSteps 5000
set_option pp.deepTerms false

noncomputable section

namespace Cert.Quanv.Ref

open Cert.ReferenceIdeal Cert.ReferenceIdeal.Facts₀ Cert.ReferenceIdeal.Facts Cert.Quanv Cert.Quanv.Ref Idealize.ShloMosaic Idealize.ShloMosaic.ValueIdx

variable [Cert.ReferenceIdeal.Facts]

/-- The three channels' final states at pixel (b, h, w). -/
def pixStates (X : FVec Ideal S32x3x128x128 .f32) (W : FVec Ideal S3x9 .f32) (b : Fin 32) (h w : Fin 125) : Fin 3 → St :=
  fun i => pixState (fun k => W (ix2 i k)) (patch (img X b i) h.val w.val)

/-- One channel's accumulation step at (b, h, w, j): when the state array holds the state s at the pixel, the step adds
    the squared amplitudes of s at j and at j + 4. -/
theorem tail_step (psi : FVec Ideal S500000x8 .f32) (acc : FVec Ideal S32x125x125x4 .f32)
    (b : Fin 32) (h w : Fin 125) (j : Fin 4) (s : St)
    (hpsi : ∀ d : Fin 8, psi (ix2 ⟨(b.val * 125 + h.val) * 125 + w.val, by omega⟩ d) = s d) :
    tailFn psi (oneHotFn (F := Ideal)) acc (ix4 b h w j)
      = acc (ix4 b h w j) + (prob s ⟨j.val, by omega⟩ + prob s ⟨j.val + 4, by omega⟩) := by
  rw [tailFn_apply, ← sum_onehot (prob s) j]
  congr 1
  refine Finset.sum_congr rfl fun d _ => ?_
  rw [hpsi d, oneHotFn_apply]
  rfl

/-- After the three channels the accumulator holds the spec's accumulation of the three pixel states. -/
theorem rC2Tail_apply (hR : RotFacts) (X : FVec Ideal S32x3x128x128 .f32) (W : FVec Ideal S3x9 .f32)
    (b : Fin 32) (h w : Fin 125) (j : Fin 4) :
    rC2Tail X W (ix4 b h w j) = accum (pixStates X W b h w) j := by
  unfold rC2Tail rC1Tail rC0Tail rOneHot rAcc0
  rw [tail_step _ _ b h w j (pixStates X W b h w 2) (fun d => rC2DX12_apply hR X W b h w d),
    tail_step _ _ b h w j (pixStates X W b h w 1) (fun d => rC1DX12_apply hR X W b h w d),
    tail_step _ _ b h w j (pixStates X W b h w 0) (fun d => rC0DX12_apply hR X W b h w d),
    acc0Fn_apply]
  exact accum_grouped (pixStates X W b h w) j

/-- The reference's result array is the spec's, given what the rotation and entangling stretches compute. -/
theorem rFin_eq_of (hR : RotFacts) (X : FVec Ideal S32x3x128x128 .f32) (W : FVec Ideal S3x9 .f32) :
    rFin (F := Ideal) X W = G X W := by
  funext y
  obtain ⟨b, j, h, w, rfl⟩ : ∃ (b : Fin 32) (j : Fin 4) (h w : Fin 128), y = ix4 b j h w :=
    ⟨y 0, y 1, y 2, y 3, eq_ix4 y⟩
  unfold rFin
  rw [finFn_apply]
  show _ = outAt X W b j h w
  unfold outAt
  by_cases hh : h.val < 125 ∧ w.val < 125
  · rw [dif_pos hh, if_pos hh, rC2Tail_apply hR]
    rfl
  · rw [dif_neg hh, if_neg hh]

end Cert.Quanv.Ref

end
-- ==== Proof.RefRotInit.lean ====
/-
  The reference's starting state and its copy to every row, read at an index.
-/
import proofs.«180459_j52956946760354_2_alg».proof.Proof.RefFns
import proofs.«180459_j52956946760354_2_alg».proof.Proof.Spec
import Idealize.ShloMosaic.Lib.Pipeline.Value

set_option pp.maxSteps 5000
set_option pp.deepTerms false

noncomputable section

namespace Cert.Quanv.Ref

open Cert.ReferenceIdeal Cert.ReferenceIdeal.Facts₀ Cert.ReferenceIdeal.Facts Cert.Quanv Cert.Quanv.Ref Idealize.ShloMosaic Idealize.ShloMosaic.ValueIdx

variable [Cert.ReferenceIdeal.Facts]

/-- The starting state: every amplitude is the uniform one. -/
theorem psi0Fn_apply (d : Fin 8) : psi0Fn (F := Ideal) (ix1 d) = amp0 := rfl

/-- A single state given to every row: row n, amplitude d reads the state's amplitude d. -/
theorem bpsiFn_apply (psi : FVec Ideal S8 .f32) (n : Fin 500000) (d : Fin 8) : bpsiFn psi (ix2 n d) = psi (ix1 d) := by
  unfold bpsiFn
  exact broadcastInDim_apply _ _ psi (ix2 n d) (ix1 d) (fun a => by match a with | ⟨0, _⟩ => rfl)

end Cert.Quanv.Ref

end
-- ==== Proof.RefRotAngleW.lean ====
/-
  The half angle's cosine and sine, as every single-state rotation stretch of the reference computes them.
-/
import proofs.«180459_j52956946760354_2_alg».proof.Proof.RefFns
import proofs.«180459_j52956946760354_2_alg».proof.Proof.Spec
import Idealize.ShloMosaic.Lib.Pipeline.Value

set_option pp.maxSteps 5000
set_option pp.deepTerms false

noncomputable section

namespace Cert.Quanv.Ref

open Cert.ReferenceIdeal Cert.ReferenceIdeal.Facts₀ Cert.ReferenceIdeal.Facts Cert.Quanv Cert.Quanv.Ref Idealize.ShloMosaic Idealize.ShloMosaic.ValueIdx

variable [Cert.ReferenceIdeal.Facts]

/-- The half angle's cosine of the single angle, as the single-state rotation stretches compute it: the 1×1 angle
    reshaped to a scalar, scaled by one half, the cosine taken, and the result given two unit axes. -/
theorem cosW_apply (t : FVec Ideal S1x1 .f32) (a b : Fin 1) :
    (broadcastInDim S1x1 (![] : Fin 0 → Fin 2) bcast_S_S1x1
      (Host.cos (mulf (shapeCast S_ t shapeCasts_S1x1_S_) (constant (F := Ideal) S_ .f32 0x3F000000#32)))) (ix2 a b)
      = Ideal.cos (t (ix2 0 0) * half) := by
  refine (broadcastInDim_apply _ _ _ (ix2 a b) ix0 ?_).trans ?_
  · intro c; exact c.elim0
  · show Ideal.cos (shapeCast S_ t shapeCasts_S1x1_S_ ix0 * _) = _
    rw [shapeCast_apply t _ ix0 (ix2 0 0) (by decide)]
    rfl

/-- The same with the sine. -/
theorem sinW_apply (t : FVec Ideal S1x1 .f32) (a b : Fin 1) :
    (broadcastInDim S1x1 (![] : Fin 0 → Fin 2) bcast_S_S1x1
      (Host.sin (mulf (shapeCast S_ t shapeCasts_S1x1_S_) (constant (F := Ideal) S_ .f32 0x3F000000#32)))) (ix2 a b)
      = Ideal.sin (t (ix2 0 0) * half) := by
  refine (broadcastInDim_apply _ _ _ (ix2 a b) ix0 ?_).trans ?_
  · intro c; exact c.elim0
  · show Ideal.sin (shapeCast S_ t shapeCasts_S1x1_S_ ix0 * _) = _
    rw [shapeCast_apply t _ ix0 (ix2 0 0) (by decide)]
    rfl

end Cert.Quanv.Ref

end
-- ==== Proof.RefRotW0.lean ====
/-
  The reference's rotation of a single state on qubit 0, read at an amplitude: the eight amplitudes are split as
  (high part, the qubit's bit, low part), the two halves are mixed by the angle's cosine and sine, and stacked back.
-/
import proofs.«180459_j52956946760354_2_alg».proof.Proof.RefFns
import proofs.«180459_j52956946760354_2_alg».proof.Proof.Spec
import Idealize.ShloMosaic.Lib.Pipeline.Value
import proofs.«180459_j52956946760354_2_alg».proof.Proof.RefRotAngleW

set_option pp.maxSteps 5000
set_option pp.deepTerms false

noncomputable section

namespace Cert.Quanv.Ref

open Cert.ReferenceIdeal Cert.ReferenceIdeal.Facts₀ Cert.ReferenceIdeal.Facts Cert.Quanv Cert.Quanv.Ref Idealize.ShloMosaic Idealize.ShloMosaic.ValueIdx

variable [Cert.ReferenceIdeal.Facts]

/-- Amplitude index from its three parts for a rotation on qubit 0: high part h, the qubit's bit b, low part l. -/
def ampW0 (h : Fin 4) (b : Fin 2) (l : Fin 1) : Fin 8 :=
  ⟨h.val * 2 + b.val * 1 + l.val, by have := h.isLt; have := b.isLt; have := l.isLt; omega⟩

/-- The state with the qubit's bit as an axis of its own reads the amplitude the three parts name. -/
theorem splitW0 (x : FVec Ideal S8 .f32) (h : Fin 4) (b : Fin 2) (l : Fin 1) :
    shapeCast S4x2x1 x shapeCasts_S8_S4x2x1 (ix3 h b l) = x (ix1 (ampW0 h b l)) := by
  refine shapeCast_apply x _ (ix3 h b l) (ix1 (ampW0 h b l)) ?_
  rw [Shape.rowMajor_val_one, Shape.rowMajor_val_three]
  show h.val * 2 + b.val * 1 + l.val = (h.val * 2 + b.val) * 1 + l.val
  omega

/-- Back to eight amplitudes: amplitude (h, b, l) is position (h, b, l). -/
theorem joinW0 (y : FVec Ideal S4x2x1 .f32) (h : Fin 4) (b : Fin 2) (l : Fin 1) :
    shapeCast S8 y shapeCasts_S4x2x1_S8 (ix1 (ampW0 h b l)) = y (ix3 h b l) := by
  refine shapeCast_apply y _ (ix1 (ampW0 h b l)) (ix3 h b l) ?_
  rw [Shape.rowMajor_val_one, Shape.rowMajor_val_three]
  show (h.val * 2 + b.val) * 1 + l.val = h.val * 2 + b.val * 1 + l.val
  omega

/-- The half of the state whose bit is 0. -/
theorem sliceLoW0 (x : FVec Ideal S4x2x1 .f32) (h : Fin 4) (l : Fin 1) :
    extractStridedSlice S4x1x1 ![0, 0, 0] x slices_S4x2x1_S4x1x1_0_0_0 (ix3 h 0 l) = x (ix3 h 0 l) :=
  extractStridedSlice_apply _ x _ (ix3 h 0 l) (ix3 h 0 l) (fun c => by
    match c with
    | ⟨0, _⟩ => exact (Nat.zero_add _).symm
    | ⟨1, _⟩ => rfl
    | ⟨2, _⟩ => exact (Nat.zero_add _).symm)

/-- The half of the state whose bit is 1. -/
theorem sliceHiW0 (x : FVec Ideal S4x2x1 .f32) (h : Fin 4) (l : Fin 1) :
    extractStridedSlice S4x1x1 ![0, 1, 0] x slices_S4x2x1_S4x1x1_0_1_0 (ix3 h 0 l) = x (ix3 h 1 l) :=
  extractStridedSlice_apply _ x _ (ix3 h 0 l) (ix3 h 1 l) (fun c => by
    match c with
    | ⟨0, _⟩ => exact (Nat.zero_add _).symm
    | ⟨1, _⟩ => rfl
    | ⟨2, _⟩ => exact (Nat.zero_add _).symm)

/-- Dropping the half's unit axis. -/
theorem squeezeW0 (x : FVec Ideal S4x1x1 .f32) (h : Fin 4) (l : Fin 1) :
    shapeCast S4x1 x shapeCasts_S4x1x1_S4x1 (ix2 h l) = x (ix3 h 0 l) := by
  refine shapeCast_apply x _ (ix2 h l) (ix3 h 0 l) ?_
  rw [Shape.rowMajor_val_two, Shape.rowMajor_val_three]
  show (h.val * 1 + 0) * 1 + l.val = h.val * 1 + l.val
  omega

/-- The cosine or sine spread over the half's positions. -/
theorem spreadW0 (x : FVec Ideal S1x1 .f32) (h : Fin 4) (l : Fin 1) :
    broadcastInDim S4x1 (![0, 1] : Fin 2 → Fin 2) bcast_S1x1_S4x1_0_1 x (ix2 h l) = x (ix2 0 0) :=
  broadcastInDim_apply _ _ x (ix2 h l) (ix2 0 0) (fun c => by
    match c with
    | ⟨0, _⟩ => rfl
    | ⟨1, _⟩ => rfl)

/-- Giving the new half its unit axis back. -/
theorem unsqueezeW0 (x : FVec Ideal S4x1 .f32) (h : Fin 4) (l : Fin 1) :
    broadcastInDim S4x1x1 (![0, 2] : Fin 2 → Fin 3) bcast_S4x1_S4x1x1_0_2 x (ix3 h 0 l) = x (ix2 h l) :=
  broadcastInDim_apply _ _ x (ix3 h 0 l) (ix2 h l) (fun c => by
    match c with
    | ⟨0, _⟩ => first | rfl | exact Fin.val_eq_zero _
    | ⟨1, _⟩ => first | rfl | exact Fin.val_eq_zero _)

/-- The two new halves stacked on the bit's axis: bit 0 reads the first. -/
theorem stackLoW0 (a b : FVec Ideal S4x1x1 .f32) (h : Fin 4) (l : Fin 1) :
    concatenate S4x2x1 1 [⟨S4x1x1, a⟩, ⟨S4x1x1, b⟩] concatenates_S4x1x1_S4x1x1_S4x2x1_d1 (ix3 h 0 l) = a (ix3 h 0 l) :=
  concatenate_pair_apply_left (t := S4x2x1) (s₁ := S4x1x1) (s₂ := S4x1x1) 1 a b _ (ix3 h (0 : Fin 2) l) rfl (ix3 h (0 : Fin 1) l) (fun c => by
    match c with
    | ⟨0, _⟩ => rfl
    | ⟨1, _⟩ => rfl
    | ⟨2, _⟩ => rfl)

/-- Bit 1 reads the second. -/
theorem stackHiW0 (a b : FVec Ideal S4x1x1 .f32) (h : Fin 4) (l : Fin 1) :
    concatenate S4x2x1 1 [⟨S4x1x1, a⟩, ⟨S4x1x1, b⟩] concatenates_S4x1x1_S4x1x1_S4x2x1_d1 (ix3 h 1 l) = b (ix3 h 0 l) :=
  concatenate_pair_apply_right (t := S4x2x1) (s₁ := S4x1x1) (s₂ := S4x1x1) 1 a b _ (ix3 h (1 : Fin 2) l) rfl rfl (ix3 h (0 : Fin 1) l) (fun c hc => by
    match c with
    | ⟨0, _⟩ => rfl
    | ⟨1, _⟩ => exact absurd rfl hc
    | ⟨2, _⟩ => rfl) (by rfl)

/-- The rotated state where the qubit's bit is 0: cos · (bit-0 amplitude) − sin · (bit-1 amplitude). -/
theorem ryW0_lo (psi : FVec Ideal S8 .f32) (t : FVec Ideal S1x1 .f32) (h : Fin 4) (l : Fin 1) :
    ryW0Fn psi t (ix1 (ampW0 h 0 l))
      = Ideal.cos (t (ix2 0 0) * half) * psi (ix1 (ampW0 h 0 l)) - Ideal.sin (t (ix2 0 0) * half) * psi (ix1 (ampW0 h 1 l)) := by
  simp only [ryW0Fn, joinW0, stackLoW0, unsqueezeW0, subf_apply, mulf_apply, spreadW0, cosW_apply, sinW_apply,
    squeezeW0, sliceLoW0, sliceHiW0, splitW0]

/-- Where it is 1: sin · (bit-0 amplitude) + cos · (bit-1 amplitude). -/
theorem ryW0_hi (psi : FVec Ideal S8 .f32) (t : FVec Ideal S1x1 .f32) (h : Fin 4) (l : Fin 1) :
    ryW0Fn psi t (ix1 (ampW0 h 1 l))
      = Ideal.sin (t (ix2 0 0) * half) * psi (ix1 (ampW0 h 0 l)) + Ideal.cos (t (ix2 0 0) * half) * psi (ix1 (ampW0 h 1 l)) := by
  simp only [ryW0Fn, joinW0, stackHiW0, unsqueezeW0, addf_apply, mulf_apply, spreadW0, cosW_apply, sinW_apply,
    squeezeW0, sliceLoW0, sliceHiW0, splitW0]

/-- A single-state rotation stretch on qubit 0, read at amplitude d, is the rotation of the state by the angle. -/
theorem ryW0Fn_apply (psi : FVec Ideal S8 .f32) (t : FVec Ideal S1x1 .f32) (d : Fin 8) :
    ryW0Fn psi t (ix1 d) = rot0 (t (ix2 0 0)) (fun e => psi (ix1 e)) d := by
  fin_cases d
  · exact ryW0_lo psi t 0 0
  · exact ryW0_hi psi t 0 0
  · exact ryW0_lo psi t 1 0
  · exact ryW0_hi psi t 1 0
  · exact ryW0_lo psi t 2 0
  · exact ryW0_hi psi t 2 0
  · exact ryW0_lo psi t 3 0
  · exact ryW0_hi psi t 3 0

end Cert.Quanv.Ref

end
-- ==== Proof.RefRotW1.lean ====
/-
  The reference's rotation of a single state on qubit 1, read at an amplitude: the eight amplitudes are split as
  (high part, the qubit's bit, low part), the two halves are mixed by the angle's cosine and sine, and stacked back.
-/
import proofs.«180459_j52956946760354_2_alg».proof.Proof.RefFns
import proofs.«180459_j52956946760354_2_alg».proof.Proof.Spec
import Idealize.ShloMosaic.Lib.Pipeline.Value
import proofs.«180459_j52956946760354_2_alg».proof.Proof.RefRotAngleW

set_option pp.maxSteps 5000
set_option pp.deepTerms false

noncomputable section

namespace Cert.Quanv.Ref

open Cert.ReferenceIdeal Cert.ReferenceIdeal.Facts₀ Cert.ReferenceIdeal.Facts Cert.Quanv Cert.Quanv.Ref Idealize.ShloMosaic Idealize.ShloMosaic.ValueIdx

variable [Cert.ReferenceIdeal.Facts]

/-- Amplitude index from its three parts for a rotation on qubit 1: high part h, the qubit's bit b, low part l. -/
def ampW1 (h : Fin 2) (b : Fin 2) (l : Fin 2) : Fin 8 :=
  ⟨h.val * 4 + b.val * 2 + l.val, by have := h.isLt; have := b.isLt; have := l.isLt; omega⟩

/-- The state with the qubit's bit as an axis of its own reads the amplitude the three parts name. -/
theorem splitW1 (x : FVec Ideal S8 .f32) (h : Fin 2) (b : Fin 2) (l : Fin 2) :
    shapeCast S2x2x2 x shapeCasts_S8_S2x2x2 (ix3 h b l) = x (ix1 (ampW1 h b l)) := by
  refine shapeCast_apply x _ (ix3 h b l) (ix1 (ampW1 h b l)) ?_
  rw [Shape.rowMajor_val_one, Shape.rowMajor_val_three]
  show h.val * 4 + b.val * 2 + l.val = (h.val * 2 + b.val) * 2 + l.val
  omega

/-- Back to eight amplitudes: amplitude (h, b, l) is position (h, b, l). -/
theorem joinW1 (y : FVec Ideal S2x2x2 .f32) (h : Fin 2) (b : Fin 2) (l : Fin 2) :
    shapeCast S8 y shapeCasts_S2x2x2_S8 (ix1 (ampW1 h b l)) = y (ix3 h b l) := by
  refine shapeCast_apply y _ (ix1 (ampW1 h b l)) (ix3 h b l) ?_
  rw [Shape.rowMajor_val_one, Shape.rowMajor_val_three]
  show (h.val * 2 + b.val) * 2 + l.val = h.val * 4 + b.val * 2 + l.val
  omega

/-- The half of the state whose bit is 0. -/
theorem sliceLoW1 (x : FVec Ideal S2x2x2 .f32) (h : Fin 2) (l : Fin 2) :
    extractStridedSlice S2x1x2 ![0, 0, 0] x slices_S2x2x2_S2x1x2_0_0_0 (ix3 h 0 l) = x (ix3 h 0 l) :=
  extractStridedSlice_apply _ x _ (ix3 h 0 l) (ix3 h 0 l) (fun c => by
    match c with
    | ⟨0, _⟩ => exact (Nat.zero_add _).symm
    | ⟨1, _⟩ => rfl
    | ⟨2, _⟩ => exact (Nat.zero_add _).symm)

/-- The half of the state whose bit is 1. -/
theorem sliceHiW1 (x : FVec Ideal S2x2x2 .f32) (h : Fin 2) (l : Fin 2) :
    extractStridedSlice S2x1x2 ![0, 1, 0] x slices_S2x2x2_S2x1x2_0_1_0 (ix3 h 0 l) = x (ix3 h 1 l) :=
  extractStridedSlice_apply _ x _ (ix3 h 0 l) (ix3 h 1 l) (fun c => by
    match c with
    | ⟨0, _⟩ => exact (Nat.zero_add _).symm
    | ⟨1, _⟩ => rfl
    | ⟨2, _⟩ => exact (Nat.zero_add _).symm)

/-- Dropping the half's unit axis. -/
theorem squeezeW1 (x : FVec Ideal S2x1x2 .f32) (h : Fin 2) (l : Fin 2) :
    shapeCast S2x2 x shapeCasts_S2x1x2_S2x2 (ix2 h l) = x (ix3 h 0 l) := by
  refine shapeCast_apply x _ (ix2 h l) (ix3 h 0 l) ?_
  rw [Shape.rowMajor_val_two, Shape.rowMajor_val_three]
  show (h.val * 1 + 0) * 2 + l.val = h.val * 2 + l.val
  omega

/-- The cosine or sine spread over the half's positions. -/
theorem spreadW1 (x : FVec Ideal S1x1 .f32) (h : Fin 2) (l : Fin 2) :
    broadcastInDim S2x2 (![0, 1] : Fin 2 → Fin 2) bcast_S1x1_S2x2_0_1 x (ix2 h l) = x (ix2 0 0) :=
  broadcastInDim_apply _ _ x (ix2 h l) (ix2 0 0) (fun c => by
    match c with
    | ⟨0, _⟩ => rfl
    | ⟨1, _⟩ => rfl)

/-- Giving the new half its unit axis back. -/
theorem unsqueezeW1 (x : FVec Ideal S2x2 .f32) (h : Fin 2) (l : Fin 2) :
    broadcastInDim S2x1x2 (![0, 2] : Fin 2 → Fin 3) bcast_S2x2_S2x1x2_0_2 x (ix3 h 0 l) = x (ix2 h l) :=
  broadcastInDim_apply _ _ x (ix3 h 0 l) (ix2 h l) (fun c => by
    match c with
    | ⟨0, _⟩ => first | rfl | exact Fin.val_eq_zero _
    | ⟨1, _⟩ => first | rfl | exact Fin.val_eq_zero _)

/-- The two new halves stacked on the bit's axis: bit 0 reads the first. -/
theorem stackLoW1 (a b : FVec Ideal S2x1x2 .f32) (h : Fin 2) (l : Fin 2) :
    concatenate S2x2x2 1 [⟨S2x1x2, a⟩, ⟨S2x1x2, b⟩] concatenates_S2x1x2_S2x1x2_S2x2x2_d1 (ix3 h 0 l) = a (ix3 h 0 l) :=
  concatenate_pair_apply_left (t := S2x2x2) (s₁ := S2x1x2) (s₂ := S2x1x2) 1 a b _ (ix3 h (0 : Fin 2) l) rfl (ix3 h (0 : Fin 1) l) (fun c => by
    match c with
    | ⟨0, _⟩ => rfl
    | ⟨1, _⟩ => rfl
    | ⟨2, _⟩ => rfl)

/-- Bit 1 reads the second. -/
theorem stackHiW1 (a b : FVec Ideal S2x1x2 .f32) (h : Fin 2) (l : Fin 2) :
    concatenate S2x2x2 1 [⟨S2x1x2, a⟩, ⟨S2x1x2, b⟩] concatenates_S2x1x2_S2x1x2_S2x2x2_d1 (ix3 h 1 l) = b (ix3 h 0 l) :=
  concatenate_pair_apply_right (t := S2x2x2) (s₁ := S2x1x2) (s₂ := S2x1x2) 1 a b _ (ix3 h (1 : Fin 2) l) rfl rfl (ix3 h (0 : Fin 1) l) (fun c hc => by
    match c with
    | ⟨0, _⟩ => rfl
    | ⟨1, _⟩ => exact absurd rfl hc
    | ⟨2, _⟩ => rfl) (by rfl)

/-- The rotated state where the qubit's bit is 0: cos · (bit-0 amplitude) − sin · (bit-1 amplitude). -/
theorem ryW1_lo (psi : FVec Ideal S8 .f32) (t : FVec Ideal S1x1 .f32) (h : Fin 2) (l : Fin 2) :
    ryW1Fn psi t (ix1 (ampW1 h 0 l))
      = Ideal.cos (t (ix2 0 0) * half) * psi (ix1 (ampW1 h 0 l)) - Ideal.sin (t (ix2 0 0) * half) * psi (ix1 (ampW1 h 1 l)) := by
  simp only [ryW1Fn, joinW1, stackLoW1, unsqueezeW1, subf_apply, mulf_apply, spreadW1, cosW_apply, sinW_apply,
    squeezeW1, sliceLoW1, sliceHiW1, splitW1]

/-- Where it is 1: sin · (bit-0 amplitude) + cos · (bit-1 amplitude). -/
theorem ryW1_hi (psi : FVec Ideal S8 .f32) (t : FVec Ideal S1x1 .f32) (h : Fin 2) (l : Fin 2) :
    ryW1Fn psi t (ix1 (ampW1 h 1 l))
      = Ideal.sin (t (ix2 0 0) * half) * psi (ix1 (ampW1 h 0 l)) + Ideal.cos (t (ix2 0 0) * half) * psi (ix1 (ampW1 h 1 l)) := by
  simp only [ryW1Fn, joinW1, stackHiW1, unsqueezeW1, addf_apply, mulf_apply, spreadW1, cosW_apply, sinW_apply,
    squeezeW1, sliceLoW1, sliceHiW1, splitW1]

/-- A single-state rotation stretch on qubit 1, read at amplitude d, is the rotation of the state by the angle. -/
theorem ryW1Fn_apply (psi : FVec Ideal S8 .f32) (t : FVec Ideal S1x1 .f32) (d : Fin 8) :
    ryW1Fn psi t (ix1 d) = rot1 (t (ix2 0 0)) (fun e => psi (ix1 e)) d := by
  fin_cases d
  · exact ryW1_lo psi t 0 0
  · exact ryW1_lo psi t 0 1
  · exact ryW1_hi psi t 0 0
  · exact ryW1_hi psi t 0 1
  · exact ryW1_lo psi t 1 0
  · exact ryW1_lo psi t 1 1
  · exact ryW1_hi psi t 1 0
  · exact ryW1_hi psi t 1 1

end Cert.Quanv.Ref

end
-- ==== Proof.RefRotW2.lean ====
/-
  The reference's rotation of a single state on qubit 2, read at an amplitude: the eight amplitudes are split as
  (high part, the qubit's bit, low part), the two halves are mixed by the angle's cosine and sine, and stacked back.
-/
import proofs.«180459_j52956946760354_2_alg».proof.Proof.RefFns
import proofs.«180459_j52956946760354_2_alg».proof.Proof.Spec
import Idealize.ShloMosaic.Lib.Pipeline.Value
import proofs.«180459_j52956946760354_2_alg».proof.Proof.RefRotAngleW

set_option pp.maxSteps 5000
set_option pp.deepTerms false

noncomputable section

namespace Cert.Quanv.Ref

open Cert.ReferenceIdeal Cert.ReferenceIdeal.Facts₀ Cert.ReferenceIdeal.Facts Cert.Quanv Cert.Quanv.Ref Idealize.ShloMosaic Idealize.ShloMosaic.ValueIdx

variable [Cert.ReferenceIdeal.Facts]

/-- Amplitude index from its three parts for a rotation on qubit 2: high part h, the qubit's bit b, low part l. -/
def ampW2 (h : Fin 1) (b : Fin 2) (l : Fin 4) : Fin 8 :=
  ⟨h.val * 8 + b.val * 4 + l.val, by have := h.isLt; have := b.isLt; have := l.isLt; omega⟩

/-- The state with the qubit's bit as an axis of its own reads the amplitude the three parts name. -/
theorem splitW2 (x : FVec Ideal S8 .f32) (h : Fin 1) (b : Fin 2) (l : Fin 4) :
    shapeCast S1x2x4 x shapeCasts_S8_S1x2x4 (ix3 h b l) = x (ix1 (ampW2 h b l)) := by
  refine shapeCast_apply x _ (ix3 h b l) (ix1 (ampW2 h b l)) ?_
  rw [Shape.rowMajor_val_one, Shape.rowMajor_val_three]
  show h.val * 8 + b.val * 4 + l.val = (h.val * 2 + b.val) * 4 + l.val
  omega

/-- Back to eight amplitudes: amplitude (h, b, l) is position (h, b, l). -/
theorem joinW2 (y : FVec Ideal S1x2x4 .f32) (h : Fin 1) (b : Fin 2) (l : Fin 4) :
    shapeCast S8 y shapeCasts_S1x2x4_S8 (ix1 (ampW2 h b l)) = y (ix3 h b l) := by
  refine shapeCast_apply y _ (ix1 (ampW2 h b l)) (ix3 h b l) ?_
  rw [Shape.rowMajor_val_one, Shape.rowMajor_val_three]
  show (h.val * 2 + b.val) * 4 + l.val = h.val * 8 + b.val * 4 + l.val
  omega

/-- The half of the state whose bit is 0. -/
theorem sliceLoW2 (x : FVec Ideal S1x2x4 .f32) (h : Fin 1) (l : Fin 4) :
    extractStridedSlice S1x1x4 ![0, 0, 0] x slices_S1x2x4_S1x1x4_0_0_0 (ix3 h 0 l) = x (ix3 h 0 l) :=
  extractStridedSlice_apply _ x _ (ix3 h 0 l) (ix3 h 0 l) (fun c => by
    match c with
    | ⟨0, _⟩ => exact (Nat.zero_add _).symm
    | ⟨1, _⟩ => rfl
    | ⟨2, _⟩ => exact (Nat.zero_add _).symm)

/-- The half of the state whose bit is 1. -/
theorem sliceHiW2 (x : FVec Ideal S1x2x4 .f32) (h : Fin 1) (l : Fin 4) :
    extractStridedSlice S1x1x4 ![0, 1, 0] x slices_S1x2x4_S1x1x4_0_1_0 (ix3 h 0 l) = x (ix3 h 1 l) :=
  extractStridedSlice_apply _ x _ (ix3 h 0 l) (ix3 h 1 l) (fun c => by
    match c with
    | ⟨0, _⟩ => exact (Nat.zero_add _).symm
    | ⟨1, _⟩ => rfl
    | ⟨2, _⟩ => exact (Nat.zero_add _).symm)

/-- Dropping the half's unit axis. -/
theorem squeezeW2 (x : FVec Ideal S1x1x4 .f32) (h : Fin 1) (l : Fin 4) :
    shapeCast S1x4 x shapeCasts_S1x1x4_S1x4 (ix2 h l) = x (ix3 h 0 l) := by
  refine shapeCast_apply x _ (ix2 h l) (ix3 h 0 l) ?_
  rw [Shape.rowMajor_val_two, Shape.rowMajor_val_three]
  show (h.val * 1 + 0) * 4 + l.val = h.val * 4 + l.val
  omega

/-- The cosine or sine spread over the half's positions. -/
theorem spreadW2 (x : FVec Ideal S1x1 .f32) (h : Fin 1) (l : Fin 4) :
    broadcastInDim S1x4 (![0, 1] : Fin 2 → Fin 2) bcast_S1x1_S1x4_0_1 x (ix2 h l) = x (ix2 0 0) :=
  broadcastInDim_apply _ _ x (ix2 h l) (ix2 0 0) (fun c => by
    match c with
    | ⟨0, _⟩ => rfl
    | ⟨1, _⟩ => rfl)

/-- Giving the new half its unit axis back. -/
theorem unsqueezeW2 (x : FVec Ideal S1x4 .f32) (h : Fin 1) (l : Fin 4) :
    broadcastInDim S1x1x4 (![0, 2] : Fin 2 → Fin 3) bcast_S1x4_S1x1x4_0_2 x (ix3 h 0 l) = x (ix2 h l) :=
  broadcastInDim_apply _ _ x (ix3 h 0 l) (ix2 h l) (fun c => by
    match c with
    | ⟨0, _⟩ => first | rfl | exact Fin.val_eq_zero _
    | ⟨1, _⟩ => first | rfl | exact Fin.val_eq_zero _)

/-- The two new halves stacked on the bit's axis: bit 0 reads the first. -/
theorem stackLoW2 (a b : FVec Ideal S1x1x4 .f32) (h : Fin 1) (l : Fin 4) :
    concatenate S1x2x4 1 [⟨S1x1x4, a⟩, ⟨S1x1x4, b⟩] concatenates_S1x1x4_S1x1x4_S1x2x4_d1 (ix3 h 0 l) = a (ix3 h 0 l) :=
  concatenate_pair_apply_left (t := S1x2x4) (s₁ := S1x1x4) (s₂ := S1x1x4) 1 a b _ (ix3 h (0 : Fin 2) l) rfl (ix3 h (0 : Fin 1) l) (fun c => by
    match c with
    | ⟨0, _⟩ => rfl
    | ⟨1, _⟩ => rfl
    | ⟨2, _⟩ => rfl)

/-- Bit 1 reads the second. -/
theorem stackHiW2 (a b : FVec Ideal S1x1x4 .f32) (h : Fin 1) (l : Fin 4) :
    concatenate S1x2x4 1 [⟨S1x1x4, a⟩, ⟨S1x1x4, b⟩] concatenates_S1x1x4_S1x1x4_S1x2x4_d1 (ix3 h 1 l) = b (ix3 h 0 l) :=
  concatenate_pair_apply_right (t := S1x2x4) (s₁ := S1x1x4) (s₂ := S1x1x4) 1 a b _ (ix3 h (1 : Fin 2) l) rfl rfl (ix3 h (0 : Fin 1) l) (fun c hc => by
    match c with
    | ⟨0, _⟩ => rfl
    | ⟨1, _⟩ => exact absurd rfl hc
    | ⟨2, _⟩ => rfl) (by rfl)

/-- The rotated state where the qubit's bit is 0: cos · (bit-0 amplitude) − sin · (bit-1 amplitude). -/
theorem ryW2_lo (psi : FVec Ideal S8 .f32) (t : FVec Ideal S1x1 .f32) (h : Fin 1) (l : Fin 4) :
    ryW2Fn psi t (ix1 (ampW2 h 0 l))
      = Ideal.cos (t (ix2 0 0) * half) * psi (ix1 (ampW2 h 0 l)) - Ideal.sin (t (ix2 0 0) * half) * psi (ix1 (ampW2 h 1 l)) := by
  simp only [ryW2Fn, joinW2, stackLoW2, unsqueezeW2, subf_apply, mulf_apply, spreadW2, cosW_apply, sinW_apply,
    squeezeW2, sliceLoW2, sliceHiW2, splitW2]

/-- Where it is 1: sin · (bit-0 amplitude) + cos · (bit-1 amplitude). -/
theorem ryW2_hi (psi : FVec Ideal S8 .f32) (t : FVec Ideal S1x1 .f32) (h : Fin 1) (l : Fin 4) :
    ryW2Fn psi t (ix1 (ampW2 h 1 l))
      = Ideal.sin (t (ix2 0 0) * half) * psi (ix1 (ampW2 h 0 l)) + Ideal.cos (t (ix2 0 0) * half) * psi (ix1 (ampW2 h 1 l)) := by
  simp only [ryW2Fn, joinW2, stackHiW2, unsqueezeW2, addf_apply, mulf_apply, spreadW2, cosW_apply, sinW_apply,
    squeezeW2, sliceLoW2, sliceHiW2, splitW2]

/-- A single-state rotation stretch on qubit 2, read at amplitude d, is the rotation of the state by the angle. -/
theorem ryW2Fn_apply (psi : FVec Ideal S8 .f32) (t : FVec Ideal S1x1 .f32) (d : Fin 8) :
    ryW2Fn psi t (ix1 d) = rot2 (t (ix2 0 0)) (fun e => psi (ix1 e)) d := by
  fin_cases d
  · exact ryW2_lo psi t 0 0
  · exact ryW2_lo psi t 0 1
  · exact ryW2_lo psi t 0 2
  · exact ryW2_lo psi t 0 3
  · exact ryW2_hi psi t 0 0
  · exact ryW2_hi psi t 0 1
  · exact ryW2_hi psi t 0 2
  · exact ryW2_hi psi t 0 3

end Cert.Quanv.Ref

end
-- ==== Proof.RefRotAngleD.lean ====
/-
  The half angle's cosine and sine of a row, as every batched rotation stretch of the reference computes them.
-/
import proofs.«180459_j52956946760354_2_alg».proof.Proof.RefFns
import proofs.«180459_j52956946760354_2_alg».proof.Proof.Spec
import Idealize.ShloMosaic.Lib.Pipeline.Value

set_option pp.maxSteps 5000
set_option pp.deepTerms false

noncomputable section

namespace Cert.Quanv.Ref

open Cert.ReferenceIdeal Cert.ReferenceIdeal.Facts₀ Cert.ReferenceIdeal.Facts Cert.Quanv Cert.Quanv.Ref Idealize.ShloMosaic Idealize.ShloMosaic.ValueIdx

variable [Cert.ReferenceIdeal.Facts]

/-- The half angle's cosine of row n, as the batched rotation stretches compute it: the angle column reshaped to a
    vector, scaled by one half, the cosine taken, and the result given two unit axes. -/
theorem cosD_apply (t : FVec Ideal S500000x1 .f32) (n : Fin 500000) (a b : Fin 1) :
    (broadcastInDim S500000x1x1 (![0] : Fin 1 → Fin 3) bcast_S500000_S500000x1x1_0
      (Host.cos (mulf (shapeCast S500000 t shapeCasts_S500000x1_S500000)
        (broadcastInDim S500000 (![] : Fin 0 → Fin 1) bcast_S_S500000 (constant (F := Ideal) S_ .f32 0x3F000000#32))))) (ix3 n a b)
      = Ideal.cos (t (ix2 n 0) * half) := by
  refine (broadcastInDim_apply _ _ _ (ix3 n a b) (ix1 n) ?_).trans ?_
  · intro c; match c with | ⟨0, _⟩ => rfl
  · show Ideal.cos (shapeCast S500000 t shapeCasts_S500000x1_S500000 (ix1 n) * _) = _
    rw [shapeCast_apply t _ (ix1 n) (ix2 n 0) (by
      rw [Shape.rowMajor_val_two, Shape.rowMajor_val_one]; show n.val * 1 + 0 = n.val; omega)]
    rfl

/-- The same with the sine. -/
theorem sinD_apply (t : FVec Ideal S500000x1 .f32) (n : Fin 500000) (a b : Fin 1) :
    (broadcastInDim S500000x1x1 (![0] : Fin 1 → Fin 3) bcast_S500000_S500000x1x1_0
      (Host.sin (mulf (shapeCast S500000 t shapeCasts_S500000x1_S500000)
        (broadcastInDim S500000 (![] : Fin 0 → Fin 1) bcast_S_S500000 (constant (F := Ideal) S_ .f32 0x3F000000#32))))) (ix3 n a b)
      = Ideal.sin (t (ix2 n 0) * half) := by
  refine (broadcastInDim_apply _ _ _ (ix3 n a b) (ix1 n) ?_).trans ?_
  · intro c; match c with | ⟨0, _⟩ => rfl
  · show Ideal.sin (shapeCast S500000 t shapeCasts_S500000x1_S500000 (ix1 n) * _) = _
    rw [shapeCast_apply t _ (ix1 n) (ix2 n 0) (by
      rw [Shape.rowMajor_val_two, Shape.rowMajor_val_one]; show n.val * 1 + 0 = n.val; omega)]
    rfl

end Cert.Quanv.Ref

end
-- ==== Proof.RefRotD0.lean ====
/-
  The reference's batched rotation on qubit 0, read at a row and an amplitude: the state's eight amplitudes are split
  as (high part, the qubit's bit, low part), the two halves are mixed by the row's cosine and sine, and stacked back.
-/
import proofs.«180459_j52956946760354_2_alg».proof.Proof.RefFns
import proofs.«180459_j52956946760354_2_alg».proof.Proof.Spec
import Idealize.ShloMosaic.Lib.Pipeline.Value
import proofs.«180459_j52956946760354_2_alg».proof.Proof.RefRotAngleD

set_option pp.maxSteps 5000
set_option pp.deepTerms false

noncomputable section

namespace Cert.Quanv.Ref

open Cert.ReferenceIdeal Cert.ReferenceIdeal.Facts₀ Cert.ReferenceIdeal.Facts Cert.Quanv Cert.Quanv.Ref Idealize.ShloMosaic Idealize.ShloMosaic.ValueIdx

variable [Cert.ReferenceIdeal.Facts]

/-- Amplitude index from its three parts for a rotation on qubit 0: high part h, the qubit's bit b, low part l. -/
def ampD0 (h : Fin 4) (b : Fin 2) (l : Fin 1) : Fin 8 :=
  ⟨h.val * 2 + b.val * 1 + l.val, by have := h.isLt; have := b.isLt; have := l.isLt; omega⟩

/-- The state array with the qubit's bit as an axis of its own reads the amplitude the three parts name. -/
theorem splitD0 (x : FVec Ideal S500000x8 .f32) (n : Fin 500000) (h : Fin 4) (b : Fin 2) (l : Fin 1) :
    shapeCast S500000x4x2x1 x shapeCasts_S500000x8_S500000x4x2x1 (ix4 n h b l) = x (ix2 n (ampD0 h b l)) := by
  refine shapeCast_apply x _ (ix4 n h b l) (ix2 n (ampD0 h b l)) ?_
  rw [Shape.rowMajor_val_two, Shape.rowMajor_val_four]
  show n.val * 8 + (h.val * 2 + b.val * 1 + l.val) = ((n.val * 4 + h.val) * 2 + b.val) * 1 + l.val
  omega

/-- Back to eight amplitudes per row: amplitude (h, b, l) is position (h, b, l). -/
theorem joinD0 (y : FVec Ideal S500000x4x2x1 .f32) (n : Fin 500000) (h : Fin 4) (b : Fin 2) (l : Fin 1) :
    shapeCast S500000x8 y shapeCasts_S500000x4x2x1_S500000x8 (ix2 n (ampD0 h b l)) = y (ix4 n h b l) := by
  refine shapeCast_apply y _ (ix2 n (ampD0 h b l)) (ix4 n h b l) ?_
  rw [Shape.rowMajor_val_two, Shape.rowMajor_val_four]
  show ((n.val * 4 + h.val) * 2 + b.val) * 1 + l.val = n.val * 8 + (h.val * 2 + b.val * 1 + l.val)
  omega

/-- The half of the state whose bit is 0. -/
theorem sliceLoD0 (x : FVec Ideal S500000x4x2x1 .f32) (n : Fin 500000) (h : Fin 4) (l : Fin 1) :
    extractStridedSlice S500000x4x1x1 ![0, 0, 0, 0] x slices_S500000x4x2x1_S500000x4x1x1_0_0_0_0 (ix4 n h 0 l) = x (ix4 n h 0 l) :=
  extractStridedSlice_apply _ x _ (ix4 n h 0 l) (ix4 n h 0 l) (fun c => by
    match c with
    | ⟨0, _⟩ => exact (Nat.zero_add _).symm
    | ⟨1, _⟩ => exact (Nat.zero_add _).symm
    | ⟨2, _⟩ => rfl
    | ⟨3, _⟩ => exact (Nat.zero_add _).symm)

/-- The half of the state whose bit is 1. -/
theorem sliceHiD0 (x : FVec Ideal S500000x4x2x1 .f32) (n : Fin 500000) (h : Fin 4) (l : Fin 1) :
    extractStridedSlice S500000x4x1x1 ![0, 0, 1, 0] x slices_S500000x4x2x1_S500000x4x1x1_0_0_1_0 (ix4 n h 0 l) = x (ix4 n h 1 l) :=
  extractStridedSlice_apply _ x _ (ix4 n h 0 l) (ix4 n h 1 l) (fun c => by
    match c with
    | ⟨0, _⟩ => exact (Nat.zero_add _).symm
    | ⟨1, _⟩ => exact (Nat.zero_add _).symm
    | ⟨2, _⟩ => rfl
    | ⟨3, _⟩ => exact (Nat.zero_add _).symm)

/-- Dropping the half's unit axis. -/
theorem squeezeD0 (x : FVec Ideal S500000x4x1x1 .f32) (n : Fin 500000) (h : Fin 4) (l : Fin 1) :
    shapeCast S500000x4x1 x shapeCasts_S500000x4x1x1_S500000x4x1 (ix3 n h l) = x (ix4 n h 0 l) := by
  refine shapeCast_apply x _ (ix3 n h l) (ix4 n h 0 l) ?_
  rw [Shape.rowMajor_val_three, Shape.rowMajor_val_four]
  show ((n.val * 4 + h.val) * 1 + 0) * 1 + l.val = (n.val * 4 + h.val) * 1 + l.val
  omega

/-- The row's cosine or sine spread over the half's positions. -/
theorem spreadD0 (x : FVec Ideal S500000x1x1 .f32) (n : Fin 500000) (h : Fin 4) (l : Fin 1) :
    broadcastInDim S500000x4x1 (![0, 1, 2] : Fin 3 → Fin 3) bcast_S500000x1x1_S500000x4x1_0_1_2 x (ix3 n h l) = x (ix3 n 0 0) :=
  broadcastInDim_apply _ _ x (ix3 n h l) (ix3 n 0 0) (fun c => by
    match c with
    | ⟨0, _⟩ => rfl
    | ⟨1, _⟩ => rfl
    | ⟨2, _⟩ => rfl)

/-- Giving the new half its unit axis back. -/
theorem unsqueezeD0 (x : FVec Ideal S500000x4x1 .f32) (n : Fin 500000) (h : Fin 4) (l : Fin 1) :
    broadcastInDim S500000x4x1x1 (![0, 1, 3] : Fin 3 → Fin 4) bcast_S500000x4x1_S500000x4x1x1_0_1_3 x (ix4 n h 0 l) = x (ix3 n h l) :=
  broadcastInDim_apply _ _ x (ix4 n h 0 l) (ix3 n h l) (fun c => by
    match c with
    | ⟨0, _⟩ => rfl
    | ⟨1, _⟩ => first | rfl | exact Fin.val_eq_zero _
    | ⟨2, _⟩ => first | rfl | exact Fin.val_eq_zero _)

/-- The two new halves stacked on the bit's axis: bit 0 reads the first. -/
theorem stackLoD0 (a b : FVec Ideal S500000x4x1x1 .f32) (n : Fin 500000) (h : Fin 4) (l : Fin 1) :
    concatenate S500000x4x2x1 2 [⟨S500000x4x1x1, a⟩, ⟨S500000x4x1x1, b⟩] concatenates_S500000x4x1x1_S500000x4x1x1_S500000x4x2x1_d2 (ix4 n h 0 l) = a (ix4 n h 0 l) :=
  concatenate_pair_apply_left (t := S500000x4x2x1) (s₁ := S500000x4x1x1) (s₂ := S500000x4x1x1) 2 a b _ (ix4 n h (0 : Fin 2) l) rfl (ix4 n h (0 : Fin 1) l) (fun c => by
    match c with
    | ⟨0, _⟩ => rfl
    | ⟨1, _⟩ => rfl
    | ⟨2, _⟩ => rfl
    | ⟨3, _⟩ => rfl)

/-- Bit 1 reads the second. -/
theorem stackHiD0 (a b : FVec Ideal S500000x4x1x1 .f32) (n : Fin 500000) (h : Fin 4) (l : Fin 1) :
    concatenate S500000x4x2x1 2 [⟨S500000x4x1x1, a⟩, ⟨S500000x4x1x1, b⟩] concatenates_S500000x4x1x1_S500000x4x1x1_S500000x4x2x1_d2 (ix4 n h 1 l) = b (ix4 n h 0 l) :=
  concatenate_pair_apply_right (t := S500000x4x2x1) (s₁ := S500000x4x1x1) (s₂ := S500000x4x1x1) 2 a b _ (ix4 n h (1 : Fin 2) l) rfl rfl (ix4 n h (0 : Fin 1) l) (fun c hc => by
    match c with
    | ⟨0, _⟩ => rfl
    | ⟨1, _⟩ => rfl
    | ⟨2, _⟩ => exact absurd rfl hc
    | ⟨3, _⟩ => rfl) (by rfl)

/-- The rotated state where the qubit's bit is 0: cos · (bit-0 amplitude) − sin · (bit-1 amplitude). -/
theorem ryD0_lo (psi : FVec Ideal S500000x8 .f32) (t : FVec Ideal S500000x1 .f32) (n : Fin 500000) (h : Fin 4) (l : Fin 1) :
    ryD0Fn psi t (ix2 n (ampD0 h 0 l))
      = Ideal.cos (t (ix2 n 0) * half) * psi (ix2 n (ampD0 h 0 l)) - Ideal.sin (t (ix2 n 0) * half) * psi (ix2 n (ampD0 h 1 l)) := by
  simp only [ryD0Fn, joinD0, stackLoD0, unsqueezeD0, subf_apply, mulf_apply, spreadD0, cosD_apply, sinD_apply,
    squeezeD0, sliceLoD0, sliceHiD0, splitD0]

/-- Where it is 1: sin · (bit-0 amplitude) + cos · (bit-1 amplitude). -/
theorem ryD0_hi (psi : FVec Ideal S500000x8 .f32) (t : FVec Ideal S500000x1 .f32) (n : Fin 500000) (h : Fin 4) (l : Fin 1) :
    ryD0Fn psi t (ix2 n (ampD0 h 1 l))
      = Ideal.sin (t (ix2 n 0) * half) * psi (ix2 n (ampD0 h 0 l)) + Ideal.cos (t (ix2 n 0) * half) * psi (ix2 n (ampD0 h 1 l)) := by
  simp only [ryD0Fn, joinD0, stackHiD0, unsqueezeD0, addf_apply, mulf_apply, spreadD0, cosD_apply, sinD_apply,
    squeezeD0, sliceLoD0, sliceHiD0, splitD0]

/-- A batched rotation stretch on qubit 0, read at row n and amplitude d, is the rotation of row n's state by row n's angle. -/
theorem ryD0Fn_apply (psi : FVec Ideal S500000x8 .f32) (t : FVec Ideal S500000x1 .f32) (n : Fin 500000) (d : Fin 8) :
    ryD0Fn psi t (ix2 n d) = rot0 (t (ix2 n 0)) (fun e => psi (ix2 n e)) d := by
  fin_cases d
  · exact ryD0_lo psi t n 0 0
  · exact ryD0_hi psi t n 0 0
  · exact ryD0_lo psi t n 1 0
  · exact ryD0_hi psi t n 1 0
  · exact ryD0_lo psi t n 2 0
  · exact ryD0_hi psi t n 2 0
  · exact ryD0_lo psi t n 3 0
  · exact ryD0_hi psi t n 3 0

end Cert.Quanv.Ref

end
-- ==== Proof.RefRotD1.lean ====
/-
  The reference's batched rotation on qubit 1, read at a row and an amplitude: the state's eight amplitudes are split
  as (high part, the qubit's bit, low part), the two halves are mixed by the row's cosine and sine, and stacked back.
-/
import proofs.«180459_j52956946760354_2_alg».proof.Proof.RefFns
import proofs.«180459_j52956946760354_2_alg».proof.Proof.Spec
import Idealize.ShloMosaic.Lib.Pipeline.Value
import proofs.«180459_j52956946760354_2_alg».proof.Proof.RefRotAngleD

set_option pp.maxSteps 5000
set_option pp.deepTerms false

noncomputable section

namespace Cert.Quanv.Ref

open Cert.ReferenceIdeal Cert.ReferenceIdeal.Facts₀ Cert.ReferenceIdeal.Facts Cert.Quanv Cert.Quanv.Ref Idealize.ShloMosaic Idealize.ShloMosaic.ValueIdx

variable [Cert.ReferenceIdeal.Facts]

/-- Amplitude index from its three parts for a rotation on qubit 1: high part h, the qubit's bit b, low part l. -/
def ampD1 (h : Fin 2) (b : Fin 2) (l : Fin 2) : Fin 8 :=
  ⟨h.val * 4 + b.val * 2 + l.val, by have := h.isLt; have := b.isLt; have := l.isLt; omega⟩

/-- The state array with the qubit's bit as an axis of its own reads the amplitude the three parts name. -/
theorem splitD1 (x : FVec Ideal S500000x8 .f32) (n : Fin 500000) (h : Fin 2) (b : Fin 2) (l : Fin 2) :
    shapeCast S500000x2x2x2 x shapeCasts_S500000x8_S500000x2x2x2 (ix4 n h b l) = x (ix2 n (ampD1 h b l)) := by
  refine shapeCast_apply x _ (ix4 n h b l) (ix2 n (ampD1 h b l)) ?_
  rw [Shape.rowMajor_val_two, Shape.rowMajor_val_four]
  show n.val * 8 + (h.val * 4 + b.val * 2 + l.val) = ((n.val * 2 + h.val) * 2 + b.val) * 2 + l.val
  omega

/-- Back to eight amplitudes per row: amplitude (h, b, l) is position (h, b, l). -/
theorem joinD1 (y : FVec Ideal S500000x2x2x2 .f32) (n : Fin 500000) (h : Fin 2) (b : Fin 2) (l : Fin 2) :
    shapeCast S500000x8 y shapeCasts_S500000x2x2x2_S500000x8 (ix2 n (ampD1 h b l)) = y (ix4 n h b l) := by
  refine shapeCast_apply y _ (ix2 n (ampD1 h b l)) (ix4 n h b l) ?_
  rw [Shape.rowMajor_val_two, Shape.rowMajor_val_four]
  show ((n.val * 2 + h.val) * 2 + b.val) * 2 + l.val = n.val * 8 + (h.val * 4 + b.val * 2 + l.val)
  omega

/-- The half of the state whose bit is 0. -/
theorem sliceLoD1 (x : FVec Ideal S500000x2x2x2 .f32) (n : Fin 500000) (h : Fin 2) (l : Fin 2) :
    extractStridedSlice S500000x2x1x2 ![0, 0, 0, 0] x slices_S500000x2x2x2_S500000x2x1x2_0_0_0_0 (ix4 n h 0 l) = x (ix4 n h 0 l) :=
  extractStridedSlice_apply _ x _ (ix4 n h 0 l) (ix4 n h 0 l) (fun c => by
    match c with
    | ⟨0, _⟩ => exact (Nat.zero_add _).symm
    | ⟨1, _⟩ => exact (Nat.zero_add _).symm
    | ⟨2, _⟩ => rfl
    | ⟨3, _⟩ => exact (Nat.zero_add _).symm)

/-- The half of the state whose bit is 1. -/
theorem sliceHiD1 (x : FVec Ideal S500000x2x2x2 .f32) (n : Fin 500000) (h : Fin 2) (l : Fin 2) :
    extractStridedSlice S500000x2x1x2 ![0, 0, 1, 0] x slices_S500000x2x2x2_S500000x2x1x2_0_0_1_0 (ix4 n h 0 l) = x (ix4 n h 1 l) :=
  extractStridedSlice_apply _ x _ (ix4 n h 0 l) (ix4 n h 1 l) (fun c => by
    match c with
    | ⟨0, _⟩ => exact (Nat.zero_add _).symm
    | ⟨1, _⟩ => exact (Nat.zero_add _).symm
    | ⟨2, _⟩ => rfl
    | ⟨3, _⟩ => exact (Nat.zero_add _).symm)

/-- Dropping the half's unit axis. -/
theorem squeezeD1 (x : FVec Ideal S500000x2x1x2 .f32) (n : Fin 500000) (h : Fin 2) (l : Fin 2) :
    shapeCast S500000x2x2 x shapeCasts_S500000x2x1x2_S500000x2x2 (ix3 n h l) = x (ix4 n h 0 l) := by
  refine shapeCast_apply x _ (ix3 n h l) (ix4 n h 0 l) ?_
  rw [Shape.rowMajor_val_three, Shape.rowMajor_val_four]
  show ((n.val * 2 + h.val) * 1 + 0) * 2 + l.val = (n.val * 2 + h.val) * 2 + l.val
  omega

/-- The row's cosine or sine spread over the half's positions. -/
theorem spreadD1 (x : FVec Ideal S500000x1x1 .f32) (n : Fin 500000) (h : Fin 2) (l : Fin 2) :
    broadcastInDim S500000x2x2 (![0, 1, 2] : Fin 3 → Fin 3) bcast_S500000x1x1_S500000x2x2_0_1_2 x (ix3 n h l) = x (ix3 n 0 0) :=
  broadcastInDim_apply _ _ x (ix3 n h l) (ix3 n 0 0) (fun c => by
    match c with
    | ⟨0, _⟩ => rfl
    | ⟨1, _⟩ => rfl
    | ⟨2, _⟩ => rfl)

/-- Giving the new half its unit axis back. -/
theorem unsqueezeD1 (x : FVec Ideal S500000x2x2 .f32) (n : Fin 500000) (h : Fin 2) (l : Fin 2) :
    broadcastInDim S500000x2x1x2 (![0, 1, 3] : Fin 3 → Fin 4) bcast_S500000x2x2_S500000x2x1x2_0_1_3 x (ix4 n h 0 l) = x (ix3 n h l) :=
  broadcastInDim_apply _ _ x (ix4 n h 0 l) (ix3 n h l) (fun c => by
    match c with
    | ⟨0, _⟩ => rfl
    | ⟨1, _⟩ => first | rfl | exact Fin.val_eq_zero _
    | ⟨2, _⟩ => first | rfl | exact Fin.val_eq_zero _)

/-- The two new halves stacked on the bit's axis: bit 0 reads the first. -/
theorem stackLoD1 (a b : FVec Ideal S500000x2x1x2 .f32) (n : Fin 500000) (h : Fin 2) (l : Fin 2) :
    concatenate S500000x2x2x2 2 [⟨S500000x2x1x2, a⟩, ⟨S500000x2x1x2, b⟩] concatenates_S500000x2x1x2_S500000x2x1x2_S500000x2x2x2_d2 (ix4 n h 0 l) = a (ix4 n h 0 l) :=
  concatenate_pair_apply_left (t := S500000x2x2x2) (s₁ := S500000x2x1x2) (s₂ := S500000x2x1x2) 2 a b _ (ix4 n h (0 : Fin 2) l) rfl (ix4 n h (0 : Fin 1) l) (fun c => by
    match c with
    | ⟨0, _⟩ => rfl
    | ⟨1, _⟩ => rfl
    | ⟨2, _⟩ => rfl
    | ⟨3, _⟩ => rfl)

/-- Bit 1 reads the second. -/
theorem stackHiD1 (a b : FVec Ideal S500000x2x1x2 .f32) (n : Fin 500000) (h : Fin 2) (l : Fin 2) :
    concatenate S500000x2x2x2 2 [⟨S500000x2x1x2, a⟩, ⟨S500000x2x1x2, b⟩] concatenates_S500000x2x1x2_S500000x2x1x2_S500000x2x2x2_d2 (ix4 n h 1 l) = b (ix4 n h 0 l) :=
  concatenate_pair_apply_right (t := S500000x2x2x2) (s₁ := S500000x2x1x2) (s₂ := S500000x2x1x2) 2 a b _ (ix4 n h (1 : Fin 2) l) rfl rfl (ix4 n h (0 : Fin 1) l) (fun c hc => by
    match c with
    | ⟨0, _⟩ => rfl
    | ⟨1, _⟩ => rfl
    | ⟨2, _⟩ => exact absurd rfl hc
    | ⟨3, _⟩ => rfl) (by rfl)

/-- The rotated state where the qubit's bit is 0: cos · (bit-0 amplitude) − sin · (bit-1 amplitude). -/
theorem ryD1_lo (psi : FVec Ideal S500000x8 .f32) (t : FVec Ideal S500000x1 .f32) (n : Fin 500000) (h : Fin 2) (l : Fin 2) :
    ryD1Fn psi t (ix2 n (ampD1 h 0 l))
      = Ideal.cos (t (ix2 n 0) * half) * psi (ix2 n (ampD1 h 0 l)) - Ideal.sin (t (ix2 n 0) * half) * psi (ix2 n (ampD1 h 1 l)) := by
  simp only [ryD1Fn, joinD1, stackLoD1, unsqueezeD1, subf_apply, mulf_apply, spreadD1, cosD_apply, sinD_apply,
    squeezeD1, sliceLoD1, sliceHiD1, splitD1]

/-- Where it is 1: sin · (bit-0 amplitude) + cos · (bit-1 amplitude). -/
theorem ryD1_hi (psi : FVec Ideal S500000x8 .f32) (t : FVec Ideal S500000x1 .f32) (n : Fin 500000) (h : Fin 2) (l : Fin 2) :
    ryD1Fn psi t (ix2 n (ampD1 h 1 l))
      = Ideal.sin (t (ix2 n 0) * half) * psi (ix2 n (ampD1 h 0 l)) + Ideal.cos (t (ix2 n 0) * half) * psi (ix2 n (ampD1 h 1 l)) := by
  simp only [ryD1Fn, joinD1, stackHiD1, unsqueezeD1, addf_apply, mulf_apply, spreadD1, cosD_apply, sinD_apply,
    squeezeD1, sliceLoD1, sliceHiD1, splitD1]

/-- A batched rotation stretch on qubit 1, read at row n and amplitude d, is the rotation of row n's state by row n's angle. -/
theorem ryD1Fn_apply (psi : FVec Ideal S500000x8 .f32) (t : FVec Ideal S500000x1 .f32) (n : Fin 500000) (d : Fin 8) :
    ryD1Fn psi t (ix2 n d) = rot1 (t (ix2 n 0)) (fun e => psi (ix2 n e)) d := by
  fin_cases d
  · exact ryD1_lo psi t n 0 0
  · exact ryD1_lo psi t n 0 1
  · exact ryD1_hi psi t n 0 0
  · exact ryD1_hi psi t n 0 1
  · exact ryD1_lo psi t n 1 0
  · exact ryD1_lo psi t n 1 1
  · exact ryD1_hi psi t n 1 0
  · exact ryD1_hi psi t n 1 1

end Cert.Quanv.Ref

end
-- ==== Proof.RefRotD2.lean ====
/-
  The reference's batched rotation on qubit 2, read at a row and an amplitude: the state's eight amplitudes are split
  as (high part, the qubit's bit, low part), the two halves are mixed by the row's cosine and sine, and stacked back.
-/
import proofs.«180459_j52956946760354_2_alg».proof.Proof.RefFns
import proofs.«180459_j52956946760354_2_alg».proof.Proof.Spec
import Idealize.ShloMosaic.Lib.Pipeline.Value
import proofs.«180459_j52956946760354_2_alg».proof.Proof.RefRotAngleD

set_option pp.maxSteps 5000
set_option pp.deepTerms false

noncomputable section

namespace Cert.Quanv.Ref

open Cert.ReferenceIdeal Cert.ReferenceIdeal.Facts₀ Cert.ReferenceIdeal.Facts Cert.Quanv Cert.Quanv.Ref Idealize.ShloMosaic Idealize.ShloMosaic.ValueIdx

variable [Cert.ReferenceIdeal.Facts]

/-- Amplitude index from its three parts for a rotation on qubit 2: high part h, the qubit's bit b, low part l. -/
def ampD2 (h : Fin 1) (b : Fin 2) (l : Fin 4) : Fin 8 :=
  ⟨h.val * 8 + b.val * 4 + l.val, by have := h.isLt; have := b.isLt; have := l.isLt; omega⟩

/-- The state array with the qubit's bit as an axis of its own reads the amplitude the three parts name. -/
theorem splitD2 (x : FVec Ideal S500000x8 .f32) (n : Fin 500000) (h : Fin 1) (b : Fin 2) (l : Fin 4) :
    shapeCast S500000x1x2x4 x shapeCasts_S500000x8_S500000x1x2x4 (ix4 n h b l) = x (ix2 n (ampD2 h b l)) := by
  refine shapeCast_apply x _ (ix4 n h b l) (ix2 n (ampD2 h b l)) ?_
  rw [Shape.rowMajor_val_two, Shape.rowMajor_val_four]
  show n.val * 8 + (h.val * 8 + b.val * 4 + l.val) = ((n.val * 1 + h.val) * 2 + b.val) * 4 + l.val
  omega

/-- Back to eight amplitudes per row: amplitude (h, b, l) is position (h, b, l). -/
theorem joinD2 (y : FVec Ideal S500000x1x2x4 .f32) (n : Fin 500000) (h : Fin 1) (b : Fin 2) (l : Fin 4) :
    shapeCast S500000x8 y shapeCasts_S500000x1x2x4_S500000x8 (ix2 n (ampD2 h b l)) = y (ix4 n h b l) := by
  refine shapeCast_apply y _ (ix2 n (ampD2 h b l)) (ix4 n h b l) ?_
  rw [Shape.rowMajor_val_two, Shape.rowMajor_val_four]
  show ((n.val * 1 + h.val) * 2 + b.val) * 4 + l.val = n.val * 8 + (h.val * 8 + b.val * 4 + l.val)
  omega

/-- The half of the state whose bit is 0. -/
theorem sliceLoD2 (x : FVec Ideal S500000x1x2x4 .f32) (n : Fin 500000) (h : Fin 1) (l : Fin 4) :
    extractStridedSlice S500000x1x1x4 ![0, 0, 0, 0] x slices_S500000x1x2x4_S500000x1x1x4_0_0_0_0 (ix4 n h 0 l) = x (ix4 n h 0 l) :=
  extractStridedSlice_apply _ x _ (ix4 n h 0 l) (ix4 n h 0 l) (fun c => by
    match c with
    | ⟨0, _⟩ => exact (Nat.zero_add _).symm
    | ⟨1, _⟩ => exact (Nat.zero_add _).symm
    | ⟨2, _⟩ => rfl
    | ⟨3, _⟩ => exact (Nat.zero_add _).symm)

/-- The half of the state whose bit is 1. -/
theorem sliceHiD2 (x : FVec Ideal S500000x1x2x4 .f32) (n : Fin 500000) (h : Fin 1) (l : Fin 4) :
    extractStridedSlice S500000x1x1x4 ![0, 0, 1, 0] x slices_S500000x1x2x4_S500000x1x1x4_0_0_1_0 (ix4 n h 0 l) = x (ix4 n h 1 l) :=
  extractStridedSlice_apply _ x _ (ix4 n h 0 l) (ix4 n h 1 l) (fun c => by
    match c with
    | ⟨0, _⟩ => exact (Nat.zero_add _).symm
    | ⟨1, _⟩ => exact (Nat.zero_add _).symm
    | ⟨2, _⟩ => rfl
    | ⟨3, _⟩ => exact (Nat.zero_add _).symm)

/-- Dropping the half's unit axis. -/
theorem squeezeD2 (x : FVec Ideal S500000x1x1x4 .f32) (n : Fin 500000) (h : Fin 1) (l : Fin 4) :
    shapeCast S500000x1x4 x shapeCasts_S500000x1x1x4_S500000x1x4 (ix3 n h l) = x (ix4 n h 0 l) := by
  refine shapeCast_apply x _ (ix3 n h l) (ix4 n h 0 l) ?_
  rw [Shape.rowMajor_val_three, Shape.rowMajor_val_four]
  show ((n.val * 1 + h.val) * 1 + 0) * 4 + l.val = (n.val * 1 + h.val) * 4 + l.val
  omega

/-- The row's cosine or sine spread over the half's positions. -/
theorem spreadD2 (x : FVec Ideal S500000x1x1 .f32) (n : Fin 500000) (h : Fin 1) (l : Fin 4) :
    broadcastInDim S500000x1x4 (![0, 1, 2] : Fin 3 → Fin 3) bcast_S500000x1x1_S500000x1x4_0_1_2 x (ix3 n h l) = x (ix3 n 0 0) :=
  broadcastInDim_apply _ _ x (ix3 n h l) (ix3 n 0 0) (fun c => by
    match c with
    | ⟨0, _⟩ => rfl
    | ⟨1, _⟩ => rfl
    | ⟨2, _⟩ => rfl)

/-- Giving the new half its unit axis back. -/
theorem unsqueezeD2 (x : FVec Ideal S500000x1x4 .f32) (n : Fin 500000) (h : Fin 1) (l : Fin 4) :
    broadcastInDim S500000x1x1x4 (![0, 1, 3] : Fin 3 → Fin 4) bcast_S500000x1x4_S500000x1x1x4_0_1_3 x (ix4 n h 0 l) = x (ix3 n h l) :=
  broadcastInDim_apply _ _ x (ix4 n h 0 l) (ix3 n h l) (fun c => by
    match c with
    | ⟨0, _⟩ => rfl
    | ⟨1, _⟩ => first | rfl | exact Fin.val_eq_zero _
    | ⟨2, _⟩ => first | rfl | exact Fin.val_eq_zero _)

/-- The two new halves stacked on the bit's axis: bit 0 reads the first. -/
theorem stackLoD2 (a b : FVec Ideal S500000x1x1x4 .f32) (n : Fin 500000) (h : Fin 1) (l : Fin 4) :
    concatenate S500000x1x2x4 2 [⟨S500000x1x1x4, a⟩, ⟨S500000x1x1x4, b⟩] concatenates_S500000x1x1x4_S500000x1x1x4_S500000x1x2x4_d2 (ix4 n h 0 l) = a (ix4 n h 0 l) :=
  concatenate_pair_apply_left (t := S500000x1x2x4) (s₁ := S500000x1x1x4) (s₂ := S500000x1x1x4) 2 a b _ (ix4 n h (0 : Fin 2) l) rfl (ix4 n h (0 : Fin 1) l) (fun c => by
    match c with
    | ⟨0, _⟩ => rfl
    | ⟨1, _⟩ => rfl
    | ⟨2, _⟩ => rfl
    | ⟨3, _⟩ => rfl)

/-- Bit 1 reads the second. -/
theorem stackHiD2 (a b : FVec Ideal S500000x1x1x4 .f32) (n : Fin 500000) (h : Fin 1) (l : Fin 4) :
    concatenate S500000x1x2x4 2 [⟨S500000x1x1x4, a⟩, ⟨S500000x1x1x4, b⟩] concatenates_S500000x1x1x4_S500000x1x1x4_S500000x1x2x4_d2 (ix4 n h 1 l) = b (ix4 n h 0 l) :=
  concatenate_pair_apply_right (t := S500000x1x2x4) (s₁ := S500000x1x1x4) (s₂ := S500000x1x1x4) 2 a b _ (ix4 n h (1 : Fin 2) l) rfl rfl (ix4 n h (0 : Fin 1) l) (fun c hc => by
    match c with
    | ⟨0, _⟩ => rfl
    | ⟨1, _⟩ => rfl
    | ⟨2, _⟩ => exact absurd rfl hc
    | ⟨3, _⟩ => rfl) (by rfl)

/-- The rotated state where the qubit's bit is 0: cos · (bit-0 amplitude) − sin · (bit-1 amplitude). -/
theorem ryD2_lo (psi : FVec Ideal S500000x8 .f32) (t : FVec Ideal S500000x1 .f32) (n : Fin 500000) (h : Fin 1) (l : Fin 4) :
    ryD2Fn psi t (ix2 n (ampD2 h 0 l))
      = Ideal.cos (t (ix2 n 0) * half) * psi (ix2 n (ampD2 h 0 l)) - Ideal.sin (t (ix2 n 0) * half) * psi (ix2 n (ampD2 h 1 l)) := by
  simp only [ryD2Fn, joinD2, stackLoD2, unsqueezeD2, subf_apply, mulf_apply, spreadD2, cosD_apply, sinD_apply,
    squeezeD2, sliceLoD2, sliceHiD2, splitD2]

/-- Where it is 1: sin · (bit-0 amplitude) + cos · (bit-1 amplitude). -/
theorem ryD2_hi (psi : FVec Ideal S500000x8 .f32) (t : FVec Ideal S500000x1 .f32) (n : Fin 500000) (h : Fin 1) (l : Fin 4) :
    ryD2Fn psi t (ix2 n (ampD2 h 1 l))
      = Ideal.sin (t (ix2 n 0) * half) * psi (ix2 n (ampD2 h 0 l)) + Ideal.cos (t (ix2 n 0) * half) * psi (ix2 n (ampD2 h 1 l)) := by
  simp only [ryD2Fn, joinD2, stackHiD2, unsqueezeD2, addf_apply, mulf_apply, spreadD2, cosD_apply, sinD_apply,
    squeezeD2, sliceLoD2, sliceHiD2, splitD2]

/-- A batched rotation stretch on qubit 2, read at row n and amplitude d, is the rotation of row n's state by row n's angle. -/
theorem ryD2Fn_apply (psi : FVec Ideal S500000x8 .f32) (t : FVec Ideal S500000x1 .f32) (n : Fin 500000) (d : Fin 8) :
    ryD2Fn psi t (ix2 n d) = rot2 (t (ix2 n 0)) (fun e => psi (ix2 n e)) d := by
  fin_cases d
  · exact ryD2_lo psi t n 0 0
  · exact ryD2_lo psi t n 0 1
  · exact ryD2_lo psi t n 0 2
  · exact ryD2_lo psi t n 0 3
  · exact ryD2_hi psi t n 0 0
  · exact ryD2_hi psi t n 0 1
  · exact ryD2_hi psi t n 0 2
  · exact ryD2_hi psi t n 0 3

end Cert.Quanv.Ref

end
-- ==== Proof.RefRotGather.lean ====
/-
  The reference's gathers along the amplitude axis, read at an index: the operand at the amplitude the index vector
  names there, read signed and clamped.
-/
import proofs.«180459_j52956946760354_2_alg».proof.Proof.RefFns
import proofs.«180459_j52956946760354_2_alg».proof.Proof.Spec
import Idealize.ShloMosaic.Lib.Pipeline.Value

set_option pp.maxSteps 5000
set_option pp.deepTerms false

noncomputable section

namespace Cert.Quanv.Ref

open Cert.ReferenceIdeal Cert.ReferenceIdeal.Facts₀ Cert.ReferenceIdeal.Facts Cert.Quanv Cert.Quanv.Ref Idealize.ShloMosaic Idealize.ShloMosaic.ValueIdx

variable [Cert.ReferenceIdeal.Facts]

/-- The batched gather along the amplitude axis read at (n, d): the operand at row n and at the amplitude the index
    vector holds at position d, read signed and clamped into [0, 7]. -/
theorem gatherD_apply (x : FVec Ideal S500000x8 .f32) (idx : IVec S8x1 32) (n : Fin 500000) (d e : Fin 8)
    (he : min (idx (ix2 d 0)).toInt.toNat 7 = e.val) :
    Host.gather gather_S500000x8_S8x1_S500000x8_0_1_n_n_1_1_5000001 x idx (ix2 n d) = x (ix2 n e) := by
  have m1 : (1 : Fin 2) ∈ (gather_S500000x8_S8x1_S500000x8_0_1_n_n_1_1_5000001).startIndexMap := List.mem_singleton.mpr rfl
  have c1 : (1 : Fin 2) ∈ (gather_S500000x8_S8x1_S500000x8_0_1_n_n_1_1_5000001).collapsedSliceDims := List.mem_singleton.mpr rfl
  have m0 : (0 : Fin 2) ∉ (gather_S500000x8_S8x1_S500000x8_0_1_n_n_1_1_5000001).startIndexMap :=
    fun h => absurd (List.mem_singleton.mp h) (by decide)
  have c0 : (0 : Fin 2) ∉ (gather_S500000x8_S8x1_S500000x8_0_1_n_n_1_1_5000001).collapsedSliceDims :=
    fun h => absurd (List.mem_singleton.mp h) (by decide)
  have k0 : (0 : Fin 2) ∈ (gather_S500000x8_S8x1_S500000x8_0_1_n_n_1_1_5000001).sKept :=
    (GatherDims.mem_sKept _ _).2 ⟨c0, List.not_mem_nil⟩
  have k1 : (1 : Fin 2) ∉ (gather_S500000x8_S8x1_S500000x8_0_1_n_n_1_1_5000001).sKept :=
    fun h => ((GatherDims.mem_sKept _ _).1 h).1 c1
  unfold Host.gather
  refine congrArg x (funext fun a => Fin.ext ?_)
  match a with
  | ⟨0, _⟩ =>
    show GatherDims.start gather_S500000x8_S8x1_S500000x8_0_1_n_n_1_1_5000001 (ix2 n d) idx (0 : Fin 2)
        + GatherDims.batchCoord gather_S500000x8_S8x1_S500000x8_0_1_n_n_1_1_5000001 (ix2 n d) (0 : Fin 2)
        + GatherDims.offCoord gather_S500000x8_S8x1_S500000x8_0_1_n_n_1_1_5000001 (ix2 n d) (0 : Fin 2) = n.val
    rw [GatherDims.batchCoord_eq_zero _ _ _ List.not_mem_nil]
    unfold GatherDims.start GatherDims.offCoord
    rw [dif_neg m0, dif_pos k0]
    show 0 + 0 + n.val = n.val
    omega
  | ⟨1, _⟩ =>
    show GatherDims.start gather_S500000x8_S8x1_S500000x8_0_1_n_n_1_1_5000001 (ix2 n d) idx (1 : Fin 2)
        + GatherDims.batchCoord gather_S500000x8_S8x1_S500000x8_0_1_n_n_1_1_5000001 (ix2 n d) (1 : Fin 2)
        + GatherDims.offCoord gather_S500000x8_S8x1_S500000x8_0_1_n_n_1_1_5000001 (ix2 n d) (1 : Fin 2) = e.val
    rw [GatherDims.batchCoord_eq_zero _ _ _ List.not_mem_nil, GatherDims.offCoord_eq_zero _ _ _ k1]
    simp only [Nat.add_zero]
    unfold GatherDims.start
    rw [dif_pos m1]
    have hsi : (gather_S500000x8_S8x1_S500000x8_0_1_n_n_1_1_5000001).siIdx (ix2 n d)
        ⟨List.idxOf (1 : Fin 2) (gather_S500000x8_S8x1_S500000x8_0_1_n_n_1_1_5000001).startIndexMap,
          List.idxOf_lt_length_iff.2 m1⟩ = ix2 d 0 := by
      funext b; refine Fin.ext ?_
      match b with
      | ⟨0, _⟩ => rfl
      | ⟨1, _⟩ => rfl
    rw [hsi]
    exact he

/-- The same for a single state of eight amplitudes. -/
theorem gatherW_apply (x : FVec Ideal S8 .f32) (idx : IVec S8x1 32) (d e : Fin 8)
    (he : min (idx (ix2 d 0)).toInt.toNat 7 = e.val) :
    Host.gather gather_S8_S8x1_S8_n_0_n_n_0_1_1 x idx (ix1 d) = x (ix1 e) := by
  have m0 : (0 : Fin 1) ∈ (gather_S8_S8x1_S8_n_0_n_n_0_1_1).startIndexMap := List.mem_singleton.mpr rfl
  have c0 : (0 : Fin 1) ∈ (gather_S8_S8x1_S8_n_0_n_n_0_1_1).collapsedSliceDims := List.mem_singleton.mpr rfl
  have k0 : (0 : Fin 1) ∉ (gather_S8_S8x1_S8_n_0_n_n_0_1_1).sKept :=
    fun h => ((GatherDims.mem_sKept _ _).1 h).1 c0
  unfold Host.gather
  refine congrArg x (funext fun a => Fin.ext ?_)
  match a with
  | ⟨0, _⟩ =>
    show GatherDims.start gather_S8_S8x1_S8_n_0_n_n_0_1_1 (ix1 d) idx (0 : Fin 1)
        + GatherDims.batchCoord gather_S8_S8x1_S8_n_0_n_n_0_1_1 (ix1 d) (0 : Fin 1)
        + GatherDims.offCoord gather_S8_S8x1_S8_n_0_n_n_0_1_1 (ix1 d) (0 : Fin 1) = e.val
    rw [GatherDims.batchCoord_eq_zero _ _ _ List.not_mem_nil, GatherDims.offCoord_eq_zero _ _ _ k0]
    simp only [Nat.add_zero]
    unfold GatherDims.start
    rw [dif_pos m0]
    have hsi : (gather_S8_S8x1_S8_n_0_n_n_0_1_1).siIdx (ix1 d)
        ⟨List.idxOf (0 : Fin 1) (gather_S8_S8x1_S8_n_0_n_n_0_1_1).startIndexMap,
          List.idxOf_lt_length_iff.2 m0⟩ = ix2 d 0 := by
      funext b; refine Fin.ext ?_
      match b with
      | ⟨0, _⟩ => rfl
      | ⟨1, _⟩ => rfl
    rw [hsi]
    exact he

end Cert.Quanv.Ref

end
-- ==== Proof.RefRotCx.lean ====
/-
  The reference's controlled-NOT stretches read at an index: the permutation's index vector is computed on an iota of
  eight by shifts and masks, and the gather along the amplitude axis reads the state through it.
-/
import proofs.«180459_j52956946760354_2_alg».proof.Proof.RefFns
import proofs.«180459_j52956946760354_2_alg».proof.Proof.Spec
import Idealize.ShloMosaic.Lib.Pipeline.Value
import proofs.«180459_j52956946760354_2_alg».proof.Proof.RefRotGather

set_option pp.maxSteps 5000
set_option pp.deepTerms false

noncomputable section

namespace Cert.Quanv.Ref

open Cert.ReferenceIdeal Cert.ReferenceIdeal.Facts₀ Cert.ReferenceIdeal.Facts Cert.Quanv Cert.Quanv.Ref Idealize.ShloMosaic Idealize.ShloMosaic.ValueIdx

variable [Cert.ReferenceIdeal.Facts]

/-- The index word a controlled-NOT's permutation holds at position d: d with the target's bit flipped when the
    control's bit is set (shift right by the control, mask, shift left by the target, exclusive or), then made
    non-negative the way an index is normalised (add 8 when negative). -/
def cxWord (c tg : BitVec 32) (d : Fin 8) : BitVec 32 :=
  Scalar.select
    (IntOp.cmpi .slt (IntOp.xori (BitVec.ofNat 32 d.val)
      (IntOp.shli .host (IntOp.andi (IntOp.shrsi .host (BitVec.ofNat 32 d.val) c) 1#32) tg)) 0#32)
    (IntOp.addi (IntOp.xori (BitVec.ofNat 32 d.val)
      (IntOp.shli .host (IntOp.andi (IntOp.shrsi .host (BitVec.ofNat 32 d.val) c) 1#32) tg)) 8#32)
    (IntOp.xori (BitVec.ofNat 32 d.val)
      (IntOp.shli .host (IntOp.andi (IntOp.shrsi .host (BitVec.ofNat 32 d.val) c) 1#32) tg))

/-- Control 0, target 1: positions 1 ↔ 3 and 5 ↔ 7 are exchanged. -/
def perm01 : Fin 8 → Fin 8 := ![0, 3, 2, 1, 4, 7, 6, 5]
/-- Control 1, target 2: positions 2 ↔ 6 and 3 ↔ 7 are exchanged. -/
def perm12 : Fin 8 → Fin 8 := ![0, 1, 6, 7, 4, 5, 2, 3]

theorem cxWord_01 : ∀ d : Fin 8, min (cxWord 0#32 1#32 d).toInt.toNat 7 = (perm01 d).val := by decide
theorem cxWord_12 : ∀ d : Fin 8, min (cxWord 1#32 2#32 d).toInt.toNat 7 = (perm12 d).val := by decide

/-- The permutation's index vector, as the stretches compute it on an iota of eight, read at (d, 0). -/
theorem permIdx_apply (c tg : BitVec 32) (d : Fin 8) (z : Fin 1) :
    (broadcastInDim S8x1 (![0] : Fin 1 → Fin 2) bcast_S8_S8x1_0
      (select
        (cmpi .slt
          (xori (iotaInDim S8 32 0)
            (Host.shli (andi (Host.shrsi (iotaInDim S8 32 0) (broadcastInDim S8 (![] : Fin 0 → Fin 1) bcast_S_S8 (constantI S_ 32 c)))
              (broadcastInDim S8 (![] : Fin 0 → Fin 1) bcast_S_S8 (constantI S_ 32 1#32)))
              (broadcastInDim S8 (![] : Fin 0 → Fin 1) bcast_S_S8 (constantI S_ 32 tg))))
          (broadcastInDim S8 (![] : Fin 0 → Fin 1) bcast_S_S8 (constantI S_ 32 0#32)))
        (addi
          (xori (iotaInDim S8 32 0)
            (Host.shli (andi (Host.shrsi (iotaInDim S8 32 0) (broadcastInDim S8 (![] : Fin 0 → Fin 1) bcast_S_S8 (constantI S_ 32 c)))
              (broadcastInDim S8 (![] : Fin 0 → Fin 1) bcast_S_S8 (constantI S_ 32 1#32)))
              (broadcastInDim S8 (![] : Fin 0 → Fin 1) bcast_S_S8 (constantI S_ 32 tg))))
          (broadcastInDim S8 (![] : Fin 0 → Fin 1) bcast_S_S8 (constantI S_ 32 8#32)))
        (xori (iotaInDim S8 32 0)
          (Host.shli (andi (Host.shrsi (iotaInDim S8 32 0) (broadcastInDim S8 (![] : Fin 0 → Fin 1) bcast_S_S8 (constantI S_ 32 c)))
            (broadcastInDim S8 (![] : Fin 0 → Fin 1) bcast_S_S8 (constantI S_ 32 1#32)))
            (broadcastInDim S8 (![] : Fin 0 → Fin 1) bcast_S_S8 (constantI S_ 32 tg))))))
      (ix2 d z) = cxWord c tg d := by
  refine (broadcastInDim_apply _ _ _ (ix2 d z) (ix1 d) ?_).trans ?_
  · intro a; match a with | ⟨0, _⟩ => rfl
  · rfl

/-- The batched controlled-NOT stretch read at row n and amplitude d: the permutation of row n's amplitudes. -/
theorem cxDaFn_apply (psi : FVec Ideal S500000x8 .f32) (n : Fin 500000) (d : Fin 8) :
    cxDaFn psi (ix2 n d) = cx01 (fun e => psi (ix2 n e)) d := by
  unfold cxDaFn
  refine (gatherD_apply psi _ n d (perm01 d) ?_).trans ?_
  · rw [permIdx_apply]; exact cxWord_01 d
  · fin_cases d <;> rfl

/-- The batched controlled-NOT stretch read at row n and amplitude d: the permutation of row n's amplitudes. -/
theorem cxDbFn_apply (psi : FVec Ideal S500000x8 .f32) (n : Fin 500000) (d : Fin 8) :
    cxDbFn psi (ix2 n d) = cx12 (fun e => psi (ix2 n e)) d := by
  unfold cxDbFn
  refine (gatherD_apply psi _ n d (perm12 d) ?_).trans ?_
  · rw [permIdx_apply]; exact cxWord_12 d
  · fin_cases d <;> rfl

/-- The controlled-NOT stretch on a single state read at amplitude d: the permutation of its amplitudes. -/
theorem cxWaFn_apply (psi : FVec Ideal S8 .f32) (d : Fin 8) :
    cxWaFn psi (ix1 d) = cx01 (fun e => psi (ix1 e)) d := by
  unfold cxWaFn
  refine (gatherW_apply psi _ d (perm01 d) ?_).trans ?_
  · rw [permIdx_apply]; exact cxWord_01 d
  · fin_cases d <;> rfl

/-- The controlled-NOT stretch on a single state read at amplitude d: the permutation of its amplitudes. -/
theorem cxWbFn_apply (psi : FVec Ideal S8 .f32) (d : Fin 8) :
    cxWbFn psi (ix1 d) = cx12 (fun e => psi (ix1 e)) d := by
  unfold cxWbFn
  refine (gatherW_apply psi _ d (perm12 d) ?_).trans ?_
  · rw [permIdx_apply]; exact cxWord_12 d
  · fin_cases d <;> rfl

end Cert.Quanv.Ref

end
-- ==== Proof.RefMathFinal.lean ====
/-
  The reference's result array is the spec's array G: the rotation and entangling stretches compute the spec's gates,
  and with them the composed circuits, the accumulation and the final layout give G.
-/
import proofs.«180459_j52956946760354_2_alg».proof.Proof.RefMath
import proofs.«180459_j52956946760354_2_alg».proof.Proof.RefRotInit
import proofs.«180459_j52956946760354_2_alg».proof.Proof.RefRotW0
import proofs.«180459_j52956946760354_2_alg».proof.Proof.RefRotW1
import proofs.«180459_j52956946760354_2_alg».proof.Proof.RefRotW2
import proofs.«180459_j52956946760354_2_alg».proof.Proof.RefRotD0
import proofs.«180459_j52956946760354_2_alg».proof.Proof.RefRotD1
import proofs.«180459_j52956946760354_2_alg».proof.Proof.RefRotD2
import proofs.«180459_j52956946760354_2_alg».proof.Proof.RefRotCx

set_option pp.maxSteps 5000
set_option pp.deepTerms false

noncomputable section

namespace Cert.Quanv.Ref

open Cert.ReferenceIdeal Cert.ReferenceIdeal.Facts₀ Cert.ReferenceIdeal.Facts Cert.Quanv Cert.Quanv.Ref Idealize.ShloMosaic Idealize.ShloMosaic.ValueIdx

variable [Cert.ReferenceIdeal.Facts]

/-- The reference computes the spec's array. -/
theorem rFin_eq (X : FVec Ideal S32x3x128x128 .f32) (W : FVec Ideal S3x9 .f32) : rFin (F := Ideal) X W = G X W :=
  rFin_eq_of ⟨psi0Fn_apply, ryW0Fn_apply, ryW1Fn_apply, ryW2Fn_apply, cxWaFn_apply, cxWbFn_apply, bpsiFn_apply,
    ryD0Fn_apply, ryD1Fn_apply, ryD2Fn_apply, cxDaFn_apply, cxDbFn_apply⟩ X W

end Cert.Quanv.Ref

end
-- ==== Proof.lean ====
/-
  The certificate's claims, assembled.

  Both idealized programs compute, for every image b, output channel j and position (h, w), the value of a simulated
  three-qubit circuit summed over the three input channels (Proof/Spec.lean's `G`): the kernel program because its
  pipeline writes back, block by block, the body's result on the zero-padded image and the weight states its host
  prologue prepares (Proof/KernFinal.lean); the reference because its straight line of host operations composes, stretch by
  stretch, to the same function (Proof/RefVal.lean, Proof/RefMath*.lean). The two differ only in how a channel's two
  squared amplitudes are added (one after the other, or as a sum against a 0/1 table), in a multiplication by a 0/1 mask
  against a zero padding, and in the layout of the intermediate arrays; none of this needs the inputs to be finite.
  The three frames: the two kernel programs' by the pipeline's frame run, the reference's by its run with the result
  dropped. The idealization rewrote no operation, so there is nothing to preserve.
-/
import proofs.«180459_j52956946760354_2_alg».proof.Defs
import proofs.«180459_j52956946760354_2_alg».proof.Proof.Gen.Kernel
import proofs.«180459_j52956946760354_2_alg».proof.Proof.Gen.KernelIdeal
import proofs.«180459_j52956946760354_2_alg».proof.Proof.Gen.ReferenceIdeal
import proofs.«180459_j52956946760354_2_alg».proof.Proof.Gen.Pre_finite_inputs
import proofs.«180459_j52956946760354_2_alg».proof.Proof.FrameKernelP
import proofs.«180459_j52956946760354_2_alg».proof.Proof.FrameKernelIdealP
import proofs.«180459_j52956946760354_2_alg».proof.Proof.KernFinal
import proofs.«180459_j52956946760354_2_alg».proof.Proof.RefVal
import proofs.«180459_j52956946760354_2_alg».proof.Proof.RefMathFinal
import Idealize.ShloMosaic.Adequacy
import Idealize.ShloMosaic.Init

noncomputable section

namespace Cert.Proof

open Idealize.ShloMosaic Idealize.SL.Sem Idealize.ShloMosaic.TcCoe

theorem frame_k : Cert.frame_Kernel := fun m ρ _ => Cert.Kernel.GenP.frame m ρ

theorem frame_ki : Cert.frame_KernelIdeal := fun m ρ _ => Cert.KernelIdeal.GenP.frame m ρ

/-- The reference's frame: its run with the result dropped; no operation writes an argument buffer. -/
theorem frame_ri : Cert.frame_ReferenceIdeal := fun m ρ _ =>
  (θ_run Cert.ReferenceIdeal.defs _ _).mono
    (fun r h c => ⟨(h c Cert.ReferenceIdeal.main_arg0).trans (Cert.Quanv.Ref.main_arg0_eq _),
      (h c Cert.ReferenceIdeal.main_arg1).trans (Cert.Quanv.Ref.main_arg1_eq _)⟩)
    (Cert.Quanv.Ref.run_main (F := Ideal) m ρ)

/-- Both idealized programs end with the specification's array of the (agreeing) arguments. -/
theorem algebraic : Cert.algebraic_KernelIdeal_ReferenceIdeal := by
  intro m ρ m' ρ' _ hagree
  refine ⟨fun c => Cert.Quanv.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Quanv.KFin.run m ρ, ?_⟩
  refine (θ_run Cert.ReferenceIdeal.defs _ _).mono (fun r h c => ⟨?_, ?_, ?_⟩)
    (Cert.Quanv.Ref.run_main (F := Ideal) m' ρ')
  · refine (h c Cert.ReferenceIdeal.main_v1662).trans ((Cert.Quanv.Ref.out_eq _).trans ?_)
    rw [Cert.Quanv.Ref.rFin_eq]
    show Cert.Quanv.G (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) = _
    rw [(hagree c).1, (hagree c).2]
  · exact (h c Cert.ReferenceIdeal.main_arg0).trans (Cert.Quanv.Ref.main_arg0_eq _)
  · exact (h c Cert.ReferenceIdeal.main_arg1).trans (Cert.Quanv.Ref.main_arg1_eq _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
